-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v207)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v207) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v433) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x2 : Shape := ⟨2, ![4096, 2]⟩
abbrev S167386 : Shape := ⟨1, ![167386]⟩
abbrev S2x128x2 : Shape := ⟨3, ![2, 128, 2]⟩
abbrev S2x128 : Shape := ⟨2, ![2, 128]⟩
abbrev S2x128x128 : Shape := ⟨3, ![2, 128, 128]⟩
abbrev S2x128x384 : Shape := ⟨3, ![2, 128, 384]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S2x128x2 : S_.BroadcastsInDim S2x128x2 (![] : Fin 0 → Fin S2x128x2.rank)
  reducesTo_S2x128x2_S_d0_1_2 : S2x128x2.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128x384 : S_.BroadcastsInDim S2x128x384 (![] : Fin 0 → Fin S2x128x384.rank)
  reducesTo_S2x128x384_S_d0_1_2 : S2x128x384.ReducesTo [0, 1, 2] S_
  bcast_S_S167386 : S_.BroadcastsInDim S167386 (![] : Fin 0 → Fin S167386.rank)
  reducesTo_S167386_S_d0 : S167386.ReducesTo [0] S_

variable [Facts]

def fn_part6 {F : FTy → Type} [FloatOps F] (main_v98 : IVec S_ 1) (main_v101 : IVec S_ 1) : IVec S_ 1 :=
  let main_v102 : IVec S_ 1 := andi main_v98 main_v101
  main_v102

def fn_part5 {F : FTy → Type} [FloatOps F] (main_arg2 : IVec S167386 32) (main_arg20 : FVec F S2x128 .f32) (main_arg21 : FVec F S2x128 .f32) (main_v83 : IVec S_ 1) (main_v84 : FVec F S2x128x128 .f32) (main_cst_32 : FVec F S_ .f32) : IVec S_ 1 :=
  let main_v85 : FVec F S2x128x128 .f32 := broadcastInDim S2x128x128 ![] bcast_S_S2x128x128 main_cst_32
  let main_v86 : IVec S2x128x128 1 := cmpf .olt main_v84 main_v85
  let main_c_33 : IVec S_ 1 := constantI S_ 1 1#1
  let main_v87 : IVec S_ 1 := (fun x v => Host.reduce IntOp.andi x v reducesTo_S2x128x128_S_d0_1_2 h_S_) main_v86 main_c_33
  let main_v88 : IVec S_ 1 := andi main_v83 main_v87
  let main_v89 : FVec F S2x128 .f32 := Host.absf main_arg20
  let main_cst_34 : FVec F S_ .f32 := constant S_ .f32 0x7F800000#32
  let main_v90 : FVec F S2x128 .f32 := broadcastInDim S2x128 ![] bcast_S_S2x128 main_cst_34
  let main_v91 : IVec S2x128 1 := cmpf .olt main_v89 main_v90
  let main_c_35 : IVec S_ 1 := constantI S_ 1 1#1
  let main_v92 : IVec S_ 1 := (fun x v => Host.reduce IntOp.andi x v reducesTo_S2x128_S_d0_1 h_S_) main_v91 main_c_35
  let main_v93 : IVec S_ 1 := andi main_v88 main_v92
  let main_v94 : FVec F S2x128 .f32 := Host.absf main_arg21
  let main_cst_36 : FVec F S_ .f32 := constant S_ .f32 0x7F800000#32
  let main_v95 : FVec F S2x128 .f32 := broadcastInDim S2x128 ![] bcast_S_S2x128 main_cst_36
  let main_v96 : IVec S2x128 1 := cmpf .olt main_v94 main_v95
  let main_c_37 : IVec S_ 1 := constantI S_ 1 1#1
  let main_v97 : IVec S_ 1 := (fun x v => Host.reduce IntOp.andi x v reducesTo_S2x128_S_d0_1 h_S_) main_v96 main_c_37
  let main_v98 : IVec S_ 1 := andi main_v93 main_v97
  let main_c_38 : IVec S_ 32 := constantI S_ 32 0#32
  let main_v99 : IVec S167386 32 := broadcastInDim S167386 ![] bcast_S_S167386 main_c_38
  let main_v100 : IVec S167386 1 := cmpi .sge main_arg2 main_v99
  let main_c_39 : IVec S_ 1 := constantI S_ 1 1#1
  let main_v101 : IVec S_ 1 := (fun x v => Host.reduce IntOp.andi x v reducesTo_S167386_S_d0 h_S_) main_v100 main_c_39
  fn_part6 (F := F) main_v98 main_v101

def fn_part4 {F : FTy → Type} [FloatOps F] (main_arg2 : IVec S167386 32) (main_arg16 : FVec F S2x128x128 .f32) (main_arg17 : FVec F S2x128 .f32) (main_arg18 : FVec F S2x128 .f32) (main_arg19 : FVec F S2x128x128 .f32) (main_arg20 : FVec F S2x128 .f32) (main_arg21 : FVec F S2x128 .f32) (main_v63 : IVec S_ 1) (main_v67 : IVec S_ 1) : IVec S_ 1 :=
  let main_v68 : IVec S_ 1 := andi main_v63 main_v67
  let main_v69 : FVec F S2x128x128 .f32 := Host.absf main_arg16
  let main_cst_26 : FVec F S_ .f32 := constant S_ .f32 0x7F800000#32
  let main_v70 : FVec F S2x128x128 .f32 := broadcastInDim S2x128x128 ![] bcast_S_S2x128x128 main_cst_26
  let main_v71 : IVec S2x128x128 1 := cmpf .olt main_v69 main_v70
  let main_c_27 : IVec S_ 1 := constantI S_ 1 1#1
  let main_v72 : IVec S_ 1 := (fun x v => Host.reduce IntOp.andi x v reducesTo_S2x128x128_S_d0_1_2 h_S_) main_v71 main_c_27
  let main_v73 : IVec S_ 1 := andi main_v68 main_v72
  let main_v74 : FVec F S2x128 .f32 := Host.absf main_arg17
  let main_cst_28 : FVec F S_ .f32 := constant S_ .f32 0x7F800000#32
  let main_v75 : FVec F S2x128 .f32 := broadcastInDim S2x128 ![] bcast_S_S2x128 main_cst_28
  let main_v76 : IVec S2x128 1 := cmpf .olt main_v74 main_v75
  let main_c_29 : IVec S_ 1 := constantI S_ 1 1#1
  let main_v77 : IVec S_ 1 := (fun x v => Host.reduce IntOp.andi x v reducesTo_S2x128_S_d0_1 h_S_) main_v76 main_c_29
  let main_v78 : IVec S_ 1 := andi main_v73 main_v77
  let main_v79 : FVec F S2x128 .f32 := Host.absf main_arg18
  let main_cst_30 : FVec F S_ .f32 := constant S_ .f32 0x7F800000#32
  let main_v80 : FVec F S2x128 .f32 := broadcastInDim S2x128 ![] bcast_S_S2x128 main_cst_30
  let main_v81 : IVec S2x128 1 := cmpf .olt main_v79 main_v80
  let main_c_31 : IVec S_ 1 := constantI S_ 1 1#1
  let main_v82 : IVec S_ 1 := (fun x v => Host.reduce IntOp.andi x v reducesTo_S2x128_S_d0_1 h_S_) main_v81 main_c_31
  let main_v83 : IVec S_ 1 := andi main_v78 main_v82
  let main_v84 : FVec F S2x128x128 .f32 := Host.absf main_arg19
  let main_cst_32 : FVec F S_ .f32 := constant S_ .f32 0x7F800000#32
  fn_part5 (F := F) main_arg2 main_arg20 main_arg21 main_v83 main_v84 main_cst_32

def fn_part3 {F : FTy → Type} [FloatOps F] (main_arg2 : IVec S167386 32) (main_arg13 : FVec F S2x128 .f32) (main_arg14 : FVec F S2x128 .f32) (main_arg15 : FVec F S2x128x128 .f32) (main_arg16 : FVec F S2x128x128 .f32) (main_arg17 : FVec F S2x128 .f32) (main_arg18 : FVec F S2x128 .f32) (main_arg19 : FVec F S2x128x128 .f32) (main_arg20 : FVec F S2x128 .f32) (main_arg21 : FVec F S2x128 .f32) (main_v48 : IVec S_ 1) (main_v49 : FVec F S2x128x384 .f32) (main_v50 : FVec F S2x128x384 .f32) : IVec S_ 1 :=
  let main_v51 : IVec S2x128x384 1 := cmpf .olt main_v49 main_v50
  let main_c_19 : IVec S_ 1 := constantI S_ 1 1#1
  let main_v52 : IVec S_ 1 := (fun x v => Host.reduce IntOp.andi x v reducesTo_S2x128x384_S_d0_1_2 h_S_) main_v51 main_c_19
  let main_v53 : IVec S_ 1 := andi main_v48 main_v52
  let main_v54 : FVec F S2x128 .f32 := Host.absf main_arg13
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg14
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x128x128 .f32 := Host.absf main_arg15
  let main_cst_24 : FVec F S_ .f32 := constant S_ .f32 0x7F800000#32
  let main_v65 : FVec F S2x128x128 .f32 := broadcastInDim S2x128x128 ![] bcast_S_S2x128x128 main_cst_24
  let main_v66 : IVec S2x128x128 1 := cmpf .olt main_v64 main_v65
  let main_c_25 : IVec S_ 1 := constantI S_ 1 1#1
  let main_v67 : IVec S_ 1 := (fun x v => Host.reduce IntOp.andi x v reducesTo_S2x128x128_S_d0_1_2 h_S_) main_v66 main_c_25
  fn_part4 (F := F) main_arg2 main_arg16 main_arg17 main_arg18 main_arg19 main_arg20 main_arg21 main_v63 main_v67

def fn_part2 {F : FTy → Type} [FloatOps F] (main_arg2 : IVec S167386 32) (main_arg9 : FVec F S2x128x128 .f32) (main_arg10 : FVec F S2x128 .f32) (main_arg11 : FVec F S2x128 .f32) (main_arg12 : FVec F S2x128x384 .f32) (main_arg13 : FVec F S2x128 .f32) (main_arg14 : FVec F S2x128 .f32) (main_arg15 : FVec F S2x128x128 .f32) (main_arg16 : FVec F S2x128x128 .f32) (main_arg17 : FVec F S2x128 .f32) (main_arg18 : FVec F S2x128 .f32) (main_arg19 : FVec F S2x128x128 .f32) (main_arg20 : FVec F S2x128 .f32) (main_arg21 : FVec F S2x128 .f32) (main_v33 : IVec S_ 1) : IVec S_ 1 :=
  let main_v34 : FVec F S2x128x128 .f32 := Host.absf main_arg9
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128x384 .f32 := Host.absf main_arg12
  let main_cst_18 : FVec F S_ .f32 := constant S_ .f32 0x7F800000#32
  let main_v50 : FVec F S2x128x384 .f32 := broadcastInDim S2x128x384 ![] bcast_S_S2x128x384 main_cst_18
  fn_part3 (F := F) main_arg2 main_arg13 main_arg14 main_arg15 main_arg16 main_arg17 main_arg18 main_arg19 main_arg20 main_arg21 main_v48 main_v49 main_v50

def fn_part1 {F : FTy → Type} [FloatOps F] (main_arg2 : IVec S167386 32) (main_arg6 : FVec F S2x128x128 .f32) (main_arg7 : FVec F S2x128 .f32) (main_arg8 : FVec F S2x128 .f32) (main_arg9 : FVec F S2x128x128 .f32) (main_arg10 : FVec F S2x128 .f32) (main_arg11 : FVec F S2x128 .f32) (main_arg12 : FVec F S2x128x384 .f32) (main_arg13 : FVec F S2x128 .f32) (main_arg14 : FVec F S2x128 .f32) (main_arg15 : FVec F S2x128x128 .f32) (main_arg16 : FVec F S2x128x128 .f32) (main_arg17 : FVec F S2x128 .f32) (main_arg18 : FVec F S2x128 .f32) (main_arg19 : FVec F S2x128x128 .f32) (main_arg20 : FVec F S2x128 .f32) (main_arg21 : FVec F S2x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg6
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_arg20 main_arg21 main_v33

def fn {F : FTy → Type} [FloatOps F] (main_arg0 : FVec F S4096x128 .f32) (main_arg1 : FVec F S4096x2 .f32) (main_arg2 : IVec S167386 32) (main_arg3 : IVec S167386 32) (main_arg4 : FVec F S2x128x2 .f32) (main_arg5 : FVec F S2x128 .f32) (main_arg6 : FVec F S2x128x128 .f32) (main_arg7 : FVec F S2x128 .f32) (main_arg8 : FVec F S2x128 .f32) (main_arg9 : FVec F S2x128x128 .f32) (main_arg10 : FVec F S2x128 .f32) (main_arg11 : FVec F S2x128 .f32) (main_arg12 : FVec F S2x128x384 .f32) (main_arg13 : FVec F S2x128 .f32) (main_arg14 : FVec F S2x128 .f32) (main_arg15 : FVec F S2x128x128 .f32) (main_arg16 : FVec F S2x128x128 .f32) (main_arg17 : FVec F S2x128 .f32) (main_arg18 : FVec F S2x128 .f32) (main_arg19 : FVec F S2x128x128 .f32) (main_arg20 : FVec F S2x128 .f32) (main_arg21 : FVec F S2x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S2x128x2 .f32 := Host.absf main_arg4
  let main_cst_2 : FVec F S_ .f32 := constant S_ .f32 0x7F800000#32
  let main_v10 : FVec F S2x128x2 .f32 := broadcastInDim S2x128x2 ![] bcast_S_S2x128x2 main_cst_2
  let main_v11 : IVec S2x128x2 1 := cmpf .olt main_v9 main_v10
  let main_c_3 : IVec S_ 1 := constantI S_ 1 1#1
  let main_v12 : IVec S_ 1 := (fun x v => Host.reduce IntOp.andi x v reducesTo_S2x128x2_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S4096x128 : Shape := ⟨2, ![4096, 128]⟩
abbrev S4096x2 : Shape := ⟨2, ![4096, 2]⟩
abbrev S167386 : Shape := ⟨1, ![167386]⟩
abbrev S2x128x2 : Shape := ⟨3, ![2, 128, 2]⟩
abbrev S2x128 : Shape := ⟨2, ![2, 128]⟩
abbrev S2x128x128 : Shape := ⟨3, ![2, 128, 128]⟩
abbrev S2x128x384 : Shape := ⟨3, ![2, 128, 384]⟩
abbrev S_ : Shape := ⟨0, ![]⟩
abbrev S550 : Shape := ⟨1, ![550]⟩
abbrev S167936 : Shape := ⟨1, ![167936]⟩
abbrev S167936x1 : Shape := ⟨2, ![167936, 1]⟩
abbrev S167936x2 : Shape := ⟨2, ![167936, 2]⟩
abbrev S167936x128 : Shape := ⟨2, ![167936, 128]⟩
abbrev S1x128x2 : Shape := ⟨3, ![1, 128, 2]⟩
abbrev S128x2 : Shape := ⟨2, ![128, 2]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x128x384 : Shape := ⟨3, ![1, 128, 384]⟩
abbrev S128x384 : Shape := ⟨2, ![128, 384]⟩
abbrev S384x128 : Shape := ⟨2, ![384, 128]⟩
abbrev S2048x2 : Shape := ⟨2, ![2048, 2]⟩
abbrev S2048x128 : Shape := ⟨2, ![2048, 128]⟩
abbrev S2048 : Shape := ⟨1, ![2048]⟩
abbrev S2048x1 : Shape := ⟨2, ![2048, 1]⟩
abbrev S2048x384 : Shape := ⟨2, ![2048, 384]⟩
abbrev S4097x128 : Shape := ⟨2, ![4097, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 255
  | .vmem => 64
  | .smem => 0
  | _ => 0

abbrev hbmTy0_0 (i : Nat) : BufTy := match i % 128 with
  | 0 => ⟨S4096x128, .f32⟩
  | 1 => ⟨S4096x2, .f32⟩
  | 2 => ⟨S167386, .i32⟩
  | 3 => ⟨S167386, .i32⟩
  | 4 => ⟨S2x128x2, .f32⟩
  | 5 => ⟨S2x128, .f32⟩
  | 6 => ⟨S2x128x128, .f32⟩
  | 7 => ⟨S2x128, .f32⟩
  | 8 => ⟨S2x128, .f32⟩
  | 9 => ⟨S2x128x128, .f32⟩
  | 10 => ⟨S2x128, .f32⟩
  | 11 => ⟨S2x128, .f32⟩
  | 12 => ⟨S2x128x384, .f32⟩
  | 13 => ⟨S2x128, .f32⟩
  | 14 => ⟨S2x128, .f32⟩
  | 15 => ⟨S2x128x128, .f32⟩
  | 16 => ⟨S2x128x128, .f32⟩
  | 17 => ⟨S2x128, .f32⟩
  | 18 => ⟨S2x128, .f32⟩
  | 19 => ⟨S2x128x128, .f32⟩
  | 20 => ⟨S2x128, .f32⟩
  | 21 => ⟨S2x128, .f32⟩
  | 22 => ⟨S_, .i32⟩
  | 23 => ⟨S550, .i32⟩
  | 24 => ⟨S167936, .i32⟩
  | 25 => ⟨S_, .i32⟩
  | 26 => ⟨S550, .i32⟩
  | 27 => ⟨S167936, .i32⟩
  | 28 => ⟨S_, .i32⟩
  | 29 => ⟨S550, .i32⟩
  | 30 => ⟨S167936, .i32⟩
  | 31 => ⟨S_, .i32⟩
  | 32 => ⟨S167936, .i32⟩
  | 33 => ⟨S167936, .i1⟩
  | 34 => ⟨S_, .i32⟩
  | 35 => ⟨S167936, .i32⟩
  | 36 => ⟨S167936, .i32⟩
  | 37 => ⟨S167936, .i32⟩
  | 38 => ⟨S167936x1, .i32⟩
  | 39 => ⟨S167936x2, .f32⟩
  | 40 => ⟨S_, .i32⟩
  | 41 => ⟨S167936, .i32⟩
  | 42 => ⟨S167936, .i1⟩
  | 43 => ⟨S_, .i32⟩
  | 44 => ⟨S167936, .i32⟩
  | 45 => ⟨S167936, .i32⟩
  | 46 => ⟨S167936, .i32⟩
  | 47 => ⟨S167936x1, .i32⟩
  | 48 => ⟨S167936x2, .f32⟩
  | 49 => ⟨S167936x2, .f32⟩
  | 50 => ⟨S_, .i32⟩
  | 51 => ⟨S167936, .i32⟩
  | 52 => ⟨S167936, .i1⟩
  | 53 => ⟨S_, .i32⟩
  | 54 => ⟨S167936, .i32⟩
  | 55 => ⟨S167936, .i32⟩
  | 56 => ⟨S167936, .i32⟩
  | 57 => ⟨S167936x1, .i32⟩
  | 58 => ⟨S167936x128, .f32⟩
  | 59 => ⟨S_, .i32⟩
  | 60 => ⟨S167936, .i32⟩
  | 61 => ⟨S167936, .i1⟩
  | 62 => ⟨S_, .i32⟩
  | 63 => ⟨S167936, .i32⟩
  | 64 => ⟨S167936, .i32⟩
  | 65 => ⟨S167936, .i32⟩
  | 66 => ⟨S167936x1, .i32⟩
  | 67 => ⟨S167936x128, .f32⟩
  | 68 => ⟨S1x128x2, .f32⟩
  | 69 => ⟨S128x2, .f32⟩
  | 70 => ⟨S2x128, .f32⟩
  | 71 => ⟨S2x128, .bf16⟩
  | 72 => ⟨S1x128, .f32⟩
  | 73 => ⟨S128, .f32⟩
  | 74 => ⟨S1x128, .f32⟩
  | 75 => ⟨S1x128x128, .f32⟩
  | 76 => ⟨S128x128, .f32⟩
  | 77 => ⟨S128x128, .f32⟩
  | 78 => ⟨S128x128, .bf16⟩
  | 79 => ⟨S1x128, .f32⟩
  | 80 => ⟨S128, .f32⟩
  | 81 => ⟨S1x128, .f32⟩
  | 82 => ⟨S1x128, .f32⟩
  | 83 => ⟨S128, .f32⟩
  | 84 => ⟨S1x128, .f32⟩
  | 85 => ⟨S1x128x128, .f32⟩
  | 86 => ⟨S128x128, .f32⟩
  | 87 => ⟨S128x128, .f32⟩
  | 88 => ⟨S128x128, .bf16⟩
  | 89 => ⟨S1x128, .f32⟩
  | 90 => ⟨S128, .f32⟩
  | 91 => ⟨S1x128, .f32⟩
  | 92 => ⟨S1x128, .f32⟩
  | 93 => ⟨S128, .f32⟩
  | 94 => ⟨S1x128, .f32⟩
  | 95 => ⟨S1x128x384, .f32⟩
  | 96 => ⟨S128x384, .f32⟩
  | 97 => ⟨S384x128, .f32⟩
  | 98 => ⟨S384x128, .bf16⟩
  | 99 => ⟨S1x128, .f32⟩
  | 100 => ⟨S128, .f32⟩
  | 101 => ⟨S1x128, .f32⟩
  | 102 => ⟨S1x128, .f32⟩
  | 103 => ⟨S128, .f32⟩
  | 104 => ⟨S1x128, .f32⟩
  | 105 => ⟨S1x128x128, .f32⟩
  | 106 => ⟨S128x128, .f32⟩
  | 107 => ⟨S128x128, .f32⟩
  | 108 => ⟨S128x128, .bf16⟩
  | 109 => ⟨S167936x128, .f32⟩
  | 110 => ⟨S_, .f32⟩
  | 111 => ⟨S4097x128, .f32⟩
  | 112 => ⟨S_, .i32⟩
  | 113 => ⟨S167936, .i32⟩
  | 114 => ⟨S167936, .i1⟩
  | 115 => ⟨S_, .i32⟩
  | 116 => ⟨S167936, .i32⟩
  | 117 => ⟨S167936, .i32⟩
  | 118 => ⟨S167936, .i32⟩
  | 119 => ⟨S167936x1, .i32⟩
  | 120 => ⟨S4097x128, .f32⟩
  | 121 => ⟨S4096x128, .f32⟩
  | 122 => ⟨S1x128x128, .f32⟩
  | 123 => ⟨S128x128, .f32⟩
  | 124 => ⟨S128x128, .f32⟩
  | 125 => ⟨S128x128, .bf16⟩
  | 126 => ⟨S1x128, .f32⟩
  | 127 => ⟨S128, .f32⟩
  | _ => ⟨S4096x128, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S1x128x128, .f32⟩
  | 5 => ⟨S128x128, .f32⟩
  | 6 => ⟨S128x128, .f32⟩
  | 7 => ⟨S128x128, .bf16⟩
  | 8 => ⟨S1x128, .f32⟩
  | 9 => ⟨S128, .f32⟩
  | 10 => ⟨S1x128, .f32⟩
  | 11 => ⟨S1x128, .f32⟩
  | 12 => ⟨S128, .f32⟩
  | 13 => ⟨S1x128, .f32⟩
  | 14 => ⟨S4096x128, .f32⟩
  | 15 => ⟨S_, .i32⟩
  | 16 => ⟨S167936, .i32⟩
  | 17 => ⟨S167936, .i1⟩
  | 18 => ⟨S_, .i32⟩
  | 19 => ⟨S167936, .i32⟩
  | 20 => ⟨S167936, .i32⟩
  | 21 => ⟨S167936, .i32⟩
  | 22 => ⟨S167936x1, .i32⟩
  | 23 => ⟨S167936x2, .f32⟩
  | 24 => ⟨S_, .i32⟩
  | 25 => ⟨S167936, .i32⟩
  | 26 => ⟨S167936, .i1⟩
  | 27 => ⟨S_, .i32⟩
  | 28 => ⟨S167936, .i32⟩
  | 29 => ⟨S167936, .i32⟩
  | 30 => ⟨S167936, .i32⟩
  | 31 => ⟨S167936x1, .i32⟩
  | 32 => ⟨S167936x2, .f32⟩
  | 33 => ⟨S167936x2, .f32⟩
  | 34 => ⟨S_, .i32⟩
  | 35 => ⟨S167936, .i32⟩
  | 36 => ⟨S167936, .i1⟩
  | 37 => ⟨S_, .i32⟩
  | 38 => ⟨S167936, .i32⟩
  | 39 => ⟨S167936, .i32⟩
  | 40 => ⟨S167936, .i32⟩
  | 41 => ⟨S167936x1, .i32⟩
  | 42 => ⟨S167936x128, .f32⟩
  | 43 => ⟨S_, .i32⟩
  | 44 => ⟨S167936, .i32⟩
  | 45 => ⟨S167936, .i1⟩
  | 46 => ⟨S_, .i32⟩
  | 47 => ⟨S167936, .i32⟩
  | 48 => ⟨S167936, .i32⟩
  | 49 => ⟨S167936, .i32⟩
  | 50 => ⟨S167936x1, .i32⟩
  | 51 => ⟨S167936x128, .f32⟩
  | 52 => ⟨S1x128x2, .f32⟩
  | 53 => ⟨S128x2, .f32⟩
  | 54 => ⟨S2x128, .f32⟩
  | 55 => ⟨S2x128, .bf16⟩
  | 56 => ⟨S1x128, .f32⟩
  | 57 => ⟨S128, .f32⟩
  | 58 => ⟨S1x128, .f32⟩
  | 59 => ⟨S1x128x128, .f32⟩
  | 60 => ⟨S128x128, .f32⟩
  | 61 => ⟨S128x128, .f32⟩
  | 62 => ⟨S128x128, .bf16⟩
  | 63 => ⟨S1x128, .f32⟩
  | 64 => ⟨S128, .f32⟩
  | 65 => ⟨S1x128, .f32⟩
  | 66 => ⟨S1x128, .f32⟩
  | 67 => ⟨S128, .f32⟩
  | 68 => ⟨S1x128, .f32⟩
  | 69 => ⟨S1x128x128, .f32⟩
  | 70 => ⟨S128x128, .f32⟩
  | 71 => ⟨S128x128, .f32⟩
  | 72 => ⟨S128x128, .bf16⟩
  | 73 => ⟨S1x128, .f32⟩
  | 74 => ⟨S128, .f32⟩
  | 75 => ⟨S1x128, .f32⟩
  | 76 => ⟨S1x128, .f32⟩
  | 77 => ⟨S128, .f32⟩
  | 78 => ⟨S1x128, .f32⟩
  | 79 => ⟨S1x128x384, .f32⟩
  | 80 => ⟨S128x384, .f32⟩
  | 81 => ⟨S384x128, .f32⟩
  | 82 => ⟨S384x128, .bf16⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S1x128x128, .f32⟩
  | 90 => ⟨S128x128, .f32⟩
  | 91 => ⟨S128x128, .f32⟩
  | 92 => ⟨S128x128, .bf16⟩
  | 93 => ⟨S167936x128, .f32⟩
  | 94 => ⟨S_, .f32⟩
  | 95 => ⟨S4097x128, .f32⟩
  | 96 => ⟨S_, .i32⟩
  | 97 => ⟨S167936, .i32⟩
  | 98 => ⟨S167936, .i1⟩
  | 99 => ⟨S_, .i32⟩
  | 100 => ⟨S167936, .i32⟩
  | 101 => ⟨S167936, .i32⟩
  | 102 => ⟨S167936, .i32⟩
  | 103 => ⟨S167936x1, .i32⟩
  | 104 => ⟨S4097x128, .f32⟩
  | 105 => ⟨S4096x128, .f32⟩
  | 106 => ⟨S1x128x128, .f32⟩
  | 107 => ⟨S128x128, .f32⟩
  | 108 => ⟨S128x128, .f32⟩
  | 109 => ⟨S128x128, .bf16⟩
  | 110 => ⟨S1x128, .f32⟩
  | 111 => ⟨S128, .f32⟩
  | 112 => ⟨S1x128, .f32⟩
  | 113 => ⟨S1x128, .f32⟩
  | 114 => ⟨S128, .f32⟩
  | 115 => ⟨S1x128, .f32⟩
  | 116 => ⟨S1x128x128, .f32⟩
  | 117 => ⟨S128x128, .f32⟩
  | 118 => ⟨S128x128, .f32⟩
  | 119 => ⟨S128x128, .bf16⟩
  | 120 => ⟨S1x128, .f32⟩
  | 121 => ⟨S128, .f32⟩
  | 122 => ⟨S1x128, .f32⟩
  | 123 => ⟨S1x128, .f32⟩
  | 124 => ⟨S128, .f32⟩
  | 125 => ⟨S1x128, .f32⟩
  | 126 => ⟨S4096x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S2048x2, .f32⟩
  | .local _ .vmem, ⟨1, _⟩ => ⟨S2048x2, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S384x128, .bf16⟩
  | .local _ .vmem, ⟨15, _⟩ => ⟨S1x128, .f32⟩
  | .local _ .vmem, ⟨16, _⟩ => ⟨S1x128, .f32⟩
  | .local _ .vmem, ⟨17, _⟩ => ⟨S128x128, .bf16⟩
  | .local _ .vmem, ⟨18, _⟩ => ⟨S2048x128, .f32⟩
  | .local _ .vmem, ⟨19, _⟩ => ⟨S2048x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S128x128, .bf16⟩
  | .local _ .vmem, ⟨25, _⟩ => ⟨S1x128, .f32⟩
  | .local _ .vmem, ⟨26, _⟩ => ⟨S1x128, .f32⟩
  | .local _ .vmem, ⟨27, _⟩ => ⟨S128x128, .bf16⟩
  | .local _ .vmem, ⟨28, _⟩ => ⟨S1x128, .f32⟩
  | .local _ .vmem, ⟨29, _⟩ => ⟨S1x128, .f32⟩
  | .local _ .vmem, ⟨30, _⟩ => ⟨S1024x128, .f32⟩
  | .local _ .vmem, ⟨31, _⟩ => ⟨S1024x128, .f32⟩
  | .local _ .vmem, ⟨32, _⟩ => ⟨S2048x2, .f32⟩
  | .local _ .vmem, ⟨33, _⟩ => ⟨S2048x2, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S2x128, .bf16⟩
  | .local _ .vmem, ⟨39, _⟩ => ⟨S1x128, .f32⟩
  | .local _ .vmem, ⟨40, _⟩ => ⟨S128x128, .bf16⟩
  | .local _ .vmem, ⟨41, _⟩ => ⟨S1x128, .f32⟩
  | .local _ .vmem, ⟨42, _⟩ => ⟨S1x128, .f32⟩
  | .local _ .vmem, ⟨43, _⟩ => ⟨S128x128, .bf16⟩
  | .local _ .vmem, ⟨44, _⟩ => ⟨S1x128, .f32⟩
  | .local _ .vmem, ⟨45, _⟩ => ⟨S1x128, .f32⟩
  | .local _ .vmem, ⟨46, _⟩ => ⟨S384x128, .bf16⟩
  | .local _ .vmem, ⟨47, _⟩ => ⟨S1x128, .f32⟩
  | .local _ .vmem, ⟨48, _⟩ => ⟨S1x128, .f32⟩
  | .local _ .vmem, ⟨49, _⟩ => ⟨S128x128, .bf16⟩
  | .local _ .vmem, ⟨50, _⟩ => ⟨S2048x128, .f32⟩
  | .local _ .vmem, ⟨51, _⟩ => ⟨S2048x128, .f32⟩
  | .local _ .vmem, ⟨52, _⟩ => ⟨S1024x128, .f32⟩
  | .local _ .vmem, ⟨53, _⟩ => ⟨S1024x128, .f32⟩
  | .local _ .vmem, ⟨54, _⟩ => ⟨S1024x128, .f32⟩
  | .local _ .vmem, ⟨55, _⟩ => ⟨S1024x128, .f32⟩
  | .local _ .vmem, ⟨56, _⟩ => ⟨S128x128, .bf16⟩
  | .local _ .vmem, ⟨57, _⟩ => ⟨S1x128, .f32⟩
  | .local _ .vmem, ⟨58, _⟩ => ⟨S1x128, .f32⟩
  | .local _ .vmem, ⟨59, _⟩ => ⟨S128x128, .bf16⟩
  | .local _ .vmem, ⟨60, _⟩ => ⟨S1x128, .f32⟩
  | .local _ .vmem, ⟨61, _⟩ => ⟨S1x128, .f32⟩
  | .local _ .vmem, ⟨62, _⟩ => ⟨S1024x128, .f32⟩
  | .local _ .vmem, ⟨63, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_c_1 : Ref sig .tc := ⟨.hbm, 28, rfl⟩
abbrev main_v4 : Ref sig .tc := ⟨.hbm, 29, rfl⟩
abbrev main_v5 : Ref sig .tc := ⟨.hbm, 30, rfl⟩
abbrev main_c_2 : Ref sig .tc := ⟨.hbm, 31, rfl⟩
abbrev main_v6 : Ref sig .tc := ⟨.hbm, 32, rfl⟩
abbrev main_v7 : Ref sig .tc := ⟨.hbm, 33, rfl⟩
abbrev main_c_3 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_4 : Ref sig .tc := ⟨.hbm, 40, rfl⟩
abbrev main_v13 : Ref sig .tc := ⟨.hbm, 41, rfl⟩
abbrev main_v14 : Ref sig .tc := ⟨.hbm, 42, rfl⟩
abbrev main_c_5 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_6 : Ref sig .tc := ⟨.hbm, 50, rfl⟩
abbrev main_v21 : Ref sig .tc := ⟨.hbm, 51, rfl⟩
abbrev main_v22 : Ref sig .tc := ⟨.hbm, 52, rfl⟩
abbrev main_c_7 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_v29 : Ref sig .tc := ⟨.hbm, 61, rfl⟩
abbrev main_c_9 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst : Ref sig .tc := ⟨.hbm, 110, rfl⟩
abbrev main_v77 : Ref sig .tc := ⟨.hbm, 111, rfl⟩
abbrev main_c_10 : Ref sig .tc := ⟨.hbm, 112, rfl⟩
abbrev main_v78 : Ref sig .tc := ⟨.hbm, 113, rfl⟩
abbrev main_v79 : Ref sig .tc := ⟨.hbm, 114, rfl⟩
abbrev main_c_11 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_12 : Ref sig .tc := ⟨.hbm, 143, rfl⟩
abbrev main_v107 : Ref sig .tc := ⟨.hbm, 144, rfl⟩
abbrev main_v108 : Ref sig .tc := ⟨.hbm, 145, rfl⟩
abbrev main_c_13 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_14 : Ref sig .tc := ⟨.hbm, 152, rfl⟩
abbrev main_v114 : Ref sig .tc := ⟨.hbm, 153, rfl⟩
abbrev main_v115 : Ref sig .tc := ⟨.hbm, 154, rfl⟩
abbrev main_c_15 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_c_16 : Ref sig .tc := ⟨.hbm, 162, rfl⟩
abbrev main_v122 : Ref sig .tc := ⟨.hbm, 163, rfl⟩
abbrev main_v123 : Ref sig .tc := ⟨.hbm, 164, rfl⟩
abbrev main_c_17 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_c_18 : Ref sig .tc := ⟨.hbm, 171, rfl⟩
abbrev main_v129 : Ref sig .tc := ⟨.hbm, 172, rfl⟩
abbrev main_v130 : Ref sig .tc := ⟨.hbm, 173, rfl⟩
abbrev main_c_19 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_cst_20 : Ref sig .tc := ⟨.hbm, 222, rfl⟩
abbrev main_v178 : Ref sig .tc := ⟨.hbm, 223, rfl⟩
abbrev main_c_21 : Ref sig .tc := ⟨.hbm, 224, rfl⟩
abbrev main_v179 : Ref sig .tc := ⟨.hbm, 225, rfl⟩
abbrev main_v180 : Ref sig .tc := ⟨.hbm, 226, rfl⟩
abbrev main_c_22 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg10_0 : Ref sig .tc := ⟨.vmem, 45, rfl⟩
abbrev cc2_stg11_0 : Ref sig .tc := ⟨.vmem, 46, rfl⟩
abbrev cc2_stg12_0 : Ref sig .tc := ⟨.vmem, 47, rfl⟩
abbrev cc2_stg13_0 : Ref sig .tc := ⟨.vmem, 48, rfl⟩
abbrev cc2_stg14_0 : Ref sig .tc := ⟨.vmem, 49, rfl⟩
abbrev cc2_stg15_0 : Ref sig .tc := ⟨.vmem, 50, rfl⟩
abbrev cc2_stg15_1 : Ref sig .tc := ⟨.vmem, 51, rfl⟩
abbrev cc3_stg0_0 : Ref sig .tc := ⟨.vmem, 52, rfl⟩
abbrev cc3_stg0_1 : Ref sig .tc := ⟨.vmem, 53, rfl⟩
abbrev cc3_stg1_0 : Ref sig .tc := ⟨.vmem, 54, rfl⟩
abbrev cc3_stg1_1 : Ref sig .tc := ⟨.vmem, 55, rfl⟩
abbrev cc3_stg2_0 : Ref sig .tc := ⟨.vmem, 56, rfl⟩
abbrev cc3_stg3_0 : Ref sig .tc := ⟨.vmem, 57, rfl⟩
abbrev cc3_stg4_0 : Ref sig .tc := ⟨.vmem, 58, rfl⟩
abbrev cc3_stg5_0 : Ref sig .tc := ⟨.vmem, 59, rfl⟩
abbrev cc3_stg6_0 : Ref sig .tc := ⟨.vmem, 60, rfl⟩
abbrev cc3_stg7_0 : Ref sig .tc := ⟨.vmem, 61, rfl⟩
abbrev cc3_stg8_0 : Ref sig .tc := ⟨.vmem, 62, rfl⟩
abbrev cc3_stg8_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem11_0 : DmaSem sig := 46
abbrev cc2_sem12_0 : DmaSem sig := 47
abbrev cc2_sem13_0 : DmaSem sig := 48
abbrev cc2_sem14_0 : DmaSem sig := 49
abbrev cc2_sem15_0 : DmaSem sig := 50
abbrev cc2_sem15_1 : DmaSem sig := 51
abbrev cc3_sem0_0 : DmaSem sig := 52
abbrev cc3_sem0_1 : DmaSem sig := 53
abbrev cc3_sem1_0 : DmaSem sig := 54
abbrev cc3_sem1_1 : DmaSem sig := 55
abbrev cc3_sem2_0 : DmaSem sig := 56
abbrev cc3_sem3_0 : DmaSem sig := 57
abbrev cc3_sem4_0 : DmaSem sig := 58
abbrev cc3_sem5_0 : DmaSem sig := 59
abbrev cc3_sem6_0 : DmaSem sig := 60
abbrev cc3_sem7_0 : DmaSem sig := 61
abbrev cc3_sem8_0 : DmaSem sig := 62
abbrev cc3_sem8_1 : DmaSem sig := 63

abbrev nD : Nat := 1
abbrev τ : Topo := Topo.v7x

variable {F : FTy → Type} [FloatOps F]

abbrev grid0 : Pipeline.Grid := ⟨1, ![82], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![82], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S384x128 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x128 .bf16 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S2048x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1024x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  bcast_S_S550 : S_.BroadcastsInDim S550 (![] : Fin 0 → Fin S550.rank)
  concatenates_S167386_S550_S167936_d0 : Shape.Concatenates [S167386, S550] S167936 0
  bcast_S_S167936 : S_.BroadcastsInDim S167936 (![] : Fin 0 → Fin S167936.rank)
  bcast_S167936_S167936x1_0 : S167936.BroadcastsInDim S167936x1 (![0] : Fin 1 → Fin S167936x1.rank)
  slices_S2x128x2_S1x128x2_0_0_0 : S2x128x2.Slices ![0, 0, 0] S1x128x2
  shapeCasts_S1x128x2_S128x2 : S1x128x2.ShapeCasts S128x2
  transposes_S128x2_S2x128_1_0 : S128x2.Transposes [1, 0] S2x128
  bitsLt_bf16_f32 : FTy.bits .bf16 < FTy.bits .f32
  slices_S2x128_S1x128_0_0 : S2x128.Slices ![0, 0] S1x128
  shapeCasts_S1x128_S128 : S1x128.ShapeCasts S128
  shapeCasts_S128_S1x128 : S128.ShapeCasts S1x128
  slices_S2x128x128_S1x128x128_0_0_0 : S2x128x128.Slices ![0, 0, 0] S1x128x128
  shapeCasts_S1x128x128_S128x128 : S1x128x128.ShapeCasts S128x128
  transposes_S128x128_S128x128_1_0 : S128x128.Transposes [1, 0] S128x128
  slices_S2x128x384_S1x128x384_0_0_0 : S2x128x384.Slices ![0, 0, 0] S1x128x384
  shapeCasts_S1x128x384_S128x384 : S1x128x384.ShapeCasts S128x384
  transposes_S128x384_S384x128_1_0 : S128x384.Transposes [1, 0] S384x128
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2048x128_S2048 : S2048x128.Reduces [1] S2048
  shapeCasts_S2048_S2048x1 : S2048.ShapeCasts S2048x1
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  concatenates_S2048x128_S2048x128_S2048x128_S2048x384_d1 : Shape.Concatenates [S2048x128, S2048x128, S2048x128] S2048x384 1
  inb_S384x128_S384x128_0_0 : ∀ a, (![0, 0] : Fin 2 → Nat) a + S384x128.size a ≤ S384x128.size a
  h_S384x128 : 0 < S384x128.numel
  shapeCasts_S384x128_S384x128 : S384x128.ShapeCasts S384x128
  bcast_S_S4097x128 : S_.BroadcastsInDim S4097x128 (![] : Fin 0 → Fin S4097x128.rank)
  slices_S4097x128_S4096x128_0_0 : S4097x128.Slices ![0, 0] S4096x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  broadcasts_S1x128_S1024x128 : S1x128.Broadcasts S1024x128
  slices_S2x128x2_S1x128x2_1_0_0 : S2x128x2.Slices ![1, 0, 0] S1x128x2
  slices_S2x128_S1x128_1_0 : S2x128.Slices ![1, 0] S1x128
  slices_S2x128x128_S1x128x128_1_0_0 : S2x128x128.Slices ![1, 0, 0] S1x128x128
  slices_S2x128x384_S1x128x384_1_0_0 : S2x128x384.Slices ![1, 0, 0] S1x128x384
  gather_S4096x2_S167936x1_S167936x2_1_0_n_n_0_1_12_wf : GatherDims.WF S4096x2 S167936x1 S167936x2 [1] [0] [] [0] [] 1 ![1, 2]
  gather_S4096x128_S167936x1_S167936x128_1_0_n_n_0_1_1128_wf : GatherDims.WF S4096x128 S167936x1 S167936x128 [1] [0] [] [0] [] 1 ![1, 128]
  dot_S2048x2_S2x128_S2048x128_1_0_0_1_n_n_wf : DotDims.WF S2048x2 S2x128 S2048x128 [1] [0] [0] [1] [] []
  dot_S2048x128_S128x128_S2048x128_1_0_0_1_n_n_wf : DotDims.WF S2048x128 S128x128 S2048x128 [1] [0] [0] [1] [] []
  dot_S2048x384_S384x128_S2048x128_1_0_0_1_n_n_wf : DotDims.WF S2048x384 S384x128 S2048x128 [1] [0] [0] [1] [] []
  scatter_S4097x128_S167936x1_S167936x128_1_0_0_1_wf : ScatterDims.WF S4097x128 S167936x1 S167936x128 [1] [0] [0] 1
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S167936x2.size a
  hwx0_0 : ∀ i : grid0.Coords, EltTy.bits .f32 = 32 ∨ (Rect.block (s := S167936x2) S2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S167936x128.size a
  hwx0_1 : ∀ i : grid0.Coords, EltTy.bits .f32 = 32 ∨ (Rect.block (s := S167936x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S167936x128.size a
  hwx0_2 : ∀ i : grid0.Coords, EltTy.bits .f32 = 32 ∨ (Rect.block (s := S167936x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .bf16 = 32 ∨ (Rect.block (s := S2x128) S2x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S384x128.size a ≤ S384x128.size a
  hwx0_11 : ∀ i : grid0.Coords, EltTy.bits .bf16 = 32 ∨ (Rect.block (s := S384x128) S384x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x128.size a ≤ S167936x128.size a
  hwx0_15 : ∀ i : grid0.Coords, EltTy.bits .f32 = 32 ∨ (Rect.block (s := S167936x128) S2048x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x128.size a
  hwx1_0 : ∀ i : grid1.Coords, EltTy.bits .f32 = 32 ∨ (Rect.block (s := S4096x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x128.size a ≤ S4096x128.size a
  hwx1_8 : ∀ i : grid1.Coords, EltTy.bits .f32 = 32 ∨ (Rect.block (s := S4096x128) S1024x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2.size a ≤ S167936x2.size a
  hwx2_0 : ∀ i : grid2.Coords, EltTy.bits .f32 = 32 ∨ (Rect.block (s := S167936x2) S2048x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S167936x128.size a
  hwx2_1 : ∀ i : grid2.Coords, EltTy.bits .f32 = 32 ∨ (Rect.block (s := S167936x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S167936x128.size a
  hwx2_2 : ∀ i : grid2.Coords, EltTy.bits .f32 = 32 ∨ (Rect.block (s := S167936x128) S2048x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x128.size a ≤ S2x128.size a
  hwx2_3 : ∀ i : grid2.Coords, EltTy.bits .bf16 = 32 ∨ (Rect.block (s := S2x128) S2x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .bf16 = 32 ∨ (Rect.block (s := S128x128) S128x128.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S384x128.size a ≤ S384x128.size a
  hwx2_11 : ∀ i : grid2.Coords, EltTy.bits .bf16 = 32 ∨ (Rect.block (s := S384x128) S384x128.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x128.size a ≤ S1x128.size a
  hwx2_13 : ∀ i : grid2.Coords, EltTy.bits .f32 = 32 ∨ (Rect.block (s := S1x128) S1x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x128.size a ≤ S128x128.size a
  hwx2_14 : ∀ i : grid2.Coords, EltTy.bits .bf16 = 32 ∨ (Rect.block (s := S128x128) S128x128.size (cc2_transform_14 i) (hinb2_14 i)).WholeWords (EltTy.packing .bf16)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2048x128.size a ≤ S167936x128.size a
  hwx2_15 : ∀ i : grid2.Coords, EltTy.bits .f32 = 32 ∨ (Rect.block (s := S167936x128) S2048x128.size (cc2_transform_15 i) (hinb2_15 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S4096x128.size a
  hwx3_0 : ∀ i : grid3.Coords, EltTy.bits .f32 = 32 ∨ (Rect.block (s := S4096x128) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S4096x128.size a
  hwx3_1 : ∀ i : grid3.Coords, EltTy.bits .f32 = 32 ∨ (Rect.block (s := S4096x128) S1024x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .bf16 = 32 ∨ (Rect.block (s := S128x128) S128x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1024x128.size a ≤ S4096x128.size a
  hwx3_8 : ∀ i : grid3.Coords, EltTy.bits .f32 = 32 ∨ (Rect.block (s := S4096x128) S1024x128.size (cc3_transform_8 i) (hinb3_8 i)).WholeWords (EltTy.packing .f32)

variable [Facts₀]

def gather_S4096x2_S167936x1_S167936x2_1_0_n_n_0_1_12 : GatherDims S4096x2 S167936x1 S167936x2 where
  offsetDims := [1]
  collapsedSliceDims := [0]
  operandBatchingDims := []
  startIndicesBatchingDims := []
  startIndexMap := [0]
  indexVectorDim := 1
  sliceSizes := ![1, 2]
  wf := gather_S4096x2_S167936x1_S167936x2_1_0_n_n_0_1_12_wf
def gather_S4096x128_S167936x1_S167936x128_1_0_n_n_0_1_1128 : GatherDims S4096x128 S167936x1 S167936x128 where
  offsetDims := [1]
  collapsedSliceDims := [0]
  operandBatchingDims := []
  startIndicesBatchingDims := []
  startIndexMap := [0]
  indexVectorDim := 1
  sliceSizes := ![1, 128]
  wf := gather_S4096x128_S167936x1_S167936x128_1_0_n_n_0_1_1128_wf
def dot_S2048x2_S2x128_S2048x128_1_0_0_1_n_n : DotDims S2048x2 S2x128 S2048x128 where
  lhsContracting := [1]
  rhsContracting := [0]
  lhsNonContracting := [0]
  rhsNonContracting := [1]
  lhsBatch := []
  rhsBatch := []
  wf := dot_S2048x2_S2x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x384_S384x128_S2048x128_1_0_0_1_n_n : DotDims S2048x384 S384x128 S2048x128 where
  lhsContracting := [1]
  rhsContracting := [0]
  lhsNonContracting := [0]
  rhsNonContracting := [1]
  lhsBatch := []
  rhsBatch := []
  wf := dot_S2048x384_S384x128_S2048x128_1_0_0_1_n_n_wf
def scatter_S4097x128_S167936x1_S167936x128_1_0_0_1 : ScatterDims S4097x128 S167936x1 S167936x128 where
  updateWindowDims := [1]
  insertedWindowDims := [0]
  scatterDimsToOperandDims := [0]
  indexVectorDim := 1
  wf := scatter_S4097x128_S167936x1_S167936x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v20) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v51) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v55) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v58) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v65) S384x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v68) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v71) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v75) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v76) S2048x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v89) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v92) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v95) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v99) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v102) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v105) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v106) S1024x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v121) S2048x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v128) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v135) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v139) S2x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v142) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v146) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v149) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v152) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v156) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v159) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v162) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v166) S384x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v169) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v172) S1x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v176) S128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v177) S2048x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev win3_0 : Pipeline.Window sig grid3 :=
  Pipeline.Window.ofSpec (Memref.whole main_v106) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v186) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v190) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v193) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v196) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v200) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v203) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v206) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v207) S1024x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S4096x128 : Shape := ⟨2, ![4096, 128]⟩
abbrev S4096x2 : Shape := ⟨2, ![4096, 2]⟩
abbrev S167386 : Shape := ⟨1, ![167386]⟩
abbrev S2x128x2 : Shape := ⟨3, ![2, 128, 2]⟩
abbrev S2x128 : Shape := ⟨2, ![2, 128]⟩
abbrev S2x128x128 : Shape := ⟨3, ![2, 128, 128]⟩
abbrev S2x128x384 : Shape := ⟨3, ![2, 128, 384]⟩
abbrev S1x128x2 : Shape := ⟨3, ![1, 128, 2]⟩
abbrev S128x2 : Shape := ⟨2, ![128, 2]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x128x384 : Shape := ⟨3, ![1, 128, 384]⟩
abbrev S128x384 : Shape := ⟨2, ![128, 384]⟩
abbrev S_ : Shape := ⟨0, ![]⟩
abbrev S167386x1 : Shape := ⟨2, ![167386, 1]⟩
abbrev S167386x2 : Shape := ⟨2, ![167386, 2]⟩
abbrev S167386x128 : Shape := ⟨2, ![167386, 128]⟩
abbrev S167386x384 : Shape := ⟨2, ![167386, 384]⟩
abbrev S384x128 : Shape := ⟨2, ![384, 128]⟩
abbrev S4096 : Shape := ⟨1, ![4096]⟩
abbrev S4096x1 : Shape := ⟨2, ![4096, 1]⟩

abbrev nBuf : Space → Nat
  | .hbm => 570
  | .vmem => 0
  | .smem => 0
  | _ => 0

abbrev hbmTy0_0 (i : Nat) : BufTy := match i % 128 with
  | 0 => ⟨S4096x128, .f32⟩
  | 1 => ⟨S4096x2, .f32⟩
  | 2 => ⟨S167386, .i32⟩
  | 3 => ⟨S167386, .i32⟩
  | 4 => ⟨S2x128x2, .f32⟩
  | 5 => ⟨S2x128, .f32⟩
  | 6 => ⟨S2x128x128, .f32⟩
  | 7 => ⟨S2x128, .f32⟩
  | 8 => ⟨S2x128, .f32⟩
  | 9 => ⟨S2x128x128, .f32⟩
  | 10 => ⟨S2x128, .f32⟩
  | 11 => ⟨S2x128, .f32⟩
  | 12 => ⟨S2x128x384, .f32⟩
  | 13 => ⟨S2x128, .f32⟩
  | 14 => ⟨S2x128, .f32⟩
  | 15 => ⟨S2x128x128, .f32⟩
  | 16 => ⟨S2x128x128, .f32⟩
  | 17 => ⟨S2x128, .f32⟩
  | 18 => ⟨S2x128, .f32⟩
  | 19 => ⟨S2x128x128, .f32⟩
  | 20 => ⟨S2x128, .f32⟩
  | 21 => ⟨S2x128, .f32⟩
  | 22 => ⟨S1x128x2, .f32⟩
  | 23 => ⟨S128x2, .f32⟩
  | 24 => ⟨S1x128, .f32⟩
  | 25 => ⟨S128, .f32⟩
  | 26 => ⟨S1x128x128, .f32⟩
  | 27 => ⟨S128x128, .f32⟩
  | 28 => ⟨S1x128, .f32⟩
  | 29 => ⟨S128, .f32⟩
  | 30 => ⟨S1x128, .f32⟩
  | 31 => ⟨S128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S128, .f32⟩
  | 38 => ⟨S1x128x384, .f32⟩
  | 39 => ⟨S128x384, .f32⟩
  | 40 => ⟨S1x128, .f32⟩
  | 41 => ⟨S128, .f32⟩
  | 42 => ⟨S1x128, .f32⟩
  | 43 => ⟨S128, .f32⟩
  | 44 => ⟨S1x128x128, .f32⟩
  | 45 => ⟨S128x128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S128, .f32⟩
  | 58 => ⟨S_, .i32⟩
  | 59 => ⟨S167386, .i32⟩
  | 60 => ⟨S167386, .i1⟩
  | 61 => ⟨S_, .i32⟩
  | 62 => ⟨S167386, .i32⟩
  | 63 => ⟨S167386, .i32⟩
  | 64 => ⟨S167386, .i32⟩
  | 65 => ⟨S167386x1, .i32⟩
  | 66 => ⟨S167386x2, .f32⟩
  | 67 => ⟨S_, .i32⟩
  | 68 => ⟨S167386, .i32⟩
  | 69 => ⟨S167386, .i1⟩
  | 70 => ⟨S_, .i32⟩
  | 71 => ⟨S167386, .i32⟩
  | 72 => ⟨S167386, .i32⟩
  | 73 => ⟨S167386, .i32⟩
  | 74 => ⟨S167386x1, .i32⟩
  | 75 => ⟨S167386x2, .f32⟩
  | 76 => ⟨S167386x2, .f32⟩
  | 77 => ⟨S2x128, .f32⟩
  | 78 => ⟨S167386x128, .f32⟩
  | 79 => ⟨S1x128, .f32⟩
  | 80 => ⟨S167386x128, .f32⟩
  | 81 => ⟨S167386x128, .f32⟩
  | 82 => ⟨S_, .f32⟩
  | 83 => ⟨S167386x128, .f32⟩
  | 84 => ⟨S167386x128, .f32⟩
  | 85 => ⟨S128x128, .f32⟩
  | 86 => ⟨S167386x128, .f32⟩
  | 87 => ⟨S_, .f32⟩
  | 88 => ⟨S167386, .f32⟩
  | 89 => ⟨S167386x1, .f32⟩
  | 90 => ⟨S_, .f32⟩
  | 91 => ⟨S167386x1, .f32⟩
  | 92 => ⟨S167386x1, .f32⟩
  | 93 => ⟨S167386x128, .f32⟩
  | 94 => ⟨S167386x128, .f32⟩
  | 95 => ⟨S167386x128, .f32⟩
  | 96 => ⟨S_, .f32⟩
  | 97 => ⟨S167386, .f32⟩
  | 98 => ⟨S167386x1, .f32⟩
  | 99 => ⟨S_, .f32⟩
  | 100 => ⟨S167386x1, .f32⟩
  | 101 => ⟨S167386x1, .f32⟩
  | 102 => ⟨S167386x128, .f32⟩
  | 103 => ⟨S167386x128, .f32⟩
  | 104 => ⟨S_, .f32⟩
  | 105 => ⟨S167386x1, .f32⟩
  | 106 => ⟨S167386x1, .f32⟩
  | 107 => ⟨S167386x1, .f32⟩
  | 108 => ⟨S167386x128, .f32⟩
  | 109 => ⟨S167386x128, .f32⟩
  | 110 => ⟨S1x128, .f32⟩
  | 111 => ⟨S167386x128, .f32⟩
  | 112 => ⟨S167386x128, .f32⟩
  | 113 => ⟨S1x128, .f32⟩
  | 114 => ⟨S167386x128, .f32⟩
  | 115 => ⟨S167386x128, .f32⟩
  | 116 => ⟨S_, .f32⟩
  | 117 => ⟨S167386x128, .f32⟩
  | 118 => ⟨S167386x128, .f32⟩
  | 119 => ⟨S_, .i32⟩
  | 120 => ⟨S167386, .i32⟩
  | 121 => ⟨S167386, .i1⟩
  | 122 => ⟨S_, .i32⟩
  | 123 => ⟨S167386, .i32⟩
  | 124 => ⟨S167386, .i32⟩
  | 125 => ⟨S167386, .i32⟩
  | 126 => ⟨S167386x1, .i32⟩
  | 127 => ⟨S167386x128, .f32⟩
  | _ => ⟨S4096x128, .f32⟩

abbrev hbmTy0_1 (i : Nat) : BufTy := match i % 128 with
  | 0 => ⟨S128x128, .f32⟩
  | 1 => ⟨S167386x128, .f32⟩
  | 2 => ⟨S_, .f32⟩
  | 3 => ⟨S167386, .f32⟩
  | 4 => ⟨S167386x1, .f32⟩
  | 5 => ⟨S_, .f32⟩
  | 6 => ⟨S167386x1, .f32⟩
  | 7 => ⟨S167386x1, .f32⟩
  | 8 => ⟨S167386x128, .f32⟩
  | 9 => ⟨S167386x128, .f32⟩
  | 10 => ⟨S167386x128, .f32⟩
  | 11 => ⟨S_, .f32⟩
  | 12 => ⟨S167386, .f32⟩
  | 13 => ⟨S167386x1, .f32⟩
  | 14 => ⟨S_, .f32⟩
  | 15 => ⟨S167386x1, .f32⟩
  | 16 => ⟨S167386x1, .f32⟩
  | 17 => ⟨S167386x128, .f32⟩
  | 18 => ⟨S167386x128, .f32⟩
  | 19 => ⟨S_, .f32⟩
  | 20 => ⟨S167386x1, .f32⟩
  | 21 => ⟨S167386x1, .f32⟩
  | 22 => ⟨S167386x1, .f32⟩
  | 23 => ⟨S167386x128, .f32⟩
  | 24 => ⟨S167386x128, .f32⟩
  | 25 => ⟨S1x128, .f32⟩
  | 26 => ⟨S167386x128, .f32⟩
  | 27 => ⟨S167386x128, .f32⟩
  | 28 => ⟨S1x128, .f32⟩
  | 29 => ⟨S167386x128, .f32⟩
  | 30 => ⟨S167386x128, .f32⟩
  | 31 => ⟨S_, .f32⟩
  | 32 => ⟨S167386x128, .f32⟩
  | 33 => ⟨S167386x128, .f32⟩
  | 34 => ⟨S_, .i32⟩
  | 35 => ⟨S167386, .i32⟩
  | 36 => ⟨S167386, .i1⟩
  | 37 => ⟨S_, .i32⟩
  | 38 => ⟨S167386, .i32⟩
  | 39 => ⟨S167386, .i32⟩
  | 40 => ⟨S167386, .i32⟩
  | 41 => ⟨S167386x1, .i32⟩
  | 42 => ⟨S167386x128, .f32⟩
  | 43 => ⟨S167386x384, .f32⟩
  | 44 => ⟨S384x128, .f32⟩
  | 45 => ⟨S167386x128, .f32⟩
  | 46 => ⟨S_, .f32⟩
  | 47 => ⟨S167386, .f32⟩
  | 48 => ⟨S167386x1, .f32⟩
  | 49 => ⟨S_, .f32⟩
  | 50 => ⟨S167386x1, .f32⟩
  | 51 => ⟨S167386x1, .f32⟩
  | 52 => ⟨S167386x128, .f32⟩
  | 53 => ⟨S167386x128, .f32⟩
  | 54 => ⟨S167386x128, .f32⟩
  | 55 => ⟨S_, .f32⟩
  | 56 => ⟨S167386, .f32⟩
  | 57 => ⟨S167386x1, .f32⟩
  | 58 => ⟨S_, .f32⟩
  | 59 => ⟨S167386x1, .f32⟩
  | 60 => ⟨S167386x1, .f32⟩
  | 61 => ⟨S167386x128, .f32⟩
  | 62 => ⟨S167386x128, .f32⟩
  | 63 => ⟨S_, .f32⟩
  | 64 => ⟨S167386x1, .f32⟩
  | 65 => ⟨S167386x1, .f32⟩
  | 66 => ⟨S167386x1, .f32⟩
  | 67 => ⟨S167386x128, .f32⟩
  | 68 => ⟨S167386x128, .f32⟩
  | 69 => ⟨S1x128, .f32⟩
  | 70 => ⟨S167386x128, .f32⟩
  | 71 => ⟨S167386x128, .f32⟩
  | 72 => ⟨S1x128, .f32⟩
  | 73 => ⟨S167386x128, .f32⟩
  | 74 => ⟨S167386x128, .f32⟩
  | 75 => ⟨S_, .f32⟩
  | 76 => ⟨S167386x128, .f32⟩
  | 77 => ⟨S167386x128, .f32⟩
  | 78 => ⟨S128x128, .f32⟩
  | 79 => ⟨S167386x128, .f32⟩
  | 80 => ⟨S128x128, .f32⟩
  | 81 => ⟨S4096x128, .f32⟩
  | 82 => ⟨S_, .i32⟩
  | 83 => ⟨S167386, .i32⟩
  | 84 => ⟨S167386, .i1⟩
  | 85 => ⟨S_, .i32⟩
  | 86 => ⟨S167386, .i32⟩
  | 87 => ⟨S167386, .i32⟩
  | 88 => ⟨S167386, .i32⟩
  | 89 => ⟨S167386x1, .i32⟩
  | 90 => ⟨S4096x128, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S4096x128, .f32⟩
  | 98 => ⟨S4096x128, .f32⟩
  | 99 => ⟨S4096x128, .f32⟩
  | 100 => ⟨S_, .f32⟩
  | 101 => ⟨S4096, .f32⟩
  | 102 => ⟨S4096x1, .f32⟩
  | 103 => ⟨S_, .f32⟩
  | 104 => ⟨S4096x1, .f32⟩
  | 105 => ⟨S4096x1, .f32⟩
  | 106 => ⟨S4096x128, .f32⟩
  | 107 => ⟨S4096x128, .f32⟩
  | 108 => ⟨S_, .f32⟩
  | 109 => ⟨S4096x1, .f32⟩
  | 110 => ⟨S4096x1, .f32⟩
  | 111 => ⟨S4096x1, .f32⟩
  | 112 => ⟨S4096x128, .f32⟩
  | 113 => ⟨S4096x128, .f32⟩
  | 114 => ⟨S1x128, .f32⟩
  | 115 => ⟨S4096x128, .f32⟩
  | 116 => ⟨S4096x128, .f32⟩
  | 117 => ⟨S1x128, .f32⟩
  | 118 => ⟨S4096x128, .f32⟩
  | 119 => ⟨S4096x128, .f32⟩
  | 120 => ⟨S_, .f32⟩
  | 121 => ⟨S_, .f32⟩
  | 122 => ⟨S4096x128, .f32⟩
  | 123 => ⟨S4096x128, .i1⟩
  | 124 => ⟨S_, .f32⟩
  | 125 => ⟨S4096x128, .f32⟩
  | 126 => ⟨S4096x128, .f32⟩
  | 127 => ⟨S4096x128, .f32⟩
  | _ => ⟨S4096x128, .f32⟩

abbrev hbmTy0_2 (i : Nat) : BufTy := match i % 128 with
  | 0 => ⟨S128x128, .f32⟩
  | 1 => ⟨S4096x128, .f32⟩
  | 2 => ⟨S_, .f32⟩
  | 3 => ⟨S4096, .f32⟩
  | 4 => ⟨S4096x1, .f32⟩
  | 5 => ⟨S_, .f32⟩
  | 6 => ⟨S4096x1, .f32⟩
  | 7 => ⟨S4096x1, .f32⟩
  | 8 => ⟨S4096x128, .f32⟩
  | 9 => ⟨S4096x128, .f32⟩
  | 10 => ⟨S4096x128, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S4096x128, .f32⟩
  | 18 => ⟨S4096x128, .f32⟩
  | 19 => ⟨S_, .f32⟩
  | 20 => ⟨S4096x1, .f32⟩
  | 21 => ⟨S4096x1, .f32⟩
  | 22 => ⟨S4096x1, .f32⟩
  | 23 => ⟨S4096x128, .f32⟩
  | 24 => ⟨S4096x128, .f32⟩
  | 25 => ⟨S1x128, .f32⟩
  | 26 => ⟨S4096x128, .f32⟩
  | 27 => ⟨S4096x128, .f32⟩
  | 28 => ⟨S1x128, .f32⟩
  | 29 => ⟨S4096x128, .f32⟩
  | 30 => ⟨S4096x128, .f32⟩
  | 31 => ⟨S4096x128, .f32⟩
  | 32 => ⟨S_, .f32⟩
  | 33 => ⟨S_, .f32⟩
  | 34 => ⟨S4096x128, .f32⟩
  | 35 => ⟨S4096x128, .i1⟩
  | 36 => ⟨S_, .f32⟩
  | 37 => ⟨S4096x128, .f32⟩
  | 38 => ⟨S4096x128, .f32⟩
  | 39 => ⟨S4096x128, .f32⟩
  | 40 => ⟨S1x128x2, .f32⟩
  | 41 => ⟨S128x2, .f32⟩
  | 42 => ⟨S1x128, .f32⟩
  | 43 => ⟨S128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S128, .f32⟩
  | 50 => ⟨S1x128x128, .f32⟩
  | 51 => ⟨S128x128, .f32⟩
  | 52 => ⟨S1x128, .f32⟩
  | 53 => ⟨S128, .f32⟩
  | 54 => ⟨S1x128, .f32⟩
  | 55 => ⟨S128, .f32⟩
  | 56 => ⟨S1x128x384, .f32⟩
  | 57 => ⟨S128x384, .f32⟩
  | 58 => ⟨S1x128, .f32⟩
  | 59 => ⟨S128, .f32⟩
  | 60 => ⟨S1x128, .f32⟩
  | 61 => ⟨S128, .f32⟩
  | 62 => ⟨S1x128x128, .f32⟩
  | 63 => ⟨S128x128, .f32⟩
  | 64 => ⟨S1x128x128, .f32⟩
  | 65 => ⟨S128x128, .f32⟩
  | 66 => ⟨S1x128, .f32⟩
  | 67 => ⟨S128, .f32⟩
  | 68 => ⟨S1x128, .f32⟩
  | 69 => ⟨S128, .f32⟩
  | 70 => ⟨S1x128x128, .f32⟩
  | 71 => ⟨S128x128, .f32⟩
  | 72 => ⟨S1x128, .f32⟩
  | 73 => ⟨S128, .f32⟩
  | 74 => ⟨S1x128, .f32⟩
  | 75 => ⟨S128, .f32⟩
  | 76 => ⟨S_, .i32⟩
  | 77 => ⟨S167386, .i32⟩
  | 78 => ⟨S167386, .i1⟩
  | 79 => ⟨S_, .i32⟩
  | 80 => ⟨S167386, .i32⟩
  | 81 => ⟨S167386, .i32⟩
  | 82 => ⟨S167386, .i32⟩
  | 83 => ⟨S167386x1, .i32⟩
  | 84 => ⟨S167386x2, .f32⟩
  | 85 => ⟨S_, .i32⟩
  | 86 => ⟨S167386, .i32⟩
  | 87 => ⟨S167386, .i1⟩
  | 88 => ⟨S_, .i32⟩
  | 89 => ⟨S167386, .i32⟩
  | 90 => ⟨S167386, .i32⟩
  | 91 => ⟨S167386, .i32⟩
  | 92 => ⟨S167386x1, .i32⟩
  | 93 => ⟨S167386x2, .f32⟩
  | 94 => ⟨S167386x2, .f32⟩
  | 95 => ⟨S2x128, .f32⟩
  | 96 => ⟨S167386x128, .f32⟩
  | 97 => ⟨S1x128, .f32⟩
  | 98 => ⟨S167386x128, .f32⟩
  | 99 => ⟨S167386x128, .f32⟩
  | 100 => ⟨S_, .f32⟩
  | 101 => ⟨S167386x128, .f32⟩
  | 102 => ⟨S167386x128, .f32⟩
  | 103 => ⟨S128x128, .f32⟩
  | 104 => ⟨S167386x128, .f32⟩
  | 105 => ⟨S_, .f32⟩
  | 106 => ⟨S167386, .f32⟩
  | 107 => ⟨S167386x1, .f32⟩
  | 108 => ⟨S_, .f32⟩
  | 109 => ⟨S167386x1, .f32⟩
  | 110 => ⟨S167386x1, .f32⟩
  | 111 => ⟨S167386x128, .f32⟩
  | 112 => ⟨S167386x128, .f32⟩
  | 113 => ⟨S167386x128, .f32⟩
  | 114 => ⟨S_, .f32⟩
  | 115 => ⟨S167386, .f32⟩
  | 116 => ⟨S167386x1, .f32⟩
  | 117 => ⟨S_, .f32⟩
  | 118 => ⟨S167386x1, .f32⟩
  | 119 => ⟨S167386x1, .f32⟩
  | 120 => ⟨S167386x128, .f32⟩
  | 121 => ⟨S167386x128, .f32⟩
  | 122 => ⟨S_, .f32⟩
  | 123 => ⟨S167386x1, .f32⟩
  | 124 => ⟨S167386x1, .f32⟩
  | 125 => ⟨S167386x1, .f32⟩
  | 126 => ⟨S167386x128, .f32⟩
  | 127 => ⟨S167386x128, .f32⟩
  | _ => ⟨S4096x128, .f32⟩

abbrev hbmTy0_3 (i : Nat) : BufTy := match i % 128 with
  | 0 => ⟨S1x128, .f32⟩
  | 1 => ⟨S167386x128, .f32⟩
  | 2 => ⟨S167386x128, .f32⟩
  | 3 => ⟨S1x128, .f32⟩
  | 4 => ⟨S167386x128, .f32⟩
  | 5 => ⟨S167386x128, .f32⟩
  | 6 => ⟨S_, .f32⟩
  | 7 => ⟨S167386x128, .f32⟩
  | 8 => ⟨S167386x128, .f32⟩
  | 9 => ⟨S_, .i32⟩
  | 10 => ⟨S167386, .i32⟩
  | 11 => ⟨S167386, .i1⟩
  | 12 => ⟨S_, .i32⟩
  | 13 => ⟨S167386, .i32⟩
  | 14 => ⟨S167386, .i32⟩
  | 15 => ⟨S167386, .i32⟩
  | 16 => ⟨S167386x1, .i32⟩
  | 17 => ⟨S167386x128, .f32⟩
  | 18 => ⟨S128x128, .f32⟩
  | 19 => ⟨S167386x128, .f32⟩
  | 20 => ⟨S_, .f32⟩
  | 21 => ⟨S167386, .f32⟩
  | 22 => ⟨S167386x1, .f32⟩
  | 23 => ⟨S_, .f32⟩
  | 24 => ⟨S167386x1, .f32⟩
  | 25 => ⟨S167386x1, .f32⟩
  | 26 => ⟨S167386x128, .f32⟩
  | 27 => ⟨S167386x128, .f32⟩
  | 28 => ⟨S167386x128, .f32⟩
  | 29 => ⟨S_, .f32⟩
  | 30 => ⟨S167386, .f32⟩
  | 31 => ⟨S167386x1, .f32⟩
  | 32 => ⟨S_, .f32⟩
  | 33 => ⟨S167386x1, .f32⟩
  | 34 => ⟨S167386x1, .f32⟩
  | 35 => ⟨S167386x128, .f32⟩
  | 36 => ⟨S167386x128, .f32⟩
  | 37 => ⟨S_, .f32⟩
  | 38 => ⟨S167386x1, .f32⟩
  | 39 => ⟨S167386x1, .f32⟩
  | 40 => ⟨S167386x1, .f32⟩
  | 41 => ⟨S167386x128, .f32⟩
  | 42 => ⟨S167386x128, .f32⟩
  | 43 => ⟨S1x128, .f32⟩
  | 44 => ⟨S167386x128, .f32⟩
  | 45 => ⟨S167386x128, .f32⟩
  | 46 => ⟨S1x128, .f32⟩
  | 47 => ⟨S167386x128, .f32⟩
  | 48 => ⟨S167386x128, .f32⟩
  | 49 => ⟨S_, .f32⟩
  | 50 => ⟨S167386x128, .f32⟩
  | 51 => ⟨S167386x128, .f32⟩
  | 52 => ⟨S_, .i32⟩
  | 53 => ⟨S167386, .i32⟩
  | 54 => ⟨S167386, .i1⟩
  | 55 => ⟨S_, .i32⟩
  | 56 => ⟨S167386, .i32⟩
  | 57 => ⟨S167386, .i32⟩
  | 58 => ⟨S167386, .i32⟩
  | 59 => ⟨S167386x1, .i32⟩
  | 60 => ⟨S167386x128, .f32⟩
  | 61 => ⟨S167386x384, .f32⟩
  | 62 => ⟨S384x128, .f32⟩
  | 63 => ⟨S167386x128, .f32⟩
  | 64 => ⟨S_, .f32⟩
  | 65 => ⟨S167386, .f32⟩
  | 66 => ⟨S167386x1, .f32⟩
  | 67 => ⟨S_, .f32⟩
  | 68 => ⟨S167386x1, .f32⟩
  | 69 => ⟨S167386x1, .f32⟩
  | 70 => ⟨S167386x128, .f32⟩
  | 71 => ⟨S167386x128, .f32⟩
  | 72 => ⟨S167386x128, .f32⟩
  | 73 => ⟨S_, .f32⟩
  | 74 => ⟨S167386, .f32⟩
  | 75 => ⟨S167386x1, .f32⟩
  | 76 => ⟨S_, .f32⟩
  | 77 => ⟨S167386x1, .f32⟩
  | 78 => ⟨S167386x1, .f32⟩
  | 79 => ⟨S167386x128, .f32⟩
  | 80 => ⟨S167386x128, .f32⟩
  | 81 => ⟨S_, .f32⟩
  | 82 => ⟨S167386x1, .f32⟩
  | 83 => ⟨S167386x1, .f32⟩
  | 84 => ⟨S167386x1, .f32⟩
  | 85 => ⟨S167386x128, .f32⟩
  | 86 => ⟨S167386x128, .f32⟩
  | 87 => ⟨S1x128, .f32⟩
  | 88 => ⟨S167386x128, .f32⟩
  | 89 => ⟨S167386x128, .f32⟩
  | 90 => ⟨S1x128, .f32⟩
  | 91 => ⟨S167386x128, .f32⟩
  | 92 => ⟨S167386x128, .f32⟩
  | 93 => ⟨S_, .f32⟩
  | 94 => ⟨S167386x128, .f32⟩
  | 95 => ⟨S167386x128, .f32⟩
  | 96 => ⟨S128x128, .f32⟩
  | 97 => ⟨S167386x128, .f32⟩
  | 98 => ⟨S128x128, .f32⟩
  | 99 => ⟨S4096x128, .f32⟩
  | 100 => ⟨S_, .i32⟩
  | 101 => ⟨S167386, .i32⟩
  | 102 => ⟨S167386, .i1⟩
  | 103 => ⟨S_, .i32⟩
  | 104 => ⟨S167386, .i32⟩
  | 105 => ⟨S167386, .i32⟩
  | 106 => ⟨S167386, .i32⟩
  | 107 => ⟨S167386x1, .i32⟩
  | 108 => ⟨S4096x128, .f32⟩
  | 109 => ⟨S_, .f32⟩
  | 110 => ⟨S4096, .f32⟩
  | 111 => ⟨S4096x1, .f32⟩
  | 112 => ⟨S_, .f32⟩
  | 113 => ⟨S4096x1, .f32⟩
  | 114 => ⟨S4096x1, .f32⟩
  | 115 => ⟨S4096x128, .f32⟩
  | 116 => ⟨S4096x128, .f32⟩
  | 117 => ⟨S4096x128, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S4096x128, .f32⟩
  | 125 => ⟨S4096x128, .f32⟩
  | 126 => ⟨S_, .f32⟩
  | 127 => ⟨S4096x1, .f32⟩
  | _ => ⟨S4096x128, .f32⟩

abbrev hbmTy0_4 (i : Nat) : BufTy := match i % 128 with
  | 0 => ⟨S4096x1, .f32⟩
  | 1 => ⟨S4096x1, .f32⟩
  | 2 => ⟨S4096x128, .f32⟩
  | 3 => ⟨S4096x128, .f32⟩
  | 4 => ⟨S1x128, .f32⟩
  | 5 => ⟨S4096x128, .f32⟩
  | 6 => ⟨S4096x128, .f32⟩
  | 7 => ⟨S1x128, .f32⟩
  | 8 => ⟨S4096x128, .f32⟩
  | 9 => ⟨S4096x128, .f32⟩
  | 10 => ⟨S_, .f32⟩
  | 11 => ⟨S_, .f32⟩
  | 12 => ⟨S4096x128, .f32⟩
  | 13 => ⟨S4096x128, .i1⟩
  | 14 => ⟨S_, .f32⟩
  | 15 => ⟨S4096x128, .f32⟩
  | 16 => ⟨S4096x128, .f32⟩
  | 17 => ⟨S4096x128, .f32⟩
  | 18 => ⟨S128x128, .f32⟩
  | 19 => ⟨S4096x128, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x128, .f32⟩
  | 27 => ⟨S4096x128, .f32⟩
  | 28 => ⟨S4096x128, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S4096x128, .f32⟩
  | 36 => ⟨S4096x128, .f32⟩
  | 37 => ⟨S_, .f32⟩
  | 38 => ⟨S4096x1, .f32⟩
  | 39 => ⟨S4096x1, .f32⟩
  | 40 => ⟨S4096x1, .f32⟩
  | 41 => ⟨S4096x128, .f32⟩
  | 42 => ⟨S4096x128, .f32⟩
  | 43 => ⟨S1x128, .f32⟩
  | 44 => ⟨S4096x128, .f32⟩
  | 45 => ⟨S4096x128, .f32⟩
  | 46 => ⟨S1x128, .f32⟩
  | 47 => ⟨S4096x128, .f32⟩
  | 48 => ⟨S4096x128, .f32⟩
  | 49 => ⟨S4096x128, .f32⟩
  | 50 => ⟨S_, .f32⟩
  | 51 => ⟨S_, .f32⟩
  | 52 => ⟨S4096x128, .f32⟩
  | 53 => ⟨S4096x128, .i1⟩
  | 54 => ⟨S_, .f32⟩
  | 55 => ⟨S4096x128, .f32⟩
  | 56 => ⟨S4096x128, .f32⟩
  | 57 => ⟨S4096x128, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c : Ref sig .tc := ⟨.hbm, 58, rfl⟩
abbrev main_v36 : Ref sig .tc := ⟨.hbm, 59, rfl⟩
abbrev main_v37 : Ref sig .tc := ⟨.hbm, 60, rfl⟩
abbrev main_c_0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_1 : Ref sig .tc := ⟨.hbm, 67, rfl⟩
abbrev main_v43 : Ref sig .tc := ⟨.hbm, 68, rfl⟩
abbrev main_v44 : Ref sig .tc := ⟨.hbm, 69, rfl⟩
abbrev main_c_2 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call0_cst : Ref sig .tc := ⟨.hbm, 82, rfl⟩
abbrev main_call0_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst : Ref sig .tc := ⟨.hbm, 87, rfl⟩
abbrev main_v59 : Ref sig .tc := ⟨.hbm, 88, rfl⟩
abbrev main_v60 : Ref sig .tc := ⟨.hbm, 89, rfl⟩
abbrev main_cst_3 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_4 : Ref sig .tc := ⟨.hbm, 96, rfl⟩
abbrev main_v66 : Ref sig .tc := ⟨.hbm, 97, rfl⟩
abbrev main_v67 : Ref sig .tc := ⟨.hbm, 98, rfl⟩
abbrev main_cst_5 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_6 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call1_cst : Ref sig .tc := ⟨.hbm, 116, rfl⟩
abbrev main_call1_v0 : Ref sig .tc := ⟨.hbm, 117, rfl⟩
abbrev main_v83 : Ref sig .tc := ⟨.hbm, 118, rfl⟩
abbrev main_c_7 : Ref sig .tc := ⟨.hbm, 119, rfl⟩
abbrev main_v84 : Ref sig .tc := ⟨.hbm, 120, rfl⟩
abbrev main_v85 : Ref sig .tc := ⟨.hbm, 121, rfl⟩
abbrev main_c_8 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_9 : Ref sig .tc := ⟨.hbm, 130, rfl⟩
abbrev main_v93 : Ref sig .tc := ⟨.hbm, 131, rfl⟩
abbrev main_v94 : Ref sig .tc := ⟨.hbm, 132, rfl⟩
abbrev main_cst_10 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_11 : Ref sig .tc := ⟨.hbm, 139, rfl⟩
abbrev main_v100 : Ref sig .tc := ⟨.hbm, 140, rfl⟩
abbrev main_v101 : Ref sig .tc := ⟨.hbm, 141, rfl⟩
abbrev main_cst_12 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_13 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_call2_cst : Ref sig .tc := ⟨.hbm, 159, rfl⟩
abbrev main_call2_v0 : Ref sig .tc := ⟨.hbm, 160, rfl⟩
abbrev main_v117 : Ref sig .tc := ⟨.hbm, 161, rfl⟩
abbrev main_c_14 : Ref sig .tc := ⟨.hbm, 162, rfl⟩
abbrev main_v118 : Ref sig .tc := ⟨.hbm, 163, rfl⟩
abbrev main_v119 : Ref sig .tc := ⟨.hbm, 164, rfl⟩
abbrev main_c_15 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_16 : Ref sig .tc := ⟨.hbm, 174, rfl⟩
abbrev main_v128 : Ref sig .tc := ⟨.hbm, 175, rfl⟩
abbrev main_v129 : Ref sig .tc := ⟨.hbm, 176, rfl⟩
abbrev main_cst_17 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_18 : Ref sig .tc := ⟨.hbm, 183, rfl⟩
abbrev main_v135 : Ref sig .tc := ⟨.hbm, 184, rfl⟩
abbrev main_v136 : Ref sig .tc := ⟨.hbm, 185, rfl⟩
abbrev main_cst_19 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_20 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_call3_cst : Ref sig .tc := ⟨.hbm, 203, rfl⟩
abbrev main_call3_v0 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_c_21 : Ref sig .tc := ⟨.hbm, 210, rfl⟩
abbrev main_v157 : Ref sig .tc := ⟨.hbm, 211, rfl⟩
abbrev main_v158 : Ref sig .tc := ⟨.hbm, 212, rfl⟩
abbrev main_c_22 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_23 : Ref sig .tc := ⟨.hbm, 219, rfl⟩
abbrev main_v164 : Ref sig .tc := ⟨.hbm, 220, rfl⟩
abbrev main_v165 : Ref sig .tc := ⟨.hbm, 221, rfl⟩
abbrev main_cst_24 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_25 : Ref sig .tc := ⟨.hbm, 228, rfl⟩
abbrev main_v171 : Ref sig .tc := ⟨.hbm, 229, rfl⟩
abbrev main_v172 : Ref sig .tc := ⟨.hbm, 230, rfl⟩
abbrev main_cst_26 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_27 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_28 : Ref sig .tc := ⟨.hbm, 248, rfl⟩
abbrev main_call4_cst : Ref sig .tc := ⟨.hbm, 249, rfl⟩
abbrev main_call4_v0 : Ref sig .tc := ⟨.hbm, 250, rfl⟩
abbrev main_call4_v1 : Ref sig .tc := ⟨.hbm, 251, rfl⟩
abbrev main_call4_v2 : Ref sig .tc := ⟨.hbm, 252, rfl⟩
abbrev main_call4_v3 : Ref sig .tc := ⟨.hbm, 253, rfl⟩
abbrev main_call4_v4 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_cst_29 : Ref sig .tc := ⟨.hbm, 258, rfl⟩
abbrev main_v191 : Ref sig .tc := ⟨.hbm, 259, rfl⟩
abbrev main_v192 : Ref sig .tc := ⟨.hbm, 260, rfl⟩
abbrev main_cst_30 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_cst_31 : Ref sig .tc := ⟨.hbm, 267, rfl⟩
abbrev main_v198 : Ref sig .tc := ⟨.hbm, 268, rfl⟩
abbrev main_v199 : Ref sig .tc := ⟨.hbm, 269, rfl⟩
abbrev main_cst_32 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_cst_33 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_cst_34 : Ref sig .tc := ⟨.hbm, 288, rfl⟩
abbrev main_call5_cst : Ref sig .tc := ⟨.hbm, 289, rfl⟩
abbrev main_call5_v0 : Ref sig .tc := ⟨.hbm, 290, rfl⟩
abbrev main_call5_v1 : Ref sig .tc := ⟨.hbm, 291, rfl⟩
abbrev main_call5_v2 : Ref sig .tc := ⟨.hbm, 292, rfl⟩
abbrev main_call5_v3 : Ref sig .tc := ⟨.hbm, 293, rfl⟩
abbrev main_call5_v4 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_c_35 : Ref sig .tc := ⟨.hbm, 332, rfl⟩
abbrev main_v253 : Ref sig .tc := ⟨.hbm, 333, rfl⟩
abbrev main_v254 : Ref sig .tc := ⟨.hbm, 334, rfl⟩
abbrev main_c_36 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_c_37 : Ref sig .tc := ⟨.hbm, 341, rfl⟩
abbrev main_v260 : Ref sig .tc := ⟨.hbm, 342, rfl⟩
abbrev main_v261 : Ref sig .tc := ⟨.hbm, 343, rfl⟩
abbrev main_c_38 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_call6_cst : Ref sig .tc := ⟨.hbm, 356, rfl⟩
abbrev main_call6_v0 : Ref sig .tc := ⟨.hbm, 357, rfl⟩
abbrev main_v273 : Ref sig .tc := ⟨.hbm, 358, rfl⟩
abbrev main_v274 : Ref sig .tc := ⟨.hbm, 359, rfl⟩
abbrev main_v275 : Ref sig .tc := ⟨.hbm, 360, rfl⟩
abbrev main_cst_39 : Ref sig .tc := ⟨.hbm, 361, rfl⟩
abbrev main_v276 : Ref sig .tc := ⟨.hbm, 362, rfl⟩
abbrev main_v277 : Ref sig .tc := ⟨.hbm, 363, rfl⟩
abbrev main_cst_40 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_cst_41 : Ref sig .tc := ⟨.hbm, 370, rfl⟩
abbrev main_v283 : Ref sig .tc := ⟨.hbm, 371, rfl⟩
abbrev main_v284 : Ref sig .tc := ⟨.hbm, 372, rfl⟩
abbrev main_cst_42 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_cst_43 : Ref sig .tc := ⟨.hbm, 378, rfl⟩
abbrev main_v289 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_v293 : Ref sig .tc := ⟨.hbm, 383, rfl⟩
abbrev main_v294 : Ref sig .tc := ⟨.hbm, 384, rfl⟩
abbrev main_v295 : Ref sig .tc := ⟨.hbm, 385, rfl⟩
abbrev main_v296 : Ref sig .tc := ⟨.hbm, 386, rfl⟩
abbrev main_v297 : Ref sig .tc := ⟨.hbm, 387, rfl⟩
abbrev main_v298 : Ref sig .tc := ⟨.hbm, 388, rfl⟩
abbrev main_v299 : Ref sig .tc := ⟨.hbm, 389, rfl⟩
abbrev main_call7_cst : Ref sig .tc := ⟨.hbm, 390, rfl⟩
abbrev main_call7_v0 : Ref sig .tc := ⟨.hbm, 391, rfl⟩
abbrev main_v300 : Ref sig .tc := ⟨.hbm, 392, rfl⟩
abbrev main_c_44 : Ref sig .tc := ⟨.hbm, 393, rfl⟩
abbrev main_v301 : Ref sig .tc := ⟨.hbm, 394, rfl⟩
abbrev main_v302 : Ref sig .tc := ⟨.hbm, 395, rfl⟩
abbrev main_c_45 : Ref sig .tc := ⟨.hbm, 396, rfl⟩
abbrev main_v303 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_cst_46 : Ref sig .tc := ⟨.hbm, 404, rfl⟩
abbrev main_v310 : Ref sig .tc := ⟨.hbm, 405, rfl⟩
abbrev main_v311 : Ref sig .tc := ⟨.hbm, 406, rfl⟩
abbrev main_cst_47 : Ref sig .tc := ⟨.hbm, 407, rfl⟩
abbrev main_v312 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_v316 : Ref sig .tc := ⟨.hbm, 412, rfl⟩
abbrev main_cst_48 : Ref sig .tc := ⟨.hbm, 413, rfl⟩
abbrev main_v317 : Ref sig .tc := ⟨.hbm, 414, rfl⟩
abbrev main_v318 : Ref sig .tc := ⟨.hbm, 415, rfl⟩
abbrev main_cst_49 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_cst_50 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_v326 : Ref sig .tc := ⟨.hbm, 425, rfl⟩
abbrev main_v327 : Ref sig .tc := ⟨.hbm, 426, rfl⟩
abbrev main_v328 : Ref sig .tc := ⟨.hbm, 427, rfl⟩
abbrev main_v329 : Ref sig .tc := ⟨.hbm, 428, rfl⟩
abbrev main_v330 : Ref sig .tc := ⟨.hbm, 429, rfl⟩
abbrev main_v331 : Ref sig .tc := ⟨.hbm, 430, rfl⟩
abbrev main_v332 : Ref sig .tc := ⟨.hbm, 431, rfl⟩
abbrev main_v333 : Ref sig .tc := ⟨.hbm, 432, rfl⟩
abbrev main_call8_cst : Ref sig .tc := ⟨.hbm, 433, rfl⟩
abbrev main_call8_v0 : Ref sig .tc := ⟨.hbm, 434, rfl⟩
abbrev main_v334 : Ref sig .tc := ⟨.hbm, 435, rfl⟩
abbrev main_c_51 : Ref sig .tc := ⟨.hbm, 436, rfl⟩
abbrev main_v335 : Ref sig .tc := ⟨.hbm, 437, rfl⟩
abbrev main_v336 : Ref sig .tc := ⟨.hbm, 438, rfl⟩
abbrev main_c_52 : Ref sig .tc := ⟨.hbm, 439, rfl⟩
abbrev main_v337 : Ref sig .tc := ⟨.hbm, 440, rfl⟩
abbrev main_v338 : Ref sig .tc := ⟨.hbm, 441, rfl⟩
abbrev main_v339 : Ref sig .tc := ⟨.hbm, 442, rfl⟩
abbrev main_v340 : Ref sig .tc := ⟨.hbm, 443, rfl⟩
abbrev main_v341 : Ref sig .tc := ⟨.hbm, 444, rfl⟩
abbrev main_v342 : Ref sig .tc := ⟨.hbm, 445, rfl⟩
abbrev main_v343 : Ref sig .tc := ⟨.hbm, 446, rfl⟩
abbrev main_v344 : Ref sig .tc := ⟨.hbm, 447, rfl⟩
abbrev main_cst_53 : Ref sig .tc := ⟨.hbm, 448, rfl⟩
abbrev main_v345 : Ref sig .tc := ⟨.hbm, 449, rfl⟩
abbrev main_v346 : Ref sig .tc := ⟨.hbm, 450, rfl⟩
abbrev main_cst_54 : Ref sig .tc := ⟨.hbm, 451, rfl⟩
abbrev main_v347 : Ref sig .tc := ⟨.hbm, 452, rfl⟩
abbrev main_v348 : Ref sig .tc := ⟨.hbm, 453, rfl⟩
abbrev main_v349 : Ref sig .tc := ⟨.hbm, 454, rfl⟩
abbrev main_v350 : Ref sig .tc := ⟨.hbm, 455, rfl⟩
abbrev main_v351 : Ref sig .tc := ⟨.hbm, 456, rfl⟩
abbrev main_cst_55 : Ref sig .tc := ⟨.hbm, 457, rfl⟩
abbrev main_v352 : Ref sig .tc := ⟨.hbm, 458, rfl⟩
abbrev main_v353 : Ref sig .tc := ⟨.hbm, 459, rfl⟩
abbrev main_cst_56 : Ref sig .tc := ⟨.hbm, 460, rfl⟩
abbrev main_v354 : Ref sig .tc := ⟨.hbm, 461, rfl⟩
abbrev main_v355 : Ref sig .tc := ⟨.hbm, 462, rfl⟩
abbrev main_v356 : Ref sig .tc := ⟨.hbm, 463, rfl⟩
abbrev main_v357 : Ref sig .tc := ⟨.hbm, 464, rfl⟩
abbrev main_cst_57 : Ref sig .tc := ⟨.hbm, 465, rfl⟩
abbrev main_v358 : Ref sig .tc := ⟨.hbm, 466, rfl⟩
abbrev main_v359 : Ref sig .tc := ⟨.hbm, 467, rfl⟩
abbrev main_v360 : Ref sig .tc := ⟨.hbm, 468, rfl⟩
abbrev main_v361 : Ref sig .tc := ⟨.hbm, 469, rfl⟩
abbrev main_v362 : Ref sig .tc := ⟨.hbm, 470, rfl⟩
abbrev main_v363 : Ref sig .tc := ⟨.hbm, 471, rfl⟩
abbrev main_v364 : Ref sig .tc := ⟨.hbm, 472, rfl⟩
abbrev main_v365 : Ref sig .tc := ⟨.hbm, 473, rfl⟩
abbrev main_v366 : Ref sig .tc := ⟨.hbm, 474, rfl⟩
abbrev main_v367 : Ref sig .tc := ⟨.hbm, 475, rfl⟩
abbrev main_v368 : Ref sig .tc := ⟨.hbm, 476, rfl⟩
abbrev main_call9_cst : Ref sig .tc := ⟨.hbm, 477, rfl⟩
abbrev main_call9_v0 : Ref sig .tc := ⟨.hbm, 478, rfl⟩
abbrev main_v369 : Ref sig .tc := ⟨.hbm, 479, rfl⟩
abbrev main_v370 : Ref sig .tc := ⟨.hbm, 480, rfl⟩
abbrev main_v371 : Ref sig .tc := ⟨.hbm, 481, rfl⟩
abbrev main_v372 : Ref sig .tc := ⟨.hbm, 482, rfl⟩
abbrev main_v373 : Ref sig .tc := ⟨.hbm, 483, rfl⟩
abbrev main_c_58 : Ref sig .tc := ⟨.hbm, 484, rfl⟩
abbrev main_v374 : Ref sig .tc := ⟨.hbm, 485, rfl⟩
abbrev main_v375 : Ref sig .tc := ⟨.hbm, 486, rfl⟩
abbrev main_c_59 : Ref sig .tc := ⟨.hbm, 487, rfl⟩
abbrev main_v376 : Ref sig .tc := ⟨.hbm, 488, rfl⟩
abbrev main_v377 : Ref sig .tc := ⟨.hbm, 489, rfl⟩
abbrev main_v378 : Ref sig .tc := ⟨.hbm, 490, rfl⟩
abbrev main_v379 : Ref sig .tc := ⟨.hbm, 491, rfl⟩
abbrev main_v380 : Ref sig .tc := ⟨.hbm, 492, rfl⟩
abbrev main_cst_60 : Ref sig .tc := ⟨.hbm, 493, rfl⟩
abbrev main_v381 : Ref sig .tc := ⟨.hbm, 494, rfl⟩
abbrev main_v382 : Ref sig .tc := ⟨.hbm, 495, rfl⟩
abbrev main_cst_61 : Ref sig .tc := ⟨.hbm, 496, rfl⟩
abbrev main_v383 : Ref sig .tc := ⟨.hbm, 497, rfl⟩
abbrev main_v384 : Ref sig .tc := ⟨.hbm, 498, rfl⟩
abbrev main_v385 : Ref sig .tc := ⟨.hbm, 499, rfl⟩
abbrev main_v386 : Ref sig .tc := ⟨.hbm, 500, rfl⟩
abbrev main_v387 : Ref sig .tc := ⟨.hbm, 501, rfl⟩
abbrev main_cst_62 : Ref sig .tc := ⟨.hbm, 502, rfl⟩
abbrev main_v388 : Ref sig .tc := ⟨.hbm, 503, rfl⟩
abbrev main_v389 : Ref sig .tc := ⟨.hbm, 504, rfl⟩
abbrev main_cst_63 : Ref sig .tc := ⟨.hbm, 505, rfl⟩
abbrev main_v390 : Ref sig .tc := ⟨.hbm, 506, rfl⟩
abbrev main_v391 : Ref sig .tc := ⟨.hbm, 507, rfl⟩
abbrev main_v392 : Ref sig .tc := ⟨.hbm, 508, rfl⟩
abbrev main_v393 : Ref sig .tc := ⟨.hbm, 509, rfl⟩
abbrev main_cst_64 : Ref sig .tc := ⟨.hbm, 510, rfl⟩
abbrev main_v394 : Ref sig .tc := ⟨.hbm, 511, rfl⟩
abbrev main_v395 : Ref sig .tc := ⟨.hbm, 512, rfl⟩
abbrev main_v396 : Ref sig .tc := ⟨.hbm, 513, rfl⟩
abbrev main_v397 : Ref sig .tc := ⟨.hbm, 514, rfl⟩
abbrev main_v398 : Ref sig .tc := ⟨.hbm, 515, rfl⟩
abbrev main_v399 : Ref sig .tc := ⟨.hbm, 516, rfl⟩
abbrev main_v400 : Ref sig .tc := ⟨.hbm, 517, rfl⟩
abbrev main_v401 : Ref sig .tc := ⟨.hbm, 518, rfl⟩
abbrev main_v402 : Ref sig .tc := ⟨.hbm, 519, rfl⟩
abbrev main_v403 : Ref sig .tc := ⟨.hbm, 520, rfl⟩
abbrev main_v404 : Ref sig .tc := ⟨.hbm, 521, rfl⟩
abbrev main_cst_65 : Ref sig .tc := ⟨.hbm, 522, rfl⟩
abbrev main_call10_cst : Ref sig .tc := ⟨.hbm, 523, rfl⟩
abbrev main_call10_v0 : Ref sig .tc := ⟨.hbm, 524, rfl⟩
abbrev main_call10_v1 : Ref sig .tc := ⟨.hbm, 525, rfl⟩
abbrev main_call10_v2 : Ref sig .tc := ⟨.hbm, 526, rfl⟩
abbrev main_call10_v3 : Ref sig .tc := ⟨.hbm, 527, rfl⟩
abbrev main_call10_v4 : Ref sig .tc := ⟨.hbm, 528, rfl⟩
abbrev main_v405 : Ref sig .tc := ⟨.hbm, 529, rfl⟩
abbrev main_v406 : Ref sig .tc := ⟨.hbm, 530, rfl⟩
abbrev main_v407 : Ref sig .tc := ⟨.hbm, 531, rfl⟩
abbrev main_cst_66 : Ref sig .tc := ⟨.hbm, 532, rfl⟩
abbrev main_v408 : Ref sig .tc := ⟨.hbm, 533, rfl⟩
abbrev main_v409 : Ref sig .tc := ⟨.hbm, 534, rfl⟩
abbrev main_cst_67 : Ref sig .tc := ⟨.hbm, 535, rfl⟩
abbrev main_v410 : Ref sig .tc := ⟨.hbm, 536, rfl⟩
abbrev main_v411 : Ref sig .tc := ⟨.hbm, 537, rfl⟩
abbrev main_v412 : Ref sig .tc := ⟨.hbm, 538, rfl⟩
abbrev main_v413 : Ref sig .tc := ⟨.hbm, 539, rfl⟩
abbrev main_v414 : Ref sig .tc := ⟨.hbm, 540, rfl⟩
abbrev main_cst_68 : Ref sig .tc := ⟨.hbm, 541, rfl⟩
abbrev main_v415 : Ref sig .tc := ⟨.hbm, 542, rfl⟩
abbrev main_v416 : Ref sig .tc := ⟨.hbm, 543, rfl⟩
abbrev main_cst_69 : Ref sig .tc := ⟨.hbm, 544, rfl⟩
abbrev main_v417 : Ref sig .tc := ⟨.hbm, 545, rfl⟩
abbrev main_v418 : Ref sig .tc := ⟨.hbm, 546, rfl⟩
abbrev main_v419 : Ref sig .tc := ⟨.hbm, 547, rfl⟩
abbrev main_v420 : Ref sig .tc := ⟨.hbm, 548, rfl⟩
abbrev main_cst_70 : Ref sig .tc := ⟨.hbm, 549, rfl⟩
abbrev main_v421 : Ref sig .tc := ⟨.hbm, 550, rfl⟩
abbrev main_v422 : Ref sig .tc := ⟨.hbm, 551, rfl⟩
abbrev main_v423 : Ref sig .tc := ⟨.hbm, 552, rfl⟩
abbrev main_v424 : Ref sig .tc := ⟨.hbm, 553, rfl⟩
abbrev main_v425 : Ref sig .tc := ⟨.hbm, 554, rfl⟩
abbrev main_v426 : Ref sig .tc := ⟨.hbm, 555, rfl⟩
abbrev main_v427 : Ref sig .tc := ⟨.hbm, 556, rfl⟩
abbrev main_v428 : Ref sig .tc := ⟨.hbm, 557, rfl⟩
abbrev main_v429 : Ref sig .tc := ⟨.hbm, 558, rfl⟩
abbrev main_v430 : Ref sig .tc := ⟨.hbm, 559, rfl⟩
abbrev main_v431 : Ref sig .tc := ⟨.hbm, 560, rfl⟩
abbrev main_v432 : Ref sig .tc := ⟨.hbm, 561, rfl⟩
abbrev main_cst_71 : Ref sig .tc := ⟨.hbm, 562, rfl⟩
abbrev main_call11_cst : Ref sig .tc := ⟨.hbm, 563, rfl⟩
abbrev main_call11_v0 : Ref sig .tc := ⟨.hbm, 564, rfl⟩
abbrev main_call11_v1 : Ref sig .tc := ⟨.hbm, 565, rfl⟩
abbrev main_call11_v2 : Ref sig .tc := ⟨.hbm, 566, rfl⟩
abbrev main_call11_v3 : Ref sig .tc := ⟨.hbm, 567, rfl⟩
abbrev main_call11_v4 : Ref sig .tc := ⟨.hbm, 568, rfl⟩
abbrev main_v433 : Ref sig .tc := ⟨.hbm, 569, rfl⟩

abbrev nD : Nat := 1
abbrev τ : Topo := Topo.v7x

variable {F : FTy → Type} [FloatOps F]

class Facts₀ : Prop where
  slices_S2x128x2_S1x128x2_0_0_0 : S2x128x2.Slices ![0, 0, 0] S1x128x2
  shapeCasts_S1x128x2_S128x2 : S1x128x2.ShapeCasts S128x2
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  shapeCasts_S1x128x128_S128x128 : S1x128x128.ShapeCasts S128x128
  slices_S2x128x384_S1x128x384_0_0_0 : S2x128x384.Slices ![0, 0, 0] S1x128x384
  shapeCasts_S1x128x384_S128x384 : S1x128x384.ShapeCasts S128x384
  bcast_S_S167386 : S_.BroadcastsInDim S167386 (![] : Fin 0 → Fin S167386.rank)
  bcast_S167386_S167386x1_0 : S167386.BroadcastsInDim S167386x1 (![0] : Fin 1 → Fin S167386x1.rank)
  transposes_S128x2_S2x128_1_0 : S128x2.Transposes [1, 0] S2x128
  bcast_S128_S1x128_1 : S128.BroadcastsInDim S1x128 (![1] : Fin 1 → Fin S1x128.rank)
  bcast_S1x128_S167386x128_0_1 : S1x128.BroadcastsInDim S167386x128 (![0, 1] : Fin 2 → Fin S167386x128.rank)
  bcast_S_S167386x128 : S_.BroadcastsInDim S167386x128 (![] : Fin 0 → Fin S167386x128.rank)
  transposes_S128x128_S128x128_1_0 : S128x128.Transposes [1, 0] S128x128
  reducesTo_S167386x128_S167386_d1 : S167386x128.ReducesTo [1] S167386
  h_S_ : 0 < S_.numel
  bcast_S_S167386x1 : S_.BroadcastsInDim S167386x1 (![] : Fin 0 → Fin S167386x1.rank)
  bcast_S167386x1_S167386x128_0_1 : S167386x1.BroadcastsInDim S167386x128 (![0, 1] : Fin 2 → Fin S167386x128.rank)
  concatenates_S167386x128_S167386x128_S167386x128_S167386x384_d1 : Shape.Concatenates [S167386x128, S167386x128, S167386x128] S167386x384 1
  transposes_S128x384_S384x128_1_0 : S128x384.Transposes [1, 0] S384x128
  reducesTo_S4096x128_S4096_d1 : S4096x128.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  slices_S2x128x2_S1x128x2_1_0_0 : S2x128x2.Slices ![1, 0, 0] S1x128x2
  slices_S2x128_S1x128_1_0 : S2x128.Slices ![1, 0] S1x128
  slices_S2x128x128_S1x128x128_1_0_0 : S2x128x128.Slices ![1, 0, 0] S1x128x128
  slices_S2x128x384_S1x128x384_1_0_0 : S2x128x384.Slices ![1, 0, 0] S1x128x384
  gather_S4096x2_S167386x1_S167386x2_1_0_n_n_0_1_12_wf : GatherDims.WF S4096x2 S167386x1 S167386x2 [1] [0] [] [0] [] 1 ![1, 2]
  dot_S167386x2_S2x128_S167386x128_1_0_0_1_n_n_wf : DotDims.WF S167386x2 S2x128 S167386x128 [1] [0] [0] [1] [] []
  dot_S167386x128_S128x128_S167386x128_1_0_0_1_n_n_wf : DotDims.WF S167386x128 S128x128 S167386x128 [1] [0] [0] [1] [] []
  gather_S4096x128_S167386x1_S167386x128_1_0_n_n_0_1_1128_wf : GatherDims.WF S4096x128 S167386x1 S167386x128 [1] [0] [] [0] [] 1 ![1, 128]
  dot_S167386x384_S384x128_S167386x128_1_0_0_1_n_n_wf : DotDims.WF S167386x384 S384x128 S167386x128 [1] [0] [0] [1] [] []
  dot_S4096x128_S128x128_S4096x128_1_0_0_1_n_n_wf : DotDims.WF S4096x128 S128x128 S4096x128 [1] [0] [0] [1] [] []
  scatter_S4096x128_S167386x1_S167386x128_1_0_0_1_wf : ScatterDims.WF S4096x128 S167386x1 S167386x128 [1] [0] [0] 1

variable [Facts₀]

def gather_S4096x2_S167386x1_S167386x2_1_0_n_n_0_1_12 : GatherDims S4096x2 S167386x1 S167386x2 where
  offsetDims := [1]
  collapsedSliceDims := [0]
  operandBatchingDims := []
  startIndicesBatchingDims := []
  startIndexMap := [0]
  indexVectorDim := 1
  sliceSizes := ![1, 2]
  wf := gather_S4096x2_S167386x1_S167386x2_1_0_n_n_0_1_12_wf
def dot_S167386x2_S2x128_S167386x128_1_0_0_1_n_n : DotDims S167386x2 S2x128 S167386x128 where
  lhsContracting := [1]
  rhsContracting := [0]
  lhsNonContracting := [0]
  rhsNonContracting := [1]
  lhsBatch := []
  rhsBatch := []
  wf := dot_S167386x2_S2x128_S167386x128_1_0_0_1_n_n_wf
def dot_S167386x128_S128x128_S167386x128_1_0_0_1_n_n : DotDims S167386x128 S128x128 S167386x128 where
  lhsContracting := [1]
  rhsContracting := [0]
  lhsNonContracting := [0]
  rhsNonContracting := [1]
  lhsBatch := []
  rhsBatch := []
  wf := dot_S167386x128_S128x128_S167386x128_1_0_0_1_n_n_wf
def gather_S4096x128_S167386x1_S167386x128_1_0_n_n_0_1_1128 : GatherDims S4096x128 S167386x1 S167386x128 where
  offsetDims := [1]
  collapsedSliceDims := [0]
  operandBatchingDims := []
  startIndicesBatchingDims := []
  startIndexMap := [0]
  indexVectorDim := 1
  sliceSizes := ![1, 128]
  wf := gather_S4096x128_S167386x1_S167386x128_1_0_n_n_0_1_1128_wf
def dot_S167386x384_S384x128_S167386x128_1_0_0_1_n_n : DotDims S167386x384 S384x128 S167386x128 where
  lhsContracting := [1]
  rhsContracting := [0]
  lhsNonContracting := [0]
  rhsNonContracting := [1]
  lhsBatch := []
  rhsBatch := []
  wf := dot_S167386x384_S384x128_S167386x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S4096x128_S167386x1_S167386x128_1_0_0_1 : ScatterDims S4096x128 S167386x1 S167386x128 where
  updateWindowDims := [1]
  insertedWindowDims := [0]
  scatterDimsToOperandDims := [0]
  indexVectorDim := 1
  wf := scatter_S4096x128_S167386x1_S167386x128_1_0_0_1_wf

class Facts : Prop extends Facts₀ where

variable [Facts]
-- ==== Proof.RefRun.lean ====
/-
  The reference program's run, read back as a fold.

  The reference's entry function is a straight line of array operations; the functions it calls (the rectifier, the
  leaky rectifier and the selection inside it) are straight lines too, so each call is its callee's operations over
  that call's own buffers.  The line is stated in nine consecutive windows `ops0 … ops8` (the windows the program is
  printed in) and `ops` is their concatenation.  `main_eq`: the entry function is the sequence of `ops`.  `run`: from
  any memory with zero counters every weakly fair execution terminates; the result buffer ends at the fold of the
  operations over the launch contents, read at that buffer (`after ops (launchContents m c) main_v433`), and each of
  the 22 argument arrays ends as launched, because no operation writes it (`after_keep`: a reference outside the
  list of written buffers keeps its contents).  The fold is also given window by window: `val0 V = V`,
  `val(k+1) V = after opsk (valk V)`, `after_ops : after ops V = val9 V`, and `val(k+1)_keep` for a buffer window
  `k` does not write.
-/
import proofs.«121864_j48515950576209_1_alg».proof.Proof.Gen.ReferenceIdeal
import Idealize.ShloMosaic.Lib.StableHlo.Run
import Idealize.ShloMosaic.Lib.Pipeline.Frame

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- A singleton of one listed reference lies in the finite set of the listed references. -/
theorem single_sub_of_mem {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The operations of statements window 0 of the reference's entry function, in order; a called function's operations stand at its call, over that call's buffers. -/
abbrev ops0 : List (HloOp τ sig (Elt F)) :=
  [ StableHlo.unary main_arg4 main_v0 ((extractStridedSlice S1x128x2 ![0, 0, 0] · slices_S2x128x2_S1x128x2_0_0_0) : (⟨S2x128x2, .f32⟩ : BufTy).Contents (Elt F) → (⟨S1x128x2, .f32⟩ : BufTy).Contents (Elt F)),
    StableHlo.reshape main_v0 main_v1 rfl shapeCasts_S1x128x2_S128x2,
    StableHlo.unary main_arg5 main_v2 ((extractStridedSlice S1x128 ![0, 0] · slices_S2x128_S1x128_0_0) : (⟨S2x128, .f32⟩ : BufTy).Contents (Elt F) → (⟨S1x128, .f32⟩ : BufTy).Contents (Elt F)),
    StableHlo.reshape main_v2 main_v3 rfl shapeCasts_S1x128_S128,
    StableHlo.unary main_arg6 main_v4 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v4 main_v5 rfl shapeCasts_S1x128x128_S128x128,
    StableHlo.unary main_arg7 main_v6 ((extractStridedSlice S1x128 ![0, 0] · slices_S2x128_S1x128_0_0) : (⟨S2x128, .f32⟩ : BufTy).Contents (Elt F) → (⟨S1x128, .f32⟩ : BufTy).Contents (Elt F)),
    StableHlo.reshape main_v6 main_v7 rfl shapeCasts_S1x128_S128,
    StableHlo.unary main_arg8 main_v8 ((extractStridedSlice S1x128 ![0, 0] · slices_S2x128_S1x128_0_0) : (⟨S2x128, .f32⟩ : BufTy).Contents (Elt F) → (⟨S1x128, .f32⟩ : BufTy).Contents (Elt F)),
    StableHlo.reshape main_v8 main_v9 rfl shapeCasts_S1x128_S128,
    StableHlo.unary main_arg9 main_v10 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v10 main_v11 rfl shapeCasts_S1x128x128_S128x128,
    StableHlo.unary main_arg10 main_v12 ((extractStridedSlice S1x128 ![0, 0] · slices_S2x128_S1x128_0_0) : (⟨S2x128, .f32⟩ : BufTy).Contents (Elt F) → (⟨S1x128, .f32⟩ : BufTy).Contents (Elt F)),
    StableHlo.reshape main_v12 main_v13 rfl shapeCasts_S1x128_S128,
    StableHlo.unary main_arg11 main_v14 ((extractStridedSlice S1x128 ![0, 0] · slices_S2x128_S1x128_0_0) : (⟨S2x128, .f32⟩ : BufTy).Contents (Elt F) → (⟨S1x128, .f32⟩ : BufTy).Contents (Elt F)),
    StableHlo.reshape main_v14 main_v15 rfl shapeCasts_S1x128_S128,
    StableHlo.unary main_arg12 main_v16 ((extractStridedSlice S1x128x384 ![0, 0, 0] · slices_S2x128x384_S1x128x384_0_0_0) : (⟨S2x128x384, .f32⟩ : BufTy).Contents (Elt F) → (⟨S1x128x384, .f32⟩ : BufTy).Contents (Elt F)),
    StableHlo.reshape main_v16 main_v17 rfl shapeCasts_S1x128x384_S128x384,
    StableHlo.unary main_arg13 main_v18 ((extractStridedSlice S1x128 ![0, 0] · slices_S2x128_S1x128_0_0) : (⟨S2x128, .f32⟩ : BufTy).Contents (Elt F) → (⟨S1x128, .f32⟩ : BufTy).Contents (Elt F)),
    StableHlo.reshape main_v18 main_v19 rfl shapeCasts_S1x128_S128,
    StableHlo.unary main_arg14 main_v20 ((extractStridedSlice S1x128 ![0, 0] · slices_S2x128_S1x128_0_0) : (⟨S2x128, .f32⟩ : BufTy).Contents (Elt F) → (⟨S1x128, .f32⟩ : BufTy).Contents (Elt F)),
    StableHlo.reshape main_v20 main_v21 rfl shapeCasts_S1x128_S128,
    StableHlo.unary main_arg15 main_v22 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v22 main_v23 rfl shapeCasts_S1x128x128_S128x128,
    StableHlo.unary main_arg16 main_v24 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v24 main_v25 rfl shapeCasts_S1x128x128_S128x128,
    StableHlo.unary main_arg17 main_v26 ((extractStridedSlice S1x128 ![0, 0] · slices_S2x128_S1x128_0_0) : (⟨S2x128, .f32⟩ : BufTy).Contents (Elt F) → (⟨S1x128, .f32⟩ : BufTy).Contents (Elt F)),
    StableHlo.reshape main_v26 main_v27 rfl shapeCasts_S1x128_S128,
    StableHlo.unary main_arg18 main_v28 ((extractStridedSlice S1x128 ![0, 0] · slices_S2x128_S1x128_0_0) : (⟨S2x128, .f32⟩ : BufTy).Contents (Elt F) → (⟨S1x128, .f32⟩ : BufTy).Contents (Elt F)),
    StableHlo.reshape main_v28 main_v29 rfl shapeCasts_S1x128_S128,
    StableHlo.unary main_arg19 main_v30 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v30 main_v31 rfl shapeCasts_S1x128x128_S128x128,
    StableHlo.unary main_arg20 main_v32 ((extractStridedSlice S1x128 ![0, 0] · slices_S2x128_S1x128_0_0) : (⟨S2x128, .f32⟩ : BufTy).Contents (Elt F) → (⟨S1x128, .f32⟩ : BufTy).Contents (Elt F)),
    StableHlo.reshape main_v32 main_v33 rfl shapeCasts_S1x128_S128,
    StableHlo.unary main_arg21 main_v34 ((extractStridedSlice S1x128 ![0, 0] · slices_S2x128_S1x128_0_0) : (⟨S2x128, .f32⟩ : BufTy).Contents (Elt F) → (⟨S1x128, .f32⟩ : BufTy).Contents (Elt F)),
    StableHlo.reshape main_v34 main_v35 rfl shapeCasts_S1x128_S128,
    StableHlo.nullary main_c (constantI S_ 32 0#32),
    StableHlo.unary main_c main_v36 (broadcastInDim S167386 ![] bcast_S_S167386 : (⟨S_, .i32⟩ : BufTy).Contents (Elt F) → (⟨S167386, .i32⟩ : BufTy).Contents (Elt F)),
    StableHlo.binary main_arg2 main_v36 main_v37 (cmpi .slt : (⟨S167386, .i32⟩ : BufTy).Contents (Elt F) → (⟨S167386, .i32⟩ : BufTy).Contents (Elt F) → (⟨S167386, .i1⟩ : BufTy).Contents (Elt F)),
    StableHlo.nullary main_c_0 (constantI S_ 32 4096#32),
    StableHlo.unary main_c_0 main_v38 (broadcastInDim S167386 ![] bcast_S_S167386 : (⟨S_, .i32⟩ : BufTy).Contents (Elt F) → (⟨S167386, .i32⟩ : BufTy).Contents (Elt F)),
    StableHlo.binary main_arg2 main_v38 main_v39 (addi : (⟨S167386, .i32⟩ : BufTy).Contents (Elt F) → (⟨S167386, .i32⟩ : BufTy).Contents (Elt F) → (⟨S167386, .i32⟩ : BufTy).Contents (Elt F)),
    StableHlo.ternary main_v37 main_v39 main_arg2 main_v40 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v40 main_v41 (broadcastInDim S167386x1 ![0] bcast_S167386_S167386x1_0 : (⟨S167386, .i32⟩ : BufTy).Contents (Elt F) → (⟨S167386x1, .i32⟩ : BufTy).Contents (Elt F)),
    StableHlo.binary main_arg1 main_v41 main_v42 ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)),
    StableHlo.nullary main_c_1 (constantI S_ 32 0#32),
    StableHlo.unary main_c_1 main_v43 (broadcastInDim S167386 ![] bcast_S_S167386 : (⟨S_, .i32⟩ : BufTy).Contents (Elt F) → (⟨S167386, .i32⟩ : BufTy).Contents (Elt F)),
    StableHlo.binary main_arg3 main_v43 main_v44 (cmpi .slt : (⟨S167386, .i32⟩ : BufTy).Contents (Elt F) → (⟨S167386, .i32⟩ : BufTy).Contents (Elt F) → (⟨S167386, .i1⟩ : BufTy).Contents (Elt F)),
    StableHlo.nullary main_c_2 (constantI S_ 32 4096#32),
    StableHlo.unary main_c_2 main_v45 (broadcastInDim S167386 ![] bcast_S_S167386 : (⟨S_, .i32⟩ : BufTy).Contents (Elt F) → (⟨S167386, .i32⟩ : BufTy).Contents (Elt F)),
    StableHlo.binary main_arg3 main_v45 main_v46 (addi : (⟨S167386, .i32⟩ : BufTy).Contents (Elt F) → (⟨S167386, .i32⟩ : BufTy).Contents (Elt F) → (⟨S167386, .i32⟩ : BufTy).Contents (Elt F)),
    StableHlo.ternary main_v44 main_v46 main_arg3 main_v47 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v47 main_v48 (broadcastInDim S167386x1 ![0] bcast_S167386_S167386x1_0 : (⟨S167386, .i32⟩ : BufTy).Contents (Elt F) → (⟨S167386x1, .i32⟩ : BufTy).Contents (Elt F)),
    StableHlo.binary main_arg1 main_v48 main_v49 ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)),
    StableHlo.binary main_v42 main_v49 main_v50 (subf : (⟨S167386x2, .f32⟩ : BufTy).Contents (Elt F) → (⟨S167386x2, .f32⟩ : BufTy).Contents (Elt F) → (⟨S167386x2, .f32⟩ : BufTy).Contents (Elt F)),
    StableHlo.unary main_v1 main_v51 ((transpose S2x128 [1, 0] · transposes_S128x2_S2x128_1_0) : (⟨S128x2, .f32⟩ : BufTy).Contents (Elt F) → (⟨S2x128, .f32⟩ : BufTy).Contents (Elt F)),
    StableHlo.binary main_v50 main_v51 main_v52 ((fun l r => Host.dotGeneral dot_S167386x2_S2x128_S167386x128_1_0_0_1_n_n none l r) : (⟨S167386x2, .f32⟩ : BufTy).Contents (Elt F) → (⟨S2x128, .f32⟩ : BufTy).Contents (Elt F) → (⟨S167386x128, .f32⟩ : BufTy).Contents (Elt F)),
    StableHlo.unary main_v3 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S167386x128 ![0, 1] bcast_S1x128_S167386x128_0_1 : (⟨S1x128, .f32⟩ : BufTy).Contents (Elt F) → (⟨S167386x128, .f32⟩ : BufTy).Contents (Elt F)),
    StableHlo.binary main_v52 main_v54 main_v55 (addf : (⟨S167386x128, .f32⟩ : BufTy).Contents (Elt F) → (⟨S167386x128, .f32⟩ : BufTy).Contents (Elt F) → (⟨S167386x128, .f32⟩ : BufTy).Contents (Elt F)) ]

set_option maxRecDepth 8192 in
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers window 0's operations write. -/
abbrev ops0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_c, main_v36, main_v37, main_c_0, main_v38, main_v39, main_v40, main_v41, main_v42, main_c_1, main_v43, main_v44, main_c_2, main_v45, main_v46, main_v47, main_v48, main_v49, main_v50, main_v51, main_v52, main_v53, main_v54, main_v55]
set_option maxRecDepth 8192 in
theorem ops0_writes : (ops0 : List (HloOp τ sig (Elt F))).Forall fun op => op.writes ⊆ (ops0_W.map (Proc.devRef (τ := τ) .tc)).toFinset :=
  ⟨single_sub_of_mem main_v0 (by decide), single_sub_of_mem main_v1 (by decide), single_sub_of_mem main_v2 (by decide), single_sub_of_mem main_v3 (by decide), single_sub_of_mem main_v4 (by decide), single_sub_of_mem main_v5 (by decide), single_sub_of_mem main_v6 (by decide), single_sub_of_mem main_v7 (by decide), single_sub_of_mem main_v8 (by decide), single_sub_of_mem main_v9 (by decide), single_sub_of_mem main_v10 (by decide), single_sub_of_mem main_v11 (by decide), single_sub_of_mem main_v12 (by decide), single_sub_of_mem main_v13 (by decide), single_sub_of_mem main_v14 (by decide), single_sub_of_mem main_v15 (by decide), single_sub_of_mem main_v16 (by decide), single_sub_of_mem main_v17 (by decide), single_sub_of_mem main_v18 (by decide), single_sub_of_mem main_v19 (by decide), single_sub_of_mem main_v20 (by decide), single_sub_of_mem main_v21 (by decide), single_sub_of_mem main_v22 (by decide), single_sub_of_mem main_v23 (by decide), single_sub_of_mem main_v24 (by decide), single_sub_of_mem main_v25 (by decide), single_sub_of_mem main_v26 (by decide), single_sub_of_mem main_v27 (by decide), single_sub_of_mem main_v28 (by decide), single_sub_of_mem main_v29 (by decide), single_sub_of_mem main_v30 (by decide), single_sub_of_mem main_v31 (by decide), single_sub_of_mem main_v32 (by decide), single_sub_of_mem main_v33 (by decide), single_sub_of_mem main_v34 (by decide), single_sub_of_mem main_v35 (by decide), single_sub_of_mem main_c (by decide), single_sub_of_mem main_v36 (by decide), single_sub_of_mem main_v37 (by decide), single_sub_of_mem main_c_0 (by decide), single_sub_of_mem main_v38 (by decide), single_sub_of_mem main_v39 (by decide), single_sub_of_mem main_v40 (by decide), single_sub_of_mem main_v41 (by decide), single_sub_of_mem main_v42 (by decide), single_sub_of_mem main_c_1 (by decide), single_sub_of_mem main_v43 (by decide), single_sub_of_mem main_v44 (by decide), single_sub_of_mem main_c_2 (by decide), single_sub_of_mem main_v45 (by decide), single_sub_of_mem main_v46 (by decide), single_sub_of_mem main_v47 (by decide), single_sub_of_mem main_v48 (by decide), single_sub_of_mem main_v49 (by decide), single_sub_of_mem main_v50 (by decide), single_sub_of_mem main_v51 (by decide), single_sub_of_mem main_v52 (by decide), single_sub_of_mem main_v53 (by decide), single_sub_of_mem main_v54 (by decide), single_sub_of_mem main_v55 (by decide)⟩

/-- The operations of statements window 1 of the reference's entry function, in order; a called function's operations stand at its call, over that call's buffers. -/
abbrev ops1 : List (HloOp τ sig (Elt F)) :=
  [ StableHlo.TRef.nullary main_call0.cst (constant S_ .f32 0x00000000#32),
    StableHlo.TRef.unary main_call0.cst main_call0.v0 (broadcastInDim S167386x128 ![] bcast_S_S167386x128),
    StableHlo.TRef.binary (.of main_v55 : StableHlo.TRef sig ⟨S167386x128, .f32⟩) main_call0.v0 main_call0.v1 maximumf,
    StableHlo.unary main_v5 main_v57 ((transpose S128x128 [1, 0] · transposes_S128x128_S128x128_1_0) : (⟨S128x128, .f32⟩ : BufTy).Contents (Elt F) → (⟨S128x128, .f32⟩ : BufTy).Contents (Elt F)),
    StableHlo.binary main_v56 main_v57 main_v58 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.nullary main_cst (constant S_ .f32 0x00000000#32),
    StableHlo.binary main_v58 main_cst main_v59 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v59 main_v60 (broadcastInDim S167386x1 ![0] bcast_S167386_S167386x1_0 : (⟨S167386, .f32⟩ : BufTy).Contents (Elt F) → (⟨S167386x1, .f32⟩ : BufTy).Contents (Elt F)),
    StableHlo.nullary main_cst_3 (constant S_ .f32 0x43000000#32),
    StableHlo.unary main_cst_3 main_v61 (broadcastInDim S167386x1 ![] bcast_S_S167386x1 : (⟨S_, .f32⟩ : BufTy).Contents (Elt F) → (⟨S167386x1, .f32⟩ : BufTy).Contents (Elt F)),
    StableHlo.binary main_v60 main_v61 main_v62 (Host.divf : (⟨S167386x1, .f32⟩ : BufTy).Contents (Elt F) → (⟨S167386x1, .f32⟩ : BufTy).Contents (Elt F) → (⟨S167386x1, .f32⟩ : BufTy).Contents (Elt F)),
    StableHlo.unary main_v62 main_v63 (broadcastInDim S167386x128 ![0, 1] bcast_S167386x1_S167386x128_0_1 : (⟨S167386x1, .f32⟩ : BufTy).Contents (Elt F) → (⟨S167386x128, .f32⟩ : BufTy).Contents (Elt F)),
    StableHlo.binary main_v58 main_v63 main_v64 (subf : (⟨S167386x128, .f32⟩ : BufTy).Contents (Elt F) → (⟨S167386x128, .f32⟩ : BufTy).Contents (Elt F) → (⟨S167386x128, .f32⟩ : BufTy).Contents (Elt F)),
    StableHlo.binary main_v64 main_v64 main_v65 (mulf : (⟨S167386x128, .f32⟩ : BufTy).Contents (Elt F) → (⟨S167386x128, .f32⟩ : BufTy).Contents (Elt F) → (⟨S167386x128, .f32⟩ : BufTy).Contents (Elt F)),
    StableHlo.nullary main_cst_4 (constant S_ .f32 0x00000000#32),
    StableHlo.binary main_v65 main_cst_4 main_v66 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v66 main_v67 (broadcastInDim S167386x1 ![0] bcast_S167386_S167386x1_0 : (⟨S167386, .f32⟩ : BufTy).Contents (Elt F) → (⟨S167386x1, .f32⟩ : BufTy).Contents (Elt F)),
    StableHlo.nullary main_cst_5 (constant S_ .f32 0x43000000#32),
    StableHlo.unary main_cst_5 main_v68 (broadcastInDim S167386x1 ![] bcast_S_S167386x1 : (⟨S_, .f32⟩ : BufTy).Contents (Elt F) → (⟨S167386x1, .f32⟩ : BufTy).Contents (Elt F)),
    StableHlo.binary main_v67 main_v68 main_v69 (Host.divf : (⟨S167386x1, .f32⟩ : BufTy).Contents (Elt F) → (⟨S167386x1, .f32⟩ : BufTy).Contents (Elt F) → (⟨S167386x1, .f32⟩ : BufTy).Contents (Elt F)),
    StableHlo.unary main_v62 main_v70 (broadcastInDim S167386x128 ![0, 1] bcast_S167386x1_S167386x128_0_1 : (⟨S167386x1, .f32⟩ : BufTy).Contents (Elt F) → (⟨S167386x128, .f32⟩ : BufTy).Contents (Elt F)),
    StableHlo.binary main_v58 main_v70 main_v71 (subf : (⟨S167386x128, .f32⟩ : BufTy).Contents (Elt F) → (⟨S167386x128, .f32⟩ : BufTy).Contents (Elt F) → (⟨S167386x128, .f32⟩ : BufTy).Contents (Elt F)),
    StableHlo.nullary main_cst_6 (constant S_ .f32 0x3727C5AC#32),
    StableHlo.unary main_cst_6 main_v72 (broadcastInDim S167386x1 ![] bcast_S_S167386x1 : (⟨S_, .f32⟩ : BufTy).Contents (Elt F) → (⟨S167386x1, .f32⟩ : BufTy).Contents (Elt F)),
    StableHlo.binary main_v69 main_v72 main_v73 (addf : (⟨S167386x1, .f32⟩ : BufTy).Contents (Elt F) → (⟨S167386x1, .f32⟩ : BufTy).Contents (Elt F) → (⟨S167386x1, .f32⟩ : BufTy).Contents (Elt F)),
    StableHlo.unary main_v73 main_v74 (Host.rsqrt : (⟨S167386x1, .f32⟩ : BufTy).Contents (Elt F) → (⟨S167386x1, .f32⟩ : BufTy).Contents (Elt F)),
    StableHlo.unary main_v74 main_v75 (broadcastInDim S167386x128 ![0, 1] bcast_S167386x1_S167386x128_0_1 : (⟨S167386x1, .f32⟩ : BufTy).Contents (Elt F) → (⟨S167386x128, .f32⟩ : BufTy).Contents (Elt F)),
    StableHlo.binary main_v71 main_v75 main_v76 (mulf : (⟨S167386x128, .f32⟩ : BufTy).Contents (Elt F) → (⟨S167386x128, .f32⟩ : BufTy).Contents (Elt F) → (⟨S167386x128, .f32⟩ : BufTy).Contents (Elt F)),
    StableHlo.unary main_v7 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S167386x128 ![0, 1] bcast_S1x128_S167386x128_0_1 : (⟨S1x128, .f32⟩ : BufTy).Contents (Elt F) → (⟨S167386x128, .f32⟩ : BufTy).Contents (Elt F)),
    StableHlo.binary main_v76 main_v78 main_v79 (mulf : (⟨S167386x128, .f32⟩ : BufTy).Contents (Elt F) → (⟨S167386x128, .f32⟩ : BufTy).Contents (Elt F) → (⟨S167386x128, .f32⟩ : BufTy).Contents (Elt F)),
    StableHlo.unary main_v9 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S167386x128 ![0, 1] bcast_S1x128_S167386x128_0_1 : (⟨S1x128, .f32⟩ : BufTy).Contents (Elt F) → (⟨S167386x128, .f32⟩ : BufTy).Contents (Elt F)),
    StableHlo.binary main_v79 main_v81 main_v82 (addf : (⟨S167386x128, .f32⟩ : BufTy).Contents (Elt F) → (⟨S167386x128, .f32⟩ : BufTy).Contents (Elt F) → (⟨S167386x128, .f32⟩ : BufTy).Contents (Elt F)),
    StableHlo.TRef.nullary main_call1.cst (constant S_ .f32 0x00000000#32),
    StableHlo.TRef.unary main_call1.cst main_call1.v0 (broadcastInDim S167386x128 ![] bcast_S_S167386x128),
    StableHlo.TRef.binary (.of main_v82 : StableHlo.TRef sig ⟨S167386x128, .f32⟩) main_call1.v0 main_call1.v1 maximumf,
    StableHlo.nullary main_c_7 (constantI S_ 32 0#32),
    StableHlo.unary main_c_7 main_v84 (broadcastInDim S167386 ![] bcast_S_S167386 : (⟨S_, .i32⟩ : BufTy).Contents (Elt F) → (⟨S167386, .i32⟩ : BufTy).Contents (Elt F)),
    StableHlo.binary main_arg2 main_v84 main_v85 (cmpi .slt : (⟨S167386, .i32⟩ : BufTy).Contents (Elt F) → (⟨S167386, .i32⟩ : BufTy).Contents (Elt F) → (⟨S167386, .i1⟩ : BufTy).Contents (Elt F)),
    StableHlo.nullary main_c_8 (constantI S_ 32 4096#32),
    StableHlo.unary main_c_8 main_v86 (broadcastInDim S167386 ![] bcast_S_S167386 : (⟨S_, .i32⟩ : BufTy).Contents (Elt F) → (⟨S167386, .i32⟩ : BufTy).Contents (Elt F)),
    StableHlo.binary main_arg2 main_v86 main_v87 (addi : (⟨S167386, .i32⟩ : BufTy).Contents (Elt F) → (⟨S167386, .i32⟩ : BufTy).Contents (Elt F) → (⟨S167386, .i32⟩ : BufTy).Contents (Elt F)),
    StableHlo.ternary main_v85 main_v87 main_arg2 main_v88 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v88 main_v89 (broadcastInDim S167386x1 ![0] bcast_S167386_S167386x1_0 : (⟨S167386, .i32⟩ : BufTy).Contents (Elt F) → (⟨S167386x1, .i32⟩ : BufTy).Contents (Elt F)),
    StableHlo.binary main_arg0 main_v89 main_v90 ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)),
    StableHlo.unary main_v11 main_v91 ((transpose S128x128 [1, 0] · transposes_S128x128_S128x128_1_0) : (⟨S128x128, .f32⟩ : BufTy).Contents (Elt F) → (⟨S128x128, .f32⟩ : BufTy).Contents (Elt F)),
    StableHlo.binary main_v90 main_v91 main_v92 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.nullary main_cst_9 (constant S_ .f32 0x00000000#32),
    StableHlo.binary main_v92 main_cst_9 main_v93 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v93 main_v94 (broadcastInDim S167386x1 ![0] bcast_S167386_S167386x1_0 : (⟨S167386, .f32⟩ : BufTy).Contents (Elt F) → (⟨S167386x1, .f32⟩ : BufTy).Contents (Elt F)),
    StableHlo.nullary main_cst_10 (constant S_ .f32 0x43000000#32),
    StableHlo.unary main_cst_10 main_v95 (broadcastInDim S167386x1 ![] bcast_S_S167386x1 : (⟨S_, .f32⟩ : BufTy).Contents (Elt F) → (⟨S167386x1, .f32⟩ : BufTy).Contents (Elt F)),
    StableHlo.binary main_v94 main_v95 main_v96 (Host.divf : (⟨S167386x1, .f32⟩ : BufTy).Contents (Elt F) → (⟨S167386x1, .f32⟩ : BufTy).Contents (Elt F) → (⟨S167386x1, .f32⟩ : BufTy).Contents (Elt F)),
    StableHlo.unary main_v96 main_v97 (broadcastInDim S167386x128 ![0, 1] bcast_S167386x1_S167386x128_0_1 : (⟨S167386x1, .f32⟩ : BufTy).Contents (Elt F) → (⟨S167386x128, .f32⟩ : BufTy).Contents (Elt F)),
    StableHlo.binary main_v92 main_v97 main_v98 (subf : (⟨S167386x128, .f32⟩ : BufTy).Contents (Elt F) → (⟨S167386x128, .f32⟩ : BufTy).Contents (Elt F) → (⟨S167386x128, .f32⟩ : BufTy).Contents (Elt F)),
    StableHlo.binary main_v98 main_v98 main_v99 (mulf : (⟨S167386x128, .f32⟩ : BufTy).Contents (Elt F) → (⟨S167386x128, .f32⟩ : BufTy).Contents (Elt F) → (⟨S167386x128, .f32⟩ : BufTy).Contents (Elt F)),
    StableHlo.nullary main_cst_11 (constant S_ .f32 0x00000000#32),
    StableHlo.binary main_v99 main_cst_11 main_v100 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v100 main_v101 (broadcastInDim S167386x1 ![0] bcast_S167386_S167386x1_0 : (⟨S167386, .f32⟩ : BufTy).Contents (Elt F) → (⟨S167386x1, .f32⟩ : BufTy).Contents (Elt F)),
    StableHlo.nullary main_cst_12 (constant S_ .f32 0x43000000#32),
    StableHlo.unary main_cst_12 main_v102 (broadcastInDim S167386x1 ![] bcast_S_S167386x1 : (⟨S_, .f32⟩ : BufTy).Contents (Elt F) → (⟨S167386x1, .f32⟩ : BufTy).Contents (Elt F)),
    StableHlo.binary main_v101 main_v102 main_v103 (Host.divf : (⟨S167386x1, .f32⟩ : BufTy).Contents (Elt F) → (⟨S167386x1, .f32⟩ : BufTy).Contents (Elt F) → (⟨S167386x1, .f32⟩ : BufTy).Contents (Elt F)),
    StableHlo.unary main_v96 main_v104 (broadcastInDim S167386x128 ![0, 1] bcast_S167386x1_S167386x128_0_1 : (⟨S167386x1, .f32⟩ : BufTy).Contents (Elt F) → (⟨S167386x128, .f32⟩ : BufTy).Contents (Elt F)) ]

set_option maxRecDepth 8192 in
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers window 1's operations write. -/
abbrev ops1_W : List (Ref sig .tc) := [main_call0_cst, main_call0_v0, main_v56, main_v57, main_v58, main_cst, main_v59, main_v60, main_cst_3, main_v61, main_v62, main_v63, main_v64, main_v65, main_cst_4, main_v66, main_v67, main_cst_5, main_v68, main_v69, main_v70, main_v71, main_cst_6, main_v72, main_v73, main_v74, main_v75, main_v76, main_v77, main_v78, main_v79, main_v80, main_v81, main_v82, main_call1_cst, main_call1_v0, main_v83, main_c_7, main_v84, main_v85, main_c_8, main_v86, main_v87, main_v88, main_v89, main_v90, main_v91, main_v92, main_cst_9, main_v93, main_v94, main_cst_10, main_v95, main_v96, main_v97, main_v98, main_v99, main_cst_11, main_v100, main_v101, main_cst_12, main_v102, main_v103, main_v104]
set_option maxRecDepth 8192 in
theorem ops1_writes : (ops1 : List (HloOp τ sig (Elt F))).Forall fun op => op.writes ⊆ (ops1_W.map (Proc.devRef (τ := τ) .tc)).toFinset :=
  ⟨single_sub_of_mem main_call0_cst (by decide), single_sub_of_mem main_call0_v0 (by decide), single_sub_of_mem main_v56 (by decide), single_sub_of_mem main_v57 (by decide), single_sub_of_mem main_v58 (by decide), single_sub_of_mem main_cst (by decide), single_sub_of_mem main_v59 (by decide), single_sub_of_mem main_v60 (by decide), single_sub_of_mem main_cst_3 (by decide), single_sub_of_mem main_v61 (by decide), single_sub_of_mem main_v62 (by decide), single_sub_of_mem main_v63 (by decide), single_sub_of_mem main_v64 (by decide), single_sub_of_mem main_v65 (by decide), single_sub_of_mem main_cst_4 (by decide), single_sub_of_mem main_v66 (by decide), single_sub_of_mem main_v67 (by decide), single_sub_of_mem main_cst_5 (by decide), single_sub_of_mem main_v68 (by decide), single_sub_of_mem main_v69 (by decide), single_sub_of_mem main_v70 (by decide), single_sub_of_mem main_v71 (by decide), single_sub_of_mem main_cst_6 (by decide), single_sub_of_mem main_v72 (by decide), single_sub_of_mem main_v73 (by decide), single_sub_of_mem main_v74 (by decide), single_sub_of_mem main_v75 (by decide), single_sub_of_mem main_v76 (by decide), single_sub_of_mem main_v77 (by decide), single_sub_of_mem main_v78 (by decide), single_sub_of_mem main_v79 (by decide), single_sub_of_mem main_v80 (by decide), single_sub_of_mem main_v81 (by decide), single_sub_of_mem main_v82 (by decide), single_sub_of_mem main_call1_cst (by decide), single_sub_of_mem main_call1_v0 (by decide), single_sub_of_mem main_v83 (by decide), single_sub_of_mem main_c_7 (by decide), single_sub_of_mem main_v84 (by decide), single_sub_of_mem main_v85 (by decide), single_sub_of_mem main_c_8 (by decide), single_sub_of_mem main_v86 (by decide), single_sub_of_mem main_v87 (by decide), single_sub_of_mem main_v88 (by decide), single_sub_of_mem main_v89 (by decide), single_sub_of_mem main_v90 (by decide), single_sub_of_mem main_v91 (by decide), single_sub_of_mem main_v92 (by decide), single_sub_of_mem main_cst_9 (by decide), single_sub_of_mem main_v93 (by decide), single_sub_of_mem main_v94 (by decide), single_sub_of_mem main_cst_10 (by decide), single_sub_of_mem main_v95 (by decide), single_sub_of_mem main_v96 (by decide), single_sub_of_mem main_v97 (by decide), single_sub_of_mem main_v98 (by decide), single_sub_of_mem main_v99 (by decide), single_sub_of_mem main_cst_11 (by decide), single_sub_of_mem main_v100 (by decide), single_sub_of_mem main_v101 (by decide), single_sub_of_mem main_cst_12 (by decide), single_sub_of_mem main_v102 (by decide), single_sub_of_mem main_v103 (by decide), single_sub_of_mem main_v104 (by decide)⟩

/-- The operations of statements window 2 of the reference's entry function, in order; a called function's operations stand at its call, over that call's buffers. -/
abbrev ops2 : List (HloOp τ sig (Elt F)) :=
  [ StableHlo.binary main_v92 main_v104 main_v105 (subf : (⟨S167386x128, .f32⟩ : BufTy).Contents (Elt F) → (⟨S167386x128, .f32⟩ : BufTy).Contents (Elt F) → (⟨S167386x128, .f32⟩ : BufTy).Contents (Elt F)),
    StableHlo.nullary main_cst_13 (constant S_ .f32 0x3727C5AC#32),
    StableHlo.unary main_cst_13 main_v106 (broadcastInDim S167386x1 ![] bcast_S_S167386x1 : (⟨S_, .f32⟩ : BufTy).Contents (Elt F) → (⟨S167386x1, .f32⟩ : BufTy).Contents (Elt F)),
    StableHlo.binary main_v103 main_v106 main_v107 (addf : (⟨S167386x1, .f32⟩ : BufTy).Contents (Elt F) → (⟨S167386x1, .f32⟩ : BufTy).Contents (Elt F) → (⟨S167386x1, .f32⟩ : BufTy).Contents (Elt F)),
    StableHlo.unary main_v107 main_v108 (Host.rsqrt : (⟨S167386x1, .f32⟩ : BufTy).Contents (Elt F) → (⟨S167386x1, .f32⟩ : BufTy).Contents (Elt F)),
    StableHlo.unary main_v108 main_v109 (broadcastInDim S167386x128 ![0, 1] bcast_S167386x1_S167386x128_0_1 : (⟨S167386x1, .f32⟩ : BufTy).Contents (Elt F) → (⟨S167386x128, .f32⟩ : BufTy).Contents (Elt F)),
    StableHlo.binary main_v105 main_v109 main_v110 (mulf : (⟨S167386x128, .f32⟩ : BufTy).Contents (Elt F) → (⟨S167386x128, .f32⟩ : BufTy).Contents (Elt F) → (⟨S167386x128, .f32⟩ : BufTy).Contents (Elt F)),
    StableHlo.unary main_v13 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S167386x128 ![0, 1] bcast_S1x128_S167386x128_0_1 : (⟨S1x128, .f32⟩ : BufTy).Contents (Elt F) → (⟨S167386x128, .f32⟩ : BufTy).Contents (Elt F)),
    StableHlo.binary main_v110 main_v112 main_v113 (mulf : (⟨S167386x128, .f32⟩ : BufTy).Contents (Elt F) → (⟨S167386x128, .f32⟩ : BufTy).Contents (Elt F) → (⟨S167386x128, .f32⟩ : BufTy).Contents (Elt F)),
    StableHlo.unary main_v15 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S167386x128 ![0, 1] bcast_S1x128_S167386x128_0_1 : (⟨S1x128, .f32⟩ : BufTy).Contents (Elt F) → (⟨S167386x128, .f32⟩ : BufTy).Contents (Elt F)),
    StableHlo.binary main_v113 main_v115 main_v116 (addf : (⟨S167386x128, .f32⟩ : BufTy).Contents (Elt F) → (⟨S167386x128, .f32⟩ : BufTy).Contents (Elt F) → (⟨S167386x128, .f32⟩ : BufTy).Contents (Elt F)),
    StableHlo.TRef.nullary main_call2.cst (constant S_ .f32 0x00000000#32),
    StableHlo.TRef.unary main_call2.cst main_call2.v0 (broadcastInDim S167386x128 ![] bcast_S_S167386x128),
    StableHlo.TRef.binary (.of main_v116 : StableHlo.TRef sig ⟨S167386x128, .f32⟩) main_call2.v0 main_call2.v1 maximumf,
    StableHlo.nullary main_c_14 (constantI S_ 32 0#32),
    StableHlo.unary main_c_14 main_v118 (broadcastInDim S167386 ![] bcast_S_S167386 : (⟨S_, .i32⟩ : BufTy).Contents (Elt F) → (⟨S167386, .i32⟩ : BufTy).Contents (Elt F)),
    StableHlo.binary main_arg3 main_v118 main_v119 (cmpi .slt : (⟨S167386, .i32⟩ : BufTy).Contents (Elt F) → (⟨S167386, .i32⟩ : BufTy).Contents (Elt F) → (⟨S167386, .i1⟩ : BufTy).Contents (Elt F)),
    StableHlo.nullary main_c_15 (constantI S_ 32 4096#32),
    StableHlo.unary main_c_15 main_v120 (broadcastInDim S167386 ![] bcast_S_S167386 : (⟨S_, .i32⟩ : BufTy).Contents (Elt F) → (⟨S167386, .i32⟩ : BufTy).Contents (Elt F)),
    StableHlo.binary main_arg3 main_v120 main_v121 (addi : (⟨S167386, .i32⟩ : BufTy).Contents (Elt F) → (⟨S167386, .i32⟩ : BufTy).Contents (Elt F) → (⟨S167386, .i32⟩ : BufTy).Contents (Elt F)),
    StableHlo.ternary main_v119 main_v121 main_arg3 main_v122 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v122 main_v123 (broadcastInDim S167386x1 ![0] bcast_S167386_S167386x1_0 : (⟨S167386, .i32⟩ : BufTy).Contents (Elt F) → (⟨S167386x1, .i32⟩ : BufTy).Contents (Elt F)),
    StableHlo.binary main_arg0 main_v123 main_v124 ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)),
    StableHlo.nary ![main_v83, main_v117, main_v124] main_v125 (fun u => concatenate S167386x384 1 [⟨S167386x128, u 0⟩, ⟨S167386x128, u 1⟩, ⟨S167386x128, u 2⟩] concatenates_S167386x128_S167386x128_S167386x128_S167386x384_d1),
    StableHlo.unary main_v17 main_v126 ((transpose S384x128 [1, 0] · transposes_S128x384_S384x128_1_0) : (⟨S128x384, .f32⟩ : BufTy).Contents (Elt F) → (⟨S384x128, .f32⟩ : BufTy).Contents (Elt F)),
    StableHlo.binary main_v125 main_v126 main_v127 ((fun l r => Host.dotGeneral dot_S167386x384_S384x128_S167386x128_1_0_0_1_n_n none l r) : (⟨S167386x384, .f32⟩ : BufTy).Contents (Elt F) → (⟨S384x128, .f32⟩ : BufTy).Contents (Elt F) → (⟨S167386x128, .f32⟩ : BufTy).Contents (Elt F)),
    StableHlo.nullary main_cst_16 (constant S_ .f32 0x00000000#32),
    StableHlo.binary main_v127 main_cst_16 main_v128 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v128 main_v129 (broadcastInDim S167386x1 ![0] bcast_S167386_S167386x1_0 : (⟨S167386, .f32⟩ : BufTy).Contents (Elt F) → (⟨S167386x1, .f32⟩ : BufTy).Contents (Elt F)),
    StableHlo.nullary main_cst_17 (constant S_ .f32 0x43000000#32),
    StableHlo.unary main_cst_17 main_v130 (broadcastInDim S167386x1 ![] bcast_S_S167386x1 : (⟨S_, .f32⟩ : BufTy).Contents (Elt F) → (⟨S167386x1, .f32⟩ : BufTy).Contents (Elt F)),
    StableHlo.binary main_v129 main_v130 main_v131 (Host.divf : (⟨S167386x1, .f32⟩ : BufTy).Contents (Elt F) → (⟨S167386x1, .f32⟩ : BufTy).Contents (Elt F) → (⟨S167386x1, .f32⟩ : BufTy).Contents (Elt F)),
    StableHlo.unary main_v131 main_v132 (broadcastInDim S167386x128 ![0, 1] bcast_S167386x1_S167386x128_0_1 : (⟨S167386x1, .f32⟩ : BufTy).Contents (Elt F) → (⟨S167386x128, .f32⟩ : BufTy).Contents (Elt F)),
    StableHlo.binary main_v127 main_v132 main_v133 (subf : (⟨S167386x128, .f32⟩ : BufTy).Contents (Elt F) → (⟨S167386x128, .f32⟩ : BufTy).Contents (Elt F) → (⟨S167386x128, .f32⟩ : BufTy).Contents (Elt F)),
    StableHlo.binary main_v133 main_v133 main_v134 (mulf : (⟨S167386x128, .f32⟩ : BufTy).Contents (Elt F) → (⟨S167386x128, .f32⟩ : BufTy).Contents (Elt F) → (⟨S167386x128, .f32⟩ : BufTy).Contents (Elt F)),
    StableHlo.nullary main_cst_18 (constant S_ .f32 0x00000000#32),
    StableHlo.binary main_v134 main_cst_18 main_v135 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v135 main_v136 (broadcastInDim S167386x1 ![0] bcast_S167386_S167386x1_0 : (⟨S167386, .f32⟩ : BufTy).Contents (Elt F) → (⟨S167386x1, .f32⟩ : BufTy).Contents (Elt F)),
    StableHlo.nullary main_cst_19 (constant S_ .f32 0x43000000#32),
    StableHlo.unary main_cst_19 main_v137 (broadcastInDim S167386x1 ![] bcast_S_S167386x1 : (⟨S_, .f32⟩ : BufTy).Contents (Elt F) → (⟨S167386x1, .f32⟩ : BufTy).Contents (Elt F)),
    StableHlo.binary main_v136 main_v137 main_v138 (Host.divf : (⟨S167386x1, .f32⟩ : BufTy).Contents (Elt F) → (⟨S167386x1, .f32⟩ : BufTy).Contents (Elt F) → (⟨S167386x1, .f32⟩ : BufTy).Contents (Elt F)),
    StableHlo.unary main_v131 main_v139 (broadcastInDim S167386x128 ![0, 1] bcast_S167386x1_S167386x128_0_1 : (⟨S167386x1, .f32⟩ : BufTy).Contents (Elt F) → (⟨S167386x128, .f32⟩ : BufTy).Contents (Elt F)),
    StableHlo.binary main_v127 main_v139 main_v140 (subf : (⟨S167386x128, .f32⟩ : BufTy).Contents (Elt F) → (⟨S167386x128, .f32⟩ : BufTy).Contents (Elt F) → (⟨S167386x128, .f32⟩ : BufTy).Contents (Elt F)),
    StableHlo.nullary main_cst_20 (constant S_ .f32 0x3727C5AC#32),
    StableHlo.unary main_cst_20 main_v141 (broadcastInDim S167386x1 ![] bcast_S_S167386x1 : (⟨S_, .f32⟩ : BufTy).Contents (Elt F) → (⟨S167386x1, .f32⟩ : BufTy).Contents (Elt F)),
    StableHlo.binary main_v138 main_v141 main_v142 (addf : (⟨S167386x1, .f32⟩ : BufTy).Contents (Elt F) → (⟨S167386x1, .f32⟩ : BufTy).Contents (Elt F) → (⟨S167386x1, .f32⟩ : BufTy).Contents (Elt F)),
    StableHlo.unary main_v142 main_v143 (Host.rsqrt : (⟨S167386x1, .f32⟩ : BufTy).Contents (Elt F) → (⟨S167386x1, .f32⟩ : BufTy).Contents (Elt F)),
    StableHlo.unary main_v143 main_v144 (broadcastInDim S167386x128 ![0, 1] bcast_S167386x1_S167386x128_0_1 : (⟨S167386x1, .f32⟩ : BufTy).Contents (Elt F) → (⟨S167386x128, .f32⟩ : BufTy).Contents (Elt F)),
    StableHlo.binary main_v140 main_v144 main_v145 (mulf : (⟨S167386x128, .f32⟩ : BufTy).Contents (Elt F) → (⟨S167386x128, .f32⟩ : BufTy).Contents (Elt F) → (⟨S167386x128, .f32⟩ : BufTy).Contents (Elt F)),
    StableHlo.unary main_v19 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S167386x128 ![0, 1] bcast_S1x128_S167386x128_0_1 : (⟨S1x128, .f32⟩ : BufTy).Contents (Elt F) → (⟨S167386x128, .f32⟩ : BufTy).Contents (Elt F)),
    StableHlo.binary main_v145 main_v147 main_v148 (mulf : (⟨S167386x128, .f32⟩ : BufTy).Contents (Elt F) → (⟨S167386x128, .f32⟩ : BufTy).Contents (Elt F) → (⟨S167386x128, .f32⟩ : BufTy).Contents (Elt F)),
    StableHlo.unary main_v21 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S167386x128 ![0, 1] bcast_S1x128_S167386x128_0_1 : (⟨S1x128, .f32⟩ : BufTy).Contents (Elt F) → (⟨S167386x128, .f32⟩ : BufTy).Contents (Elt F)),
    StableHlo.binary main_v148 main_v150 main_v151 (addf : (⟨S167386x128, .f32⟩ : BufTy).Contents (Elt F) → (⟨S167386x128, .f32⟩ : BufTy).Contents (Elt F) → (⟨S167386x128, .f32⟩ : BufTy).Contents (Elt F)),
    StableHlo.TRef.nullary main_call3.cst (constant S_ .f32 0x00000000#32),
    StableHlo.TRef.unary main_call3.cst main_call3.v0 (broadcastInDim S167386x128 ![] bcast_S_S167386x128),
    StableHlo.TRef.binary (.of main_v151 : StableHlo.TRef sig ⟨S167386x128, .f32⟩) main_call3.v0 main_call3.v1 maximumf,
    StableHlo.unary main_v23 main_v153 ((transpose S128x128 [1, 0] · transposes_S128x128_S128x128_1_0) : (⟨S128x128, .f32⟩ : BufTy).Contents (Elt F) → (⟨S128x128, .f32⟩ : BufTy).Contents (Elt F)),
    StableHlo.binary main_v152 main_v153 main_v154 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.unary main_v25 main_v155 ((transpose S128x128 [1, 0] · transposes_S128x128_S128x128_1_0) : (⟨S128x128, .f32⟩ : BufTy).Contents (Elt F) → (⟨S128x128, .f32⟩ : BufTy).Contents (Elt F)),
    StableHlo.binary main_arg0 main_v155 main_v156 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) ]

set_option maxRecDepth 8192 in
theorem main_part2_eq (c : Dev nD) : main_part2 (F := F) c = seq ops2 := rfl

set_option maxRecDepth 8192 in
theorem ops2_sub : (ops2 : List (HloOp τ sig (Elt F))).Forall fun op => op.bufs ⊆ tcRefs τ sig :=
  ⟨binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers window 2's operations write. -/
abbrev ops2_W : List (Ref sig .tc) := [main_v105, main_cst_13, main_v106, main_v107, main_v108, main_v109, main_v110, main_v111, main_v112, main_v113, main_v114, main_v115, main_v116, main_call2_cst, main_call2_v0, main_v117, main_c_14, main_v118, main_v119, main_c_15, main_v120, main_v121, main_v122, main_v123, main_v124, main_v125, main_v126, main_v127, main_cst_16, main_v128, main_v129, main_cst_17, main_v130, main_v131, main_v132, main_v133, main_v134, main_cst_18, main_v135, main_v136, main_cst_19, main_v137, main_v138, main_v139, main_v140, main_cst_20, main_v141, main_v142, main_v143, main_v144, main_v145, main_v146, main_v147, main_v148, main_v149, main_v150, main_v151, main_call3_cst, main_call3_v0, main_v152, main_v153, main_v154, main_v155, main_v156]
set_option maxRecDepth 8192 in
theorem ops2_writes : (ops2 : List (HloOp τ sig (Elt F))).Forall fun op => op.writes ⊆ (ops2_W.map (Proc.devRef (τ := τ) .tc)).toFinset :=
  ⟨single_sub_of_mem main_v105 (by decide), single_sub_of_mem main_cst_13 (by decide), single_sub_of_mem main_v106 (by decide), single_sub_of_mem main_v107 (by decide), single_sub_of_mem main_v108 (by decide), single_sub_of_mem main_v109 (by decide), single_sub_of_mem main_v110 (by decide), single_sub_of_mem main_v111 (by decide), single_sub_of_mem main_v112 (by decide), single_sub_of_mem main_v113 (by decide), single_sub_of_mem main_v114 (by decide), single_sub_of_mem main_v115 (by decide), single_sub_of_mem main_v116 (by decide), single_sub_of_mem main_call2_cst (by decide), single_sub_of_mem main_call2_v0 (by decide), single_sub_of_mem main_v117 (by decide), single_sub_of_mem main_c_14 (by decide), single_sub_of_mem main_v118 (by decide), single_sub_of_mem main_v119 (by decide), single_sub_of_mem main_c_15 (by decide), single_sub_of_mem main_v120 (by decide), single_sub_of_mem main_v121 (by decide), single_sub_of_mem main_v122 (by decide), single_sub_of_mem main_v123 (by decide), single_sub_of_mem main_v124 (by decide), single_sub_of_mem main_v125 (by decide), single_sub_of_mem main_v126 (by decide), single_sub_of_mem main_v127 (by decide), single_sub_of_mem main_cst_16 (by decide), single_sub_of_mem main_v128 (by decide), single_sub_of_mem main_v129 (by decide), single_sub_of_mem main_cst_17 (by decide), single_sub_of_mem main_v130 (by decide), single_sub_of_mem main_v131 (by decide), single_sub_of_mem main_v132 (by decide), single_sub_of_mem main_v133 (by decide), single_sub_of_mem main_v134 (by decide), single_sub_of_mem main_cst_18 (by decide), single_sub_of_mem main_v135 (by decide), single_sub_of_mem main_v136 (by decide), single_sub_of_mem main_cst_19 (by decide), single_sub_of_mem main_v137 (by decide), single_sub_of_mem main_v138 (by decide), single_sub_of_mem main_v139 (by decide), single_sub_of_mem main_v140 (by decide), single_sub_of_mem main_cst_20 (by decide), single_sub_of_mem main_v141 (by decide), single_sub_of_mem main_v142 (by decide), single_sub_of_mem main_v143 (by decide), single_sub_of_mem main_v144 (by decide), single_sub_of_mem main_v145 (by decide), single_sub_of_mem main_v146 (by decide), single_sub_of_mem main_v147 (by decide), single_sub_of_mem main_v148 (by decide), single_sub_of_mem main_v149 (by decide), single_sub_of_mem main_v150 (by decide), single_sub_of_mem main_v151 (by decide), single_sub_of_mem main_call3_cst (by decide), single_sub_of_mem main_call3_v0 (by decide), single_sub_of_mem main_v152 (by decide), single_sub_of_mem main_v153 (by decide), single_sub_of_mem main_v154 (by decide), single_sub_of_mem main_v155 (by decide), single_sub_of_mem main_v156 (by decide)⟩

/-- The operations of statements window 3 of the reference's entry function, in order; a called function's operations stand at its call, over that call's buffers. -/
abbrev ops3 : List (HloOp τ sig (Elt F)) :=
  [ StableHlo.nullary main_c_21 (constantI S_ 32 0#32),
    StableHlo.unary main_c_21 main_v157 (broadcastInDim S167386 ![] bcast_S_S167386 : (⟨S_, .i32⟩ : BufTy).Contents (Elt F) → (⟨S167386, .i32⟩ : BufTy).Contents (Elt F)),
    StableHlo.binary main_arg2 main_v157 main_v158 (cmpi .slt : (⟨S167386, .i32⟩ : BufTy).Contents (Elt F) → (⟨S167386, .i32⟩ : BufTy).Contents (Elt F) → (⟨S167386, .i1⟩ : BufTy).Contents (Elt F)),
    StableHlo.nullary main_c_22 (constantI S_ 32 4096#32),
    StableHlo.unary main_c_22 main_v159 (broadcastInDim S167386 ![] bcast_S_S167386 : (⟨S_, .i32⟩ : BufTy).Contents (Elt F) → (⟨S167386, .i32⟩ : BufTy).Contents (Elt F)),
    StableHlo.binary main_arg2 main_v159 main_v160 (addi : (⟨S167386, .i32⟩ : BufTy).Contents (Elt F) → (⟨S167386, .i32⟩ : BufTy).Contents (Elt F) → (⟨S167386, .i32⟩ : BufTy).Contents (Elt F)),
    StableHlo.ternary main_v158 main_v160 main_arg2 main_v161 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v161 main_v162 (broadcastInDim S167386x1 ![0] bcast_S167386_S167386x1_0 : (⟨S167386, .i32⟩ : BufTy).Contents (Elt F) → (⟨S167386x1, .i32⟩ : BufTy).Contents (Elt F)),
    StableHlo.ternary main_v156 main_v162 main_v154 main_v163 ((fun x i u => Host.scatterAdd scatter_S4096x128_S167386x1_S167386x128_1_0_0_1 x i u) : (⟨S4096x128, .f32⟩ : BufTy).Contents (Elt F) → (⟨S167386x1, .i32⟩ : BufTy).Contents (Elt F) → (⟨S167386x128, .f32⟩ : BufTy).Contents (Elt F) → (⟨S4096x128, .f32⟩ : BufTy).Contents (Elt F)),
    StableHlo.nullary main_cst_23 (constant S_ .f32 0x00000000#32),
    StableHlo.binary main_v163 main_cst_23 main_v164 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v164 main_v165 (broadcastInDim S4096x1 ![0] bcast_S4096_S4096x1_0 : (⟨S4096, .f32⟩ : BufTy).Contents (Elt F) → (⟨S4096x1, .f32⟩ : BufTy).Contents (Elt F)),
    StableHlo.nullary main_cst_24 (constant S_ .f32 0x43000000#32),
    StableHlo.unary main_cst_24 main_v166 (broadcastInDim S4096x1 ![] bcast_S_S4096x1 : (⟨S_, .f32⟩ : BufTy).Contents (Elt F) → (⟨S4096x1, .f32⟩ : BufTy).Contents (Elt F)),
    StableHlo.binary main_v165 main_v166 main_v167 (Host.divf : (⟨S4096x1, .f32⟩ : BufTy).Contents (Elt F) → (⟨S4096x1, .f32⟩ : BufTy).Contents (Elt F) → (⟨S4096x1, .f32⟩ : BufTy).Contents (Elt F)),
    StableHlo.unary main_v167 main_v168 (broadcastInDim S4096x128 ![0, 1] bcast_S4096x1_S4096x128_0_1 : (⟨S4096x1, .f32⟩ : BufTy).Contents (Elt F) → (⟨S4096x128, .f32⟩ : BufTy).Contents (Elt F)),
    StableHlo.binary main_v163 main_v168 main_v169 (subf : (⟨S4096x128, .f32⟩ : BufTy).Contents (Elt F) → (⟨S4096x128, .f32⟩ : BufTy).Contents (Elt F) → (⟨S4096x128, .f32⟩ : BufTy).Contents (Elt F)),
    StableHlo.binary main_v169 main_v169 main_v170 (mulf : (⟨S4096x128, .f32⟩ : BufTy).Contents (Elt F) → (⟨S4096x128, .f32⟩ : BufTy).Contents (Elt F) → (⟨S4096x128, .f32⟩ : BufTy).Contents (Elt F)),
    StableHlo.nullary main_cst_25 (constant S_ .f32 0x00000000#32),
    StableHlo.binary main_v170 main_cst_25 main_v171 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v171 main_v172 (broadcastInDim S4096x1 ![0] bcast_S4096_S4096x1_0 : (⟨S4096, .f32⟩ : BufTy).Contents (Elt F) → (⟨S4096x1, .f32⟩ : BufTy).Contents (Elt F)),
    StableHlo.nullary main_cst_26 (constant S_ .f32 0x43000000#32),
    StableHlo.unary main_cst_26 main_v173 (broadcastInDim S4096x1 ![] bcast_S_S4096x1 : (⟨S_, .f32⟩ : BufTy).Contents (Elt F) → (⟨S4096x1, .f32⟩ : BufTy).Contents (Elt F)),
    StableHlo.binary main_v172 main_v173 main_v174 (Host.divf : (⟨S4096x1, .f32⟩ : BufTy).Contents (Elt F) → (⟨S4096x1, .f32⟩ : BufTy).Contents (Elt F) → (⟨S4096x1, .f32⟩ : BufTy).Contents (Elt F)),
    StableHlo.unary main_v167 main_v175 (broadcastInDim S4096x128 ![0, 1] bcast_S4096x1_S4096x128_0_1 : (⟨S4096x1, .f32⟩ : BufTy).Contents (Elt F) → (⟨S4096x128, .f32⟩ : BufTy).Contents (Elt F)),
    StableHlo.binary main_v163 main_v175 main_v176 (subf : (⟨S4096x128, .f32⟩ : BufTy).Contents (Elt F) → (⟨S4096x128, .f32⟩ : BufTy).Contents (Elt F) → (⟨S4096x128, .f32⟩ : BufTy).Contents (Elt F)),
    StableHlo.nullary main_cst_27 (constant S_ .f32 0x3727C5AC#32),
    StableHlo.unary main_cst_27 main_v177 (broadcastInDim S4096x1 ![] bcast_S_S4096x1 : (⟨S_, .f32⟩ : BufTy).Contents (Elt F) → (⟨S4096x1, .f32⟩ : BufTy).Contents (Elt F)),
    StableHlo.binary main_v174 main_v177 main_v178 (addf : (⟨S4096x1, .f32⟩ : BufTy).Contents (Elt F) → (⟨S4096x1, .f32⟩ : BufTy).Contents (Elt F) → (⟨S4096x1, .f32⟩ : BufTy).Contents (Elt F)),
    StableHlo.unary main_v178 main_v179 (Host.rsqrt : (⟨S4096x1, .f32⟩ : BufTy).Contents (Elt F) → (⟨S4096x1, .f32⟩ : BufTy).Contents (Elt F)),
    StableHlo.unary main_v179 main_v180 (broadcastInDim S4096x128 ![0, 1] bcast_S4096x1_S4096x128_0_1 : (⟨S4096x1, .f32⟩ : BufTy).Contents (Elt F) → (⟨S4096x128, .f32⟩ : BufTy).Contents (Elt F)),
    StableHlo.binary main_v176 main_v180 main_v181 (mulf : (⟨S4096x128, .f32⟩ : BufTy).Contents (Elt F) → (⟨S4096x128, .f32⟩ : BufTy).Contents (Elt F) → (⟨S4096x128, .f32⟩ : BufTy).Contents (Elt F)),
    StableHlo.unary main_v27 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S4096x128 ![0, 1] bcast_S1x128_S4096x128_0_1 : (⟨S1x128, .f32⟩ : BufTy).Contents (Elt F) → (⟨S4096x128, .f32⟩ : BufTy).Contents (Elt F)),
    StableHlo.binary main_v181 main_v183 main_v184 (mulf : (⟨S4096x128, .f32⟩ : BufTy).Contents (Elt F) → (⟨S4096x128, .f32⟩ : BufTy).Contents (Elt F) → (⟨S4096x128, .f32⟩ : BufTy).Contents (Elt F)),
    StableHlo.unary main_v29 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S4096x128 ![0, 1] bcast_S1x128_S4096x128_0_1 : (⟨S1x128, .f32⟩ : BufTy).Contents (Elt F) → (⟨S4096x128, .f32⟩ : BufTy).Contents (Elt F)),
    StableHlo.binary main_v184 main_v186 main_v187 (addf : (⟨S4096x128, .f32⟩ : BufTy).Contents (Elt F) → (⟨S4096x128, .f32⟩ : BufTy).Contents (Elt F) → (⟨S4096x128, .f32⟩ : BufTy).Contents (Elt F)),
    StableHlo.nullary main_cst_28 (constant S_ .f32 0x3C23D70A#32),
    StableHlo.TRef.nullary main_call4.cst (constant S_ .f32 0x00000000#32),
    StableHlo.TRef.unary main_call4.cst main_call4.v0 (broadcastInDim S4096x128 ![] bcast_S_S4096x128),
    StableHlo.TRef.binary (.of main_v187 : StableHlo.TRef sig ⟨S4096x128, .f32⟩) main_call4.v0 main_call4.v1 (cmpf .oge),
    StableHlo.TRef.unary (.of main_cst_28 : StableHlo.TRef sig ⟨S_, .f32⟩) main_call4.v2 id,
    StableHlo.TRef.unary main_call4.v2 main_call4.v3 (broadcastInDim S4096x128 ![] bcast_S_S4096x128),
    StableHlo.TRef.binary main_call4.v3 (.of main_v187 : StableHlo.TRef sig ⟨S4096x128, .f32⟩) main_call4.v4 mulf,
    StableHlo.TRef.ternary main_call4.v1 (.of main_v187 : StableHlo.TRef sig ⟨S4096x128, .f32⟩) main_call4.v4 main_call4.call0.v0 select,
    StableHlo.unary main_v31 main_v189 ((transpose S128x128 [1, 0] · transposes_S128x128_S128x128_1_0) : (⟨S128x128, .f32⟩ : BufTy).Contents (Elt F) → (⟨S128x128, .f32⟩ : BufTy).Contents (Elt F)),
    StableHlo.binary main_v188 main_v189 main_v190 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.nullary main_cst_29 (constant S_ .f32 0x00000000#32),
    StableHlo.binary main_v190 main_cst_29 main_v191 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v191 main_v192 (broadcastInDim S4096x1 ![0] bcast_S4096_S4096x1_0 : (⟨S4096, .f32⟩ : BufTy).Contents (Elt F) → (⟨S4096x1, .f32⟩ : BufTy).Contents (Elt F)),
    StableHlo.nullary main_cst_30 (constant S_ .f32 0x43000000#32),
    StableHlo.unary main_cst_30 main_v193 (broadcastInDim S4096x1 ![] bcast_S_S4096x1 : (⟨S_, .f32⟩ : BufTy).Contents (Elt F) → (⟨S4096x1, .f32⟩ : BufTy).Contents (Elt F)),
    StableHlo.binary main_v192 main_v193 main_v194 (Host.divf : (⟨S4096x1, .f32⟩ : BufTy).Contents (Elt F) → (⟨S4096x1, .f32⟩ : BufTy).Contents (Elt F) → (⟨S4096x1, .f32⟩ : BufTy).Contents (Elt F)),
    StableHlo.unary main_v194 main_v195 (broadcastInDim S4096x128 ![0, 1] bcast_S4096x1_S4096x128_0_1 : (⟨S4096x1, .f32⟩ : BufTy).Contents (Elt F) → (⟨S4096x128, .f32⟩ : BufTy).Contents (Elt F)),
    StableHlo.binary main_v190 main_v195 main_v196 (subf : (⟨S4096x128, .f32⟩ : BufTy).Contents (Elt F) → (⟨S4096x128, .f32⟩ : BufTy).Contents (Elt F) → (⟨S4096x128, .f32⟩ : BufTy).Contents (Elt F)),
    StableHlo.binary main_v196 main_v196 main_v197 (mulf : (⟨S4096x128, .f32⟩ : BufTy).Contents (Elt F) → (⟨S4096x128, .f32⟩ : BufTy).Contents (Elt F) → (⟨S4096x128, .f32⟩ : BufTy).Contents (Elt F)),
    StableHlo.nullary main_cst_31 (constant S_ .f32 0x00000000#32),
    StableHlo.binary main_v197 main_cst_31 main_v198 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v198 main_v199 (broadcastInDim S4096x1 ![0] bcast_S4096_S4096x1_0 : (⟨S4096, .f32⟩ : BufTy).Contents (Elt F) → (⟨S4096x1, .f32⟩ : BufTy).Contents (Elt F)),
    StableHlo.nullary main_cst_32 (constant S_ .f32 0x43000000#32),
    StableHlo.unary main_cst_32 main_v200 (broadcastInDim S4096x1 ![] bcast_S_S4096x1 : (⟨S_, .f32⟩ : BufTy).Contents (Elt F) → (⟨S4096x1, .f32⟩ : BufTy).Contents (Elt F)),
    StableHlo.binary main_v199 main_v200 main_v201 (Host.divf : (⟨S4096x1, .f32⟩ : BufTy).Contents (Elt F) → (⟨S4096x1, .f32⟩ : BufTy).Contents (Elt F) → (⟨S4096x1, .f32⟩ : BufTy).Contents (Elt F)),
    StableHlo.unary main_v194 main_v202 (broadcastInDim S4096x128 ![0, 1] bcast_S4096x1_S4096x128_0_1 : (⟨S4096x1, .f32⟩ : BufTy).Contents (Elt F) → (⟨S4096x128, .f32⟩ : BufTy).Contents (Elt F)),
    StableHlo.binary main_v190 main_v202 main_v203 (subf : (⟨S4096x128, .f32⟩ : BufTy).Contents (Elt F) → (⟨S4096x128, .f32⟩ : BufTy).Contents (Elt F) → (⟨S4096x128, .f32⟩ : BufTy).Contents (Elt F)),
    StableHlo.nullary main_cst_33 (constant S_ .f32 0x3727C5AC#32) ]

set_option maxRecDepth 8192 in
theorem main_part3_eq (c : Dev nD) : main_part3 (F := F) c = seq ops3 := rfl

set_option maxRecDepth 8192 in
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers window 3's operations write. -/
abbrev ops3_W : List (Ref sig .tc) := [main_c_21, main_v157, main_v158, main_c_22, main_v159, main_v160, main_v161, main_v162, main_v163, main_cst_23, main_v164, main_v165, main_cst_24, main_v166, main_v167, main_v168, main_v169, main_v170, main_cst_25, main_v171, main_v172, main_cst_26, main_v173, main_v174, main_v175, main_v176, main_cst_27, main_v177, main_v178, main_v179, main_v180, main_v181, main_v182, main_v183, main_v184, main_v185, main_v186, main_v187, main_cst_28, main_call4_cst, main_call4_v0, main_call4_v1, main_call4_v2, main_call4_v3, main_call4_v4, main_v188, main_v189, main_v190, main_cst_29, main_v191, main_v192, main_cst_30, main_v193, main_v194, main_v195, main_v196, main_v197, main_cst_31, main_v198, main_v199, main_cst_32, main_v200, main_v201, main_v202, main_v203, main_cst_33]
set_option maxRecDepth 8192 in
theorem ops3_writes : (ops3 : List (HloOp τ sig (Elt F))).Forall fun op => op.writes ⊆ (ops3_W.map (Proc.devRef (τ := τ) .tc)).toFinset :=
  ⟨single_sub_of_mem main_c_21 (by decide), single_sub_of_mem main_v157 (by decide), single_sub_of_mem main_v158 (by decide), single_sub_of_mem main_c_22 (by decide), single_sub_of_mem main_v159 (by decide), single_sub_of_mem main_v160 (by decide), single_sub_of_mem main_v161 (by decide), single_sub_of_mem main_v162 (by decide), single_sub_of_mem main_v163 (by decide), single_sub_of_mem main_cst_23 (by decide), single_sub_of_mem main_v164 (by decide), single_sub_of_mem main_v165 (by decide), single_sub_of_mem main_cst_24 (by decide), single_sub_of_mem main_v166 (by decide), single_sub_of_mem main_v167 (by decide), single_sub_of_mem main_v168 (by decide), single_sub_of_mem main_v169 (by decide), single_sub_of_mem main_v170 (by decide), single_sub_of_mem main_cst_25 (by decide), single_sub_of_mem main_v171 (by decide), single_sub_of_mem main_v172 (by decide), single_sub_of_mem main_cst_26 (by decide), single_sub_of_mem main_v173 (by decide), single_sub_of_mem main_v174 (by decide), single_sub_of_mem main_v175 (by decide), single_sub_of_mem main_v176 (by decide), single_sub_of_mem main_cst_27 (by decide), single_sub_of_mem main_v177 (by decide), single_sub_of_mem main_v178 (by decide), single_sub_of_mem main_v179 (by decide), single_sub_of_mem main_v180 (by decide), single_sub_of_mem main_v181 (by decide), single_sub_of_mem main_v182 (by decide), single_sub_of_mem main_v183 (by decide), single_sub_of_mem main_v184 (by decide), single_sub_of_mem main_v185 (by decide), single_sub_of_mem main_v186 (by decide), single_sub_of_mem main_v187 (by decide), single_sub_of_mem main_cst_28 (by decide), single_sub_of_mem main_call4_cst (by decide), single_sub_of_mem main_call4_v0 (by decide), single_sub_of_mem main_call4_v1 (by decide), single_sub_of_mem main_call4_v2 (by decide), single_sub_of_mem main_call4_v3 (by decide), single_sub_of_mem main_call4_v4 (by decide), single_sub_of_mem main_v188 (by decide), single_sub_of_mem main_v189 (by decide), single_sub_of_mem main_v190 (by decide), single_sub_of_mem main_cst_29 (by decide), single_sub_of_mem main_v191 (by decide), single_sub_of_mem main_v192 (by decide), single_sub_of_mem main_cst_30 (by decide), single_sub_of_mem main_v193 (by decide), single_sub_of_mem main_v194 (by decide), single_sub_of_mem main_v195 (by decide), single_sub_of_mem main_v196 (by decide), single_sub_of_mem main_v197 (by decide), single_sub_of_mem main_cst_31 (by decide), single_sub_of_mem main_v198 (by decide), single_sub_of_mem main_v199 (by decide), single_sub_of_mem main_cst_32 (by decide), single_sub_of_mem main_v200 (by decide), single_sub_of_mem main_v201 (by decide), single_sub_of_mem main_v202 (by decide), single_sub_of_mem main_v203 (by decide), single_sub_of_mem main_cst_33 (by decide)⟩

/-- The operations of statements window 4 of the reference's entry function, in order; a called function's operations stand at its call, over that call's buffers. -/
abbrev ops4 : List (HloOp τ sig (Elt F)) :=
  [ StableHlo.unary main_cst_33 main_v204 (broadcastInDim S4096x1 ![] bcast_S_S4096x1 : (⟨S_, .f32⟩ : BufTy).Contents (Elt F) → (⟨S4096x1, .f32⟩ : BufTy).Contents (Elt F)),
    StableHlo.binary main_v201 main_v204 main_v205 (addf : (⟨S4096x1, .f32⟩ : BufTy).Contents (Elt F) → (⟨S4096x1, .f32⟩ : BufTy).Contents (Elt F) → (⟨S4096x1, .f32⟩ : BufTy).Contents (Elt F)),
    StableHlo.unary main_v205 main_v206 (Host.rsqrt : (⟨S4096x1, .f32⟩ : BufTy).Contents (Elt F) → (⟨S4096x1, .f32⟩ : BufTy).Contents (Elt F)),
    StableHlo.unary main_v206 main_v207 (broadcastInDim S4096x128 ![0, 1] bcast_S4096x1_S4096x128_0_1 : (⟨S4096x1, .f32⟩ : BufTy).Contents (Elt F) → (⟨S4096x128, .f32⟩ : BufTy).Contents (Elt F)),
    StableHlo.binary main_v203 main_v207 main_v208 (mulf : (⟨S4096x128, .f32⟩ : BufTy).Contents (Elt F) → (⟨S4096x128, .f32⟩ : BufTy).Contents (Elt F) → (⟨S4096x128, .f32⟩ : BufTy).Contents (Elt F)),
    StableHlo.unary main_v33 main_v209 (broadcastInDim S1x128 ![1] bcast_S128_S1x128_1 : (⟨S128, .f32⟩ : BufTy).Contents (Elt F) → (⟨S1x128, .f32⟩ : BufTy).Contents (Elt F)),
    StableHlo.unary main_v209 main_v210 (broadcastInDim S4096x128 ![0, 1] bcast_S1x128_S4096x128_0_1 : (⟨S1x128, .f32⟩ : BufTy).Contents (Elt F) → (⟨S4096x128, .f32⟩ : BufTy).Contents (Elt F)),
    StableHlo.binary main_v208 main_v210 main_v211 (mulf : (⟨S4096x128, .f32⟩ : BufTy).Contents (Elt F) → (⟨S4096x128, .f32⟩ : BufTy).Contents (Elt F) → (⟨S4096x128, .f32⟩ : BufTy).Contents (Elt F)),
    StableHlo.unary main_v35 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S4096x128 ![0, 1] bcast_S1x128_S4096x128_0_1 : (⟨S1x128, .f32⟩ : BufTy).Contents (Elt F) → (⟨S4096x128, .f32⟩ : BufTy).Contents (Elt F)),
    StableHlo.binary main_v211 main_v213 main_v214 (addf : (⟨S4096x128, .f32⟩ : BufTy).Contents (Elt F) → (⟨S4096x128, .f32⟩ : BufTy).Contents (Elt F) → (⟨S4096x128, .f32⟩ : BufTy).Contents (Elt F)),
    StableHlo.binary main_v214 main_arg0 main_v215 (addf : (⟨S4096x128, .f32⟩ : BufTy).Contents (Elt F) → (⟨S4096x128, .f32⟩ : BufTy).Contents (Elt F) → (⟨S4096x128, .f32⟩ : BufTy).Contents (Elt F)),
    StableHlo.nullary main_cst_34 (constant S_ .f32 0x3C23D70A#32),
    StableHlo.TRef.nullary main_call5.cst (constant S_ .f32 0x00000000#32),
    StableHlo.TRef.unary main_call5.cst main_call5.v0 (broadcastInDim S4096x128 ![] bcast_S_S4096x128),
    StableHlo.TRef.binary (.of main_v215 : StableHlo.TRef sig ⟨S4096x128, .f32⟩) main_call5.v0 main_call5.v1 (cmpf .oge),
    StableHlo.TRef.unary (.of main_cst_34 : StableHlo.TRef sig ⟨S_, .f32⟩) main_call5.v2 id,
    StableHlo.TRef.unary main_call5.v2 main_call5.v3 (broadcastInDim S4096x128 ![] bcast_S_S4096x128),
    StableHlo.TRef.binary main_call5.v3 (.of main_v215 : StableHlo.TRef sig ⟨S4096x128, .f32⟩) main_call5.v4 mulf,
    StableHlo.TRef.ternary main_call5.v1 (.of main_v215 : StableHlo.TRef sig ⟨S4096x128, .f32⟩) main_call5.v4 main_call5.call0.v0 select,
    StableHlo.unary main_arg4 main_v217 ((extractStridedSlice S1x128x2 ![1, 0, 0] · slices_S2x128x2_S1x128x2_1_0_0) : (⟨S2x128x2, .f32⟩ : BufTy).Contents (Elt F) → (⟨S1x128x2, .f32⟩ : BufTy).Contents (Elt F)),
    StableHlo.reshape main_v217 main_v218 rfl shapeCasts_S1x128x2_S128x2,
    StableHlo.unary main_arg5 main_v219 ((extractStridedSlice S1x128 ![1, 0] · slices_S2x128_S1x128_1_0) : (⟨S2x128, .f32⟩ : BufTy).Contents (Elt F) → (⟨S1x128, .f32⟩ : BufTy).Contents (Elt F)),
    StableHlo.reshape main_v219 main_v220 rfl shapeCasts_S1x128_S128,
    StableHlo.unary main_arg6 main_v221 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v221 main_v222 rfl shapeCasts_S1x128x128_S128x128,
    StableHlo.unary main_arg7 main_v223 ((extractStridedSlice S1x128 ![1, 0] · slices_S2x128_S1x128_1_0) : (⟨S2x128, .f32⟩ : BufTy).Contents (Elt F) → (⟨S1x128, .f32⟩ : BufTy).Contents (Elt F)),
    StableHlo.reshape main_v223 main_v224 rfl shapeCasts_S1x128_S128,
    StableHlo.unary main_arg8 main_v225 ((extractStridedSlice S1x128 ![1, 0] · slices_S2x128_S1x128_1_0) : (⟨S2x128, .f32⟩ : BufTy).Contents (Elt F) → (⟨S1x128, .f32⟩ : BufTy).Contents (Elt F)),
    StableHlo.reshape main_v225 main_v226 rfl shapeCasts_S1x128_S128,
    StableHlo.unary main_arg9 main_v227 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v227 main_v228 rfl shapeCasts_S1x128x128_S128x128,
    StableHlo.unary main_arg10 main_v229 ((extractStridedSlice S1x128 ![1, 0] · slices_S2x128_S1x128_1_0) : (⟨S2x128, .f32⟩ : BufTy).Contents (Elt F) → (⟨S1x128, .f32⟩ : BufTy).Contents (Elt F)),
    StableHlo.reshape main_v229 main_v230 rfl shapeCasts_S1x128_S128,
    StableHlo.unary main_arg11 main_v231 ((extractStridedSlice S1x128 ![1, 0] · slices_S2x128_S1x128_1_0) : (⟨S2x128, .f32⟩ : BufTy).Contents (Elt F) → (⟨S1x128, .f32⟩ : BufTy).Contents (Elt F)),
    StableHlo.reshape main_v231 main_v232 rfl shapeCasts_S1x128_S128,
    StableHlo.unary main_arg12 main_v233 ((extractStridedSlice S1x128x384 ![1, 0, 0] · slices_S2x128x384_S1x128x384_1_0_0) : (⟨S2x128x384, .f32⟩ : BufTy).Contents (Elt F) → (⟨S1x128x384, .f32⟩ : BufTy).Contents (Elt F)),
    StableHlo.reshape main_v233 main_v234 rfl shapeCasts_S1x128x384_S128x384,
    StableHlo.unary main_arg13 main_v235 ((extractStridedSlice S1x128 ![1, 0] · slices_S2x128_S1x128_1_0) : (⟨S2x128, .f32⟩ : BufTy).Contents (Elt F) → (⟨S1x128, .f32⟩ : BufTy).Contents (Elt F)),
    StableHlo.reshape main_v235 main_v236 rfl shapeCasts_S1x128_S128,
    StableHlo.unary main_arg14 main_v237 ((extractStridedSlice S1x128 ![1, 0] · slices_S2x128_S1x128_1_0) : (⟨S2x128, .f32⟩ : BufTy).Contents (Elt F) → (⟨S1x128, .f32⟩ : BufTy).Contents (Elt F)),
    StableHlo.reshape main_v237 main_v238 rfl shapeCasts_S1x128_S128,
    StableHlo.unary main_arg15 main_v239 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v239 main_v240 rfl shapeCasts_S1x128x128_S128x128,
    StableHlo.unary main_arg16 main_v241 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v241 main_v242 rfl shapeCasts_S1x128x128_S128x128,
    StableHlo.unary main_arg17 main_v243 ((extractStridedSlice S1x128 ![1, 0] · slices_S2x128_S1x128_1_0) : (⟨S2x128, .f32⟩ : BufTy).Contents (Elt F) → (⟨S1x128, .f32⟩ : BufTy).Contents (Elt F)),
    StableHlo.reshape main_v243 main_v244 rfl shapeCasts_S1x128_S128,
    StableHlo.unary main_arg18 main_v245 ((extractStridedSlice S1x128 ![1, 0] · slices_S2x128_S1x128_1_0) : (⟨S2x128, .f32⟩ : BufTy).Contents (Elt F) → (⟨S1x128, .f32⟩ : BufTy).Contents (Elt F)),
    StableHlo.reshape main_v245 main_v246 rfl shapeCasts_S1x128_S128,
    StableHlo.unary main_arg19 main_v247 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v247 main_v248 rfl shapeCasts_S1x128x128_S128x128,
    StableHlo.unary main_arg20 main_v249 ((extractStridedSlice S1x128 ![1, 0] · slices_S2x128_S1x128_1_0) : (⟨S2x128, .f32⟩ : BufTy).Contents (Elt F) → (⟨S1x128, .f32⟩ : BufTy).Contents (Elt F)),
    StableHlo.reshape main_v249 main_v250 rfl shapeCasts_S1x128_S128,
    StableHlo.unary main_arg21 main_v251 ((extractStridedSlice S1x128 ![1, 0] · slices_S2x128_S1x128_1_0) : (⟨S2x128, .f32⟩ : BufTy).Contents (Elt F) → (⟨S1x128, .f32⟩ : BufTy).Contents (Elt F)),
    StableHlo.reshape main_v251 main_v252 rfl shapeCasts_S1x128_S128,
    StableHlo.nullary main_c_35 (constantI S_ 32 0#32),
    StableHlo.unary main_c_35 main_v253 (broadcastInDim S167386 ![] bcast_S_S167386 : (⟨S_, .i32⟩ : BufTy).Contents (Elt F) → (⟨S167386, .i32⟩ : BufTy).Contents (Elt F)),
    StableHlo.binary main_arg2 main_v253 main_v254 (cmpi .slt : (⟨S167386, .i32⟩ : BufTy).Contents (Elt F) → (⟨S167386, .i32⟩ : BufTy).Contents (Elt F) → (⟨S167386, .i1⟩ : BufTy).Contents (Elt F)),
    StableHlo.nullary main_c_36 (constantI S_ 32 4096#32),
    StableHlo.unary main_c_36 main_v255 (broadcastInDim S167386 ![] bcast_S_S167386 : (⟨S_, .i32⟩ : BufTy).Contents (Elt F) → (⟨S167386, .i32⟩ : BufTy).Contents (Elt F)),
    StableHlo.binary main_arg2 main_v255 main_v256 (addi : (⟨S167386, .i32⟩ : BufTy).Contents (Elt F) → (⟨S167386, .i32⟩ : BufTy).Contents (Elt F) → (⟨S167386, .i32⟩ : BufTy).Contents (Elt F)),
    StableHlo.ternary main_v254 main_v256 main_arg2 main_v257 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v257 main_v258 (broadcastInDim S167386x1 ![0] bcast_S167386_S167386x1_0 : (⟨S167386, .i32⟩ : BufTy).Contents (Elt F) → (⟨S167386x1, .i32⟩ : BufTy).Contents (Elt F)),
    StableHlo.binary main_arg1 main_v258 main_v259 ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)),
    StableHlo.nullary main_c_37 (constantI S_ 32 0#32) ]

set_option maxRecDepth 8192 in
theorem main_part4_eq (c : Dev nD) : main_part4 (F := F) c = seq ops4 := rfl

set_option maxRecDepth 8192 in
theorem ops4_sub : (ops4 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers window 4's operations write. -/
abbrev ops4_W : List (Ref sig .tc) := [main_v204, main_v205, main_v206, main_v207, main_v208, main_v209, main_v210, main_v211, main_v212, main_v213, main_v214, main_v215, main_cst_34, main_call5_cst, main_call5_v0, main_call5_v1, main_call5_v2, main_call5_v3, main_call5_v4, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_c_35, main_v253, main_v254, main_c_36, main_v255, main_v256, main_v257, main_v258, main_v259, main_c_37]
set_option maxRecDepth 8192 in
theorem ops4_writes : (ops4 : List (HloOp τ sig (Elt F))).Forall fun op => op.writes ⊆ (ops4_W.map (Proc.devRef (τ := τ) .tc)).toFinset :=
  ⟨single_sub_of_mem main_v204 (by decide), single_sub_of_mem main_v205 (by decide), single_sub_of_mem main_v206 (by decide), single_sub_of_mem main_v207 (by decide), single_sub_of_mem main_v208 (by decide), single_sub_of_mem main_v209 (by decide), single_sub_of_mem main_v210 (by decide), single_sub_of_mem main_v211 (by decide), single_sub_of_mem main_v212 (by decide), single_sub_of_mem main_v213 (by decide), single_sub_of_mem main_v214 (by decide), single_sub_of_mem main_v215 (by decide), single_sub_of_mem main_cst_34 (by decide), single_sub_of_mem main_call5_cst (by decide), single_sub_of_mem main_call5_v0 (by decide), single_sub_of_mem main_call5_v1 (by decide), single_sub_of_mem main_call5_v2 (by decide), single_sub_of_mem main_call5_v3 (by decide), single_sub_of_mem main_call5_v4 (by decide), single_sub_of_mem main_v216 (by decide), single_sub_of_mem main_v217 (by decide), single_sub_of_mem main_v218 (by decide), single_sub_of_mem main_v219 (by decide), single_sub_of_mem main_v220 (by decide), single_sub_of_mem main_v221 (by decide), single_sub_of_mem main_v222 (by decide), single_sub_of_mem main_v223 (by decide), single_sub_of_mem main_v224 (by decide), single_sub_of_mem main_v225 (by decide), single_sub_of_mem main_v226 (by decide), single_sub_of_mem main_v227 (by decide), single_sub_of_mem main_v228 (by decide), single_sub_of_mem main_v229 (by decide), single_sub_of_mem main_v230 (by decide), single_sub_of_mem main_v231 (by decide), single_sub_of_mem main_v232 (by decide), single_sub_of_mem main_v233 (by decide), single_sub_of_mem main_v234 (by decide), single_sub_of_mem main_v235 (by decide), single_sub_of_mem main_v236 (by decide), single_sub_of_mem main_v237 (by decide), single_sub_of_mem main_v238 (by decide), single_sub_of_mem main_v239 (by decide), single_sub_of_mem main_v240 (by decide), single_sub_of_mem main_v241 (by decide), single_sub_of_mem main_v242 (by decide), single_sub_of_mem main_v243 (by decide), single_sub_of_mem main_v244 (by decide), single_sub_of_mem main_v245 (by decide), single_sub_of_mem main_v246 (by decide), single_sub_of_mem main_v247 (by decide), single_sub_of_mem main_v248 (by decide), single_sub_of_mem main_v249 (by decide), single_sub_of_mem main_v250 (by decide), single_sub_of_mem main_v251 (by decide), single_sub_of_mem main_v252 (by decide), single_sub_of_mem main_c_35 (by decide), single_sub_of_mem main_v253 (by decide), single_sub_of_mem main_v254 (by decide), single_sub_of_mem main_c_36 (by decide), single_sub_of_mem main_v255 (by decide), single_sub_of_mem main_v256 (by decide), single_sub_of_mem main_v257 (by decide), single_sub_of_mem main_v258 (by decide), single_sub_of_mem main_v259 (by decide), single_sub_of_mem main_c_37 (by decide)⟩

/-- The operations of statements window 5 of the reference's entry function, in order; a called function's operations stand at its call, over that call's buffers. -/
abbrev ops5 : List (HloOp τ sig (Elt F)) :=
  [ StableHlo.unary main_c_37 main_v260 (broadcastInDim S167386 ![] bcast_S_S167386 : (⟨S_, .i32⟩ : BufTy).Contents (Elt F) → (⟨S167386, .i32⟩ : BufTy).Contents (Elt F)),
    StableHlo.binary main_arg3 main_v260 main_v261 (cmpi .slt : (⟨S167386, .i32⟩ : BufTy).Contents (Elt F) → (⟨S167386, .i32⟩ : BufTy).Contents (Elt F) → (⟨S167386, .i1⟩ : BufTy).Contents (Elt F)),
    StableHlo.nullary main_c_38 (constantI S_ 32 4096#32),
    StableHlo.unary main_c_38 main_v262 (broadcastInDim S167386 ![] bcast_S_S167386 : (⟨S_, .i32⟩ : BufTy).Contents (Elt F) → (⟨S167386, .i32⟩ : BufTy).Contents (Elt F)),
    StableHlo.binary main_arg3 main_v262 main_v263 (addi : (⟨S167386, .i32⟩ : BufTy).Contents (Elt F) → (⟨S167386, .i32⟩ : BufTy).Contents (Elt F) → (⟨S167386, .i32⟩ : BufTy).Contents (Elt F)),
    StableHlo.ternary main_v261 main_v263 main_arg3 main_v264 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v264 main_v265 (broadcastInDim S167386x1 ![0] bcast_S167386_S167386x1_0 : (⟨S167386, .i32⟩ : BufTy).Contents (Elt F) → (⟨S167386x1, .i32⟩ : BufTy).Contents (Elt F)),
    StableHlo.binary main_arg1 main_v265 main_v266 ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)),
    StableHlo.binary main_v259 main_v266 main_v267 (subf : (⟨S167386x2, .f32⟩ : BufTy).Contents (Elt F) → (⟨S167386x2, .f32⟩ : BufTy).Contents (Elt F) → (⟨S167386x2, .f32⟩ : BufTy).Contents (Elt F)),
    StableHlo.unary main_v218 main_v268 ((transpose S2x128 [1, 0] · transposes_S128x2_S2x128_1_0) : (⟨S128x2, .f32⟩ : BufTy).Contents (Elt F) → (⟨S2x128, .f32⟩ : BufTy).Contents (Elt F)),
    StableHlo.binary main_v267 main_v268 main_v269 ((fun l r => Host.dotGeneral dot_S167386x2_S2x128_S167386x128_1_0_0_1_n_n none l r) : (⟨S167386x2, .f32⟩ : BufTy).Contents (Elt F) → (⟨S2x128, .f32⟩ : BufTy).Contents (Elt F) → (⟨S167386x128, .f32⟩ : BufTy).Contents (Elt F)),
    StableHlo.unary main_v220 main_v270 (broadcastInDim S1x128 ![1] bcast_S128_S1x128_1 : (⟨S128, .f32⟩ : BufTy).Contents (Elt F) → (⟨S1x128, .f32⟩ : BufTy).Contents (Elt F)),
    StableHlo.unary main_v270 main_v271 (broadcastInDim S167386x128 ![0, 1] bcast_S1x128_S167386x128_0_1 : (⟨S1x128, .f32⟩ : BufTy).Contents (Elt F) → (⟨S167386x128, .f32⟩ : BufTy).Contents (Elt F)),
    StableHlo.binary main_v269 main_v271 main_v272 (addf : (⟨S167386x128, .f32⟩ : BufTy).Contents (Elt F) → (⟨S167386x128, .f32⟩ : BufTy).Contents (Elt F) → (⟨S167386x128, .f32⟩ : BufTy).Contents (Elt F)),
    StableHlo.TRef.nullary main_call6.cst (constant S_ .f32 0x00000000#32),
    StableHlo.TRef.unary main_call6.cst main_call6.v0 (broadcastInDim S167386x128 ![] bcast_S_S167386x128),
    StableHlo.TRef.binary (.of main_v272 : StableHlo.TRef sig ⟨S167386x128, .f32⟩) main_call6.v0 main_call6.v1 maximumf,
    StableHlo.unary main_v222 main_v274 ((transpose S128x128 [1, 0] · transposes_S128x128_S128x128_1_0) : (⟨S128x128, .f32⟩ : BufTy).Contents (Elt F) → (⟨S128x128, .f32⟩ : BufTy).Contents (Elt F)),
    StableHlo.binary main_v273 main_v274 main_v275 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.nullary main_cst_39 (constant S_ .f32 0x00000000#32),
    StableHlo.binary main_v275 main_cst_39 main_v276 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v276 main_v277 (broadcastInDim S167386x1 ![0] bcast_S167386_S167386x1_0 : (⟨S167386, .f32⟩ : BufTy).Contents (Elt F) → (⟨S167386x1, .f32⟩ : BufTy).Contents (Elt F)),
    StableHlo.nullary main_cst_40 (constant S_ .f32 0x43000000#32),
    StableHlo.unary main_cst_40 main_v278 (broadcastInDim S167386x1 ![] bcast_S_S167386x1 : (⟨S_, .f32⟩ : BufTy).Contents (Elt F) → (⟨S167386x1, .f32⟩ : BufTy).Contents (Elt F)),
    StableHlo.binary main_v277 main_v278 main_v279 (Host.divf : (⟨S167386x1, .f32⟩ : BufTy).Contents (Elt F) → (⟨S167386x1, .f32⟩ : BufTy).Contents (Elt F) → (⟨S167386x1, .f32⟩ : BufTy).Contents (Elt F)),
    StableHlo.unary main_v279 main_v280 (broadcastInDim S167386x128 ![0, 1] bcast_S167386x1_S167386x128_0_1 : (⟨S167386x1, .f32⟩ : BufTy).Contents (Elt F) → (⟨S167386x128, .f32⟩ : BufTy).Contents (Elt F)),
    StableHlo.binary main_v275 main_v280 main_v281 (subf : (⟨S167386x128, .f32⟩ : BufTy).Contents (Elt F) → (⟨S167386x128, .f32⟩ : BufTy).Contents (Elt F) → (⟨S167386x128, .f32⟩ : BufTy).Contents (Elt F)),
    StableHlo.binary main_v281 main_v281 main_v282 (mulf : (⟨S167386x128, .f32⟩ : BufTy).Contents (Elt F) → (⟨S167386x128, .f32⟩ : BufTy).Contents (Elt F) → (⟨S167386x128, .f32⟩ : BufTy).Contents (Elt F)),
    StableHlo.nullary main_cst_41 (constant S_ .f32 0x00000000#32),
    StableHlo.binary main_v282 main_cst_41 main_v283 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v283 main_v284 (broadcastInDim S167386x1 ![0] bcast_S167386_S167386x1_0 : (⟨S167386, .f32⟩ : BufTy).Contents (Elt F) → (⟨S167386x1, .f32⟩ : BufTy).Contents (Elt F)),
    StableHlo.nullary main_cst_42 (constant S_ .f32 0x43000000#32),
    StableHlo.unary main_cst_42 main_v285 (broadcastInDim S167386x1 ![] bcast_S_S167386x1 : (⟨S_, .f32⟩ : BufTy).Contents (Elt F) → (⟨S167386x1, .f32⟩ : BufTy).Contents (Elt F)),
    StableHlo.binary main_v284 main_v285 main_v286 (Host.divf : (⟨S167386x1, .f32⟩ : BufTy).Contents (Elt F) → (⟨S167386x1, .f32⟩ : BufTy).Contents (Elt F) → (⟨S167386x1, .f32⟩ : BufTy).Contents (Elt F)),
    StableHlo.unary main_v279 main_v287 (broadcastInDim S167386x128 ![0, 1] bcast_S167386x1_S167386x128_0_1 : (⟨S167386x1, .f32⟩ : BufTy).Contents (Elt F) → (⟨S167386x128, .f32⟩ : BufTy).Contents (Elt F)),
    StableHlo.binary main_v275 main_v287 main_v288 (subf : (⟨S167386x128, .f32⟩ : BufTy).Contents (Elt F) → (⟨S167386x128, .f32⟩ : BufTy).Contents (Elt F) → (⟨S167386x128, .f32⟩ : BufTy).Contents (Elt F)),
    StableHlo.nullary main_cst_43 (constant S_ .f32 0x3727C5AC#32),
    StableHlo.unary main_cst_43 main_v289 (broadcastInDim S167386x1 ![] bcast_S_S167386x1 : (⟨S_, .f32⟩ : BufTy).Contents (Elt F) → (⟨S167386x1, .f32⟩ : BufTy).Contents (Elt F)),
    StableHlo.binary main_v286 main_v289 main_v290 (addf : (⟨S167386x1, .f32⟩ : BufTy).Contents (Elt F) → (⟨S167386x1, .f32⟩ : BufTy).Contents (Elt F) → (⟨S167386x1, .f32⟩ : BufTy).Contents (Elt F)),
    StableHlo.unary main_v290 main_v291 (Host.rsqrt : (⟨S167386x1, .f32⟩ : BufTy).Contents (Elt F) → (⟨S167386x1, .f32⟩ : BufTy).Contents (Elt F)),
    StableHlo.unary main_v291 main_v292 (broadcastInDim S167386x128 ![0, 1] bcast_S167386x1_S167386x128_0_1 : (⟨S167386x1, .f32⟩ : BufTy).Contents (Elt F) → (⟨S167386x128, .f32⟩ : BufTy).Contents (Elt F)),
    StableHlo.binary main_v288 main_v292 main_v293 (mulf : (⟨S167386x128, .f32⟩ : BufTy).Contents (Elt F) → (⟨S167386x128, .f32⟩ : BufTy).Contents (Elt F) → (⟨S167386x128, .f32⟩ : BufTy).Contents (Elt F)),
    StableHlo.unary main_v224 main_v294 (broadcastInDim S1x128 ![1] bcast_S128_S1x128_1 : (⟨S128, .f32⟩ : BufTy).Contents (Elt F) → (⟨S1x128, .f32⟩ : BufTy).Contents (Elt F)),
    StableHlo.unary main_v294 main_v295 (broadcastInDim S167386x128 ![0, 1] bcast_S1x128_S167386x128_0_1 : (⟨S1x128, .f32⟩ : BufTy).Contents (Elt F) → (⟨S167386x128, .f32⟩ : BufTy).Contents (Elt F)),
    StableHlo.binary main_v293 main_v295 main_v296 (mulf : (⟨S167386x128, .f32⟩ : BufTy).Contents (Elt F) → (⟨S167386x128, .f32⟩ : BufTy).Contents (Elt F) → (⟨S167386x128, .f32⟩ : BufTy).Contents (Elt F)),
    StableHlo.unary main_v226 main_v297 (broadcastInDim S1x128 ![1] bcast_S128_S1x128_1 : (⟨S128, .f32⟩ : BufTy).Contents (Elt F) → (⟨S1x128, .f32⟩ : BufTy).Contents (Elt F)),
    StableHlo.unary main_v297 main_v298 (broadcastInDim S167386x128 ![0, 1] bcast_S1x128_S167386x128_0_1 : (⟨S1x128, .f32⟩ : BufTy).Contents (Elt F) → (⟨S167386x128, .f32⟩ : BufTy).Contents (Elt F)),
    StableHlo.binary main_v296 main_v298 main_v299 (addf : (⟨S167386x128, .f32⟩ : BufTy).Contents (Elt F) → (⟨S167386x128, .f32⟩ : BufTy).Contents (Elt F) → (⟨S167386x128, .f32⟩ : BufTy).Contents (Elt F)),
    StableHlo.TRef.nullary main_call7.cst (constant S_ .f32 0x00000000#32),
    StableHlo.TRef.unary main_call7.cst main_call7.v0 (broadcastInDim S167386x128 ![] bcast_S_S167386x128),
    StableHlo.TRef.binary (.of main_v299 : StableHlo.TRef sig ⟨S167386x128, .f32⟩) main_call7.v0 main_call7.v1 maximumf,
    StableHlo.nullary main_c_44 (constantI S_ 32 0#32),
    StableHlo.unary main_c_44 main_v301 (broadcastInDim S167386 ![] bcast_S_S167386 : (⟨S_, .i32⟩ : BufTy).Contents (Elt F) → (⟨S167386, .i32⟩ : BufTy).Contents (Elt F)),
    StableHlo.binary main_arg2 main_v301 main_v302 (cmpi .slt : (⟨S167386, .i32⟩ : BufTy).Contents (Elt F) → (⟨S167386, .i32⟩ : BufTy).Contents (Elt F) → (⟨S167386, .i1⟩ : BufTy).Contents (Elt F)),
    StableHlo.nullary main_c_45 (constantI S_ 32 4096#32),
    StableHlo.unary main_c_45 main_v303 (broadcastInDim S167386 ![] bcast_S_S167386 : (⟨S_, .i32⟩ : BufTy).Contents (Elt F) → (⟨S167386, .i32⟩ : BufTy).Contents (Elt F)),
    StableHlo.binary main_arg2 main_v303 main_v304 (addi : (⟨S167386, .i32⟩ : BufTy).Contents (Elt F) → (⟨S167386, .i32⟩ : BufTy).Contents (Elt F) → (⟨S167386, .i32⟩ : BufTy).Contents (Elt F)),
    StableHlo.ternary main_v302 main_v304 main_arg2 main_v305 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v305 main_v306 (broadcastInDim S167386x1 ![0] bcast_S167386_S167386x1_0 : (⟨S167386, .i32⟩ : BufTy).Contents (Elt F) → (⟨S167386x1, .i32⟩ : BufTy).Contents (Elt F)),
    StableHlo.binary main_v216 main_v306 main_v307 ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)),
    StableHlo.unary main_v228 main_v308 ((transpose S128x128 [1, 0] · transposes_S128x128_S128x128_1_0) : (⟨S128x128, .f32⟩ : BufTy).Contents (Elt F) → (⟨S128x128, .f32⟩ : BufTy).Contents (Elt F)),
    StableHlo.binary main_v307 main_v308 main_v309 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.nullary main_cst_46 (constant S_ .f32 0x00000000#32),
    StableHlo.binary main_v309 main_cst_46 main_v310 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) ]

set_option maxRecDepth 8192 in
theorem main_part5_eq (c : Dev nD) : main_part5 (F := F) c = seq ops5 := rfl

set_option maxRecDepth 8192 in
theorem ops5_sub : (ops5 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., binary_bufs_sub ..⟩

set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers window 5's operations write. -/
abbrev ops5_W : List (Ref sig .tc) := [main_v260, main_v261, main_c_38, main_v262, main_v263, main_v264, main_v265, main_v266, main_v267, main_v268, main_v269, main_v270, main_v271, main_v272, main_call6_cst, main_call6_v0, main_v273, main_v274, main_v275, main_cst_39, main_v276, main_v277, main_cst_40, main_v278, main_v279, main_v280, main_v281, main_v282, main_cst_41, main_v283, main_v284, main_cst_42, main_v285, main_v286, main_v287, main_v288, main_cst_43, main_v289, main_v290, main_v291, main_v292, main_v293, main_v294, main_v295, main_v296, main_v297, main_v298, main_v299, main_call7_cst, main_call7_v0, main_v300, main_c_44, main_v301, main_v302, main_c_45, main_v303, main_v304, main_v305, main_v306, main_v307, main_v308, main_v309, main_cst_46, main_v310]
set_option maxRecDepth 8192 in
theorem ops5_writes : (ops5 : List (HloOp τ sig (Elt F))).Forall fun op => op.writes ⊆ (ops5_W.map (Proc.devRef (τ := τ) .tc)).toFinset :=
  ⟨single_sub_of_mem main_v260 (by decide), single_sub_of_mem main_v261 (by decide), single_sub_of_mem main_c_38 (by decide), single_sub_of_mem main_v262 (by decide), single_sub_of_mem main_v263 (by decide), single_sub_of_mem main_v264 (by decide), single_sub_of_mem main_v265 (by decide), single_sub_of_mem main_v266 (by decide), single_sub_of_mem main_v267 (by decide), single_sub_of_mem main_v268 (by decide), single_sub_of_mem main_v269 (by decide), single_sub_of_mem main_v270 (by decide), single_sub_of_mem main_v271 (by decide), single_sub_of_mem main_v272 (by decide), single_sub_of_mem main_call6_cst (by decide), single_sub_of_mem main_call6_v0 (by decide), single_sub_of_mem main_v273 (by decide), single_sub_of_mem main_v274 (by decide), single_sub_of_mem main_v275 (by decide), single_sub_of_mem main_cst_39 (by decide), single_sub_of_mem main_v276 (by decide), single_sub_of_mem main_v277 (by decide), single_sub_of_mem main_cst_40 (by decide), single_sub_of_mem main_v278 (by decide), single_sub_of_mem main_v279 (by decide), single_sub_of_mem main_v280 (by decide), single_sub_of_mem main_v281 (by decide), single_sub_of_mem main_v282 (by decide), single_sub_of_mem main_cst_41 (by decide), single_sub_of_mem main_v283 (by decide), single_sub_of_mem main_v284 (by decide), single_sub_of_mem main_cst_42 (by decide), single_sub_of_mem main_v285 (by decide), single_sub_of_mem main_v286 (by decide), single_sub_of_mem main_v287 (by decide), single_sub_of_mem main_v288 (by decide), single_sub_of_mem main_cst_43 (by decide), single_sub_of_mem main_v289 (by decide), single_sub_of_mem main_v290 (by decide), single_sub_of_mem main_v291 (by decide), single_sub_of_mem main_v292 (by decide), single_sub_of_mem main_v293 (by decide), single_sub_of_mem main_v294 (by decide), single_sub_of_mem main_v295 (by decide), single_sub_of_mem main_v296 (by decide), single_sub_of_mem main_v297 (by decide), single_sub_of_mem main_v298 (by decide), single_sub_of_mem main_v299 (by decide), single_sub_of_mem main_call7_cst (by decide), single_sub_of_mem main_call7_v0 (by decide), single_sub_of_mem main_v300 (by decide), single_sub_of_mem main_c_44 (by decide), single_sub_of_mem main_v301 (by decide), single_sub_of_mem main_v302 (by decide), single_sub_of_mem main_c_45 (by decide), single_sub_of_mem main_v303 (by decide), single_sub_of_mem main_v304 (by decide), single_sub_of_mem main_v305 (by decide), single_sub_of_mem main_v306 (by decide), single_sub_of_mem main_v307 (by decide), single_sub_of_mem main_v308 (by decide), single_sub_of_mem main_v309 (by decide), single_sub_of_mem main_cst_46 (by decide), single_sub_of_mem main_v310 (by decide)⟩

/-- The operations of statements window 6 of the reference's entry function, in order; a called function's operations stand at its call, over that call's buffers. -/
abbrev ops6 : List (HloOp τ sig (Elt F)) :=
  [ StableHlo.unary main_v310 main_v311 (broadcastInDim S167386x1 ![0] bcast_S167386_S167386x1_0 : (⟨S167386, .f32⟩ : BufTy).Contents (Elt F) → (⟨S167386x1, .f32⟩ : BufTy).Contents (Elt F)),
    StableHlo.nullary main_cst_47 (constant S_ .f32 0x43000000#32),
    StableHlo.unary main_cst_47 main_v312 (broadcastInDim S167386x1 ![] bcast_S_S167386x1 : (⟨S_, .f32⟩ : BufTy).Contents (Elt F) → (⟨S167386x1, .f32⟩ : BufTy).Contents (Elt F)),
    StableHlo.binary main_v311 main_v312 main_v313 (Host.divf : (⟨S167386x1, .f32⟩ : BufTy).Contents (Elt F) → (⟨S167386x1, .f32⟩ : BufTy).Contents (Elt F) → (⟨S167386x1, .f32⟩ : BufTy).Contents (Elt F)),
    StableHlo.unary main_v313 main_v314 (broadcastInDim S167386x128 ![0, 1] bcast_S167386x1_S167386x128_0_1 : (⟨S167386x1, .f32⟩ : BufTy).Contents (Elt F) → (⟨S167386x128, .f32⟩ : BufTy).Contents (Elt F)),
    StableHlo.binary main_v309 main_v314 main_v315 (subf : (⟨S167386x128, .f32⟩ : BufTy).Contents (Elt F) → (⟨S167386x128, .f32⟩ : BufTy).Contents (Elt F) → (⟨S167386x128, .f32⟩ : BufTy).Contents (Elt F)),
    StableHlo.binary main_v315 main_v315 main_v316 (mulf : (⟨S167386x128, .f32⟩ : BufTy).Contents (Elt F) → (⟨S167386x128, .f32⟩ : BufTy).Contents (Elt F) → (⟨S167386x128, .f32⟩ : BufTy).Contents (Elt F)),
    StableHlo.nullary main_cst_48 (constant S_ .f32 0x00000000#32),
    StableHlo.binary main_v316 main_cst_48 main_v317 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v317 main_v318 (broadcastInDim S167386x1 ![0] bcast_S167386_S167386x1_0 : (⟨S167386, .f32⟩ : BufTy).Contents (Elt F) → (⟨S167386x1, .f32⟩ : BufTy).Contents (Elt F)),
    StableHlo.nullary main_cst_49 (constant S_ .f32 0x43000000#32),
    StableHlo.unary main_cst_49 main_v319 (broadcastInDim S167386x1 ![] bcast_S_S167386x1 : (⟨S_, .f32⟩ : BufTy).Contents (Elt F) → (⟨S167386x1, .f32⟩ : BufTy).Contents (Elt F)),
    StableHlo.binary main_v318 main_v319 main_v320 (Host.divf : (⟨S167386x1, .f32⟩ : BufTy).Contents (Elt F) → (⟨S167386x1, .f32⟩ : BufTy).Contents (Elt F) → (⟨S167386x1, .f32⟩ : BufTy).Contents (Elt F)),
    StableHlo.unary main_v313 main_v321 (broadcastInDim S167386x128 ![0, 1] bcast_S167386x1_S167386x128_0_1 : (⟨S167386x1, .f32⟩ : BufTy).Contents (Elt F) → (⟨S167386x128, .f32⟩ : BufTy).Contents (Elt F)),
    StableHlo.binary main_v309 main_v321 main_v322 (subf : (⟨S167386x128, .f32⟩ : BufTy).Contents (Elt F) → (⟨S167386x128, .f32⟩ : BufTy).Contents (Elt F) → (⟨S167386x128, .f32⟩ : BufTy).Contents (Elt F)),
    StableHlo.nullary main_cst_50 (constant S_ .f32 0x3727C5AC#32),
    StableHlo.unary main_cst_50 main_v323 (broadcastInDim S167386x1 ![] bcast_S_S167386x1 : (⟨S_, .f32⟩ : BufTy).Contents (Elt F) → (⟨S167386x1, .f32⟩ : BufTy).Contents (Elt F)),
    StableHlo.binary main_v320 main_v323 main_v324 (addf : (⟨S167386x1, .f32⟩ : BufTy).Contents (Elt F) → (⟨S167386x1, .f32⟩ : BufTy).Contents (Elt F) → (⟨S167386x1, .f32⟩ : BufTy).Contents (Elt F)),
    StableHlo.unary main_v324 main_v325 (Host.rsqrt : (⟨S167386x1, .f32⟩ : BufTy).Contents (Elt F) → (⟨S167386x1, .f32⟩ : BufTy).Contents (Elt F)),
    StableHlo.unary main_v325 main_v326 (broadcastInDim S167386x128 ![0, 1] bcast_S167386x1_S167386x128_0_1 : (⟨S167386x1, .f32⟩ : BufTy).Contents (Elt F) → (⟨S167386x128, .f32⟩ : BufTy).Contents (Elt F)),
    StableHlo.binary main_v322 main_v326 main_v327 (mulf : (⟨S167386x128, .f32⟩ : BufTy).Contents (Elt F) → (⟨S167386x128, .f32⟩ : BufTy).Contents (Elt F) → (⟨S167386x128, .f32⟩ : BufTy).Contents (Elt F)),
    StableHlo.unary main_v230 main_v328 (broadcastInDim S1x128 ![1] bcast_S128_S1x128_1 : (⟨S128, .f32⟩ : BufTy).Contents (Elt F) → (⟨S1x128, .f32⟩ : BufTy).Contents (Elt F)),
    StableHlo.unary main_v328 main_v329 (broadcastInDim S167386x128 ![0, 1] bcast_S1x128_S167386x128_0_1 : (⟨S1x128, .f32⟩ : BufTy).Contents (Elt F) → (⟨S167386x128, .f32⟩ : BufTy).Contents (Elt F)),
    StableHlo.binary main_v327 main_v329 main_v330 (mulf : (⟨S167386x128, .f32⟩ : BufTy).Contents (Elt F) → (⟨S167386x128, .f32⟩ : BufTy).Contents (Elt F) → (⟨S167386x128, .f32⟩ : BufTy).Contents (Elt F)),
    StableHlo.unary main_v232 main_v331 (broadcastInDim S1x128 ![1] bcast_S128_S1x128_1 : (⟨S128, .f32⟩ : BufTy).Contents (Elt F) → (⟨S1x128, .f32⟩ : BufTy).Contents (Elt F)),
    StableHlo.unary main_v331 main_v332 (broadcastInDim S167386x128 ![0, 1] bcast_S1x128_S167386x128_0_1 : (⟨S1x128, .f32⟩ : BufTy).Contents (Elt F) → (⟨S167386x128, .f32⟩ : BufTy).Contents (Elt F)),
    StableHlo.binary main_v330 main_v332 main_v333 (addf : (⟨S167386x128, .f32⟩ : BufTy).Contents (Elt F) → (⟨S167386x128, .f32⟩ : BufTy).Contents (Elt F) → (⟨S167386x128, .f32⟩ : BufTy).Contents (Elt F)),
    StableHlo.TRef.nullary main_call8.cst (constant S_ .f32 0x00000000#32),
    StableHlo.TRef.unary main_call8.cst main_call8.v0 (broadcastInDim S167386x128 ![] bcast_S_S167386x128),
    StableHlo.TRef.binary (.of main_v333 : StableHlo.TRef sig ⟨S167386x128, .f32⟩) main_call8.v0 main_call8.v1 maximumf,
    StableHlo.nullary main_c_51 (constantI S_ 32 0#32),
    StableHlo.unary main_c_51 main_v335 (broadcastInDim S167386 ![] bcast_S_S167386 : (⟨S_, .i32⟩ : BufTy).Contents (Elt F) → (⟨S167386, .i32⟩ : BufTy).Contents (Elt F)),
    StableHlo.binary main_arg3 main_v335 main_v336 (cmpi .slt : (⟨S167386, .i32⟩ : BufTy).Contents (Elt F) → (⟨S167386, .i32⟩ : BufTy).Contents (Elt F) → (⟨S167386, .i1⟩ : BufTy).Contents (Elt F)),
    StableHlo.nullary main_c_52 (constantI S_ 32 4096#32),
    StableHlo.unary main_c_52 main_v337 (broadcastInDim S167386 ![] bcast_S_S167386 : (⟨S_, .i32⟩ : BufTy).Contents (Elt F) → (⟨S167386, .i32⟩ : BufTy).Contents (Elt F)),
    StableHlo.binary main_arg3 main_v337 main_v338 (addi : (⟨S167386, .i32⟩ : BufTy).Contents (Elt F) → (⟨S167386, .i32⟩ : BufTy).Contents (Elt F) → (⟨S167386, .i32⟩ : BufTy).Contents (Elt F)),
    StableHlo.ternary main_v336 main_v338 main_arg3 main_v339 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v339 main_v340 (broadcastInDim S167386x1 ![0] bcast_S167386_S167386x1_0 : (⟨S167386, .i32⟩ : BufTy).Contents (Elt F) → (⟨S167386x1, .i32⟩ : BufTy).Contents (Elt F)),
    StableHlo.binary main_v216 main_v340 main_v341 ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)),
    StableHlo.nary ![main_v300, main_v334, main_v341] main_v342 (fun u => concatenate S167386x384 1 [⟨S167386x128, u 0⟩, ⟨S167386x128, u 1⟩, ⟨S167386x128, u 2⟩] concatenates_S167386x128_S167386x128_S167386x128_S167386x384_d1),
    StableHlo.unary main_v234 main_v343 ((transpose S384x128 [1, 0] · transposes_S128x384_S384x128_1_0) : (⟨S128x384, .f32⟩ : BufTy).Contents (Elt F) → (⟨S384x128, .f32⟩ : BufTy).Contents (Elt F)),
    StableHlo.binary main_v342 main_v343 main_v344 ((fun l r => Host.dotGeneral dot_S167386x384_S384x128_S167386x128_1_0_0_1_n_n none l r) : (⟨S167386x384, .f32⟩ : BufTy).Contents (Elt F) → (⟨S384x128, .f32⟩ : BufTy).Contents (Elt F) → (⟨S167386x128, .f32⟩ : BufTy).Contents (Elt F)),
    StableHlo.nullary main_cst_53 (constant S_ .f32 0x00000000#32),
    StableHlo.binary main_v344 main_cst_53 main_v345 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v345 main_v346 (broadcastInDim S167386x1 ![0] bcast_S167386_S167386x1_0 : (⟨S167386, .f32⟩ : BufTy).Contents (Elt F) → (⟨S167386x1, .f32⟩ : BufTy).Contents (Elt F)),
    StableHlo.nullary main_cst_54 (constant S_ .f32 0x43000000#32),
    StableHlo.unary main_cst_54 main_v347 (broadcastInDim S167386x1 ![] bcast_S_S167386x1 : (⟨S_, .f32⟩ : BufTy).Contents (Elt F) → (⟨S167386x1, .f32⟩ : BufTy).Contents (Elt F)),
    StableHlo.binary main_v346 main_v347 main_v348 (Host.divf : (⟨S167386x1, .f32⟩ : BufTy).Contents (Elt F) → (⟨S167386x1, .f32⟩ : BufTy).Contents (Elt F) → (⟨S167386x1, .f32⟩ : BufTy).Contents (Elt F)),
    StableHlo.unary main_v348 main_v349 (broadcastInDim S167386x128 ![0, 1] bcast_S167386x1_S167386x128_0_1 : (⟨S167386x1, .f32⟩ : BufTy).Contents (Elt F) → (⟨S167386x128, .f32⟩ : BufTy).Contents (Elt F)),
    StableHlo.binary main_v344 main_v349 main_v350 (subf : (⟨S167386x128, .f32⟩ : BufTy).Contents (Elt F) → (⟨S167386x128, .f32⟩ : BufTy).Contents (Elt F) → (⟨S167386x128, .f32⟩ : BufTy).Contents (Elt F)),
    StableHlo.binary main_v350 main_v350 main_v351 (mulf : (⟨S167386x128, .f32⟩ : BufTy).Contents (Elt F) → (⟨S167386x128, .f32⟩ : BufTy).Contents (Elt F) → (⟨S167386x128, .f32⟩ : BufTy).Contents (Elt F)),
    StableHlo.nullary main_cst_55 (constant S_ .f32 0x00000000#32),
    StableHlo.binary main_v351 main_cst_55 main_v352 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v352 main_v353 (broadcastInDim S167386x1 ![0] bcast_S167386_S167386x1_0 : (⟨S167386, .f32⟩ : BufTy).Contents (Elt F) → (⟨S167386x1, .f32⟩ : BufTy).Contents (Elt F)),
    StableHlo.nullary main_cst_56 (constant S_ .f32 0x43000000#32),
    StableHlo.unary main_cst_56 main_v354 (broadcastInDim S167386x1 ![] bcast_S_S167386x1 : (⟨S_, .f32⟩ : BufTy).Contents (Elt F) → (⟨S167386x1, .f32⟩ : BufTy).Contents (Elt F)),
    StableHlo.binary main_v353 main_v354 main_v355 (Host.divf : (⟨S167386x1, .f32⟩ : BufTy).Contents (Elt F) → (⟨S167386x1, .f32⟩ : BufTy).Contents (Elt F) → (⟨S167386x1, .f32⟩ : BufTy).Contents (Elt F)),
    StableHlo.unary main_v348 main_v356 (broadcastInDim S167386x128 ![0, 1] bcast_S167386x1_S167386x128_0_1 : (⟨S167386x1, .f32⟩ : BufTy).Contents (Elt F) → (⟨S167386x128, .f32⟩ : BufTy).Contents (Elt F)),
    StableHlo.binary main_v344 main_v356 main_v357 (subf : (⟨S167386x128, .f32⟩ : BufTy).Contents (Elt F) → (⟨S167386x128, .f32⟩ : BufTy).Contents (Elt F) → (⟨S167386x128, .f32⟩ : BufTy).Contents (Elt F)),
    StableHlo.nullary main_cst_57 (constant S_ .f32 0x3727C5AC#32),
    StableHlo.unary main_cst_57 main_v358 (broadcastInDim S167386x1 ![] bcast_S_S167386x1 : (⟨S_, .f32⟩ : BufTy).Contents (Elt F) → (⟨S167386x1, .f32⟩ : BufTy).Contents (Elt F)),
    StableHlo.binary main_v355 main_v358 main_v359 (addf : (⟨S167386x1, .f32⟩ : BufTy).Contents (Elt F) → (⟨S167386x1, .f32⟩ : BufTy).Contents (Elt F) → (⟨S167386x1, .f32⟩ : BufTy).Contents (Elt F)) ]

set_option maxRecDepth 8192 in
theorem main_part6_eq (c : Dev nD) : main_part6 (F := F) c = seq ops6 := rfl

set_option maxRecDepth 8192 in
theorem ops6_sub : (ops6 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub ..⟩

set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers window 6's operations write. -/
abbrev ops6_W : List (Ref sig .tc) := [main_v311, main_cst_47, main_v312, main_v313, main_v314, main_v315, main_v316, main_cst_48, main_v317, main_v318, main_cst_49, main_v319, main_v320, main_v321, main_v322, main_cst_50, main_v323, main_v324, main_v325, main_v326, main_v327, main_v328, main_v329, main_v330, main_v331, main_v332, main_v333, main_call8_cst, main_call8_v0, main_v334, main_c_51, main_v335, main_v336, main_c_52, main_v337, main_v338, main_v339, main_v340, main_v341, main_v342, main_v343, main_v344, main_cst_53, main_v345, main_v346, main_cst_54, main_v347, main_v348, main_v349, main_v350, main_v351, main_cst_55, main_v352, main_v353, main_cst_56, main_v354, main_v355, main_v356, main_v357, main_cst_57, main_v358, main_v359]
set_option maxRecDepth 8192 in
theorem ops6_writes : (ops6 : List (HloOp τ sig (Elt F))).Forall fun op => op.writes ⊆ (ops6_W.map (Proc.devRef (τ := τ) .tc)).toFinset :=
  ⟨single_sub_of_mem main_v311 (by decide), single_sub_of_mem main_cst_47 (by decide), single_sub_of_mem main_v312 (by decide), single_sub_of_mem main_v313 (by decide), single_sub_of_mem main_v314 (by decide), single_sub_of_mem main_v315 (by decide), single_sub_of_mem main_v316 (by decide), single_sub_of_mem main_cst_48 (by decide), single_sub_of_mem main_v317 (by decide), single_sub_of_mem main_v318 (by decide), single_sub_of_mem main_cst_49 (by decide), single_sub_of_mem main_v319 (by decide), single_sub_of_mem main_v320 (by decide), single_sub_of_mem main_v321 (by decide), single_sub_of_mem main_v322 (by decide), single_sub_of_mem main_cst_50 (by decide), single_sub_of_mem main_v323 (by decide), single_sub_of_mem main_v324 (by decide), single_sub_of_mem main_v325 (by decide), single_sub_of_mem main_v326 (by decide), single_sub_of_mem main_v327 (by decide), single_sub_of_mem main_v328 (by decide), single_sub_of_mem main_v329 (by decide), single_sub_of_mem main_v330 (by decide), single_sub_of_mem main_v331 (by decide), single_sub_of_mem main_v332 (by decide), single_sub_of_mem main_v333 (by decide), single_sub_of_mem main_call8_cst (by decide), single_sub_of_mem main_call8_v0 (by decide), single_sub_of_mem main_v334 (by decide), single_sub_of_mem main_c_51 (by decide), single_sub_of_mem main_v335 (by decide), single_sub_of_mem main_v336 (by decide), single_sub_of_mem main_c_52 (by decide), single_sub_of_mem main_v337 (by decide), single_sub_of_mem main_v338 (by decide), single_sub_of_mem main_v339 (by decide), single_sub_of_mem main_v340 (by decide), single_sub_of_mem main_v341 (by decide), single_sub_of_mem main_v342 (by decide), single_sub_of_mem main_v343 (by decide), single_sub_of_mem main_v344 (by decide), single_sub_of_mem main_cst_53 (by decide), single_sub_of_mem main_v345 (by decide), single_sub_of_mem main_v346 (by decide), single_sub_of_mem main_cst_54 (by decide), single_sub_of_mem main_v347 (by decide), single_sub_of_mem main_v348 (by decide), single_sub_of_mem main_v349 (by decide), single_sub_of_mem main_v350 (by decide), single_sub_of_mem main_v351 (by decide), single_sub_of_mem main_cst_55 (by decide), single_sub_of_mem main_v352 (by decide), single_sub_of_mem main_v353 (by decide), single_sub_of_mem main_cst_56 (by decide), single_sub_of_mem main_v354 (by decide), single_sub_of_mem main_v355 (by decide), single_sub_of_mem main_v356 (by decide), single_sub_of_mem main_v357 (by decide), single_sub_of_mem main_cst_57 (by decide), single_sub_of_mem main_v358 (by decide), single_sub_of_mem main_v359 (by decide)⟩

/-- The operations of statements window 7 of the reference's entry function, in order; a called function's operations stand at its call, over that call's buffers. -/
abbrev ops7 : List (HloOp τ sig (Elt F)) :=
  [ StableHlo.unary main_v359 main_v360 (Host.rsqrt : (⟨S167386x1, .f32⟩ : BufTy).Contents (Elt F) → (⟨S167386x1, .f32⟩ : BufTy).Contents (Elt F)),
    StableHlo.unary main_v360 main_v361 (broadcastInDim S167386x128 ![0, 1] bcast_S167386x1_S167386x128_0_1 : (⟨S167386x1, .f32⟩ : BufTy).Contents (Elt F) → (⟨S167386x128, .f32⟩ : BufTy).Contents (Elt F)),
    StableHlo.binary main_v357 main_v361 main_v362 (mulf : (⟨S167386x128, .f32⟩ : BufTy).Contents (Elt F) → (⟨S167386x128, .f32⟩ : BufTy).Contents (Elt F) → (⟨S167386x128, .f32⟩ : BufTy).Contents (Elt F)),
    StableHlo.unary main_v236 main_v363 (broadcastInDim S1x128 ![1] bcast_S128_S1x128_1 : (⟨S128, .f32⟩ : BufTy).Contents (Elt F) → (⟨S1x128, .f32⟩ : BufTy).Contents (Elt F)),
    StableHlo.unary main_v363 main_v364 (broadcastInDim S167386x128 ![0, 1] bcast_S1x128_S167386x128_0_1 : (⟨S1x128, .f32⟩ : BufTy).Contents (Elt F) → (⟨S167386x128, .f32⟩ : BufTy).Contents (Elt F)),
    StableHlo.binary main_v362 main_v364 main_v365 (mulf : (⟨S167386x128, .f32⟩ : BufTy).Contents (Elt F) → (⟨S167386x128, .f32⟩ : BufTy).Contents (Elt F) → (⟨S167386x128, .f32⟩ : BufTy).Contents (Elt F)),
    StableHlo.unary main_v238 main_v366 (broadcastInDim S1x128 ![1] bcast_S128_S1x128_1 : (⟨S128, .f32⟩ : BufTy).Contents (Elt F) → (⟨S1x128, .f32⟩ : BufTy).Contents (Elt F)),
    StableHlo.unary main_v366 main_v367 (broadcastInDim S167386x128 ![0, 1] bcast_S1x128_S167386x128_0_1 : (⟨S1x128, .f32⟩ : BufTy).Contents (Elt F) → (⟨S167386x128, .f32⟩ : BufTy).Contents (Elt F)),
    StableHlo.binary main_v365 main_v367 main_v368 (addf : (⟨S167386x128, .f32⟩ : BufTy).Contents (Elt F) → (⟨S167386x128, .f32⟩ : BufTy).Contents (Elt F) → (⟨S167386x128, .f32⟩ : BufTy).Contents (Elt F)),
    StableHlo.TRef.nullary main_call9.cst (constant S_ .f32 0x00000000#32),
    StableHlo.TRef.unary main_call9.cst main_call9.v0 (broadcastInDim S167386x128 ![] bcast_S_S167386x128),
    StableHlo.TRef.binary (.of main_v368 : StableHlo.TRef sig ⟨S167386x128, .f32⟩) main_call9.v0 main_call9.v1 maximumf,
    StableHlo.unary main_v240 main_v370 ((transpose S128x128 [1, 0] · transposes_S128x128_S128x128_1_0) : (⟨S128x128, .f32⟩ : BufTy).Contents (Elt F) → (⟨S128x128, .f32⟩ : BufTy).Contents (Elt F)),
    StableHlo.binary main_v369 main_v370 main_v371 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.unary main_v242 main_v372 ((transpose S128x128 [1, 0] · transposes_S128x128_S128x128_1_0) : (⟨S128x128, .f32⟩ : BufTy).Contents (Elt F) → (⟨S128x128, .f32⟩ : BufTy).Contents (Elt F)),
    StableHlo.binary main_v216 main_v372 main_v373 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.nullary main_c_58 (constantI S_ 32 0#32),
    StableHlo.unary main_c_58 main_v374 (broadcastInDim S167386 ![] bcast_S_S167386 : (⟨S_, .i32⟩ : BufTy).Contents (Elt F) → (⟨S167386, .i32⟩ : BufTy).Contents (Elt F)),
    StableHlo.binary main_arg2 main_v374 main_v375 (cmpi .slt : (⟨S167386, .i32⟩ : BufTy).Contents (Elt F) → (⟨S167386, .i32⟩ : BufTy).Contents (Elt F) → (⟨S167386, .i1⟩ : BufTy).Contents (Elt F)),
    StableHlo.nullary main_c_59 (constantI S_ 32 4096#32),
    StableHlo.unary main_c_59 main_v376 (broadcastInDim S167386 ![] bcast_S_S167386 : (⟨S_, .i32⟩ : BufTy).Contents (Elt F) → (⟨S167386, .i32⟩ : BufTy).Contents (Elt F)),
    StableHlo.binary main_arg2 main_v376 main_v377 (addi : (⟨S167386, .i32⟩ : BufTy).Contents (Elt F) → (⟨S167386, .i32⟩ : BufTy).Contents (Elt F) → (⟨S167386, .i32⟩ : BufTy).Contents (Elt F)),
    StableHlo.ternary main_v375 main_v377 main_arg2 main_v378 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v378 main_v379 (broadcastInDim S167386x1 ![0] bcast_S167386_S167386x1_0 : (⟨S167386, .i32⟩ : BufTy).Contents (Elt F) → (⟨S167386x1, .i32⟩ : BufTy).Contents (Elt F)),
    StableHlo.ternary main_v373 main_v379 main_v371 main_v380 ((fun x i u => Host.scatterAdd scatter_S4096x128_S167386x1_S167386x128_1_0_0_1 x i u) : (⟨S4096x128, .f32⟩ : BufTy).Contents (Elt F) → (⟨S167386x1, .i32⟩ : BufTy).Contents (Elt F) → (⟨S167386x128, .f32⟩ : BufTy).Contents (Elt F) → (⟨S4096x128, .f32⟩ : BufTy).Contents (Elt F)),
    StableHlo.nullary main_cst_60 (constant S_ .f32 0x00000000#32),
    StableHlo.binary main_v380 main_cst_60 main_v381 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v381 main_v382 (broadcastInDim S4096x1 ![0] bcast_S4096_S4096x1_0 : (⟨S4096, .f32⟩ : BufTy).Contents (Elt F) → (⟨S4096x1, .f32⟩ : BufTy).Contents (Elt F)),
    StableHlo.nullary main_cst_61 (constant S_ .f32 0x43000000#32),
    StableHlo.unary main_cst_61 main_v383 (broadcastInDim S4096x1 ![] bcast_S_S4096x1 : (⟨S_, .f32⟩ : BufTy).Contents (Elt F) → (⟨S4096x1, .f32⟩ : BufTy).Contents (Elt F)),
    StableHlo.binary main_v382 main_v383 main_v384 (Host.divf : (⟨S4096x1, .f32⟩ : BufTy).Contents (Elt F) → (⟨S4096x1, .f32⟩ : BufTy).Contents (Elt F) → (⟨S4096x1, .f32⟩ : BufTy).Contents (Elt F)),
    StableHlo.unary main_v384 main_v385 (broadcastInDim S4096x128 ![0, 1] bcast_S4096x1_S4096x128_0_1 : (⟨S4096x1, .f32⟩ : BufTy).Contents (Elt F) → (⟨S4096x128, .f32⟩ : BufTy).Contents (Elt F)),
    StableHlo.binary main_v380 main_v385 main_v386 (subf : (⟨S4096x128, .f32⟩ : BufTy).Contents (Elt F) → (⟨S4096x128, .f32⟩ : BufTy).Contents (Elt F) → (⟨S4096x128, .f32⟩ : BufTy).Contents (Elt F)),
    StableHlo.binary main_v386 main_v386 main_v387 (mulf : (⟨S4096x128, .f32⟩ : BufTy).Contents (Elt F) → (⟨S4096x128, .f32⟩ : BufTy).Contents (Elt F) → (⟨S4096x128, .f32⟩ : BufTy).Contents (Elt F)),
    StableHlo.nullary main_cst_62 (constant S_ .f32 0x00000000#32),
    StableHlo.binary main_v387 main_cst_62 main_v388 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v388 main_v389 (broadcastInDim S4096x1 ![0] bcast_S4096_S4096x1_0 : (⟨S4096, .f32⟩ : BufTy).Contents (Elt F) → (⟨S4096x1, .f32⟩ : BufTy).Contents (Elt F)),
    StableHlo.nullary main_cst_63 (constant S_ .f32 0x43000000#32),
    StableHlo.unary main_cst_63 main_v390 (broadcastInDim S4096x1 ![] bcast_S_S4096x1 : (⟨S_, .f32⟩ : BufTy).Contents (Elt F) → (⟨S4096x1, .f32⟩ : BufTy).Contents (Elt F)),
    StableHlo.binary main_v389 main_v390 main_v391 (Host.divf : (⟨S4096x1, .f32⟩ : BufTy).Contents (Elt F) → (⟨S4096x1, .f32⟩ : BufTy).Contents (Elt F) → (⟨S4096x1, .f32⟩ : BufTy).Contents (Elt F)),
    StableHlo.unary main_v384 main_v392 (broadcastInDim S4096x128 ![0, 1] bcast_S4096x1_S4096x128_0_1 : (⟨S4096x1, .f32⟩ : BufTy).Contents (Elt F) → (⟨S4096x128, .f32⟩ : BufTy).Contents (Elt F)),
    StableHlo.binary main_v380 main_v392 main_v393 (subf : (⟨S4096x128, .f32⟩ : BufTy).Contents (Elt F) → (⟨S4096x128, .f32⟩ : BufTy).Contents (Elt F) → (⟨S4096x128, .f32⟩ : BufTy).Contents (Elt F)),
    StableHlo.nullary main_cst_64 (constant S_ .f32 0x3727C5AC#32),
    StableHlo.unary main_cst_64 main_v394 (broadcastInDim S4096x1 ![] bcast_S_S4096x1 : (⟨S_, .f32⟩ : BufTy).Contents (Elt F) → (⟨S4096x1, .f32⟩ : BufTy).Contents (Elt F)),
    StableHlo.binary main_v391 main_v394 main_v395 (addf : (⟨S4096x1, .f32⟩ : BufTy).Contents (Elt F) → (⟨S4096x1, .f32⟩ : BufTy).Contents (Elt F) → (⟨S4096x1, .f32⟩ : BufTy).Contents (Elt F)),
    StableHlo.unary main_v395 main_v396 (Host.rsqrt : (⟨S4096x1, .f32⟩ : BufTy).Contents (Elt F) → (⟨S4096x1, .f32⟩ : BufTy).Contents (Elt F)),
    StableHlo.unary main_v396 main_v397 (broadcastInDim S4096x128 ![0, 1] bcast_S4096x1_S4096x128_0_1 : (⟨S4096x1, .f32⟩ : BufTy).Contents (Elt F) → (⟨S4096x128, .f32⟩ : BufTy).Contents (Elt F)),
    StableHlo.binary main_v393 main_v397 main_v398 (mulf : (⟨S4096x128, .f32⟩ : BufTy).Contents (Elt F) → (⟨S4096x128, .f32⟩ : BufTy).Contents (Elt F) → (⟨S4096x128, .f32⟩ : BufTy).Contents (Elt F)),
    StableHlo.unary main_v244 main_v399 (broadcastInDim S1x128 ![1] bcast_S128_S1x128_1 : (⟨S128, .f32⟩ : BufTy).Contents (Elt F) → (⟨S1x128, .f32⟩ : BufTy).Contents (Elt F)),
    StableHlo.unary main_v399 main_v400 (broadcastInDim S4096x128 ![0, 1] bcast_S1x128_S4096x128_0_1 : (⟨S1x128, .f32⟩ : BufTy).Contents (Elt F) → (⟨S4096x128, .f32⟩ : BufTy).Contents (Elt F)),
    StableHlo.binary main_v398 main_v400 main_v401 (mulf : (⟨S4096x128, .f32⟩ : BufTy).Contents (Elt F) → (⟨S4096x128, .f32⟩ : BufTy).Contents (Elt F) → (⟨S4096x128, .f32⟩ : BufTy).Contents (Elt F)),
    StableHlo.unary main_v246 main_v402 (broadcastInDim S1x128 ![1] bcast_S128_S1x128_1 : (⟨S128, .f32⟩ : BufTy).Contents (Elt F) → (⟨S1x128, .f32⟩ : BufTy).Contents (Elt F)),
    StableHlo.unary main_v402 main_v403 (broadcastInDim S4096x128 ![0, 1] bcast_S1x128_S4096x128_0_1 : (⟨S1x128, .f32⟩ : BufTy).Contents (Elt F) → (⟨S4096x128, .f32⟩ : BufTy).Contents (Elt F)),
    StableHlo.binary main_v401 main_v403 main_v404 (addf : (⟨S4096x128, .f32⟩ : BufTy).Contents (Elt F) → (⟨S4096x128, .f32⟩ : BufTy).Contents (Elt F) → (⟨S4096x128, .f32⟩ : BufTy).Contents (Elt F)),
    StableHlo.nullary main_cst_65 (constant S_ .f32 0x3C23D70A#32),
    StableHlo.TRef.nullary main_call10.cst (constant S_ .f32 0x00000000#32),
    StableHlo.TRef.unary main_call10.cst main_call10.v0 (broadcastInDim S4096x128 ![] bcast_S_S4096x128),
    StableHlo.TRef.binary (.of main_v404 : StableHlo.TRef sig ⟨S4096x128, .f32⟩) main_call10.v0 main_call10.v1 (cmpf .oge),
    StableHlo.TRef.unary (.of main_cst_65 : StableHlo.TRef sig ⟨S_, .f32⟩) main_call10.v2 id,
    StableHlo.TRef.unary main_call10.v2 main_call10.v3 (broadcastInDim S4096x128 ![] bcast_S_S4096x128),
    StableHlo.TRef.binary main_call10.v3 (.of main_v404 : StableHlo.TRef sig ⟨S4096x128, .f32⟩) main_call10.v4 mulf,
    StableHlo.TRef.ternary main_call10.v1 (.of main_v404 : StableHlo.TRef sig ⟨S4096x128, .f32⟩) main_call10.v4 main_call10.call0.v0 select,
    StableHlo.unary main_v248 main_v406 ((transpose S128x128 [1, 0] · transposes_S128x128_S128x128_1_0) : (⟨S128x128, .f32⟩ : BufTy).Contents (Elt F) → (⟨S128x128, .f32⟩ : BufTy).Contents (Elt F)),
    StableHlo.binary main_v405 main_v406 main_v407 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.nullary main_cst_66 (constant S_ .f32 0x00000000#32),
    StableHlo.binary main_v407 main_cst_66 main_v408 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v408 main_v409 (broadcastInDim S4096x1 ![0] bcast_S4096_S4096x1_0 : (⟨S4096, .f32⟩ : BufTy).Contents (Elt F) → (⟨S4096x1, .f32⟩ : BufTy).Contents (Elt F)),
    StableHlo.nullary main_cst_67 (constant S_ .f32 0x43000000#32) ]

set_option maxRecDepth 8192 in
theorem main_part7_eq (c : Dev nD) : main_part7 (F := F) c = seq ops7 := rfl

set_option maxRecDepth 8192 in
theorem ops7_sub : (ops7 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., nullary_bufs_sub .., binary_bufs_sub .., unary_bufs_sub .., nullary_bufs_sub ..⟩

set_option maxRecDepth 8192 in
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers window 7's operations write. -/
abbrev ops7_W : List (Ref sig .tc) := [main_v360, main_v361, main_v362, main_v363, main_v364, main_v365, main_v366, main_v367, main_v368, main_call9_cst, main_call9_v0, main_v369, main_v370, main_v371, main_v372, main_v373, main_c_58, main_v374, main_v375, main_c_59, main_v376, main_v377, main_v378, main_v379, main_v380, main_cst_60, main_v381, main_v382, main_cst_61, main_v383, main_v384, main_v385, main_v386, main_v387, main_cst_62, main_v388, main_v389, main_cst_63, main_v390, main_v391, main_v392, main_v393, main_cst_64, main_v394, main_v395, main_v396, main_v397, main_v398, main_v399, main_v400, main_v401, main_v402, main_v403, main_v404, main_cst_65, main_call10_cst, main_call10_v0, main_call10_v1, main_call10_v2, main_call10_v3, main_call10_v4, main_v405, main_v406, main_v407, main_cst_66, main_v408, main_v409, main_cst_67]
set_option maxRecDepth 8192 in
theorem ops7_writes : (ops7 : List (HloOp τ sig (Elt F))).Forall fun op => op.writes ⊆ (ops7_W.map (Proc.devRef (τ := τ) .tc)).toFinset :=
  ⟨single_sub_of_mem main_v360 (by decide), single_sub_of_mem main_v361 (by decide), single_sub_of_mem main_v362 (by decide), single_sub_of_mem main_v363 (by decide), single_sub_of_mem main_v364 (by decide), single_sub_of_mem main_v365 (by decide), single_sub_of_mem main_v366 (by decide), single_sub_of_mem main_v367 (by decide), single_sub_of_mem main_v368 (by decide), single_sub_of_mem main_call9_cst (by decide), single_sub_of_mem main_call9_v0 (by decide), single_sub_of_mem main_v369 (by decide), single_sub_of_mem main_v370 (by decide), single_sub_of_mem main_v371 (by decide), single_sub_of_mem main_v372 (by decide), single_sub_of_mem main_v373 (by decide), single_sub_of_mem main_c_58 (by decide), single_sub_of_mem main_v374 (by decide), single_sub_of_mem main_v375 (by decide), single_sub_of_mem main_c_59 (by decide), single_sub_of_mem main_v376 (by decide), single_sub_of_mem main_v377 (by decide), single_sub_of_mem main_v378 (by decide), single_sub_of_mem main_v379 (by decide), single_sub_of_mem main_v380 (by decide), single_sub_of_mem main_cst_60 (by decide), single_sub_of_mem main_v381 (by decide), single_sub_of_mem main_v382 (by decide), single_sub_of_mem main_cst_61 (by decide), single_sub_of_mem main_v383 (by decide), single_sub_of_mem main_v384 (by decide), single_sub_of_mem main_v385 (by decide), single_sub_of_mem main_v386 (by decide), single_sub_of_mem main_v387 (by decide), single_sub_of_mem main_cst_62 (by decide), single_sub_of_mem main_v388 (by decide), single_sub_of_mem main_v389 (by decide), single_sub_of_mem main_cst_63 (by decide), single_sub_of_mem main_v390 (by decide), single_sub_of_mem main_v391 (by decide), single_sub_of_mem main_v392 (by decide), single_sub_of_mem main_v393 (by decide), single_sub_of_mem main_cst_64 (by decide), single_sub_of_mem main_v394 (by decide), single_sub_of_mem main_v395 (by decide), single_sub_of_mem main_v396 (by decide), single_sub_of_mem main_v397 (by decide), single_sub_of_mem main_v398 (by decide), single_sub_of_mem main_v399 (by decide), single_sub_of_mem main_v400 (by decide), single_sub_of_mem main_v401 (by decide), single_sub_of_mem main_v402 (by decide), single_sub_of_mem main_v403 (by decide), single_sub_of_mem main_v404 (by decide), single_sub_of_mem main_cst_65 (by decide), single_sub_of_mem main_call10_cst (by decide), single_sub_of_mem main_call10_v0 (by decide), single_sub_of_mem main_call10_v1 (by decide), single_sub_of_mem main_call10_v2 (by decide), single_sub_of_mem main_call10_v3 (by decide), single_sub_of_mem main_call10_v4 (by decide), single_sub_of_mem main_v405 (by decide), single_sub_of_mem main_v406 (by decide), single_sub_of_mem main_v407 (by decide), single_sub_of_mem main_cst_66 (by decide), single_sub_of_mem main_v408 (by decide), single_sub_of_mem main_v409 (by decide), single_sub_of_mem main_cst_67 (by decide)⟩

/-- The operations of statements window 8 of the reference's entry function, in order; a called function's operations stand at its call, over that call's buffers. -/
abbrev ops8 : List (HloOp τ sig (Elt F)) :=
  [ StableHlo.unary main_cst_67 main_v410 (broadcastInDim S4096x1 ![] bcast_S_S4096x1 : (⟨S_, .f32⟩ : BufTy).Contents (Elt F) → (⟨S4096x1, .f32⟩ : BufTy).Contents (Elt F)),
    StableHlo.binary main_v409 main_v410 main_v411 (Host.divf : (⟨S4096x1, .f32⟩ : BufTy).Contents (Elt F) → (⟨S4096x1, .f32⟩ : BufTy).Contents (Elt F) → (⟨S4096x1, .f32⟩ : BufTy).Contents (Elt F)),
    StableHlo.unary main_v411 main_v412 (broadcastInDim S4096x128 ![0, 1] bcast_S4096x1_S4096x128_0_1 : (⟨S4096x1, .f32⟩ : BufTy).Contents (Elt F) → (⟨S4096x128, .f32⟩ : BufTy).Contents (Elt F)),
    StableHlo.binary main_v407 main_v412 main_v413 (subf : (⟨S4096x128, .f32⟩ : BufTy).Contents (Elt F) → (⟨S4096x128, .f32⟩ : BufTy).Contents (Elt F) → (⟨S4096x128, .f32⟩ : BufTy).Contents (Elt F)),
    StableHlo.binary main_v413 main_v413 main_v414 (mulf : (⟨S4096x128, .f32⟩ : BufTy).Contents (Elt F) → (⟨S4096x128, .f32⟩ : BufTy).Contents (Elt F) → (⟨S4096x128, .f32⟩ : BufTy).Contents (Elt F)),
    StableHlo.nullary main_cst_68 (constant S_ .f32 0x00000000#32),
    StableHlo.binary main_v414 main_cst_68 main_v415 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v415 main_v416 (broadcastInDim S4096x1 ![0] bcast_S4096_S4096x1_0 : (⟨S4096, .f32⟩ : BufTy).Contents (Elt F) → (⟨S4096x1, .f32⟩ : BufTy).Contents (Elt F)),
    StableHlo.nullary main_cst_69 (constant S_ .f32 0x43000000#32),
    StableHlo.unary main_cst_69 main_v417 (broadcastInDim S4096x1 ![] bcast_S_S4096x1 : (⟨S_, .f32⟩ : BufTy).Contents (Elt F) → (⟨S4096x1, .f32⟩ : BufTy).Contents (Elt F)),
    StableHlo.binary main_v416 main_v417 main_v418 (Host.divf : (⟨S4096x1, .f32⟩ : BufTy).Contents (Elt F) → (⟨S4096x1, .f32⟩ : BufTy).Contents (Elt F) → (⟨S4096x1, .f32⟩ : BufTy).Contents (Elt F)),
    StableHlo.unary main_v411 main_v419 (broadcastInDim S4096x128 ![0, 1] bcast_S4096x1_S4096x128_0_1 : (⟨S4096x1, .f32⟩ : BufTy).Contents (Elt F) → (⟨S4096x128, .f32⟩ : BufTy).Contents (Elt F)),
    StableHlo.binary main_v407 main_v419 main_v420 (subf : (⟨S4096x128, .f32⟩ : BufTy).Contents (Elt F) → (⟨S4096x128, .f32⟩ : BufTy).Contents (Elt F) → (⟨S4096x128, .f32⟩ : BufTy).Contents (Elt F)),
    StableHlo.nullary main_cst_70 (constant S_ .f32 0x3727C5AC#32),
    StableHlo.unary main_cst_70 main_v421 (broadcastInDim S4096x1 ![] bcast_S_S4096x1 : (⟨S_, .f32⟩ : BufTy).Contents (Elt F) → (⟨S4096x1, .f32⟩ : BufTy).Contents (Elt F)),
    StableHlo.binary main_v418 main_v421 main_v422 (addf : (⟨S4096x1, .f32⟩ : BufTy).Contents (Elt F) → (⟨S4096x1, .f32⟩ : BufTy).Contents (Elt F) → (⟨S4096x1, .f32⟩ : BufTy).Contents (Elt F)),
    StableHlo.unary main_v422 main_v423 (Host.rsqrt : (⟨S4096x1, .f32⟩ : BufTy).Contents (Elt F) → (⟨S4096x1, .f32⟩ : BufTy).Contents (Elt F)),
    StableHlo.unary main_v423 main_v424 (broadcastInDim S4096x128 ![0, 1] bcast_S4096x1_S4096x128_0_1 : (⟨S4096x1, .f32⟩ : BufTy).Contents (Elt F) → (⟨S4096x128, .f32⟩ : BufTy).Contents (Elt F)),
    StableHlo.binary main_v420 main_v424 main_v425 (mulf : (⟨S4096x128, .f32⟩ : BufTy).Contents (Elt F) → (⟨S4096x128, .f32⟩ : BufTy).Contents (Elt F) → (⟨S4096x128, .f32⟩ : BufTy).Contents (Elt F)),
    StableHlo.unary main_v250 main_v426 (broadcastInDim S1x128 ![1] bcast_S128_S1x128_1 : (⟨S128, .f32⟩ : BufTy).Contents (Elt F) → (⟨S1x128, .f32⟩ : BufTy).Contents (Elt F)),
    StableHlo.unary main_v426 main_v427 (broadcastInDim S4096x128 ![0, 1] bcast_S1x128_S4096x128_0_1 : (⟨S1x128, .f32⟩ : BufTy).Contents (Elt F) → (⟨S4096x128, .f32⟩ : BufTy).Contents (Elt F)),
    StableHlo.binary main_v425 main_v427 main_v428 (mulf : (⟨S4096x128, .f32⟩ : BufTy).Contents (Elt F) → (⟨S4096x128, .f32⟩ : BufTy).Contents (Elt F) → (⟨S4096x128, .f32⟩ : BufTy).Contents (Elt F)),
    StableHlo.unary main_v252 main_v429 (broadcastInDim S1x128 ![1] bcast_S128_S1x128_1 : (⟨S128, .f32⟩ : BufTy).Contents (Elt F) → (⟨S1x128, .f32⟩ : BufTy).Contents (Elt F)),
    StableHlo.unary main_v429 main_v430 (broadcastInDim S4096x128 ![0, 1] bcast_S1x128_S4096x128_0_1 : (⟨S1x128, .f32⟩ : BufTy).Contents (Elt F) → (⟨S4096x128, .f32⟩ : BufTy).Contents (Elt F)),
    StableHlo.binary main_v428 main_v430 main_v431 (addf : (⟨S4096x128, .f32⟩ : BufTy).Contents (Elt F) → (⟨S4096x128, .f32⟩ : BufTy).Contents (Elt F) → (⟨S4096x128, .f32⟩ : BufTy).Contents (Elt F)),
    StableHlo.binary main_v431 main_v216 main_v432 (addf : (⟨S4096x128, .f32⟩ : BufTy).Contents (Elt F) → (⟨S4096x128, .f32⟩ : BufTy).Contents (Elt F) → (⟨S4096x128, .f32⟩ : BufTy).Contents (Elt F)),
    StableHlo.nullary main_cst_71 (constant S_ .f32 0x3C23D70A#32),
    StableHlo.TRef.nullary main_call11.cst (constant S_ .f32 0x00000000#32),
    StableHlo.TRef.unary main_call11.cst main_call11.v0 (broadcastInDim S4096x128 ![] bcast_S_S4096x128),
    StableHlo.TRef.binary (.of main_v432 : StableHlo.TRef sig ⟨S4096x128, .f32⟩) main_call11.v0 main_call11.v1 (cmpf .oge),
    StableHlo.TRef.unary (.of main_cst_71 : StableHlo.TRef sig ⟨S_, .f32⟩) main_call11.v2 id,
    StableHlo.TRef.unary main_call11.v2 main_call11.v3 (broadcastInDim S4096x128 ![] bcast_S_S4096x128),
    StableHlo.TRef.binary main_call11.v3 (.of main_v432 : StableHlo.TRef sig ⟨S4096x128, .f32⟩) main_call11.v4 mulf,
    StableHlo.TRef.ternary main_call11.v1 (.of main_v432 : StableHlo.TRef sig ⟨S4096x128, .f32⟩) main_call11.v4 main_call11.call0.v0 select ]

set_option maxRecDepth 8192 in
theorem main_part8_eq (c : Dev nD) : main_part8 (F := F) c = seq ops8 := rfl

set_option maxRecDepth 8192 in
theorem ops8_sub : (ops8 : List (HloOp τ sig (Elt F))).Forall fun op => op.bufs ⊆ tcRefs τ sig :=
  ⟨unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

set_option maxRecDepth 8192 in
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers window 8's operations write. -/
abbrev ops8_W : List (Ref sig .tc) := [main_v410, main_v411, main_v412, main_v413, main_v414, main_cst_68, main_v415, main_v416, main_cst_69, main_v417, main_v418, main_v419, main_v420, main_cst_70, main_v421, main_v422, main_v423, main_v424, main_v425, main_v426, main_v427, main_v428, main_v429, main_v430, main_v431, main_v432, main_cst_71, main_call11_cst, main_call11_v0, main_call11_v1, main_call11_v2, main_call11_v3, main_call11_v4, main_v433]
set_option maxRecDepth 8192 in
theorem ops8_writes : (ops8 : List (HloOp τ sig (Elt F))).Forall fun op => op.writes ⊆ (ops8_W.map (Proc.devRef (τ := τ) .tc)).toFinset :=
  ⟨single_sub_of_mem main_v410 (by decide), single_sub_of_mem main_v411 (by decide), single_sub_of_mem main_v412 (by decide), single_sub_of_mem main_v413 (by decide), single_sub_of_mem main_v414 (by decide), single_sub_of_mem main_cst_68 (by decide), single_sub_of_mem main_v415 (by decide), single_sub_of_mem main_v416 (by decide), single_sub_of_mem main_cst_69 (by decide), single_sub_of_mem main_v417 (by decide), single_sub_of_mem main_v418 (by decide), single_sub_of_mem main_v419 (by decide), single_sub_of_mem main_v420 (by decide), single_sub_of_mem main_cst_70 (by decide), single_sub_of_mem main_v421 (by decide), single_sub_of_mem main_v422 (by decide), single_sub_of_mem main_v423 (by decide), single_sub_of_mem main_v424 (by decide), single_sub_of_mem main_v425 (by decide), single_sub_of_mem main_v426 (by decide), single_sub_of_mem main_v427 (by decide), single_sub_of_mem main_v428 (by decide), single_sub_of_mem main_v429 (by decide), single_sub_of_mem main_v430 (by decide), single_sub_of_mem main_v431 (by decide), single_sub_of_mem main_v432 (by decide), single_sub_of_mem main_cst_71 (by decide), single_sub_of_mem main_call11_cst (by decide), single_sub_of_mem main_call11_v0 (by decide), single_sub_of_mem main_call11_v1 (by decide), single_sub_of_mem main_call11_v2 (by decide), single_sub_of_mem main_call11_v3 (by decide), single_sub_of_mem main_call11_v4 (by decide), single_sub_of_mem main_v433 (by decide)⟩

/-- The entry function's 548 operations, in order: the windows' lists one after the other. -/
abbrev ops : List (HloOp τ sig (Elt F)) := ops0 ++ (ops1 ++ (ops2 ++ (ops3 ++ (ops4 ++ (ops5 ++ (ops6 ++ (ops7 ++ (ops8))))))))

set_option maxRecDepth 8192 in
/-- The entry function is the sequence of its operations: window by window, the windows joined in order. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h]

/-- Every operation determines its result: none leaves a buffer at contents it does not fix. -/
theorem ops_fresh : ∀ op ∈ (ops : List (HloOp τ sig (Elt F))), op.fresh = ∅ := fun op h => by
    simp only [ops, List.mem_append] at h
    rcases h with h | h | h | h | h | h | h | h | h
    exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h]

/-! ## The contents window by window -/

/-- The device's buffer contents before the first window. -/
def val0 (V0 : Valuation τ sig (Elt F)) : Valuation τ sig (Elt F) := V0
/-- The device's buffer contents after the first 1 window. -/
def val1 (V0 : Valuation τ sig (Elt F)) : Valuation τ sig (Elt F) := after ops0 (val0 V0)
/-- A buffer that window 0 does not write keeps its contents through it. -/
theorem val1_keep (V0 : Valuation τ sig (Elt F)) (r : Ref sig .tc) (h : r ∉ ops0_W) :
    val1 V0 (Proc.devRef .tc r) = val0 V0 (Proc.devRef .tc r) :=
  after_of_writes_sub ops0 _ ops0_writes h
/-- The device's buffer contents after the first 2 windows. -/
def val2 (V0 : Valuation τ sig (Elt F)) : Valuation τ sig (Elt F) := after ops1 (val1 V0)
/-- A buffer that window 1 does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h
/-- The device's buffer contents after the first 3 windows. -/
def val3 (V0 : Valuation τ sig (Elt F)) : Valuation τ sig (Elt F) := after ops2 (val2 V0)
/-- A buffer that window 2 does not write keeps its contents through it. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h
/-- The device's buffer contents after the first 4 windows. -/
def val4 (V0 : Valuation τ sig (Elt F)) : Valuation τ sig (Elt F) := after ops3 (val3 V0)
/-- A buffer that window 3 does not write keeps its contents through it. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h
/-- The device's buffer contents after the first 5 windows. -/
def val5 (V0 : Valuation τ sig (Elt F)) : Valuation τ sig (Elt F) := after ops4 (val4 V0)
/-- A buffer that window 4 does not write keeps its contents through it. -/
theorem val5_keep (V0 : Valuation τ sig (Elt F)) (r : Ref sig .tc) (h : r ∉ ops4_W) :
    val5 V0 (Proc.devRef .tc r) = val4 V0 (Proc.devRef .tc r) :=
  after_of_writes_sub ops4 _ ops4_writes h
/-- The device's buffer contents after the first 6 windows. -/
def val6 (V0 : Valuation τ sig (Elt F)) : Valuation τ sig (Elt F) := after ops5 (val5 V0)
/-- A buffer that window 5 does not write keeps its contents through it. -/
theorem val6_keep (V0 : Valuation τ sig (Elt F)) (r : Ref sig .tc) (h : r ∉ ops5_W) :
    val6 V0 (Proc.devRef .tc r) = val5 V0 (Proc.devRef .tc r) :=
  after_of_writes_sub ops5 _ ops5_writes h
/-- The device's buffer contents after the first 7 windows. -/
def val7 (V0 : Valuation τ sig (Elt F)) : Valuation τ sig (Elt F) := after ops6 (val6 V0)
/-- A buffer that window 6 does not write keeps its contents through it. -/
theorem val7_keep (V0 : Valuation τ sig (Elt F)) (r : Ref sig .tc) (h : r ∉ ops6_W) :
    val7 V0 (Proc.devRef .tc r) = val6 V0 (Proc.devRef .tc r) :=
  after_of_writes_sub ops6 _ ops6_writes h
/-- The device's buffer contents after the first 8 windows. -/
def val8 (V0 : Valuation τ sig (Elt F)) : Valuation τ sig (Elt F) := after ops7 (val7 V0)
/-- A buffer that window 7 does not write keeps its contents through it. -/
theorem val8_keep (V0 : Valuation τ sig (Elt F)) (r : Ref sig .tc) (h : r ∉ ops7_W) :
    val8 V0 (Proc.devRef .tc r) = val7 V0 (Proc.devRef .tc r) :=
  after_of_writes_sub ops7 _ ops7_writes h
/-- The device's buffer contents after the first 9 windows. -/
def val9 (V0 : Valuation τ sig (Elt F)) : Valuation τ sig (Elt F) := after ops8 (val8 V0)
/-- A buffer that window 8 does not write keeps its contents through it. -/
theorem val9_keep (V0 : Valuation τ sig (Elt F)) (r : Ref sig .tc) (h : r ∉ ops8_W) :
    val9 V0 (Proc.devRef .tc r) = val8 V0 (Proc.devRef .tc r) :=
  after_of_writes_sub ops8 _ ops8_writes h

/-- The whole list's contents are the last window's. -/
theorem after_ops (V0 : Valuation τ sig (Elt F)) : after ops V0 = val9 V0 := by
  simp only [ops, StableHlo.after_append]
  rfl

/-- A buffer no window writes keeps its launch contents through the whole list. -/
theorem after_keep (V0 : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) :
    after ops V0 (Proc.devRef .tc r) = V0 (Proc.devRef .tc r) := by
  rw [after_ops]
  exact (val9_keep V0 r h8).trans ((val8_keep V0 r h7).trans ((val7_keep V0 r h6).trans ((val6_keep V0 r h5).trans ((val5_keep V0 r h4).trans ((val4_keep V0 r h3).trans ((val3_keep V0 r h2).trans ((val2_keep V0 r h1).trans (val1_keep V0 r h0))))))))

/-- On every device, for any float values, from any memory with zero counters: every weakly fair execution of the
    entry function terminates with the result buffer at the operations' fold over the launch contents and every
    argument array as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v433) = after ops (launchContents m c) (Proc.devRef .tc main_v433)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨h c main_v433,
      (h c main_arg0).trans (after_keep _ main_arg0 (by decide) (by decide) (by decide) (by decide) (by decide) (by decide) (by decide) (by decide) (by decide)),
      (h c main_arg1).trans (after_keep _ main_arg1 (by decide) (by decide) (by decide) (by decide) (by decide) (by decide) (by decide) (by decide) (by decide)),
      (h c main_arg2).trans (after_keep _ main_arg2 (by decide) (by decide) (by decide) (by decide) (by decide) (by decide) (by decide) (by decide) (by decide)),
      (h c main_arg3).trans (after_keep _ main_arg3 (by decide) (by decide) (by decide) (by decide) (by decide) (by decide) (by decide) (by decide) (by decide)),
      (h c main_arg4).trans (after_keep _ main_arg4 (by decide) (by decide) (by decide) (by decide) (by decide) (by decide) (by decide) (by decide) (by decide)),
      (h c main_arg5).trans (after_keep _ main_arg5 (by decide) (by decide) (by decide) (by decide) (by decide) (by decide) (by decide) (by decide) (by decide)),
      (h c main_arg6).trans (after_keep _ main_arg6 (by decide) (by decide) (by decide) (by decide) (by decide) (by decide) (by decide) (by decide) (by decide)),
      (h c main_arg7).trans (after_keep _ main_arg7 (by decide) (by decide) (by decide) (by decide) (by decide) (by decide) (by decide) (by decide) (by decide)),
      (h c main_arg8).trans (after_keep _ main_arg8 (by decide) (by decide) (by decide) (by decide) (by decide) (by decide) (by decide) (by decide) (by decide)),
      (h c main_arg9).trans (after_keep _ main_arg9 (by decide) (by decide) (by decide) (by decide) (by decide) (by decide) (by decide) (by decide) (by decide)),
      (h c main_arg10).trans (after_keep _ main_arg10 (by decide) (by decide) (by decide) (by decide) (by decide) (by decide) (by decide) (by decide) (by decide)),
      (h c main_arg11).trans (after_keep _ main_arg11 (by decide) (by decide) (by decide) (by decide) (by decide) (by decide) (by decide) (by decide) (by decide)),
      (h c main_arg12).trans (after_keep _ main_arg12 (by decide) (by decide) (by decide) (by decide) (by decide) (by decide) (by decide) (by decide) (by decide)),
      (h c main_arg13).trans (after_keep _ main_arg13 (by decide) (by decide) (by decide) (by decide) (by decide) (by decide) (by decide) (by decide) (by decide)),
      (h c main_arg14).trans (after_keep _ main_arg14 (by decide) (by decide) (by decide) (by decide) (by decide) (by decide) (by decide) (by decide) (by decide)),
      (h c main_arg15).trans (after_keep _ main_arg15 (by decide) (by decide) (by decide) (by decide) (by decide) (by decide) (by decide) (by decide) (by decide)),
      (h c main_arg16).trans (after_keep _ main_arg16 (by decide) (by decide) (by decide) (by decide) (by decide) (by decide) (by decide) (by decide) (by decide)),
      (h c main_arg17).trans (after_keep _ main_arg17 (by decide) (by decide) (by decide) (by decide) (by decide) (by decide) (by decide) (by decide) (by decide)),
      (h c main_arg18).trans (after_keep _ main_arg18 (by decide) (by decide) (by decide) (by decide) (by decide) (by decide) (by decide) (by decide) (by decide)),
      (h c main_arg19).trans (after_keep _ main_arg19 (by decide) (by decide) (by decide) (by decide) (by decide) (by decide) (by decide) (by decide) (by decide)),
      (h c main_arg20).trans (after_keep _ main_arg20 (by decide) (by decide) (by decide) (by decide) (by decide) (by decide) (by decide) (by decide) (by decide)),
      (h c main_arg21).trans (after_keep _ main_arg21 (by decide) (by decide) (by decide) (by decide) (by decide) (by decide) (by decide) (by decide) (by decide))⟩)
    (run_seq scopedRefs_eq scopedSems_eq defs main (fun _ => ops) main_eq (fun _ => ops_sub) m ρ (fun _ => ops_fresh))

end Cert.RefRun

end
-- ==== Proof.KRun.lean ====
/-
  The idealized kernel's run with its result NAMED: every weakly fair execution of the four regions and the host
  stretches between them terminates, nothing faults, the argument arrays end as launched, and the result buffer
  ends at the contents the run's fold through the program leaves there (what the last region's write-backs
  leave in its output array).
-/
import proofs.«121864_j48515950576209_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments, with the last thread state read against the final state at the result buffer
    too: it holds the fold's contents there. -/
theorem run : θ_run defs (onTc (τ := τ) (main (F := F))) ⟨m, fun _ => 0, ρ⟩ (fun r => ∀ c : Dev nD,
      r.2.mem ((c.tc : Thread nD τ).loc main_v207) = W8 m ρ c (Proc.devRef .tc main_v207)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v207 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c)⟩)

end Cert.KernelIdeal.KRun

end
-- ==== Proof.Spec.lean ====
/-
  The mathematics both programs compute, on the extended reals, one row at a time.

  An attention block over a graph: every edge `e` joins a target node `hrow e` and a source node `wrow e`.
  Its message is a small multilayer perceptron of the difference of the two nodes' centres, of the target's
  features (the query) and of the source's features (the context); the messages that land on node `r`
  (`seg r`) are summed onto a linear image of `r`'s own features, and the node is updated by a GroupNorm,
  a leaky rectifier, a linear layer, a second GroupNorm, a residual connection and a leaky rectifier.

  Every literal is kept as the word the programs print (128, 1e-5, 0.01, 0): the same word on both sides
  is never evaluated.  No law of the extended reals beyond the definitions is used here.
-/
import Idealize.ShloMosaic.PureOps.Ideal
import Idealize.ShloMosaic.Lib.ValueIdx

noncomputable section

namespace Cert.Spec

open Idealize.ShloMosaic Idealize.ShloMosaic.ValueIdx

/-- The mean of a row of 128 entries: its sum divided by the word of `128.0`. -/
def mean (x : Fin 128 → EReal) : EReal := Ideal.div (∑ k, x k) (Ideal.ofBits .f32 0x43000000#32)

/-- GroupNorm with one group over a row: `(x − μ) · rsqrt(σ² + ε) · w + b`, the variance `σ²` the mean of the
    squared deviations, `ε` the word of `1e-5`. -/
def gnorm (x w b : Fin 128 → EReal) (c : Fin 128) : EReal :=
  (x c - mean x) * Ideal.rsqrt (mean (fun k => (x k - mean x) * (x k - mean x)) + Ideal.ofBits .f32 0x3727C5AC#32)
    * w c + b c

/-- The rectifier `max x 0`. -/
def relu (x : EReal) : EReal := max x (Ideal.ofBits .f32 0x00000000#32)

/-- The leaky rectifier: `x` where `x ≥ 0`, else `0.01 · x` (the word of `0.01` times `x`, in that order). -/
def lrelu (x : EReal) : EReal :=
  Scalar.select (Ideal.cmp .oge x (Ideal.ofBits .f32 0x00000000#32)) x (Ideal.ofBits .f32 0x3C23D70A#32 * x)

/-- One block's parameters, each weight matrix indexed `(output channel, input channel)` as the arguments hold it. -/
structure Params where
  dw1 : Fin 128 → Fin 2 → EReal
  db1 : Fin 128 → EReal
  dw2 : Fin 128 → Fin 128 → EReal
  dgw : Fin 128 → EReal
  dgb : Fin 128 → EReal
  qw : Fin 128 → Fin 128 → EReal
  qgw : Fin 128 → EReal
  qgb : Fin 128 → EReal
  cw1 : Fin 128 → Fin 384 → EReal
  cgw : Fin 128 → EReal
  cgb : Fin 128 → EReal
  cw2 : Fin 128 → Fin 128 → EReal
  aw : Fin 128 → Fin 128 → EReal
  nw : Fin 128 → EReal
  nb : Fin 128 → EReal
  lw : Fin 128 → Fin 128 → EReal
  lgw : Fin 128 → EReal
  lgb : Fin 128 → EReal

/-- Three rows of 128 side by side: columns 0–127 the first, 128–255 the second, 256–383 the third. -/
def cat3 (d q c : Fin 128 → EReal) (k : Fin 384) : EReal :=
  if h : k.val < 128 then d ⟨k.val, h⟩
  else if h2 : k.val < 256 then q ⟨k.val - 128, by omega⟩
  else c ⟨k.val - 256, by omega⟩

/-- The distance branch of an edge: `relu(GN(relu(Δ·W₁ᵀ + b₁)·W₂ᵀ))` of the centre difference `Δ = ch − cw`. -/
def distFeat (P : Params) (ch cw : Fin 2 → EReal) : Fin 128 → EReal :=
  fun j => relu (gnorm (fun j' => ∑ k, relu ((∑ i, (ch i - cw i) * P.dw1 k i) + P.db1 k) * P.dw2 j' k) P.dgw P.dgb j)

/-- The query branch: `relu(GN(a_h·Wqᵀ))` of the target's features. -/
def queryFeat (P : Params) (ah : Fin 128 → EReal) : Fin 128 → EReal :=
  fun j => relu (gnorm (fun j' => ∑ k, ah k * P.qw j' k) P.qgw P.qgb j)

/-- One edge's message: `relu(GN([d | q | a_w]·Wc₁ᵀ))·Wc₂ᵀ`. -/
def edgeMsg (P : Params) (ch cw : Fin 2 → EReal) (ah aw : Fin 128 → EReal) : Fin 128 → EReal :=
  fun j => ∑ k, relu (gnorm (fun j' => ∑ i, cat3 (distFeat P ch cw) (queryFeat P ah) aw i * P.cw1 j' i) P.cgw P.cgb k)
    * P.cw2 j k

/-- A node's update from its features `a` and its pre-norm row `s` (the linear image of `a` plus the messages
    that landed on it): `lrelu(GN(lrelu(GN(s))·Wlᵀ) + a)`. -/
def nodeUpd (P : Params) (a s : Fin 128 → EReal) : Fin 128 → EReal :=
  fun j => lrelu (gnorm (fun j' => ∑ k, lrelu (gnorm s P.nw P.nb k) * P.lw j' k) P.lgw P.lgb j + a j)

/-- One attention block over `E` edges: `hrow e` / `wrow e` the rows edge `e` reads, `seg r` the edges whose
    messages land on row `r`. -/
def attBlock {E : Nat} (P : Params) (ctrs : Fin 4096 → Fin 2 → EReal) (hrow wrow : Fin E → Fin 4096)
    (seg : Fin 4096 → Finset (Fin E)) (a : Fin 4096 → Fin 128 → EReal) : Fin 4096 → Fin 128 → EReal :=
  fun r => nodeUpd P (a r) (fun c => (∑ k, a r k * P.aw c k)
    + ∑ e ∈ seg r, edgeMsg P (ctrs (hrow e)) (ctrs (wrow e)) (a (hrow e)) (a (wrow e)) c)

/-! ## The arguments read as the block's data -/

/-- A signed 32-bit index as jax normalises it against an axis of extent `N`: a negative index counts from the
    end (`b + N`), any other is kept. -/
def nrm (N b : BitVec 32) : BitVec 32 := if b.toInt < 0 then b + N else b

/-- The row of a 4096-row array that a gather reads for the index word `b`: the normalised index, clamped into
    range. -/
def rowOf (b : BitVec 32) : Fin 4096 := ⟨min (nrm 4096#32 b).toInt.toNat 4095, by omega⟩

/-- The row edge `e` of an index vector reads. -/
def rowAt {E : Nat} (idx : (⟨1, ![E]⟩ : Shape).Idx → BitVec 32) (e : Fin E) : Fin 4096 := rowOf (idx (ix1 e))

/-- The edges of an index vector whose normalised index IS row `r` (an index outside the array lands nowhere). -/
def landing {E : Nat} (idx : (⟨1, ![E]⟩ : Shape).Idx → BitVec 32) (r : Fin 4096) : Finset (Fin E) :=
  Finset.univ.filter fun e => (nrm 4096#32 (idx (ix1 e))).toInt = (r.val : Int)

/-- Block `i`'s parameters, read from the arrays that stack the two blocks' parameters along axis 0. -/
def paramsOf (i : Fin 2)
    (dist_w1 : (⟨3, ![2, 128, 2]⟩ : Shape).Idx → EReal) (dist_b1 : (⟨2, ![2, 128]⟩ : Shape).Idx → EReal)
    (dist_w2 : (⟨3, ![2, 128, 128]⟩ : Shape).Idx → EReal)
    (dist_gw dist_gb : (⟨2, ![2, 128]⟩ : Shape).Idx → EReal)
    (query_w : (⟨3, ![2, 128, 128]⟩ : Shape).Idx → EReal) (query_gw query_gb : (⟨2, ![2, 128]⟩ : Shape).Idx → EReal)
    (ctx_w1 : (⟨3, ![2, 128, 384]⟩ : Shape).Idx → EReal) (ctx_gw ctx_gb : (⟨2, ![2, 128]⟩ : Shape).Idx → EReal)
    (ctx_w2 agt_w : (⟨3, ![2, 128, 128]⟩ : Shape).Idx → EReal) (norm_w norm_b : (⟨2, ![2, 128]⟩ : Shape).Idx → EReal)
    (lin_w : (⟨3, ![2, 128, 128]⟩ : Shape).Idx → EReal) (lin_gw lin_gb : (⟨2, ![2, 128]⟩ : Shape).Idx → EReal) : Params where
  dw1 := fun j k => dist_w1 (ix3 i j k)
  db1 := fun j => dist_b1 (ix2 i j)
  dw2 := fun j k => dist_w2 (ix3 i j k)
  dgw := fun j => dist_gw (ix2 i j)
  dgb := fun j => dist_gb (ix2 i j)
  qw := fun j k => query_w (ix3 i j k)
  qgw := fun j => query_gw (ix2 i j)
  qgb := fun j => query_gb (ix2 i j)
  cw1 := fun j k => ctx_w1 (ix3 i j k)
  cgw := fun j => ctx_gw (ix2 i j)
  cgb := fun j => ctx_gb (ix2 i j)
  cw2 := fun j k => ctx_w2 (ix3 i j k)
  aw := fun j k => agt_w (ix3 i j k)
  nw := fun j => norm_w (ix2 i j)
  nb := fun j => norm_b (ix2 i j)
  lw := fun j k => lin_w (ix3 i j k)
  lgw := fun j => lin_gw (ix2 i j)
  lgb := fun j => lin_gb (ix2 i j)

/-- THE RESULT both programs compute: block 1 applied to block 0 applied to the actors, over the edges
    `(hi e, wi e)`, `e < 167386`. -/
def result
    (actors : (⟨2, ![4096, 128]⟩ : Shape).Idx → EReal) (ctrs : (⟨2, ![4096, 2]⟩ : Shape).Idx → EReal)
    (hi wi : (⟨1, ![167386]⟩ : Shape).Idx → BitVec 32)
    (dist_w1 : (⟨3, ![2, 128, 2]⟩ : Shape).Idx → EReal) (dist_b1 : (⟨2, ![2, 128]⟩ : Shape).Idx → EReal)
    (dist_w2 : (⟨3, ![2, 128, 128]⟩ : Shape).Idx → EReal)
    (dist_gw dist_gb : (⟨2, ![2, 128]⟩ : Shape).Idx → EReal)
    (query_w : (⟨3, ![2, 128, 128]⟩ : Shape).Idx → EReal) (query_gw query_gb : (⟨2, ![2, 128]⟩ : Shape).Idx → EReal)
    (ctx_w1 : (⟨3, ![2, 128, 384]⟩ : Shape).Idx → EReal) (ctx_gw ctx_gb : (⟨2, ![2, 128]⟩ : Shape).Idx → EReal)
    (ctx_w2 agt_w : (⟨3, ![2, 128, 128]⟩ : Shape).Idx → EReal) (norm_w norm_b : (⟨2, ![2, 128]⟩ : Shape).Idx → EReal)
    (lin_w : (⟨3, ![2, 128, 128]⟩ : Shape).Idx → EReal) (lin_gw lin_gb : (⟨2, ![2, 128]⟩ : Shape).Idx → EReal) :
    Fin 4096 → Fin 128 → EReal :=
  let blk (i : Fin 2) (a : Fin 4096 → Fin 128 → EReal) : Fin 4096 → Fin 128 → EReal :=
    attBlock (paramsOf i dist_w1 dist_b1 dist_w2 dist_gw dist_gb query_w query_gw query_gb ctx_w1 ctx_gw ctx_gb ctx_w2 agt_w
      norm_w norm_b lin_w lin_gw lin_gb) (fun r k => ctrs (ix2 r k)) (rowAt hi) (rowAt wi) (landing hi) a
  blk 1 (blk 0 (fun r k => actors (ix2 r k)))

end Cert.Spec

end
-- ==== Proof.KArgs.lean ====
/-
  The argument arrays of one core read as the specification's data: the actors, the centres, the two index vectors, and each block's parameters from the stacked parameter arrays.
-/
import proofs.«121864_j48515950576209_1_alg».proof.Proof.Gen.KernelIdeal.Frame
import proofs.«121864_j48515950576209_1_alg».proof.Proof.Spec

set_option maxRecDepth 16384
set_option maxHeartbeats 4000000

noncomputable section

namespace Cert.KernelIdeal.KValue

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-! ## The argument arrays of one core, and the two blocks' parameters -/

abbrev aActors (c : Dev nD) : S4096x128.Idx → EReal := m ((c : Thread nD τ).loc main_arg0)
abbrev aCtrs (c : Dev nD) : S4096x2.Idx → EReal := m ((c : Thread nD τ).loc main_arg1)
abbrev aHi (c : Dev nD) : S167386.Idx → BitVec 32 := m ((c : Thread nD τ).loc main_arg2)
abbrev aWi (c : Dev nD) : S167386.Idx → BitVec 32 := m ((c : Thread nD τ).loc main_arg3)

/-- Block `i`'s parameters, read from core `c`'s stacked parameter arrays. -/
def PB (i : Fin 2) (c : Dev nD) : Params :=
  paramsOf i (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21))

/-- The centres as rows. -/
def ctrRows (c : Dev nD) : Fin 4096 → Fin 2 → EReal := fun r k => aCtrs m c (ix2 r k)

end Cert.KernelIdeal.KValue

end
-- ==== Proof.Pad.lean ====
/-
  The kernel works on the edge list padded to a whole number of blocks: 167386 real edges, then 550 padding
  entries that all carry one fixed index word.
-/
import proofs.«121864_j48515950576209_1_alg».proof.Proof.Spec

noncomputable section

namespace Cert.Spec

open Idealize.ShloMosaic Idealize.ShloMosaic.ValueIdx

/-- The padded index vector at position `e`: the real edge's index word below 167386, the padding word above. -/
def padded (pad : BitVec 32) (idx : (⟨1, ![167386]⟩ : Shape).Idx → BitVec 32) (e : Fin 167936) : BitVec 32 :=
  if h : e.val < 167386 then idx (ix1 ⟨e.val, h⟩) else pad

theorem padded_lt (pad : BitVec 32) (idx : (⟨1, ![167386]⟩ : Shape).Idx → BitVec 32) (e : Fin 167936) (h : e.val < 167386) :
    padded pad idx e = idx (ix1 ⟨e.val, h⟩) := dif_pos h

theorem padded_ge (pad : BitVec 32) (idx : (⟨1, ![167386]⟩ : Shape).Idx → BitVec 32) (e : Fin 167936) (h : ¬ e.val < 167386) :
    padded pad idx e = pad := dif_neg h

end Cert.Spec

end
-- ==== Proof.Reg0.lean ====
/-
  Region 0 of the idealized kernel (the edge perceptron over 82 blocks of 2048 edges), read as one array: grid
  point `t` fetches rows `2048·t … 2048·t + 2047` of the three per-edge arrays and the whole of each parameter
  array, and writes back rows `2048·t …` of the message array; the 82 blocks tile the 167936 rows. So the message
  array after the region, at row `e`, is the body's result on row `e` of the per-edge arrays: a row-local function.
  The body's arithmetic enters as a hypothesis (`BodyStmt`), proved separately.
-/
import proofs.«121864_j48515950576209_1_alg».proof.Proof.Gen.KernelIdeal.Frame
import proofs.«121864_j48515950576209_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

/-- What the body's arithmetic is taken to be: on any blocks whose row `p` holds the centre difference, the target's
    and the source's features, and whose parameter blocks hold a block's parameters transposed, the output block at
    `(p, q)` is the edge's message at channel `q`. -/
def BodyStmt : Prop :=
  ∀ (x0 : Vec Ideal S2048x2 .f32) (x1 x2 : Vec Ideal S2048x128 .f32) (x3 : Vec Ideal S2x128 .bf16) (x4 : Vec Ideal S1x128 .f32)
    (x5 : Vec Ideal S128x128 .bf16) (x6 x7 : Vec Ideal S1x128 .f32) (x8 : Vec Ideal S128x128 .bf16) (x9 x10 : Vec Ideal S1x128 .f32)
    (x11 : Vec Ideal S384x128 .bf16) (x12 x13 : Vec Ideal S1x128 .f32) (x14 : Vec Ideal S128x128 .bf16)
    (P : Cert.Spec.Params) (p : Fin 2048) (q : Fin 128) (ch cw : Fin 2 → EReal) (ah aw : Fin 128 → EReal),
    (∀ i : Fin 2, x0 (ix2 p i) = ch i - cw i) → (∀ k : Fin 128, x1 (ix2 p k) = ah k) → (∀ k : Fin 128, x2 (ix2 p k) = aw k) →
    (∀ (j : Fin 128) (i : Fin 2), x3 (ix2 i j) = P.dw1 j i) → (∀ j : Fin 128, x4 (ix2 0 j) = P.db1 j) →
    (∀ j k : Fin 128, x5 (ix2 k j) = P.dw2 j k) → (∀ j : Fin 128, x6 (ix2 0 j) = P.dgw j) → (∀ j : Fin 128, x7 (ix2 0 j) = P.dgb j) →
    (∀ j k : Fin 128, x8 (ix2 k j) = P.qw j k) → (∀ j : Fin 128, x9 (ix2 0 j) = P.qgw j) → (∀ j : Fin 128, x10 (ix2 0 j) = P.qgb j) →
    (∀ (j : Fin 128) (i : Fin 384), x11 (ix2 i j) = P.cw1 j i) → (∀ j : Fin 128, x12 (ix2 0 j) = P.cgw j) → (∀ j : Fin 128, x13 (ix2 0 j) = P.cgb j) →
    (∀ j k : Fin 128, x14 (ix2 k j) = P.cw2 j k) →
    out0_15 (F := Ideal) x0 x1 x2 x3 x4 x5 x6 x7 x8 x9 x10 x11 x12 x13 x14 (ix2 p q) = Cert.Spec.edgeMsg P ch cw ah aw q

/-- The printed index maps, decided once over the 82 grid points: the per-edge windows and the output move down one
    block of rows per point; every parameter window stays at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

theorem t_lt (t : Fin cfg0.N) : t.val < 82 := by have h1 := t.isLt; have h2 : cfg0.N = 82 := N_0; omega

/-- Window 0's block at point `t`, at `(p, i)`, is its array at row `2048·t + p`. -/
theorem iblk_0 (c : Dev nD) (t : Fin cfg0.N) (p : Fin 2048) (i : Fin 2) (k : S167936x2.Idx)
    (hk0 : (k 0).val = 2048 * t.val + p.val) (hk1 : (k 1).val = i.val) :
    (iblk0 V c 0 t : Vec Ideal S2048x2 .f32) (ix2 p i) = (V c (Pipeline.arrRef spec0 0) : S167936x2.Idx → EReal) k := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 0) : S167936x2.Idx → EReal) _ = (V c (Pipeline.arrRef spec0 0) : S167936x2.Idx → EReal) k
  refine congrArg (V c (Pipeline.arrRef spec0 0) : S167936x2.Idx → EReal) (funext fun a => Fin.ext ?_)
  match a with
  | ⟨0, _⟩ => show win0_0.index t 0 * 2048 + 1 * (ix2 p i (0 : Fin 2)).val = (k 0).val; rw [e0a, hk0]; show t.val * 2048 + 1 * p.val = _; omega
  | ⟨1, _⟩ => show win0_0.index t 1 * 2 + 1 * (ix2 p i (1 : Fin 2)).val = (k 1).val; rw [e0b, hk1]; show 0 * 2 + 1 * i.val = _; omega

/-- Window 1's block at point `t`, at `(p, i)`, is its array at row `2048·t + p`. -/
theorem iblk_1 (c : Dev nD) (t : Fin cfg0.N) (p : Fin 2048) (i : Fin 128) (k : S167936x128.Idx)
    (hk0 : (k 0).val = 2048 * t.val + p.val) (hk1 : (k 1).val = i.val) :
    (iblk0 V c 1 t : Vec Ideal S2048x128 .f32) (ix2 p i) = (V c (Pipeline.arrRef spec0 1) : S167936x128.Idx → EReal) k := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 1) : S167936x128.Idx → EReal) _ = (V c (Pipeline.arrRef spec0 1) : S167936x128.Idx → EReal) k
  refine congrArg (V c (Pipeline.arrRef spec0 1) : S167936x128.Idx → EReal) (funext fun a => Fin.ext ?_)
  match a with
  | ⟨0, _⟩ => show win0_1.index t 0 * 2048 + 1 * (ix2 p i (0 : Fin 2)).val = (k 0).val; rw [e1a, hk0]; show t.val * 2048 + 1 * p.val = _; omega
  | ⟨1, _⟩ => show win0_1.index t 1 * 128 + 1 * (ix2 p i (1 : Fin 2)).val = (k 1).val; rw [e1b, hk1]; show 0 * 128 + 1 * i.val = _; omega

/-- Window 2's block at point `t`, at `(p, i)`, is its array at row `2048·t + p`. -/
theorem iblk_2 (c : Dev nD) (t : Fin cfg0.N) (p : Fin 2048) (i : Fin 128) (k : S167936x128.Idx)
    (hk0 : (k 0).val = 2048 * t.val + p.val) (hk1 : (k 1).val = i.val) :
    (iblk0 V c 2 t : Vec Ideal S2048x128 .f32) (ix2 p i) = (V c (Pipeline.arrRef spec0 2) : S167936x128.Idx → EReal) k := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 2) : S167936x128.Idx → EReal) _ = (V c (Pipeline.arrRef spec0 2) : S167936x128.Idx → EReal) k
  refine congrArg (V c (Pipeline.arrRef spec0 2) : S167936x128.Idx → EReal) (funext fun a => Fin.ext ?_)
  match a with
  | ⟨0, _⟩ => show win0_2.index t 0 * 2048 + 1 * (ix2 p i (0 : Fin 2)).val = (k 0).val; rw [e2a, hk0]; show t.val * 2048 + 1 * p.val = _; omega
  | ⟨1, _⟩ => show win0_2.index t 1 * 128 + 1 * (ix2 p i (1 : Fin 2)).val = (k 1).val; rw [e2b, hk1]; show 0 * 128 + 1 * i.val = _; omega

/-- Window 3's block at any point is its whole array. -/
theorem iblk_3 (c : Dev nD) (t : Fin cfg0.N) (y : S2x128.Idx) :
    (iblk0 V c 3 t : Vec Ideal S2x128 .bf16) y = (V c (Pipeline.arrRef spec0 3) : S2x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 3) : S2x128.Idx → EReal) _ = (V c (Pipeline.arrRef spec0 3) : S2x128.Idx → EReal) y
  refine congrArg (V c (Pipeline.arrRef spec0 3) : S2x128.Idx → EReal) (funext fun a => Fin.ext ?_)
  match a with
  | ⟨0, _⟩ => show win0_3.index t 0 * 2 + 1 * (y 0).val = (y 0).val; rw [e3a]; omega
  | ⟨1, _⟩ => show win0_3.index t 1 * 128 + 1 * (y 1).val = (y 1).val; rw [e3b]; omega

/-- Window 4's block at any point is its whole array. -/
theorem iblk_4 (c : Dev nD) (t : Fin cfg0.N) (y : S1x128.Idx) :
    (iblk0 V c 4 t : Vec Ideal S1x128 .f32) y = (V c (Pipeline.arrRef spec0 4) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 4) : S1x128.Idx → EReal) _ = (V c (Pipeline.arrRef spec0 4) : S1x128.Idx → EReal) y
  refine congrArg (V c (Pipeline.arrRef spec0 4) : S1x128.Idx → EReal) (funext fun a => Fin.ext ?_)
  match a with
  | ⟨0, _⟩ => show win0_4.index t 0 * 1 + 1 * (y 0).val = (y 0).val; rw [e4a]; omega
  | ⟨1, _⟩ => show win0_4.index t 1 * 128 + 1 * (y 1).val = (y 1).val; rw [e4b]; omega

/-- Window 5's block at any point is its whole array. -/
theorem iblk_5 (c : Dev nD) (t : Fin cfg0.N) (y : S128x128.Idx) :
    (iblk0 V c 5 t : Vec Ideal S128x128 .bf16) y = (V c (Pipeline.arrRef spec0 5) : S128x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 5) : S128x128.Idx → EReal) _ = (V c (Pipeline.arrRef spec0 5) : S128x128.Idx → EReal) y
  refine congrArg (V c (Pipeline.arrRef spec0 5) : S128x128.Idx → EReal) (funext fun a => Fin.ext ?_)
  match a with
  | ⟨0, _⟩ => show win0_5.index t 0 * 128 + 1 * (y 0).val = (y 0).val; rw [e5a]; omega
  | ⟨1, _⟩ => show win0_5.index t 1 * 128 + 1 * (y 1).val = (y 1).val; rw [e5b]; omega

/-- Window 6's block at any point is its whole array. -/
theorem iblk_6 (c : Dev nD) (t : Fin cfg0.N) (y : S1x128.Idx) :
    (iblk0 V c 6 t : Vec Ideal S1x128 .f32) y = (V c (Pipeline.arrRef spec0 6) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 6) : S1x128.Idx → EReal) _ = (V c (Pipeline.arrRef spec0 6) : S1x128.Idx → EReal) y
  refine congrArg (V c (Pipeline.arrRef spec0 6) : S1x128.Idx → EReal) (funext fun a => Fin.ext ?_)
  match a with
  | ⟨0, _⟩ => show win0_6.index t 0 * 1 + 1 * (y 0).val = (y 0).val; rw [e6a]; omega
  | ⟨1, _⟩ => show win0_6.index t 1 * 128 + 1 * (y 1).val = (y 1).val; rw [e6b]; omega

/-- Window 7's block at any point is its whole array. -/
theorem iblk_7 (c : Dev nD) (t : Fin cfg0.N) (y : S1x128.Idx) :
    (iblk0 V c 7 t : Vec Ideal S1x128 .f32) y = (V c (Pipeline.arrRef spec0 7) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 7) : S1x128.Idx → EReal) _ = (V c (Pipeline.arrRef spec0 7) : S1x128.Idx → EReal) y
  refine congrArg (V c (Pipeline.arrRef spec0 7) : S1x128.Idx → EReal) (funext fun a => Fin.ext ?_)
  match a with
  | ⟨0, _⟩ => show win0_7.index t 0 * 1 + 1 * (y 0).val = (y 0).val; rw [e7a]; omega
  | ⟨1, _⟩ => show win0_7.index t 1 * 128 + 1 * (y 1).val = (y 1).val; rw [e7b]; omega

/-- Window 8's block at any point is its whole array. -/
theorem iblk_8 (c : Dev nD) (t : Fin cfg0.N) (y : S128x128.Idx) :
    (iblk0 V c 8 t : Vec Ideal S128x128 .bf16) y = (V c (Pipeline.arrRef spec0 8) : S128x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 8) : S128x128.Idx → EReal) _ = (V c (Pipeline.arrRef spec0 8) : S128x128.Idx → EReal) y
  refine congrArg (V c (Pipeline.arrRef spec0 8) : S128x128.Idx → EReal) (funext fun a => Fin.ext ?_)
  match a with
  | ⟨0, _⟩ => show win0_8.index t 0 * 128 + 1 * (y 0).val = (y 0).val; rw [e8a]; omega
  | ⟨1, _⟩ => show win0_8.index t 1 * 128 + 1 * (y 1).val = (y 1).val; rw [e8b]; omega

/-- Window 9's block at any point is its whole array. -/
theorem iblk_9 (c : Dev nD) (t : Fin cfg0.N) (y : S1x128.Idx) :
    (iblk0 V c 9 t : Vec Ideal S1x128 .f32) y = (V c (Pipeline.arrRef spec0 9) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 9) : S1x128.Idx → EReal) _ = (V c (Pipeline.arrRef spec0 9) : S1x128.Idx → EReal) y
  refine congrArg (V c (Pipeline.arrRef spec0 9) : S1x128.Idx → EReal) (funext fun a => Fin.ext ?_)
  match a with
  | ⟨0, _⟩ => show win0_9.index t 0 * 1 + 1 * (y 0).val = (y 0).val; rw [e9a]; omega
  | ⟨1, _⟩ => show win0_9.index t 1 * 128 + 1 * (y 1).val = (y 1).val; rw [e9b]; omega

/-- Window 10's block at any point is its whole array. -/
theorem iblk_10 (c : Dev nD) (t : Fin cfg0.N) (y : S1x128.Idx) :
    (iblk0 V c 10 t : Vec Ideal S1x128 .f32) y = (V c (Pipeline.arrRef spec0 10) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 10) : S1x128.Idx → EReal) _ = (V c (Pipeline.arrRef spec0 10) : S1x128.Idx → EReal) y
  refine congrArg (V c (Pipeline.arrRef spec0 10) : S1x128.Idx → EReal) (funext fun a => Fin.ext ?_)
  match a with
  | ⟨0, _⟩ => show win0_10.index t 0 * 1 + 1 * (y 0).val = (y 0).val; rw [e10a]; omega
  | ⟨1, _⟩ => show win0_10.index t 1 * 128 + 1 * (y 1).val = (y 1).val; rw [e10b]; omega

/-- Window 11's block at any point is its whole array. -/
theorem iblk_11 (c : Dev nD) (t : Fin cfg0.N) (y : S384x128.Idx) :
    (iblk0 V c 11 t : Vec Ideal S384x128 .bf16) y = (V c (Pipeline.arrRef spec0 11) : S384x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 11) : S384x128.Idx → EReal) _ = (V c (Pipeline.arrRef spec0 11) : S384x128.Idx → EReal) y
  refine congrArg (V c (Pipeline.arrRef spec0 11) : S384x128.Idx → EReal) (funext fun a => Fin.ext ?_)
  match a with
  | ⟨0, _⟩ => show win0_11.index t 0 * 384 + 1 * (y 0).val = (y 0).val; rw [e11a]; omega
  | ⟨1, _⟩ => show win0_11.index t 1 * 128 + 1 * (y 1).val = (y 1).val; rw [e11b]; omega

/-- Window 12's block at any point is its whole array. -/
theorem iblk_12 (c : Dev nD) (t : Fin cfg0.N) (y : S1x128.Idx) :
    (iblk0 V c 12 t : Vec Ideal S1x128 .f32) y = (V c (Pipeline.arrRef spec0 12) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 12) : S1x128.Idx → EReal) _ = (V c (Pipeline.arrRef spec0 12) : S1x128.Idx → EReal) y
  refine congrArg (V c (Pipeline.arrRef spec0 12) : S1x128.Idx → EReal) (funext fun a => Fin.ext ?_)
  match a with
  | ⟨0, _⟩ => show win0_12.index t 0 * 1 + 1 * (y 0).val = (y 0).val; rw [e12a]; omega
  | ⟨1, _⟩ => show win0_12.index t 1 * 128 + 1 * (y 1).val = (y 1).val; rw [e12b]; omega

/-- Window 13's block at any point is its whole array. -/
theorem iblk_13 (c : Dev nD) (t : Fin cfg0.N) (y : S1x128.Idx) :
    (iblk0 V c 13 t : Vec Ideal S1x128 .f32) y = (V c (Pipeline.arrRef spec0 13) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 13) : S1x128.Idx → EReal) _ = (V c (Pipeline.arrRef spec0 13) : S1x128.Idx → EReal) y
  refine congrArg (V c (Pipeline.arrRef spec0 13) : S1x128.Idx → EReal) (funext fun a => Fin.ext ?_)
  match a with
  | ⟨0, _⟩ => show win0_13.index t 0 * 1 + 1 * (y 0).val = (y 0).val; rw [e13a]; omega
  | ⟨1, _⟩ => show win0_13.index t 1 * 128 + 1 * (y 1).val = (y 1).val; rw [e13b]; omega

/-- Window 14's block at any point is its whole array. -/
theorem iblk_14 (c : Dev nD) (t : Fin cfg0.N) (y : S128x128.Idx) :
    (iblk0 V c 14 t : Vec Ideal S128x128 .bf16) y = (V c (Pipeline.arrRef spec0 14) : S128x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk0
  rw [View.read_apply]
  show (V c (Pipeline.arrRef spec0 14) : S128x128.Idx → EReal) _ = (V c (Pipeline.arrRef spec0 14) : S128x128.Idx → EReal) y
  refine congrArg (V c (Pipeline.arrRef spec0 14) : S128x128.Idx → EReal) (funext fun a => Fin.ext ?_)
  match a with
  | ⟨0, _⟩ => show win0_14.index t 0 * 128 + 1 * (y 0).val = (y 0).val; rw [e14a]; omega
  | ⟨1, _⟩ => show win0_14.index t 1 * 128 + 1 * (y 1).val = (y 1).val; rw [e14b]; omega

/-! ## The message array -/

/-- The message array the region leaves: at row `e`, channel `q`, edge `e`'s message. -/
def G (P : Cert.Spec.Params) (CH CW : Fin 167936 → Fin 2 → EReal) (AH AW : Fin 167936 → Fin 128 → EReal) :
    S167936x128.Idx → EReal :=
  fun i => Cert.Spec.edgeMsg P (CH ⟨(i 0).val, (i 0).isLt⟩) (CW ⟨(i 0).val, (i 0).isLt⟩) (AH ⟨(i 0).val, (i 0).isLt⟩)
    (AW ⟨(i 0).val, (i 0).isLt⟩) ⟨(i 1).val, (i 1).isLt⟩

set_option maxHeartbeats 4000000 in
/-- WHAT POINT `t` WRITES BACK is block `t` of the message array: row `p` of the body's output is the message of
    edge `2048·t + p`, whose data row `p` of each fetched block holds. -/
theorem flushed_eq (hbody : BodyStmt) (c : Dev nD) (P : Cert.Spec.Params)
    (CH CW : Fin 167936 → Fin 2 → EReal) (AH AW : Fin 167936 → Fin 128 → EReal)
    (hd : ∀ (e : Fin 167936) (i : Fin 2), (V c (Pipeline.arrRef spec0 0) : S167936x2.Idx → EReal) (ix2 e i) = CH e i - CW e i)
    (hq : ∀ (e : Fin 167936) (k : Fin 128), (V c (Pipeline.arrRef spec0 1) : S167936x128.Idx → EReal) (ix2 e k) = AH e k)
    (hs : ∀ (e : Fin 167936) (k : Fin 128), (V c (Pipeline.arrRef spec0 2) : S167936x128.Idx → EReal) (ix2 e k) = AW e k)
    (h3 : ∀ (j : Fin 128) (i : Fin 2), (V c (Pipeline.arrRef spec0 3) : S2x128.Idx → EReal) (ix2 i j) = P.dw1 j i)
    (h4 : ∀ j : Fin 128, (V c (Pipeline.arrRef spec0 4) : S1x128.Idx → EReal) (ix2 0 j) = P.db1 j)
    (h5 : ∀ j k : Fin 128, (V c (Pipeline.arrRef spec0 5) : S128x128.Idx → EReal) (ix2 k j) = P.dw2 j k)
    (h6 : ∀ j : Fin 128, (V c (Pipeline.arrRef spec0 6) : S1x128.Idx → EReal) (ix2 0 j) = P.dgw j)
    (h7 : ∀ j : Fin 128, (V c (Pipeline.arrRef spec0 7) : S1x128.Idx → EReal) (ix2 0 j) = P.dgb j)
    (h8 : ∀ j k : Fin 128, (V c (Pipeline.arrRef spec0 8) : S128x128.Idx → EReal) (ix2 k j) = P.qw j k)
    (h9 : ∀ j : Fin 128, (V c (Pipeline.arrRef spec0 9) : S1x128.Idx → EReal) (ix2 0 j) = P.qgw j)
    (h10 : ∀ j : Fin 128, (V c (Pipeline.arrRef spec0 10) : S1x128.Idx → EReal) (ix2 0 j) = P.qgb j)
    (h11 : ∀ (j : Fin 128) (i : Fin 384), (V c (Pipeline.arrRef spec0 11) : S384x128.Idx → EReal) (ix2 i j) = P.cw1 j i)
    (h12 : ∀ j : Fin 128, (V c (Pipeline.arrRef spec0 12) : S1x128.Idx → EReal) (ix2 0 j) = P.cgw j)
    (h13 : ∀ j : Fin 128, (V c (Pipeline.arrRef spec0 13) : S1x128.Idx → EReal) (ix2 0 j) = P.cgb j)
    (h14 : ∀ j k : Fin 128, (V c (Pipeline.arrRef spec0 14) : S128x128.Idx → EReal) (ix2 k j) = P.cw2 j k)
    (t : Fin cfg0.N) :
    (dat0 V c).flushed 15 t = ((cfg0.win 15).blk t).view.read (Elt Ideal) (G P CH CW AH AW) := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  have ht := t_lt t
  show (cfg0.win 15).cut (grid0.coords t) ((dat0 V c).after 15 t) = _
  rw [after0_15]
  funext y
  have hy0 : (y 0).val < 2048 := (y 0).isLt
  have hy1 : (y 1).val < 128 := (y 1).isLt
  show out0_15 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) y = G P CH CW AH AW (((cfg0.win 15).blk t).view.emb y)
  have he : 2048 * t.val + (y 0).val < 167936 := by omega
  have hG : G P CH CW AH AW (((cfg0.win 15).blk t).view.emb y)
      = Cert.Spec.edgeMsg P (CH ⟨2048 * t.val + (y 0).val, he⟩) (CW ⟨2048 * t.val + (y 0).val, he⟩)
          (AH ⟨2048 * t.val + (y 0).val, he⟩) (AW ⟨2048 * t.val + (y 0).val, he⟩) ⟨(y 1).val, hy1⟩ := by
    have r0 : ((((cfg0.win 15).blk t).view.emb y) 0).val = 2048 * t.val + (y 0).val := by
      show win0_15.index t 0 * 2048 + 1 * (y 0).val = _; rw [e15a]; omega
    have r1 : ((((cfg0.win 15).blk t).view.emb y) 1).val = (y 1).val := by
      show win0_15.index t 1 * 128 + 1 * (y 1).val = _; rw [e15b]; omega
    unfold G
    have f0 : (⟨((((cfg0.win 15).blk t).view.emb y) 0).val, ((((cfg0.win 15).blk t).view.emb y) 0).isLt⟩ : Fin 167936)
        = ⟨2048 * t.val + (y 0).val, he⟩ := Fin.ext r0
    have f1 : (⟨((((cfg0.win 15).blk t).view.emb y) 1).val, ((((cfg0.win 15).blk t).view.emb y) 1).isLt⟩ : Fin 128)
        = ⟨(y 1).val, hy1⟩ := Fin.ext r1
    rw [f0, f1]
  rw [hG]
  have hb := hbody (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) P ⟨(y 0).val, hy0⟩ ⟨(y 1).val, hy1⟩
    (CH ⟨2048 * t.val + (y 0).val, he⟩) (CW ⟨2048 * t.val + (y 0).val, he⟩) (AH ⟨2048 * t.val + (y 0).val, he⟩) (AW ⟨2048 * t.val + (y 0).val, he⟩)
    (fun i => (iblk_0 V c t ⟨(y 0).val, hy0⟩ i (ix2 ⟨2048 * t.val + (y 0).val, he⟩ i) rfl rfl).trans (hd _ i))
    (fun k => (iblk_1 V c t ⟨(y 0).val, hy0⟩ k (ix2 ⟨2048 * t.val + (y 0).val, he⟩ k) rfl rfl).trans (hq _ k))
    (fun k => (iblk_2 V c t ⟨(y 0).val, hy0⟩ k (ix2 ⟨2048 * t.val + (y 0).val, he⟩ k) rfl rfl).trans (hs _ k))
    (fun j i => (iblk_3 V c t (ix2 i j)).trans (h3 j i)) (fun j => (iblk_4 V c t (ix2 0 j)).trans (h4 j))
    (fun j k => (iblk_5 V c t (ix2 k j)).trans (h5 j k)) (fun j => (iblk_6 V c t (ix2 0 j)).trans (h6 j)) (fun j => (iblk_7 V c t (ix2 0 j)).trans (h7 j))
    (fun j k => (iblk_8 V c t (ix2 k j)).trans (h8 j k)) (fun j => (iblk_9 V c t (ix2 0 j)).trans (h9 j)) (fun j => (iblk_10 V c t (ix2 0 j)).trans (h10 j))
    (fun j i => (iblk_11 V c t (ix2 i j)).trans (h11 j i)) (fun j => (iblk_12 V c t (ix2 0 j)).trans (h12 j)) (fun j => (iblk_13 V c t (ix2 0 j)).trans (h13 j))
    (fun j k => (iblk_14 V c t (ix2 k j)).trans (h14 j k))
  rw [← hb]
  congr 1
  funext a
  match a with
  | ⟨0, _⟩ => rfl
  | ⟨1, _⟩ => rfl

/-- An index of the message array is in point `t`'s block iff each coordinate is in the block's range. -/
theorem mem_blk (t : Fin cfg0.N) (i : S167936x128.Idx) :
    i ∈ ((cfg0.win 15).blk t).view.set ↔ ∀ a : Fin 2, win0_15.index t a * S2048x128.size a ≤ (i a).val ∧ (i a).val < win0_15.index t a * S2048x128.size a + S2048x128.size a := by
  show i ∈ ((View.whole main_v76).slice (win0_15.rect t)).set ↔ _
  rw [View.set_slice_whole, Rect.mem_set_unit]
  exact Iff.rfl

/-- The 82 blocks cover the array: row `r` is in the block of point `r / 2048`. -/
theorem cover (i : S167936x128.Idx) : ∃ t : Fin cfg0.N, (cfg0.win 15).flush t = true ∧ i ∈ ((cfg0.win 15).blk t).view.set := by
  have hi0 : (i 0).val < 167936 := (i 0).isLt
  have hi1 : (i 1).val < 128 := (i 1).isLt
  have hN : cfg0.N = 82 := N_0
  refine ⟨⟨(i 0).val / 2048, by rw [hN]; omega⟩, flush0_15 _, ?_⟩
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts ⟨(i 0).val / 2048, by rw [hN]; omega⟩
  rw [mem_blk]
  intro a
  match a with
  | ⟨0, _⟩ => show win0_15.index _ 0 * 2048 ≤ (i 0).val ∧ (i 0).val < win0_15.index _ 0 * 2048 + 2048; rw [e15a]; show (i 0).val / 2048 * 2048 ≤ (i 0).val ∧ (i 0).val < (i 0).val / 2048 * 2048 + 2048; omega
  | ⟨1, _⟩ => show win0_15.index _ 1 * 128 ≤ (i 1).val ∧ (i 1).val < win0_15.index _ 1 * 128 + 128; rw [e15b]; omega

set_option maxHeartbeats 4000000 in
/-- THE MESSAGE ARRAY after the region, read at `(e, q)`. -/
theorem out_apply (hbody : BodyStmt) (c : Dev nD) (P : Cert.Spec.Params)
    (CH CW : Fin 167936 → Fin 2 → EReal) (AH AW : Fin 167936 → Fin 128 → EReal)
    (hd : ∀ (e : Fin 167936) (i : Fin 2), (V c (Pipeline.arrRef spec0 0) : S167936x2.Idx → EReal) (ix2 e i) = CH e i - CW e i)
    (hq : ∀ (e : Fin 167936) (k : Fin 128), (V c (Pipeline.arrRef spec0 1) : S167936x128.Idx → EReal) (ix2 e k) = AH e k)
    (hs : ∀ (e : Fin 167936) (k : Fin 128), (V c (Pipeline.arrRef spec0 2) : S167936x128.Idx → EReal) (ix2 e k) = AW e k)
    (h3 : ∀ (j : Fin 128) (i : Fin 2), (V c (Pipeline.arrRef spec0 3) : S2x128.Idx → EReal) (ix2 i j) = P.dw1 j i)
    (h4 : ∀ j : Fin 128, (V c (Pipeline.arrRef spec0 4) : S1x128.Idx → EReal) (ix2 0 j) = P.db1 j)
    (h5 : ∀ j k : Fin 128, (V c (Pipeline.arrRef spec0 5) : S128x128.Idx → EReal) (ix2 k j) = P.dw2 j k)
    (h6 : ∀ j : Fin 128, (V c (Pipeline.arrRef spec0 6) : S1x128.Idx → EReal) (ix2 0 j) = P.dgw j)
    (h7 : ∀ j : Fin 128, (V c (Pipeline.arrRef spec0 7) : S1x128.Idx → EReal) (ix2 0 j) = P.dgb j)
    (h8 : ∀ j k : Fin 128, (V c (Pipeline.arrRef spec0 8) : S128x128.Idx → EReal) (ix2 k j) = P.qw j k)
    (h9 : ∀ j : Fin 128, (V c (Pipeline.arrRef spec0 9) : S1x128.Idx → EReal) (ix2 0 j) = P.qgw j)
    (h10 : ∀ j : Fin 128, (V c (Pipeline.arrRef spec0 10) : S1x128.Idx → EReal) (ix2 0 j) = P.qgb j)
    (h11 : ∀ (j : Fin 128) (i : Fin 384), (V c (Pipeline.arrRef spec0 11) : S384x128.Idx → EReal) (ix2 i j) = P.cw1 j i)
    (h12 : ∀ j : Fin 128, (V c (Pipeline.arrRef spec0 12) : S1x128.Idx → EReal) (ix2 0 j) = P.cgw j)
    (h13 : ∀ j : Fin 128, (V c (Pipeline.arrRef spec0 13) : S1x128.Idx → EReal) (ix2 0 j) = P.cgb j)
    (h14 : ∀ j k : Fin 128, (V c (Pipeline.arrRef spec0 14) : S128x128.Idx → EReal) (ix2 k j) = P.cw2 j k)
    (e : Fin 167936) (q : Fin 128) :
    ((dat0 V c).arrAt 15 cfg0.N : S167936x128.Idx → EReal) (ix2 e q) = Cert.Spec.edgeMsg P (CH e) (CW e) (AH e) (AW e) q := by
  rw [(dat0 V c).arrAt_eq_of_cover 15 (G P CH CW AH AW)
    (fun t _ => flushed_eq V hbody c P CH CW AH AW hd hq hs h3 h4 h5 h6 h7 h8 h9 h10 h11 h12 h13 h14 t) cover]
  rfl

end Cert.KernelIdeal.Reg0

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«121864_j48515950576209_1_alg».proof.Proof.LibRows
import proofs.«121864_j48515950576209_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.KGroupNorm.lean ====
/-
  The printed GroupNorm chain of a row-blocked kernel, read at a coordinate.

  Over an `[M, 128]` block `x` (one group: the whole row of 128 channels) the kernels print, operation by operation,
  the row sums recast as a column `[M, 1]` and divided by the splat of the word of `128.0` (the row means), the
  block minus the means broadcast along the row (the deviations), the row means of the squared deviations (the
  variances), the word of `1e-5` added, the reciprocal square root, its broadcast along the row, and the product
  with the deviations; then the product with a `[1, 128]` weight row broadcast down the rows and the sum with a
  bias row likewise.  At `(p, c)` the first part is `(x_p c − μ) · rsqrt(σ² + ε)` and the whole is
  `Cert.Spec.gnorm x_p w b c`, `x_p` the `p`-th row.  Nothing but the definitions of the operations is used.
-/
import proofs.«121864_j48515950576209_1_alg».proof.Proof.LibMatrixReduce
import proofs.«121864_j48515950576209_1_alg».proof.Proof.Spec

noncomputable section

open Idealize.ShloMosaic Idealize.ShloMosaic.ValueIdx

namespace Cert.KGroupNorm

/-- A row's deviation from its mean, scaled: `(x c − μ) · rsqrt(σ² + ε)` — GroupNorm before its weight and bias. -/
def scaled (x : Fin 128 → EReal) (c : Fin 128) : EReal :=
  (x c - Cert.Spec.mean x)
    * Ideal.rsqrt (Cert.Spec.mean (fun k => (x k - Cert.Spec.mean x) * (x k - Cert.Spec.mean x)) + Ideal.ofBits .f32 0x3727C5AC#32)

/-- GroupNorm is the scaled deviation times the weight plus the bias. -/
theorem gnorm_eq (x w b : Fin 128 → EReal) (c : Fin 128) : Cert.Spec.gnorm x w b c = scaled x c * w c + b c := rfl

variable {M : ℕ}

/-- The row means kept as a column: the sums along axis 1 recast `[M] → [M, 1]`, divided by the splat of `128.0`. -/
def rowMean (x : FVec Ideal ⟨2, ![M, 128]⟩ .f32)
    (hr : (⟨2, ![M, 128]⟩ : Shape).Reduces [1] (⟨1, ![M]⟩ : Shape)) (hφ : FKind.Formats .f32)
    (hacc : (0x00000000#32 : BitVec 32) = FKind.add.neutral .f32 hφ)
    (hc : (⟨1, ![M]⟩ : Shape).ShapeCasts ⟨2, ![M, 1]⟩) : FVec Ideal ⟨2, ![M, 1]⟩ .f32 :=
  divf (shapeCast ⟨2, ![M, 1]⟩ (multiReduction (F := Ideal) .add [1] (⟨1, ![M]⟩ : Shape) x 0x00000000#32 hr hφ hacc) hc)
    (broadcast ⟨2, ![M, 1]⟩ (Scalar.ofBits (F := Ideal) .f32 0x43000000#32))

/-- The deviations from the row mean: the block minus the column of means broadcast along the rows' entries. -/
def centred (x : FVec Ideal ⟨2, ![M, 128]⟩ .f32)
    (hr : (⟨2, ![M, 128]⟩ : Shape).Reduces [1] (⟨1, ![M]⟩ : Shape)) (hφ : FKind.Formats .f32)
    (hacc : (0x00000000#32 : BitVec 32) = FKind.add.neutral .f32 hφ)
    (hc : (⟨1, ![M]⟩ : Shape).ShapeCasts ⟨2, ![M, 1]⟩)
    (hb : (⟨2, ![M, 1]⟩ : Shape).Broadcasts ⟨2, ![M, 128]⟩) : FVec Ideal ⟨2, ![M, 128]⟩ .f32 :=
  subf x (broadcastTo ⟨2, ![M, 128]⟩ (rowMean x hr hφ hacc hc) hb)

/-- The deviations scaled by `rsqrt(variance + ε)`, the variance the row mean of the squared deviations. -/
def normalized (x : FVec Ideal ⟨2, ![M, 128]⟩ .f32)
    (hr : (⟨2, ![M, 128]⟩ : Shape).Reduces [1] (⟨1, ![M]⟩ : Shape)) (hφ : FKind.Formats .f32)
    (hacc : (0x00000000#32 : BitVec 32) = FKind.add.neutral .f32 hφ)
    (hc : (⟨1, ![M]⟩ : Shape).ShapeCasts ⟨2, ![M, 1]⟩)
    (hb : (⟨2, ![M, 1]⟩ : Shape).Broadcasts ⟨2, ![M, 128]⟩) : FVec Ideal ⟨2, ![M, 128]⟩ .f32 :=
  mulf (centred x hr hφ hacc hc hb)
    (broadcastTo ⟨2, ![M, 128]⟩
      (rsqrt (addf (rowMean (mulf (centred x hr hφ hacc hc hb) (centred x hr hφ hacc hc hb)) hr hφ hacc hc)
        (broadcast ⟨2, ![M, 1]⟩ (Scalar.ofBits (F := Ideal) .f32 0x3727C5AC#32)))) hb)

section
variable (x : FVec Ideal ⟨2, ![M, 128]⟩ .f32)
  (hr : (⟨2, ![M, 128]⟩ : Shape).Reduces [1] (⟨1, ![M]⟩ : Shape)) (hφ : FKind.Formats .f32)
  (hacc : (0x00000000#32 : BitVec 32) = FKind.add.neutral .f32 hφ)
  (hc : (⟨1, ![M]⟩ : Shape).ShapeCasts ⟨2, ![M, 1]⟩)
  (hb : (⟨2, ![M, 1]⟩ : Shape).Broadcasts ⟨2, ![M, 128]⟩)

/-- The column of means at row `p`: the mean of the `p`-th row. -/
theorem rowMean_apply (p : Fin M) (xr : Fin 128 → EReal) (hx : ∀ k, x (ix2 p k) = xr k) :
    rowMean x hr hφ hacc hc (ix2 p 0) = Cert.Spec.mean xr := by
  unfold rowMean Cert.Spec.mean
  rw [divf_apply, Cert.Rows.cast_col, Cert.LibMatrixReduce.rowSum_apply, broadcast_apply]
  exact congrArg (fun s => Ideal.div s (Ideal.ofBits .f32 0x43000000#32)) (Finset.sum_congr rfl fun k _ => hx k)

/-- The deviations at `(p, c)`. -/
theorem centred_apply (hM : M ≠ 1) (p : Fin M) (c : Fin 128) (xr : Fin 128 → EReal) (hx : ∀ k, x (ix2 p k) = xr k) :
    centred x hr hφ hacc hc hb (ix2 p c) = xr c - Cert.Spec.mean xr := by
  unfold centred
  rw [subf_apply, Cert.Rows.bcast_col hM, rowMean_apply x hr hφ hacc hc p xr hx, hx c]

/-- The scaled deviations at `(p, c)`: `(x_p c − μ) · rsqrt(σ² + ε)`. -/
theorem normalized_apply (hM : M ≠ 1) (p : Fin M) (c : Fin 128) (xr : Fin 128 → EReal) (hx : ∀ k, x (ix2 p k) = xr k) :
    normalized x hr hφ hacc hc hb (ix2 p c) = scaled xr c := by
  unfold normalized scaled
  rw [mulf_apply, centred_apply x hr hφ hacc hc hb hM p c xr hx, Cert.Rows.bcast_col hM]
  refine congrArg (fun t => (xr c - Cert.Spec.mean xr) * t) ?_
  show Ideal.rsqrt (rowMean (mulf (centred x hr hφ hacc hc hb) (centred x hr hφ hacc hc hb)) hr hφ hacc hc (ix2 p 0)
      + Ideal.ofBits .f32 0x3727C5AC#32) = _
  rw [rowMean_apply _ hr hφ hacc hc p (fun k => (xr k - Cert.Spec.mean xr) * (xr k - Cert.Spec.mean xr))
    (fun k => by rw [mulf_apply, centred_apply x hr hφ hacc hc hb hM p k xr hx])]

/-- The whole GroupNorm at `(p, c)`: the scaled deviations times a weight row broadcast down the rows, plus a bias
    row likewise, is `gnorm` of the `p`-th row. -/
theorem affine_apply (hM : M ≠ 1) (w b : FVec Ideal ⟨2, ![1, 128]⟩ .f32)
    (hbr : (⟨2, ![1, 128]⟩ : Shape).Broadcasts ⟨2, ![M, 128]⟩)
    (p : Fin M) (c : Fin 128) (xr wr br : Fin 128 → EReal) (hx : ∀ k, x (ix2 p k) = xr k)
    (hw : ∀ k, w (ix2 0 k) = wr k) (hbv : ∀ k, b (ix2 0 k) = br k) :
    addf (mulf (normalized x hr hφ hacc hc hb) (broadcastTo ⟨2, ![M, 128]⟩ w hbr)) (broadcastTo ⟨2, ![M, 128]⟩ b hbr) (ix2 p c)
      = Cert.Spec.gnorm xr wr br c := by
  rw [addf_apply, mulf_apply, normalized_apply x hr hφ hacc hc hb hM p c xr hx,
    Cert.Rows.bcast_row (show (128 : ℕ) ≠ 1 by decide), Cert.Rows.bcast_row (show (128 : ℕ) ≠ 1 by decide), hw c, hbv c]
  rfl

end

end Cert.KGroupNorm

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.EdgeBody.lean ====
/-
  The edge kernel's block body, read down to the specification.

  On a block of 2048 edges the body computes, row by row, the edge's message: the distance branch
  `relu(GN(relu(Δ·W₁ᵀ + b₁)·W₂ᵀ))` of the centre difference, the query branch `relu(GN(a_h·Wqᵀ))` of the target's
  features, the three rows `[d | q | a_w]` side by side, and the context branch `relu(GN([d | q | a_w]·Wc₁ᵀ))·Wc₂ᵀ`.
  Each weight block holds the transpose of its parameter matrix, so a product of a row with a block is the sum over
  the input channel of the row's entry times the parameter at (output channel, input channel).  A change to the
  narrow float format is the identity on exact values, a recast to the same shape is the identity, and the body's
  one whole-block store leaves its payload; so the output block at `(p, q)` is `Cert.Spec.edgeMsg` of row `p`'s
  data at channel `q`.  Only the definitions of the operations are used: no law of the extended reals.
-/
import proofs.«121864_j48515950576209_1_alg».proof.Proof.Gen.KernelIdeal.Frame
import proofs.«121864_j48515950576209_1_alg».proof.Proof.Spec
import proofs.«121864_j48515950576209_1_alg».proof.Proof.KGroupNorm
import proofs.«121864_j48515950576209_1_alg».proof.Proof.LibPlainMatmul

noncomputable section

open Idealize.ShloMosaic Idealize.ShloMosaic.ValueIdx
open Cert.KernelIdeal Cert.KernelIdeal.Gen

namespace Cert.KBody

/-- The zero offset of a whole-block rectangle. -/
theorem hz : (![0, 0] : Fin 2 → Nat) = fun _ => 0 := funext fun a => by fin_cases a <;> rfl

/-! ## The operations the body is made of, each read at a coordinate -/

/-- A block changed to the narrow format (the identity on exact values) times a weight block recast to its own
    shape, accumulated into the zero block: at `(a, b)` the sum over the contracted axis. -/
theorem mm_apply {M K N : Nat} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![M, K]⟩ .f32) (ht : FTy.bf16.bits < FTy.f32.bits) (r : FVec Ideal ⟨2, ![K, N]⟩ .bf16)
    (hc : (⟨2, ![K, N]⟩ : Shape).ShapeCasts ⟨2, ![K, N]⟩) (a : Fin M) (b : Fin N) :
    matmul D none (truncf .bf16 l ht) (shapeCast ⟨2, ![K, N]⟩ r hc) (constant (F := Ideal) ⟨2, ![M, N]⟩ .f32 0x00000000#32)
        (ix2 a b)
      = ∑ k : Fin K, l (ix2 a k) * r (ix2 k b) := by
  rw [shapeCast_self]
  exact Cert.LibPlainMatmul.matmul_zero_apply D hlc hrc hln hrn hlb hrb none (truncf .bf16 l ht) r a b

theorem mm2_apply (l : FVec Ideal S2048x2 .f32) (ht : FTy.bf16.bits < FTy.f32.bits) (r : FVec Ideal S2x128 .bf16)
    (hc : S2x128.ShapeCasts S2x128) (a : Fin 2048) (b : Fin 128) :
    matmul dot_S2048x2_S2x128_S2048x128_1_0_0_1_n_n none (truncf .bf16 l ht) (shapeCast S2x128 r hc)
        (constant (F := Ideal) S2048x128 .f32 0x00000000#32) (ix2 a b)
      = ∑ k : Fin 2, l (ix2 a k) * r (ix2 k b) :=
  mm_apply dot_S2048x2_S2x128_S2048x128_1_0_0_1_n_n rfl rfl rfl rfl rfl rfl l ht r hc a b

theorem mm128_apply (l : FVec Ideal S2048x128 .f32) (ht : FTy.bf16.bits < FTy.f32.bits) (r : FVec Ideal S128x128 .bf16)
    (hc : S128x128.ShapeCasts S128x128) (a : Fin 2048) (b : Fin 128) :
    matmul dot_S2048x128_S128x128_S2048x128_1_0_0_1_n_n none (truncf .bf16 l ht) (shapeCast S128x128 r hc)
        (constant (F := Ideal) S2048x128 .f32 0x00000000#32) (ix2 a b)
      = ∑ k : Fin 128, l (ix2 a k) * r (ix2 k b) :=
  mm_apply dot_S2048x128_S128x128_S2048x128_1_0_0_1_n_n rfl rfl rfl rfl rfl rfl l ht r hc a b

theorem mm384_apply (l : FVec Ideal S2048x384 .f32) (ht : FTy.bf16.bits < FTy.f32.bits) (r : FVec Ideal S384x128 .bf16)
    (hc : S384x128.ShapeCasts S384x128) (a : Fin 2048) (b : Fin 128) :
    matmul dot_S2048x384_S384x128_S2048x128_1_0_0_1_n_n none (truncf .bf16 l ht) (shapeCast S384x128 r hc)
        (constant (F := Ideal) S2048x128 .f32 0x00000000#32) (ix2 a b)
      = ∑ k : Fin 384, l (ix2 a k) * r (ix2 k b) :=
  mm_apply dot_S2048x384_S384x128_S2048x128_1_0_0_1_n_n rfl rfl rfl rfl rfl rfl l ht r hc a b

/-- The maximum with the zero splat is the rectifier. -/
theorem relu_apply {s : Shape} (v : FVec Ideal s .f32) (i : s.Idx) :
    maximumf v (broadcast s (Scalar.ofBits (F := Ideal) .f32 0x00000000#32)) i = Cert.Spec.relu (v i) := rfl

/-- A `[1, 128]` row recast to its own shape and repeated down the rows, at `(p, c)`. -/
theorem rowcast_apply (w : FVec Ideal S1x128 .f32) (hc : S1x128.ShapeCasts S1x128) (hb : S1x128.Broadcasts S2048x128)
    (p : Fin 2048) (c : Fin 128) : broadcastTo S2048x128 (shapeCast S1x128 w hc) hb (ix2 p c) = w (ix2 0 c) := by
  rw [Cert.Rows.bcast_row (show (128 : ℕ) ≠ 1 by decide), shapeCast_self]

/-- Three `[2048, 128]` blocks side by side along the columns, at `(p, i)`: the block the column falls in, at the
    column less the widths before it. -/
theorem cat_apply (a b c : FVec Ideal S2048x128 .f32)
    (h : Shape.Concatenates [S2048x128, S2048x128, S2048x128] S2048x384 1) (p : Fin 2048) (i : Fin 384)
    (d q w : Fin 128 → EReal) (ha : ∀ k, a (ix2 p k) = d k) (hb : ∀ k, b (ix2 p k) = q k) (hc : ∀ k, c (ix2 p k) = w k) :
    concatenate S2048x384 1 [⟨S2048x128, a⟩, ⟨S2048x128, b⟩, ⟨S2048x128, c⟩] h (ix2 p i) = Cert.Spec.cat3 d q w i := by
  unfold Cert.Spec.cat3
  by_cases h1 : i.val < 128
  · rw [dif_pos h1]
    exact (concatenate_apply_piece (t := S2048x384) (1 : Fin 2) [⟨S2048x128, a⟩, ⟨S2048x128, b⟩, ⟨S2048x128, c⟩] h (ix2 p i) 0
      (by show 0 < 3; omega) S2048x128 a rfl rfl 0 rfl (ix2 p ⟨i.val, h1⟩)
      (fun e he => by match e with
        | ⟨0, _⟩ => rfl
        | ⟨1, _⟩ => exact absurd rfl he) (by show 0 + i.val = i.val; omega)).trans (ha _)
  · rw [dif_neg h1]
    by_cases h2 : i.val < 256
    · rw [dif_pos h2]
      exact (concatenate_apply_piece (t := S2048x384) (1 : Fin 2) [⟨S2048x128, a⟩, ⟨S2048x128, b⟩, ⟨S2048x128, c⟩] h (ix2 p i) 1
        (by show 1 < 3; omega) S2048x128 b rfl rfl 128 rfl
        (ix2 p ⟨i.val - 128, by omega⟩)
        (fun e he => by match e with
          | ⟨0, _⟩ => rfl
          | ⟨1, _⟩ => exact absurd rfl he) (by show 128 + (i.val - 128) = i.val; omega)).trans (hb _)
    · rw [dif_neg h2]
      exact (concatenate_apply_piece (t := S2048x384) (1 : Fin 2) [⟨S2048x128, a⟩, ⟨S2048x128, b⟩, ⟨S2048x128, c⟩] h (ix2 p i) 2
        (by show 2 < 3; omega) S2048x128 c rfl rfl 256 rfl
        (ix2 p ⟨i.val - 256, by have := i.isLt; omega⟩)
        (fun e he => by match e with
          | ⟨0, _⟩ => rfl
          | ⟨1, _⟩ => exact absurd rfl he) (by show 256 + (i.val - 256) = i.val; omega)).trans (hc _)

/-! ## The branches before their GroupNorm, as rows -/

/-- The distance branch before its GroupNorm: `relu(Δ·W₁ᵀ + b₁)·W₂ᵀ`. -/
def distPre (P : Cert.Spec.Params) (ch cw : Fin 2 → EReal) : Fin 128 → EReal :=
  fun j' => ∑ k, Cert.Spec.relu ((∑ i, (ch i - cw i) * P.dw1 k i) + P.db1 k) * P.dw2 j' k

/-- The query branch before its GroupNorm: `a_h·Wqᵀ`. -/
def queryPre (P : Cert.Spec.Params) (ah : Fin 128 → EReal) : Fin 128 → EReal := fun j' => ∑ k, ah k * P.qw j' k

/-- The context branch before its GroupNorm: `[d | q | a_w]·Wc₁ᵀ`. -/
def ctxPre (P : Cert.Spec.Params) (ch cw : Fin 2 → EReal) (ah aw : Fin 128 → EReal) : Fin 128 → EReal :=
  fun j' => ∑ i, Cert.Spec.cat3 (Cert.Spec.distFeat P ch cw) (Cert.Spec.queryFeat P ah) aw i * P.cw1 j' i

/-! ## Region 0: the payloads of `cc0__edge_mlp_kernel` -/

/-- The bias row of the distance branch's GroupNorm, recast to its own shape. -/
theorem pay2_0 (x7 : Vec Ideal S1x128 .f32) : k0_pay2 (F := Ideal) x7 = x7 := by
  unfold k0_pay2
  exact shapeCast_self _ _

/-- The weight row of the distance branch's GroupNorm, repeated down the rows. -/
theorem pay4_0 (x6 : Vec Ideal S1x128 .f32) (p : Fin 2048) (c : Fin 128) :
    k0_pay4 (F := Ideal) x6 (ix2 p c) = x6 (ix2 0 c) := by
  unfold k0_pay4
  exact rowcast_apply _ _ _ p c

/-- The distance branch down to its scaled deviation: `relu(Δ·W₁ᵀ + b₁)·W₂ᵀ`, centred and scaled along the row. -/
theorem pay3_0 (x0 : Vec Ideal S2048x2 .f32) (x3 : Vec Ideal S2x128 .bf16) (x4 : Vec Ideal S1x128 .f32)
    (x5 : Vec Ideal S128x128 .bf16) (P : Cert.Spec.Params) (p : Fin 2048) (j : Fin 128) (ch cw : Fin 2 → EReal)
    (h0 : ∀ i : Fin 2, x0 (ix2 p i) = ch i - cw i)
    (h3 : ∀ (j : Fin 128) (i : Fin 2), x3 (ix2 i j) = P.dw1 j i) (h4 : ∀ j : Fin 128, x4 (ix2 0 j) = P.db1 j)
    (h5 : ∀ j k : Fin 128, x5 (ix2 k j) = P.dw2 j k) :
    k0_pay3 (F := Ideal) x0 x3 x4 x5 (ix2 p j) = Cert.KGroupNorm.scaled (distPre P ch cw) j := by
  unfold k0_pay3
  refine Cert.KGroupNorm.normalized_apply (M := 2048) _ _ _ _ _ _ (by decide) p j (distPre P ch cw) fun k => ?_
  refine (mm128_apply _ _ _ _ p k).trans ?_
  refine Finset.sum_congr rfl fun k' _ => ?_
  rw [relu_apply, addf_apply, rowcast_apply, h4 k', h5 k k']
  refine congrArg (fun t => Cert.Spec.relu (t + P.db1 k') * P.dw2 k k') ?_
  refine (mm2_apply _ _ _ _ p k').trans ?_
  refine Finset.sum_congr rfl fun i _ => ?_
  rw [shapeCast_self, h0 i, h3 k' i]

/-- The three branches side by side: the concatenated block at `(p, i)`. -/
theorem pay5_0 (v19 : FVec Ideal S1x128 .f32) (v37 v38 : FVec Ideal S2048x128 .f32) (x1 : Vec Ideal S2048x128 .f32)
    (x8 : Vec Ideal S128x128 .bf16) (x9 x10 : Vec Ideal S1x128 .f32) (x2 : Vec Ideal S2048x128 .f32)
    (P : Cert.Spec.Params) (p : Fin 2048) (i : Fin 384) (ch cw : Fin 2 → EReal) (ah aw : Fin 128 → EReal)
    (h19 : ∀ j : Fin 128, v19 (ix2 0 j) = P.dgb j)
    (h37 : ∀ j : Fin 128, v37 (ix2 p j) = Cert.KGroupNorm.scaled (distPre P ch cw) j)
    (h38 : ∀ j : Fin 128, v38 (ix2 p j) = P.dgw j)
    (h1 : ∀ k : Fin 128, x1 (ix2 p k) = ah k) (h2 : ∀ k : Fin 128, x2 (ix2 p k) = aw k)
    (h8 : ∀ j k : Fin 128, x8 (ix2 k j) = P.qw j k) (h9 : ∀ j, x9 (ix2 0 j) = P.qgw j) (h10 : ∀ j, x10 (ix2 0 j) = P.qgb j) :
    k0_pay5 (F := Ideal) v19 v37 v38 x1 x8 x9 x10 x2 (ix2 p i)
      = Cert.Spec.cat3 (Cert.Spec.distFeat P ch cw) (Cert.Spec.queryFeat P ah) aw i := by
  unfold k0_pay5
  refine cat_apply _ _ _ _ p i _ _ _ (fun k => ?_) (fun k => ?_) (fun k => ?_)
  · rw [relu_apply, addf_apply, mulf_apply, h37 k, h38 k, Cert.Rows.bcast_row (show (128 : ℕ) ≠ 1 by decide), h19 k]
    rfl
  · rw [relu_apply]
    refine congrArg Cert.Spec.relu ?_
    refine Cert.KGroupNorm.affine_apply (M := 2048) _ _ _ _ _ _ (by decide) _ _ _ p k (queryPre P ah) P.qgw P.qgb
      (fun j' => ?_) (fun j' => by rw [shapeCast_self, h9 j']) (fun j' => by rw [shapeCast_self, h10 j'])
    refine (mm128_apply _ _ _ _ p j').trans ?_
    refine Finset.sum_congr rfl fun k' _ => ?_
    rw [shapeCast_self, h1 k', h8 j' k']
  · rw [shapeCast_self, h2 k]

/-- The context branch: the concatenated block through `Wc₁ᵀ`, GroupNorm, the rectifier and `Wc₂ᵀ`. -/
theorem pay1_0 (v80 : FVec Ideal S2048x384 .f32) (x11 : Vec Ideal S384x128 .bf16) (x12 x13 : Vec Ideal S1x128 .f32)
    (x14 : Vec Ideal S128x128 .bf16) (P : Cert.Spec.Params) (p : Fin 2048) (q : Fin 128) (ch cw : Fin 2 → EReal)
    (ah aw : Fin 128 → EReal)
    (h80 : ∀ i : Fin 384, v80 (ix2 p i) = Cert.Spec.cat3 (Cert.Spec.distFeat P ch cw) (Cert.Spec.queryFeat P ah) aw i)
    (h11 : ∀ (j : Fin 128) (i : Fin 384), x11 (ix2 i j) = P.cw1 j i) (h12 : ∀ j, x12 (ix2 0 j) = P.cgw j)
    (h13 : ∀ j, x13 (ix2 0 j) = P.cgb j) (h14 : ∀ j k : Fin 128, x14 (ix2 k j) = P.cw2 j k) :
    k0_pay1 (F := Ideal) v80 x11 x12 x13 x14 (ix2 p q) = Cert.Spec.edgeMsg P ch cw ah aw q := by
  unfold k0_pay1
  refine (mm128_apply _ _ _ _ p q).trans ?_
  refine Finset.sum_congr rfl fun k _ => ?_
  rw [relu_apply, h14 q k]
  refine congrArg (fun t => Cert.Spec.relu t * P.cw2 q k) ?_
  refine Cert.KGroupNorm.affine_apply (M := 2048) _ _ _ _ _ _ (by decide) _ _ _ p k (ctxPre P ch cw ah aw) P.cgw P.cgb
    (fun j' => ?_) (fun j' => by rw [shapeCast_self, h12 j']) (fun j' => by rw [shapeCast_self, h13 j'])
  refine (mm384_apply _ _ _ _ p j').trans ?_
  refine Finset.sum_congr rfl fun i _ => ?_
  rw [h80 i, h11 j' i]

/-- **Region 0's output block at `(p, q)` is the edge's message**: the block the body leaves, from blocks that hold
    the edge's centre difference, its two feature rows and the parameters, is `edgeMsg` of them. -/
theorem edge0_apply (x0 : Vec Ideal S2048x2 .f32) (x1 x2 : Vec Ideal S2048x128 .f32) (x3 : Vec Ideal S2x128 .bf16)
    (x4 : Vec Ideal S1x128 .f32) (x5 : Vec Ideal S128x128 .bf16) (x6 x7 : Vec Ideal S1x128 .f32)
    (x8 : Vec Ideal S128x128 .bf16) (x9 x10 : Vec Ideal S1x128 .f32) (x11 : Vec Ideal S384x128 .bf16)
    (x12 x13 : Vec Ideal S1x128 .f32) (x14 : Vec Ideal S128x128 .bf16)
    (P : Cert.Spec.Params) (p : Fin 2048) (q : Fin 128) (ch cw : Fin 2 → EReal) (ah aw : Fin 128 → EReal)
    (h0 : ∀ i : Fin 2, x0 (ix2 p i) = ch i - cw i) (h1 : ∀ k : Fin 128, x1 (ix2 p k) = ah k)
    (h2 : ∀ k : Fin 128, x2 (ix2 p k) = aw k)
    (h3 : ∀ (j : Fin 128) (i : Fin 2), x3 (ix2 i j) = P.dw1 j i) (h4 : ∀ j : Fin 128, x4 (ix2 0 j) = P.db1 j)
    (h5 : ∀ j k : Fin 128, x5 (ix2 k j) = P.dw2 j k) (h6 : ∀ j, x6 (ix2 0 j) = P.dgw j) (h7 : ∀ j, x7 (ix2 0 j) = P.dgb j)
    (h8 : ∀ j k : Fin 128, x8 (ix2 k j) = P.qw j k) (h9 : ∀ j, x9 (ix2 0 j) = P.qgw j) (h10 : ∀ j, x10 (ix2 0 j) = P.qgb j)
    (h11 : ∀ (j : Fin 128) (i : Fin 384), x11 (ix2 i j) = P.cw1 j i) (h12 : ∀ j, x12 (ix2 0 j) = P.cgw j)
    (h13 : ∀ j, x13 (ix2 0 j) = P.cgb j) (h14 : ∀ j k : Fin 128, x14 (ix2 k j) = P.cw2 j k) :
    out0_15 (F := Ideal) x0 x1 x2 x3 x4 x5 x6 x7 x8 x9 x10 x11 x12 x13 x14 (ix2 p q)
      = Cert.Spec.edgeMsg P ch cw ah aw q := by
  unfold out0_15
  rw [View.canon_unit_zero hz]
  simp only [View.ld_unit_zero (S := S2048x2) hz, View.ld_unit_zero (S := S2x128) hz, View.ld_unit_zero (S := S1x128) hz,
    View.ld_unit_zero (S := S128x128) hz, View.ld_unit_zero (S := S2048x128) hz, View.ld_unit_zero (S := S384x128) hz]
  exact pay1_0 _ x11 x12 x13 x14 P p q ch cw ah aw
    (fun i => pay5_0 _ _ _ x1 x8 x9 x10 x2 P p i ch cw ah aw
      (fun j => by rw [pay2_0]; exact h7 j)
      (fun j => pay3_0 x0 x3 x4 x5 P p j ch cw h0 h3 h4 h5)
      (fun j => by rw [pay4_0]; exact h6 j)
      h1 h2 h8 h9 h10)
    h11 h12 h13 h14

/-! ## Region 2: the payloads of `cc2__edge_mlp_kernel` -/

/-- The bias row of the distance branch's GroupNorm, recast to its own shape. -/
theorem pay2_2 (x7 : Vec Ideal S1x128 .f32) : k2_pay2 (F := Ideal) x7 = x7 := by
  unfold k2_pay2
  exact shapeCast_self _ _

/-- The weight row of the distance branch's GroupNorm, repeated down the rows. -/
theorem pay4_2 (x6 : Vec Ideal S1x128 .f32) (p : Fin 2048) (c : Fin 128) :
    k2_pay4 (F := Ideal) x6 (ix2 p c) = x6 (ix2 0 c) := by
  unfold k2_pay4
  exact rowcast_apply _ _ _ p c

/-- The distance branch down to its scaled deviation: `relu(Δ·W₁ᵀ + b₁)·W₂ᵀ`, centred and scaled along the row. -/
theorem pay3_2 (x0 : Vec Ideal S2048x2 .f32) (x3 : Vec Ideal S2x128 .bf16) (x4 : Vec Ideal S1x128 .f32)
    (x5 : Vec Ideal S128x128 .bf16) (P : Cert.Spec.Params) (p : Fin 2048) (j : Fin 128) (ch cw : Fin 2 → EReal)
    (h0 : ∀ i : Fin 2, x0 (ix2 p i) = ch i - cw i)
    (h3 : ∀ (j : Fin 128) (i : Fin 2), x3 (ix2 i j) = P.dw1 j i) (h4 : ∀ j : Fin 128, x4 (ix2 0 j) = P.db1 j)
    (h5 : ∀ j k : Fin 128, x5 (ix2 k j) = P.dw2 j k) :
    k2_pay3 (F := Ideal) x0 x3 x4 x5 (ix2 p j) = Cert.KGroupNorm.scaled (distPre P ch cw) j := by
  unfold k2_pay3
  refine Cert.KGroupNorm.normalized_apply (M := 2048) _ _ _ _ _ _ (by decide) p j (distPre P ch cw) fun k => ?_
  refine (mm128_apply _ _ _ _ p k).trans ?_
  refine Finset.sum_congr rfl fun k' _ => ?_
  rw [relu_apply, addf_apply, rowcast_apply, h4 k', h5 k k']
  refine congrArg (fun t => Cert.Spec.relu (t + P.db1 k') * P.dw2 k k') ?_
  refine (mm2_apply _ _ _ _ p k').trans ?_
  refine Finset.sum_congr rfl fun i _ => ?_
  rw [shapeCast_self, h0 i, h3 k' i]

/-- The three branches side by side: the concatenated block at `(p, i)`. -/
theorem pay5_2 (v19 : FVec Ideal S1x128 .f32) (v37 v38 : FVec Ideal S2048x128 .f32) (x1 : Vec Ideal S2048x128 .f32)
    (x8 : Vec Ideal S128x128 .bf16) (x9 x10 : Vec Ideal S1x128 .f32) (x2 : Vec Ideal S2048x128 .f32)
    (P : Cert.Spec.Params) (p : Fin 2048) (i : Fin 384) (ch cw : Fin 2 → EReal) (ah aw : Fin 128 → EReal)
    (h19 : ∀ j : Fin 128, v19 (ix2 0 j) = P.dgb j)
    (h37 : ∀ j : Fin 128, v37 (ix2 p j) = Cert.KGroupNorm.scaled (distPre P ch cw) j)
    (h38 : ∀ j : Fin 128, v38 (ix2 p j) = P.dgw j)
    (h1 : ∀ k : Fin 128, x1 (ix2 p k) = ah k) (h2 : ∀ k : Fin 128, x2 (ix2 p k) = aw k)
    (h8 : ∀ j k : Fin 128, x8 (ix2 k j) = P.qw j k) (h9 : ∀ j, x9 (ix2 0 j) = P.qgw j) (h10 : ∀ j, x10 (ix2 0 j) = P.qgb j) :
    k2_pay5 (F := Ideal) v19 v37 v38 x1 x8 x9 x10 x2 (ix2 p i)
      = Cert.Spec.cat3 (Cert.Spec.distFeat P ch cw) (Cert.Spec.queryFeat P ah) aw i := by
  unfold k2_pay5
  refine cat_apply _ _ _ _ p i _ _ _ (fun k => ?_) (fun k => ?_) (fun k => ?_)
  · rw [relu_apply, addf_apply, mulf_apply, h37 k, h38 k, Cert.Rows.bcast_row (show (128 : ℕ) ≠ 1 by decide), h19 k]
    rfl
  · rw [relu_apply]
    refine congrArg Cert.Spec.relu ?_
    refine Cert.KGroupNorm.affine_apply (M := 2048) _ _ _ _ _ _ (by decide) _ _ _ p k (queryPre P ah) P.qgw P.qgb
      (fun j' => ?_) (fun j' => by rw [shapeCast_self, h9 j']) (fun j' => by rw [shapeCast_self, h10 j'])
    refine (mm128_apply _ _ _ _ p j').trans ?_
    refine Finset.sum_congr rfl fun k' _ => ?_
    rw [shapeCast_self, h1 k', h8 j' k']
  · rw [shapeCast_self, h2 k]

/-- The context branch: the concatenated block through `Wc₁ᵀ`, GroupNorm, the rectifier and `Wc₂ᵀ`. -/
theorem pay1_2 (v80 : FVec Ideal S2048x384 .f32) (x11 : Vec Ideal S384x128 .bf16) (x12 x13 : Vec Ideal S1x128 .f32)
    (x14 : Vec Ideal S128x128 .bf16) (P : Cert.Spec.Params) (p : Fin 2048) (q : Fin 128) (ch cw : Fin 2 → EReal)
    (ah aw : Fin 128 → EReal)
    (h80 : ∀ i : Fin 384, v80 (ix2 p i) = Cert.Spec.cat3 (Cert.Spec.distFeat P ch cw) (Cert.Spec.queryFeat P ah) aw i)
    (h11 : ∀ (j : Fin 128) (i : Fin 384), x11 (ix2 i j) = P.cw1 j i) (h12 : ∀ j, x12 (ix2 0 j) = P.cgw j)
    (h13 : ∀ j, x13 (ix2 0 j) = P.cgb j) (h14 : ∀ j k : Fin 128, x14 (ix2 k j) = P.cw2 j k) :
    k2_pay1 (F := Ideal) v80 x11 x12 x13 x14 (ix2 p q) = Cert.Spec.edgeMsg P ch cw ah aw q := by
  unfold k2_pay1
  refine (mm128_apply _ _ _ _ p q).trans ?_
  refine Finset.sum_congr rfl fun k _ => ?_
  rw [relu_apply, h14 q k]
  refine congrArg (fun t => Cert.Spec.relu t * P.cw2 q k) ?_
  refine Cert.KGroupNorm.affine_apply (M := 2048) _ _ _ _ _ _ (by decide) _ _ _ p k (ctxPre P ch cw ah aw) P.cgw P.cgb
    (fun j' => ?_) (fun j' => by rw [shapeCast_self, h12 j']) (fun j' => by rw [shapeCast_self, h13 j'])
  refine (mm384_apply _ _ _ _ p j').trans ?_
  refine Finset.sum_congr rfl fun i _ => ?_
  rw [h80 i, h11 j' i]

/-- **Region 2's output block at `(p, q)` is the edge's message**: the block the body leaves, from blocks that hold
    the edge's centre difference, its two feature rows and the parameters, is `edgeMsg` of them. -/
theorem edge2_apply (x0 : Vec Ideal S2048x2 .f32) (x1 x2 : Vec Ideal S2048x128 .f32) (x3 : Vec Ideal S2x128 .bf16)
    (x4 : Vec Ideal S1x128 .f32) (x5 : Vec Ideal S128x128 .bf16) (x6 x7 : Vec Ideal S1x128 .f32)
    (x8 : Vec Ideal S128x128 .bf16) (x9 x10 : Vec Ideal S1x128 .f32) (x11 : Vec Ideal S384x128 .bf16)
    (x12 x13 : Vec Ideal S1x128 .f32) (x14 : Vec Ideal S128x128 .bf16)
    (P : Cert.Spec.Params) (p : Fin 2048) (q : Fin 128) (ch cw : Fin 2 → EReal) (ah aw : Fin 128 → EReal)
    (h0 : ∀ i : Fin 2, x0 (ix2 p i) = ch i - cw i) (h1 : ∀ k : Fin 128, x1 (ix2 p k) = ah k)
    (h2 : ∀ k : Fin 128, x2 (ix2 p k) = aw k)
    (h3 : ∀ (j : Fin 128) (i : Fin 2), x3 (ix2 i j) = P.dw1 j i) (h4 : ∀ j : Fin 128, x4 (ix2 0 j) = P.db1 j)
    (h5 : ∀ j k : Fin 128, x5 (ix2 k j) = P.dw2 j k) (h6 : ∀ j, x6 (ix2 0 j) = P.dgw j) (h7 : ∀ j, x7 (ix2 0 j) = P.dgb j)
    (h8 : ∀ j k : Fin 128, x8 (ix2 k j) = P.qw j k) (h9 : ∀ j, x9 (ix2 0 j) = P.qgw j) (h10 : ∀ j, x10 (ix2 0 j) = P.qgb j)
    (h11 : ∀ (j : Fin 128) (i : Fin 384), x11 (ix2 i j) = P.cw1 j i) (h12 : ∀ j, x12 (ix2 0 j) = P.cgw j)
    (h13 : ∀ j, x13 (ix2 0 j) = P.cgb j) (h14 : ∀ j k : Fin 128, x14 (ix2 k j) = P.cw2 j k) :
    out2_15 (F := Ideal) x0 x1 x2 x3 x4 x5 x6 x7 x8 x9 x10 x11 x12 x13 x14 (ix2 p q)
      = Cert.Spec.edgeMsg P ch cw ah aw q := by
  unfold out2_15
  rw [View.canon_unit_zero hz]
  simp only [View.ld_unit_zero (S := S2048x2) hz, View.ld_unit_zero (S := S2x128) hz, View.ld_unit_zero (S := S1x128) hz,
    View.ld_unit_zero (S := S128x128) hz, View.ld_unit_zero (S := S2048x128) hz, View.ld_unit_zero (S := S384x128) hz]
  exact pay1_2 _ x11 x12 x13 x14 P p q ch cw ah aw
    (fun i => pay5_2 _ _ _ x1 x8 x9 x10 x2 P p i ch cw ah aw
      (fun j => by rw [pay2_2]; exact h7 j)
      (fun j => pay3_2 x0 x3 x4 x5 P p j ch cw h0 h3 h4 h5)
      (fun j => by rw [pay4_2]; exact h6 j)
      h1 h2 h8 h9 h10)
    h11 h12 h13 h14

end Cert.KBody

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«121864_j48515950576209_1_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.LibHostReads.lean ====
/-
  Host array operations read at coordinates, over the extended reals — general facts, for any extents.

  * The accumulating scatters `[E, C] → [N, C]` and `[E] → [N]` along an index column `[E, 1]`, and the row gather
    `[N, C] → [E, C]`, stated for ANY dimension-number record that equals the row / vector one (so a printed record
    is passed with `rfl`): the host operation `Host.scatterAdd` / `Host.gather` itself, not the instance's field.
  * The `broadcast_in_dim` forms of a kept axis: `[m] → [m, 1]` at `(p, 0)`, `[m, 1] → [m, n]` at `(p, q)`,
    `[n] → [1, n]` at `(0, q)`, `[1, n] → [m, n]` at `(p, q)`.
  * The host's maximum and sum along the rows of a matrix (`stablehlo.reduce` over axis 1 with a scalar initial
    value), read at a row: the maximum folded from the initial value, the initial value plus the row's sum — from
    the `ReducesTo` fact alone.
  * Contents carried to a typed reference's buffer type and back (the casts an outlined function's operations
    put around their values cancel in pairs, with no evaluation of the buffer's type).
-/
import proofs.«121864_j48515950576209_1_alg».proof.Proof.LibSegmentRows
import proofs.«121864_j48515950576209_1_alg».proof.Proof.LibRowMax
import Idealize.ShloMosaic.PureOps.Reduce
import Idealize.ShloMosaic.Lib.Pipeline.Value
import Idealize.ShloMosaic.Lib.StableHlo.Run

noncomputable section

open Idealize.ShloMosaic Idealize.ShloMosaic.ValueIdx Cert.SegmentRows

namespace Cert.LibHostReads

variable {N E K C : ℕ}

/-- A host accumulating row scatter with the row dimension numbers, read at `(r, c)`. -/
theorem hostScatter_rows_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatterDims N E C wf)
    (x : (⟨2, ![N, C]⟩ : Shape).Idx → EReal) (idx : IVec ⟨2, ![E, 1]⟩ 32) (upd : (⟨2, ![E, C]⟩ : Shape).Idx → EReal) (r : Fin N) (c : Fin C) :
    Host.scatterAdd (F := Ideal) (φ := .f32) d x idx upd (ix2 r c) = x (ix2 r c) + ∑ e ∈ segment idx r, upd (ix2 e c) := by
  subst hd
  exact scatterAdd_rows_apply wf x idx upd r c

/-- A host accumulating vector scatter with the vector dimension numbers, read at `r`. -/
theorem hostScatter_vec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : (⟨1, ![N]⟩ : Shape).Idx → EReal) (idx : IVec ⟨2, ![E, 1]⟩ 32) (upd : (⟨1, ![E]⟩ : Shape).Idx → EReal) (r : Fin N) :
    Host.scatterAdd (F := Ideal) (φ := .f32) d x idx upd (ix1 r) = x (ix1 r) + ∑ e ∈ segment idx r, upd (ix1 e) := by
  subst hd
  exact scatterAdd_vec_apply wf x idx upd r

/-- A host row gather with the row dimension numbers, read at `(e, c)`. -/
theorem hostGather_rows_apply {α : Type} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGatherDims N E C wf)
    (x : (⟨2, ![N, C]⟩ : Shape).Idx → α) (idx : IVec ⟨2, ![E, 1]⟩ 32) (e : Fin E) (c : Fin C) :
    Host.gather d x idx (ix2 e c) = x (ix2 (takeRow hN idx e) c) := by
  subst hd
  exact gather_rows_apply hN wf x idx e c

/-! ## Kept axes, the `broadcast_in_dim` forms -/

variable {α : Type} {m n : ℕ}

/-- `[m] → [m, 1]` read at `(p, 0)`. -/
theorem colInner_apply (u : (⟨1, ![m]⟩ : Shape).Idx → α) (h : (⟨1, ![m]⟩ : Shape).BroadcastsInDim ⟨2, ![m, 1]⟩ ![0]) (p : Fin m) :
    broadcastInDim ⟨2, ![m, 1]⟩ ![0] h u (ix2 p 0) = u (ix1 p) :=
  broadcastInDim_apply ![0] h u (ix2 p 0) (ix1 p) fun a => by
    match a with
    | ⟨0, _⟩ =>
      show p.val = if m = 1 then 0 else p.val
      split_ifs with h1
      · have := p.isLt; omega
      · rfl

/-- `[m, 1] → [m, n]` read at `(p, q)`. -/
theorem colOuter_apply (w : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h w (ix2 p q) = w (ix2 p 0) :=
  broadcastInDim_apply ![0, 1] h w (ix2 p q) (ix2 p 0) fun a => by
    match a with
    | ⟨0, _⟩ =>
      show p.val = if m = 1 then 0 else p.val
      split_ifs with h1
      · have := p.isLt; omega
      · rfl
    | ⟨1, _⟩ => rfl

/-- `[n] → [1, n]` read at `(0, q)`. -/
theorem rowInner_apply (u : (⟨1, ![n]⟩ : Shape).Idx → α) (h : (⟨1, ![n]⟩ : Shape).BroadcastsInDim ⟨2, ![1, n]⟩ ![1]) (q : Fin n) :
    broadcastInDim ⟨2, ![1, n]⟩ ![1] h u (ix2 0 q) = u (ix1 q) :=
  broadcastInDim_apply ![1] h u (ix2 0 q) (ix1 q) fun a => by
    match a with
    | ⟨0, _⟩ =>
      show q.val = if n = 1 then 0 else q.val
      split_ifs with h1
      · have := q.isLt; omega
      · rfl

/-- `[1, n] → [m, n]` read at `(p, q)`. -/
theorem rowOuter_apply (w : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h w (ix2 p q) = w (ix2 0 q) :=
  broadcastInDim_apply ![0, 1] h w (ix2 p q) (ix2 0 q) fun a => by
    match a with
    | ⟨0, _⟩ => rfl
    | ⟨1, _⟩ =>
      show q.val = if n = 1 then 0 else q.val
      split_ifs with h1
      · have := q.isLt; omega
      · rfl

/-! ## Row reductions on the host -/

/-- The host's maximum along the rows at `p`: the maximum folded over the row from the initial value. -/
theorem hostRowMax_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduce (FloatOps.maximumf (F := Ideal) (φ := .f32)) v init h' hu (ix1 p)
      = (Finset.univ : Finset (Fin n)).fold max (init (Shape.Idx.first hu)) (fun c => v (ix2 p c)) := by
  have h : (⟨2, ![m, n]⟩ : Shape).Reduces [1] (⟨1, ![m]⟩ : Shape) := by
    obtain ⟨hr, hs⟩ := h'
    exact ⟨hr, Nat.one_pos, hs⟩
  rw [Host.reduce_eq_fold_single _ v init h' h hu (ix1 p), Cert.LibRowMax.comp_lift_row v h p]
  rfl

/-- The host's sum along the rows at `p`: the initial value plus the sum over the row. -/
theorem hostRowSum_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduceAdd (F := Ideal) (φ := .f32) v init h' hu (ix1 p) = init (Shape.Idx.first hu) + ∑ c : Fin n, v (ix2 p c) := by
  have h : (⟨2, ![m, n]⟩ : Shape).Reduces [1] (⟨1, ![m]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.Rows.lift_row h p k)

/-! ## Typed references -/

open Idealize.ShloMosaic.StableHlo in
/-- Contents at a value's type carried to its buffer's type and back. -/
theorem ofBuf_toBuf {sig : RefSig} {Val : EltTy → Type} {T : BufTy} (y : TRef sig T) (v : T.Contents Val) :
    y.ofBuf (y.toBuf v) = v := by
  obtain ⟨r, e, h1, h2⟩ := y
  subst e
  rfl

end Cert.LibHostReads

end
-- ==== Proof.KHostEdge.lean ====
/-
  The host operations in front of an edge region, read at coordinates: the pure part.

  The edge list is padded to 167936 entries by appending 550 copies of one word to each index vector; the gathers
  read, for entry `e`, the row of the node array that the entry's word names once normalised (a negative word
  counts from the end) and clamped; the parameter blocks are one slice of a stacked array, the weight matrices
  transposed and changed to the narrow format (the identity on exact values).
-/
import proofs.«121864_j48515950576209_1_alg».proof.Proof.Gen.KernelIdeal.Launch
import proofs.«121864_j48515950576209_1_alg».proof.Proof.Spec
import proofs.«121864_j48515950576209_1_alg».proof.Proof.Pad
import proofs.«121864_j48515950576209_1_alg».proof.Proof.LibHostReads
import Idealize.ShloMosaic.Lib.IdealHost
import Idealize.ShloMosaic.Lib.WordArith

noncomputable section

namespace Cert.KHostEdge

open Idealize.ShloMosaic Idealize.ShloMosaic.ValueIdx Cert.KernelIdeal Cert.KernelIdeal.Gen

/-! ## Index words -/

/-- The printed normalisation of a signed index at one entry, `select (v < 0) (v + N) v`, is `Cert.Spec.nrm N v`. -/
theorem nrm_word (N b : BitVec 32) :
    Scalar.select (IntOp.cmpi .slt b 0#32) (IntOp.addi b N) b = Cert.Spec.nrm N b := by
  have h : (BitVec.ofBool (b.slt 0#32) = 1) ↔ b.toInt < 0 := by
    rw [Idealize.ShloMosaic.WordArith.ofBool_eq_numeral_one_iff]
    simp [BitVec.slt]
  show (if BitVec.ofBool (b.slt 0#32) = 1 then b + N else b) = if b.toInt < 0 then b + N else b
  by_cases hb : b.toInt < 0
  · rw [if_pos (h.mpr hb), if_pos hb]
  · rw [if_neg (fun c => hb (h.mp c)), if_neg hb]

/-- The normalised index vector, kept as a column, at entry `e`. -/
theorem nrmCol_read (N : BitVec 32) (v : IVec S167936 32) (e : Fin 167936) :
    broadcastInDim S167936x1 ![0] bcast_S167936_S167936x1_0
        (select (cmpi .slt v (broadcastInDim S167936 ![] bcast_S_S167936 (constantI S_ 32 0#32)))
          (addi v (broadcastInDim S167936 ![] bcast_S_S167936 (constantI S_ 32 N))) v) (ix2 e 0)
      = Cert.Spec.nrm N (v (ix1 e)) := by
  rw [Cert.LibHostReads.colInner_apply]
  exact nrm_word N (v (ix1 e))

/-- An index vector with 550 copies of the word `pad` appended, at entry `e`. -/
theorem padcat_read (pad : BitVec 32) (idx : IVec S167386 32) (e : Fin 167936) :
    concatenate S167936 0 [⟨S167386, idx⟩, ⟨S550, broadcastInDim S550 ![] bcast_S_S550 (constantI S_ 32 pad)⟩]
        concatenates_S167386_S550_S167936_d0 (ix1 e)
      = Cert.Spec.padded pad idx e := by
  by_cases h : e.val < 167386
  · rw [Cert.Spec.padded_lt _ _ _ h]
    exact concatenate_pair_apply_left (t := S167936) (s₁ := S167386) (s₂ := S550) 0 idx _
      concatenates_S167386_S550_S167936_d0 (ix1 e) rfl (ix1 ⟨e.val, h⟩) (fun b => by match b with | ⟨0, _⟩ => rfl)
  · rw [Cert.Spec.padded_ge _ _ _ h]
    rw [concatenate_pair_apply_right (t := S167936) (s₁ := S167386) (s₂ := S550) 0 idx _
      concatenates_S167386_S550_S167936_d0 (ix1 e) rfl rfl (ix1 ⟨e.val - 167386, by have := e.isLt; omega⟩)
      (fun b hb => by match b with | ⟨0, _⟩ => exact absurd rfl hb)
      (by show e.val - 167386 + 167386 = e.val; omega)]
    rw [broadcastInDim_scalar_apply]
    rfl

/-! ## Gathered rows -/

/-- The row a gather along the normalised column reads for entry `e`. -/
theorem takeRow_nrmCol (v : IVec S167936 32) (e : Fin 167936) :
    Cert.SegmentRows.takeRow (N := 4096) (by decide)
        (broadcastInDim S167936x1 ![0] bcast_S167936_S167936x1_0
          (select (cmpi .slt v (broadcastInDim S167936 ![] bcast_S_S167936 (constantI S_ 32 0#32)))
            (addi v (broadcastInDim S167936 ![] bcast_S_S167936 (constantI S_ 32 4096#32))) v)) e
      = Cert.Spec.rowOf (v (ix1 e)) := by
  apply Fin.ext
  exact congrArg (fun b : BitVec 32 => min b.toInt.toNat 4095) (nrmCol_read 4096#32 v e)

/-- The centres gathered along the normalised column, at `(e, i)`. -/
theorem gather2_read (x : FVec Ideal S4096x2 .f32) (v : IVec S167936 32) (e : Fin 167936) (i : Fin 2) :
    Host.gather gather_S4096x2_S167936x1_S167936x2_1_0_n_n_0_1_12 x
        (broadcastInDim S167936x1 ![0] bcast_S167936_S167936x1_0
          (select (cmpi .slt v (broadcastInDim S167936 ![] bcast_S_S167936 (constantI S_ 32 0#32)))
            (addi v (broadcastInDim S167936 ![] bcast_S_S167936 (constantI S_ 32 4096#32))) v)) (ix2 e i)
      = x (ix2 (Cert.Spec.rowOf (v (ix1 e))) i) := by
  rw [Cert.LibHostReads.hostGather_rows_apply (by decide : 0 < 4096) gather_S4096x2_S167936x1_S167936x2_1_0_n_n_0_1_12
    gather_S4096x2_S167936x1_S167936x2_1_0_n_n_0_1_12_wf rfl, takeRow_nrmCol]

/-- The features gathered along the normalised column, at `(e, k)`. -/
theorem gather128_read (x : FVec Ideal S4096x128 .f32) (v : IVec S167936 32) (e : Fin 167936) (k : Fin 128) :
    Host.gather gather_S4096x128_S167936x1_S167936x128_1_0_n_n_0_1_1128 x
        (broadcastInDim S167936x1 ![0] bcast_S167936_S167936x1_0
          (select (cmpi .slt v (broadcastInDim S167936 ![] bcast_S_S167936 (constantI S_ 32 0#32)))
            (addi v (broadcastInDim S167936 ![] bcast_S_S167936 (constantI S_ 32 4096#32))) v)) (ix2 e k)
      = x (ix2 (Cert.Spec.rowOf (v (ix1 e))) k) := by
  rw [Cert.LibHostReads.hostGather_rows_apply (by decide : 0 < 4096) gather_S4096x128_S167936x1_S167936x128_1_0_n_n_0_1_1128
    gather_S4096x128_S167936x1_S167936x128_1_0_n_n_0_1_1128_wf rfl, takeRow_nrmCol]

/-! ## The parameter blocks -/

/-- Slice `i` of a stack of two 128 × 2 matrices, transposed: at `(k, j)` the stack's `(i, j, k)`. -/
theorem w2T_read (i : Fin 2) (off : Fin 3 → Nat) (ho : off = ![i.val, 0, 0]) (h : S2x128x2.Slices off S1x128x2)
    (x : FVec Ideal S2x128x2 .f32) (k : Fin 2) (j : Fin 128) :
    truncf .bf16 (transpose S2x128 [1, 0]
        (fun a => shapeCast S128x2 (extractStridedSlice S1x128x2 off x h) shapeCasts_S1x128x2_S128x2 a)
        transposes_S128x2_S2x128_1_0) bitsLt_bf16_f32 (ix2 k j) = x (ix3 i j k) := by
  subst ho
  rw [truncf_apply, transpose_apply [1, 0] _ transposes_S128x2_S2x128_1_0 (ix2 k j) (ix2 j k)
    (fun b => by match b with | ⟨0, _⟩ => rfl | ⟨1, _⟩ => rfl)]
  show shapeCast S128x2 _ shapeCasts_S1x128x2_S128x2 (ix2 j k) = _
  rw [shapeCast_apply _ shapeCasts_S1x128x2_S128x2 (ix2 j k) (ix3 (0 : Fin 1) j k)
    (by rw [Shape.rowMajor_val_three, Shape.rowMajor_val_two]
        show (0 * 128 + j.val) * 2 + k.val = j.val * 2 + k.val; omega)]
  exact extractStridedSlice_apply _ x h (ix3 (0 : Fin 1) j k) (ix3 i j k)
    (fun a => by match a with
      | ⟨0, _⟩ => show i.val = i.val + 0; omega
      | ⟨1, _⟩ => show j.val = 0 + j.val; omega
      | ⟨2, _⟩ => show k.val = 0 + k.val; omega)

/-- Slice `i` of a stack of two 128 × 128 matrices, transposed: at `(k, j)` the stack's `(i, j, k)`. -/
theorem w128T_read (i : Fin 2) (off : Fin 3 → Nat) (ho : off = ![i.val, 0, 0]) (h : S2x128x128.Slices off S1x128x128)
    (x : FVec Ideal S2x128x128 .f32) (k j : Fin 128) :
    truncf .bf16 (transpose S128x128 [1, 0]
        (fun a => shapeCast S128x128 (extractStridedSlice S1x128x128 off x h) shapeCasts_S1x128x128_S128x128 a)
        transposes_S128x128_S128x128_1_0) bitsLt_bf16_f32 (ix2 k j) = x (ix3 i j k) := by
  subst ho
  rw [truncf_apply, transpose_apply [1, 0] _ transposes_S128x128_S128x128_1_0 (ix2 k j) (ix2 j k)
    (fun b => by match b with | ⟨0, _⟩ => rfl | ⟨1, _⟩ => rfl)]
  show shapeCast S128x128 _ shapeCasts_S1x128x128_S128x128 (ix2 j k) = _
  rw [shapeCast_apply _ shapeCasts_S1x128x128_S128x128 (ix2 j k) (ix3 (0 : Fin 1) j k)
    (by rw [Shape.rowMajor_val_three, Shape.rowMajor_val_two]
        show (0 * 128 + j.val) * 128 + k.val = j.val * 128 + k.val; omega)]
  exact extractStridedSlice_apply _ x h (ix3 (0 : Fin 1) j k) (ix3 i j k)
    (fun a => by match a with
      | ⟨0, _⟩ => show i.val = i.val + 0; omega
      | ⟨1, _⟩ => show j.val = 0 + j.val; omega
      | ⟨2, _⟩ => show k.val = 0 + k.val; omega)

/-- Slice `i` of a stack of two 128 × 384 matrices, transposed: at `(k, j)` the stack's `(i, j, k)`. -/
theorem w384T_read (i : Fin 2) (off : Fin 3 → Nat) (ho : off = ![i.val, 0, 0]) (h : S2x128x384.Slices off S1x128x384)
    (x : FVec Ideal S2x128x384 .f32) (k : Fin 384) (j : Fin 128) :
    truncf .bf16 (transpose S384x128 [1, 0]
        (fun a => shapeCast S128x384 (extractStridedSlice S1x128x384 off x h) shapeCasts_S1x128x384_S128x384 a)
        transposes_S128x384_S384x128_1_0) bitsLt_bf16_f32 (ix2 k j) = x (ix3 i j k) := by
  subst ho
  rw [truncf_apply, transpose_apply [1, 0] _ transposes_S128x384_S384x128_1_0 (ix2 k j) (ix2 j k)
    (fun b => by match b with | ⟨0, _⟩ => rfl | ⟨1, _⟩ => rfl)]
  show shapeCast S128x384 _ shapeCasts_S1x128x384_S128x384 (ix2 j k) = _
  rw [shapeCast_apply _ shapeCasts_S1x128x384_S128x384 (ix2 j k) (ix3 (0 : Fin 1) j k)
    (by rw [Shape.rowMajor_val_three, Shape.rowMajor_val_two]
        show (0 * 128 + j.val) * 384 + k.val = j.val * 384 + k.val; omega)]
  exact extractStridedSlice_apply _ x h (ix3 (0 : Fin 1) j k) (ix3 i j k)
    (fun a => by match a with
      | ⟨0, _⟩ => show i.val = i.val + 0; omega
      | ⟨1, _⟩ => show j.val = 0 + j.val; omega
      | ⟨2, _⟩ => show k.val = 0 + k.val; omega)

/-- Row `i` of a stack of two rows of 128, made a vector and then a row again: at `(0, j)` the stack's `(i, j)`. -/
theorem row_read (i : Fin 2) (off : Fin 2 → Nat) (ho : off = ![i.val, 0]) (h : S2x128.Slices off S1x128)
    (x : FVec Ideal S2x128 .f32) (j : Fin 128) :
    shapeCast S1x128 (fun a => shapeCast S128 (extractStridedSlice S1x128 off x h) shapeCasts_S1x128_S128 a)
        shapeCasts_S128_S1x128 (ix2 0 j) = x (ix2 i j) := by
  subst ho
  rw [shapeCast_apply _ shapeCasts_S128_S1x128 (ix2 (0 : Fin 1) j) (ix1 j)
    (by rw [Shape.rowMajor_val_one, Shape.rowMajor_val_two]; show j.val = 0 * 128 + j.val; omega)]
  show shapeCast S128 _ shapeCasts_S1x128_S128 (ix1 j) = _
  rw [shapeCast_apply _ shapeCasts_S1x128_S128 (ix1 j) (ix2 (0 : Fin 1) j)
    (by rw [Shape.rowMajor_val_two, Shape.rowMajor_val_one]; show 0 * 128 + j.val = j.val; omega)]
  exact extractStridedSlice_apply _ x h (ix2 (0 : Fin 1) j) (ix2 i j)
    (fun a => by match a with
      | ⟨0, _⟩ => show i.val = i.val + 0; omega
      | ⟨1, _⟩ => show j.val = 0 + j.val; omega)

end Cert.KHostEdge

end
-- ==== Proof.KHost0.lean ====
/-
  The host operations in front of the first edge region, read at coordinates.

  They pad the two index vectors with 550 entries (the word 0, and for the scatter's copy of the target indices
  the word 4096), gather each padded entry's two centres and two feature rows along the normalised, clamped
  index, subtract the centres, and cut the edge network's twelve parameter blocks out of the stacked parameter
  arrays (slice 0; the weight matrices transposed).  Every statement is for an arbitrary assignment `W` of
  contents to the buffers before these operations.
-/
import proofs.«121864_j48515950576209_1_alg».proof.Proof.KHostEdge
import Idealize.ShloMosaic.Lib.StableHlo.Run

set_option maxRecDepth 8000

noncomputable section

namespace Cert.KHost

open Idealize.ShloMosaic Idealize.ShloMosaic.ValueIdx Idealize.ShloMosaic.StableHlo Cert.KernelIdeal Cert.KernelIdeal.Gen

/-- The results of operations left unevaluated inside a concatenation's list of pieces, one rewrite at a time. -/
macro "after_residue0" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

/-! ## The padded index vectors -/

theorem v1_apply (W : Valuation τ sig (Elt Ideal)) (idx : IVec S167386 32)
    (hidx : W (Proc.devRef .tc main_arg2) = idx) (e : Fin 167936) :
    (StableHlo.after (hostOps0 (F := Ideal)) W (Proc.devRef .tc main_v1) : S167936.Idx → BitVec 32) (ix1 e)
      = Cert.Spec.padded 0#32 idx e := by
  subst hidx
  simp only [hostOps0]
  after_results_simp
  after_residue0
  exact Cert.KHostEdge.padcat_read 0#32 _ e

theorem v3_apply (W : Valuation τ sig (Elt Ideal)) (idx : IVec S167386 32)
    (hidx : W (Proc.devRef .tc main_arg3) = idx) (e : Fin 167936) :
    (StableHlo.after (hostOps0 (F := Ideal)) W (Proc.devRef .tc main_v3) : S167936.Idx → BitVec 32) (ix1 e)
      = Cert.Spec.padded 0#32 idx e := by
  subst hidx
  simp only [hostOps0]
  after_results_simp
  after_residue0
  exact Cert.KHostEdge.padcat_read 0#32 _ e

theorem v5_apply (W : Valuation τ sig (Elt Ideal)) (idx : IVec S167386 32)
    (hidx : W (Proc.devRef .tc main_arg2) = idx) (e : Fin 167936) :
    (StableHlo.after (hostOps0 (F := Ideal)) W (Proc.devRef .tc main_v5) : S167936.Idx → BitVec 32) (ix1 e)
      = Cert.Spec.padded 4096#32 idx e := by
  subst hidx
  simp only [hostOps0]
  after_results_simp
  after_residue0
  exact Cert.KHostEdge.padcat_read 4096#32 _ e

/-! ## The gathered rows -/

/-- The difference of the two centres of padded entry `e`. -/
theorem v20_apply (W : Valuation τ sig (Elt Ideal)) (ctrs : FVec Ideal S4096x2 .f32) (hi wi : IVec S167386 32)
    (h1 : W (Proc.devRef .tc main_arg1) = ctrs) (h2 : W (Proc.devRef .tc main_arg2) = hi)
    (h3 : W (Proc.devRef .tc main_arg3) = wi) (e : Fin 167936) (i : Fin 2) :
    (StableHlo.after (hostOps0 (F := Ideal)) W (Proc.devRef .tc main_v20) : S167936x2.Idx → EReal) (ix2 e i)
      = ctrs (ix2 (Cert.Spec.rowOf (Cert.Spec.padded 0#32 hi e)) i)
        - ctrs (ix2 (Cert.Spec.rowOf (Cert.Spec.padded 0#32 wi e)) i) := by
  subst h1 h2 h3
  simp only [hostOps0]
  after_results_simp
  after_residue0
  rw [subf_apply, Cert.KHostEdge.gather2_read, Cert.KHostEdge.gather2_read, Cert.KHostEdge.padcat_read,
    Cert.KHostEdge.padcat_read]

/-- The target node's features of padded entry `e`. -/
theorem v27_apply (W : Valuation τ sig (Elt Ideal)) (a : FVec Ideal S4096x128 .f32) (idx : IVec S167386 32)
    (h0 : W (Proc.devRef .tc main_arg0) = a) (hidx : W (Proc.devRef .tc main_arg2) = idx) (e : Fin 167936) (k : Fin 128) :
    (StableHlo.after (hostOps0 (F := Ideal)) W (Proc.devRef .tc main_v27) : S167936x128.Idx → EReal) (ix2 e k)
      = a (ix2 (Cert.Spec.rowOf (Cert.Spec.padded 0#32 idx e)) k) := by
  subst h0 hidx
  simp only [hostOps0]
  after_results_simp
  after_residue0
  rw [Cert.KHostEdge.gather128_read, Cert.KHostEdge.padcat_read]

/-- The source node's features of padded entry `e`. -/
theorem v34_apply (W : Valuation τ sig (Elt Ideal)) (a : FVec Ideal S4096x128 .f32) (idx : IVec S167386 32)
    (h0 : W (Proc.devRef .tc main_arg0) = a) (hidx : W (Proc.devRef .tc main_arg3) = idx) (e : Fin 167936) (k : Fin 128) :
    (StableHlo.after (hostOps0 (F := Ideal)) W (Proc.devRef .tc main_v34) : S167936x128.Idx → EReal) (ix2 e k)
      = a (ix2 (Cert.Spec.rowOf (Cert.Spec.padded 0#32 idx e)) k) := by
  subst h0 hidx
  simp only [hostOps0]
  after_results_simp
  after_residue0
  rw [Cert.KHostEdge.gather128_read, Cert.KHostEdge.padcat_read]

/-! ## The parameter blocks (slice 0 of the stacked arrays) -/

theorem v38_apply (W : Valuation τ sig (Elt Ideal)) (x : FVec Ideal S2x128x2 .f32)
    (hx : W (Proc.devRef .tc main_arg4) = x) (k : Fin 2) (j : Fin 128) :
    (StableHlo.after (hostOps0 (F := Ideal)) W (Proc.devRef .tc main_v38) : S2x128.Idx → EReal) (ix2 k j)
      = x (ix3 0 j k) := by
  subst hx
  simp only [hostOps0]
  after_results_simp
  exact Cert.KHostEdge.w2T_read 0 _ rfl _ _ k j

theorem v41_apply (W : Valuation τ sig (Elt Ideal)) (x : FVec Ideal S2x128 .f32)
    (hx : W (Proc.devRef .tc main_arg5) = x) (j : Fin 128) :
    (StableHlo.after (hostOps0 (F := Ideal)) W (Proc.devRef .tc main_v41) : S1x128.Idx → EReal) (ix2 0 j)
      = x (ix2 0 j) := by
  subst hx
  simp only [hostOps0]
  after_results_simp
  exact Cert.KHostEdge.row_read 0 _ rfl _ _ j

theorem v45_apply (W : Valuation τ sig (Elt Ideal)) (x : FVec Ideal S2x128x128 .f32)
    (hx : W (Proc.devRef .tc main_arg6) = x) (k : Fin 128) (j : Fin 128) :
    (StableHlo.after (hostOps0 (F := Ideal)) W (Proc.devRef .tc main_v45) : S128x128.Idx → EReal) (ix2 k j)
      = x (ix3 0 j k) := by
  subst hx
  simp only [hostOps0]
  after_results_simp
  exact Cert.KHostEdge.w128T_read 0 _ rfl _ _ k j

theorem v48_apply (W : Valuation τ sig (Elt Ideal)) (x : FVec Ideal S2x128 .f32)
    (hx : W (Proc.devRef .tc main_arg7) = x) (j : Fin 128) :
    (StableHlo.after (hostOps0 (F := Ideal)) W (Proc.devRef .tc main_v48) : S1x128.Idx → EReal) (ix2 0 j)
      = x (ix2 0 j) := by
  subst hx
  simp only [hostOps0]
  after_results_simp
  exact Cert.KHostEdge.row_read 0 _ rfl _ _ j

theorem v51_apply (W : Valuation τ sig (Elt Ideal)) (x : FVec Ideal S2x128 .f32)
    (hx : W (Proc.devRef .tc main_arg8) = x) (j : Fin 128) :
    (StableHlo.after (hostOps0 (F := Ideal)) W (Proc.devRef .tc main_v51) : S1x128.Idx → EReal) (ix2 0 j)
      = x (ix2 0 j) := by
  subst hx
  simp only [hostOps0]
  after_results_simp
  exact Cert.KHostEdge.row_read 0 _ rfl _ _ j

theorem v55_apply (W : Valuation τ sig (Elt Ideal)) (x : FVec Ideal S2x128x128 .f32)
    (hx : W (Proc.devRef .tc main_arg9) = x) (k : Fin 128) (j : Fin 128) :
    (StableHlo.after (hostOps0 (F := Ideal)) W (Proc.devRef .tc main_v55) : S128x128.Idx → EReal) (ix2 k j)
      = x (ix3 0 j k) := by
  subst hx
  simp only [hostOps0]
  after_results_simp
  exact Cert.KHostEdge.w128T_read 0 _ rfl _ _ k j

theorem v58_apply (W : Valuation τ sig (Elt Ideal)) (x : FVec Ideal S2x128 .f32)
    (hx : W (Proc.devRef .tc main_arg10) = x) (j : Fin 128) :
    (StableHlo.after (hostOps0 (F := Ideal)) W (Proc.devRef .tc main_v58) : S1x128.Idx → EReal) (ix2 0 j)
      = x (ix2 0 j) := by
  subst hx
  simp only [hostOps0]
  after_results_simp
  exact Cert.KHostEdge.row_read 0 _ rfl _ _ j

theorem v61_apply (W : Valuation τ sig (Elt Ideal)) (x : FVec Ideal S2x128 .f32)
    (hx : W (Proc.devRef .tc main_arg11) = x) (j : Fin 128) :
    (StableHlo.after (hostOps0 (F := Ideal)) W (Proc.devRef .tc main_v61) : S1x128.Idx → EReal) (ix2 0 j)
      = x (ix2 0 j) := by
  subst hx
  simp only [hostOps0]
  after_results_simp
  exact Cert.KHostEdge.row_read 0 _ rfl _ _ j

theorem v65_apply (W : Valuation τ sig (Elt Ideal)) (x : FVec Ideal S2x128x384 .f32)
    (hx : W (Proc.devRef .tc main_arg12) = x) (k : Fin 384) (j : Fin 128) :
    (StableHlo.after (hostOps0 (F := Ideal)) W (Proc.devRef .tc main_v65) : S384x128.Idx → EReal) (ix2 k j)
      = x (ix3 0 j k) := by
  subst hx
  simp only [hostOps0]
  after_results_simp
  exact Cert.KHostEdge.w384T_read 0 _ rfl _ _ k j

theorem v68_apply (W : Valuation τ sig (Elt Ideal)) (x : FVec Ideal S2x128 .f32)
    (hx : W (Proc.devRef .tc main_arg13) = x) (j : Fin 128) :
    (StableHlo.after (hostOps0 (F := Ideal)) W (Proc.devRef .tc main_v68) : S1x128.Idx → EReal) (ix2 0 j)
      = x (ix2 0 j) := by
  subst hx
  simp only [hostOps0]
  after_results_simp
  exact Cert.KHostEdge.row_read 0 _ rfl _ _ j

theorem v71_apply (W : Valuation τ sig (Elt Ideal)) (x : FVec Ideal S2x128 .f32)
    (hx : W (Proc.devRef .tc main_arg14) = x) (j : Fin 128) :
    (StableHlo.after (hostOps0 (F := Ideal)) W (Proc.devRef .tc main_v71) : S1x128.Idx → EReal) (ix2 0 j)
      = x (ix2 0 j) := by
  subst hx
  simp only [hostOps0]
  after_results_simp
  exact Cert.KHostEdge.row_read 0 _ rfl _ _ j

theorem v75_apply (W : Valuation τ sig (Elt Ideal)) (x : FVec Ideal S2x128x128 .f32)
    (hx : W (Proc.devRef .tc main_arg15) = x) (k : Fin 128) (j : Fin 128) :
    (StableHlo.after (hostOps0 (F := Ideal)) W (Proc.devRef .tc main_v75) : S128x128.Idx → EReal) (ix2 k j)
      = x (ix3 0 j k) := by
  subst hx
  simp only [hostOps0]
  after_results_simp
  exact Cert.KHostEdge.w128T_read 0 _ rfl _ _ k j

end Cert.KHost

end
-- ==== Proof.KBlock0a.lean ====
/-
  Block 0 of the idealized kernel, the edge half: the first host stretch pads the two index vectors with zeros, gathers the centres and the actors along them and lays out the parameters; the edge region then leaves, at row `e` of the message array, the message of the padded list's entry `e`.
-/
import proofs.«121864_j48515950576209_1_alg».proof.Proof.KArgs
import proofs.«121864_j48515950576209_1_alg».proof.Proof.Pad
import proofs.«121864_j48515950576209_1_alg».proof.Proof.Reg0
import proofs.«121864_j48515950576209_1_alg».proof.Proof.EdgeBody
import proofs.«121864_j48515950576209_1_alg».proof.Proof.KHost0

set_option maxRecDepth 16384
set_option maxHeartbeats 4000000

noncomputable section

namespace Cert.KernelIdeal.KValue

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-- BLOCK 0, THE EDGE HALF: the message array after region 0, at `(e, q)`. -/
theorem block0_msg (c : Dev nD) (e : Fin 167936) (q : Fin 128) :
    (W2 m ρ c (Proc.devRef .tc main_v76) : S167936x128.Idx → EReal) (ix2 e q)
      = edgeMsg (PB m 0 c) (ctrRows m c (rowOf (padded 0#32 (aHi m c) e))) (ctrRows m c (rowOf (padded 0#32 (aWi m c) e)))
          ((fun r k => aActors m c (ix2 r k)) (rowOf (padded 0#32 (aHi m c) e)))
          ((fun r k => aActors m c (ix2 r k)) (rowOf (padded 0#32 (aWi m c) e))) q := by
  refine (congrFun (W2_arr m ρ c 15) (ix2 e q)).trans ?_
  exact Cert.KernelIdeal.Reg0.out_apply (V1 m ρ) Cert.KBody.edge0_apply c (PB m 0 c)
    (fun e => ctrRows m c (rowOf (padded 0#32 (aHi m c) e))) (fun e => ctrRows m c (rowOf (padded 0#32 (aWi m c) e)))
    (fun e k => aActors m c (ix2 (rowOf (padded 0#32 (aHi m c) e)) k)) (fun e k => aActors m c (ix2 (rowOf (padded 0#32 (aWi m c) e)) k))
    (fun e i => Cert.KHost.v20_apply (W0 m ρ c) _ _ _ rfl rfl rfl e i)
    (fun e k => Cert.KHost.v27_apply (W0 m ρ c) _ _ rfl rfl e k)
    (fun e k => Cert.KHost.v34_apply (W0 m ρ c) _ _ rfl rfl e k)
    (fun j i => Cert.KHost.v38_apply (W0 m ρ c) _ rfl i j)
    (fun j => Cert.KHost.v41_apply (W0 m ρ c) _ rfl j)
    (fun j k => Cert.KHost.v45_apply (W0 m ρ c) _ rfl k j)
    (fun j => Cert.KHost.v48_apply (W0 m ρ c) _ rfl j)
    (fun j => Cert.KHost.v51_apply (W0 m ρ c) _ rfl j)
    (fun j k => Cert.KHost.v55_apply (W0 m ρ c) _ rfl k j)
    (fun j => Cert.KHost.v58_apply (W0 m ρ c) _ rfl j)
    (fun j => Cert.KHost.v61_apply (W0 m ρ c) _ rfl j)
    (fun j i => Cert.KHost.v65_apply (W0 m ρ c) _ rfl i j)
    (fun j => Cert.KHost.v68_apply (W0 m ρ c) _ rfl j)
    (fun j => Cert.KHost.v71_apply (W0 m ρ c) _ rfl j)
    (fun j k => Cert.KHost.v75_apply (W0 m ρ c) _ rfl k j)
    e q

/-- The index vector padded with 4096, as the first host stretch leaves it. -/
theorem v5_padded (c : Dev nD) (e : Fin 167936) :
    (W1 m ρ c (Proc.devRef .tc main_v5) : S167936.Idx → BitVec 32) (ix1 e) = padded 4096#32 (aHi m c) e :=
  Cert.KHost.v5_apply (W0 m ρ c) _ rfl e

/-- The two index vectors padded with zeros, as the first host stretch leaves them. -/
theorem v1_padded (c : Dev nD) (e : Fin 167936) :
    (W1 m ρ c (Proc.devRef .tc main_v1) : S167936.Idx → BitVec 32) (ix1 e) = padded 0#32 (aHi m c) e :=
  Cert.KHost.v1_apply (W0 m ρ c) _ rfl e
theorem v3_padded (c : Dev nD) (e : Fin 167936) :
    (W1 m ρ c (Proc.devRef .tc main_v3) : S167936.Idx → BitVec 32) (ix1 e) = padded 0#32 (aWi m c) e :=
  Cert.KHost.v3_apply (W0 m ρ c) _ rfl e

end Cert.KernelIdeal.KValue

end
-- ==== Proof.Bridge.lean ====
/-
  The padded, zero-initialised row sums against the sums over the real edges.

  The kernel scatters the messages of the edge list padded to 167936 entries onto a zero array of 4097 rows, the
  padding entries aimed at the extra row 4096; the reference scatters the 167386 real edges' messages onto 4096
  rows.  A real edge whose index word is not negative is kept by either normalisation (a negative word alone is
  moved, by the axis' extent), so it lands on row `r` in one exactly when it does in the other; a padding entry
  carries the word 4096, which is not negative, is kept, and is no row `r < 4096`.  So the sum over the padded
  entries landing on `r` is the sum over the real edges landing on `r`, and the zero word it starts from adds
  nothing.
-/
import proofs.«121864_j48515950576209_1_alg».proof.Proof.Spec
import proofs.«121864_j48515950576209_1_alg».proof.Proof.Pad
import Idealize.ShloMosaic.PureOps.Ideal.Laws

noncomputable section

namespace Cert.Bridge

open Idealize.ShloMosaic Idealize.ShloMosaic.ValueIdx

/-- A word that is not negative is kept by the normalisation, whatever the extent. -/
theorem nrm_of_nonneg (N b : BitVec 32) (h : 0 ≤ b.toInt) : Cert.Spec.nrm N b = b := by
  unfold Cert.Spec.nrm
  rw [if_neg (not_lt.mpr h)]

/-- The padding word is row 4096. -/
theorem pad_toInt : (4096#32 : BitVec 32).toInt = 4096 := by decide

theorem scatter_bridge (hi : (⟨1, ![167386]⟩ : Shape).Idx → BitVec 32) (hnn : ∀ e : Fin 167386, 0 ≤ (hi (ix1 e)).toInt)
    (f : Fin 167936 → EReal) (r : Fin 4096) :
    Ideal.ofBits .f32 0x00000000#32
        + ∑ e ∈ Finset.univ.filter (fun e : Fin 167936 =>
            (Cert.Spec.nrm 4097#32 (Cert.Spec.padded 4096#32 hi e)).toInt = (r.val : Int)), f e
      = ∑ e ∈ Cert.Spec.landing hi r, f ⟨e.val, by have := e.isLt; omega⟩ := by
  rw [Ideal.ofBits_zero_f32, zero_add]
  symm
  unfold Cert.Spec.landing
  -- a real edge's padded word is its own word, kept by both normalisations
  have real : ∀ (e : Fin 167386) (N : BitVec 32),
      Cert.Spec.nrm N (Cert.Spec.padded 4096#32 hi ⟨e.val, by have := e.isLt; omega⟩) = hi (ix1 e) := fun e N => by
    rw [Cert.Spec.padded_lt _ _ _ (show (⟨e.val, by have := e.isLt; omega⟩ : Fin 167936).val < 167386 from e.isLt)]
    exact nrm_of_nonneg N _ (hnn e)
  refine Finset.sum_bij (fun e _ => (⟨e.val, by have := e.isLt; omega⟩ : Fin 167936)) ?_ ?_ ?_ ?_
  · intro e he
    rw [Finset.mem_filter] at he ⊢
    refine ⟨Finset.mem_univ _, ?_⟩
    rw [real e]
    have h1 := he.2
    rwa [nrm_of_nonneg _ _ (hnn e)] at h1
  · intro a _ b _ hab
    exact Fin.ext (Fin.mk.inj hab)
  · intro b hb
    rw [Finset.mem_filter] at hb
    have hlt : b.val < 167386 := by
      by_contra hge
      have h1 := hb.2
      rw [Cert.Spec.padded_ge _ _ _ hge, nrm_of_nonneg _ _ (by decide), pad_toInt] at h1
      have := r.isLt
      omega
    refine ⟨⟨b.val, hlt⟩, ?_, rfl⟩
    rw [Finset.mem_filter]
    refine ⟨Finset.mem_univ _, ?_⟩
    have h1 := hb.2
    rw [show b = (⟨(⟨b.val, hlt⟩ : Fin 167386).val, by omega⟩ : Fin 167936) from rfl, real ⟨b.val, hlt⟩] at h1
    rw [nrm_of_nonneg _ _ (hnn ⟨b.val, hlt⟩)]
    exact h1
  · intro a _
    rfl

/-- A real edge's row, read through the padded index vector. -/
theorem rowOf_padded_lt (idx : (⟨1, ![167386]⟩ : Shape).Idx → BitVec 32) (e : Fin 167936) (h : e.val < 167386) :
    Cert.Spec.rowOf (Cert.Spec.padded 0#32 idx e) = Cert.Spec.rowAt idx ⟨e.val, h⟩ := by
  rw [Cert.Spec.padded_lt _ _ _ h]
  rfl

end Cert.Bridge

end
-- ==== Proof.BlockEq.lean ====
/-
  One block of the kernel against one block of the specification.

  The kernel computes a message for every entry of the PADDED edge list (a padding entry reads row 0 twice), sums
  them into a zero array of 4097 rows along the index vector padded with 4096 and normalised against 4097, and
  keeps rows 0 … 4095.  When no index is negative the normalisation changes nothing, a padding entry lands on the
  discarded row 4096, and a real edge's padded data are its own: the sum over the padded list at row `r` is the sum
  over the real edges landing on `r`.
-/
import proofs.«121864_j48515950576209_1_alg».proof.Proof.Spec
import proofs.«121864_j48515950576209_1_alg».proof.Proof.Pad
import proofs.«121864_j48515950576209_1_alg».proof.Proof.Bridge

noncomputable section

namespace Cert.BlockEq

open Idealize.ShloMosaic Idealize.ShloMosaic.ValueIdx Cert.Spec

/-- The node update over the kernel's padded, zero-initialised sum is the specification's block. -/
theorem block_eq (P : Params) (ctrs : Fin 4096 → Fin 2 → EReal)
    (hi wi : (⟨1, ![167386]⟩ : Shape).Idx → BitVec 32) (hnn : ∀ e : Fin 167386, 0 ≤ (hi (ix1 e)).toInt)
    (a : Fin 4096 → Fin 128 → EReal) (msg : Fin 167936 → Fin 128 → EReal)
    (hmsg : ∀ (e : Fin 167936) (q : Fin 128), msg e q
      = edgeMsg P (ctrs (rowOf (padded 0#32 hi e))) (ctrs (rowOf (padded 0#32 wi e)))
          (a (rowOf (padded 0#32 hi e))) (a (rowOf (padded 0#32 wi e))) q)
    (S : Fin 4096 → Fin 128 → EReal)
    (hS : ∀ (r : Fin 4096) (q : Fin 128), S r q = Ideal.ofBits .f32 0x00000000#32
      + ∑ e ∈ Finset.univ.filter (fun e : Fin 167936 => (nrm 4097#32 (padded 4096#32 hi e)).toInt = (r.val : Int)), msg e q)
    (r : Fin 4096) (q : Fin 128) :
    nodeUpd P (a r) (fun c => (∑ k, a r k * P.aw c k) + S r c) q
      = attBlock P ctrs (rowAt hi) (rowAt wi) (landing hi) a r q := by
  unfold attBlock
  have hrow : (fun c => (∑ k, a r k * P.aw c k) + S r c)
      = fun c => (∑ k, a r k * P.aw c k)
          + ∑ e ∈ landing hi r, edgeMsg P (ctrs (rowAt hi e)) (ctrs (rowAt wi e)) (a (rowAt hi e)) (a (rowAt wi e)) c := by
    funext c
    rw [hS r c, Cert.Bridge.scatter_bridge hi hnn (fun e => msg e c) r]
    refine congrArg _ (Finset.sum_congr rfl fun e _ => ?_)
    have he : e.val < 167386 := e.isLt
    rw [hmsg, Cert.Bridge.rowOf_padded_lt hi _ he, Cert.Bridge.rowOf_padded_lt wi _ he]
  rw [hrow]

end Cert.BlockEq

end
-- ==== Proof.Reg1.lean ====
/-
  Region 1 of the idealized kernel (the node update over 4 blocks of 1024 nodes), read as one array: grid point `t`
  fetches rows `1024·t … 1024·t + 1023` of the node features and of the summed messages and the whole of each
  parameter array, and writes back rows `1024·t …` of the updated features; the 4 blocks tile the 4096 rows. So the
  feature array after the region, at row `r`, is the body's result on row `r` of the two per-node arrays.
  The body's arithmetic enters as a hypothesis (`BodyStmt`), proved separately.
-/
import proofs.«121864_j48515950576209_1_alg».proof.Proof.Gen.KernelIdeal.Frame
import proofs.«121864_j48515950576209_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

/-- What the body's arithmetic is taken to be: on any blocks whose row `p` holds a node's features `a` and its summed
    messages `s`, and whose parameter blocks hold a block's parameters transposed, the output block at `(p, q)` is the
    node's update at channel `q`, its pre-norm row the linear image of `a` plus `s`. -/
def BodyStmt : Prop :=
  ∀ (x0 x1 : Vec Ideal S1024x128 .f32) (x2 : Vec Ideal S128x128 .bf16) (x3 x4 : Vec Ideal S1x128 .f32)
    (x5 : Vec Ideal S128x128 .bf16) (x6 x7 : Vec Ideal S1x128 .f32)
    (P : Cert.Spec.Params) (p : Fin 1024) (q : Fin 128) (a s : Fin 128 → EReal),
    (∀ k : Fin 128, x0 (ix2 p k) = a k) → (∀ k : Fin 128, x1 (ix2 p k) = s k) →
    (∀ j k : Fin 128, x2 (ix2 k j) = P.aw j k) → (∀ j : Fin 128, x3 (ix2 0 j) = P.nw j) → (∀ j : Fin 128, x4 (ix2 0 j) = P.nb j) →
    (∀ j k : Fin 128, x5 (ix2 k j) = P.lw j k) → (∀ j : Fin 128, x6 (ix2 0 j) = P.lgw j) → (∀ j : Fin 128, x7 (ix2 0 j) = P.lgb j) →
    out1_8 (F := Ideal) x0 x1 x2 x3 x4 x5 x6 x7 (ix2 p q) = Cert.Spec.nodeUpd P a (fun c => (∑ k, a k * P.aw c k) + s c) q

/-- The printed index maps, decided once over the 4 grid points: the per-node windows and the output move down one
    block of rows per point; every parameter window stays at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem t_lt (t : Fin cfg1.N) : t.val < 4 := by have h1 := t.isLt; have h2 : cfg1.N = 4 := N_1; omega

/-- Window 0's block at point `t`, at `(p, i)`, is its array at row `1024·t + p`. -/
theorem iblk_0 (c : Dev nD) (t : Fin cfg1.N) (p : Fin 1024) (i : Fin 128) (k : S4096x128.Idx)
    (hk0 : (k 0).val = 1024 * t.val + p.val) (hk1 : (k 1).val = i.val) :
    (iblk1 V c 0 t : Vec Ideal S1024x128 .f32) (ix2 p i) = (V c (Pipeline.arrRef spec1 0) : S4096x128.Idx → EReal) k := by
  obtain ⟨e0a, e0b, e1a, e1b, e8a, e8b, e2a, e2b, e3a, e3b, e4a, e4b, e5a, e5b, e6a, e6b, e7a, e7b⟩ := idx_facts t
  unfold iblk1
  rw [View.read_apply]
  show (V c (Pipeline.arrRef spec1 0) : S4096x128.Idx → EReal) _ = (V c (Pipeline.arrRef spec1 0) : S4096x128.Idx → EReal) k
  refine congrArg (V c (Pipeline.arrRef spec1 0) : S4096x128.Idx → EReal) (funext fun a => Fin.ext ?_)
  match a with
  | ⟨0, _⟩ => show win1_0.index t 0 * 1024 + 1 * (ix2 p i (0 : Fin 2)).val = (k 0).val; rw [e0a, hk0]; show t.val * 1024 + 1 * p.val = _; omega
  | ⟨1, _⟩ => show win1_0.index t 1 * 128 + 1 * (ix2 p i (1 : Fin 2)).val = (k 1).val; rw [e0b, hk1]; show 0 * 128 + 1 * i.val = _; omega

/-- Window 1's block at point `t`, at `(p, i)`, is its array at row `1024·t + p`. -/
theorem iblk_1 (c : Dev nD) (t : Fin cfg1.N) (p : Fin 1024) (i : Fin 128) (k : S4096x128.Idx)
    (hk0 : (k 0).val = 1024 * t.val + p.val) (hk1 : (k 1).val = i.val) :
    (iblk1 V c 1 t : Vec Ideal S1024x128 .f32) (ix2 p i) = (V c (Pipeline.arrRef spec1 1) : S4096x128.Idx → EReal) k := by
  obtain ⟨e0a, e0b, e1a, e1b, e8a, e8b, e2a, e2b, e3a, e3b, e4a, e4b, e5a, e5b, e6a, e6b, e7a, e7b⟩ := idx_facts t
  unfold iblk1
  rw [View.read_apply]
  show (V c (Pipeline.arrRef spec1 1) : S4096x128.Idx → EReal) _ = (V c (Pipeline.arrRef spec1 1) : S4096x128.Idx → EReal) k
  refine congrArg (V c (Pipeline.arrRef spec1 1) : S4096x128.Idx → EReal) (funext fun a => Fin.ext ?_)
  match a with
  | ⟨0, _⟩ => show win1_1.index t 0 * 1024 + 1 * (ix2 p i (0 : Fin 2)).val = (k 0).val; rw [e1a, hk0]; show t.val * 1024 + 1 * p.val = _; omega
  | ⟨1, _⟩ => show win1_1.index t 1 * 128 + 1 * (ix2 p i (1 : Fin 2)).val = (k 1).val; rw [e1b, hk1]; show 0 * 128 + 1 * i.val = _; omega

/-- Window 2's block at any point is its whole array. -/
theorem iblk_2 (c : Dev nD) (t : Fin cfg1.N) (y : S128x128.Idx) :
    (iblk1 V c 2 t : Vec Ideal S128x128 .bf16) y = (V c (Pipeline.arrRef spec1 2) : S128x128.Idx → EReal) y := by
  obtain ⟨e0a, e0b, e1a, e1b, e8a, e8b, e2a, e2b, e3a, e3b, e4a, e4b, e5a, e5b, e6a, e6b, e7a, e7b⟩ := idx_facts t
  unfold iblk1
  rw [View.read_apply]
  show (V c (Pipeline.arrRef spec1 2) : S128x128.Idx → EReal) _ = (V c (Pipeline.arrRef spec1 2) : S128x128.Idx → EReal) y
  refine congrArg (V c (Pipeline.arrRef spec1 2) : S128x128.Idx → EReal) (funext fun a => Fin.ext ?_)
  match a with
  | ⟨0, _⟩ => show win1_2.index t 0 * 128 + 1 * (y 0).val = (y 0).val; rw [e2a]; omega
  | ⟨1, _⟩ => show win1_2.index t 1 * 128 + 1 * (y 1).val = (y 1).val; rw [e2b]; omega

/-- Window 3's block at any point is its whole array. -/
theorem iblk_3 (c : Dev nD) (t : Fin cfg1.N) (y : S1x128.Idx) :
    (iblk1 V c 3 t : Vec Ideal S1x128 .f32) y = (V c (Pipeline.arrRef spec1 3) : S1x128.Idx → EReal) y := by
  obtain ⟨e0a, e0b, e1a, e1b, e8a, e8b, e2a, e2b, e3a, e3b, e4a, e4b, e5a, e5b, e6a, e6b, e7a, e7b⟩ := idx_facts t
  unfold iblk1
  rw [View.read_apply]
  show (V c (Pipeline.arrRef spec1 3) : S1x128.Idx → EReal) _ = (V c (Pipeline.arrRef spec1 3) : S1x128.Idx → EReal) y
  refine congrArg (V c (Pipeline.arrRef spec1 3) : S1x128.Idx → EReal) (funext fun a => Fin.ext ?_)
  match a with
  | ⟨0, _⟩ => show win1_3.index t 0 * 1 + 1 * (y 0).val = (y 0).val; rw [e3a]; omega
  | ⟨1, _⟩ => show win1_3.index t 1 * 128 + 1 * (y 1).val = (y 1).val; rw [e3b]; omega

/-- Window 4's block at any point is its whole array. -/
theorem iblk_4 (c : Dev nD) (t : Fin cfg1.N) (y : S1x128.Idx) :
    (iblk1 V c 4 t : Vec Ideal S1x128 .f32) y = (V c (Pipeline.arrRef spec1 4) : S1x128.Idx → EReal) y := by
  obtain ⟨e0a, e0b, e1a, e1b, e8a, e8b, e2a, e2b, e3a, e3b, e4a, e4b, e5a, e5b, e6a, e6b, e7a, e7b⟩ := idx_facts t
  unfold iblk1
  rw [View.read_apply]
  show (V c (Pipeline.arrRef spec1 4) : S1x128.Idx → EReal) _ = (V c (Pipeline.arrRef spec1 4) : S1x128.Idx → EReal) y
  refine congrArg (V c (Pipeline.arrRef spec1 4) : S1x128.Idx → EReal) (funext fun a => Fin.ext ?_)
  match a with
  | ⟨0, _⟩ => show win1_4.index t 0 * 1 + 1 * (y 0).val = (y 0).val; rw [e4a]; omega
  | ⟨1, _⟩ => show win1_4.index t 1 * 128 + 1 * (y 1).val = (y 1).val; rw [e4b]; omega

/-- Window 5's block at any point is its whole array. -/
theorem iblk_5 (c : Dev nD) (t : Fin cfg1.N) (y : S128x128.Idx) :
    (iblk1 V c 5 t : Vec Ideal S128x128 .bf16) y = (V c (Pipeline.arrRef spec1 5) : S128x128.Idx → EReal) y := by
  obtain ⟨e0a, e0b, e1a, e1b, e8a, e8b, e2a, e2b, e3a, e3b, e4a, e4b, e5a, e5b, e6a, e6b, e7a, e7b⟩ := idx_facts t
  unfold iblk1
  rw [View.read_apply]
  show (V c (Pipeline.arrRef spec1 5) : S128x128.Idx → EReal) _ = (V c (Pipeline.arrRef spec1 5) : S128x128.Idx → EReal) y
  refine congrArg (V c (Pipeline.arrRef spec1 5) : S128x128.Idx → EReal) (funext fun a => Fin.ext ?_)
  match a with
  | ⟨0, _⟩ => show win1_5.index t 0 * 128 + 1 * (y 0).val = (y 0).val; rw [e5a]; omega
  | ⟨1, _⟩ => show win1_5.index t 1 * 128 + 1 * (y 1).val = (y 1).val; rw [e5b]; omega

/-- Window 6's block at any point is its whole array. -/
theorem iblk_6 (c : Dev nD) (t : Fin cfg1.N) (y : S1x128.Idx) :
    (iblk1 V c 6 t : Vec Ideal S1x128 .f32) y = (V c (Pipeline.arrRef spec1 6) : S1x128.Idx → EReal) y := by
  obtain ⟨e0a, e0b, e1a, e1b, e8a, e8b, e2a, e2b, e3a, e3b, e4a, e4b, e5a, e5b, e6a, e6b, e7a, e7b⟩ := idx_facts t
  unfold iblk1
  rw [View.read_apply]
  show (V c (Pipeline.arrRef spec1 6) : S1x128.Idx → EReal) _ = (V c (Pipeline.arrRef spec1 6) : S1x128.Idx → EReal) y
  refine congrArg (V c (Pipeline.arrRef spec1 6) : S1x128.Idx → EReal) (funext fun a => Fin.ext ?_)
  match a with
  | ⟨0, _⟩ => show win1_6.index t 0 * 1 + 1 * (y 0).val = (y 0).val; rw [e6a]; omega
  | ⟨1, _⟩ => show win1_6.index t 1 * 128 + 1 * (y 1).val = (y 1).val; rw [e6b]; omega

/-- Window 7's block at any point is its whole array. -/
theorem iblk_7 (c : Dev nD) (t : Fin cfg1.N) (y : S1x128.Idx) :
    (iblk1 V c 7 t : Vec Ideal S1x128 .f32) y = (V c (Pipeline.arrRef spec1 7) : S1x128.Idx → EReal) y := by
  obtain ⟨e0a, e0b, e1a, e1b, e8a, e8b, e2a, e2b, e3a, e3b, e4a, e4b, e5a, e5b, e6a, e6b, e7a, e7b⟩ := idx_facts t
  unfold iblk1
  rw [View.read_apply]
  show (V c (Pipeline.arrRef spec1 7) : S1x128.Idx → EReal) _ = (V c (Pipeline.arrRef spec1 7) : S1x128.Idx → EReal) y
  refine congrArg (V c (Pipeline.arrRef spec1 7) : S1x128.Idx → EReal) (funext fun a => Fin.ext ?_)
  match a with
  | ⟨0, _⟩ => show win1_7.index t 0 * 1 + 1 * (y 0).val = (y 0).val; rw [e7a]; omega
  | ⟨1, _⟩ => show win1_7.index t 1 * 128 + 1 * (y 1).val = (y 1).val; rw [e7b]; omega

/-! ## The updated feature array -/

/-- The feature array the region leaves: at row `r`, channel `q`, node `r`'s update. -/
def G (P : Cert.Spec.Params) (A S : Fin 4096 → Fin 128 → EReal) : S4096x128.Idx → EReal :=
  fun i => Cert.Spec.nodeUpd P (A ⟨(i 0).val, (i 0).isLt⟩)
    (fun c => (∑ k, A ⟨(i 0).val, (i 0).isLt⟩ k * P.aw c k) + S ⟨(i 0).val, (i 0).isLt⟩ c) ⟨(i 1).val, (i 1).isLt⟩

set_option maxHeartbeats 4000000 in
/-- WHAT POINT `t` WRITES BACK is block `t` of the feature array: row `p` of the body's output is the update of node
    `1024·t + p`, whose data row `p` of each fetched block holds. -/
theorem flushed_eq (hbody : BodyStmt) (c : Dev nD) (P : Cert.Spec.Params) (A S : Fin 4096 → Fin 128 → EReal)
    (ha : ∀ (r : Fin 4096) (k : Fin 128), (V c (Pipeline.arrRef spec1 0) : S4096x128.Idx → EReal) (ix2 r k) = A r k)
    (hs : ∀ (r : Fin 4096) (k : Fin 128), (V c (Pipeline.arrRef spec1 1) : S4096x128.Idx → EReal) (ix2 r k) = S r k)
    (h2 : ∀ j k : Fin 128, (V c (Pipeline.arrRef spec1 2) : S128x128.Idx → EReal) (ix2 k j) = P.aw j k)
    (h3 : ∀ j : Fin 128, (V c (Pipeline.arrRef spec1 3) : S1x128.Idx → EReal) (ix2 0 j) = P.nw j)
    (h4 : ∀ j : Fin 128, (V c (Pipeline.arrRef spec1 4) : S1x128.Idx → EReal) (ix2 0 j) = P.nb j)
    (h5 : ∀ j k : Fin 128, (V c (Pipeline.arrRef spec1 5) : S128x128.Idx → EReal) (ix2 k j) = P.lw j k)
    (h6 : ∀ j : Fin 128, (V c (Pipeline.arrRef spec1 6) : S1x128.Idx → EReal) (ix2 0 j) = P.lgw j)
    (h7 : ∀ j : Fin 128, (V c (Pipeline.arrRef spec1 7) : S1x128.Idx → EReal) (ix2 0 j) = P.lgb j)
    (t : Fin cfg1.N) :
    (dat1 V c).flushed 8 t = ((cfg1.win 8).blk t).view.read (Elt Ideal) (G P A S) := by
  obtain ⟨e0a, e0b, e1a, e1b, e8a, e8b, e2a, e2b, e3a, e3b, e4a, e4b, e5a, e5b, e6a, e6b, e7a, e7b⟩ := idx_facts t
  have ht := t_lt t
  show (cfg1.win 8).cut (grid1.coords t) ((dat1 V c).after 8 t) = _
  rw [after1_8]
  funext y
  have hy0 : (y 0).val < 1024 := (y 0).isLt
  have hy1 : (y 1).val < 128 := (y 1).isLt
  show out1_8 (F := Ideal) (iblk1 V c 0 t) (iblk1 V c 1 t) (iblk1 V c 2 t) (iblk1 V c 3 t) (iblk1 V c 4 t) (iblk1 V c 5 t) (iblk1 V c 6 t) (iblk1 V c 7 t) y = G P A S (((cfg1.win 8).blk t).view.emb y)
  have he : 1024 * t.val + (y 0).val < 4096 := by omega
  have hG : G P A S (((cfg1.win 8).blk t).view.emb y)
      = Cert.Spec.nodeUpd P (A ⟨1024 * t.val + (y 0).val, he⟩)
          (fun c => (∑ k, A ⟨1024 * t.val + (y 0).val, he⟩ k * P.aw c k) + S ⟨1024 * t.val + (y 0).val, he⟩ c) ⟨(y 1).val, hy1⟩ := by
    have r0 : ((((cfg1.win 8).blk t).view.emb y) 0).val = 1024 * t.val + (y 0).val := by
      show win1_8.index t 0 * 1024 + 1 * (y 0).val = _; rw [e8a]; omega
    have r1 : ((((cfg1.win 8).blk t).view.emb y) 1).val = (y 1).val := by
      show win1_8.index t 1 * 128 + 1 * (y 1).val = _; rw [e8b]; omega
    unfold G
    have f0 : (⟨((((cfg1.win 8).blk t).view.emb y) 0).val, ((((cfg1.win 8).blk t).view.emb y) 0).isLt⟩ : Fin 4096)
        = ⟨1024 * t.val + (y 0).val, he⟩ := Fin.ext r0
    have f1 : (⟨((((cfg1.win 8).blk t).view.emb y) 1).val, ((((cfg1.win 8).blk t).view.emb y) 1).isLt⟩ : Fin 128)
        = ⟨(y 1).val, hy1⟩ := Fin.ext r1
    rw [f0, f1]
  rw [hG]
  have hb := hbody (iblk1 V c 0 t) (iblk1 V c 1 t) (iblk1 V c 2 t) (iblk1 V c 3 t) (iblk1 V c 4 t) (iblk1 V c 5 t) (iblk1 V c 6 t) (iblk1 V c 7 t) P ⟨(y 0).val, hy0⟩ ⟨(y 1).val, hy1⟩
    (A ⟨1024 * t.val + (y 0).val, he⟩) (S ⟨1024 * t.val + (y 0).val, he⟩)
    (fun k => (iblk_0 V c t ⟨(y 0).val, hy0⟩ k (ix2 ⟨1024 * t.val + (y 0).val, he⟩ k) rfl rfl).trans (ha _ k))
    (fun k => (iblk_1 V c t ⟨(y 0).val, hy0⟩ k (ix2 ⟨1024 * t.val + (y 0).val, he⟩ k) rfl rfl).trans (hs _ k))
    (fun j k => (iblk_2 V c t (ix2 k j)).trans (h2 j k)) (fun j => (iblk_3 V c t (ix2 0 j)).trans (h3 j)) (fun j => (iblk_4 V c t (ix2 0 j)).trans (h4 j))
    (fun j k => (iblk_5 V c t (ix2 k j)).trans (h5 j k)) (fun j => (iblk_6 V c t (ix2 0 j)).trans (h6 j)) (fun j => (iblk_7 V c t (ix2 0 j)).trans (h7 j))
  rw [← hb]
  congr 1
  funext a
  match a with
  | ⟨0, _⟩ => rfl
  | ⟨1, _⟩ => rfl

/-- An index of the feature array is in point `t`'s block iff each coordinate is in the block's range. -/
theorem mem_blk (t : Fin cfg1.N) (i : S4096x128.Idx) :
    i ∈ ((cfg1.win 8).blk t).view.set ↔ ∀ a : Fin 2, win1_8.index t a * S1024x128.size a ≤ (i a).val ∧ (i a).val < win1_8.index t a * S1024x128.size a + S1024x128.size a := by
  show i ∈ ((View.whole main_v106).slice (win1_8.rect t)).set ↔ _
  rw [View.set_slice_whole, Rect.mem_set_unit]
  exact Iff.rfl

/-- The 4 blocks cover the array: row `r` is in the block of point `r / 1024`. -/
theorem cover (i : S4096x128.Idx) : ∃ t : Fin cfg1.N, (cfg1.win 8).flush t = true ∧ i ∈ ((cfg1.win 8).blk t).view.set := by
  have hi0 : (i 0).val < 4096 := (i 0).isLt
  have hi1 : (i 1).val < 128 := (i 1).isLt
  have hN : cfg1.N = 4 := N_1
  refine ⟨⟨(i 0).val / 1024, by rw [hN]; omega⟩, flush1_8 _, ?_⟩
  obtain ⟨e0a, e0b, e1a, e1b, e8a, e8b, e2a, e2b, e3a, e3b, e4a, e4b, e5a, e5b, e6a, e6b, e7a, e7b⟩ := idx_facts ⟨(i 0).val / 1024, by rw [hN]; omega⟩
  rw [mem_blk]
  intro a
  match a with
  | ⟨0, _⟩ => show win1_8.index _ 0 * 1024 ≤ (i 0).val ∧ (i 0).val < win1_8.index _ 0 * 1024 + 1024; rw [e8a]; show (i 0).val / 1024 * 1024 ≤ (i 0).val ∧ (i 0).val < (i 0).val / 1024 * 1024 + 1024; omega
  | ⟨1, _⟩ => show win1_8.index _ 1 * 128 ≤ (i 1).val ∧ (i 1).val < win1_8.index _ 1 * 128 + 128; rw [e8b]; omega

set_option maxHeartbeats 4000000 in
/-- THE FEATURE ARRAY after the region, read at `(r, q)`. -/
theorem out_apply (hbody : BodyStmt) (c : Dev nD) (P : Cert.Spec.Params) (A S : Fin 4096 → Fin 128 → EReal)
    (ha : ∀ (r : Fin 4096) (k : Fin 128), (V c (Pipeline.arrRef spec1 0) : S4096x128.Idx → EReal) (ix2 r k) = A r k)
    (hs : ∀ (r : Fin 4096) (k : Fin 128), (V c (Pipeline.arrRef spec1 1) : S4096x128.Idx → EReal) (ix2 r k) = S r k)
    (h2 : ∀ j k : Fin 128, (V c (Pipeline.arrRef spec1 2) : S128x128.Idx → EReal) (ix2 k j) = P.aw j k)
    (h3 : ∀ j : Fin 128, (V c (Pipeline.arrRef spec1 3) : S1x128.Idx → EReal) (ix2 0 j) = P.nw j)
    (h4 : ∀ j : Fin 128, (V c (Pipeline.arrRef spec1 4) : S1x128.Idx → EReal) (ix2 0 j) = P.nb j)
    (h5 : ∀ j k : Fin 128, (V c (Pipeline.arrRef spec1 5) : S128x128.Idx → EReal) (ix2 k j) = P.lw j k)
    (h6 : ∀ j : Fin 128, (V c (Pipeline.arrRef spec1 6) : S1x128.Idx → EReal) (ix2 0 j) = P.lgw j)
    (h7 : ∀ j : Fin 128, (V c (Pipeline.arrRef spec1 7) : S1x128.Idx → EReal) (ix2 0 j) = P.lgb j)
    (r : Fin 4096) (q : Fin 128) :
    ((dat1 V c).arrAt 8 cfg1.N : S4096x128.Idx → EReal) (ix2 r q)
      = Cert.Spec.nodeUpd P (A r) (fun c => (∑ k, A r k * P.aw c k) + S r c) q := by
  rw [(dat1 V c).arrAt_eq_of_cover 8 (G P A S)
    (fun t _ => flushed_eq V hbody c P A S ha hs h2 h3 h4 h5 h6 h7 t) cover]
  rfl

end Cert.KernelIdeal.Reg1

end
-- ==== Proof.NodeBody.lean ====
/-
  The node-update body, read down to the specification.

  Each of the two node-update regions works on blocks of 1024 nodes and leaves, in its output block, one
  value per node and channel. That value is shown here to be `Cert.Spec.nodeUpd` of the node's own features
  and of its pre-norm row (the linear image of the features plus the messages summed onto the node), for
  whatever blocks the region is given, provided they hold the block's parameters.
-/
import proofs.«121864_j48515950576209_1_alg».proof.Proof.Gen.KernelIdeal.Frame
import proofs.«121864_j48515950576209_1_alg».proof.Proof.Spec
import proofs.«121864_j48515950576209_1_alg».proof.Proof.LibPlainMatmul
import proofs.«121864_j48515950576209_1_alg».proof.Proof.LibMatrixReduce

noncomputable section

namespace Cert.KBodyN

open Idealize.ShloMosaic Idealize.ShloMosaic.ValueIdx Cert.KernelIdeal Cert.KernelIdeal.Gen

/-! ## The pieces of the body, each read at an entry

The node update works on a block of 1024 rows of 128 channels. Each row is treated alone: a linear
layer (a product with a 128 × 128 matrix), a GroupNorm over the row, the leaky rectifier, a second
linear layer, a second GroupNorm, the residual, the leaky rectifier. -/

/-- A column of 1024 entries spread along the 128 channels reads the column at the row. -/
theorem col_apply (u : FVec Ideal S1024x1 .f32) (p : Fin 1024) (c : Fin 128) :
    broadcastTo S1024x128 u broadcasts_S1024x1_S1024x128 (ix2 p c) = u (ix2 p 0) :=
  Cert.Rows.bcast_col (by decide) u _ p c

/-- A row of 128 channels repeated down the 1024 rows reads the row at the channel. -/
theorem row_apply (w : FVec Ideal S1x128 .f32) (p : Fin 1024) (c : Fin 128) :
    broadcastTo S1024x128 w broadcasts_S1x128_S1024x128 (ix2 p c) = w (ix2 0 c) :=
  Cert.Rows.bcast_row (by decide) w _ p c

/-- The leaky rectifier as printed: `x` where `x ≥ 0`, else the word of `0.01` times `x`. -/
def lreluV (v : FVec Ideal S1024x128 .f32) : FVec Ideal S1024x128 .f32 :=
  select (cmpf .oge v (broadcast S1024x128 (Scalar.ofBits (F := Ideal) .f32 0x00000000#32))) v
    (mulf (broadcast S1024x128 (Scalar.ofBits (F := Ideal) .f32 0x3C23D70A#32)) v)

theorem lreluV_apply (v : FVec Ideal S1024x128 .f32) (i : S1024x128.Idx) :
    lreluV v i = Cert.Spec.lrelu (v i) := rfl

/-- The product of a block of rows with a 128 × 128 matrix, accumulated from zero, at an entry. -/
theorem mm_apply (l : FVec Ideal S1024x128 .bf16) (r : FVec Ideal S128x128 .bf16) (p : Fin 1024) (q : Fin 128) :
    matmul dot_S1024x128_S128x128_S1024x128_1_0_0_1_n_n none l r (constant (F := Ideal) S1024x128 .f32 0x00000000#32) (ix2 p q)
      = ∑ k : Fin 128, l (ix2 p k) * r (ix2 k q) :=
  Cert.LibPlainMatmul.matmul_zero_apply dot_S1024x128_S128x128_S1024x128_1_0_0_1_n_n rfl rfl rfl rfl rfl rfl none l r p q

/-- The mean of every row, kept as a column: the row sum divided by the word of `128.0`. -/
def meanV (y : FVec Ideal S1024x128 .f32) : FVec Ideal S1024x1 .f32 :=
  divf (shapeCast S1024x1 (multiReduction (F := Ideal) .add [1] S1024 y 0x00000000#32 reduces_S1024x128_S1024 (.inl rfl) rfl) shapeCasts_S1024_S1024x1)
    (broadcast S1024x1 (Scalar.ofBits (F := Ideal) .f32 0x43000000#32))

theorem meanV_apply (y : FVec Ideal S1024x128 .f32) (p : Fin 1024) :
    meanV y (ix2 p 0) = Cert.Spec.mean (fun k => y (ix2 p k)) := by
  show Ideal.div (shapeCast S1024x1 _ shapeCasts_S1024_S1024x1 (ix2 p 0)) _ = _
  rw [Cert.Rows.cast_col]
  exact congrArg (fun t => Ideal.div t (Ideal.ofBits .f32 0x43000000#32))
    (Cert.LibMatrixReduce.rowSum_apply (m := 1024) (n := 128) y 0x00000000#32 reduces_S1024x128_S1024 (.inl rfl) rfl p)

/-- GroupNorm with one group over each row, as printed: the deviation from the row mean, times the
    reciprocal square root of the mean squared deviation plus the word of `1e-5`, times the weight,
    plus the bias. -/
def gnV (y : FVec Ideal S1024x128 .f32) (w b : FVec Ideal S1x128 .f32) : FVec Ideal S1024x128 .f32 :=
  addf (mulf (mulf (subf y (broadcastTo S1024x128 (meanV y) broadcasts_S1024x1_S1024x128))
      (broadcastTo S1024x128 (rsqrt (addf
        (meanV (mulf (subf y (broadcastTo S1024x128 (meanV y) broadcasts_S1024x1_S1024x128))
          (subf y (broadcastTo S1024x128 (meanV y) broadcasts_S1024x1_S1024x128))))
        (broadcast S1024x1 (Scalar.ofBits (F := Ideal) .f32 0x3727C5AC#32)))) broadcasts_S1024x1_S1024x128))
    (broadcastTo S1024x128 w broadcasts_S1x128_S1024x128)) (broadcastTo S1024x128 b broadcasts_S1x128_S1024x128)

/-- The deviation of an entry from its row's mean. -/
theorem dev_apply (y : FVec Ideal S1024x128 .f32) (p : Fin 1024) (k : Fin 128) :
    subf y (broadcastTo S1024x128 (meanV y) broadcasts_S1024x1_S1024x128) (ix2 p k)
      = y (ix2 p k) - Cert.Spec.mean (fun k => y (ix2 p k)) := by
  rw [subf_apply, col_apply, meanV_apply]

theorem gnV_apply (y : FVec Ideal S1024x128 .f32) (w b : FVec Ideal S1x128 .f32) (p : Fin 1024) (c : Fin 128) :
    gnV y w b (ix2 p c)
      = Cert.Spec.gnorm (fun k => y (ix2 p k)) (fun j => w (ix2 0 j)) (fun j => b (ix2 0 j)) c := by
  unfold gnV
  rw [addf_apply, mulf_apply, mulf_apply, dev_apply, row_apply, row_apply, col_apply]
  show _ * Ideal.rsqrt (meanV _ (ix2 p 0) + _) * _ + _ = _
  rw [meanV_apply]
  simp only [mulf_apply, dev_apply]
  rfl

/-! ## Region 1 -/

/-- The first half of the body: the rectified GroupNorm of the linear image of the features plus the
    summed messages. -/
theorem pay2_eq (x0 x1 : FVec Ideal S1024x128 .f32) (x2 : FVec Ideal S128x128 .bf16) (x3 x4 : FVec Ideal S1x128 .f32) :
    k1_pay2 (F := Ideal) x0 x2 x1 x3 x4
      = truncf .bf16 (lreluV (gnV
          (addf (matmul dot_S1024x128_S128x128_S1024x128_1_0_0_1_n_n none (truncf .bf16 x0 bitsLt_bf16_f32)
              (shapeCast S128x128 x2 shapeCasts_S128x128_S128x128) (constant (F := Ideal) S1024x128 .f32 0x00000000#32))
            (shapeCast S1024x128 x1 shapeCasts_S1024x128_S1024x128))
          (shapeCast S1x128 x3 shapeCasts_S1x128_S1x128) (shapeCast S1x128 x4 shapeCasts_S1x128_S1x128))) bitsLt_bf16_f32 := rfl

theorem pay2_apply (x0 x1 : FVec Ideal S1024x128 .f32) (x2 : FVec Ideal S128x128 .bf16) (x3 x4 : FVec Ideal S1x128 .f32)
    (p : Fin 1024) (q : Fin 128) :
    k1_pay2 (F := Ideal) x0 x2 x1 x3 x4 (ix2 p q)
      = Cert.Spec.lrelu (Cert.Spec.gnorm (fun c => (∑ k : Fin 128, x0 (ix2 p k) * x2 (ix2 k c)) + x1 (ix2 p c))
          (fun j => x3 (ix2 0 j)) (fun j => x4 (ix2 0 j)) q) := by
  rw [pay2_eq, truncf_apply, lreluV_apply, gnV_apply]
  simp only [shapeCast_self, addf_apply, mm_apply, truncf_apply]

/-- The second half: the rectified sum of the features and the GroupNorm of the second linear image. -/
theorem pay1_eq (x0 : FVec Ideal S1024x128 .f32) (h : FVec Ideal S1024x128 .bf16) (x5 : FVec Ideal S128x128 .bf16)
    (x6 x7 : FVec Ideal S1x128 .f32) :
    k1_pay1 (F := Ideal) x0 h x5 x6 x7
      = lreluV (addf (gnV
          (matmul dot_S1024x128_S128x128_S1024x128_1_0_0_1_n_n none h
            (shapeCast S128x128 x5 shapeCasts_S128x128_S128x128) (constant (F := Ideal) S1024x128 .f32 0x00000000#32))
          (shapeCast S1x128 x6 shapeCasts_S1x128_S1x128) (shapeCast S1x128 x7 shapeCasts_S1x128_S1x128)) x0) := rfl

theorem pay1_apply (x0 : FVec Ideal S1024x128 .f32) (h : FVec Ideal S1024x128 .bf16) (x5 : FVec Ideal S128x128 .bf16)
    (x6 x7 : FVec Ideal S1x128 .f32) (p : Fin 1024) (q : Fin 128) :
    k1_pay1 (F := Ideal) x0 h x5 x6 x7 (ix2 p q)
      = Cert.Spec.lrelu (Cert.Spec.gnorm (fun j' => ∑ k : Fin 128, h (ix2 p k) * x5 (ix2 k j'))
          (fun j => x6 (ix2 0 j)) (fun j => x7 (ix2 0 j)) q + x0 (ix2 p q)) := by
  rw [pay1_eq, lreluV_apply, addf_apply, gnV_apply]
  simp only [shapeCast_self, mm_apply]

theorem hz : (![0, 0] : Fin 2 → Nat) = fun _ => 0 := funext fun a => by fin_cases a <;> rfl

/-- The one store covers the whole block, and every load reads a whole block: what the body leaves is its
    last value, as a term of the blocks it was given. -/
theorem out1_unfold (x0 x1 : Vec Ideal S1024x128 .f32) (x2 : Vec Ideal S128x128 .bf16) (x3 x4 : Vec Ideal S1x128 .f32)
    (x5 : Vec Ideal S128x128 .bf16) (x6 x7 : Vec Ideal S1x128 .f32) :
    out1_8 (F := Ideal) x0 x1 x2 x3 x4 x5 x6 x7 = k1_pay1 x0 (k1_pay2 x0 x2 x1 x3 x4) x5 x6 x7 := by
  unfold out1_8
  rw [View.canon_unit_zero hz]
  simp only [View.ld_unit_zero (S := S1024x128) hz, View.ld_unit_zero (S := S128x128) hz, View.ld_unit_zero (S := S1x128) hz]

/-- REGION 1's BODY at row `p`, channel `q`: the node update of the row's features `a` and of its pre-norm row,
    the linear image of `a` plus the summed messages `s`. -/
theorem node1_apply (x0 x1 : Vec Ideal S1024x128 .f32) (x2 : Vec Ideal S128x128 .bf16) (x3 x4 : Vec Ideal S1x128 .f32)
    (x5 : Vec Ideal S128x128 .bf16) (x6 x7 : Vec Ideal S1x128 .f32)
    (P : Cert.Spec.Params) (p : Fin 1024) (q : Fin 128) (a s : Fin 128 → EReal)
    (h0 : ∀ k : Fin 128, x0 (ix2 p k) = a k) (h1 : ∀ c : Fin 128, x1 (ix2 p c) = s c)
    (h2 : ∀ j k : Fin 128, x2 (ix2 k j) = P.aw j k) (h3 : ∀ j, x3 (ix2 0 j) = P.nw j) (h4 : ∀ j, x4 (ix2 0 j) = P.nb j)
    (h5 : ∀ j k : Fin 128, x5 (ix2 k j) = P.lw j k) (h6 : ∀ j, x6 (ix2 0 j) = P.lgw j) (h7 : ∀ j, x7 (ix2 0 j) = P.lgb j) :
    out1_8 (F := Ideal) x0 x1 x2 x3 x4 x5 x6 x7 (ix2 p q)
      = Cert.Spec.nodeUpd P a (fun c => (∑ k, a k * P.aw c k) + s c) q := by
  rw [out1_unfold, pay1_apply]
  simp only [pay2_apply, h0, h1, h2, h3, h4, h5, h6, h7]
  rfl

/-! ## Region 3

The same body; the features pass through a reshape to their own shape before use. -/

theorem pay3_3_eq (x0 x1 : FVec Ideal S1024x128 .f32) (x2 : FVec Ideal S128x128 .bf16) (x3 x4 : FVec Ideal S1x128 .f32) :
    k3_pay3 (F := Ideal) x0 x2 x1 x3 x4
      = truncf .bf16 (lreluV (gnV
          (addf (matmul dot_S1024x128_S128x128_S1024x128_1_0_0_1_n_n none
              (truncf .bf16 (shapeCast S1024x128 x0 shapeCasts_S1024x128_S1024x128) bitsLt_bf16_f32)
              (shapeCast S128x128 x2 shapeCasts_S128x128_S128x128) (constant (F := Ideal) S1024x128 .f32 0x00000000#32))
            (shapeCast S1024x128 x1 shapeCasts_S1024x128_S1024x128))
          (shapeCast S1x128 x3 shapeCasts_S1x128_S1x128) (shapeCast S1x128 x4 shapeCasts_S1x128_S1x128))) bitsLt_bf16_f32 := rfl

theorem pay3_3_apply (x0 x1 : FVec Ideal S1024x128 .f32) (x2 : FVec Ideal S128x128 .bf16) (x3 x4 : FVec Ideal S1x128 .f32)
    (p : Fin 1024) (q : Fin 128) :
    k3_pay3 (F := Ideal) x0 x2 x1 x3 x4 (ix2 p q)
      = Cert.Spec.lrelu (Cert.Spec.gnorm (fun c => (∑ k : Fin 128, x0 (ix2 p k) * x2 (ix2 k c)) + x1 (ix2 p c))
          (fun j => x3 (ix2 0 j)) (fun j => x4 (ix2 0 j)) q) := by
  rw [pay3_3_eq, truncf_apply, lreluV_apply, gnV_apply]
  simp only [shapeCast_self, addf_apply, mm_apply, truncf_apply]

theorem pay3_1_eq (x0 : FVec Ideal S1024x128 .f32) (h : FVec Ideal S1024x128 .bf16) (x5 : FVec Ideal S128x128 .bf16)
    (x6 x7 : FVec Ideal S1x128 .f32) :
    k3_pay1 (F := Ideal) x0 h x5 x6 x7
      = lreluV (addf (gnV
          (matmul dot_S1024x128_S128x128_S1024x128_1_0_0_1_n_n none h
            (shapeCast S128x128 x5 shapeCasts_S128x128_S128x128) (constant (F := Ideal) S1024x128 .f32 0x00000000#32))
          (shapeCast S1x128 x6 shapeCasts_S1x128_S1x128) (shapeCast S1x128 x7 shapeCasts_S1x128_S1x128)) x0) := rfl

theorem pay3_1_apply (x0 : FVec Ideal S1024x128 .f32) (h : FVec Ideal S1024x128 .bf16) (x5 : FVec Ideal S128x128 .bf16)
    (x6 x7 : FVec Ideal S1x128 .f32) (p : Fin 1024) (q : Fin 128) :
    k3_pay1 (F := Ideal) x0 h x5 x6 x7 (ix2 p q)
      = Cert.Spec.lrelu (Cert.Spec.gnorm (fun j' => ∑ k : Fin 128, h (ix2 p k) * x5 (ix2 k j'))
          (fun j => x6 (ix2 0 j)) (fun j => x7 (ix2 0 j)) q + x0 (ix2 p q)) := by
  rw [pay3_1_eq, lreluV_apply, addf_apply, gnV_apply]
  simp only [shapeCast_self, mm_apply]

theorem out3_unfold (x0 x1 : Vec Ideal S1024x128 .f32) (x2 : Vec Ideal S128x128 .bf16) (x3 x4 : Vec Ideal S1x128 .f32)
    (x5 : Vec Ideal S128x128 .bf16) (x6 x7 : Vec Ideal S1x128 .f32) :
    out3_8 (F := Ideal) x0 x1 x2 x3 x4 x5 x6 x7 = k3_pay1 (k3_pay2 x0) (k3_pay3 x0 x2 x1 x3 x4) x5 x6 x7 := by
  unfold out3_8
  rw [View.canon_unit_zero hz]
  simp only [View.ld_unit_zero (S := S1024x128) hz, View.ld_unit_zero (S := S128x128) hz, View.ld_unit_zero (S := S1x128) hz]

/-- The reshape of a block to its own shape is the block. -/
theorem pay3_2_eq (x0 : Vec Ideal S1024x128 .f32) : k3_pay2 (F := Ideal) x0 = x0 :=
  shapeCast_self x0 shapeCasts_S1024x128_S1024x128

/-- REGION 3's BODY at row `p`, channel `q`: the same node update. -/
theorem node3_apply (x0 x1 : Vec Ideal S1024x128 .f32) (x2 : Vec Ideal S128x128 .bf16) (x3 x4 : Vec Ideal S1x128 .f32)
    (x5 : Vec Ideal S128x128 .bf16) (x6 x7 : Vec Ideal S1x128 .f32)
    (P : Cert.Spec.Params) (p : Fin 1024) (q : Fin 128) (a s : Fin 128 → EReal)
    (h0 : ∀ k : Fin 128, x0 (ix2 p k) = a k) (h1 : ∀ c : Fin 128, x1 (ix2 p c) = s c)
    (h2 : ∀ j k : Fin 128, x2 (ix2 k j) = P.aw j k) (h3 : ∀ j, x3 (ix2 0 j) = P.nw j) (h4 : ∀ j, x4 (ix2 0 j) = P.nb j)
    (h5 : ∀ j k : Fin 128, x5 (ix2 k j) = P.lw j k) (h6 : ∀ j, x6 (ix2 0 j) = P.lgw j) (h7 : ∀ j, x7 (ix2 0 j) = P.lgb j) :
    out3_8 (F := Ideal) x0 x1 x2 x3 x4 x5 x6 x7 (ix2 p q)
      = Cert.Spec.nodeUpd P a (fun c => (∑ k, a k * P.aw c k) + s c) q := by
  rw [out3_unfold, pay3_2_eq, pay3_1_apply]
  simp only [pay3_3_apply, h0, h1, h2, h3, h4, h5, h6, h7]
  rfl

end Cert.KBodyN

end
-- ==== Proof.KHost1.lean ====
/-
  The host operations between the first edge region and the first node region, read at coordinates.

  They sum the edges' messages onto the nodes — the rows of the message array added into a zero array of
  4097 rows along the normalised target index, the spare last row dropped — and cut the node update's six
  parameter blocks out of the stacked parameter arrays (slice 0; the two weight matrices transposed).
  Every statement is for an arbitrary assignment `W` of contents to the buffers before these operations.
-/
import proofs.«121864_j48515950576209_1_alg».proof.Proof.Gen.KernelIdeal.Launch
import proofs.«121864_j48515950576209_1_alg».proof.Proof.Spec
import proofs.«121864_j48515950576209_1_alg».proof.Proof.LibHostReads
import Idealize.ShloMosaic.Lib.IdealHost
import Idealize.ShloMosaic.Lib.StableHlo.Run
import Idealize.ShloMosaic.Lib.WordArith

noncomputable section

namespace Cert.KHost

open Idealize.ShloMosaic Idealize.ShloMosaic.ValueIdx Idealize.ShloMosaic.StableHlo Cert.KernelIdeal Cert.KernelIdeal.Gen

/-! ## Words -/

/-- The printed normalisation of a signed index at one entry, `select (v < 0) (v + N) v`, is `Cert.Spec.nrm N v`. -/
theorem nrm_word (N b : BitVec 32) :
    Scalar.select (IntOp.cmpi .slt b 0#32) (IntOp.addi b N) b = Cert.Spec.nrm N b := by
  have h : (BitVec.ofBool (b.slt 0#32) = 1) ↔ b.toInt < 0 := by
    rw [Idealize.ShloMosaic.WordArith.ofBool_eq_numeral_one_iff]
    simp [BitVec.slt]
  show (if BitVec.ofBool (b.slt 0#32) = 1 then b + N else b) = if b.toInt < 0 then b + N else b
  by_cases hb : b.toInt < 0
  · rw [if_pos (h.mpr hb), if_pos hb]
  · rw [if_neg (fun c => hb (h.mp c)), if_neg hb]

/-- The normalised index vector, kept as a column, at edge `e`. -/
theorem nrmCol_apply (N : BitVec 32) (v : IVec S167936 32) (e : Fin 167936) :
    broadcastInDim S167936x1 ![0] bcast_S167936_S167936x1_0
        (select (cmpi .slt v (broadcastInDim S167936 ![] bcast_S_S167936 (constantI S_ 32 0#32)))
          (addi v (broadcastInDim S167936 ![] bcast_S_S167936 (constantI S_ 32 N))) v) (ix2 e 0)
      = Cert.Spec.nrm N (v (ix1 e)) := by
  rw [Cert.LibHostReads.colInner_apply]
  exact nrm_word N (v (ix1 e))

/-! ## The sum of the messages onto the nodes -/

/-- The rows of `u` added into a zero array of 4097 rows along the normalised index column, rows 0 … 4095 kept:
    at `(r, q)` the zero word plus the sum of `u (e, q)` over the edges whose normalised index is `r`. -/
theorem scatter_rows_read (v : IVec S167936 32) (u : FVec Ideal S167936x128 .f32) (r : Fin 4096) (q : Fin 128) :
    extractStridedSlice S4096x128 ![0, 0]
        (Host.scatterAdd (F := Ideal) scatter_S4097x128_S167936x1_S167936x128_1_0_0_1
          (broadcastInDim S4097x128 ![] bcast_S_S4097x128 (constant (F := Ideal) S_ .f32 0x00000000#32))
          (broadcastInDim S167936x1 ![0] bcast_S167936_S167936x1_0
            (select (cmpi .slt v (broadcastInDim S167936 ![] bcast_S_S167936 (constantI S_ 32 0#32)))
              (addi v (broadcastInDim S167936 ![] bcast_S_S167936 (constantI S_ 32 4097#32))) v)) u)
        slices_S4097x128_S4096x128_0_0 (ix2 r q)
      = Ideal.ofBits .f32 0x00000000#32
        + ∑ e ∈ Finset.univ.filter (fun e : Fin 167936 => (Cert.Spec.nrm 4097#32 (v (ix1 e))).toInt = (r.val : Int)),
            u (ix2 e q) := by
  rw [extractStridedSlice_apply ![0, 0] _ slices_S4097x128_S4096x128_0_0 (ix2 r q) (ix2 (⟨r.val, by omega⟩ : Fin 4097) q)
    (fun a => by match a with | ⟨0, _⟩ => exact (Nat.zero_add _).symm | ⟨1, _⟩ => exact (Nat.zero_add _).symm)]
  rw [Cert.LibHostReads.hostScatter_rows_apply scatter_S4097x128_S167936x1_S167936x128_1_0_0_1
    scatter_S4097x128_S167936x1_S167936x128_1_0_0_1_wf rfl, broadcastInDim_scalar_apply]
  refine congrArg₂ (fun a b => a + b) rfl ?_
  unfold Cert.SegmentRows.segment
  refine Finset.sum_congr (Finset.filter_congr fun e _ => ?_) fun _ _ => rfl
  rw [nrmCol_apply]

/-! ## The parameter blocks -/

/-- Slice `i` of a stack of two 128 × 128 matrices, transposed: at `(k, j)` the stack's `(i, j, k)`. -/
theorem weightT_read (i : Fin 2) (off : Fin 3 → Nat) (ho : off = ![i.val, 0, 0]) (h : S2x128x128.Slices off S1x128x128)
    (x : FVec Ideal S2x128x128 .f32) (k j : Fin 128) :
    truncf .bf16 (transpose S128x128 [1, 0]
        (fun a => shapeCast S128x128 (extractStridedSlice S1x128x128 off x h) shapeCasts_S1x128x128_S128x128 a)
        transposes_S128x128_S128x128_1_0) bitsLt_bf16_f32 (ix2 k j) = x (ix3 i j k) := by
  subst ho
  rw [truncf_apply, transpose_apply [1, 0] _ transposes_S128x128_S128x128_1_0 (ix2 k j) (ix2 j k)
    (fun b => by match b with | ⟨0, _⟩ => rfl | ⟨1, _⟩ => rfl)]
  show shapeCast S128x128 _ shapeCasts_S1x128x128_S128x128 (ix2 j k) = _
  rw [shapeCast_apply _ shapeCasts_S1x128x128_S128x128 (ix2 j k) (ix3 (0 : Fin 1) j k)
    (by rw [Shape.rowMajor_val_three, Shape.rowMajor_val_two]
        show (0 * 128 + j.val) * 128 + k.val = j.val * 128 + k.val; omega)]
  exact extractStridedSlice_apply _ x h (ix3 (0 : Fin 1) j k) (ix3 i j k)
    (fun a => by match a with
      | ⟨0, _⟩ => show i.val = i.val + 0; omega
      | ⟨1, _⟩ => show j.val = 0 + j.val; omega
      | ⟨2, _⟩ => show k.val = 0 + k.val; omega)

/-- Row `i` of a stack of two rows of 128, made a vector and then a row again: at `(0, j)` the stack's `(i, j)`. -/
theorem row_read (i : Fin 2) (off : Fin 2 → Nat) (ho : off = ![i.val, 0]) (h : S2x128.Slices off S1x128)
    (x : FVec Ideal S2x128 .f32) (j : Fin 128) :
    shapeCast S1x128 (fun a => shapeCast S128 (extractStridedSlice S1x128 off x h) shapeCasts_S1x128_S128 a)
        shapeCasts_S128_S1x128 (ix2 0 j) = x (ix2 i j) := by
  subst ho
  rw [shapeCast_apply _ shapeCasts_S128_S1x128 (ix2 (0 : Fin 1) j) (ix1 j)
    (by rw [Shape.rowMajor_val_one, Shape.rowMajor_val_two]; show j.val = 0 * 128 + j.val; omega)]
  show shapeCast S128 _ shapeCasts_S1x128_S128 (ix1 j) = _
  rw [shapeCast_apply _ shapeCasts_S1x128_S128 (ix1 j) (ix2 (0 : Fin 1) j)
    (by rw [Shape.rowMajor_val_two, Shape.rowMajor_val_one]; show 0 * 128 + j.val = j.val; omega)]
  exact extractStridedSlice_apply _ x h (ix2 (0 : Fin 1) j) (ix2 i j)
    (fun a => by match a with
      | ⟨0, _⟩ => show i.val = i.val + 0; omega
      | ⟨1, _⟩ => show j.val = 0 + j.val; omega)

/-! ## What the node region reads -/

/-- The summed messages at node `r`, channel `q`. -/
theorem v85_apply (W : Valuation τ sig (Elt Ideal)) (v5 : S167936.Idx → BitVec 32) (u : FVec Ideal S167936x128 .f32)
    (h5 : W (Proc.devRef .tc main_v5) = v5) (h76 : W (Proc.devRef .tc main_v76) = u) (r : Fin 4096) (q : Fin 128) :
    (StableHlo.after (hostOps1 (F := Ideal)) W (Proc.devRef .tc main_v85) : S4096x128.Idx → EReal) (ix2 r q)
      = Ideal.ofBits .f32 0x00000000#32
        + ∑ e ∈ Finset.univ.filter (fun e : Fin 167936 => (Cert.Spec.nrm 4097#32 (v5 (ix1 e))).toInt = (r.val : Int)),
            u (ix2 e q) := by
  subst h5 h76
  simp only [hostOps1]
  after_results_simp
  exact scatter_rows_read _ _ r q

theorem v89_apply (W : Valuation τ sig (Elt Ideal)) (x : FVec Ideal S2x128x128 .f32)
    (hx : W (Proc.devRef .tc main_arg16) = x) (k j : Fin 128) :
    (StableHlo.after (hostOps1 (F := Ideal)) W (Proc.devRef .tc main_v89) : S128x128.Idx → EReal) (ix2 k j)
      = x (ix3 0 j k) := by
  subst hx
  simp only [hostOps1]
  after_results_simp
  exact weightT_read 0 _ rfl _ _ k j

theorem v92_apply (W : Valuation τ sig (Elt Ideal)) (x : FVec Ideal S2x128 .f32)
    (hx : W (Proc.devRef .tc main_arg17) = x) (j : Fin 128) :
    (StableHlo.after (hostOps1 (F := Ideal)) W (Proc.devRef .tc main_v92) : S1x128.Idx → EReal) (ix2 0 j)
      = x (ix2 0 j) := by
  subst hx
  simp only [hostOps1]
  after_results_simp
  exact row_read 0 _ rfl _ _ j

theorem v95_apply (W : Valuation τ sig (Elt Ideal)) (x : FVec Ideal S2x128 .f32)
    (hx : W (Proc.devRef .tc main_arg18) = x) (j : Fin 128) :
    (StableHlo.after (hostOps1 (F := Ideal)) W (Proc.devRef .tc main_v95) : S1x128.Idx → EReal) (ix2 0 j)
      = x (ix2 0 j) := by
  subst hx
  simp only [hostOps1]
  after_results_simp
  exact row_read 0 _ rfl _ _ j

theorem v99_apply (W : Valuation τ sig (Elt Ideal)) (x : FVec Ideal S2x128x128 .f32)
    (hx : W (Proc.devRef .tc main_arg19) = x) (k j : Fin 128) :
    (StableHlo.after (hostOps1 (F := Ideal)) W (Proc.devRef .tc main_v99) : S128x128.Idx → EReal) (ix2 k j)
      = x (ix3 0 j k) := by
  subst hx
  simp only [hostOps1]
  after_results_simp
  exact weightT_read 0 _ rfl _ _ k j

theorem v102_apply (W : Valuation τ sig (Elt Ideal)) (x : FVec Ideal S2x128 .f32)
    (hx : W (Proc.devRef .tc main_arg20) = x) (j : Fin 128) :
    (StableHlo.after (hostOps1 (F := Ideal)) W (Proc.devRef .tc main_v102) : S1x128.Idx → EReal) (ix2 0 j)
      = x (ix2 0 j) := by
  subst hx
  simp only [hostOps1]
  after_results_simp
  exact row_read 0 _ rfl _ _ j

theorem v105_apply (W : Valuation τ sig (Elt Ideal)) (x : FVec Ideal S2x128 .f32)
    (hx : W (Proc.devRef .tc main_arg21) = x) (j : Fin 128) :
    (StableHlo.after (hostOps1 (F := Ideal)) W (Proc.devRef .tc main_v105) : S1x128.Idx → EReal) (ix2 0 j)
      = x (ix2 0 j) := by
  subst hx
  simp only [hostOps1]
  after_results_simp
  exact row_read 0 _ rfl _ _ j

end Cert.KHost

end
-- ==== Proof.WalkA.lean ====
/-
  Buffers the run's fold leaves alone between boundaries (the node update's parameters and the actors): no host operation between the boundaries writes them and no region in between has them as a window array, so the contents at the later boundary are those at the earlier one.
-/
import proofs.«121864_j48515950576209_1_alg».proof.Proof.Gen.KernelIdeal.Frame

set_option maxRecDepth 16384
set_option maxHeartbeats 4000000

noncomputable section

namespace Cert.KernelIdeal.Walk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem W2_main_arg16_eq_W0 (c : Dev nD) : W2 m ρ c (Proc.devRef .tc main_arg16) = W0 m ρ c (Proc.devRef .tc main_arg16) :=
  calc W2 m ρ c (Proc.devRef .tc main_arg16)
    _ = W1 m ρ c (Proc.devRef .tc main_arg16) := W2_of_ne m ρ c main_arg16 (by decide)
    _ = W0 m ρ c (Proc.devRef .tc main_arg16) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W6_main_arg16_eq_W0 (c : Dev nD) : W6 m ρ c (Proc.devRef .tc main_arg16) = W0 m ρ c (Proc.devRef .tc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W2_main_arg17_eq_W0 (c : Dev nD) : W2 m ρ c (Proc.devRef .tc main_arg17) = W0 m ρ c (Proc.devRef .tc main_arg17) :=
  calc W2 m ρ c (Proc.devRef .tc main_arg17)
    _ = W1 m ρ c (Proc.devRef .tc main_arg17) := W2_of_ne m ρ c main_arg17 (by decide)
    _ = W0 m ρ c (Proc.devRef .tc main_arg17) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W6_main_arg17_eq_W0 (c : Dev nD) : W6 m ρ c (Proc.devRef .tc main_arg17) = W0 m ρ c (Proc.devRef .tc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W2_main_arg18_eq_W0 (c : Dev nD) : W2 m ρ c (Proc.devRef .tc main_arg18) = W0 m ρ c (Proc.devRef .tc main_arg18) :=
  calc W2 m ρ c (Proc.devRef .tc main_arg18)
    _ = W1 m ρ c (Proc.devRef .tc main_arg18) := W2_of_ne m ρ c main_arg18 (by decide)
    _ = W0 m ρ c (Proc.devRef .tc main_arg18) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W6_main_arg18_eq_W0 (c : Dev nD) : W6 m ρ c (Proc.devRef .tc main_arg18) = W0 m ρ c (Proc.devRef .tc main_arg18) :=
  calc W6 m ρ c (Proc.devRef .tc main_arg18)
    _ = W5 m ρ c (Proc.devRef .tc main_arg18) := W6_of_ne m ρ c main_arg18 (by decide)
    _ = W4 m ρ c (Proc.devRef .tc main_arg18) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W2_main_arg19_eq_W0 (c : Dev nD) : W2 m ρ c (Proc.devRef .tc main_arg19) = W0 m ρ c (Proc.devRef .tc main_arg19) :=
  calc W2 m ρ c (Proc.devRef .tc main_arg19)
    _ = W1 m ρ c (Proc.devRef .tc main_arg19) := W2_of_ne m ρ c main_arg19 (by decide)
    _ = W0 m ρ c (Proc.devRef .tc main_arg19) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W6_main_arg19_eq_W0 (c : Dev nD) : W6 m ρ c (Proc.devRef .tc main_arg19) = W0 m ρ c (Proc.devRef .tc main_arg19) :=
  calc W6 m ρ c (Proc.devRef .tc main_arg19)
    _ = W5 m ρ c (Proc.devRef .tc main_arg19) := W6_of_ne m ρ c main_arg19 (by decide)
    _ = W4 m ρ c (Proc.devRef .tc main_arg19) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W2_main_arg20_eq_W0 (c : Dev nD) : W2 m ρ c (Proc.devRef .tc main_arg20) = W0 m ρ c (Proc.devRef .tc main_arg20) :=
  calc W2 m ρ c (Proc.devRef .tc main_arg20)
    _ = W1 m ρ c (Proc.devRef .tc main_arg20) := W2_of_ne m ρ c main_arg20 (by decide)
    _ = W0 m ρ c (Proc.devRef .tc main_arg20) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W6_main_arg20_eq_W0 (c : Dev nD) : W6 m ρ c (Proc.devRef .tc main_arg20) = W0 m ρ c (Proc.devRef .tc main_arg20) :=
  calc W6 m ρ c (Proc.devRef .tc main_arg20)
    _ = W5 m ρ c (Proc.devRef .tc main_arg20) := W6_of_ne m ρ c main_arg20 (by decide)
    _ = W4 m ρ c (Proc.devRef .tc main_arg20) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W2_main_arg21_eq_W0 (c : Dev nD) : W2 m ρ c (Proc.devRef .tc main_arg21) = W0 m ρ c (Proc.devRef .tc main_arg21) :=
  calc W2 m ρ c (Proc.devRef .tc main_arg21)
    _ = W1 m ρ c (Proc.devRef .tc main_arg21) := W2_of_ne m ρ c main_arg21 (by decide)
    _ = W0 m ρ c (Proc.devRef .tc main_arg21) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W6_main_arg21_eq_W0 (c : Dev nD) : W6 m ρ c (Proc.devRef .tc main_arg21) = W0 m ρ c (Proc.devRef .tc main_arg21) :=
  calc W6 m ρ c (Proc.devRef .tc main_arg21)
    _ = W5 m ρ c (Proc.devRef .tc main_arg21) := W6_of_ne m ρ c main_arg21 (by decide)
    _ = W4 m ρ c (Proc.devRef .tc main_arg21) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W3_main_arg0_eq_W0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.Walk

end
-- ==== Proof.WalkC.lean ====
/-
  Buffers the run's fold leaves alone between boundaries (the padded index vectors made by the first host stretch, and the first block's output): no host operation between the boundaries writes them and no region in between has them as a window array, so the contents at the later boundary are those at the earlier one.
-/
import proofs.«121864_j48515950576209_1_alg».proof.Proof.Gen.KernelIdeal.Frame

set_option maxRecDepth 16384
set_option maxHeartbeats 4000000

noncomputable section

namespace Cert.KernelIdeal.Walk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem W2_main_v5_eq_W1 (c : Dev nD) : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

theorem W6_main_v5_eq_W1 (c : Dev nD) : W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v5) := W4_of_ne m ρ c main_v5 (by decide)
    _ = W2 m ρ c (Proc.devRef .tc main_v5) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v5) := W2_of_ne m ρ c main_v5 (by decide)

theorem W4_main_v1_eq_W1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)

theorem W4_main_v3_eq_W1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := W2_of_ne m ρ c main_v3 (by decide)

theorem W7_main_v106_eq_W4 (c : Dev nD) : W7 m ρ c (Proc.devRef .tc main_v106) = W4 m ρ c (Proc.devRef .tc main_v106) :=
  calc W7 m ρ c (Proc.devRef .tc main_v106)
    _ = W6 m ρ c (Proc.devRef .tc main_v106) := StableHlo.after_of_forall_not_mem _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v106) := W6_of_ne m ρ c main_v106 (by decide)
    _ = W4 m ρ c (Proc.devRef .tc main_v106) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.Walk

end
-- ==== Proof.KBlock0b.lean ====
/-
  Block 0 of the idealized kernel, the node half: the scatter of the padded edges' messages and the node region, read as the specification's first block.
-/
import proofs.«121864_j48515950576209_1_alg».proof.Proof.KArgs
import proofs.«121864_j48515950576209_1_alg».proof.Proof.Pad
import proofs.«121864_j48515950576209_1_alg».proof.Proof.BlockEq
import proofs.«121864_j48515950576209_1_alg».proof.Proof.Reg1
import proofs.«121864_j48515950576209_1_alg».proof.Proof.NodeBody
import proofs.«121864_j48515950576209_1_alg».proof.Proof.KHost1
import proofs.«121864_j48515950576209_1_alg».proof.Proof.WalkA
import proofs.«121864_j48515950576209_1_alg».proof.Proof.WalkC

set_option maxRecDepth 16384
set_option maxHeartbeats 4000000

noncomputable section

namespace Cert.KernelIdeal.KValue

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-- BLOCK 0, THE NODE HALF. Given the padded edges' messages in the message array, the host's scatter sums them per
    row into a zero array (a padding entry landing on the discarded row) and the node region updates every node from
    the actors: the region's output is the specification's block 0. -/
theorem block0_out (c : Dev nD) (hnn : ∀ e : Fin 167386, 0 ≤ (aHi m c (ix1 e)).toInt)
    (msg : Fin 167936 → Fin 128 → EReal)
    (hW : ∀ (e : Fin 167936) (q : Fin 128), (W2 m ρ c (Proc.devRef .tc main_v76) : S167936x128.Idx → EReal) (ix2 e q) = msg e q)
    (hmsg : ∀ (e : Fin 167936) (q : Fin 128), msg e q
      = edgeMsg (PB m 0 c) (ctrRows m c (rowOf (padded 0#32 (aHi m c) e))) (ctrRows m c (rowOf (padded 0#32 (aWi m c) e)))
          ((fun r k => aActors m c (ix2 r k)) (rowOf (padded 0#32 (aHi m c) e))) ((fun r k => aActors m c (ix2 r k)) (rowOf (padded 0#32 (aWi m c) e))) q)
    (hv5 : ∀ e : Fin 167936, (W1 m ρ c (Proc.devRef .tc main_v5) : S167936.Idx → BitVec 32) (ix1 e) = padded 4096#32 (aHi m c) e)
    (r : Fin 4096) (q : Fin 128) :
    (W4 m ρ c (Proc.devRef .tc main_v106) : S4096x128.Idx → EReal) (ix2 r q)
      = attBlock (PB m 0 c) (ctrRows m c) (rowAt (aHi m c)) (rowAt (aWi m c)) (landing (aHi m c)) (fun r k => aActors m c (ix2 r k)) r q := by
  refine (congrFun (W4_arr m ρ c 8) (ix2 r q)).trans ?_
  have hS : ∀ (r : Fin 4096) (q : Fin 128), (V3 m ρ c (Pipeline.arrRef spec1 1) : S4096x128.Idx → EReal) (ix2 r q)
      = Ideal.ofBits .f32 0x00000000#32
        + ∑ e ∈ Finset.univ.filter (fun e : Fin 167936 => (nrm 4097#32 (padded 4096#32 (aHi m c) e)).toInt = (r.val : Int)), msg e q := by
    intro r q
    refine (Cert.KHost.v85_apply (W2 m ρ c) _ _ rfl rfl r q).trans ?_
    have hv : ∀ e : Fin 167936, (W2 m ρ c (Proc.devRef .tc main_v5) : S167936.Idx → BitVec 32) (ix1 e) = padded 4096#32 (aHi m c) e :=
      fun e => (congrFun (Cert.KernelIdeal.Walk.W2_main_v5_eq_W1 (F := Ideal) m ρ c) (ix1 e)).trans (hv5 e)
    refine congrArg _ ?_
    rw [Finset.filter_congr (fun e _ => by rw [hv e])]
    exact Finset.sum_congr rfl fun e _ => hW e q
  refine (Cert.KernelIdeal.Reg1.out_apply (V3 m ρ) Cert.KBodyN.node1_apply c (PB m 0 c) (fun r k => aActors m c (ix2 r k))
    (fun r k => (V3 m ρ c (Pipeline.arrRef spec1 1) : S4096x128.Idx → EReal) (ix2 r k))
    (fun r k => congrFun (Cert.KernelIdeal.Walk.W3_main_arg0_eq_W0 (F := Ideal) m ρ c) (ix2 r k))
    (fun _ _ => rfl)
    (fun j k => Cert.KHost.v89_apply (W2 m ρ c) _ (Cert.KernelIdeal.Walk.W2_main_arg16_eq_W0 (F := Ideal) m ρ c) k j)
    (fun j => Cert.KHost.v92_apply (W2 m ρ c) _ (Cert.KernelIdeal.Walk.W2_main_arg17_eq_W0 (F := Ideal) m ρ c) j)
    (fun j => Cert.KHost.v95_apply (W2 m ρ c) _ (Cert.KernelIdeal.Walk.W2_main_arg18_eq_W0 (F := Ideal) m ρ c) j)
    (fun j k => Cert.KHost.v99_apply (W2 m ρ c) _ (Cert.KernelIdeal.Walk.W2_main_arg19_eq_W0 (F := Ideal) m ρ c) k j)
    (fun j => Cert.KHost.v102_apply (W2 m ρ c) _ (Cert.KernelIdeal.Walk.W2_main_arg20_eq_W0 (F := Ideal) m ρ c) j)
    (fun j => Cert.KHost.v105_apply (W2 m ρ c) _ (Cert.KernelIdeal.Walk.W2_main_arg21_eq_W0 (F := Ideal) m ρ c) j)
    r q).trans ?_
  exact Cert.BlockEq.block_eq (PB m 0 c) (ctrRows m c) (aHi m c) (aWi m c) hnn (fun r k => aActors m c (ix2 r k)) msg hmsg _ hS r q

end Cert.KernelIdeal.KValue

end
-- ==== Proof.Reg2.lean ====
/-
  Region 2 of the idealized kernel (the edge perceptron over 82 blocks of 2048 edges), read as one array: grid
  point `t` fetches rows `2048·t … 2048·t + 2047` of the three per-edge arrays and the whole of each parameter
  array, and writes back rows `2048·t …` of the message array; the 82 blocks tile the 167936 rows. So the message
  array after the region, at row `e`, is the body's result on row `e` of the per-edge arrays: a row-local function.
  The body's arithmetic enters as a hypothesis (`BodyStmt`), proved separately.
-/
import proofs.«121864_j48515950576209_1_alg».proof.Proof.Gen.KernelIdeal.Frame
import proofs.«121864_j48515950576209_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

variable (V : (c : Dev nD) → (b : Ref sig .tc) → Buf (Elt Ideal) ((c : Thread nD τ).loc b))

/-- What the body's arithmetic is taken to be: on any blocks whose row `p` holds the centre difference, the target's
    and the source's features, and whose parameter blocks hold a block's parameters transposed, the output block at
    `(p, q)` is the edge's message at channel `q`. -/
def BodyStmt : Prop :=
  ∀ (x0 : Vec Ideal S2048x2 .f32) (x1 x2 : Vec Ideal S2048x128 .f32) (x3 : Vec Ideal S2x128 .bf16) (x4 : Vec Ideal S1x128 .f32)
    (x5 : Vec Ideal S128x128 .bf16) (x6 x7 : Vec Ideal S1x128 .f32) (x8 : Vec Ideal S128x128 .bf16) (x9 x10 : Vec Ideal S1x128 .f32)
    (x11 : Vec Ideal S384x128 .bf16) (x12 x13 : Vec Ideal S1x128 .f32) (x14 : Vec Ideal S128x128 .bf16)
    (P : Cert.Spec.Params) (p : Fin 2048) (q : Fin 128) (ch cw : Fin 2 → EReal) (ah aw : Fin 128 → EReal),
    (∀ i : Fin 2, x0 (ix2 p i) = ch i - cw i) → (∀ k : Fin 128, x1 (ix2 p k) = ah k) → (∀ k : Fin 128, x2 (ix2 p k) = aw k) →
    (∀ (j : Fin 128) (i : Fin 2), x3 (ix2 i j) = P.dw1 j i) → (∀ j : Fin 128, x4 (ix2 0 j) = P.db1 j) →
    (∀ j k : Fin 128, x5 (ix2 k j) = P.dw2 j k) → (∀ j : Fin 128, x6 (ix2 0 j) = P.dgw j) → (∀ j : Fin 128, x7 (ix2 0 j) = P.dgb j) →
    (∀ j k : Fin 128, x8 (ix2 k j) = P.qw j k) → (∀ j : Fin 128, x9 (ix2 0 j) = P.qgw j) → (∀ j : Fin 128, x10 (ix2 0 j) = P.qgb j) →
    (∀ (j : Fin 128) (i : Fin 384), x11 (ix2 i j) = P.cw1 j i) → (∀ j : Fin 128, x12 (ix2 0 j) = P.cgw j) → (∀ j : Fin 128, x13 (ix2 0 j) = P.cgb j) →
    (∀ j k : Fin 128, x14 (ix2 k j) = P.cw2 j k) →
    out2_15 (F := Ideal) x0 x1 x2 x3 x4 x5 x6 x7 x8 x9 x10 x11 x12 x13 x14 (ix2 p q) = Cert.Spec.edgeMsg P ch cw ah aw q

/-- The printed index maps, decided once over the 82 grid points: the per-edge windows and the output move down one
    block of rows per point; every parameter window stays at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_15.index t (0 : Fin 2) = t.val ∧ win2_15.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = 0 ∧ win2_13.index t (1 : Fin 2) = 0
    ∧ win2_14.index t (0 : Fin 2) = 0 ∧ win2_14.index t (1 : Fin 2) = 0 :=
  (by decide +kernel : ∀ t : Fin grid2.N, _)

theorem t_lt (t : Fin cfg2.N) : t.val < 82 := by have h1 := t.isLt; have h2 : cfg2.N = 82 := N_2; omega

/-- Window 0's block at point `t`, at `(p, i)`, is its array at row `2048·t + p`. -/
theorem iblk_0 (c : Dev nD) (t : Fin cfg2.N) (p : Fin 2048) (i : Fin 2) (k : S167936x2.Idx)
    (hk0 : (k 0).val = 2048 * t.val + p.val) (hk1 : (k 1).val = i.val) :
    (iblk2 V c 0 t : Vec Ideal S2048x2 .f32) (ix2 p i) = (V c (Pipeline.arrRef spec2 0) : S167936x2.Idx → EReal) k := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 0) : S167936x2.Idx → EReal) _ = (V c (Pipeline.arrRef spec2 0) : S167936x2.Idx → EReal) k
  refine congrArg (V c (Pipeline.arrRef spec2 0) : S167936x2.Idx → EReal) (funext fun a => Fin.ext ?_)
  match a with
  | ⟨0, _⟩ => show win2_0.index t 0 * 2048 + 1 * (ix2 p i (0 : Fin 2)).val = (k 0).val; rw [e0a, hk0]; show t.val * 2048 + 1 * p.val = _; omega
  | ⟨1, _⟩ => show win2_0.index t 1 * 2 + 1 * (ix2 p i (1 : Fin 2)).val = (k 1).val; rw [e0b, hk1]; show 0 * 2 + 1 * i.val = _; omega

/-- Window 1's block at point `t`, at `(p, i)`, is its array at row `2048·t + p`. -/
theorem iblk_1 (c : Dev nD) (t : Fin cfg2.N) (p : Fin 2048) (i : Fin 128) (k : S167936x128.Idx)
    (hk0 : (k 0).val = 2048 * t.val + p.val) (hk1 : (k 1).val = i.val) :
    (iblk2 V c 1 t : Vec Ideal S2048x128 .f32) (ix2 p i) = (V c (Pipeline.arrRef spec2 1) : S167936x128.Idx → EReal) k := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 1) : S167936x128.Idx → EReal) _ = (V c (Pipeline.arrRef spec2 1) : S167936x128.Idx → EReal) k
  refine congrArg (V c (Pipeline.arrRef spec2 1) : S167936x128.Idx → EReal) (funext fun a => Fin.ext ?_)
  match a with
  | ⟨0, _⟩ => show win2_1.index t 0 * 2048 + 1 * (ix2 p i (0 : Fin 2)).val = (k 0).val; rw [e1a, hk0]; show t.val * 2048 + 1 * p.val = _; omega
  | ⟨1, _⟩ => show win2_1.index t 1 * 128 + 1 * (ix2 p i (1 : Fin 2)).val = (k 1).val; rw [e1b, hk1]; show 0 * 128 + 1 * i.val = _; omega

/-- Window 2's block at point `t`, at `(p, i)`, is its array at row `2048·t + p`. -/
theorem iblk_2 (c : Dev nD) (t : Fin cfg2.N) (p : Fin 2048) (i : Fin 128) (k : S167936x128.Idx)
    (hk0 : (k 0).val = 2048 * t.val + p.val) (hk1 : (k 1).val = i.val) :
    (iblk2 V c 2 t : Vec Ideal S2048x128 .f32) (ix2 p i) = (V c (Pipeline.arrRef spec2 2) : S167936x128.Idx → EReal) k := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 2) : S167936x128.Idx → EReal) _ = (V c (Pipeline.arrRef spec2 2) : S167936x128.Idx → EReal) k
  refine congrArg (V c (Pipeline.arrRef spec2 2) : S167936x128.Idx → EReal) (funext fun a => Fin.ext ?_)
  match a with
  | ⟨0, _⟩ => show win2_2.index t 0 * 2048 + 1 * (ix2 p i (0 : Fin 2)).val = (k 0).val; rw [e2a, hk0]; show t.val * 2048 + 1 * p.val = _; omega
  | ⟨1, _⟩ => show win2_2.index t 1 * 128 + 1 * (ix2 p i (1 : Fin 2)).val = (k 1).val; rw [e2b, hk1]; show 0 * 128 + 1 * i.val = _; omega

/-- Window 3's block at any point is its whole array. -/
theorem iblk_3 (c : Dev nD) (t : Fin cfg2.N) (y : S2x128.Idx) :
    (iblk2 V c 3 t : Vec Ideal S2x128 .bf16) y = (V c (Pipeline.arrRef spec2 3) : S2x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 3) : S2x128.Idx → EReal) _ = (V c (Pipeline.arrRef spec2 3) : S2x128.Idx → EReal) y
  refine congrArg (V c (Pipeline.arrRef spec2 3) : S2x128.Idx → EReal) (funext fun a => Fin.ext ?_)
  match a with
  | ⟨0, _⟩ => show win2_3.index t 0 * 2 + 1 * (y 0).val = (y 0).val; rw [e3a]; omega
  | ⟨1, _⟩ => show win2_3.index t 1 * 128 + 1 * (y 1).val = (y 1).val; rw [e3b]; omega

/-- Window 4's block at any point is its whole array. -/
theorem iblk_4 (c : Dev nD) (t : Fin cfg2.N) (y : S1x128.Idx) :
    (iblk2 V c 4 t : Vec Ideal S1x128 .f32) y = (V c (Pipeline.arrRef spec2 4) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 4) : S1x128.Idx → EReal) _ = (V c (Pipeline.arrRef spec2 4) : S1x128.Idx → EReal) y
  refine congrArg (V c (Pipeline.arrRef spec2 4) : S1x128.Idx → EReal) (funext fun a => Fin.ext ?_)
  match a with
  | ⟨0, _⟩ => show win2_4.index t 0 * 1 + 1 * (y 0).val = (y 0).val; rw [e4a]; omega
  | ⟨1, _⟩ => show win2_4.index t 1 * 128 + 1 * (y 1).val = (y 1).val; rw [e4b]; omega

/-- Window 5's block at any point is its whole array. -/
theorem iblk_5 (c : Dev nD) (t : Fin cfg2.N) (y : S128x128.Idx) :
    (iblk2 V c 5 t : Vec Ideal S128x128 .bf16) y = (V c (Pipeline.arrRef spec2 5) : S128x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 5) : S128x128.Idx → EReal) _ = (V c (Pipeline.arrRef spec2 5) : S128x128.Idx → EReal) y
  refine congrArg (V c (Pipeline.arrRef spec2 5) : S128x128.Idx → EReal) (funext fun a => Fin.ext ?_)
  match a with
  | ⟨0, _⟩ => show win2_5.index t 0 * 128 + 1 * (y 0).val = (y 0).val; rw [e5a]; omega
  | ⟨1, _⟩ => show win2_5.index t 1 * 128 + 1 * (y 1).val = (y 1).val; rw [e5b]; omega

/-- Window 6's block at any point is its whole array. -/
theorem iblk_6 (c : Dev nD) (t : Fin cfg2.N) (y : S1x128.Idx) :
    (iblk2 V c 6 t : Vec Ideal S1x128 .f32) y = (V c (Pipeline.arrRef spec2 6) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 6) : S1x128.Idx → EReal) _ = (V c (Pipeline.arrRef spec2 6) : S1x128.Idx → EReal) y
  refine congrArg (V c (Pipeline.arrRef spec2 6) : S1x128.Idx → EReal) (funext fun a => Fin.ext ?_)
  match a with
  | ⟨0, _⟩ => show win2_6.index t 0 * 1 + 1 * (y 0).val = (y 0).val; rw [e6a]; omega
  | ⟨1, _⟩ => show win2_6.index t 1 * 128 + 1 * (y 1).val = (y 1).val; rw [e6b]; omega

/-- Window 7's block at any point is its whole array. -/
theorem iblk_7 (c : Dev nD) (t : Fin cfg2.N) (y : S1x128.Idx) :
    (iblk2 V c 7 t : Vec Ideal S1x128 .f32) y = (V c (Pipeline.arrRef spec2 7) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 7) : S1x128.Idx → EReal) _ = (V c (Pipeline.arrRef spec2 7) : S1x128.Idx → EReal) y
  refine congrArg (V c (Pipeline.arrRef spec2 7) : S1x128.Idx → EReal) (funext fun a => Fin.ext ?_)
  match a with
  | ⟨0, _⟩ => show win2_7.index t 0 * 1 + 1 * (y 0).val = (y 0).val; rw [e7a]; omega
  | ⟨1, _⟩ => show win2_7.index t 1 * 128 + 1 * (y 1).val = (y 1).val; rw [e7b]; omega

/-- Window 8's block at any point is its whole array. -/
theorem iblk_8 (c : Dev nD) (t : Fin cfg2.N) (y : S128x128.Idx) :
    (iblk2 V c 8 t : Vec Ideal S128x128 .bf16) y = (V c (Pipeline.arrRef spec2 8) : S128x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 8) : S128x128.Idx → EReal) _ = (V c (Pipeline.arrRef spec2 8) : S128x128.Idx → EReal) y
  refine congrArg (V c (Pipeline.arrRef spec2 8) : S128x128.Idx → EReal) (funext fun a => Fin.ext ?_)
  match a with
  | ⟨0, _⟩ => show win2_8.index t 0 * 128 + 1 * (y 0).val = (y 0).val; rw [e8a]; omega
  | ⟨1, _⟩ => show win2_8.index t 1 * 128 + 1 * (y 1).val = (y 1).val; rw [e8b]; omega

/-- Window 9's block at any point is its whole array. -/
theorem iblk_9 (c : Dev nD) (t : Fin cfg2.N) (y : S1x128.Idx) :
    (iblk2 V c 9 t : Vec Ideal S1x128 .f32) y = (V c (Pipeline.arrRef spec2 9) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 9) : S1x128.Idx → EReal) _ = (V c (Pipeline.arrRef spec2 9) : S1x128.Idx → EReal) y
  refine congrArg (V c (Pipeline.arrRef spec2 9) : S1x128.Idx → EReal) (funext fun a => Fin.ext ?_)
  match a with
  | ⟨0, _⟩ => show win2_9.index t 0 * 1 + 1 * (y 0).val = (y 0).val; rw [e9a]; omega
  | ⟨1, _⟩ => show win2_9.index t 1 * 128 + 1 * (y 1).val = (y 1).val; rw [e9b]; omega

/-- Window 10's block at any point is its whole array. -/
theorem iblk_10 (c : Dev nD) (t : Fin cfg2.N) (y : S1x128.Idx) :
    (iblk2 V c 10 t : Vec Ideal S1x128 .f32) y = (V c (Pipeline.arrRef spec2 10) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 10) : S1x128.Idx → EReal) _ = (V c (Pipeline.arrRef spec2 10) : S1x128.Idx → EReal) y
  refine congrArg (V c (Pipeline.arrRef spec2 10) : S1x128.Idx → EReal) (funext fun a => Fin.ext ?_)
  match a with
  | ⟨0, _⟩ => show win2_10.index t 0 * 1 + 1 * (y 0).val = (y 0).val; rw [e10a]; omega
  | ⟨1, _⟩ => show win2_10.index t 1 * 128 + 1 * (y 1).val = (y 1).val; rw [e10b]; omega

/-- Window 11's block at any point is its whole array. -/
theorem iblk_11 (c : Dev nD) (t : Fin cfg2.N) (y : S384x128.Idx) :
    (iblk2 V c 11 t : Vec Ideal S384x128 .bf16) y = (V c (Pipeline.arrRef spec2 11) : S384x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 11) : S384x128.Idx → EReal) _ = (V c (Pipeline.arrRef spec2 11) : S384x128.Idx → EReal) y
  refine congrArg (V c (Pipeline.arrRef spec2 11) : S384x128.Idx → EReal) (funext fun a => Fin.ext ?_)
  match a with
  | ⟨0, _⟩ => show win2_11.index t 0 * 384 + 1 * (y 0).val = (y 0).val; rw [e11a]; omega
  | ⟨1, _⟩ => show win2_11.index t 1 * 128 + 1 * (y 1).val = (y 1).val; rw [e11b]; omega

/-- Window 12's block at any point is its whole array. -/
theorem iblk_12 (c : Dev nD) (t : Fin cfg2.N) (y : S1x128.Idx) :
    (iblk2 V c 12 t : Vec Ideal S1x128 .f32) y = (V c (Pipeline.arrRef spec2 12) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 12) : S1x128.Idx → EReal) _ = (V c (Pipeline.arrRef spec2 12) : S1x128.Idx → EReal) y
  refine congrArg (V c (Pipeline.arrRef spec2 12) : S1x128.Idx → EReal) (funext fun a => Fin.ext ?_)
  match a with
  | ⟨0, _⟩ => show win2_12.index t 0 * 1 + 1 * (y 0).val = (y 0).val; rw [e12a]; omega
  | ⟨1, _⟩ => show win2_12.index t 1 * 128 + 1 * (y 1).val = (y 1).val; rw [e12b]; omega

/-- Window 13's block at any point is its whole array. -/
theorem iblk_13 (c : Dev nD) (t : Fin cfg2.N) (y : S1x128.Idx) :
    (iblk2 V c 13 t : Vec Ideal S1x128 .f32) y = (V c (Pipeline.arrRef spec2 13) : S1x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 13) : S1x128.Idx → EReal) _ = (V c (Pipeline.arrRef spec2 13) : S1x128.Idx → EReal) y
  refine congrArg (V c (Pipeline.arrRef spec2 13) : S1x128.Idx → EReal) (funext fun a => Fin.ext ?_)
  match a with
  | ⟨0, _⟩ => show win2_13.index t 0 * 1 + 1 * (y 0).val = (y 0).val; rw [e13a]; omega
  | ⟨1, _⟩ => show win2_13.index t 1 * 128 + 1 * (y 1).val = (y 1).val; rw [e13b]; omega

/-- Window 14's block at any point is its whole array. -/
theorem iblk_14 (c : Dev nD) (t : Fin cfg2.N) (y : S128x128.Idx) :
    (iblk2 V c 14 t : Vec Ideal S128x128 .bf16) y = (V c (Pipeline.arrRef spec2 14) : S128x128.Idx → EReal) y := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  unfold iblk2
  rw [View.read_apply]
  show (V c (Pipeline.arrRef spec2 14) : S128x128.Idx → EReal) _ = (V c (Pipeline.arrRef spec2 14) : S128x128.Idx → EReal) y
  refine congrArg (V c (Pipeline.arrRef spec2 14) : S128x128.Idx → EReal) (funext fun a => Fin.ext ?_)
  match a with
  | ⟨0, _⟩ => show win2_14.index t 0 * 128 + 1 * (y 0).val = (y 0).val; rw [e14a]; omega
  | ⟨1, _⟩ => show win2_14.index t 1 * 128 + 1 * (y 1).val = (y 1).val; rw [e14b]; omega

/-! ## The message array -/

/-- The message array the region leaves: at row `e`, channel `q`, edge `e`'s message. -/
def G (P : Cert.Spec.Params) (CH CW : Fin 167936 → Fin 2 → EReal) (AH AW : Fin 167936 → Fin 128 → EReal) :
    S167936x128.Idx → EReal :=
  fun i => Cert.Spec.edgeMsg P (CH ⟨(i 0).val, (i 0).isLt⟩) (CW ⟨(i 0).val, (i 0).isLt⟩) (AH ⟨(i 0).val, (i 0).isLt⟩)
    (AW ⟨(i 0).val, (i 0).isLt⟩) ⟨(i 1).val, (i 1).isLt⟩

set_option maxHeartbeats 4000000 in
/-- WHAT POINT `t` WRITES BACK is block `t` of the message array: row `p` of the body's output is the message of
    edge `2048·t + p`, whose data row `p` of each fetched block holds. -/
theorem flushed_eq (hbody : BodyStmt) (c : Dev nD) (P : Cert.Spec.Params)
    (CH CW : Fin 167936 → Fin 2 → EReal) (AH AW : Fin 167936 → Fin 128 → EReal)
    (hd : ∀ (e : Fin 167936) (i : Fin 2), (V c (Pipeline.arrRef spec2 0) : S167936x2.Idx → EReal) (ix2 e i) = CH e i - CW e i)
    (hq : ∀ (e : Fin 167936) (k : Fin 128), (V c (Pipeline.arrRef spec2 1) : S167936x128.Idx → EReal) (ix2 e k) = AH e k)
    (hs : ∀ (e : Fin 167936) (k : Fin 128), (V c (Pipeline.arrRef spec2 2) : S167936x128.Idx → EReal) (ix2 e k) = AW e k)
    (h3 : ∀ (j : Fin 128) (i : Fin 2), (V c (Pipeline.arrRef spec2 3) : S2x128.Idx → EReal) (ix2 i j) = P.dw1 j i)
    (h4 : ∀ j : Fin 128, (V c (Pipeline.arrRef spec2 4) : S1x128.Idx → EReal) (ix2 0 j) = P.db1 j)
    (h5 : ∀ j k : Fin 128, (V c (Pipeline.arrRef spec2 5) : S128x128.Idx → EReal) (ix2 k j) = P.dw2 j k)
    (h6 : ∀ j : Fin 128, (V c (Pipeline.arrRef spec2 6) : S1x128.Idx → EReal) (ix2 0 j) = P.dgw j)
    (h7 : ∀ j : Fin 128, (V c (Pipeline.arrRef spec2 7) : S1x128.Idx → EReal) (ix2 0 j) = P.dgb j)
    (h8 : ∀ j k : Fin 128, (V c (Pipeline.arrRef spec2 8) : S128x128.Idx → EReal) (ix2 k j) = P.qw j k)
    (h9 : ∀ j : Fin 128, (V c (Pipeline.arrRef spec2 9) : S1x128.Idx → EReal) (ix2 0 j) = P.qgw j)
    (h10 : ∀ j : Fin 128, (V c (Pipeline.arrRef spec2 10) : S1x128.Idx → EReal) (ix2 0 j) = P.qgb j)
    (h11 : ∀ (j : Fin 128) (i : Fin 384), (V c (Pipeline.arrRef spec2 11) : S384x128.Idx → EReal) (ix2 i j) = P.cw1 j i)
    (h12 : ∀ j : Fin 128, (V c (Pipeline.arrRef spec2 12) : S1x128.Idx → EReal) (ix2 0 j) = P.cgw j)
    (h13 : ∀ j : Fin 128, (V c (Pipeline.arrRef spec2 13) : S1x128.Idx → EReal) (ix2 0 j) = P.cgb j)
    (h14 : ∀ j k : Fin 128, (V c (Pipeline.arrRef spec2 14) : S128x128.Idx → EReal) (ix2 k j) = P.cw2 j k)
    (t : Fin cfg2.N) :
    (dat2 V c).flushed 15 t = ((cfg2.win 15).blk t).view.read (Elt Ideal) (G P CH CW AH AW) := by
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts t
  have ht := t_lt t
  show (cfg2.win 15).cut (grid2.coords t) ((dat2 V c).after 15 t) = _
  rw [after2_15]
  funext y
  have hy0 : (y 0).val < 2048 := (y 0).isLt
  have hy1 : (y 1).val < 128 := (y 1).isLt
  show out2_15 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) y = G P CH CW AH AW (((cfg2.win 15).blk t).view.emb y)
  have he : 2048 * t.val + (y 0).val < 167936 := by omega
  have hG : G P CH CW AH AW (((cfg2.win 15).blk t).view.emb y)
      = Cert.Spec.edgeMsg P (CH ⟨2048 * t.val + (y 0).val, he⟩) (CW ⟨2048 * t.val + (y 0).val, he⟩)
          (AH ⟨2048 * t.val + (y 0).val, he⟩) (AW ⟨2048 * t.val + (y 0).val, he⟩) ⟨(y 1).val, hy1⟩ := by
    have r0 : ((((cfg2.win 15).blk t).view.emb y) 0).val = 2048 * t.val + (y 0).val := by
      show win2_15.index t 0 * 2048 + 1 * (y 0).val = _; rw [e15a]; omega
    have r1 : ((((cfg2.win 15).blk t).view.emb y) 1).val = (y 1).val := by
      show win2_15.index t 1 * 128 + 1 * (y 1).val = _; rw [e15b]; omega
    unfold G
    have f0 : (⟨((((cfg2.win 15).blk t).view.emb y) 0).val, ((((cfg2.win 15).blk t).view.emb y) 0).isLt⟩ : Fin 167936)
        = ⟨2048 * t.val + (y 0).val, he⟩ := Fin.ext r0
    have f1 : (⟨((((cfg2.win 15).blk t).view.emb y) 1).val, ((((cfg2.win 15).blk t).view.emb y) 1).isLt⟩ : Fin 128)
        = ⟨(y 1).val, hy1⟩ := Fin.ext r1
    rw [f0, f1]
  rw [hG]
  have hb := hbody (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) P ⟨(y 0).val, hy0⟩ ⟨(y 1).val, hy1⟩
    (CH ⟨2048 * t.val + (y 0).val, he⟩) (CW ⟨2048 * t.val + (y 0).val, he⟩) (AH ⟨2048 * t.val + (y 0).val, he⟩) (AW ⟨2048 * t.val + (y 0).val, he⟩)
    (fun i => (iblk_0 V c t ⟨(y 0).val, hy0⟩ i (ix2 ⟨2048 * t.val + (y 0).val, he⟩ i) rfl rfl).trans (hd _ i))
    (fun k => (iblk_1 V c t ⟨(y 0).val, hy0⟩ k (ix2 ⟨2048 * t.val + (y 0).val, he⟩ k) rfl rfl).trans (hq _ k))
    (fun k => (iblk_2 V c t ⟨(y 0).val, hy0⟩ k (ix2 ⟨2048 * t.val + (y 0).val, he⟩ k) rfl rfl).trans (hs _ k))
    (fun j i => (iblk_3 V c t (ix2 i j)).trans (h3 j i)) (fun j => (iblk_4 V c t (ix2 0 j)).trans (h4 j))
    (fun j k => (iblk_5 V c t (ix2 k j)).trans (h5 j k)) (fun j => (iblk_6 V c t (ix2 0 j)).trans (h6 j)) (fun j => (iblk_7 V c t (ix2 0 j)).trans (h7 j))
    (fun j k => (iblk_8 V c t (ix2 k j)).trans (h8 j k)) (fun j => (iblk_9 V c t (ix2 0 j)).trans (h9 j)) (fun j => (iblk_10 V c t (ix2 0 j)).trans (h10 j))
    (fun j i => (iblk_11 V c t (ix2 i j)).trans (h11 j i)) (fun j => (iblk_12 V c t (ix2 0 j)).trans (h12 j)) (fun j => (iblk_13 V c t (ix2 0 j)).trans (h13 j))
    (fun j k => (iblk_14 V c t (ix2 k j)).trans (h14 j k))
  rw [← hb]
  congr 1
  funext a
  match a with
  | ⟨0, _⟩ => rfl
  | ⟨1, _⟩ => rfl

/-- An index of the message array is in point `t`'s block iff each coordinate is in the block's range. -/
theorem mem_blk (t : Fin cfg2.N) (i : S167936x128.Idx) :
    i ∈ ((cfg2.win 15).blk t).view.set ↔ ∀ a : Fin 2, win2_15.index t a * S2048x128.size a ≤ (i a).val ∧ (i a).val < win2_15.index t a * S2048x128.size a + S2048x128.size a := by
  show i ∈ ((View.whole main_v177).slice (win2_15.rect t)).set ↔ _
  rw [View.set_slice_whole, Rect.mem_set_unit]
  exact Iff.rfl

/-- The 82 blocks cover the array: row `r` is in the block of point `r / 2048`. -/
theorem cover (i : S167936x128.Idx) : ∃ t : Fin cfg2.N, (cfg2.win 15).flush t = true ∧ i ∈ ((cfg2.win 15).blk t).view.set := by
  have hi0 : (i 0).val < 167936 := (i 0).isLt
  have hi1 : (i 1).val < 128 := (i 1).isLt
  have hN : cfg2.N = 82 := N_2
  refine ⟨⟨(i 0).val / 2048, by rw [hN]; omega⟩, flush2_15 _, ?_⟩
  obtain ⟨e0a, e0b, e1a, e1b, e2a, e2b, e15a, e15b, e3a, e3b, e4a, e4b, e5a, e5b, e6a, e6b, e7a, e7b, e8a, e8b, e9a, e9b, e10a, e10b, e11a, e11b, e12a, e12b, e13a, e13b, e14a, e14b⟩ := idx_facts ⟨(i 0).val / 2048, by rw [hN]; omega⟩
  rw [mem_blk]
  intro a
  match a with
  | ⟨0, _⟩ => show win2_15.index _ 0 * 2048 ≤ (i 0).val ∧ (i 0).val < win2_15.index _ 0 * 2048 + 2048; rw [e15a]; show (i 0).val / 2048 * 2048 ≤ (i 0).val ∧ (i 0).val < (i 0).val / 2048 * 2048 + 2048; omega
  | ⟨1, _⟩ => show win2_15.index _ 1 * 128 ≤ (i 1).val ∧ (i 1).val < win2_15.index _ 1 * 128 + 128; rw [e15b]; omega

set_option maxHeartbeats 4000000 in
/-- THE MESSAGE ARRAY after the region, read at `(e, q)`. -/
theorem out_apply (hbody : BodyStmt) (c : Dev nD) (P : Cert.Spec.Params)
    (CH CW : Fin 167936 → Fin 2 → EReal) (AH AW : Fin 167936 → Fin 128 → EReal)
    (hd : ∀ (e : Fin 167936) (i : Fin 2), (V c (Pipeline.arrRef spec2 0) : S167936x2.Idx → EReal) (ix2 e i) = CH e i - CW e i)
    (hq : ∀ (e : Fin 167936) (k : Fin 128), (V c (Pipeline.arrRef spec2 1) : S167936x128.Idx → EReal) (ix2 e k) = AH e k)
    (hs : ∀ (e : Fin 167936) (k : Fin 128), (V c (Pipeline.arrRef spec2 2) : S167936x128.Idx → EReal) (ix2 e k) = AW e k)
    (h3 : ∀ (j : Fin 128) (i : Fin 2), (V c (Pipeline.arrRef spec2 3) : S2x128.Idx → EReal) (ix2 i j) = P.dw1 j i)
    (h4 : ∀ j : Fin 128, (V c (Pipeline.arrRef spec2 4) : S1x128.Idx → EReal) (ix2 0 j) = P.db1 j)
    (h5 : ∀ j k : Fin 128, (V c (Pipeline.arrRef spec2 5) : S128x128.Idx → EReal) (ix2 k j) = P.dw2 j k)
    (h6 : ∀ j : Fin 128, (V c (Pipeline.arrRef spec2 6) : S1x128.Idx → EReal) (ix2 0 j) = P.dgw j)
    (h7 : ∀ j : Fin 128, (V c (Pipeline.arrRef spec2 7) : S1x128.Idx → EReal) (ix2 0 j) = P.dgb j)
    (h8 : ∀ j k : Fin 128, (V c (Pipeline.arrRef spec2 8) : S128x128.Idx → EReal) (ix2 k j) = P.qw j k)
    (h9 : ∀ j : Fin 128, (V c (Pipeline.arrRef spec2 9) : S1x128.Idx → EReal) (ix2 0 j) = P.qgw j)
    (h10 : ∀ j : Fin 128, (V c (Pipeline.arrRef spec2 10) : S1x128.Idx → EReal) (ix2 0 j) = P.qgb j)
    (h11 : ∀ (j : Fin 128) (i : Fin 384), (V c (Pipeline.arrRef spec2 11) : S384x128.Idx → EReal) (ix2 i j) = P.cw1 j i)
    (h12 : ∀ j : Fin 128, (V c (Pipeline.arrRef spec2 12) : S1x128.Idx → EReal) (ix2 0 j) = P.cgw j)
    (h13 : ∀ j : Fin 128, (V c (Pipeline.arrRef spec2 13) : S1x128.Idx → EReal) (ix2 0 j) = P.cgb j)
    (h14 : ∀ j k : Fin 128, (V c (Pipeline.arrRef spec2 14) : S128x128.Idx → EReal) (ix2 k j) = P.cw2 j k)
    (e : Fin 167936) (q : Fin 128) :
    ((dat2 V c).arrAt 15 cfg2.N : S167936x128.Idx → EReal) (ix2 e q) = Cert.Spec.edgeMsg P (CH e) (CW e) (AH e) (AW e) q := by
  rw [(dat2 V c).arrAt_eq_of_cover 15 (G P CH CW AH AW)
    (fun t _ => flushed_eq V hbody c P CH CW AH AW hd hq hs h3 h4 h5 h6 h7 h8 h9 h10 h11 h12 h13 h14 t) cover]
  rfl

end Cert.KernelIdeal.Reg2

end
-- ==== Proof.KHost2.lean ====
/-
  The host operations in front of the second edge region, read at coordinates.

  The twins of the operations in front of the first: the padded index vectors are read (they were computed
  before the first region), the features are the first block's result, and the parameter blocks are slice 1
  of the stacked arrays.  Every statement is for an arbitrary assignment `W` of contents to the buffers
  before these operations.
-/
import proofs.«121864_j48515950576209_1_alg».proof.Proof.KHostEdge
import Idealize.ShloMosaic.Lib.StableHlo.Run

set_option maxRecDepth 8000

noncomputable section

namespace Cert.KHost

open Idealize.ShloMosaic Idealize.ShloMosaic.ValueIdx Idealize.ShloMosaic.StableHlo Cert.KernelIdeal Cert.KernelIdeal.Gen

/-! ## The gathered rows -/

/-- The difference of the two centres of padded entry `e`. -/
theorem v121_apply (W : Valuation τ sig (Elt Ideal)) (ctrs : FVec Ideal S4096x2 .f32) (hg wg : IVec S167936 32)
    (h1 : W (Proc.devRef .tc main_arg1) = ctrs) (hh : W (Proc.devRef .tc main_v1) = hg)
    (hw : W (Proc.devRef .tc main_v3) = wg) (e : Fin 167936) (i : Fin 2) :
    (StableHlo.after (hostOps2 (F := Ideal)) W (Proc.devRef .tc main_v121) : S167936x2.Idx → EReal) (ix2 e i)
      = ctrs (ix2 (Cert.Spec.rowOf (hg (ix1 e))) i) - ctrs (ix2 (Cert.Spec.rowOf (wg (ix1 e))) i) := by
  subst h1 hh hw
  simp only [hostOps2]
  after_results_simp
  rw [subf_apply, Cert.KHostEdge.gather2_read, Cert.KHostEdge.gather2_read]

/-- The target node's features of padded entry `e`, out of the first block's result. -/
theorem v128_apply (W : Valuation τ sig (Elt Ideal)) (a : FVec Ideal S4096x128 .f32) (g : IVec S167936 32)
    (ha : W (Proc.devRef .tc main_v106) = a) (hg : W (Proc.devRef .tc main_v1) = g) (e : Fin 167936) (k : Fin 128) :
    (StableHlo.after (hostOps2 (F := Ideal)) W (Proc.devRef .tc main_v128) : S167936x128.Idx → EReal) (ix2 e k)
      = a (ix2 (Cert.Spec.rowOf (g (ix1 e))) k) := by
  subst ha hg
  simp only [hostOps2]
  after_results_simp
  rw [Cert.KHostEdge.gather128_read]

/-- The source node's features of padded entry `e`, out of the first block's result. -/
theorem v135_apply (W : Valuation τ sig (Elt Ideal)) (a : FVec Ideal S4096x128 .f32) (g : IVec S167936 32)
    (ha : W (Proc.devRef .tc main_v106) = a) (hg : W (Proc.devRef .tc main_v3) = g) (e : Fin 167936) (k : Fin 128) :
    (StableHlo.after (hostOps2 (F := Ideal)) W (Proc.devRef .tc main_v135) : S167936x128.Idx → EReal) (ix2 e k)
      = a (ix2 (Cert.Spec.rowOf (g (ix1 e))) k) := by
  subst ha hg
  simp only [hostOps2]
  after_results_simp
  rw [Cert.KHostEdge.gather128_read]

/-! ## The parameter blocks (slice 1 of the stacked arrays) -/

theorem v139_apply (W : Valuation τ sig (Elt Ideal)) (x : FVec Ideal S2x128x2 .f32)
    (hx : W (Proc.devRef .tc main_arg4) = x) (k : Fin 2) (j : Fin 128) :
    (StableHlo.after (hostOps2 (F := Ideal)) W (Proc.devRef .tc main_v139) : S2x128.Idx → EReal) (ix2 k j)
      = x (ix3 1 j k) := by
  subst hx
  simp only [hostOps2]
  after_results_simp
  exact Cert.KHostEdge.w2T_read 1 _ rfl _ _ k j

theorem v142_apply (W : Valuation τ sig (Elt Ideal)) (x : FVec Ideal S2x128 .f32)
    (hx : W (Proc.devRef .tc main_arg5) = x) (j : Fin 128) :
    (StableHlo.after (hostOps2 (F := Ideal)) W (Proc.devRef .tc main_v142) : S1x128.Idx → EReal) (ix2 0 j)
      = x (ix2 1 j) := by
  subst hx
  simp only [hostOps2]
  after_results_simp
  exact Cert.KHostEdge.row_read 1 _ rfl _ _ j

theorem v146_apply (W : Valuation τ sig (Elt Ideal)) (x : FVec Ideal S2x128x128 .f32)
    (hx : W (Proc.devRef .tc main_arg6) = x) (k : Fin 128) (j : Fin 128) :
    (StableHlo.after (hostOps2 (F := Ideal)) W (Proc.devRef .tc main_v146) : S128x128.Idx → EReal) (ix2 k j)
      = x (ix3 1 j k) := by
  subst hx
  simp only [hostOps2]
  after_results_simp
  exact Cert.KHostEdge.w128T_read 1 _ rfl _ _ k j

theorem v149_apply (W : Valuation τ sig (Elt Ideal)) (x : FVec Ideal S2x128 .f32)
    (hx : W (Proc.devRef .tc main_arg7) = x) (j : Fin 128) :
    (StableHlo.after (hostOps2 (F := Ideal)) W (Proc.devRef .tc main_v149) : S1x128.Idx → EReal) (ix2 0 j)
      = x (ix2 1 j) := by
  subst hx
  simp only [hostOps2]
  after_results_simp
  exact Cert.KHostEdge.row_read 1 _ rfl _ _ j

theorem v152_apply (W : Valuation τ sig (Elt Ideal)) (x : FVec Ideal S2x128 .f32)
    (hx : W (Proc.devRef .tc main_arg8) = x) (j : Fin 128) :
    (StableHlo.after (hostOps2 (F := Ideal)) W (Proc.devRef .tc main_v152) : S1x128.Idx → EReal) (ix2 0 j)
      = x (ix2 1 j) := by
  subst hx
  simp only [hostOps2]
  after_results_simp
  exact Cert.KHostEdge.row_read 1 _ rfl _ _ j

theorem v156_apply (W : Valuation τ sig (Elt Ideal)) (x : FVec Ideal S2x128x128 .f32)
    (hx : W (Proc.devRef .tc main_arg9) = x) (k : Fin 128) (j : Fin 128) :
    (StableHlo.after (hostOps2 (F := Ideal)) W (Proc.devRef .tc main_v156) : S128x128.Idx → EReal) (ix2 k j)
      = x (ix3 1 j k) := by
  subst hx
  simp only [hostOps2]
  after_results_simp
  exact Cert.KHostEdge.w128T_read 1 _ rfl _ _ k j

theorem v159_apply (W : Valuation τ sig (Elt Ideal)) (x : FVec Ideal S2x128 .f32)
    (hx : W (Proc.devRef .tc main_arg10) = x) (j : Fin 128) :
    (StableHlo.after (hostOps2 (F := Ideal)) W (Proc.devRef .tc main_v159) : S1x128.Idx → EReal) (ix2 0 j)
      = x (ix2 1 j) := by
  subst hx
  simp only [hostOps2]
  after_results_simp
  exact Cert.KHostEdge.row_read 1 _ rfl _ _ j

theorem v162_apply (W : Valuation τ sig (Elt Ideal)) (x : FVec Ideal S2x128 .f32)
    (hx : W (Proc.devRef .tc main_arg11) = x) (j : Fin 128) :
    (StableHlo.after (hostOps2 (F := Ideal)) W (Proc.devRef .tc main_v162) : S1x128.Idx → EReal) (ix2 0 j)
      = x (ix2 1 j) := by
  subst hx
  simp only [hostOps2]
  after_results_simp
  exact Cert.KHostEdge.row_read 1 _ rfl _ _ j

theorem v166_apply (W : Valuation τ sig (Elt Ideal)) (x : FVec Ideal S2x128x384 .f32)
    (hx : W (Proc.devRef .tc main_arg12) = x) (k : Fin 384) (j : Fin 128) :
    (StableHlo.after (hostOps2 (F := Ideal)) W (Proc.devRef .tc main_v166) : S384x128.Idx → EReal) (ix2 k j)
      = x (ix3 1 j k) := by
  subst hx
  simp only [hostOps2]
  after_results_simp
  exact Cert.KHostEdge.w384T_read 1 _ rfl _ _ k j

theorem v169_apply (W : Valuation τ sig (Elt Ideal)) (x : FVec Ideal S2x128 .f32)
    (hx : W (Proc.devRef .tc main_arg13) = x) (j : Fin 128) :
    (StableHlo.after (hostOps2 (F := Ideal)) W (Proc.devRef .tc main_v169) : S1x128.Idx → EReal) (ix2 0 j)
      = x (ix2 1 j) := by
  subst hx
  simp only [hostOps2]
  after_results_simp
  exact Cert.KHostEdge.row_read 1 _ rfl _ _ j

theorem v172_apply (W : Valuation τ sig (Elt Ideal)) (x : FVec Ideal S2x128 .f32)
    (hx : W (Proc.devRef .tc main_arg14) = x) (j : Fin 128) :
    (StableHlo.after (hostOps2 (F := Ideal)) W (Proc.devRef .tc main_v172) : S1x128.Idx → EReal) (ix2 0 j)
      = x (ix2 1 j) := by
  subst hx
  simp only [hostOps2]
  after_results_simp
  exact Cert.KHostEdge.row_read 1 _ rfl _ _ j

theorem v176_apply (W : Valuation τ sig (Elt Ideal)) (x : FVec Ideal S2x128x128 .f32)
    (hx : W (Proc.devRef .tc main_arg15) = x) (k : Fin 128) (j : Fin 128) :
    (StableHlo.after (hostOps2 (F := Ideal)) W (Proc.devRef .tc main_v176) : S128x128.Idx → EReal) (ix2 k j)
      = x (ix3 1 j k) := by
  subst hx
  simp only [hostOps2]
  after_results_simp
  exact Cert.KHostEdge.w128T_read 1 _ rfl _ _ k j

end Cert.KHost

end
-- ==== Proof.WalkB.lean ====
/-
  Buffers the run's fold leaves alone between boundaries (the centres and the edge perceptron's parameters): no host operation between the boundaries writes them and no region in between has them as a window array, so the contents at the later boundary are those at the earlier one.
-/
import proofs.«121864_j48515950576209_1_alg».proof.Proof.Gen.KernelIdeal.Frame

set_option maxRecDepth 16384
set_option maxHeartbeats 4000000

noncomputable section

namespace Cert.KernelIdeal.Walk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem W4_main_arg1_eq_W0 (c : Dev nD) : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg4_eq_W0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg5_eq_W0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg6_eq_W0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg7_eq_W0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg8_eq_W0 (c : Dev nD) : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg9_eq_W0 (c : Dev nD) : W4 m ρ c (Proc.devRef .tc main_arg9) = W0 m ρ c (Proc.devRef .tc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg10_eq_W0 (c : Dev nD) : W4 m ρ c (Proc.devRef .tc main_arg10) = W0 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg11_eq_W0 (c : Dev nD) : W4 m ρ c (Proc.devRef .tc main_arg11) = W0 m ρ c (Proc.devRef .tc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg12_eq_W0 (c : Dev nD) : W4 m ρ c (Proc.devRef .tc main_arg12) = W0 m ρ c (Proc.devRef .tc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg13_eq_W0 (c : Dev nD) : W4 m ρ c (Proc.devRef .tc main_arg13) = W0 m ρ c (Proc.devRef .tc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg14_eq_W0 (c : Dev nD) : W4 m ρ c (Proc.devRef .tc main_arg14) = W0 m ρ c (Proc.devRef .tc main_arg14) :=
  calc W4 m ρ c (Proc.devRef .tc main_arg14)
    _ = W3 m ρ c (Proc.devRef .tc main_arg14) := W4_of_ne m ρ c main_arg14 (by decide)
    _ = W2 m ρ c (Proc.devRef .tc main_arg14) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W4_main_arg15_eq_W0 (c : Dev nD) : W4 m ρ c (Proc.devRef .tc main_arg15) = W0 m ρ c (Proc.devRef .tc main_arg15) :=
  calc W4 m ρ c (Proc.devRef .tc main_arg15)
    _ = W3 m ρ c (Proc.devRef .tc main_arg15) := W4_of_ne m ρ c main_arg15 (by decide)
    _ = W2 m ρ c (Proc.devRef .tc main_arg15) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.Walk

end
-- ==== Proof.KBlock1a.lean ====
/-
  Block 1 of the idealized kernel, the edge half: the third host stretch gathers the centres and the FIRST BLOCK'S OUTPUT along the zero-padded index vectors the first stretch made, and lays out the second block's parameters; the edge region then leaves, at row `e` of the message array, the message of the padded list's entry `e`.
-/
import proofs.«121864_j48515950576209_1_alg».proof.Proof.KArgs
import proofs.«121864_j48515950576209_1_alg».proof.Proof.Pad
import proofs.«121864_j48515950576209_1_alg».proof.Proof.Reg2
import proofs.«121864_j48515950576209_1_alg».proof.Proof.EdgeBody
import proofs.«121864_j48515950576209_1_alg».proof.Proof.KHost2
import proofs.«121864_j48515950576209_1_alg».proof.Proof.KBlock0a
import proofs.«121864_j48515950576209_1_alg».proof.Proof.WalkB
import proofs.«121864_j48515950576209_1_alg».proof.Proof.WalkC

set_option maxRecDepth 16384
set_option maxHeartbeats 4000000

noncomputable section

namespace Cert.KernelIdeal.KValue

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-- BLOCK 1, THE EDGE HALF: the message array after region 2, at `(e, q)`, over the first block's output `a`. -/
theorem block1_msg (c : Dev nD) (a : Fin 4096 → Fin 128 → EReal)
    (ha : ∀ (r : Fin 4096) (k : Fin 128), (W4 m ρ c (Proc.devRef .tc main_v106) : S4096x128.Idx → EReal) (ix2 r k) = a r k)
    (e : Fin 167936) (q : Fin 128) :
    (W6 m ρ c (Proc.devRef .tc main_v177) : S167936x128.Idx → EReal) (ix2 e q)
      = edgeMsg (PB m 1 c) (ctrRows m c (rowOf (padded 0#32 (aHi m c) e))) (ctrRows m c (rowOf (padded 0#32 (aWi m c) e)))
          (a (rowOf (padded 0#32 (aHi m c) e))) (a (rowOf (padded 0#32 (aWi m c) e))) q := by
  refine (congrFun (W6_arr m ρ c 15) (ix2 e q)).trans ?_
  have hv1 : ∀ e : Fin 167936, (W4 m ρ c (Proc.devRef .tc main_v1) : S167936.Idx → BitVec 32) (ix1 e) = padded 0#32 (aHi m c) e :=
    fun e => (congrFun (Cert.KernelIdeal.Walk.W4_main_v1_eq_W1 (F := Ideal) m ρ c) (ix1 e)).trans (v1_padded m ρ c e)
  have hv3 : ∀ e : Fin 167936, (W4 m ρ c (Proc.devRef .tc main_v3) : S167936.Idx → BitVec 32) (ix1 e) = padded 0#32 (aWi m c) e :=
    fun e => (congrFun (Cert.KernelIdeal.Walk.W4_main_v3_eq_W1 (F := Ideal) m ρ c) (ix1 e)).trans (v3_padded m ρ c e)
  exact Cert.KernelIdeal.Reg2.out_apply (V5 m ρ) Cert.KBody.edge2_apply c (PB m 1 c)
    (fun e => ctrRows m c (rowOf (padded 0#32 (aHi m c) e))) (fun e => ctrRows m c (rowOf (padded 0#32 (aWi m c) e)))
    (fun e => a (rowOf (padded 0#32 (aHi m c) e))) (fun e => a (rowOf (padded 0#32 (aWi m c) e)))
    (fun e i => (Cert.KHost.v121_apply (W4 m ρ c) _ _ _ (Cert.KernelIdeal.Walk.W4_main_arg1_eq_W0 (F := Ideal) m ρ c) rfl rfl e i).trans
      (by rw [hv1 e, hv3 e]; rfl))
    (fun e k => (Cert.KHost.v128_apply (W4 m ρ c) _ _ rfl rfl e k).trans (by rw [hv1 e]; exact ha _ k))
    (fun e k => (Cert.KHost.v135_apply (W4 m ρ c) _ _ rfl rfl e k).trans (by rw [hv3 e]; exact ha _ k))
    (fun j i => Cert.KHost.v139_apply (W4 m ρ c) _ (Cert.KernelIdeal.Walk.W4_main_arg4_eq_W0 (F := Ideal) m ρ c) i j)
    (fun j => Cert.KHost.v142_apply (W4 m ρ c) _ (Cert.KernelIdeal.Walk.W4_main_arg5_eq_W0 (F := Ideal) m ρ c) j)
    (fun j k => Cert.KHost.v146_apply (W4 m ρ c) _ (Cert.KernelIdeal.Walk.W4_main_arg6_eq_W0 (F := Ideal) m ρ c) k j)
    (fun j => Cert.KHost.v149_apply (W4 m ρ c) _ (Cert.KernelIdeal.Walk.W4_main_arg7_eq_W0 (F := Ideal) m ρ c) j)
    (fun j => Cert.KHost.v152_apply (W4 m ρ c) _ (Cert.KernelIdeal.Walk.W4_main_arg8_eq_W0 (F := Ideal) m ρ c) j)
    (fun j k => Cert.KHost.v156_apply (W4 m ρ c) _ (Cert.KernelIdeal.Walk.W4_main_arg9_eq_W0 (F := Ideal) m ρ c) k j)
    (fun j => Cert.KHost.v159_apply (W4 m ρ c) _ (Cert.KernelIdeal.Walk.W4_main_arg10_eq_W0 (F := Ideal) m ρ c) j)
    (fun j => Cert.KHost.v162_apply (W4 m ρ c) _ (Cert.KernelIdeal.Walk.W4_main_arg11_eq_W0 (F := Ideal) m ρ c) j)
    (fun j i => Cert.KHost.v166_apply (W4 m ρ c) _ (Cert.KernelIdeal.Walk.W4_main_arg12_eq_W0 (F := Ideal) m ρ c) i j)
    (fun j => Cert.KHost.v169_apply (W4 m ρ c) _ (Cert.KernelIdeal.Walk.W4_main_arg13_eq_W0 (F := Ideal) m ρ c) j)
    (fun j => Cert.KHost.v172_apply (W4 m ρ c) _ (Cert.KernelIdeal.Walk.W4_main_arg14_eq_W0 (F := Ideal) m ρ c) j)
    (fun j k => Cert.KHost.v176_apply (W4 m ρ c) _ (Cert.KernelIdeal.Walk.W4_main_arg15_eq_W0 (F := Ideal) m ρ c) k j)
    e q

end Cert.KernelIdeal.KValue

end
-- ==== Proof.Reg3.lean ====
/-
  Region 3 of the idealized kernel (the node update over 4 blocks of 1024 nodes), read as one array: grid point `t`
  fetches rows `1024·t … 1024·t + 1023` of the node features and of the summed messages and the whole of each
  parameter array, and writes back rows `1024·t …` of the updated features; the 4 blocks tile the 4096 rows. So the
  feature array after the region, at row `r`, is the body's result on row `r` of the two per-node arrays.
  The body's arithmetic enters as a hypothesis (`BodyStmt`), proved separately.
-/
import proofs.«121864_j48515950576209_1_alg».proof.Proof.Gen.KernelIdeal.Frame
import proofs.«121864_j48515950576209_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg3

open Cert.KernelIdeal Cert.KernelIdeal.Gen

variable (V : (c : Dev nD) → (b : Ref sig .tc) → Buf (Elt Ideal) ((c : Thread nD τ).loc b))

/-- What the body's arithmetic is taken to be: on any blocks whose row `p` holds a node's features `a` and its summed
    messages `s`, and whose parameter blocks hold a block's parameters transposed, the output block at `(p, q)` is the
    node's update at channel `q`, its pre-norm row the linear image of `a` plus `s`. -/
def BodyStmt : Prop :=
  ∀ (x0 x1 : Vec Ideal S1024x128 .f32) (x2 : Vec Ideal S128x128 .bf16) (x3 x4 : Vec Ideal S1x128 .f32)
    (x5 : Vec Ideal S128x128 .bf16) (x6 x7 : Vec Ideal S1x128 .f32)
    (P : Cert.Spec.Params) (p : Fin 1024) (q : Fin 128) (a s : Fin 128 → EReal),
    (∀ k : Fin 128, x0 (ix2 p k) = a k) → (∀ k : Fin 128, x1 (ix2 p k) = s k) →
    (∀ j k : Fin 128, x2 (ix2 k j) = P.aw j k) → (∀ j : Fin 128, x3 (ix2 0 j) = P.nw j) → (∀ j : Fin 128, x4 (ix2 0 j) = P.nb j) →
    (∀ j k : Fin 128, x5 (ix2 k j) = P.lw j k) → (∀ j : Fin 128, x6 (ix2 0 j) = P.lgw j) → (∀ j : Fin 128, x7 (ix2 0 j) = P.lgb j) →
    out3_8 (F := Ideal) x0 x1 x2 x3 x4 x5 x6 x7 (ix2 p q) = Cert.Spec.nodeUpd P a (fun c => (∑ k, a k * P.aw c k) + s c) q

/-- The printed index maps, decided once over the 4 grid points: the per-node windows and the output move down one
    block of rows per point; every parameter window stays at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_8.index t (0 : Fin 2) = t.val ∧ win3_8.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

theorem t_lt (t : Fin cfg3.N) : t.val < 4 := by have h1 := t.isLt; have h2 : cfg3.N = 4 := N_3; omega

/-- Window 0's block at point `t`, at `(p, i)`, is its array at row `1024·t + p`. -/
theorem iblk_0 (c : Dev nD) (t : Fin cfg3.N) (p : Fin 1024) (i : Fin 128) (k : S4096x128.Idx)
    (hk0 : (k 0).val = 1024 * t.val + p.val) (hk1 : (k 1).val = i.val) :
    (iblk3 V c 0 t : Vec Ideal S1024x128 .f32) (ix2 p i) = (V c (Pipeline.arrRef spec3 0) : S4096x128.Idx → EReal) k := by
  obtain ⟨e0a, e0b, e1a, e1b, e8a, e8b, e2a, e2b, e3a, e3b, e4a, e4b, e5a, e5b, e6a, e6b, e7a, e7b⟩ := idx_facts t
  unfold iblk3
  rw [View.read_apply]
  show (V c (Pipeline.arrRef spec3 0) : S4096x128.Idx → EReal) _ = (V c (Pipeline.arrRef spec3 0) : S4096x128.Idx → EReal) k
  refine congrArg (V c (Pipeline.arrRef spec3 0) : S4096x128.Idx → EReal) (funext fun a => Fin.ext ?_)
  match a with
  | ⟨0, _⟩ => show win3_0.index t 0 * 1024 + 1 * (ix2 p i (0 : Fin 2)).val = (k 0).val; rw [e0a, hk0]; show t.val * 1024 + 1 * p.val = _; omega
  | ⟨1, _⟩ => show win3_0.index t 1 * 128 + 1 * (ix2 p i (1 : Fin 2)).val = (k 1).val; rw [e0b, hk1]; show 0 * 128 + 1 * i.val = _; omega

/-- Window 1's block at point `t`, at `(p, i)`, is its array at row `1024·t + p`. -/
theorem iblk_1 (c : Dev nD) (t : Fin cfg3.N) (p : Fin 1024) (i : Fin 128) (k : S4096x128.Idx)
    (hk0 : (k 0).val = 1024 * t.val + p.val) (hk1 : (k 1).val = i.val) :
    (iblk3 V c 1 t : Vec Ideal S1024x128 .f32) (ix2 p i) = (V c (Pipeline.arrRef spec3 1) : S4096x128.Idx → EReal) k := by
  obtain ⟨e0a, e0b, e1a, e1b, e8a, e8b, e2a, e2b, e3a, e3b, e4a, e4b, e5a, e5b, e6a, e6b, e7a, e7b⟩ := idx_facts t
  unfold iblk3
  rw [View.read_apply]
  show (V c (Pipeline.arrRef spec3 1) : S4096x128.Idx → EReal) _ = (V c (Pipeline.arrRef spec3 1) : S4096x128.Idx → EReal) k
  refine congrArg (V c (Pipeline.arrRef spec3 1) : S4096x128.Idx → EReal) (funext fun a => Fin.ext ?_)
  match a with
  | ⟨0, _⟩ => show win3_1.index t 0 * 1024 + 1 * (ix2 p i (0 : Fin 2)).val = (k 0).val; rw [e1a, hk0]; show t.val * 1024 + 1 * p.val = _; omega
  | ⟨1, _⟩ => show win3_1.index t 1 * 128 + 1 * (ix2 p i (1 : Fin 2)).val = (k 1).val; rw [e1b, hk1]; show 0 * 128 + 1 * i.val = _; omega

/-- Window 2's block at any point is its whole array. -/
theorem iblk_2 (c : Dev nD) (t : Fin cfg3.N) (y : S128x128.Idx) :
    (iblk3 V c 2 t : Vec Ideal S128x128 .bf16) y = (V c (Pipeline.arrRef spec3 2) : S128x128.Idx → EReal) y := by
  obtain ⟨e0a, e0b, e1a, e1b, e8a, e8b, e2a, e2b, e3a, e3b, e4a, e4b, e5a, e5b, e6a, e6b, e7a, e7b⟩ := idx_facts t
  unfold iblk3
  rw [View.read_apply]
  show (V c (Pipeline.arrRef spec3 2) : S128x128.Idx → EReal) _ = (V c (Pipeline.arrRef spec3 2) : S128x128.Idx → EReal) y
  refine congrArg (V c (Pipeline.arrRef spec3 2) : S128x128.Idx → EReal) (funext fun a => Fin.ext ?_)
  match a with
  | ⟨0, _⟩ => show win3_2.index t 0 * 128 + 1 * (y 0).val = (y 0).val; rw [e2a]; omega
  | ⟨1, _⟩ => show win3_2.index t 1 * 128 + 1 * (y 1).val = (y 1).val; rw [e2b]; omega

/-- Window 3's block at any point is its whole array. -/
theorem iblk_3 (c : Dev nD) (t : Fin cfg3.N) (y : S1x128.Idx) :
    (iblk3 V c 3 t : Vec Ideal S1x128 .f32) y = (V c (Pipeline.arrRef spec3 3) : S1x128.Idx → EReal) y := by
  obtain ⟨e0a, e0b, e1a, e1b, e8a, e8b, e2a, e2b, e3a, e3b, e4a, e4b, e5a, e5b, e6a, e6b, e7a, e7b⟩ := idx_facts t
  unfold iblk3
  rw [View.read_apply]
  show (V c (Pipeline.arrRef spec3 3) : S1x128.Idx → EReal) _ = (V c (Pipeline.arrRef spec3 3) : S1x128.Idx → EReal) y
  refine congrArg (V c (Pipeline.arrRef spec3 3) : S1x128.Idx → EReal) (funext fun a => Fin.ext ?_)
  match a with
  | ⟨0, _⟩ => show win3_3.index t 0 * 1 + 1 * (y 0).val = (y 0).val; rw [e3a]; omega
  | ⟨1, _⟩ => show win3_3.index t 1 * 128 + 1 * (y 1).val = (y 1).val; rw [e3b]; omega

/-- Window 4's block at any point is its whole array. -/
theorem iblk_4 (c : Dev nD) (t : Fin cfg3.N) (y : S1x128.Idx) :
    (iblk3 V c 4 t : Vec Ideal S1x128 .f32) y = (V c (Pipeline.arrRef spec3 4) : S1x128.Idx → EReal) y := by
  obtain ⟨e0a, e0b, e1a, e1b, e8a, e8b, e2a, e2b, e3a, e3b, e4a, e4b, e5a, e5b, e6a, e6b, e7a, e7b⟩ := idx_facts t
  unfold iblk3
  rw [View.read_apply]
  show (V c (Pipeline.arrRef spec3 4) : S1x128.Idx → EReal) _ = (V c (Pipeline.arrRef spec3 4) : S1x128.Idx → EReal) y
  refine congrArg (V c (Pipeline.arrRef spec3 4) : S1x128.Idx → EReal) (funext fun a => Fin.ext ?_)
  match a with
  | ⟨0, _⟩ => show win3_4.index t 0 * 1 + 1 * (y 0).val = (y 0).val; rw [e4a]; omega
  | ⟨1, _⟩ => show win3_4.index t 1 * 128 + 1 * (y 1).val = (y 1).val; rw [e4b]; omega

/-- Window 5's block at any point is its whole array. -/
theorem iblk_5 (c : Dev nD) (t : Fin cfg3.N) (y : S128x128.Idx) :
    (iblk3 V c 5 t : Vec Ideal S128x128 .bf16) y = (V c (Pipeline.arrRef spec3 5) : S128x128.Idx → EReal) y := by
  obtain ⟨e0a, e0b, e1a, e1b, e8a, e8b, e2a, e2b, e3a, e3b, e4a, e4b, e5a, e5b, e6a, e6b, e7a, e7b⟩ := idx_facts t
  unfold iblk3
  rw [View.read_apply]
  show (V c (Pipeline.arrRef spec3 5) : S128x128.Idx → EReal) _ = (V c (Pipeline.arrRef spec3 5) : S128x128.Idx → EReal) y
  refine congrArg (V c (Pipeline.arrRef spec3 5) : S128x128.Idx → EReal) (funext fun a => Fin.ext ?_)
  match a with
  | ⟨0, _⟩ => show win3_5.index t 0 * 128 + 1 * (y 0).val = (y 0).val; rw [e5a]; omega
  | ⟨1, _⟩ => show win3_5.index t 1 * 128 + 1 * (y 1).val = (y 1).val; rw [e5b]; omega

/-- Window 6's block at any point is its whole array. -/
theorem iblk_6 (c : Dev nD) (t : Fin cfg3.N) (y : S1x128.Idx) :
    (iblk3 V c 6 t : Vec Ideal S1x128 .f32) y = (V c (Pipeline.arrRef spec3 6) : S1x128.Idx → EReal) y := by
  obtain ⟨e0a, e0b, e1a, e1b, e8a, e8b, e2a, e2b, e3a, e3b, e4a, e4b, e5a, e5b, e6a, e6b, e7a, e7b⟩ := idx_facts t
  unfold iblk3
  rw [View.read_apply]
  show (V c (Pipeline.arrRef spec3 6) : S1x128.Idx → EReal) _ = (V c (Pipeline.arrRef spec3 6) : S1x128.Idx → EReal) y
  refine congrArg (V c (Pipeline.arrRef spec3 6) : S1x128.Idx → EReal) (funext fun a => Fin.ext ?_)
  match a with
  | ⟨0, _⟩ => show win3_6.index t 0 * 1 + 1 * (y 0).val = (y 0).val; rw [e6a]; omega
  | ⟨1, _⟩ => show win3_6.index t 1 * 128 + 1 * (y 1).val = (y 1).val; rw [e6b]; omega

/-- Window 7's block at any point is its whole array. -/
theorem iblk_7 (c : Dev nD) (t : Fin cfg3.N) (y : S1x128.Idx) :
    (iblk3 V c 7 t : Vec Ideal S1x128 .f32) y = (V c (Pipeline.arrRef spec3 7) : S1x128.Idx → EReal) y := by
  obtain ⟨e0a, e0b, e1a, e1b, e8a, e8b, e2a, e2b, e3a, e3b, e4a, e4b, e5a, e5b, e6a, e6b, e7a, e7b⟩ := idx_facts t
  unfold iblk3
  rw [View.read_apply]
  show (V c (Pipeline.arrRef spec3 7) : S1x128.Idx → EReal) _ = (V c (Pipeline.arrRef spec3 7) : S1x128.Idx → EReal) y
  refine congrArg (V c (Pipeline.arrRef spec3 7) : S1x128.Idx → EReal) (funext fun a => Fin.ext ?_)
  match a with
  | ⟨0, _⟩ => show win3_7.index t 0 * 1 + 1 * (y 0).val = (y 0).val; rw [e7a]; omega
  | ⟨1, _⟩ => show win3_7.index t 1 * 128 + 1 * (y 1).val = (y 1).val; rw [e7b]; omega

/-! ## The updated feature array -/

/-- The feature array the region leaves: at row `r`, channel `q`, node `r`'s update. -/
def G (P : Cert.Spec.Params) (A S : Fin 4096 → Fin 128 → EReal) : S4096x128.Idx → EReal :=
  fun i => Cert.Spec.nodeUpd P (A ⟨(i 0).val, (i 0).isLt⟩)
    (fun c => (∑ k, A ⟨(i 0).val, (i 0).isLt⟩ k * P.aw c k) + S ⟨(i 0).val, (i 0).isLt⟩ c) ⟨(i 1).val, (i 1).isLt⟩

set_option maxHeartbeats 4000000 in
/-- WHAT POINT `t` WRITES BACK is block `t` of the feature array: row `p` of the body's output is the update of node
    `1024·t + p`, whose data row `p` of each fetched block holds. -/
theorem flushed_eq (hbody : BodyStmt) (c : Dev nD) (P : Cert.Spec.Params) (A S : Fin 4096 → Fin 128 → EReal)
    (ha : ∀ (r : Fin 4096) (k : Fin 128), (V c (Pipeline.arrRef spec3 0) : S4096x128.Idx → EReal) (ix2 r k) = A r k)
    (hs : ∀ (r : Fin 4096) (k : Fin 128), (V c (Pipeline.arrRef spec3 1) : S4096x128.Idx → EReal) (ix2 r k) = S r k)
    (h2 : ∀ j k : Fin 128, (V c (Pipeline.arrRef spec3 2) : S128x128.Idx → EReal) (ix2 k j) = P.aw j k)
    (h3 : ∀ j : Fin 128, (V c (Pipeline.arrRef spec3 3) : S1x128.Idx → EReal) (ix2 0 j) = P.nw j)
    (h4 : ∀ j : Fin 128, (V c (Pipeline.arrRef spec3 4) : S1x128.Idx → EReal) (ix2 0 j) = P.nb j)
    (h5 : ∀ j k : Fin 128, (V c (Pipeline.arrRef spec3 5) : S128x128.Idx → EReal) (ix2 k j) = P.lw j k)
    (h6 : ∀ j : Fin 128, (V c (Pipeline.arrRef spec3 6) : S1x128.Idx → EReal) (ix2 0 j) = P.lgw j)
    (h7 : ∀ j : Fin 128, (V c (Pipeline.arrRef spec3 7) : S1x128.Idx → EReal) (ix2 0 j) = P.lgb j)
    (t : Fin cfg3.N) :
    (dat3 V c).flushed 8 t = ((cfg3.win 8).blk t).view.read (Elt Ideal) (G P A S) := by
  obtain ⟨e0a, e0b, e1a, e1b, e8a, e8b, e2a, e2b, e3a, e3b, e4a, e4b, e5a, e5b, e6a, e6b, e7a, e7b⟩ := idx_facts t
  have ht := t_lt t
  show (cfg3.win 8).cut (grid3.coords t) ((dat3 V c).after 8 t) = _
  rw [after3_8]
  funext y
  have hy0 : (y 0).val < 1024 := (y 0).isLt
  have hy1 : (y 1).val < 128 := (y 1).isLt
  show out3_8 (F := Ideal) (iblk3 V c 0 t) (iblk3 V c 1 t) (iblk3 V c 2 t) (iblk3 V c 3 t) (iblk3 V c 4 t) (iblk3 V c 5 t) (iblk3 V c 6 t) (iblk3 V c 7 t) y = G P A S (((cfg3.win 8).blk t).view.emb y)
  have he : 1024 * t.val + (y 0).val < 4096 := by omega
  have hG : G P A S (((cfg3.win 8).blk t).view.emb y)
      = Cert.Spec.nodeUpd P (A ⟨1024 * t.val + (y 0).val, he⟩)
          (fun c => (∑ k, A ⟨1024 * t.val + (y 0).val, he⟩ k * P.aw c k) + S ⟨1024 * t.val + (y 0).val, he⟩ c) ⟨(y 1).val, hy1⟩ := by
    have r0 : ((((cfg3.win 8).blk t).view.emb y) 0).val = 1024 * t.val + (y 0).val := by
      show win3_8.index t 0 * 1024 + 1 * (y 0).val = _; rw [e8a]; omega
    have r1 : ((((cfg3.win 8).blk t).view.emb y) 1).val = (y 1).val := by
      show win3_8.index t 1 * 128 + 1 * (y 1).val = _; rw [e8b]; omega
    unfold G
    have f0 : (⟨((((cfg3.win 8).blk t).view.emb y) 0).val, ((((cfg3.win 8).blk t).view.emb y) 0).isLt⟩ : Fin 4096)
        = ⟨1024 * t.val + (y 0).val, he⟩ := Fin.ext r0
    have f1 : (⟨((((cfg3.win 8).blk t).view.emb y) 1).val, ((((cfg3.win 8).blk t).view.emb y) 1).isLt⟩ : Fin 128)
        = ⟨(y 1).val, hy1⟩ := Fin.ext r1
    rw [f0, f1]
  rw [hG]
  have hb := hbody (iblk3 V c 0 t) (iblk3 V c 1 t) (iblk3 V c 2 t) (iblk3 V c 3 t) (iblk3 V c 4 t) (iblk3 V c 5 t) (iblk3 V c 6 t) (iblk3 V c 7 t) P ⟨(y 0).val, hy0⟩ ⟨(y 1).val, hy1⟩
    (A ⟨1024 * t.val + (y 0).val, he⟩) (S ⟨1024 * t.val + (y 0).val, he⟩)
    (fun k => (iblk_0 V c t ⟨(y 0).val, hy0⟩ k (ix2 ⟨1024 * t.val + (y 0).val, he⟩ k) rfl rfl).trans (ha _ k))
    (fun k => (iblk_1 V c t ⟨(y 0).val, hy0⟩ k (ix2 ⟨1024 * t.val + (y 0).val, he⟩ k) rfl rfl).trans (hs _ k))
    (fun j k => (iblk_2 V c t (ix2 k j)).trans (h2 j k)) (fun j => (iblk_3 V c t (ix2 0 j)).trans (h3 j)) (fun j => (iblk_4 V c t (ix2 0 j)).trans (h4 j))
    (fun j k => (iblk_5 V c t (ix2 k j)).trans (h5 j k)) (fun j => (iblk_6 V c t (ix2 0 j)).trans (h6 j)) (fun j => (iblk_7 V c t (ix2 0 j)).trans (h7 j))
  rw [← hb]
  congr 1
  funext a
  match a with
  | ⟨0, _⟩ => rfl
  | ⟨1, _⟩ => rfl

/-- An index of the feature array is in point `t`'s block iff each coordinate is in the block's range. -/
theorem mem_blk (t : Fin cfg3.N) (i : S4096x128.Idx) :
    i ∈ ((cfg3.win 8).blk t).view.set ↔ ∀ a : Fin 2, win3_8.index t a * S1024x128.size a ≤ (i a).val ∧ (i a).val < win3_8.index t a * S1024x128.size a + S1024x128.size a := by
  show i ∈ ((View.whole main_v207).slice (win3_8.rect t)).set ↔ _
  rw [View.set_slice_whole, Rect.mem_set_unit]
  exact Iff.rfl

/-- The 4 blocks cover the array: row `r` is in the block of point `r / 1024`. -/
theorem cover (i : S4096x128.Idx) : ∃ t : Fin cfg3.N, (cfg3.win 8).flush t = true ∧ i ∈ ((cfg3.win 8).blk t).view.set := by
  have hi0 : (i 0).val < 4096 := (i 0).isLt
  have hi1 : (i 1).val < 128 := (i 1).isLt
  have hN : cfg3.N = 4 := N_3
  refine ⟨⟨(i 0).val / 1024, by rw [hN]; omega⟩, flush3_8 _, ?_⟩
  obtain ⟨e0a, e0b, e1a, e1b, e8a, e8b, e2a, e2b, e3a, e3b, e4a, e4b, e5a, e5b, e6a, e6b, e7a, e7b⟩ := idx_facts ⟨(i 0).val / 1024, by rw [hN]; omega⟩
  rw [mem_blk]
  intro a
  match a with
  | ⟨0, _⟩ => show win3_8.index _ 0 * 1024 ≤ (i 0).val ∧ (i 0).val < win3_8.index _ 0 * 1024 + 1024; rw [e8a]; show (i 0).val / 1024 * 1024 ≤ (i 0).val ∧ (i 0).val < (i 0).val / 1024 * 1024 + 1024; omega
  | ⟨1, _⟩ => show win3_8.index _ 1 * 128 ≤ (i 1).val ∧ (i 1).val < win3_8.index _ 1 * 128 + 128; rw [e8b]; omega

set_option maxHeartbeats 4000000 in
/-- THE FEATURE ARRAY after the region, read at `(r, q)`. -/
theorem out_apply (hbody : BodyStmt) (c : Dev nD) (P : Cert.Spec.Params) (A S : Fin 4096 → Fin 128 → EReal)
    (ha : ∀ (r : Fin 4096) (k : Fin 128), (V c (Pipeline.arrRef spec3 0) : S4096x128.Idx → EReal) (ix2 r k) = A r k)
    (hs : ∀ (r : Fin 4096) (k : Fin 128), (V c (Pipeline.arrRef spec3 1) : S4096x128.Idx → EReal) (ix2 r k) = S r k)
    (h2 : ∀ j k : Fin 128, (V c (Pipeline.arrRef spec3 2) : S128x128.Idx → EReal) (ix2 k j) = P.aw j k)
    (h3 : ∀ j : Fin 128, (V c (Pipeline.arrRef spec3 3) : S1x128.Idx → EReal) (ix2 0 j) = P.nw j)
    (h4 : ∀ j : Fin 128, (V c (Pipeline.arrRef spec3 4) : S1x128.Idx → EReal) (ix2 0 j) = P.nb j)
    (h5 : ∀ j k : Fin 128, (V c (Pipeline.arrRef spec3 5) : S128x128.Idx → EReal) (ix2 k j) = P.lw j k)
    (h6 : ∀ j : Fin 128, (V c (Pipeline.arrRef spec3 6) : S1x128.Idx → EReal) (ix2 0 j) = P.lgw j)
    (h7 : ∀ j : Fin 128, (V c (Pipeline.arrRef spec3 7) : S1x128.Idx → EReal) (ix2 0 j) = P.lgb j)
    (r : Fin 4096) (q : Fin 128) :
    ((dat3 V c).arrAt 8 cfg3.N : S4096x128.Idx → EReal) (ix2 r q)
      = Cert.Spec.nodeUpd P (A r) (fun c => (∑ k, A r k * P.aw c k) + S r c) q := by
  rw [(dat3 V c).arrAt_eq_of_cover 8 (G P A S)
    (fun t _ => flushed_eq V hbody c P A S ha hs h2 h3 h4 h5 h6 h7 t) cover]
  rfl

end Cert.KernelIdeal.Reg3

end
-- ==== Proof.KHost3.lean ====
/-
  The host operations between the second edge region and the second node region, read at coordinates.

  The same operations as between the first pair of regions, on the second block's data: the messages of the
  second edge region summed onto the nodes along the normalised target index, and the node update's six
  parameter blocks cut out of the stacked parameter arrays at slice 1. Every statement is for an arbitrary
  assignment `W` of contents to the buffers before these operations.
-/
import proofs.«121864_j48515950576209_1_alg».proof.Proof.KHost1

noncomputable section

namespace Cert.KHost

open Idealize.ShloMosaic Idealize.ShloMosaic.ValueIdx Idealize.ShloMosaic.StableHlo Cert.KernelIdeal Cert.KernelIdeal.Gen

/-! ## What the second node region reads -/

/-- The summed messages of the second block at node `r`, channel `q`. -/
theorem v186_apply (W : Valuation τ sig (Elt Ideal)) (v5 : S167936.Idx → BitVec 32) (u : FVec Ideal S167936x128 .f32)
    (h5 : W (Proc.devRef .tc main_v5) = v5) (h177 : W (Proc.devRef .tc main_v177) = u) (r : Fin 4096) (q : Fin 128) :
    (StableHlo.after (hostOps3 (F := Ideal)) W (Proc.devRef .tc main_v186) : S4096x128.Idx → EReal) (ix2 r q)
      = Ideal.ofBits .f32 0x00000000#32
        + ∑ e ∈ Finset.univ.filter (fun e : Fin 167936 => (Cert.Spec.nrm 4097#32 (v5 (ix1 e))).toInt = (r.val : Int)),
            u (ix2 e q) := by
  subst h5 h177
  simp only [hostOps3]
  after_results_simp
  exact scatter_rows_read _ _ r q

theorem v190_apply (W : Valuation τ sig (Elt Ideal)) (x : FVec Ideal S2x128x128 .f32)
    (hx : W (Proc.devRef .tc main_arg16) = x) (k j : Fin 128) :
    (StableHlo.after (hostOps3 (F := Ideal)) W (Proc.devRef .tc main_v190) : S128x128.Idx → EReal) (ix2 k j)
      = x (ix3 1 j k) := by
  subst hx
  simp only [hostOps3]
  after_results_simp
  exact weightT_read 1 _ rfl _ _ k j

theorem v193_apply (W : Valuation τ sig (Elt Ideal)) (x : FVec Ideal S2x128 .f32)
    (hx : W (Proc.devRef .tc main_arg17) = x) (j : Fin 128) :
    (StableHlo.after (hostOps3 (F := Ideal)) W (Proc.devRef .tc main_v193) : S1x128.Idx → EReal) (ix2 0 j)
      = x (ix2 1 j) := by
  subst hx
  simp only [hostOps3]
  after_results_simp
  exact row_read 1 _ rfl _ _ j

theorem v196_apply (W : Valuation τ sig (Elt Ideal)) (x : FVec Ideal S2x128 .f32)
    (hx : W (Proc.devRef .tc main_arg18) = x) (j : Fin 128) :
    (StableHlo.after (hostOps3 (F := Ideal)) W (Proc.devRef .tc main_v196) : S1x128.Idx → EReal) (ix2 0 j)
      = x (ix2 1 j) := by
  subst hx
  simp only [hostOps3]
  after_results_simp
  exact row_read 1 _ rfl _ _ j

theorem v200_apply (W : Valuation τ sig (Elt Ideal)) (x : FVec Ideal S2x128x128 .f32)
    (hx : W (Proc.devRef .tc main_arg19) = x) (k j : Fin 128) :
    (StableHlo.after (hostOps3 (F := Ideal)) W (Proc.devRef .tc main_v200) : S128x128.Idx → EReal) (ix2 k j)
      = x (ix3 1 j k) := by
  subst hx
  simp only [hostOps3]
  after_results_simp
  exact weightT_read 1 _ rfl _ _ k j

theorem v203_apply (W : Valuation τ sig (Elt Ideal)) (x : FVec Ideal S2x128 .f32)
    (hx : W (Proc.devRef .tc main_arg20) = x) (j : Fin 128) :
    (StableHlo.after (hostOps3 (F := Ideal)) W (Proc.devRef .tc main_v203) : S1x128.Idx → EReal) (ix2 0 j)
      = x (ix2 1 j) := by
  subst hx
  simp only [hostOps3]
  after_results_simp
  exact row_read 1 _ rfl _ _ j

theorem v206_apply (W : Valuation τ sig (Elt Ideal)) (x : FVec Ideal S2x128 .f32)
    (hx : W (Proc.devRef .tc main_arg21) = x) (j : Fin 128) :
    (StableHlo.after (hostOps3 (F := Ideal)) W (Proc.devRef .tc main_v206) : S1x128.Idx → EReal) (ix2 0 j)
      = x (ix2 1 j) := by
  subst hx
  simp only [hostOps3]
  after_results_simp
  exact row_read 1 _ rfl _ _ j

end Cert.KHost

end
-- ==== Proof.KBlock1b.lean ====
/-
  Block 1 of the idealized kernel, the node half: the scatter of the padded edges' messages and the second node region, read as the specification's second block over the first block's output.
-/
import proofs.«121864_j48515950576209_1_alg».proof.Proof.KArgs
import proofs.«121864_j48515950576209_1_alg».proof.Proof.Pad
import proofs.«121864_j48515950576209_1_alg».proof.Proof.BlockEq
import proofs.«121864_j48515950576209_1_alg».proof.Proof.Reg3
import proofs.«121864_j48515950576209_1_alg».proof.Proof.NodeBody
import proofs.«121864_j48515950576209_1_alg».proof.Proof.KHost3
import proofs.«121864_j48515950576209_1_alg».proof.Proof.WalkA
import proofs.«121864_j48515950576209_1_alg».proof.Proof.WalkC

set_option maxRecDepth 16384
set_option maxHeartbeats 4000000

noncomputable section

namespace Cert.KernelIdeal.KValue

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-- BLOCK 1, THE NODE HALF. Given the padded edges' messages in the message array, the host's scatter sums them per
    row into a zero array (a padding entry landing on the discarded row) and the node region updates every node from
    the first block's output: the region's output is the specification's block 1. -/
theorem block1_out (c : Dev nD) (hnn : ∀ e : Fin 167386, 0 ≤ (aHi m c (ix1 e)).toInt)
    (a : Fin 4096 → Fin 128 → EReal)
    (ha : ∀ (r : Fin 4096) (k : Fin 128), (W4 m ρ c (Proc.devRef .tc main_v106) : S4096x128.Idx → EReal) (ix2 r k) = a r k)
    (msg : Fin 167936 → Fin 128 → EReal)
    (hW : ∀ (e : Fin 167936) (q : Fin 128), (W6 m ρ c (Proc.devRef .tc main_v177) : S167936x128.Idx → EReal) (ix2 e q) = msg e q)
    (hmsg : ∀ (e : Fin 167936) (q : Fin 128), msg e q
      = edgeMsg (PB m 1 c) (ctrRows m c (rowOf (padded 0#32 (aHi m c) e))) (ctrRows m c (rowOf (padded 0#32 (aWi m c) e)))
          (a (rowOf (padded 0#32 (aHi m c) e))) (a (rowOf (padded 0#32 (aWi m c) e))) q)
    (hv5 : ∀ e : Fin 167936, (W1 m ρ c (Proc.devRef .tc main_v5) : S167936.Idx → BitVec 32) (ix1 e) = padded 4096#32 (aHi m c) e)
    (r : Fin 4096) (q : Fin 128) :
    (W8 m ρ c (Proc.devRef .tc main_v207) : S4096x128.Idx → EReal) (ix2 r q)
      = attBlock (PB m 1 c) (ctrRows m c) (rowAt (aHi m c)) (rowAt (aWi m c)) (landing (aHi m c)) a r q := by
  refine (congrFun (W8_arr m ρ c 8) (ix2 r q)).trans ?_
  have hS : ∀ (r : Fin 4096) (q : Fin 128), (V7 m ρ c (Pipeline.arrRef spec3 1) : S4096x128.Idx → EReal) (ix2 r q)
      = Ideal.ofBits .f32 0x00000000#32
        + ∑ e ∈ Finset.univ.filter (fun e : Fin 167936 => (nrm 4097#32 (padded 4096#32 (aHi m c) e)).toInt = (r.val : Int)), msg e q := by
    intro r q
    refine (Cert.KHost.v186_apply (W6 m ρ c) _ _ rfl rfl r q).trans ?_
    have hv : ∀ e : Fin 167936, (W6 m ρ c (Proc.devRef .tc main_v5) : S167936.Idx → BitVec 32) (ix1 e) = padded 4096#32 (aHi m c) e :=
      fun e => (congrFun (Cert.KernelIdeal.Walk.W6_main_v5_eq_W1 (F := Ideal) m ρ c) (ix1 e)).trans (hv5 e)
    refine congrArg _ ?_
    rw [Finset.filter_congr (fun e _ => by rw [hv e])]
    exact Finset.sum_congr rfl fun e _ => hW e q
  refine (Cert.KernelIdeal.Reg3.out_apply (V7 m ρ) Cert.KBodyN.node3_apply c (PB m 1 c) a
    (fun r k => (V7 m ρ c (Pipeline.arrRef spec3 1) : S4096x128.Idx → EReal) (ix2 r k))
    (fun r k => (congrFun (Cert.KernelIdeal.Walk.W7_main_v106_eq_W4 (F := Ideal) m ρ c) (ix2 r k)).trans (ha r k))
    (fun _ _ => rfl)
    (fun j k => Cert.KHost.v190_apply (W6 m ρ c) _ (Cert.KernelIdeal.Walk.W6_main_arg16_eq_W0 (F := Ideal) m ρ c) k j)
    (fun j => Cert.KHost.v193_apply (W6 m ρ c) _ (Cert.KernelIdeal.Walk.W6_main_arg17_eq_W0 (F := Ideal) m ρ c) j)
    (fun j => Cert.KHost.v196_apply (W6 m ρ c) _ (Cert.KernelIdeal.Walk.W6_main_arg18_eq_W0 (F := Ideal) m ρ c) j)
    (fun j k => Cert.KHost.v200_apply (W6 m ρ c) _ (Cert.KernelIdeal.Walk.W6_main_arg19_eq_W0 (F := Ideal) m ρ c) k j)
    (fun j => Cert.KHost.v203_apply (W6 m ρ c) _ (Cert.KernelIdeal.Walk.W6_main_arg20_eq_W0 (F := Ideal) m ρ c) j)
    (fun j => Cert.KHost.v206_apply (W6 m ρ c) _ (Cert.KernelIdeal.Walk.W6_main_arg21_eq_W0 (F := Ideal) m ρ c) j)
    r q).trans ?_
  exact Cert.BlockEq.block_eq (PB m 1 c) (ctrRows m c) (aHi m c) (aWi m c) hnn a msg hmsg _ hS r q

end Cert.KernelIdeal.KValue

end
-- ==== Proof.KFinal.lean ====
/-
  The idealized kernel's result: block 1 over block 0 over the actors. The result buffer at the end of the run's fold holds, at `(r, q)`, the specification's result of core `c`'s argument arrays.
-/
import proofs.«121864_j48515950576209_1_alg».proof.Proof.KArgs
import proofs.«121864_j48515950576209_1_alg».proof.Proof.KBlock0a
import proofs.«121864_j48515950576209_1_alg».proof.Proof.KBlock0b
import proofs.«121864_j48515950576209_1_alg».proof.Proof.KBlock1a
import proofs.«121864_j48515950576209_1_alg».proof.Proof.KBlock1b

set_option maxRecDepth 16384
set_option maxHeartbeats 4000000

noncomputable section

namespace Cert.KernelIdeal.KValue

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-- The result both programs end at, as an array: the specification's `result` of core `c`'s argument arrays. -/
def resultArr (c : Dev nD) : S4096x128.Idx → EReal :=
  fun i => Cert.Spec.result (aActors m c) (aCtrs m c) (aHi m c) (aWi m c)
    (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
    ⟨(i 0).val, (i 0).isLt⟩ ⟨(i 1).val, (i 1).isLt⟩

/-- THE KERNEL'S VALUE: when no edge's target index is negative, the result buffer at the end of the fold is the
    specification's result. -/
theorem kernel_value (c : Dev nD) (hnn : ∀ e : Fin 167386, 0 ≤ (aHi m c (ix1 e)).toInt) :
    (W8 m ρ c (Proc.devRef .tc main_v207) : S4096x128.Idx → EReal) = resultArr m c := by
  funext i
  obtain ⟨r, q, rfl⟩ : ∃ (r : Fin 4096) (q : Fin 128), i = ix2 r q := ⟨i 0, i 1, eq_ix2 i⟩
  have h0 : ∀ (r : Fin 4096) (k : Fin 128), (W4 m ρ c (Proc.devRef .tc main_v106) : S4096x128.Idx → EReal) (ix2 r k)
      = attBlock (PB m 0 c) (ctrRows m c) (rowAt (aHi m c)) (rowAt (aWi m c)) (landing (aHi m c)) (fun r k => aActors m c (ix2 r k)) r k :=
    fun r k => block0_out m ρ c hnn _ (fun _ _ => rfl) (fun e q => block0_msg m ρ c e q) (v5_padded m ρ c) r k
  refine (block1_out m ρ c hnn _ h0 _ (fun _ _ => rfl) (fun e q => block1_msg m ρ c _ h0 e q) (v5_padded m ρ c) r q).trans ?_
  rfl

end Cert.KernelIdeal.KValue

end
-- ==== Proof.PreHi.lean ====
/-
  The precondition's last conjunct, decoded: every target index is not negative.

  The printed precondition is a chain of conjunctions `(… ∧ …) ∧ all(hi ≥ 0)`, cut into six parts, each ending in
  the call of the next; whatever the earlier conjuncts are, its value is `and X A` with `A` the `and`-reduction
  over the whole index vector of the signed comparison `hi ≥ 0` (the zero word broadcast along the vector).  If the
  conjunction is 1 then `A` is 1; an `and`-reduction that is 1 had a 1 at every entry; and the comparison is 1 at
  an entry exactly when that entry, read as a signed integer, is at least the zero word's integer, 0.
-/
import proofs.«121864_j48515950576209_1_alg».proof.Defs
import Idealize.ShloMosaic.Lib.ReduceAll
import Idealize.ShloMosaic.Lib.Affine
import Idealize.ShloMosaic.Lib.ValueIdx

noncomputable section

namespace Cert.PreHi

open Idealize.ShloMosaic Idealize.ShloMosaic.ValueIdx
open Cert.Pre_finite_inputs Cert.Pre_finite_inputs.Facts

variable [Cert.Pre_finite_inputs.Facts]

/-- The rank-0 shape has one index. -/
instance : Subsingleton S_.Idx := ⟨fun a b => funext fun d => d.elim0⟩

/-- The last conjunct: the `and` over the whole vector of `hi ≥ 0`. -/
def allNonneg (hi : IVec S167386 32) : IVec S_ 1 :=
  Host.reduce IntOp.andi (cmpi .sge hi (broadcastInDim S167386 ![] bcast_S_S167386 (constantI S_ 32 0#32)))
    (constantI S_ 1 1#1) reducesTo_S167386_S_d0 h_S_

theorem part6_eq {F : FTy → Type} [FloatOps F] (a b : IVec S_ 1) : fn_part6 (F := F) a b = andi a b := rfl

theorem part5_eq (a2 : IVec S167386 32) (a20 a21 : FVec Ideal S2x128 .f32) (v83 : IVec S_ 1)
    (v84 : FVec Ideal S2x128x128 .f32) (c32 : FVec Ideal S_ .f32) :
    ∃ X : IVec S_ 1, fn_part5 (F := Ideal) a2 a20 a21 v83 v84 c32 = andi X (allNonneg a2) := by
  unfold fn_part5
  exact ⟨_, rfl⟩

theorem part4_eq (a2 : IVec S167386 32) (a16 : FVec Ideal S2x128x128 .f32) (a17 a18 : FVec Ideal S2x128 .f32)
    (a19 : FVec Ideal S2x128x128 .f32) (a20 a21 : FVec Ideal S2x128 .f32) (v63 v67 : IVec S_ 1) :
    ∃ X : IVec S_ 1, fn_part4 (F := Ideal) a2 a16 a17 a18 a19 a20 a21 v63 v67 = andi X (allNonneg a2) := by
  unfold fn_part4
  exact part5_eq a2 _ _ _ _ _

theorem part3_eq (a2 : IVec S167386 32) (a13 a14 : FVec Ideal S2x128 .f32) (a15 a16 : FVec Ideal S2x128x128 .f32)
    (a17 a18 : FVec Ideal S2x128 .f32) (a19 : FVec Ideal S2x128x128 .f32) (a20 a21 : FVec Ideal S2x128 .f32)
    (v48 : IVec S_ 1) (v49 v50 : FVec Ideal S2x128x384 .f32) :
    ∃ X : IVec S_ 1, fn_part3 (F := Ideal) a2 a13 a14 a15 a16 a17 a18 a19 a20 a21 v48 v49 v50 = andi X (allNonneg a2) := by
  unfold fn_part3
  exact part4_eq a2 _ _ _ _ _ _ _ _

theorem part2_eq (a2 : IVec S167386 32) (a9 : FVec Ideal S2x128x128 .f32) (a10 a11 : FVec Ideal S2x128 .f32)
    (a12 : FVec Ideal S2x128x384 .f32) (a13 a14 : FVec Ideal S2x128 .f32) (a15 a16 : FVec Ideal S2x128x128 .f32)
    (a17 a18 : FVec Ideal S2x128 .f32) (a19 : FVec Ideal S2x128x128 .f32) (a20 a21 : FVec Ideal S2x128 .f32)
    (v33 : IVec S_ 1) :
    ∃ X : IVec S_ 1, fn_part2 (F := Ideal) a2 a9 a10 a11 a12 a13 a14 a15 a16 a17 a18 a19 a20 a21 v33
      = andi X (allNonneg a2) := by
  unfold fn_part2
  exact part3_eq a2 _ _ _ _ _ _ _ _ _ _ _ _

theorem part1_eq (a2 : IVec S167386 32) (a6 : FVec Ideal S2x128x128 .f32) (a7 a8 : FVec Ideal S2x128 .f32)
    (a9 : FVec Ideal S2x128x128 .f32) (a10 a11 : FVec Ideal S2x128 .f32)
    (a12 : FVec Ideal S2x128x384 .f32) (a13 a14 : FVec Ideal S2x128 .f32) (a15 a16 : FVec Ideal S2x128x128 .f32)
    (a17 a18 : FVec Ideal S2x128 .f32) (a19 : FVec Ideal S2x128x128 .f32) (a20 a21 : FVec Ideal S2x128 .f32)
    (v13 : IVec S_ 1) (v16 : IVec S2x128 1) :
    ∃ X : IVec S_ 1, fn_part1 (F := Ideal) a2 a6 a7 a8 a9 a10 a11 a12 a13 a14 a15 a16 a17 a18 a19 a20 a21 v13 v16
      = andi X (allNonneg a2) := by
  unfold fn_part1
  exact part2_eq a2 _ _ _ _ _ _ _ _ _ _ _ _ _ _

/-- The whole precondition is some conjunction with the last conjunct. -/
theorem fn_eq (a0 : FVec Ideal S4096x128 .f32) (a1 : FVec Ideal S4096x2 .f32) (a2 a3 : IVec S167386 32)
    (a4 : FVec Ideal S2x128x2 .f32) (a5 : FVec Ideal S2x128 .f32) (a6 : FVec Ideal S2x128x128 .f32)
    (a7 a8 : FVec Ideal S2x128 .f32) (a9 : FVec Ideal S2x128x128 .f32) (a10 a11 : FVec Ideal S2x128 .f32)
    (a12 : FVec Ideal S2x128x384 .f32) (a13 a14 : FVec Ideal S2x128 .f32) (a15 a16 : FVec Ideal S2x128x128 .f32)
    (a17 a18 : FVec Ideal S2x128 .f32) (a19 : FVec Ideal S2x128x128 .f32) (a20 a21 : FVec Ideal S2x128 .f32) :
    ∃ X : IVec S_ 1, fn (F := Ideal) a0 a1 a2 a3 a4 a5 a6 a7 a8 a9 a10 a11 a12 a13 a14 a15 a16 a17 a18 a19 a20 a21
      = andi X (allNonneg a2) := by
  unfold fn
  exact part1_eq a2 _ _ _ _ _ _ _ _ _ _ _ _ _ _ _ _ _ _

/-- If the last conjunct is 1, every entry of the index vector is not negative. -/
theorem nonneg_of_all (hi : IVec S167386 32) (h : allNonneg hi ix0 = 1#1) (e : Fin 167386) : 0 ≤ (hi (ix1 e)).toInt := by
  unfold allNonneg at h
  have h1 := Host.reduce_andi_all _ _ reducesTo_S167386_S_d0 h_S_ ix0 h (ix1 e)
  have h2 : IntOp.cmpi .sge (hi (ix1 e)) (0#32) = 1#1 := h1
  have h3 := IntOp.cmpi_sge.1 h2
  have h4 : (0#32 : BitVec 32).toInt = 0 := by decide
  rw [h4] at h3
  exact h3

theorem hi_nonneg (m : (ℓ : Loc Cert.KernelIdeal.nD Cert.KernelIdeal.τ Cert.KernelIdeal.sig) → Buf (Elt Ideal) ℓ)
    (h : Cert.Pre_KernelIdeal m) (c : Dev Cert.KernelIdeal.nD) (e : Fin 167386) :
    0 ≤ ((m ((c.tc : Thread Cert.KernelIdeal.nD Cert.KernelIdeal.τ).loc Cert.KernelIdeal.main_arg2)
      : Cert.KernelIdeal.S167386.Idx → BitVec 32) (ix1 e)).toInt := by
  have hc := h c
  obtain ⟨X, hX⟩ := fn_eq
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21))
  rw [hX] at hc
  have h0 := congrFun hc ix0
  exact nonneg_of_all _ (IntOp.andi_eq_one.1 h0).2 e

end Cert.PreHi

end
-- ==== Proof.RefDefs.lean ====
/-
  The reference program's result as a composition of named pure functions, at the ideal instance.

  Each definition is the program's operations over one stretch, composed in program order: the index column
  of a gather, the rectifiers, GroupNorm along the rows, the three branches of an edge's message, the message,
  the node update, one block, and the two blocks over the parameters sliced out of the stacked arrays.
-/
import proofs.«121864_j48515950576209_1_alg».proof.ReferenceIdeal
import Idealize.ShloMosaic.PureOps.Ideal

noncomputable section

namespace Cert.RefValue

open Idealize.ShloMosaic Cert.ReferenceIdeal Cert.ReferenceIdeal.Facts₀

variable [Cert.ReferenceIdeal.Facts₀]

/-- One block's `[128, 2]` matrix cut out of the stacked `[2, 128, 2]` array: the slice `[o : o + 1]` along axis 0, reshaped. -/
def sliceM2 (o : Nat) (h : S2x128x2.Slices ![o, 0, 0] S1x128x2) (x : FVec Ideal S2x128x2 .f32) : FVec Ideal S128x2 .f32 :=
  shapeCast S128x2 (extractStridedSlice S1x128x2 ![o, 0, 0] x h) shapeCasts_S1x128x2_S128x2

/-- One block's vector cut out of the stacked `[2, 128]` array. -/
def sliceVec (o : Nat) (h : S2x128.Slices ![o, 0] S1x128) (x : FVec Ideal S2x128 .f32) : FVec Ideal S128 .f32 :=
  shapeCast S128 (extractStridedSlice S1x128 ![o, 0] x h) shapeCasts_S1x128_S128

/-- One block's `[128, 128]` matrix cut out of the stacked `[2, 128, 128]` array. -/
def sliceM128 (o : Nat) (h : S2x128x128.Slices ![o, 0, 0] S1x128x128) (x : FVec Ideal S2x128x128 .f32) : FVec Ideal S128x128 .f32 :=
  shapeCast S128x128 (extractStridedSlice S1x128x128 ![o, 0, 0] x h) shapeCasts_S1x128x128_S128x128

/-- One block's `[128, 384]` matrix cut out of the stacked `[2, 128, 384]` array. -/
def sliceM384 (o : Nat) (h : S2x128x384.Slices ![o, 0, 0] S1x128x384) (x : FVec Ideal S2x128x384 .f32) : FVec Ideal S128x384 .f32 :=
  shapeCast S128x384 (extractStridedSlice S1x128x384 ![o, 0, 0] x h) shapeCasts_S1x128x384_S128x384

/-- The index column a gather or scatter reads: a negative index counts from the end (`+ 4096`), any other is kept; laid out as an `[E, 1]` column. -/
def normCol (idx : IVec S167386 32) :
    IVec S167386x1 32 :=
  let c : IVec S_ 32 := constantI S_ 32 0#32
  let v36 : IVec S167386 32 := broadcastInDim S167386 ![] bcast_S_S167386 c
  let v37 : IVec S167386 1 := cmpi .slt idx v36
  let c_0 : IVec S_ 32 := constantI S_ 32 4096#32
  let v38 : IVec S167386 32 := broadcastInDim S167386 ![] bcast_S_S167386 c_0
  let v39 : IVec S167386 32 := addi idx v38
  let v40 : IVec S167386 32 := select v37 v39 idx
  broadcastInDim S167386x1 ![0] bcast_S167386_S167386x1_0 v40

/-- The rectifier `max x 0` on an `[E, 128]` array. -/
def reluE (x : FVec Ideal S167386x128 .f32) :
    FVec Ideal S167386x128 .f32 :=
  let call0_cst : FVec Ideal S_ .f32 := constant S_ .f32 0x00000000#32
  let call0_v0 : FVec Ideal S167386x128 .f32 := broadcastInDim S167386x128 ![] bcast_S_S167386x128 call0_cst
  maximumf x call0_v0

/-- GroupNorm with one group along the rows of an `[E, 128]` array: `(x − μ) · rsqrt(σ² + ε) · w + b`, the mean and the variance sums over the row divided by 128. -/
def gnE (x : FVec Ideal S167386x128 .f32) (w : FVec Ideal S128 .f32) (b : FVec Ideal S128 .f32) :
    FVec Ideal S167386x128 .f32 :=
  let cst : FVec Ideal S_ .f32 := constant S_ .f32 0x00000000#32
  let v59 : FVec Ideal S167386 .f32 := Host.reduceAdd x cst reducesTo_S167386x128_S167386_d1 h_S_
  let v60 : FVec Ideal S167386x1 .f32 := broadcastInDim S167386x1 ![0] bcast_S167386_S167386x1_0 v59
  let cst_3 : FVec Ideal S_ .f32 := constant S_ .f32 0x43000000#32
  let v61 : FVec Ideal S167386x1 .f32 := broadcastInDim S167386x1 ![] bcast_S_S167386x1 cst_3
  let v62 : FVec Ideal S167386x1 .f32 := Host.divf v60 v61
  let v63 : FVec Ideal S167386x128 .f32 := broadcastInDim S167386x128 ![0, 1] bcast_S167386x1_S167386x128_0_1 v62
  let v64 : FVec Ideal S167386x128 .f32 := subf x v63
  let v65 : FVec Ideal S167386x128 .f32 := mulf v64 v64
  let cst_4 : FVec Ideal S_ .f32 := constant S_ .f32 0x00000000#32
  let v66 : FVec Ideal S167386 .f32 := Host.reduceAdd v65 cst_4 reducesTo_S167386x128_S167386_d1 h_S_
  let v67 : FVec Ideal S167386x1 .f32 := broadcastInDim S167386x1 ![0] bcast_S167386_S167386x1_0 v66
  let cst_5 : FVec Ideal S_ .f32 := constant S_ .f32 0x43000000#32
  let v68 : FVec Ideal S167386x1 .f32 := broadcastInDim S167386x1 ![] bcast_S_S167386x1 cst_5
  let v69 : FVec Ideal S167386x1 .f32 := Host.divf v67 v68
  let v70 : FVec Ideal S167386x128 .f32 := broadcastInDim S167386x128 ![0, 1] bcast_S167386x1_S167386x128_0_1 v62
  let v71 : FVec Ideal S167386x128 .f32 := subf x v70
  let cst_6 : FVec Ideal S_ .f32 := constant S_ .f32 0x3727C5AC#32
  let v72 : FVec Ideal S167386x1 .f32 := broadcastInDim S167386x1 ![] bcast_S_S167386x1 cst_6
  let v73 : FVec Ideal S167386x1 .f32 := addf v69 v72
  let v74 : FVec Ideal S167386x1 .f32 := Host.rsqrt v73
  let v75 : FVec Ideal S167386x128 .f32 := broadcastInDim S167386x128 ![0, 1] bcast_S167386x1_S167386x128_0_1 v74
  let v76 : FVec Ideal S167386x128 .f32 := mulf v71 v75
  let v77 : FVec Ideal S1x128 .f32 := broadcastInDim S1x128 ![1] bcast_S128_S1x128_1 w
  let v78 : FVec Ideal S167386x128 .f32 := broadcastInDim S167386x128 ![0, 1] bcast_S1x128_S167386x128_0_1 v77
  let v79 : FVec Ideal S167386x128 .f32 := mulf v76 v78
  let v80 : FVec Ideal S1x128 .f32 := broadcastInDim S1x128 ![1] bcast_S128_S1x128_1 b
  let v81 : FVec Ideal S167386x128 .f32 := broadcastInDim S167386x128 ![0, 1] bcast_S1x128_S167386x128_0_1 v80
  addf v79 v81

/-- The same GroupNorm along the rows of a `[4096, 128]` array. -/
def gnN (x : FVec Ideal S4096x128 .f32) (w : FVec Ideal S128 .f32) (b : FVec Ideal S128 .f32) :
    FVec Ideal S4096x128 .f32 :=
  let cst_23 : FVec Ideal S_ .f32 := constant S_ .f32 0x00000000#32
  let v164 : FVec Ideal S4096 .f32 := Host.reduceAdd x cst_23 reducesTo_S4096x128_S4096_d1 h_S_
  let v165 : FVec Ideal S4096x1 .f32 := broadcastInDim S4096x1 ![0] bcast_S4096_S4096x1_0 v164
  let cst_24 : FVec Ideal S_ .f32 := constant S_ .f32 0x43000000#32
  let v166 : FVec Ideal S4096x1 .f32 := broadcastInDim S4096x1 ![] bcast_S_S4096x1 cst_24
  let v167 : FVec Ideal S4096x1 .f32 := Host.divf v165 v166
  let v168 : FVec Ideal S4096x128 .f32 := broadcastInDim S4096x128 ![0, 1] bcast_S4096x1_S4096x128_0_1 v167
  let v169 : FVec Ideal S4096x128 .f32 := subf x v168
  let v170 : FVec Ideal S4096x128 .f32 := mulf v169 v169
  let cst_25 : FVec Ideal S_ .f32 := constant S_ .f32 0x00000000#32
  let v171 : FVec Ideal S4096 .f32 := Host.reduceAdd v170 cst_25 reducesTo_S4096x128_S4096_d1 h_S_
  let v172 : FVec Ideal S4096x1 .f32 := broadcastInDim S4096x1 ![0] bcast_S4096_S4096x1_0 v171
  let cst_26 : FVec Ideal S_ .f32 := constant S_ .f32 0x43000000#32
  let v173 : FVec Ideal S4096x1 .f32 := broadcastInDim S4096x1 ![] bcast_S_S4096x1 cst_26
  let v174 : FVec Ideal S4096x1 .f32 := Host.divf v172 v173
  let v175 : FVec Ideal S4096x128 .f32 := broadcastInDim S4096x128 ![0, 1] bcast_S4096x1_S4096x128_0_1 v167
  let v176 : FVec Ideal S4096x128 .f32 := subf x v175
  let cst_27 : FVec Ideal S_ .f32 := constant S_ .f32 0x3727C5AC#32
  let v177 : FVec Ideal S4096x1 .f32 := broadcastInDim S4096x1 ![] bcast_S_S4096x1 cst_27
  let v178 : FVec Ideal S4096x1 .f32 := addf v174 v177
  let v179 : FVec Ideal S4096x1 .f32 := Host.rsqrt v178
  let v180 : FVec Ideal S4096x128 .f32 := broadcastInDim S4096x128 ![0, 1] bcast_S4096x1_S4096x128_0_1 v179
  let v181 : FVec Ideal S4096x128 .f32 := mulf v176 v180
  let v182 : FVec Ideal S1x128 .f32 := broadcastInDim S1x128 ![1] bcast_S128_S1x128_1 w
  let v183 : FVec Ideal S4096x128 .f32 := broadcastInDim S4096x128 ![0, 1] bcast_S1x128_S4096x128_0_1 v182
  let v184 : FVec Ideal S4096x128 .f32 := mulf v181 v183
  let v185 : FVec Ideal S1x128 .f32 := broadcastInDim S1x128 ![1] bcast_S128_S1x128_1 b
  let v186 : FVec Ideal S4096x128 .f32 := broadcastInDim S4096x128 ![0, 1] bcast_S1x128_S4096x128_0_1 v185
  addf v184 v186

/-- The leaky rectifier on a `[4096, 128]` array: `x` where `x ≥ 0`, else `slope · x`. -/
def lreluN (x : FVec Ideal S4096x128 .f32) (slope : FVec Ideal S_ .f32) :
    FVec Ideal S4096x128 .f32 :=
  let call4_cst : FVec Ideal S_ .f32 := constant S_ .f32 0x00000000#32
  let call4_v0 : FVec Ideal S4096x128 .f32 := broadcastInDim S4096x128 ![] bcast_S_S4096x128 call4_cst
  let call4_v1 : IVec S4096x128 1 := cmpf .oge x call4_v0
  let call4_v2 : FVec Ideal S_ .f32 := id slope
  let call4_v3 : FVec Ideal S4096x128 .f32 := broadcastInDim S4096x128 ![] bcast_S_S4096x128 call4_v2
  let call4_v4 : FVec Ideal S4096x128 .f32 := mulf call4_v3 x
  select call4_v1 x call4_v4

/-- The distance branch of every edge: `relu(GN(relu(Δ·W₁ᵀ + b₁)·W₂ᵀ))` of the difference `Δ` of the two gathered centres. -/
def distBranch (ctrs : FVec Ideal S4096x2 .f32) (hi : IVec S167386 32) (wi : IVec S167386 32) (dw1 : FVec Ideal S128x2 .f32) (db1 : FVec Ideal S128 .f32) (dw2 : FVec Ideal S128x128 .f32) (dgw : FVec Ideal S128 .f32) (dgb : FVec Ideal S128 .f32) :
    FVec Ideal S167386x128 .f32 :=
  let v41 : IVec S167386x1 32 := normCol hi
  let v42 : FVec Ideal S167386x2 .f32 := Host.gather gather_S4096x2_S167386x1_S167386x2_1_0_n_n_0_1_12 ctrs v41
  let v48 : IVec S167386x1 32 := normCol wi
  let v49 : FVec Ideal S167386x2 .f32 := Host.gather gather_S4096x2_S167386x1_S167386x2_1_0_n_n_0_1_12 ctrs v48
  let v50 : FVec Ideal S167386x2 .f32 := subf v42 v49
  let v51 : FVec Ideal S2x128 .f32 := transpose S2x128 [1, 0] dw1 transposes_S128x2_S2x128_1_0
  let v52 : FVec Ideal S167386x128 .f32 := Host.dotGeneral dot_S167386x2_S2x128_S167386x128_1_0_0_1_n_n none v50 v51
  let v53 : FVec Ideal S1x128 .f32 := broadcastInDim S1x128 ![1] bcast_S128_S1x128_1 db1
  let v54 : FVec Ideal S167386x128 .f32 := broadcastInDim S167386x128 ![0, 1] bcast_S1x128_S167386x128_0_1 v53
  let v55 : FVec Ideal S167386x128 .f32 := addf v52 v54
  let v56 : FVec Ideal S167386x128 .f32 := reluE v55
  let v57 : FVec Ideal S128x128 .f32 := transpose S128x128 [1, 0] dw2 transposes_S128x128_S128x128_1_0
  let v58 : FVec Ideal S167386x128 .f32 := Host.dotGeneral dot_S167386x128_S128x128_S167386x128_1_0_0_1_n_n none v56 v57
  let v82 : FVec Ideal S167386x128 .f32 := gnE v58 dgw dgb
  reluE v82

/-- The query branch of every edge: `relu(GN(a_h·Wqᵀ))` of the gathered target features. -/
def queryBranch (a : FVec Ideal S4096x128 .f32) (hi : IVec S167386 32) (qw : FVec Ideal S128x128 .f32) (qgw : FVec Ideal S128 .f32) (qgb : FVec Ideal S128 .f32) :
    FVec Ideal S167386x128 .f32 :=
  let v89 : IVec S167386x1 32 := normCol hi
  let v90 : FVec Ideal S167386x128 .f32 := Host.gather gather_S4096x128_S167386x1_S167386x128_1_0_n_n_0_1_1128 a v89
  let v91 : FVec Ideal S128x128 .f32 := transpose S128x128 [1, 0] qw transposes_S128x128_S128x128_1_0
  let v92 : FVec Ideal S167386x128 .f32 := Host.dotGeneral dot_S167386x128_S128x128_S167386x128_1_0_0_1_n_n none v90 v91
  let v116 : FVec Ideal S167386x128 .f32 := gnE v92 qgw qgb
  reluE v116

/-- The source features of every edge, gathered. -/
def ctxGather (a : FVec Ideal S4096x128 .f32) (wi : IVec S167386 32) :
    FVec Ideal S167386x128 .f32 :=
  let v123 : IVec S167386x1 32 := normCol wi
  Host.gather gather_S4096x128_S167386x1_S167386x128_1_0_n_n_0_1_1128 a v123

/-- Every edge's message: `relu(GN([d | q | a_w]·Wc₁ᵀ))·Wc₂ᵀ`. -/
def refEdge (a : FVec Ideal S4096x128 .f32) (ctrs : FVec Ideal S4096x2 .f32) (hi : IVec S167386 32) (wi : IVec S167386 32) (dw1 : FVec Ideal S128x2 .f32) (db1 : FVec Ideal S128 .f32) (dw2 : FVec Ideal S128x128 .f32) (dgw : FVec Ideal S128 .f32) (dgb : FVec Ideal S128 .f32) (qw : FVec Ideal S128x128 .f32) (qgw : FVec Ideal S128 .f32) (qgb : FVec Ideal S128 .f32) (cw1 : FVec Ideal S128x384 .f32) (cgw : FVec Ideal S128 .f32) (cgb : FVec Ideal S128 .f32) (cw2 : FVec Ideal S128x128 .f32) :
    FVec Ideal S167386x128 .f32 :=
  let v83 : FVec Ideal S167386x128 .f32 := distBranch ctrs hi wi dw1 db1 dw2 dgw dgb
  let v117 : FVec Ideal S167386x128 .f32 := queryBranch a hi qw qgw qgb
  let v124 : FVec Ideal S167386x128 .f32 := ctxGather a wi
  let v125 : FVec Ideal S167386x384 .f32 := concatenate S167386x384 1 [⟨S167386x128, v83⟩, ⟨S167386x128, v117⟩, ⟨S167386x128, v124⟩] concatenates_S167386x128_S167386x128_S167386x128_S167386x384_d1
  let v126 : FVec Ideal S384x128 .f32 := transpose S384x128 [1, 0] cw1 transposes_S128x384_S384x128_1_0
  let v127 : FVec Ideal S167386x128 .f32 := Host.dotGeneral dot_S167386x384_S384x128_S167386x128_1_0_0_1_n_n none v125 v126
  let v151 : FVec Ideal S167386x128 .f32 := gnE v127 cgw cgb
  let v152 : FVec Ideal S167386x128 .f32 := reluE v151
  let v153 : FVec Ideal S128x128 .f32 := transpose S128x128 [1, 0] cw2 transposes_S128x128_S128x128_1_0
  Host.dotGeneral dot_S167386x128_S128x128_S167386x128_1_0_0_1_n_n none v152 v153

/-- Every node's update: the messages scattered onto `a·Waᵀ`, GroupNorm, leaky rectifier, linear layer, GroupNorm, residual, leaky rectifier. -/
def refNode (a : FVec Ideal S4096x128 .f32) (hi : IVec S167386 32) (msg : FVec Ideal S167386x128 .f32) (aw : FVec Ideal S128x128 .f32) (nw : FVec Ideal S128 .f32) (nb : FVec Ideal S128 .f32) (lw : FVec Ideal S128x128 .f32) (lgw : FVec Ideal S128 .f32) (lgb : FVec Ideal S128 .f32) :
    FVec Ideal S4096x128 .f32 :=
  let v155 : FVec Ideal S128x128 .f32 := transpose S128x128 [1, 0] aw transposes_S128x128_S128x128_1_0
  let v156 : FVec Ideal S4096x128 .f32 := Host.dotGeneral dot_S4096x128_S128x128_S4096x128_1_0_0_1_n_n none a v155
  let v162 : IVec S167386x1 32 := normCol hi
  let v163 : FVec Ideal S4096x128 .f32 := Host.scatterAdd scatter_S4096x128_S167386x1_S167386x128_1_0_0_1 v156 v162 msg
  let v187 : FVec Ideal S4096x128 .f32 := gnN v163 nw nb
  let cst_28 : FVec Ideal S_ .f32 := constant S_ .f32 0x3C23D70A#32
  let v188 : FVec Ideal S4096x128 .f32 := lreluN v187 cst_28
  let v189 : FVec Ideal S128x128 .f32 := transpose S128x128 [1, 0] lw transposes_S128x128_S128x128_1_0
  let v190 : FVec Ideal S4096x128 .f32 := Host.dotGeneral dot_S4096x128_S128x128_S4096x128_1_0_0_1_n_n none v188 v189
  let v214 : FVec Ideal S4096x128 .f32 := gnN v190 lgw lgb
  let v215 : FVec Ideal S4096x128 .f32 := addf v214 a
  let cst_34 : FVec Ideal S_ .f32 := constant S_ .f32 0x3C23D70A#32
  lreluN v215 cst_34

/-- One attention block: the node update of the edge messages. -/
def refBlock (a : FVec Ideal S4096x128 .f32) (ctrs : FVec Ideal S4096x2 .f32) (hi : IVec S167386 32) (wi : IVec S167386 32) (dw1 : FVec Ideal S128x2 .f32) (db1 : FVec Ideal S128 .f32) (dw2 : FVec Ideal S128x128 .f32) (dgw : FVec Ideal S128 .f32) (dgb : FVec Ideal S128 .f32) (qw : FVec Ideal S128x128 .f32) (qgw : FVec Ideal S128 .f32) (qgb : FVec Ideal S128 .f32) (cw1 : FVec Ideal S128x384 .f32) (cgw : FVec Ideal S128 .f32) (cgb : FVec Ideal S128 .f32) (cw2 : FVec Ideal S128x128 .f32) (aw : FVec Ideal S128x128 .f32) (nw : FVec Ideal S128 .f32) (nb : FVec Ideal S128 .f32) (lw : FVec Ideal S128x128 .f32) (lgw : FVec Ideal S128 .f32) (lgb : FVec Ideal S128 .f32) :
    FVec Ideal S4096x128 .f32 :=
  let v154 : FVec Ideal S167386x128 .f32 := refEdge a ctrs hi wi dw1 db1 dw2 dgw dgb qw qgw qgb cw1 cgw cgb cw2
  refNode a hi v154 aw nw nb lw lgw lgb

/-- The reference's result: block 1 applied to block 0 applied to the actors, each block's parameters sliced out of the stacked arrays. -/
def refOut (actors : FVec Ideal S4096x128 .f32) (ctrs : FVec Ideal S4096x2 .f32) (hi : IVec S167386 32) (wi : IVec S167386 32) (dist_w1 : FVec Ideal S2x128x2 .f32) (dist_b1 : FVec Ideal S2x128 .f32) (dist_w2 : FVec Ideal S2x128x128 .f32) (dist_gw : FVec Ideal S2x128 .f32) (dist_gb : FVec Ideal S2x128 .f32) (query_w : FVec Ideal S2x128x128 .f32) (query_gw : FVec Ideal S2x128 .f32) (query_gb : FVec Ideal S2x128 .f32) (ctx_w1 : FVec Ideal S2x128x384 .f32) (ctx_gw : FVec Ideal S2x128 .f32) (ctx_gb : FVec Ideal S2x128 .f32) (ctx_w2 : FVec Ideal S2x128x128 .f32) (agt_w : FVec Ideal S2x128x128 .f32) (norm_w : FVec Ideal S2x128 .f32) (norm_b : FVec Ideal S2x128 .f32) (lin_w : FVec Ideal S2x128x128 .f32) (lin_gw : FVec Ideal S2x128 .f32) (lin_gb : FVec Ideal S2x128 .f32) :
    FVec Ideal S4096x128 .f32 :=
  let v1 : FVec Ideal S128x2 .f32 := sliceM2 0 slices_S2x128x2_S1x128x2_0_0_0 dist_w1
  let v3 : FVec Ideal S128 .f32 := sliceVec 0 slices_S2x128_S1x128_0_0 dist_b1
  let v5 : FVec Ideal S128x128 .f32 := sliceM128 0 slices_S2x128x128_S1x128x128_0_0_0 dist_w2
  let v7 : FVec Ideal S128 .f32 := sliceVec 0 slices_S2x128_S1x128_0_0 dist_gw
  let v9 : FVec Ideal S128 .f32 := sliceVec 0 slices_S2x128_S1x128_0_0 dist_gb
  let v11 : FVec Ideal S128x128 .f32 := sliceM128 0 slices_S2x128x128_S1x128x128_0_0_0 query_w
  let v13 : FVec Ideal S128 .f32 := sliceVec 0 slices_S2x128_S1x128_0_0 query_gw
  let v15 : FVec Ideal S128 .f32 := sliceVec 0 slices_S2x128_S1x128_0_0 query_gb
  let v17 : FVec Ideal S128x384 .f32 := sliceM384 0 slices_S2x128x384_S1x128x384_0_0_0 ctx_w1
  let v19 : FVec Ideal S128 .f32 := sliceVec 0 slices_S2x128_S1x128_0_0 ctx_gw
  let v21 : FVec Ideal S128 .f32 := sliceVec 0 slices_S2x128_S1x128_0_0 ctx_gb
  let v23 : FVec Ideal S128x128 .f32 := sliceM128 0 slices_S2x128x128_S1x128x128_0_0_0 ctx_w2
  let v25 : FVec Ideal S128x128 .f32 := sliceM128 0 slices_S2x128x128_S1x128x128_0_0_0 agt_w
  let v27 : FVec Ideal S128 .f32 := sliceVec 0 slices_S2x128_S1x128_0_0 norm_w
  let v29 : FVec Ideal S128 .f32 := sliceVec 0 slices_S2x128_S1x128_0_0 norm_b
  let v31 : FVec Ideal S128x128 .f32 := sliceM128 0 slices_S2x128x128_S1x128x128_0_0_0 lin_w
  let v33 : FVec Ideal S128 .f32 := sliceVec 0 slices_S2x128_S1x128_0_0 lin_gw
  let v35 : FVec Ideal S128 .f32 := sliceVec 0 slices_S2x128_S1x128_0_0 lin_gb
  let v216 : FVec Ideal S4096x128 .f32 := refBlock actors ctrs hi wi v1 v3 v5 v7 v9 v11 v13 v15 v17 v19 v21 v23 v25 v27 v29 v31 v33 v35
  let v218 : FVec Ideal S128x2 .f32 := sliceM2 1 slices_S2x128x2_S1x128x2_1_0_0 dist_w1
  let v220 : FVec Ideal S128 .f32 := sliceVec 1 slices_S2x128_S1x128_1_0 dist_b1
  let v222 : FVec Ideal S128x128 .f32 := sliceM128 1 slices_S2x128x128_S1x128x128_1_0_0 dist_w2
  let v224 : FVec Ideal S128 .f32 := sliceVec 1 slices_S2x128_S1x128_1_0 dist_gw
  let v226 : FVec Ideal S128 .f32 := sliceVec 1 slices_S2x128_S1x128_1_0 dist_gb
  let v228 : FVec Ideal S128x128 .f32 := sliceM128 1 slices_S2x128x128_S1x128x128_1_0_0 query_w
  let v230 : FVec Ideal S128 .f32 := sliceVec 1 slices_S2x128_S1x128_1_0 query_gw
  let v232 : FVec Ideal S128 .f32 := sliceVec 1 slices_S2x128_S1x128_1_0 query_gb
  let v234 : FVec Ideal S128x384 .f32 := sliceM384 1 slices_S2x128x384_S1x128x384_1_0_0 ctx_w1
  let v236 : FVec Ideal S128 .f32 := sliceVec 1 slices_S2x128_S1x128_1_0 ctx_gw
  let v238 : FVec Ideal S128 .f32 := sliceVec 1 slices_S2x128_S1x128_1_0 ctx_gb
  let v240 : FVec Ideal S128x128 .f32 := sliceM128 1 slices_S2x128x128_S1x128x128_1_0_0 ctx_w2
  let v242 : FVec Ideal S128x128 .f32 := sliceM128 1 slices_S2x128x128_S1x128x128_1_0_0 agt_w
  let v244 : FVec Ideal S128 .f32 := sliceVec 1 slices_S2x128_S1x128_1_0 norm_w
  let v246 : FVec Ideal S128 .f32 := sliceVec 1 slices_S2x128_S1x128_1_0 norm_b
  let v248 : FVec Ideal S128x128 .f32 := sliceM128 1 slices_S2x128x128_S1x128x128_1_0_0 lin_w
  let v250 : FVec Ideal S128 .f32 := sliceVec 1 slices_S2x128_S1x128_1_0 lin_gw
  let v252 : FVec Ideal S128 .f32 := sliceVec 1 slices_S2x128_S1x128_1_0 lin_gb
  refBlock v216 ctrs hi wi v218 v220 v222 v224 v226 v228 v230 v232 v234 v236 v238 v240 v242 v244 v246 v248 v250 v252

end Cert.RefValue

end
-- ==== Proof.RefParts.lean ====
/-
  The small pieces of the reference read at an index: the normalised index column, the rectifiers, GroupNorm
  along the rows, and a block's parameters cut out of the stacked arrays.
-/
import proofs.«121864_j48515950576209_1_alg».proof.Proof.RefDefs
import proofs.«121864_j48515950576209_1_alg».proof.Proof.Spec
import proofs.«121864_j48515950576209_1_alg».proof.Proof.LibHostReads
import Idealize.ShloMosaic.Lib.IdealHost
import Idealize.ShloMosaic.Lib.ValueLayout

noncomputable section

namespace Cert.RefValue

open Idealize.ShloMosaic Idealize.ShloMosaic.ValueIdx Cert.ReferenceIdeal Cert.ReferenceIdeal.Facts₀

variable [Cert.ReferenceIdeal.Facts₀]

/-! ## Words -/

/-- "If the word is negative add `N`, else keep it" is the normalised index. -/
theorem select_slt_zero (b N : BitVec 32) :
    Scalar.select (IntOp.cmpi .slt b 0#32) (IntOp.addi b N) b = Cert.Spec.nrm N b := by
  unfold Cert.Spec.nrm Scalar.select IntOp.cmpi IntOp.addi
  by_cases h : b.toInt < 0
  · simp [BitVec.slt, h]
  · simp [BitVec.slt, h]

/-- The host's reciprocal square root at an index. -/
theorem hostRsqrt_apply {s : Shape} {φ : FTy} (v : FVec Ideal s φ) (i : s.Idx) :
    Host.rsqrt v i = Ideal.rsqrt (v i) := rfl

/-! ## The index column -/

/-- The index column at edge `e` is the edge's normalised index. -/
theorem normCol_apply (idx : IVec S167386 32) (e : Fin 167386) :
    normCol idx (ix2 e 0) = Cert.Spec.nrm 4096#32 (idx (ix1 e)) := by
  simp only [normCol]
  rw [Cert.LibHostReads.colInner_apply]
  exact select_slt_zero _ _

/-- The row a gather along the index column reads for edge `e`. -/
theorem takeRow_normCol (idx : IVec S167386 32) (e : Fin 167386) :
    Cert.SegmentRows.takeRow (N := 4096) (by decide) (normCol idx) e = Cert.Spec.rowAt idx e := by
  apply Fin.ext
  show min (normCol idx (ix2 e 0)).toInt.toNat (4096 - 1) = min (Cert.Spec.nrm 4096#32 (idx (ix1 e))).toInt.toNat 4095
  rw [normCol_apply]

/-- The edges a scatter along the index column lands on row `r`. -/
theorem segment_normCol (idx : IVec S167386 32) (r : Fin 4096) :
    Cert.SegmentRows.segment (normCol idx) r = Cert.Spec.landing idx r := by
  unfold Cert.SegmentRows.segment Cert.Spec.landing
  exact Finset.filter_congr fun e _ => by rw [normCol_apply]

/-! ## The rectifiers -/

/-- The rectifier at an index. -/
theorem reluE_apply (x : FVec Ideal S167386x128 .f32) (i : S167386x128.Idx) :
    reluE x i = Cert.Spec.relu (x i) := rfl

/-- The leaky rectifier with the slope word of `0.01`, at an index. -/
theorem lreluN_apply (x : FVec Ideal S4096x128 .f32) (i : S4096x128.Idx) :
    lreluN x (constant (F := Ideal) S_ .f32 0x3C23D70A#32) i = Cert.Spec.lrelu (x i) := rfl

/-! ## The layout operations at the printed shapes

The general readings (a kept axis broadcast, a row sum) restated at each printed shape and evidence, so that a
rewriting step finds them wherever they occur, also under a sum. -/

/-- `[167386] → [167386, 1]` at `(p, 0)`. -/
theorem bcColE {α : Type} (u : S167386.Idx → α) (p : Fin 167386) :
    broadcastInDim S167386x1 ![0] bcast_S167386_S167386x1_0 u (ix2 p 0) = u (ix1 p) :=
  Cert.LibHostReads.colInner_apply u _ p

/-- `[167386, 1] → [167386, 128]` at `(p, q)`. -/
theorem bcOutE {α : Type} (w : S167386x1.Idx → α) (p : Fin 167386) (q : Fin 128) :
    broadcastInDim S167386x128 ![0, 1] bcast_S167386x1_S167386x128_0_1 w (ix2 p q) = w (ix2 p 0) :=
  Cert.LibHostReads.colOuter_apply w _ p q

/-- `[1, 128] → [167386, 128]` at `(p, q)`. -/
theorem bcRowsE {α : Type} (w : S1x128.Idx → α) (p : Fin 167386) (q : Fin 128) :
    broadcastInDim S167386x128 ![0, 1] bcast_S1x128_S167386x128_0_1 w (ix2 p q) = w (ix2 0 q) :=
  Cert.LibHostReads.rowOuter_apply w _ p q

/-- A scalar broadcast to `[167386, 1]`. -/
theorem bcScalarE {α : Type} (x : S_.Idx → α) (j : S167386x1.Idx) :
    broadcastInDim S167386x1 ![] bcast_S_S167386x1 x j = x ix0 :=
  broadcastInDim_scalar_apply _ x j

/-- The sum along row `p` of a `[167386, 128]` array, from the initial value. -/
theorem rowSumE (v : FVec Ideal S167386x128 .f32) (init : FVec Ideal S_ .f32) (p : Fin 167386) :
    Host.reduceAdd (F := Ideal) v init reducesTo_S167386x128_S167386_d1 h_S_ (ix1 p)
      = init (Shape.Idx.first h_S_) + ∑ c : Fin 128, v (ix2 p c) :=
  Cert.LibHostReads.hostRowSum_apply v init _ _ p

/-- `[4096] → [4096, 1]` at `(p, 0)`. -/
theorem bcColN {α : Type} (u : S4096.Idx → α) (p : Fin 4096) :
    broadcastInDim S4096x1 ![0] bcast_S4096_S4096x1_0 u (ix2 p 0) = u (ix1 p) :=
  Cert.LibHostReads.colInner_apply u _ p

/-- `[4096, 1] → [4096, 128]` at `(p, q)`. -/
theorem bcOutN {α : Type} (w : S4096x1.Idx → α) (p : Fin 4096) (q : Fin 128) :
    broadcastInDim S4096x128 ![0, 1] bcast_S4096x1_S4096x128_0_1 w (ix2 p q) = w (ix2 p 0) :=
  Cert.LibHostReads.colOuter_apply w _ p q

/-- `[1, 128] → [4096, 128]` at `(p, q)`. -/
theorem bcRowsN {α : Type} (w : S1x128.Idx → α) (p : Fin 4096) (q : Fin 128) :
    broadcastInDim S4096x128 ![0, 1] bcast_S1x128_S4096x128_0_1 w (ix2 p q) = w (ix2 0 q) :=
  Cert.LibHostReads.rowOuter_apply w _ p q

/-- A scalar broadcast to `[4096, 1]`. -/
theorem bcScalarN {α : Type} (x : S_.Idx → α) (j : S4096x1.Idx) :
    broadcastInDim S4096x1 ![] bcast_S_S4096x1 x j = x ix0 :=
  broadcastInDim_scalar_apply _ x j

/-- The sum along row `p` of a `[4096, 128]` array, from the initial value. -/
theorem rowSumN (v : FVec Ideal S4096x128 .f32) (init : FVec Ideal S_ .f32) (p : Fin 4096) :
    Host.reduceAdd (F := Ideal) v init reducesTo_S4096x128_S4096_d1 h_S_ (ix1 p)
      = init (Shape.Idx.first h_S_) + ∑ c : Fin 128, v (ix2 p c) :=
  Cert.LibHostReads.hostRowSum_apply v init _ _ p

/-- `[128] → [1, 128]` at `(0, q)`. -/
theorem bcRow {α : Type} (u : S128.Idx → α) (q : Fin 128) :
    broadcastInDim S1x128 ![1] bcast_S128_S1x128_1 u (ix2 0 q) = u (ix1 q) :=
  Cert.LibHostReads.rowInner_apply u _ q

/-! ## GroupNorm along the rows -/

/-- GroupNorm along the rows of a `[167386, 128]` array, read at `(e, c)`: the GroupNorm of row `e`. -/
theorem gnE_apply (x : FVec Ideal S167386x128 .f32) (w b : FVec Ideal S128 .f32) (e : Fin 167386) (c : Fin 128) :
    gnE x w b (ix2 e c)
      = Cert.Spec.gnorm (fun k => x (ix2 e k)) (fun k => w (ix1 k)) (fun k => b (ix1 k)) c := by
  simp (config := { proj := false }) only [gnE, addf_apply, mulf_apply, subf_apply, hostDivf_apply, hostRsqrt_apply,
    bcOutE, bcRowsE, bcRow, bcColE, rowSumE, bcScalarE,
    constant_apply, Ideal.ofBits_zero_f32, zero_add]
  rfl

/-- GroupNorm along the rows of a `[4096, 128]` array, read at `(e, c)`: the GroupNorm of row `e`. -/
theorem gnN_apply (x : FVec Ideal S4096x128 .f32) (w b : FVec Ideal S128 .f32) (e : Fin 4096) (c : Fin 128) :
    gnN x w b (ix2 e c)
      = Cert.Spec.gnorm (fun k => x (ix2 e k)) (fun k => w (ix1 k)) (fun k => b (ix1 k)) c := by
  simp (config := { proj := false }) only [gnN, addf_apply, mulf_apply, subf_apply, hostDivf_apply, hostRsqrt_apply,
    bcOutN, bcRowsN, bcRow, bcColN, rowSumN, bcScalarN,
    constant_apply, Ideal.ofBits_zero_f32, zero_add]
  rfl
/-! ## A block's parameters -/

/-- A block's vector: entry `j` of block `i`. -/
theorem sliceVec_apply (o : Nat) (h : S2x128.Slices ![o, 0] S1x128) (x : FVec Ideal S2x128 .f32)
    (i : Fin 2) (hi : i.val = o) (j : Fin 128) : sliceVec o h x (ix1 j) = x (ix2 i j) := by
  unfold sliceVec
  rw [shapeCast_1a_a_apply]
  exact slice2_axis0_apply o x h 0 j i (by rw [hi]; rfl)

/-- A rank-3 array cut along axis 0 from `o`, one layer thick, reads at `(0, j, k)` the source at `(i, j, k)`, `i = o`. -/
theorem slice3_axis0_unit_apply {n1 n2 : Nat} (o : Nat) (X : (⟨3, ![2, n1, n2]⟩ : Shape).Idx → EReal)
    (h : (⟨3, ![2, n1, n2]⟩ : Shape).Slices ![o, 0, 0] ⟨3, ![1, n1, n2]⟩)
    (i : Fin 2) (hi : i.val = o) (j : Fin n1) (k : Fin n2) :
    extractStridedSlice ⟨3, ![1, n1, n2]⟩ ![o, 0, 0] X h (ix3 (0 : Fin 1) j k) = X (ix3 i j k) :=
  extractStridedSlice_apply _ _ _ _ _ (fun ax => by
    match ax with
    | ⟨0, _⟩ => exact hi.trans (Nat.add_zero _).symm
    | ⟨1, _⟩ => exact (Nat.zero_add _).symm
    | ⟨2, _⟩ => exact (Nat.zero_add _).symm)

/-- A block's `[128, 2]` matrix: entry `(j, k)` of block `i`. -/
theorem sliceM2_apply (o : Nat) (h : S2x128x2.Slices ![o, 0, 0] S1x128x2) (x : FVec Ideal S2x128x2 .f32)
    (i : Fin 2) (hi : i.val = o) (j : Fin 128) (k : Fin 2) : sliceM2 o h x (ix2 j k) = x (ix3 i j k) := by
  unfold sliceM2
  rw [shapeCast_1ab_ab_apply]
  exact slice3_axis0_unit_apply o x h i hi j k

/-- A block's `[128, 128]` matrix: entry `(j, k)` of block `i`. -/
theorem sliceM128_apply (o : Nat) (h : S2x128x128.Slices ![o, 0, 0] S1x128x128) (x : FVec Ideal S2x128x128 .f32)
    (i : Fin 2) (hi : i.val = o) (j : Fin 128) (k : Fin 128) : sliceM128 o h x (ix2 j k) = x (ix3 i j k) := by
  unfold sliceM128
  rw [shapeCast_1ab_ab_apply]
  exact slice3_axis0_unit_apply o x h i hi j k

/-- A block's `[128, 384]` matrix: entry `(j, k)` of block `i`. -/
theorem sliceM384_apply (o : Nat) (h : S2x128x384.Slices ![o, 0, 0] S1x128x384) (x : FVec Ideal S2x128x384 .f32)
    (i : Fin 2) (hi : i.val = o) (j : Fin 128) (k : Fin 384) : sliceM384 o h x (ix2 j k) = x (ix3 i j k) := by
  unfold sliceM384
  rw [shapeCast_1ab_ab_apply]
  exact slice3_axis0_unit_apply o x h i hi j k

end Cert.RefValue

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«121864_j48515950576209_1_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.RefOps.lean ====
/-
  The reference's products, gathers, scatter and concatenation read at an entry, at the printed records.

  A product of an array by a transposed weight matrix is, at `(a, b)`, `∑ k, l (a, k) · w (b, k)`; a gather along the
  normalised index column reads the row the specification names; the accumulating scatter along it adds, onto row
  `r`, the updates of the edges that land on `r`; three `[E, 128]` arrays side by side read as `cat3` of their rows.
-/
import proofs.«121864_j48515950576209_1_alg».proof.Proof.RefParts
import proofs.«121864_j48515950576209_1_alg».proof.Proof.LibPlainDot

noncomputable section

namespace Cert.RefValue

open Idealize.ShloMosaic Idealize.ShloMosaic.ValueIdx Cert.ReferenceIdeal Cert.ReferenceIdeal.Facts₀

variable [Cert.ReferenceIdeal.Facts₀]

/-! ## Products by a transposed weight matrix -/

/-- A `[4096, 128]` array times a transposed `[128, 128]` weight matrix. -/
theorem dotN_apply (l : FVec Ideal S4096x128 .f32) (w : FVec Ideal S128x128 .f32) (a : Fin 4096) (b : Fin 128) :
    Host.dotGeneral (F := Ideal) dot_S4096x128_S128x128_S4096x128_1_0_0_1_n_n none l (transpose S128x128 [1, 0] w transposes_S128x128_S128x128_1_0) (ix2 a b)
      = ∑ k : Fin 128, l (ix2 a k) * w (ix2 b k) :=
  (Cert.LibPlainDot.dotGeneral_plain_apply dot_S4096x128_S128x128_S4096x128_1_0_0_1_n_n rfl rfl rfl rfl rfl rfl none .single l _ a b).trans
    (Finset.sum_congr rfl fun k _ => by rw [transpose_ix2_apply])

/-- An `[E, 128]` array times a transposed `[128, 128]` weight matrix. -/
theorem dotE128_apply (l : FVec Ideal S167386x128 .f32) (w : FVec Ideal S128x128 .f32) (a : Fin 167386) (b : Fin 128) :
    Host.dotGeneral (F := Ideal) dot_S167386x128_S128x128_S167386x128_1_0_0_1_n_n none l (transpose S128x128 [1, 0] w transposes_S128x128_S128x128_1_0) (ix2 a b)
      = ∑ k : Fin 128, l (ix2 a k) * w (ix2 b k) :=
  (Cert.LibPlainDot.dotGeneral_plain_apply dot_S167386x128_S128x128_S167386x128_1_0_0_1_n_n rfl rfl rfl rfl rfl rfl none .single l _ a b).trans
    (Finset.sum_congr rfl fun k _ => by rw [transpose_ix2_apply])

/-- An `[E, 2]` array times a transposed `[128, 2]` weight matrix. -/
theorem dotE2_apply (l : FVec Ideal S167386x2 .f32) (w : FVec Ideal S128x2 .f32) (a : Fin 167386) (b : Fin 128) :
    Host.dotGeneral (F := Ideal) dot_S167386x2_S2x128_S167386x128_1_0_0_1_n_n none l (transpose S2x128 [1, 0] w transposes_S128x2_S2x128_1_0) (ix2 a b)
      = ∑ k : Fin 2, l (ix2 a k) * w (ix2 b k) :=
  (Cert.LibPlainDot.dotGeneral_plain_apply dot_S167386x2_S2x128_S167386x128_1_0_0_1_n_n rfl rfl rfl rfl rfl rfl none .single l _ a b).trans
    (Finset.sum_congr rfl fun k _ => by rw [transpose_ix2_apply])

/-- An `[E, 384]` array times a transposed `[128, 384]` weight matrix. -/
theorem dotE384_apply (l : FVec Ideal S167386x384 .f32) (w : FVec Ideal S128x384 .f32) (a : Fin 167386) (b : Fin 128) :
    Host.dotGeneral (F := Ideal) dot_S167386x384_S384x128_S167386x128_1_0_0_1_n_n none l (transpose S384x128 [1, 0] w transposes_S128x384_S384x128_1_0) (ix2 a b)
      = ∑ k : Fin 384, l (ix2 a k) * w (ix2 b k) :=
  (Cert.LibPlainDot.dotGeneral_plain_apply dot_S167386x384_S384x128_S167386x128_1_0_0_1_n_n rfl rfl rfl rfl rfl rfl none .single l _ a b).trans
    (Finset.sum_congr rfl fun k _ => by rw [transpose_ix2_apply])

/-! ## Gathers and the scatter along the normalised index column -/

/-- A gather of feature rows along the index column reads, for edge `e`, the row the specification names. -/
theorem gatherA_apply (a : FVec Ideal S4096x128 .f32) (idx : IVec S167386 32) (e : Fin 167386) (c : Fin 128) :
    Host.gather gather_S4096x128_S167386x1_S167386x128_1_0_n_n_0_1_1128 a (normCol idx) (ix2 e c)
      = a (ix2 (Cert.Spec.rowAt idx e) c) := by
  rw [Cert.LibHostReads.hostGather_rows_apply (N := 4096) (by decide)
    gather_S4096x128_S167386x1_S167386x128_1_0_n_n_0_1_1128
    gather_S4096x128_S167386x1_S167386x128_1_0_n_n_0_1_1128_wf rfl, takeRow_normCol]

/-- A gather of centre rows along the index column reads, for edge `e`, the row the specification names. -/
theorem gatherC_apply (ctrs : FVec Ideal S4096x2 .f32) (idx : IVec S167386 32) (e : Fin 167386) (k : Fin 2) :
    Host.gather gather_S4096x2_S167386x1_S167386x2_1_0_n_n_0_1_12 ctrs (normCol idx) (ix2 e k)
      = ctrs (ix2 (Cert.Spec.rowAt idx e) k) := by
  rw [Cert.LibHostReads.hostGather_rows_apply (N := 4096) (by decide)
    gather_S4096x2_S167386x1_S167386x2_1_0_n_n_0_1_12
    gather_S4096x2_S167386x1_S167386x2_1_0_n_n_0_1_12_wf rfl, takeRow_normCol]

/-- The accumulating scatter along the index column: onto `(r, c)` land the updates of the edges whose normalised
    index is `r`. -/
theorem scatterN_apply (x : FVec Ideal S4096x128 .f32) (idx : IVec S167386 32) (upd : FVec Ideal S167386x128 .f32)
    (r : Fin 4096) (c : Fin 128) :
    Host.scatterAdd (F := Ideal) scatter_S4096x128_S167386x1_S167386x128_1_0_0_1 x (normCol idx) upd (ix2 r c)
      = x (ix2 r c) + ∑ e ∈ Cert.Spec.landing idx r, upd (ix2 e c) := by
  rw [Cert.LibHostReads.hostScatter_rows_apply scatter_S4096x128_S167386x1_S167386x128_1_0_0_1
    scatter_S4096x128_S167386x1_S167386x128_1_0_0_1_wf rfl, segment_normCol]

/-! ## Three arrays side by side -/

/-- Three `[E, 128]` arrays concatenated along the columns, at `(e, i)`: `cat3` of their rows `e`. -/
theorem cat3_apply (d q g : FVec Ideal S167386x128 .f32) (e : Fin 167386) (i : Fin 384) :
    concatenate S167386x384 1 [⟨S167386x128, d⟩, ⟨S167386x128, q⟩, ⟨S167386x128, g⟩]
        concatenates_S167386x128_S167386x128_S167386x128_S167386x384_d1 (ix2 e i)
      = Cert.Spec.cat3 (fun k => d (ix2 e k)) (fun k => q (ix2 e k)) (fun k => g (ix2 e k)) i := by
  have hoff : ∀ (b : Fin 2) (k : Fin 128), (b : Fin 2) ≠ 1 → ((ix2 e k : S167386x128.Idx) b).val = ((ix2 e i : S167386x384.Idx) b).val := by
    intro b k hb
    match b with
    | ⟨0, _⟩ => rfl
    | ⟨1, _⟩ => exact absurd rfl hb
  unfold Cert.Spec.cat3
  split_ifs with h1 h2
  · exact concatenate_apply_piece 1 _ _ (ix2 e i) 0 (by simp) S167386x128 d rfl rfl 0 rfl (ix2 e ⟨i.val, h1⟩)
      (fun b hb => hoff b _ hb) (by show 0 + i.val = i.val; omega)
  · exact concatenate_apply_piece 1 _ _ (ix2 e i) 1 (by simp) S167386x128 q rfl rfl 128 rfl (ix2 e ⟨i.val - 128, by omega⟩)
      (fun b hb => hoff b _ hb) (by show 128 + (i.val - 128) = i.val; omega)
  · exact concatenate_apply_piece 1 _ _ (ix2 e i) 2 (by simp) S167386x128 g rfl rfl 256 rfl (ix2 e ⟨i.val - 256, by omega⟩)
      (fun b hb => hoff b _ hb) (by show 256 + (i.val - 256) = i.val; omega)

/-! ## One block's parameters, from its arrays -/

/-- One block's parameters read off its eighteen arrays: a matrix at `(j, k)`, a vector at `j`. -/
def paramsAt (dw1 : FVec Ideal S128x2 .f32) (db1 : FVec Ideal S128 .f32) (dw2 : FVec Ideal S128x128 .f32)
    (dgw dgb : FVec Ideal S128 .f32) (qw : FVec Ideal S128x128 .f32) (qgw qgb : FVec Ideal S128 .f32)
    (cw1 : FVec Ideal S128x384 .f32) (cgw cgb : FVec Ideal S128 .f32) (cw2 aw : FVec Ideal S128x128 .f32)
    (nw nb : FVec Ideal S128 .f32) (lw : FVec Ideal S128x128 .f32) (lgw lgb : FVec Ideal S128 .f32) :
    Cert.Spec.Params where
  dw1 := fun j k => dw1 (ix2 j k)
  db1 := fun j => db1 (ix1 j)
  dw2 := fun j k => dw2 (ix2 j k)
  dgw := fun j => dgw (ix1 j)
  dgb := fun j => dgb (ix1 j)
  qw := fun j k => qw (ix2 j k)
  qgw := fun j => qgw (ix1 j)
  qgb := fun j => qgb (ix1 j)
  cw1 := fun j k => cw1 (ix2 j k)
  cgw := fun j => cgw (ix1 j)
  cgb := fun j => cgb (ix1 j)
  cw2 := fun j k => cw2 (ix2 j k)
  aw := fun j k => aw (ix2 j k)
  nw := fun j => nw (ix1 j)
  nb := fun j => nb (ix1 j)
  lw := fun j k => lw (ix2 j k)
  lgw := fun j => lgw (ix1 j)
  lgb := fun j => lgb (ix1 j)

end Cert.RefValue

end
-- ==== Proof.RefEdge.lean ====
/-
  Every edge's message in the reference is the specification's message of the rows the edge reads.

  The three branches (the distance features, the query features, the gathered source features) are read at
  `(e, c)` as the specification's functions of the rows `rowAt hi e` and `rowAt wi e`; the message is the
  specification's `edgeMsg` of them.
-/
import proofs.«121864_j48515950576209_1_alg».proof.Proof.RefOps

noncomputable section

namespace Cert.RefValue

open Idealize.ShloMosaic Idealize.ShloMosaic.ValueIdx Cert.ReferenceIdeal Cert.ReferenceIdeal.Facts₀

variable [Cert.ReferenceIdeal.Facts₀]

variable (a : FVec Ideal S4096x128 .f32) (ctrs : FVec Ideal S4096x2 .f32) (hi wi : IVec S167386 32)
  (dw1 : FVec Ideal S128x2 .f32) (db1 : FVec Ideal S128 .f32) (dw2 : FVec Ideal S128x128 .f32)
  (dgw dgb : FVec Ideal S128 .f32) (qw : FVec Ideal S128x128 .f32) (qgw qgb : FVec Ideal S128 .f32)
  (cw1 : FVec Ideal S128x384 .f32) (cgw cgb : FVec Ideal S128 .f32) (cw2 aw : FVec Ideal S128x128 .f32)
  (nw nb : FVec Ideal S128 .f32) (lw : FVec Ideal S128x128 .f32) (lgw lgb : FVec Ideal S128 .f32)

/-- The distance branch at `(e, c)`. -/
theorem distBranch_apply (e : Fin 167386) (c : Fin 128) :
    distBranch ctrs hi wi dw1 db1 dw2 dgw dgb (ix2 e c)
      = Cert.Spec.distFeat (paramsAt dw1 db1 dw2 dgw dgb qw qgw qgb cw1 cgw cgb cw2 aw nw nb lw lgw lgb)
          (fun k => ctrs (ix2 (Cert.Spec.rowAt hi e) k)) (fun k => ctrs (ix2 (Cert.Spec.rowAt wi e) k)) c := by
  simp (config := { proj := false }) only [distBranch, reluE_apply, gnE_apply, dotE128_apply, addf_apply, subf_apply, bcRowsE, bcRow,
    dotE2_apply, gatherC_apply]
  rfl

/-- The query branch at `(e, c)`. -/
theorem queryBranch_apply (e : Fin 167386) (c : Fin 128) :
    queryBranch a hi qw qgw qgb (ix2 e c)
      = Cert.Spec.queryFeat (paramsAt dw1 db1 dw2 dgw dgb qw qgw qgb cw1 cgw cgb cw2 aw nw nb lw lgw lgb) (fun k => a (ix2 (Cert.Spec.rowAt hi e) k)) c := by
  simp (config := { proj := false }) only [queryBranch, reluE_apply, gnE_apply, dotE128_apply, gatherA_apply]
  rfl

/-- The gathered source features at `(e, c)`. -/
theorem ctxGather_apply (e : Fin 167386) (c : Fin 128) :
    ctxGather a wi (ix2 e c) = a (ix2 (Cert.Spec.rowAt wi e) c) := by
  simp (config := { proj := false }) only [ctxGather, gatherA_apply]

/-- THE MESSAGE of edge `e`, at channel `c`. -/
theorem refEdge_apply (e : Fin 167386) (c : Fin 128) :
    refEdge a ctrs hi wi dw1 db1 dw2 dgw dgb qw qgw qgb cw1 cgw cgb cw2 (ix2 e c)
      = Cert.Spec.edgeMsg (paramsAt dw1 db1 dw2 dgw dgb qw qgw qgb cw1 cgw cgb cw2 aw nw nb lw lgw lgb)
          (fun k => ctrs (ix2 (Cert.Spec.rowAt hi e) k)) (fun k => ctrs (ix2 (Cert.Spec.rowAt wi e) k))
          (fun k => a (ix2 (Cert.Spec.rowAt hi e) k)) (fun k => a (ix2 (Cert.Spec.rowAt wi e) k)) c := by
  simp (config := { proj := false }) only [refEdge, dotE128_apply, reluE_apply, gnE_apply, dotE384_apply, cat3_apply,
    distBranch_apply ctrs hi wi dw1 db1 dw2 dgw dgb qw qgw qgb cw1 cgw cgb cw2 aw nw nb lw lgw lgb, queryBranch_apply a hi dw1 db1 dw2 dgw dgb qw qgw qgb cw1 cgw cgb cw2 aw nw nb lw lgw lgb, ctxGather_apply]
  rfl

end Cert.RefValue

end
-- ==== Proof.RefNode.lean ====
/-
  Every node's update in the reference is the specification's update of the node's row.

  The messages scattered along the normalised index column onto the linear image of the features give, at row `r`,
  that image plus the sum of the messages of the edges that land on `r`; the GroupNorms, the leaky rectifiers, the
  linear layer and the residual connection follow as in the specification.
-/
import proofs.«121864_j48515950576209_1_alg».proof.Proof.RefOps

noncomputable section

namespace Cert.RefValue

open Idealize.ShloMosaic Idealize.ShloMosaic.ValueIdx Cert.ReferenceIdeal Cert.ReferenceIdeal.Facts₀

variable [Cert.ReferenceIdeal.Facts₀]

variable (a : FVec Ideal S4096x128 .f32) (ctrs : FVec Ideal S4096x2 .f32) (hi wi : IVec S167386 32)
  (dw1 : FVec Ideal S128x2 .f32) (db1 : FVec Ideal S128 .f32) (dw2 : FVec Ideal S128x128 .f32)
  (dgw dgb : FVec Ideal S128 .f32) (qw : FVec Ideal S128x128 .f32) (qgw qgb : FVec Ideal S128 .f32)
  (cw1 : FVec Ideal S128x384 .f32) (cgw cgb : FVec Ideal S128 .f32) (cw2 aw : FVec Ideal S128x128 .f32)
  (nw nb : FVec Ideal S128 .f32) (lw : FVec Ideal S128x128 .f32) (lgw lgb : FVec Ideal S128 .f32)

/-- THE UPDATE of node `r`, at channel `c`, from any array of messages. -/
theorem refNode_apply (msg : FVec Ideal S167386x128 .f32) (r : Fin 4096) (c : Fin 128) :
    refNode a hi msg aw nw nb lw lgw lgb (ix2 r c)
      = Cert.Spec.nodeUpd (paramsAt dw1 db1 dw2 dgw dgb qw qgw qgb cw1 cgw cgb cw2 aw nw nb lw lgw lgb) (fun k => a (ix2 r k))
          (fun c' => (∑ k, a (ix2 r k) * aw (ix2 c' k)) + ∑ e ∈ Cert.Spec.landing hi r, msg (ix2 e c')) c := by
  simp (config := { proj := false }) only [refNode, lreluN_apply, addf_apply, gnN_apply, dotN_apply, scatterN_apply]
  rfl

end Cert.RefValue

end
-- ==== Proof.RefValue.lean ====
/-
  THE REFERENCE'S RESULT IS THE SPECIFICATION'S.

  One block of the reference is the specification's attention block of the block's parameters; the parameters
  sliced out of the stacked arrays are the specification's `paramsOf`; the two blocks composed are `result`.
-/
import proofs.«121864_j48515950576209_1_alg».proof.Proof.RefEdge
import proofs.«121864_j48515950576209_1_alg».proof.Proof.RefNode

noncomputable section

namespace Cert.RefValue

open Idealize.ShloMosaic Idealize.ShloMosaic.ValueIdx Cert.ReferenceIdeal Cert.ReferenceIdeal.Facts₀

variable [Cert.ReferenceIdeal.Facts₀]

section Block
variable (a : FVec Ideal S4096x128 .f32) (ctrs : FVec Ideal S4096x2 .f32) (hi wi : IVec S167386 32)
  (dw1 : FVec Ideal S128x2 .f32) (db1 : FVec Ideal S128 .f32) (dw2 : FVec Ideal S128x128 .f32)
  (dgw dgb : FVec Ideal S128 .f32) (qw : FVec Ideal S128x128 .f32) (qgw qgb : FVec Ideal S128 .f32)
  (cw1 : FVec Ideal S128x384 .f32) (cgw cgb : FVec Ideal S128 .f32) (cw2 aw : FVec Ideal S128x128 .f32)
  (nw nb : FVec Ideal S128 .f32) (lw : FVec Ideal S128x128 .f32) (lgw lgb : FVec Ideal S128 .f32)

/-- One block of the reference at `(r, c)`: the specification's attention block over the edges `(hi e, wi e)`. -/
theorem refBlock_apply (r : Fin 4096) (c : Fin 128) :
    refBlock a ctrs hi wi dw1 db1 dw2 dgw dgb qw qgw qgb cw1 cgw cgb cw2 aw nw nb lw lgw lgb (ix2 r c)
      = Cert.Spec.attBlock (paramsAt dw1 db1 dw2 dgw dgb qw qgw qgb cw1 cgw cgb cw2 aw nw nb lw lgw lgb) (fun r k => ctrs (ix2 r k)) (Cert.Spec.rowAt hi) (Cert.Spec.rowAt wi)
          (Cert.Spec.landing hi) (fun r k => a (ix2 r k)) r c := by
  simp (config := { proj := false }) only [refBlock, refNode_apply a hi dw1 db1 dw2 dgw dgb qw qgw qgb cw1 cgw cgb cw2 aw nw nb lw lgw lgb, refEdge_apply a ctrs hi wi dw1 db1 dw2 dgw dgb qw qgw qgb cw1 cgw cgb cw2 aw nw nb lw lgw lgb]
  rfl

end Block

section Out
variable (actors : FVec Ideal S4096x128 .f32) (ctrs : FVec Ideal S4096x2 .f32) (hi wi : IVec S167386 32)
  (dist_w1 : FVec Ideal S2x128x2 .f32) (dist_b1 : FVec Ideal S2x128 .f32) (dist_w2 : FVec Ideal S2x128x128 .f32)
  (dist_gw dist_gb : FVec Ideal S2x128 .f32) (query_w : FVec Ideal S2x128x128 .f32) (query_gw query_gb : FVec Ideal S2x128 .f32)
  (ctx_w1 : FVec Ideal S2x128x384 .f32) (ctx_gw ctx_gb : FVec Ideal S2x128 .f32) (ctx_w2 agt_w : FVec Ideal S2x128x128 .f32)
  (norm_w norm_b : FVec Ideal S2x128 .f32) (lin_w : FVec Ideal S2x128x128 .f32) (lin_gw lin_gb : FVec Ideal S2x128 .f32)

/-- The parameters of block `i`, sliced out of the stacked arrays at offset `o = i`, are the specification's. -/
theorem paramsAt_slices (o : Nat) (i : Fin 2) (hio : i.val = o)
    (h2 : S2x128x2.Slices ![o, 0, 0] S1x128x2) (hv : S2x128.Slices ![o, 0] S1x128)
    (h128 : S2x128x128.Slices ![o, 0, 0] S1x128x128) (h384 : S2x128x384.Slices ![o, 0, 0] S1x128x384) :
    paramsAt (sliceM2 o h2 dist_w1)
        (sliceVec o hv dist_b1)
        (sliceM128 o h128 dist_w2)
        (sliceVec o hv dist_gw)
        (sliceVec o hv dist_gb)
        (sliceM128 o h128 query_w)
        (sliceVec o hv query_gw)
        (sliceVec o hv query_gb)
        (sliceM384 o h384 ctx_w1)
        (sliceVec o hv ctx_gw)
        (sliceVec o hv ctx_gb)
        (sliceM128 o h128 ctx_w2)
        (sliceM128 o h128 agt_w)
        (sliceVec o hv norm_w)
        (sliceVec o hv norm_b)
        (sliceM128 o h128 lin_w)
        (sliceVec o hv lin_gw)
        (sliceVec o hv lin_gb)
      = Cert.Spec.paramsOf i dist_w1 dist_b1 dist_w2 dist_gw dist_gb query_w query_gw query_gb ctx_w1 ctx_gw ctx_gb ctx_w2 agt_w norm_w norm_b lin_w lin_gw lin_gb := by
  unfold paramsAt Cert.Spec.paramsOf
  simp only [sliceM2_apply o h2 _ i hio, sliceVec_apply o hv _ i hio, sliceM128_apply o h128 _ i hio,
    sliceM384_apply o h384 _ i hio]

/-- THE REFERENCE'S RESULT at `(r, c)` is the specification's. -/
theorem refOut_apply (r : Fin 4096) (c : Fin 128) :
    refOut actors ctrs hi wi dist_w1 dist_b1 dist_w2 dist_gw dist_gb query_w query_gw query_gb ctx_w1 ctx_gw ctx_gb ctx_w2 agt_w norm_w norm_b lin_w lin_gw lin_gb (ix2 r c)
      = Cert.Spec.result actors ctrs hi wi dist_w1 dist_b1 dist_w2 dist_gw dist_gb query_w query_gw query_gb ctx_w1 ctx_gw ctx_gb ctx_w2 agt_w norm_w norm_b lin_w lin_gw lin_gb r c := by
  have h0 := paramsAt_slices dist_w1 dist_b1 dist_w2 dist_gw dist_gb query_w query_gw query_gb ctx_w1 ctx_gw ctx_gb ctx_w2 agt_w norm_w norm_b lin_w lin_gw lin_gb 0 0 rfl
    slices_S2x128x2_S1x128x2_0_0_0 slices_S2x128_S1x128_0_0 slices_S2x128x128_S1x128x128_0_0_0 slices_S2x128x384_S1x128x384_0_0_0
  have h1 := paramsAt_slices dist_w1 dist_b1 dist_w2 dist_gw dist_gb query_w query_gw query_gb ctx_w1 ctx_gw ctx_gb ctx_w2 agt_w norm_w norm_b lin_w lin_gw lin_gb 1 1 rfl
    slices_S2x128x2_S1x128x2_1_0_0 slices_S2x128_S1x128_1_0 slices_S2x128x128_S1x128x128_1_0_0 slices_S2x128x384_S1x128x384_1_0_0
  unfold refOut Cert.Spec.result
  dsimp only
  rw [refBlock_apply, h1]
  refine congrArg (fun f => Cert.Spec.attBlock _ _ _ _ _ f r c) ?_
  funext r' k
  rw [refBlock_apply, h0]

end Out

end Cert.RefValue

end
-- ==== Proof.AlgOf.lean ====
/-
  The algebraic conjunct, from the reference's value run.

  Run from memories that agree on the twenty-two argument arrays, and with no edge's target index negative, the
  idealized kernel's result array ends at the specification's `result` of its arguments (its value run and
  `kernel_value`), and so does the idealized reference's, GIVEN its run with the result buffer at the composed host
  operations of its arguments (`hrun`: the reference's run joined to its operations' composed term), since that
  term is the specification's result index by index (`refOut_apply`) and the arguments agree.
-/
import proofs.«121864_j48515950576209_1_alg».proof.Defs
import proofs.«121864_j48515950576209_1_alg».proof.Proof.KRun
import proofs.«121864_j48515950576209_1_alg».proof.Proof.KFinal
import proofs.«121864_j48515950576209_1_alg».proof.Proof.PreHi
import proofs.«121864_j48515950576209_1_alg».proof.Proof.RefValue
import proofs.«121864_j48515950576209_1_alg».proof.Proof.Gen.KernelIdeal
import proofs.«121864_j48515950576209_1_alg».proof.Proof.Gen.ReferenceIdeal
import proofs.«121864_j48515950576209_1_alg».proof.Proof.Gen.Pre_finite_inputs

set_option maxRecDepth 16384
set_option maxHeartbeats 4000000

noncomputable section

namespace Cert.Proof.AlgOf

open Idealize.ShloMosaic Idealize.SL.Sem Idealize.ShloMosaic.ValueIdx

/-- Both programs end at the specification's result of the agreeing argument arrays. -/
theorem algebraic_of
    (hrun : letI : Cert.ReferenceIdeal.Facts := Cert.ReferenceIdeal.Gen.facts
      ∀ (m' : (ℓ : Loc Cert.ReferenceIdeal.nD Cert.ReferenceIdeal.τ Cert.ReferenceIdeal.sig) → Buf (Elt Ideal) ℓ) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v433) = Cert.RefValue.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))) :
    @Cert.algebraic_KernelIdeal_ReferenceIdeal Cert.KernelIdeal.Gen.facts Cert.ReferenceIdeal.Gen.facts
      Cert.Pre_finite_inputs.Gen.facts := by
  intro m ρ m' ρ' hpre hagree
  letI : Cert.Pre_finite_inputs.Facts := Cert.Pre_finite_inputs.Gen.facts
  letI : Cert.ReferenceIdeal.Facts := Cert.ReferenceIdeal.Gen.facts
  refine ⟨fun c => Cert.KernelIdeal.KValue.resultArr m c, ?_, ?_⟩
  · exact (θ_run _ _ _).mono
      (fun r h c => ⟨(h c).1.trans (Cert.KernelIdeal.KValue.kernel_value m ρ c (fun e => Cert.PreHi.hi_nonneg m hpre c e)), (h c).2⟩)
      (Cert.KernelIdeal.KRun.run (F := Ideal) m ρ)
  · refine (θ_run _ _ _).mono (fun r h c => ⟨(h c).1.trans ?_, (h c).2⟩) (hrun m' ρ')
    obtain ⟨g0, g1, g2, g3, g4, g5, g6, g7, g8, g9, g10, g11, g12, g13, g14, g15, g16, g17, g18, g19, g20, g21⟩ := hagree c
    funext i
    obtain ⟨r, q, rfl⟩ : ∃ (r : Fin 4096) (q : Fin 128), i = ix2 r q := ⟨i 0, i 1, eq_ix2 i⟩
    rw [Cert.RefValue.refOut_apply, g0, g1, g2, g3, g4, g5, g6, g7, g8, g9, g10, g11, g12, g13, g14, g15, g16, g17, g18, g19, g20, g21]
    rfl

end Cert.Proof.AlgOf

end
-- ==== Proof.RefRes.lean ====
/-
  Every buffer the reference's operations write, as a function of the launch contents: `res_<buffer> V0` is the
  buffer's operation applied to its operands' `res_`, an argument buffer read as `V0` holds it.  The definitions
  follow the operations one for one, so each is one line; the whole program is their composition.
-/
import proofs.«121864_j48515950576209_1_alg».proof.Proof.RefRun

set_option Elab.async false

noncomputable section

namespace Cert.RefJoin

open Cert.ReferenceIdeal Cert.ReferenceIdeal.Gen Idealize.ShloMosaic Idealize.ShloMosaic.TcCoe Idealize.SL.Sem Idealize.ShloMosaic.StableHlo
open Cert.RefRun

variable {F : FTy → Type} [FloatOps F]

def res_main_v0 (V0 : Valuation τ sig (Elt F)) : (Proc.devRef (τ := τ) .tc main_v0 : DevRef τ sig).ty.Contents (Elt F) :=
  ((extractStridedSlice S1x128x2 ![0, 0, 0] · slices_S2x128x2_S1x128x2_0_0_0) : (⟨S2x128x2, .f32⟩ : BufTy).Contents (Elt F) → (⟨S1x128x2, .f32⟩ : BufTy).Contents (Elt F)) (V0 (Proc.devRef .tc main_arg4))
def res_main_v1 (V0 : Valuation τ sig (Elt F)) : (Proc.devRef (τ := τ) .tc main_v1 : DevRef τ sig).ty.Contents (Elt F) :=
  shapeCast S128x2 (res_main_v0 V0) shapeCasts_S1x128x2_S128x2
def res_main_v2 (V0 : Valuation τ sig (Elt F)) : (Proc.devRef (τ := τ) .tc main_v2 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg5))
def res_main_v3 (V0 : Valuation τ sig (Elt F)) : (Proc.devRef (τ := τ) .tc main_v3 : DevRef τ sig).ty.Contents (Elt F) :=
  shapeCast S128 (res_main_v2 V0) shapeCasts_S1x128_S128
def res_main_v4 (V0 : Valuation τ sig (Elt F)) : (Proc.devRef (τ := τ) .tc main_v4 : DevRef τ sig).ty.Contents (Elt F) :=
  ((extractStridedSlice S1x128x128 ![0, 0, 0] · slices_S2x128x128_S1x128x128_0_0_0) : (⟨S2x128x128, .f32⟩ : BufTy).Contents (Elt F) → (⟨S1x128x128, .f32⟩ : BufTy).Contents (Elt F)) (V0 (Proc.devRef .tc main_arg6))
def res_main_v5 (V0 : Valuation τ sig (Elt F)) : (Proc.devRef (τ := τ) .tc main_v5 : DevRef τ sig).ty.Contents (Elt F) :=
  shapeCast S128x128 (res_main_v4 V0) shapeCasts_S1x128x128_S128x128
def res_main_v6 (V0 : Valuation τ sig (Elt F)) : (Proc.devRef (τ := τ) .tc main_v6 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg7))
def res_main_v7 (V0 : Valuation τ sig (Elt F)) : (Proc.devRef (τ := τ) .tc main_v7 : DevRef τ sig).ty.Contents (Elt F) :=
  shapeCast S128 (res_main_v6 V0) shapeCasts_S1x128_S128
def res_main_v8 (V0 : Valuation τ sig (Elt F)) : (Proc.devRef (τ := τ) .tc main_v8 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg8))
def res_main_v9 (V0 : Valuation τ sig (Elt F)) : (Proc.devRef (τ := τ) .tc main_v9 : DevRef τ sig).ty.Contents (Elt F) :=
  shapeCast S128 (res_main_v8 V0) shapeCasts_S1x128_S128
def res_main_v10 (V0 : Valuation τ sig (Elt F)) : (Proc.devRef (τ := τ) .tc main_v10 : DevRef τ sig).ty.Contents (Elt F) :=
  ((extractStridedSlice S1x128x128 ![0, 0, 0] · slices_S2x128x128_S1x128x128_0_0_0) : (⟨S2x128x128, .f32⟩ : BufTy).Contents (Elt F) → (⟨S1x128x128, .f32⟩ : BufTy).Contents (Elt F)) (V0 (Proc.devRef .tc main_arg9))
def res_main_v11 (V0 : Valuation τ sig (Elt F)) : (Proc.devRef (τ := τ) .tc main_v11 : DevRef τ sig).ty.Contents (Elt F) :=
  shapeCast S128x128 (res_main_v10 V0) shapeCasts_S1x128x128_S128x128
def res_main_v12 (V0 : Valuation τ sig (Elt F)) : (Proc.devRef (τ := τ) .tc main_v12 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg10))
def res_main_v13 (V0 : Valuation τ sig (Elt F)) : (Proc.devRef (τ := τ) .tc main_v13 : DevRef τ sig).ty.Contents (Elt F) :=
  shapeCast S128 (res_main_v12 V0) shapeCasts_S1x128_S128
def res_main_v14 (V0 : Valuation τ sig (Elt F)) : (Proc.devRef (τ := τ) .tc main_v14 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg11))
def res_main_v15 (V0 : Valuation τ sig (Elt F)) : (Proc.devRef (τ := τ) .tc main_v15 : DevRef τ sig).ty.Contents (Elt F) :=
  shapeCast S128 (res_main_v14 V0) shapeCasts_S1x128_S128
def res_main_v16 (V0 : Valuation τ sig (Elt F)) : (Proc.devRef (τ := τ) .tc main_v16 : DevRef τ sig).ty.Contents (Elt F) :=
  ((extractStridedSlice S1x128x384 ![0, 0, 0] · slices_S2x128x384_S1x128x384_0_0_0) : (⟨S2x128x384, .f32⟩ : BufTy).Contents (Elt F) → (⟨S1x128x384, .f32⟩ : BufTy).Contents (Elt F)) (V0 (Proc.devRef .tc main_arg12))
def res_main_v17 (V0 : Valuation τ sig (Elt F)) : (Proc.devRef (τ := τ) .tc main_v17 : DevRef τ sig).ty.Contents (Elt F) :=
  shapeCast S128x384 (res_main_v16 V0) shapeCasts_S1x128x384_S128x384
def res_main_v18 (V0 : Valuation τ sig (Elt F)) : (Proc.devRef (τ := τ) .tc main_v18 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg13))
def res_main_v19 (V0 : Valuation τ sig (Elt F)) : (Proc.devRef (τ := τ) .tc main_v19 : DevRef τ sig).ty.Contents (Elt F) :=
  shapeCast S128 (res_main_v18 V0) shapeCasts_S1x128_S128
def res_main_v20 (V0 : Valuation τ sig (Elt F)) : (Proc.devRef (τ := τ) .tc main_v20 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg14))
def res_main_v21 (V0 : Valuation τ sig (Elt F)) : (Proc.devRef (τ := τ) .tc main_v21 : DevRef τ sig).ty.Contents (Elt F) :=
  shapeCast S128 (res_main_v20 V0) shapeCasts_S1x128_S128
def res_main_v22 (V0 : Valuation τ sig (Elt F)) : (Proc.devRef (τ := τ) .tc main_v22 : DevRef τ sig).ty.Contents (Elt F) :=
  ((extractStridedSlice S1x128x128 ![0, 0, 0] · slices_S2x128x128_S1x128x128_0_0_0) : (⟨S2x128x128, .f32⟩ : BufTy).Contents (Elt F) → (⟨S1x128x128, .f32⟩ : BufTy).Contents (Elt F)) (V0 (Proc.devRef .tc main_arg15))
def res_main_v23 (V0 : Valuation τ sig (Elt F)) : (Proc.devRef (τ := τ) .tc main_v23 : DevRef τ sig).ty.Contents (Elt F) :=
  shapeCast S128x128 (res_main_v22 V0) shapeCasts_S1x128x128_S128x128
def res_main_v24 (V0 : Valuation τ sig (Elt F)) : (Proc.devRef (τ := τ) .tc main_v24 : DevRef τ sig).ty.Contents (Elt F) :=
  ((extractStridedSlice S1x128x128 ![0, 0, 0] · slices_S2x128x128_S1x128x128_0_0_0) : (⟨S2x128x128, .f32⟩ : BufTy).Contents (Elt F) → (⟨S1x128x128, .f32⟩ : BufTy).Contents (Elt F)) (V0 (Proc.devRef .tc main_arg16))
def res_main_v25 (V0 : Valuation τ sig (Elt F)) : (Proc.devRef (τ := τ) .tc main_v25 : DevRef τ sig).ty.Contents (Elt F) :=
  shapeCast S128x128 (res_main_v24 V0) shapeCasts_S1x128x128_S128x128
def res_main_v26 (V0 : Valuation τ sig (Elt F)) : (Proc.devRef (τ := τ) .tc main_v26 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg17))
def res_main_v27 (V0 : Valuation τ sig (Elt F)) : (Proc.devRef (τ := τ) .tc main_v27 : DevRef τ sig).ty.Contents (Elt F) :=
  shapeCast S128 (res_main_v26 V0) shapeCasts_S1x128_S128
def res_main_v28 (V0 : Valuation τ sig (Elt F)) : (Proc.devRef (τ := τ) .tc main_v28 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg18))
def res_main_v29 (V0 : Valuation τ sig (Elt F)) : (Proc.devRef (τ := τ) .tc main_v29 : DevRef τ sig).ty.Contents (Elt F) :=
  shapeCast S128 (res_main_v28 V0) shapeCasts_S1x128_S128
def res_main_v30 (V0 : Valuation τ sig (Elt F)) : (Proc.devRef (τ := τ) .tc main_v30 : DevRef τ sig).ty.Contents (Elt F) :=
  ((extractStridedSlice S1x128x128 ![0, 0, 0] · slices_S2x128x128_S1x128x128_0_0_0) : (⟨S2x128x128, .f32⟩ : BufTy).Contents (Elt F) → (⟨S1x128x128, .f32⟩ : BufTy).Contents (Elt F)) (V0 (Proc.devRef .tc main_arg19))
def res_main_v31 (V0 : Valuation τ sig (Elt F)) : (Proc.devRef (τ := τ) .tc main_v31 : DevRef τ sig).ty.Contents (Elt F) :=
  shapeCast S128x128 (res_main_v30 V0) shapeCasts_S1x128x128_S128x128
def res_main_v32 (V0 : Valuation τ sig (Elt F)) : (Proc.devRef (τ := τ) .tc main_v32 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg20))
def res_main_v33 (V0 : Valuation τ sig (Elt F)) : (Proc.devRef (τ := τ) .tc main_v33 : DevRef τ sig).ty.Contents (Elt F) :=
  shapeCast S128 (res_main_v32 V0) shapeCasts_S1x128_S128
def res_main_v34 (V0 : Valuation τ sig (Elt F)) : (Proc.devRef (τ := τ) .tc main_v34 : DevRef τ sig).ty.Contents (Elt F) :=
  ((extractStridedSlice S1x128 ![0, 0] · slices_S2x128_S1x128_0_0) : (⟨S2x128, .f32⟩ : BufTy).Contents (Elt F) → (⟨S1x128, .f32⟩ : BufTy).Contents (Elt F)) (V0 (Proc.devRef .tc main_arg21))
def res_main_v35 (V0 : Valuation τ sig (Elt F)) : (Proc.devRef (τ := τ) .tc main_v35 : DevRef τ sig).ty.Contents (Elt F) :=
  shapeCast S128 (res_main_v34 V0) shapeCasts_S1x128_S128
def res_main_c (V0 : Valuation τ sig (Elt F)) : (Proc.devRef (τ := τ) .tc main_c : DevRef τ sig).ty.Contents (Elt F) :=
  (constantI S_ 32 0#32)
def res_main_v36 (V0 : Valuation τ sig (Elt F)) : (Proc.devRef (τ := τ) .tc main_v36 : DevRef τ sig).ty.Contents (Elt F) :=
  (broadcastInDim S167386 ![] bcast_S_S167386 : (⟨S_, .i32⟩ : BufTy).Contents (Elt F) → (⟨S167386, .i32⟩ : BufTy).Contents (Elt F)) (res_main_c V0)
def res_main_v37 (V0 : Valuation τ sig (Elt F)) : (Proc.devRef (τ := τ) .tc main_v37 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg2)) (res_main_v36 V0)
def res_main_c_0 (V0 : Valuation τ sig (Elt F)) : (Proc.devRef (τ := τ) .tc main_c_0 : DevRef τ sig).ty.Contents (Elt F) :=
  (constantI S_ 32 4096#32)
def res_main_v38 (V0 : Valuation τ sig (Elt F)) : (Proc.devRef (τ := τ) .tc main_v38 : DevRef τ sig).ty.Contents (Elt F) :=
  (broadcastInDim S167386 ![] bcast_S_S167386 : (⟨S_, .i32⟩ : BufTy).Contents (Elt F) → (⟨S167386, .i32⟩ : BufTy).Contents (Elt F)) (res_main_c_0 V0)
def res_main_v39 (V0 : Valuation τ sig (Elt F)) : (Proc.devRef (τ := τ) .tc main_v39 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg2)) (res_main_v38 V0)
def res_main_v40 (V0 : Valuation τ sig (Elt F)) : (Proc.devRef (τ := τ) .tc main_v40 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v37 V0) (res_main_v39 V0) (V0 (Proc.devRef .tc main_arg2))
def res_main_v41 (V0 : Valuation τ sig (Elt F)) : (Proc.devRef (τ := τ) .tc main_v41 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v40 V0)
def res_main_v42 (V0 : Valuation τ sig (Elt F)) : (Proc.devRef (τ := τ) .tc main_v42 : DevRef τ sig).ty.Contents (Elt F) :=
  ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)) (V0 (Proc.devRef .tc main_arg1)) (res_main_v41 V0)
def res_main_c_1 (V0 : Valuation τ sig (Elt F)) : (Proc.devRef (τ := τ) .tc main_c_1 : DevRef τ sig).ty.Contents (Elt F) :=
  (constantI S_ 32 0#32)
def res_main_v43 (V0 : Valuation τ sig (Elt F)) : (Proc.devRef (τ := τ) .tc main_v43 : DevRef τ sig).ty.Contents (Elt F) :=
  (broadcastInDim S167386 ![] bcast_S_S167386 : (⟨S_, .i32⟩ : BufTy).Contents (Elt F) → (⟨S167386, .i32⟩ : BufTy).Contents (Elt F)) (res_main_c_1 V0)
def res_main_v44 (V0 : Valuation τ sig (Elt F)) : (Proc.devRef (τ := τ) .tc main_v44 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg3)) (res_main_v43 V0)
def res_main_c_2 (V0 : Valuation τ sig (Elt F)) : (Proc.devRef (τ := τ) .tc main_c_2 : DevRef τ sig).ty.Contents (Elt F) :=
  (constantI S_ 32 4096#32)
def res_main_v45 (V0 : Valuation τ sig (Elt F)) : (Proc.devRef (τ := τ) .tc main_v45 : DevRef τ sig).ty.Contents (Elt F) :=
  (broadcastInDim S167386 ![] bcast_S_S167386 : (⟨S_, .i32⟩ : BufTy).Contents (Elt F) → (⟨S167386, .i32⟩ : BufTy).Contents (Elt F)) (res_main_c_2 V0)
def res_main_v46 (V0 : Valuation τ sig (Elt F)) : (Proc.devRef (τ := τ) .tc main_v46 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg3)) (res_main_v45 V0)
def res_main_v47 (V0 : Valuation τ sig (Elt F)) : (Proc.devRef (τ := τ) .tc main_v47 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v44 V0) (res_main_v46 V0) (V0 (Proc.devRef .tc main_arg3))
def res_main_v48 (V0 : Valuation τ sig (Elt F)) : (Proc.devRef (τ := τ) .tc main_v48 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v47 V0)
def res_main_v49 (V0 : Valuation τ sig (Elt F)) : (Proc.devRef (τ := τ) .tc main_v49 : DevRef τ sig).ty.Contents (Elt F) :=
  ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)) (V0 (Proc.devRef .tc main_arg1)) (res_main_v48 V0)
def res_main_v50 (V0 : Valuation τ sig (Elt F)) : (Proc.devRef (τ := τ) .tc main_v50 : DevRef τ sig).ty.Contents (Elt F) :=
  (subf : (⟨S167386x2, .f32⟩ : BufTy).Contents (Elt F) → (⟨S167386x2, .f32⟩ : BufTy).Contents (Elt F) → (⟨S167386x2, .f32⟩ : BufTy).Contents (Elt F)) (res_main_v42 V0) (res_main_v49 V0)
def res_main_v51 (V0 : Valuation τ sig (Elt F)) : (Proc.devRef (τ := τ) .tc main_v51 : DevRef τ sig).ty.Contents (Elt F) :=
  ((transpose S2x128 [1, 0] · transposes_S128x2_S2x128_1_0) : (⟨S128x2, .f32⟩ : BufTy).Contents (Elt F) → (⟨S2x128, .f32⟩ : BufTy).Contents (Elt F)) (res_main_v1 V0)
def res_main_v52 (V0 : Valuation τ sig (Elt F)) : (Proc.devRef (τ := τ) .tc main_v52 : DevRef τ sig).ty.Contents (Elt F) :=
  ((fun l r => Host.dotGeneral dot_S167386x2_S2x128_S167386x128_1_0_0_1_n_n none l r) : (⟨S167386x2, .f32⟩ : BufTy).Contents (Elt F) → (⟨S2x128, .f32⟩ : BufTy).Contents (Elt F) → (⟨S167386x128, .f32⟩ : BufTy).Contents (Elt F)) (res_main_v50 V0) (res_main_v51 V0)
def res_main_v53 (V0 : Valuation τ sig (Elt F)) : (Proc.devRef (τ := τ) .tc main_v53 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v3 V0)
def res_main_v54 (V0 : Valuation τ sig (Elt F)) : (Proc.devRef (τ := τ) .tc main_v54 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v53 V0)
def res_main_v55 (V0 : Valuation τ sig (Elt F)) : (Proc.devRef (τ := τ) .tc main_v55 : DevRef τ sig).ty.Contents (Elt F) :=
  (addf : (⟨S167386x128, .f32⟩ : BufTy).Contents (Elt F) → (⟨S167386x128, .f32⟩ : BufTy).Contents (Elt F) → (⟨S167386x128, .f32⟩ : BufTy).Contents (Elt F)) (res_main_v52 V0) (res_main_v54 V0)

def res_main_call0_cst (V0 : Valuation τ sig (Elt F)) : (Proc.devRef (τ := τ) .tc main_call0_cst : DevRef τ sig).ty.Contents (Elt F) :=
  ((constant S_ .f32 0x00000000#32) : (⟨S_, .f32⟩ : BufTy).Contents (Elt F))
def res_main_call0_v0 (V0 : Valuation τ sig (Elt F)) : (Proc.devRef (τ := τ) .tc main_call0_v0 : DevRef τ sig).ty.Contents (Elt F) :=
  ((broadcastInDim S167386x128 ![] bcast_S_S167386x128) : (⟨S_, .f32⟩ : BufTy).Contents (Elt F) → (⟨S167386x128, .f32⟩ : BufTy).Contents (Elt F)) (res_main_call0_cst V0)
def res_main_v56 (V0 : Valuation τ sig (Elt F)) : (Proc.devRef (τ := τ) .tc main_v56 : DevRef τ sig).ty.Contents (Elt F) :=
  (maximumf : (⟨S167386x128, .f32⟩ : BufTy).Contents (Elt F) → (⟨S167386x128, .f32⟩ : BufTy).Contents (Elt F) → (⟨S167386x128, .f32⟩ : BufTy).Contents (Elt F)) (res_main_v55 V0) (res_main_call0_v0 V0)
def res_main_v57 (V0 : Valuation τ sig (Elt F)) : (Proc.devRef (τ := τ) .tc main_v57 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v5 V0)
def res_main_v58 (V0 : Valuation τ sig (Elt F)) : (Proc.devRef (τ := τ) .tc main_v58 : DevRef τ sig).ty.Contents (Elt F) :=
  ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)) (res_main_v56 V0) (res_main_v57 V0)
def res_main_cst (V0 : Valuation τ sig (Elt F)) : (Proc.devRef (τ := τ) .tc main_cst : DevRef τ sig).ty.Contents (Elt F) :=
  (constant S_ .f32 0x00000000#32)
def res_main_v59 (V0 : Valuation τ sig (Elt F)) : (Proc.devRef (τ := τ) .tc main_v59 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v58 V0) (res_main_cst V0)
def res_main_v60 (V0 : Valuation τ sig (Elt F)) : (Proc.devRef (τ := τ) .tc main_v60 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v59 V0)
def res_main_cst_3 (V0 : Valuation τ sig (Elt F)) : (Proc.devRef (τ := τ) .tc main_cst_3 : DevRef τ sig).ty.Contents (Elt F) :=
  (constant S_ .f32 0x43000000#32)
def res_main_v61 (V0 : Valuation τ sig (Elt F)) : (Proc.devRef (τ := τ) .tc main_v61 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_3 V0)
def res_main_v62 (V0 : Valuation τ sig (Elt F)) : (Proc.devRef (τ := τ) .tc main_v62 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v60 V0) (res_main_v61 V0)
def res_main_v63 (V0 : Valuation τ sig (Elt F)) : (Proc.devRef (τ := τ) .tc main_v63 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v62 V0)
def res_main_v64 (V0 : Valuation τ sig (Elt F)) : (Proc.devRef (τ := τ) .tc main_v64 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v58 V0) (res_main_v63 V0)
def res_main_v65 (V0 : Valuation τ sig (Elt F)) : (Proc.devRef (τ := τ) .tc main_v65 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v64 V0) (res_main_v64 V0)
def res_main_cst_4 (V0 : Valuation τ sig (Elt F)) : (Proc.devRef (τ := τ) .tc main_cst_4 : DevRef τ sig).ty.Contents (Elt F) :=
  (constant S_ .f32 0x00000000#32)
def res_main_v66 (V0 : Valuation τ sig (Elt F)) : (Proc.devRef (τ := τ) .tc main_v66 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v65 V0) (res_main_cst_4 V0)
def res_main_v67 (V0 : Valuation τ sig (Elt F)) : (Proc.devRef (τ := τ) .tc main_v67 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v66 V0)
def res_main_cst_5 (V0 : Valuation τ sig (Elt F)) : (Proc.devRef (τ := τ) .tc main_cst_5 : DevRef τ sig).ty.Contents (Elt F) :=
  (constant S_ .f32 0x43000000#32)
def res_main_v68 (V0 : Valuation τ sig (Elt F)) : (Proc.devRef (τ := τ) .tc main_v68 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_5 V0)
def res_main_v69 (V0 : Valuation τ sig (Elt F)) : (Proc.devRef (τ := τ) .tc main_v69 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v67 V0) (res_main_v68 V0)
def res_main_v70 (V0 : Valuation τ sig (Elt F)) : (Proc.devRef (τ := τ) .tc main_v70 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v62 V0)
def res_main_v71 (V0 : Valuation τ sig (Elt F)) : (Proc.devRef (τ := τ) .tc main_v71 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v58 V0) (res_main_v70 V0)
def res_main_cst_6 (V0 : Valuation τ sig (Elt F)) : (Proc.devRef (τ := τ) .tc main_cst_6 : DevRef τ sig).ty.Contents (Elt F) :=
  (constant S_ .f32 0x3727C5AC#32)
def res_main_v72 (V0 : Valuation τ sig (Elt F)) : (Proc.devRef (τ := τ) .tc main_v72 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_6 V0)
def res_main_v73 (V0 : Valuation τ sig (Elt F)) : (Proc.devRef (τ := τ) .tc main_v73 : DevRef τ sig).ty.Contents (Elt F) :=
  (addf : (⟨S167386x1, .f32⟩ : BufTy).Contents (Elt F) → (⟨S167386x1, .f32⟩ : BufTy).Contents (Elt F) → (⟨S167386x1, .f32⟩ : BufTy).Contents (Elt F)) (res_main_v69 V0) (res_main_v72 V0)
def res_main_v74 (V0 : Valuation τ sig (Elt F)) : (Proc.devRef (τ := τ) .tc main_v74 : DevRef τ sig).ty.Contents (Elt F) :=
  (Host.rsqrt : (⟨S167386x1, .f32⟩ : BufTy).Contents (Elt F) → (⟨S167386x1, .f32⟩ : BufTy).Contents (Elt F)) (res_main_v73 V0)
def res_main_v75 (V0 : Valuation τ sig (Elt F)) : (Proc.devRef (τ := τ) .tc main_v75 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v74 V0)
def res_main_v76 (V0 : Valuation τ sig (Elt F)) : (Proc.devRef (τ := τ) .tc main_v76 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v71 V0) (res_main_v75 V0)
def res_main_v77 (V0 : Valuation τ sig (Elt F)) : (Proc.devRef (τ := τ) .tc main_v77 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v7 V0)
def res_main_v78 (V0 : Valuation τ sig (Elt F)) : (Proc.devRef (τ := τ) .tc main_v78 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v77 V0)
def res_main_v79 (V0 : Valuation τ sig (Elt F)) : (Proc.devRef (τ := τ) .tc main_v79 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v76 V0) (res_main_v78 V0)
def res_main_v80 (V0 : Valuation τ sig (Elt F)) : (Proc.devRef (τ := τ) .tc main_v80 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v9 V0)
def res_main_v81 (V0 : Valuation τ sig (Elt F)) : (Proc.devRef (τ := τ) .tc main_v81 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v80 V0)
def res_main_v82 (V0 : Valuation τ sig (Elt F)) : (Proc.devRef (τ := τ) .tc main_v82 : DevRef τ sig).ty.Contents (Elt F) :=
  (addf : (⟨S167386x128, .f32⟩ : BufTy).Contents (Elt F) → (⟨S167386x128, .f32⟩ : BufTy).Contents (Elt F) → (⟨S167386x128, .f32⟩ : BufTy).Contents (Elt F)) (res_main_v79 V0) (res_main_v81 V0)
def res_main_call1_cst (V0 : Valuation τ sig (Elt F)) : (Proc.devRef (τ := τ) .tc main_call1_cst : DevRef τ sig).ty.Contents (Elt F) :=
  ((constant S_ .f32 0x00000000#32) : (⟨S_, .f32⟩ : BufTy).Contents (Elt F))
def res_main_call1_v0 (V0 : Valuation τ sig (Elt F)) : (Proc.devRef (τ := τ) .tc main_call1_v0 : DevRef τ sig).ty.Contents (Elt F) :=
  ((broadcastInDim S167386x128 ![] bcast_S_S167386x128) : (⟨S_, .f32⟩ : BufTy).Contents (Elt F) → (⟨S167386x128, .f32⟩ : BufTy).Contents (Elt F)) (res_main_call1_cst V0)
def res_main_v83 (V0 : Valuation τ sig (Elt F)) : (Proc.devRef (τ := τ) .tc main_v83 : DevRef τ sig).ty.Contents (Elt F) :=
  (maximumf : (⟨S167386x128, .f32⟩ : BufTy).Contents (Elt F) → (⟨S167386x128, .f32⟩ : BufTy).Contents (Elt F) → (⟨S167386x128, .f32⟩ : BufTy).Contents (Elt F)) (res_main_v82 V0) (res_main_call1_v0 V0)
def res_main_c_7 (V0 : Valuation τ sig (Elt F)) : (Proc.devRef (τ := τ) .tc main_c_7 : DevRef τ sig).ty.Contents (Elt F) :=
  (constantI S_ 32 0#32)
def res_main_v84 (V0 : Valuation τ sig (Elt F)) : (Proc.devRef (τ := τ) .tc main_v84 : DevRef τ sig).ty.Contents (Elt F) :=
  (broadcastInDim S167386 ![] bcast_S_S167386 : (⟨S_, .i32⟩ : BufTy).Contents (Elt F) → (⟨S167386, .i32⟩ : BufTy).Contents (Elt F)) (res_main_c_7 V0)
def res_main_v85 (V0 : Valuation τ sig (Elt F)) : (Proc.devRef (τ := τ) .tc main_v85 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg2)) (res_main_v84 V0)
def res_main_c_8 (V0 : Valuation τ sig (Elt F)) : (Proc.devRef (τ := τ) .tc main_c_8 : DevRef τ sig).ty.Contents (Elt F) :=
  (constantI S_ 32 4096#32)
def res_main_v86 (V0 : Valuation τ sig (Elt F)) : (Proc.devRef (τ := τ) .tc main_v86 : DevRef τ sig).ty.Contents (Elt F) :=
  (broadcastInDim S167386 ![] bcast_S_S167386 : (⟨S_, .i32⟩ : BufTy).Contents (Elt F) → (⟨S167386, .i32⟩ : BufTy).Contents (Elt F)) (res_main_c_8 V0)
def res_main_v87 (V0 : Valuation τ sig (Elt F)) : (Proc.devRef (τ := τ) .tc main_v87 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg2)) (res_main_v86 V0)
def res_main_v88 (V0 : Valuation τ sig (Elt F)) : (Proc.devRef (τ := τ) .tc main_v88 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v85 V0) (res_main_v87 V0) (V0 (Proc.devRef .tc main_arg2))
def res_main_v89 (V0 : Valuation τ sig (Elt F)) : (Proc.devRef (τ := τ) .tc main_v89 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v88 V0)
def res_main_v90 (V0 : Valuation τ sig (Elt F)) : (Proc.devRef (τ := τ) .tc main_v90 : DevRef τ sig).ty.Contents (Elt F) :=
  ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)) (V0 (Proc.devRef .tc main_arg0)) (res_main_v89 V0)
def res_main_v91 (V0 : Valuation τ sig (Elt F)) : (Proc.devRef (τ := τ) .tc main_v91 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v11 V0)
def res_main_v92 (V0 : Valuation τ sig (Elt F)) : (Proc.devRef (τ := τ) .tc main_v92 : DevRef τ sig).ty.Contents (Elt F) :=
  ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)) (res_main_v90 V0) (res_main_v91 V0)
def res_main_cst_9 (V0 : Valuation τ sig (Elt F)) : (Proc.devRef (τ := τ) .tc main_cst_9 : DevRef τ sig).ty.Contents (Elt F) :=
  (constant S_ .f32 0x00000000#32)
def res_main_v93 (V0 : Valuation τ sig (Elt F)) : (Proc.devRef (τ := τ) .tc main_v93 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v92 V0) (res_main_cst_9 V0)
def res_main_v94 (V0 : Valuation τ sig (Elt F)) : (Proc.devRef (τ := τ) .tc main_v94 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v93 V0)
def res_main_cst_10 (V0 : Valuation τ sig (Elt F)) : (Proc.devRef (τ := τ) .tc main_cst_10 : DevRef τ sig).ty.Contents (Elt F) :=
  (constant S_ .f32 0x43000000#32)
def res_main_v95 (V0 : Valuation τ sig (Elt F)) : (Proc.devRef (τ := τ) .tc main_v95 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_10 V0)
def res_main_v96 (V0 : Valuation τ sig (Elt F)) : (Proc.devRef (τ := τ) .tc main_v96 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v94 V0) (res_main_v95 V0)
def res_main_v97 (V0 : Valuation τ sig (Elt F)) : (Proc.devRef (τ := τ) .tc main_v97 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v96 V0)
def res_main_v98 (V0 : Valuation τ sig (Elt F)) : (Proc.devRef (τ := τ) .tc main_v98 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v92 V0) (res_main_v97 V0)
def res_main_v99 (V0 : Valuation τ sig (Elt F)) : (Proc.devRef (τ := τ) .tc main_v99 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v98 V0) (res_main_v98 V0)
def res_main_cst_11 (V0 : Valuation τ sig (Elt F)) : (Proc.devRef (τ := τ) .tc main_cst_11 : DevRef τ sig).ty.Contents (Elt F) :=
  (constant S_ .f32 0x00000000#32)
def res_main_v100 (V0 : Valuation τ sig (Elt F)) : (Proc.devRef (τ := τ) .tc main_v100 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v99 V0) (res_main_cst_11 V0)
def res_main_v101 (V0 : Valuation τ sig (Elt F)) : (Proc.devRef (τ := τ) .tc main_v101 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v100 V0)
def res_main_cst_12 (V0 : Valuation τ sig (Elt F)) : (Proc.devRef (τ := τ) .tc main_cst_12 : DevRef τ sig).ty.Contents (Elt F) :=
  (constant S_ .f32 0x43000000#32)
def res_main_v102 (V0 : Valuation τ sig (Elt F)) : (Proc.devRef (τ := τ) .tc main_v102 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_12 V0)
def res_main_v103 (V0 : Valuation τ sig (Elt F)) : (Proc.devRef (τ := τ) .tc main_v103 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v101 V0) (res_main_v102 V0)
def res_main_v104 (V0 : Valuation τ sig (Elt F)) : (Proc.devRef (τ := τ) .tc main_v104 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v96 V0)

def res_main_v105 (V0 : Valuation τ sig (Elt F)) : (Proc.devRef (τ := τ) .tc main_v105 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v92 V0) (res_main_v104 V0)
def res_main_cst_13 (V0 : Valuation τ sig (Elt F)) : (Proc.devRef (τ := τ) .tc main_cst_13 : DevRef τ sig).ty.Contents (Elt F) :=
  (constant S_ .f32 0x3727C5AC#32)
def res_main_v106 (V0 : Valuation τ sig (Elt F)) : (Proc.devRef (τ := τ) .tc main_v106 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_13 V0)
def res_main_v107 (V0 : Valuation τ sig (Elt F)) : (Proc.devRef (τ := τ) .tc main_v107 : DevRef τ sig).ty.Contents (Elt F) :=
  (addf : (⟨S167386x1, .f32⟩ : BufTy).Contents (Elt F) → (⟨S167386x1, .f32⟩ : BufTy).Contents (Elt F) → (⟨S167386x1, .f32⟩ : BufTy).Contents (Elt F)) (res_main_v103 V0) (res_main_v106 V0)
def res_main_v108 (V0 : Valuation τ sig (Elt F)) : (Proc.devRef (τ := τ) .tc main_v108 : DevRef τ sig).ty.Contents (Elt F) :=
  (Host.rsqrt : (⟨S167386x1, .f32⟩ : BufTy).Contents (Elt F) → (⟨S167386x1, .f32⟩ : BufTy).Contents (Elt F)) (res_main_v107 V0)
def res_main_v109 (V0 : Valuation τ sig (Elt F)) : (Proc.devRef (τ := τ) .tc main_v109 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v108 V0)
def res_main_v110 (V0 : Valuation τ sig (Elt F)) : (Proc.devRef (τ := τ) .tc main_v110 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v105 V0) (res_main_v109 V0)
def res_main_v111 (V0 : Valuation τ sig (Elt F)) : (Proc.devRef (τ := τ) .tc main_v111 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v13 V0)
def res_main_v112 (V0 : Valuation τ sig (Elt F)) : (Proc.devRef (τ := τ) .tc main_v112 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v111 V0)
def res_main_v113 (V0 : Valuation τ sig (Elt F)) : (Proc.devRef (τ := τ) .tc main_v113 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v110 V0) (res_main_v112 V0)
def res_main_v114 (V0 : Valuation τ sig (Elt F)) : (Proc.devRef (τ := τ) .tc main_v114 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v15 V0)
def res_main_v115 (V0 : Valuation τ sig (Elt F)) : (Proc.devRef (τ := τ) .tc main_v115 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v114 V0)
def res_main_v116 (V0 : Valuation τ sig (Elt F)) : (Proc.devRef (τ := τ) .tc main_v116 : DevRef τ sig).ty.Contents (Elt F) :=
  (addf : (⟨S167386x128, .f32⟩ : BufTy).Contents (Elt F) → (⟨S167386x128, .f32⟩ : BufTy).Contents (Elt F) → (⟨S167386x128, .f32⟩ : BufTy).Contents (Elt F)) (res_main_v113 V0) (res_main_v115 V0)
def res_main_call2_cst (V0 : Valuation τ sig (Elt F)) : (Proc.devRef (τ := τ) .tc main_call2_cst : DevRef τ sig).ty.Contents (Elt F) :=
  ((constant S_ .f32 0x00000000#32) : (⟨S_, .f32⟩ : BufTy).Contents (Elt F))
def res_main_call2_v0 (V0 : Valuation τ sig (Elt F)) : (Proc.devRef (τ := τ) .tc main_call2_v0 : DevRef τ sig).ty.Contents (Elt F) :=
  ((broadcastInDim S167386x128 ![] bcast_S_S167386x128) : (⟨S_, .f32⟩ : BufTy).Contents (Elt F) → (⟨S167386x128, .f32⟩ : BufTy).Contents (Elt F)) (res_main_call2_cst V0)
def res_main_v117 (V0 : Valuation τ sig (Elt F)) : (Proc.devRef (τ := τ) .tc main_v117 : DevRef τ sig).ty.Contents (Elt F) :=
  (maximumf : (⟨S167386x128, .f32⟩ : BufTy).Contents (Elt F) → (⟨S167386x128, .f32⟩ : BufTy).Contents (Elt F) → (⟨S167386x128, .f32⟩ : BufTy).Contents (Elt F)) (res_main_v116 V0) (res_main_call2_v0 V0)
def res_main_c_14 (V0 : Valuation τ sig (Elt F)) : (Proc.devRef (τ := τ) .tc main_c_14 : DevRef τ sig).ty.Contents (Elt F) :=
  (constantI S_ 32 0#32)
def res_main_v118 (V0 : Valuation τ sig (Elt F)) : (Proc.devRef (τ := τ) .tc main_v118 : DevRef τ sig).ty.Contents (Elt F) :=
  (broadcastInDim S167386 ![] bcast_S_S167386 : (⟨S_, .i32⟩ : BufTy).Contents (Elt F) → (⟨S167386, .i32⟩ : BufTy).Contents (Elt F)) (res_main_c_14 V0)
def res_main_v119 (V0 : Valuation τ sig (Elt F)) : (Proc.devRef (τ := τ) .tc main_v119 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg3)) (res_main_v118 V0)
def res_main_c_15 (V0 : Valuation τ sig (Elt F)) : (Proc.devRef (τ := τ) .tc main_c_15 : DevRef τ sig).ty.Contents (Elt F) :=
  (constantI S_ 32 4096#32)
def res_main_v120 (V0 : Valuation τ sig (Elt F)) : (Proc.devRef (τ := τ) .tc main_v120 : DevRef τ sig).ty.Contents (Elt F) :=
  (broadcastInDim S167386 ![] bcast_S_S167386 : (⟨S_, .i32⟩ : BufTy).Contents (Elt F) → (⟨S167386, .i32⟩ : BufTy).Contents (Elt F)) (res_main_c_15 V0)
def res_main_v121 (V0 : Valuation τ sig (Elt F)) : (Proc.devRef (τ := τ) .tc main_v121 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg3)) (res_main_v120 V0)
def res_main_v122 (V0 : Valuation τ sig (Elt F)) : (Proc.devRef (τ := τ) .tc main_v122 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v119 V0) (res_main_v121 V0) (V0 (Proc.devRef .tc main_arg3))
def res_main_v123 (V0 : Valuation τ sig (Elt F)) : (Proc.devRef (τ := τ) .tc main_v123 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v122 V0)
def res_main_v124 (V0 : Valuation τ sig (Elt F)) : (Proc.devRef (τ := τ) .tc main_v124 : DevRef τ sig).ty.Contents (Elt F) :=
  ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)) (V0 (Proc.devRef .tc main_arg0)) (res_main_v123 V0)
def res_main_v125 (V0 : Valuation τ sig (Elt F)) : (Proc.devRef (τ := τ) .tc main_v125 : DevRef τ sig).ty.Contents (Elt F) :=
  concatenate S167386x384 1 [⟨S167386x128, (res_main_v83 V0)⟩, ⟨S167386x128, (res_main_v117 V0)⟩, ⟨S167386x128, (res_main_v124 V0)⟩] concatenates_S167386x128_S167386x128_S167386x128_S167386x384_d1
def res_main_v126 (V0 : Valuation τ sig (Elt F)) : (Proc.devRef (τ := τ) .tc main_v126 : DevRef τ sig).ty.Contents (Elt F) :=
  ((transpose S384x128 [1, 0] · transposes_S128x384_S384x128_1_0) : (⟨S128x384, .f32⟩ : BufTy).Contents (Elt F) → (⟨S384x128, .f32⟩ : BufTy).Contents (Elt F)) (res_main_v17 V0)
def res_main_v127 (V0 : Valuation τ sig (Elt F)) : (Proc.devRef (τ := τ) .tc main_v127 : DevRef τ sig).ty.Contents (Elt F) :=
  ((fun l r => Host.dotGeneral dot_S167386x384_S384x128_S167386x128_1_0_0_1_n_n none l r) : (⟨S167386x384, .f32⟩ : BufTy).Contents (Elt F) → (⟨S384x128, .f32⟩ : BufTy).Contents (Elt F) → (⟨S167386x128, .f32⟩ : BufTy).Contents (Elt F)) (res_main_v125 V0) (res_main_v126 V0)
def res_main_cst_16 (V0 : Valuation τ sig (Elt F)) : (Proc.devRef (τ := τ) .tc main_cst_16 : DevRef τ sig).ty.Contents (Elt F) :=
  (constant S_ .f32 0x00000000#32)
def res_main_v128 (V0 : Valuation τ sig (Elt F)) : (Proc.devRef (τ := τ) .tc main_v128 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v127 V0) (res_main_cst_16 V0)
def res_main_v129 (V0 : Valuation τ sig (Elt F)) : (Proc.devRef (τ := τ) .tc main_v129 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v128 V0)
def res_main_cst_17 (V0 : Valuation τ sig (Elt F)) : (Proc.devRef (τ := τ) .tc main_cst_17 : DevRef τ sig).ty.Contents (Elt F) :=
  (constant S_ .f32 0x43000000#32)
def res_main_v130 (V0 : Valuation τ sig (Elt F)) : (Proc.devRef (τ := τ) .tc main_v130 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_17 V0)
def res_main_v131 (V0 : Valuation τ sig (Elt F)) : (Proc.devRef (τ := τ) .tc main_v131 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v129 V0) (res_main_v130 V0)
def res_main_v132 (V0 : Valuation τ sig (Elt F)) : (Proc.devRef (τ := τ) .tc main_v132 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v131 V0)
def res_main_v133 (V0 : Valuation τ sig (Elt F)) : (Proc.devRef (τ := τ) .tc main_v133 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v127 V0) (res_main_v132 V0)
def res_main_v134 (V0 : Valuation τ sig (Elt F)) : (Proc.devRef (τ := τ) .tc main_v134 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v133 V0) (res_main_v133 V0)
def res_main_cst_18 (V0 : Valuation τ sig (Elt F)) : (Proc.devRef (τ := τ) .tc main_cst_18 : DevRef τ sig).ty.Contents (Elt F) :=
  (constant S_ .f32 0x00000000#32)
def res_main_v135 (V0 : Valuation τ sig (Elt F)) : (Proc.devRef (τ := τ) .tc main_v135 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v134 V0) (res_main_cst_18 V0)
def res_main_v136 (V0 : Valuation τ sig (Elt F)) : (Proc.devRef (τ := τ) .tc main_v136 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v135 V0)
def res_main_cst_19 (V0 : Valuation τ sig (Elt F)) : (Proc.devRef (τ := τ) .tc main_cst_19 : DevRef τ sig).ty.Contents (Elt F) :=
  (constant S_ .f32 0x43000000#32)
def res_main_v137 (V0 : Valuation τ sig (Elt F)) : (Proc.devRef (τ := τ) .tc main_v137 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_19 V0)
def res_main_v138 (V0 : Valuation τ sig (Elt F)) : (Proc.devRef (τ := τ) .tc main_v138 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v136 V0) (res_main_v137 V0)
def res_main_v139 (V0 : Valuation τ sig (Elt F)) : (Proc.devRef (τ := τ) .tc main_v139 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v131 V0)
def res_main_v140 (V0 : Valuation τ sig (Elt F)) : (Proc.devRef (τ := τ) .tc main_v140 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v127 V0) (res_main_v139 V0)
def res_main_cst_20 (V0 : Valuation τ sig (Elt F)) : (Proc.devRef (τ := τ) .tc main_cst_20 : DevRef τ sig).ty.Contents (Elt F) :=
  (constant S_ .f32 0x3727C5AC#32)
def res_main_v141 (V0 : Valuation τ sig (Elt F)) : (Proc.devRef (τ := τ) .tc main_v141 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_20 V0)
def res_main_v142 (V0 : Valuation τ sig (Elt F)) : (Proc.devRef (τ := τ) .tc main_v142 : DevRef τ sig).ty.Contents (Elt F) :=
  (addf : (⟨S167386x1, .f32⟩ : BufTy).Contents (Elt F) → (⟨S167386x1, .f32⟩ : BufTy).Contents (Elt F) → (⟨S167386x1, .f32⟩ : BufTy).Contents (Elt F)) (res_main_v138 V0) (res_main_v141 V0)
def res_main_v143 (V0 : Valuation τ sig (Elt F)) : (Proc.devRef (τ := τ) .tc main_v143 : DevRef τ sig).ty.Contents (Elt F) :=
  (Host.rsqrt : (⟨S167386x1, .f32⟩ : BufTy).Contents (Elt F) → (⟨S167386x1, .f32⟩ : BufTy).Contents (Elt F)) (res_main_v142 V0)
def res_main_v144 (V0 : Valuation τ sig (Elt F)) : (Proc.devRef (τ := τ) .tc main_v144 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v143 V0)
def res_main_v145 (V0 : Valuation τ sig (Elt F)) : (Proc.devRef (τ := τ) .tc main_v145 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v140 V0) (res_main_v144 V0)
def res_main_v146 (V0 : Valuation τ sig (Elt F)) : (Proc.devRef (τ := τ) .tc main_v146 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v19 V0)
def res_main_v147 (V0 : Valuation τ sig (Elt F)) : (Proc.devRef (τ := τ) .tc main_v147 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v146 V0)
def res_main_v148 (V0 : Valuation τ sig (Elt F)) : (Proc.devRef (τ := τ) .tc main_v148 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v145 V0) (res_main_v147 V0)
def res_main_v149 (V0 : Valuation τ sig (Elt F)) : (Proc.devRef (τ := τ) .tc main_v149 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v21 V0)
def res_main_v150 (V0 : Valuation τ sig (Elt F)) : (Proc.devRef (τ := τ) .tc main_v150 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v149 V0)
def res_main_v151 (V0 : Valuation τ sig (Elt F)) : (Proc.devRef (τ := τ) .tc main_v151 : DevRef τ sig).ty.Contents (Elt F) :=
  (addf : (⟨S167386x128, .f32⟩ : BufTy).Contents (Elt F) → (⟨S167386x128, .f32⟩ : BufTy).Contents (Elt F) → (⟨S167386x128, .f32⟩ : BufTy).Contents (Elt F)) (res_main_v148 V0) (res_main_v150 V0)
def res_main_call3_cst (V0 : Valuation τ sig (Elt F)) : (Proc.devRef (τ := τ) .tc main_call3_cst : DevRef τ sig).ty.Contents (Elt F) :=
  ((constant S_ .f32 0x00000000#32) : (⟨S_, .f32⟩ : BufTy).Contents (Elt F))
def res_main_call3_v0 (V0 : Valuation τ sig (Elt F)) : (Proc.devRef (τ := τ) .tc main_call3_v0 : DevRef τ sig).ty.Contents (Elt F) :=
  ((broadcastInDim S167386x128 ![] bcast_S_S167386x128) : (⟨S_, .f32⟩ : BufTy).Contents (Elt F) → (⟨S167386x128, .f32⟩ : BufTy).Contents (Elt F)) (res_main_call3_cst V0)
def res_main_v152 (V0 : Valuation τ sig (Elt F)) : (Proc.devRef (τ := τ) .tc main_v152 : DevRef τ sig).ty.Contents (Elt F) :=
  (maximumf : (⟨S167386x128, .f32⟩ : BufTy).Contents (Elt F) → (⟨S167386x128, .f32⟩ : BufTy).Contents (Elt F) → (⟨S167386x128, .f32⟩ : BufTy).Contents (Elt F)) (res_main_v151 V0) (res_main_call3_v0 V0)
def res_main_v153 (V0 : Valuation τ sig (Elt F)) : (Proc.devRef (τ := τ) .tc main_v153 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v23 V0)
def res_main_v154 (V0 : Valuation τ sig (Elt F)) : (Proc.devRef (τ := τ) .tc main_v154 : DevRef τ sig).ty.Contents (Elt F) :=
  ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)) (res_main_v152 V0) (res_main_v153 V0)
def res_main_v155 (V0 : Valuation τ sig (Elt F)) : (Proc.devRef (τ := τ) .tc main_v155 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v25 V0)
def res_main_v156 (V0 : Valuation τ sig (Elt F)) : (Proc.devRef (τ := τ) .tc main_v156 : DevRef τ sig).ty.Contents (Elt F) :=
  ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) (V0 (Proc.devRef .tc main_arg0)) (res_main_v155 V0)

def res_main_c_21 (V0 : Valuation τ sig (Elt F)) : (Proc.devRef (τ := τ) .tc main_c_21 : DevRef τ sig).ty.Contents (Elt F) :=
  (constantI S_ 32 0#32)
def res_main_v157 (V0 : Valuation τ sig (Elt F)) : (Proc.devRef (τ := τ) .tc main_v157 : DevRef τ sig).ty.Contents (Elt F) :=
  (broadcastInDim S167386 ![] bcast_S_S167386 : (⟨S_, .i32⟩ : BufTy).Contents (Elt F) → (⟨S167386, .i32⟩ : BufTy).Contents (Elt F)) (res_main_c_21 V0)
def res_main_v158 (V0 : Valuation τ sig (Elt F)) : (Proc.devRef (τ := τ) .tc main_v158 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg2)) (res_main_v157 V0)
def res_main_c_22 (V0 : Valuation τ sig (Elt F)) : (Proc.devRef (τ := τ) .tc main_c_22 : DevRef τ sig).ty.Contents (Elt F) :=
  (constantI S_ 32 4096#32)
def res_main_v159 (V0 : Valuation τ sig (Elt F)) : (Proc.devRef (τ := τ) .tc main_v159 : DevRef τ sig).ty.Contents (Elt F) :=
  (broadcastInDim S167386 ![] bcast_S_S167386 : (⟨S_, .i32⟩ : BufTy).Contents (Elt F) → (⟨S167386, .i32⟩ : BufTy).Contents (Elt F)) (res_main_c_22 V0)
def res_main_v160 (V0 : Valuation τ sig (Elt F)) : (Proc.devRef (τ := τ) .tc main_v160 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg2)) (res_main_v159 V0)
def res_main_v161 (V0 : Valuation τ sig (Elt F)) : (Proc.devRef (τ := τ) .tc main_v161 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v158 V0) (res_main_v160 V0) (V0 (Proc.devRef .tc main_arg2))
def res_main_v162 (V0 : Valuation τ sig (Elt F)) : (Proc.devRef (τ := τ) .tc main_v162 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v161 V0)
def res_main_v163 (V0 : Valuation τ sig (Elt F)) : (Proc.devRef (τ := τ) .tc main_v163 : DevRef τ sig).ty.Contents (Elt F) :=
  ((fun x i u => Host.scatterAdd scatter_S4096x128_S167386x1_S167386x128_1_0_0_1 x i u) : (⟨S4096x128, .f32⟩ : BufTy).Contents (Elt F) → (⟨S167386x1, .i32⟩ : BufTy).Contents (Elt F) → (⟨S167386x128, .f32⟩ : BufTy).Contents (Elt F) → (⟨S4096x128, .f32⟩ : BufTy).Contents (Elt F)) (res_main_v156 V0) (res_main_v162 V0) (res_main_v154 V0)
def res_main_cst_23 (V0 : Valuation τ sig (Elt F)) : (Proc.devRef (τ := τ) .tc main_cst_23 : DevRef τ sig).ty.Contents (Elt F) :=
  (constant S_ .f32 0x00000000#32)
def res_main_v164 (V0 : Valuation τ sig (Elt F)) : (Proc.devRef (τ := τ) .tc main_v164 : DevRef τ sig).ty.Contents (Elt F) :=
  ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)) (res_main_v163 V0) (res_main_cst_23 V0)
def res_main_v165 (V0 : Valuation τ sig (Elt F)) : (Proc.devRef (τ := τ) .tc main_v165 : DevRef τ sig).ty.Contents (Elt F) :=
  (broadcastInDim S4096x1 ![0] bcast_S4096_S4096x1_0 : (⟨S4096, .f32⟩ : BufTy).Contents (Elt F) → (⟨S4096x1, .f32⟩ : BufTy).Contents (Elt F)) (res_main_v164 V0)
def res_main_cst_24 (V0 : Valuation τ sig (Elt F)) : (Proc.devRef (τ := τ) .tc main_cst_24 : DevRef τ sig).ty.Contents (Elt F) :=
  (constant S_ .f32 0x43000000#32)
def res_main_v166 (V0 : Valuation τ sig (Elt F)) : (Proc.devRef (τ := τ) .tc main_v166 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_24 V0)
def res_main_v167 (V0 : Valuation τ sig (Elt F)) : (Proc.devRef (τ := τ) .tc main_v167 : DevRef τ sig).ty.Contents (Elt F) :=
  (Host.divf : (⟨S4096x1, .f32⟩ : BufTy).Contents (Elt F) → (⟨S4096x1, .f32⟩ : BufTy).Contents (Elt F) → (⟨S4096x1, .f32⟩ : BufTy).Contents (Elt F)) (res_main_v165 V0) (res_main_v166 V0)
def res_main_v168 (V0 : Valuation τ sig (Elt F)) : (Proc.devRef (τ := τ) .tc main_v168 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v167 V0)
def res_main_v169 (V0 : Valuation τ sig (Elt F)) : (Proc.devRef (τ := τ) .tc main_v169 : DevRef τ sig).ty.Contents (Elt F) :=
  (subf : (⟨S4096x128, .f32⟩ : BufTy).Contents (Elt F) → (⟨S4096x128, .f32⟩ : BufTy).Contents (Elt F) → (⟨S4096x128, .f32⟩ : BufTy).Contents (Elt F)) (res_main_v163 V0) (res_main_v168 V0)
def res_main_v170 (V0 : Valuation τ sig (Elt F)) : (Proc.devRef (τ := τ) .tc main_v170 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v169 V0) (res_main_v169 V0)
def res_main_cst_25 (V0 : Valuation τ sig (Elt F)) : (Proc.devRef (τ := τ) .tc main_cst_25 : DevRef τ sig).ty.Contents (Elt F) :=
  (constant S_ .f32 0x00000000#32)
def res_main_v171 (V0 : Valuation τ sig (Elt F)) : (Proc.devRef (τ := τ) .tc main_v171 : DevRef τ sig).ty.Contents (Elt F) :=
  ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)) (res_main_v170 V0) (res_main_cst_25 V0)
def res_main_v172 (V0 : Valuation τ sig (Elt F)) : (Proc.devRef (τ := τ) .tc main_v172 : DevRef τ sig).ty.Contents (Elt F) :=
  (broadcastInDim S4096x1 ![0] bcast_S4096_S4096x1_0 : (⟨S4096, .f32⟩ : BufTy).Contents (Elt F) → (⟨S4096x1, .f32⟩ : BufTy).Contents (Elt F)) (res_main_v171 V0)
def res_main_cst_26 (V0 : Valuation τ sig (Elt F)) : (Proc.devRef (τ := τ) .tc main_cst_26 : DevRef τ sig).ty.Contents (Elt F) :=
  (constant S_ .f32 0x43000000#32)
def res_main_v173 (V0 : Valuation τ sig (Elt F)) : (Proc.devRef (τ := τ) .tc main_v173 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_26 V0)
def res_main_v174 (V0 : Valuation τ sig (Elt F)) : (Proc.devRef (τ := τ) .tc main_v174 : DevRef τ sig).ty.Contents (Elt F) :=
  (Host.divf : (⟨S4096x1, .f32⟩ : BufTy).Contents (Elt F) → (⟨S4096x1, .f32⟩ : BufTy).Contents (Elt F) → (⟨S4096x1, .f32⟩ : BufTy).Contents (Elt F)) (res_main_v172 V0) (res_main_v173 V0)
def res_main_v175 (V0 : Valuation τ sig (Elt F)) : (Proc.devRef (τ := τ) .tc main_v175 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v167 V0)
def res_main_v176 (V0 : Valuation τ sig (Elt F)) : (Proc.devRef (τ := τ) .tc main_v176 : DevRef τ sig).ty.Contents (Elt F) :=
  (subf : (⟨S4096x128, .f32⟩ : BufTy).Contents (Elt F) → (⟨S4096x128, .f32⟩ : BufTy).Contents (Elt F) → (⟨S4096x128, .f32⟩ : BufTy).Contents (Elt F)) (res_main_v163 V0) (res_main_v175 V0)
def res_main_cst_27 (V0 : Valuation τ sig (Elt F)) : (Proc.devRef (τ := τ) .tc main_cst_27 : DevRef τ sig).ty.Contents (Elt F) :=
  (constant S_ .f32 0x3727C5AC#32)
def res_main_v177 (V0 : Valuation τ sig (Elt F)) : (Proc.devRef (τ := τ) .tc main_v177 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_27 V0)
def res_main_v178 (V0 : Valuation τ sig (Elt F)) : (Proc.devRef (τ := τ) .tc main_v178 : DevRef τ sig).ty.Contents (Elt F) :=
  (addf : (⟨S4096x1, .f32⟩ : BufTy).Contents (Elt F) → (⟨S4096x1, .f32⟩ : BufTy).Contents (Elt F) → (⟨S4096x1, .f32⟩ : BufTy).Contents (Elt F)) (res_main_v174 V0) (res_main_v177 V0)
def res_main_v179 (V0 : Valuation τ sig (Elt F)) : (Proc.devRef (τ := τ) .tc main_v179 : DevRef τ sig).ty.Contents (Elt F) :=
  (Host.rsqrt : (⟨S4096x1, .f32⟩ : BufTy).Contents (Elt F) → (⟨S4096x1, .f32⟩ : BufTy).Contents (Elt F)) (res_main_v178 V0)
def res_main_v180 (V0 : Valuation τ sig (Elt F)) : (Proc.devRef (τ := τ) .tc main_v180 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v179 V0)
def res_main_v181 (V0 : Valuation τ sig (Elt F)) : (Proc.devRef (τ := τ) .tc main_v181 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v176 V0) (res_main_v180 V0)
def res_main_v182 (V0 : Valuation τ sig (Elt F)) : (Proc.devRef (τ := τ) .tc main_v182 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v27 V0)
def res_main_v183 (V0 : Valuation τ sig (Elt F)) : (Proc.devRef (τ := τ) .tc main_v183 : DevRef τ sig).ty.Contents (Elt F) :=
  (broadcastInDim S4096x128 ![0, 1] bcast_S1x128_S4096x128_0_1 : (⟨S1x128, .f32⟩ : BufTy).Contents (Elt F) → (⟨S4096x128, .f32⟩ : BufTy).Contents (Elt F)) (res_main_v182 V0)
def res_main_v184 (V0 : Valuation τ sig (Elt F)) : (Proc.devRef (τ := τ) .tc main_v184 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v181 V0) (res_main_v183 V0)
def res_main_v185 (V0 : Valuation τ sig (Elt F)) : (Proc.devRef (τ := τ) .tc main_v185 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v29 V0)
def res_main_v186 (V0 : Valuation τ sig (Elt F)) : (Proc.devRef (τ := τ) .tc main_v186 : DevRef τ sig).ty.Contents (Elt F) :=
  (broadcastInDim S4096x128 ![0, 1] bcast_S1x128_S4096x128_0_1 : (⟨S1x128, .f32⟩ : BufTy).Contents (Elt F) → (⟨S4096x128, .f32⟩ : BufTy).Contents (Elt F)) (res_main_v185 V0)
def res_main_v187 (V0 : Valuation τ sig (Elt F)) : (Proc.devRef (τ := τ) .tc main_v187 : DevRef τ sig).ty.Contents (Elt F) :=
  (addf : (⟨S4096x128, .f32⟩ : BufTy).Contents (Elt F) → (⟨S4096x128, .f32⟩ : BufTy).Contents (Elt F) → (⟨S4096x128, .f32⟩ : BufTy).Contents (Elt F)) (res_main_v184 V0) (res_main_v186 V0)
def res_main_cst_28 (V0 : Valuation τ sig (Elt F)) : (Proc.devRef (τ := τ) .tc main_cst_28 : DevRef τ sig).ty.Contents (Elt F) :=
  (constant S_ .f32 0x3C23D70A#32)
def res_main_call4_cst (V0 : Valuation τ sig (Elt F)) : (Proc.devRef (τ := τ) .tc main_call4_cst : DevRef τ sig).ty.Contents (Elt F) :=
  ((constant S_ .f32 0x00000000#32) : (⟨S_, .f32⟩ : BufTy).Contents (Elt F))
def res_main_call4_v0 (V0 : Valuation τ sig (Elt F)) : (Proc.devRef (τ := τ) .tc main_call4_v0 : DevRef τ sig).ty.Contents (Elt F) :=
  ((broadcastInDim S4096x128 ![] bcast_S_S4096x128) : (⟨S_, .f32⟩ : BufTy).Contents (Elt F) → (⟨S4096x128, .f32⟩ : BufTy).Contents (Elt F)) (res_main_call4_cst V0)
def res_main_call4_v1 (V0 : Valuation τ sig (Elt F)) : (Proc.devRef (τ := τ) .tc main_call4_v1 : DevRef τ sig).ty.Contents (Elt F) :=
  ((cmpf .oge) : (⟨S4096x128, .f32⟩ : BufTy).Contents (Elt F) → (⟨S4096x128, .f32⟩ : BufTy).Contents (Elt F) → (⟨S4096x128, .i1⟩ : BufTy).Contents (Elt F)) (res_main_v187 V0) (res_main_call4_v0 V0)
def res_main_call4_v2 (V0 : Valuation τ sig (Elt F)) : (Proc.devRef (τ := τ) .tc main_call4_v2 : DevRef τ sig).ty.Contents (Elt F) :=
  (id : (⟨S_, .f32⟩ : BufTy).Contents (Elt F) → (⟨S_, .f32⟩ : BufTy).Contents (Elt F)) (res_main_cst_28 V0)
def res_main_call4_v3 (V0 : Valuation τ sig (Elt F)) : (Proc.devRef (τ := τ) .tc main_call4_v3 : DevRef τ sig).ty.Contents (Elt F) :=
  ((broadcastInDim S4096x128 ![] bcast_S_S4096x128) : (⟨S_, .f32⟩ : BufTy).Contents (Elt F) → (⟨S4096x128, .f32⟩ : BufTy).Contents (Elt F)) (res_main_call4_v2 V0)
def res_main_call4_v4 (V0 : Valuation τ sig (Elt F)) : (Proc.devRef (τ := τ) .tc main_call4_v4 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_call4_v3 V0) (res_main_v187 V0)
def res_main_v188 (V0 : Valuation τ sig (Elt F)) : (Proc.devRef (τ := τ) .tc main_v188 : DevRef τ sig).ty.Contents (Elt F) :=
  (select : (⟨S4096x128, .i1⟩ : BufTy).Contents (Elt F) → (⟨S4096x128, .f32⟩ : BufTy).Contents (Elt F) → (⟨S4096x128, .f32⟩ : BufTy).Contents (Elt F) → (⟨S4096x128, .f32⟩ : BufTy).Contents (Elt F)) (res_main_call4_v1 V0) (res_main_v187 V0) (res_main_call4_v4 V0)
def res_main_v189 (V0 : Valuation τ sig (Elt F)) : (Proc.devRef (τ := τ) .tc main_v189 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v31 V0)
def res_main_v190 (V0 : Valuation τ sig (Elt F)) : (Proc.devRef (τ := τ) .tc main_v190 : DevRef τ sig).ty.Contents (Elt F) :=
  ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) (res_main_v188 V0) (res_main_v189 V0)
def res_main_cst_29 (V0 : Valuation τ sig (Elt F)) : (Proc.devRef (τ := τ) .tc main_cst_29 : DevRef τ sig).ty.Contents (Elt F) :=
  (constant S_ .f32 0x00000000#32)
def res_main_v191 (V0 : Valuation τ sig (Elt F)) : (Proc.devRef (τ := τ) .tc main_v191 : DevRef τ sig).ty.Contents (Elt F) :=
  ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)) (res_main_v190 V0) (res_main_cst_29 V0)
def res_main_v192 (V0 : Valuation τ sig (Elt F)) : (Proc.devRef (τ := τ) .tc main_v192 : DevRef τ sig).ty.Contents (Elt F) :=
  (broadcastInDim S4096x1 ![0] bcast_S4096_S4096x1_0 : (⟨S4096, .f32⟩ : BufTy).Contents (Elt F) → (⟨S4096x1, .f32⟩ : BufTy).Contents (Elt F)) (res_main_v191 V0)
def res_main_cst_30 (V0 : Valuation τ sig (Elt F)) : (Proc.devRef (τ := τ) .tc main_cst_30 : DevRef τ sig).ty.Contents (Elt F) :=
  (constant S_ .f32 0x43000000#32)
def res_main_v193 (V0 : Valuation τ sig (Elt F)) : (Proc.devRef (τ := τ) .tc main_v193 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_30 V0)
def res_main_v194 (V0 : Valuation τ sig (Elt F)) : (Proc.devRef (τ := τ) .tc main_v194 : DevRef τ sig).ty.Contents (Elt F) :=
  (Host.divf : (⟨S4096x1, .f32⟩ : BufTy).Contents (Elt F) → (⟨S4096x1, .f32⟩ : BufTy).Contents (Elt F) → (⟨S4096x1, .f32⟩ : BufTy).Contents (Elt F)) (res_main_v192 V0) (res_main_v193 V0)
def res_main_v195 (V0 : Valuation τ sig (Elt F)) : (Proc.devRef (τ := τ) .tc main_v195 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v194 V0)
def res_main_v196 (V0 : Valuation τ sig (Elt F)) : (Proc.devRef (τ := τ) .tc main_v196 : DevRef τ sig).ty.Contents (Elt F) :=
  (subf : (⟨S4096x128, .f32⟩ : BufTy).Contents (Elt F) → (⟨S4096x128, .f32⟩ : BufTy).Contents (Elt F) → (⟨S4096x128, .f32⟩ : BufTy).Contents (Elt F)) (res_main_v190 V0) (res_main_v195 V0)
def res_main_v197 (V0 : Valuation τ sig (Elt F)) : (Proc.devRef (τ := τ) .tc main_v197 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v196 V0) (res_main_v196 V0)
def res_main_cst_31 (V0 : Valuation τ sig (Elt F)) : (Proc.devRef (τ := τ) .tc main_cst_31 : DevRef τ sig).ty.Contents (Elt F) :=
  (constant S_ .f32 0x00000000#32)
def res_main_v198 (V0 : Valuation τ sig (Elt F)) : (Proc.devRef (τ := τ) .tc main_v198 : DevRef τ sig).ty.Contents (Elt F) :=
  ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)) (res_main_v197 V0) (res_main_cst_31 V0)
def res_main_v199 (V0 : Valuation τ sig (Elt F)) : (Proc.devRef (τ := τ) .tc main_v199 : DevRef τ sig).ty.Contents (Elt F) :=
  (broadcastInDim S4096x1 ![0] bcast_S4096_S4096x1_0 : (⟨S4096, .f32⟩ : BufTy).Contents (Elt F) → (⟨S4096x1, .f32⟩ : BufTy).Contents (Elt F)) (res_main_v198 V0)
def res_main_cst_32 (V0 : Valuation τ sig (Elt F)) : (Proc.devRef (τ := τ) .tc main_cst_32 : DevRef τ sig).ty.Contents (Elt F) :=
  (constant S_ .f32 0x43000000#32)
def res_main_v200 (V0 : Valuation τ sig (Elt F)) : (Proc.devRef (τ := τ) .tc main_v200 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_32 V0)
def res_main_v201 (V0 : Valuation τ sig (Elt F)) : (Proc.devRef (τ := τ) .tc main_v201 : DevRef τ sig).ty.Contents (Elt F) :=
  (Host.divf : (⟨S4096x1, .f32⟩ : BufTy).Contents (Elt F) → (⟨S4096x1, .f32⟩ : BufTy).Contents (Elt F) → (⟨S4096x1, .f32⟩ : BufTy).Contents (Elt F)) (res_main_v199 V0) (res_main_v200 V0)
def res_main_v202 (V0 : Valuation τ sig (Elt F)) : (Proc.devRef (τ := τ) .tc main_v202 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v194 V0)
def res_main_v203 (V0 : Valuation τ sig (Elt F)) : (Proc.devRef (τ := τ) .tc main_v203 : DevRef τ sig).ty.Contents (Elt F) :=
  (subf : (⟨S4096x128, .f32⟩ : BufTy).Contents (Elt F) → (⟨S4096x128, .f32⟩ : BufTy).Contents (Elt F) → (⟨S4096x128, .f32⟩ : BufTy).Contents (Elt F)) (res_main_v190 V0) (res_main_v202 V0)
def res_main_cst_33 (V0 : Valuation τ sig (Elt F)) : (Proc.devRef (τ := τ) .tc main_cst_33 : DevRef τ sig).ty.Contents (Elt F) :=
  (constant S_ .f32 0x3727C5AC#32)

def res_main_v204 (V0 : Valuation τ sig (Elt F)) : (Proc.devRef (τ := τ) .tc main_v204 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_33 V0)
def res_main_v205 (V0 : Valuation τ sig (Elt F)) : (Proc.devRef (τ := τ) .tc main_v205 : DevRef τ sig).ty.Contents (Elt F) :=
  (addf : (⟨S4096x1, .f32⟩ : BufTy).Contents (Elt F) → (⟨S4096x1, .f32⟩ : BufTy).Contents (Elt F) → (⟨S4096x1, .f32⟩ : BufTy).Contents (Elt F)) (res_main_v201 V0) (res_main_v204 V0)
def res_main_v206 (V0 : Valuation τ sig (Elt F)) : (Proc.devRef (τ := τ) .tc main_v206 : DevRef τ sig).ty.Contents (Elt F) :=
  (Host.rsqrt : (⟨S4096x1, .f32⟩ : BufTy).Contents (Elt F) → (⟨S4096x1, .f32⟩ : BufTy).Contents (Elt F)) (res_main_v205 V0)
def res_main_v207 (V0 : Valuation τ sig (Elt F)) : (Proc.devRef (τ := τ) .tc main_v207 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v206 V0)
def res_main_v208 (V0 : Valuation τ sig (Elt F)) : (Proc.devRef (τ := τ) .tc main_v208 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v203 V0) (res_main_v207 V0)
def res_main_v209 (V0 : Valuation τ sig (Elt F)) : (Proc.devRef (τ := τ) .tc main_v209 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v33 V0)
def res_main_v210 (V0 : Valuation τ sig (Elt F)) : (Proc.devRef (τ := τ) .tc main_v210 : DevRef τ sig).ty.Contents (Elt F) :=
  (broadcastInDim S4096x128 ![0, 1] bcast_S1x128_S4096x128_0_1 : (⟨S1x128, .f32⟩ : BufTy).Contents (Elt F) → (⟨S4096x128, .f32⟩ : BufTy).Contents (Elt F)) (res_main_v209 V0)
def res_main_v211 (V0 : Valuation τ sig (Elt F)) : (Proc.devRef (τ := τ) .tc main_v211 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v208 V0) (res_main_v210 V0)
def res_main_v212 (V0 : Valuation τ sig (Elt F)) : (Proc.devRef (τ := τ) .tc main_v212 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v35 V0)
def res_main_v213 (V0 : Valuation τ sig (Elt F)) : (Proc.devRef (τ := τ) .tc main_v213 : DevRef τ sig).ty.Contents (Elt F) :=
  (broadcastInDim S4096x128 ![0, 1] bcast_S1x128_S4096x128_0_1 : (⟨S1x128, .f32⟩ : BufTy).Contents (Elt F) → (⟨S4096x128, .f32⟩ : BufTy).Contents (Elt F)) (res_main_v212 V0)
def res_main_v214 (V0 : Valuation τ sig (Elt F)) : (Proc.devRef (τ := τ) .tc main_v214 : DevRef τ sig).ty.Contents (Elt F) :=
  (addf : (⟨S4096x128, .f32⟩ : BufTy).Contents (Elt F) → (⟨S4096x128, .f32⟩ : BufTy).Contents (Elt F) → (⟨S4096x128, .f32⟩ : BufTy).Contents (Elt F)) (res_main_v211 V0) (res_main_v213 V0)
def res_main_v215 (V0 : Valuation τ sig (Elt F)) : (Proc.devRef (τ := τ) .tc main_v215 : DevRef τ sig).ty.Contents (Elt F) :=
  (addf : (⟨S4096x128, .f32⟩ : BufTy).Contents (Elt F) → (⟨S4096x128, .f32⟩ : BufTy).Contents (Elt F) → (⟨S4096x128, .f32⟩ : BufTy).Contents (Elt F)) (res_main_v214 V0) (V0 (Proc.devRef .tc main_arg0))
def res_main_cst_34 (V0 : Valuation τ sig (Elt F)) : (Proc.devRef (τ := τ) .tc main_cst_34 : DevRef τ sig).ty.Contents (Elt F) :=
  (constant S_ .f32 0x3C23D70A#32)
def res_main_call5_cst (V0 : Valuation τ sig (Elt F)) : (Proc.devRef (τ := τ) .tc main_call5_cst : DevRef τ sig).ty.Contents (Elt F) :=
  ((constant S_ .f32 0x00000000#32) : (⟨S_, .f32⟩ : BufTy).Contents (Elt F))
def res_main_call5_v0 (V0 : Valuation τ sig (Elt F)) : (Proc.devRef (τ := τ) .tc main_call5_v0 : DevRef τ sig).ty.Contents (Elt F) :=
  ((broadcastInDim S4096x128 ![] bcast_S_S4096x128) : (⟨S_, .f32⟩ : BufTy).Contents (Elt F) → (⟨S4096x128, .f32⟩ : BufTy).Contents (Elt F)) (res_main_call5_cst V0)
def res_main_call5_v1 (V0 : Valuation τ sig (Elt F)) : (Proc.devRef (τ := τ) .tc main_call5_v1 : DevRef τ sig).ty.Contents (Elt F) :=
  ((cmpf .oge) : (⟨S4096x128, .f32⟩ : BufTy).Contents (Elt F) → (⟨S4096x128, .f32⟩ : BufTy).Contents (Elt F) → (⟨S4096x128, .i1⟩ : BufTy).Contents (Elt F)) (res_main_v215 V0) (res_main_call5_v0 V0)
def res_main_call5_v2 (V0 : Valuation τ sig (Elt F)) : (Proc.devRef (τ := τ) .tc main_call5_v2 : DevRef τ sig).ty.Contents (Elt F) :=
  (id : (⟨S_, .f32⟩ : BufTy).Contents (Elt F) → (⟨S_, .f32⟩ : BufTy).Contents (Elt F)) (res_main_cst_34 V0)
def res_main_call5_v3 (V0 : Valuation τ sig (Elt F)) : (Proc.devRef (τ := τ) .tc main_call5_v3 : DevRef τ sig).ty.Contents (Elt F) :=
  ((broadcastInDim S4096x128 ![] bcast_S_S4096x128) : (⟨S_, .f32⟩ : BufTy).Contents (Elt F) → (⟨S4096x128, .f32⟩ : BufTy).Contents (Elt F)) (res_main_call5_v2 V0)
def res_main_call5_v4 (V0 : Valuation τ sig (Elt F)) : (Proc.devRef (τ := τ) .tc main_call5_v4 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_call5_v3 V0) (res_main_v215 V0)
def res_main_v216 (V0 : Valuation τ sig (Elt F)) : (Proc.devRef (τ := τ) .tc main_v216 : DevRef τ sig).ty.Contents (Elt F) :=
  (select : (⟨S4096x128, .i1⟩ : BufTy).Contents (Elt F) → (⟨S4096x128, .f32⟩ : BufTy).Contents (Elt F) → (⟨S4096x128, .f32⟩ : BufTy).Contents (Elt F) → (⟨S4096x128, .f32⟩ : BufTy).Contents (Elt F)) (res_main_call5_v1 V0) (res_main_v215 V0) (res_main_call5_v4 V0)
def res_main_v217 (V0 : Valuation τ sig (Elt F)) : (Proc.devRef (τ := τ) .tc main_v217 : DevRef τ sig).ty.Contents (Elt F) :=
  ((extractStridedSlice S1x128x2 ![1, 0, 0] · slices_S2x128x2_S1x128x2_1_0_0) : (⟨S2x128x2, .f32⟩ : BufTy).Contents (Elt F) → (⟨S1x128x2, .f32⟩ : BufTy).Contents (Elt F)) (V0 (Proc.devRef .tc main_arg4))
def res_main_v218 (V0 : Valuation τ sig (Elt F)) : (Proc.devRef (τ := τ) .tc main_v218 : DevRef τ sig).ty.Contents (Elt F) :=
  shapeCast S128x2 (res_main_v217 V0) shapeCasts_S1x128x2_S128x2
def res_main_v219 (V0 : Valuation τ sig (Elt F)) : (Proc.devRef (τ := τ) .tc main_v219 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg5))
def res_main_v220 (V0 : Valuation τ sig (Elt F)) : (Proc.devRef (τ := τ) .tc main_v220 : DevRef τ sig).ty.Contents (Elt F) :=
  shapeCast S128 (res_main_v219 V0) shapeCasts_S1x128_S128
def res_main_v221 (V0 : Valuation τ sig (Elt F)) : (Proc.devRef (τ := τ) .tc main_v221 : DevRef τ sig).ty.Contents (Elt F) :=
  ((extractStridedSlice S1x128x128 ![1, 0, 0] · slices_S2x128x128_S1x128x128_1_0_0) : (⟨S2x128x128, .f32⟩ : BufTy).Contents (Elt F) → (⟨S1x128x128, .f32⟩ : BufTy).Contents (Elt F)) (V0 (Proc.devRef .tc main_arg6))
def res_main_v222 (V0 : Valuation τ sig (Elt F)) : (Proc.devRef (τ := τ) .tc main_v222 : DevRef τ sig).ty.Contents (Elt F) :=
  shapeCast S128x128 (res_main_v221 V0) shapeCasts_S1x128x128_S128x128
def res_main_v223 (V0 : Valuation τ sig (Elt F)) : (Proc.devRef (τ := τ) .tc main_v223 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg7))
def res_main_v224 (V0 : Valuation τ sig (Elt F)) : (Proc.devRef (τ := τ) .tc main_v224 : DevRef τ sig).ty.Contents (Elt F) :=
  shapeCast S128 (res_main_v223 V0) shapeCasts_S1x128_S128
def res_main_v225 (V0 : Valuation τ sig (Elt F)) : (Proc.devRef (τ := τ) .tc main_v225 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg8))
def res_main_v226 (V0 : Valuation τ sig (Elt F)) : (Proc.devRef (τ := τ) .tc main_v226 : DevRef τ sig).ty.Contents (Elt F) :=
  shapeCast S128 (res_main_v225 V0) shapeCasts_S1x128_S128
def res_main_v227 (V0 : Valuation τ sig (Elt F)) : (Proc.devRef (τ := τ) .tc main_v227 : DevRef τ sig).ty.Contents (Elt F) :=
  ((extractStridedSlice S1x128x128 ![1, 0, 0] · slices_S2x128x128_S1x128x128_1_0_0) : (⟨S2x128x128, .f32⟩ : BufTy).Contents (Elt F) → (⟨S1x128x128, .f32⟩ : BufTy).Contents (Elt F)) (V0 (Proc.devRef .tc main_arg9))
def res_main_v228 (V0 : Valuation τ sig (Elt F)) : (Proc.devRef (τ := τ) .tc main_v228 : DevRef τ sig).ty.Contents (Elt F) :=
  shapeCast S128x128 (res_main_v227 V0) shapeCasts_S1x128x128_S128x128
def res_main_v229 (V0 : Valuation τ sig (Elt F)) : (Proc.devRef (τ := τ) .tc main_v229 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg10))
def res_main_v230 (V0 : Valuation τ sig (Elt F)) : (Proc.devRef (τ := τ) .tc main_v230 : DevRef τ sig).ty.Contents (Elt F) :=
  shapeCast S128 (res_main_v229 V0) shapeCasts_S1x128_S128
def res_main_v231 (V0 : Valuation τ sig (Elt F)) : (Proc.devRef (τ := τ) .tc main_v231 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg11))
def res_main_v232 (V0 : Valuation τ sig (Elt F)) : (Proc.devRef (τ := τ) .tc main_v232 : DevRef τ sig).ty.Contents (Elt F) :=
  shapeCast S128 (res_main_v231 V0) shapeCasts_S1x128_S128
def res_main_v233 (V0 : Valuation τ sig (Elt F)) : (Proc.devRef (τ := τ) .tc main_v233 : DevRef τ sig).ty.Contents (Elt F) :=
  ((extractStridedSlice S1x128x384 ![1, 0, 0] · slices_S2x128x384_S1x128x384_1_0_0) : (⟨S2x128x384, .f32⟩ : BufTy).Contents (Elt F) → (⟨S1x128x384, .f32⟩ : BufTy).Contents (Elt F)) (V0 (Proc.devRef .tc main_arg12))
def res_main_v234 (V0 : Valuation τ sig (Elt F)) : (Proc.devRef (τ := τ) .tc main_v234 : DevRef τ sig).ty.Contents (Elt F) :=
  shapeCast S128x384 (res_main_v233 V0) shapeCasts_S1x128x384_S128x384
def res_main_v235 (V0 : Valuation τ sig (Elt F)) : (Proc.devRef (τ := τ) .tc main_v235 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg13))
def res_main_v236 (V0 : Valuation τ sig (Elt F)) : (Proc.devRef (τ := τ) .tc main_v236 : DevRef τ sig).ty.Contents (Elt F) :=
  shapeCast S128 (res_main_v235 V0) shapeCasts_S1x128_S128
def res_main_v237 (V0 : Valuation τ sig (Elt F)) : (Proc.devRef (τ := τ) .tc main_v237 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg14))
def res_main_v238 (V0 : Valuation τ sig (Elt F)) : (Proc.devRef (τ := τ) .tc main_v238 : DevRef τ sig).ty.Contents (Elt F) :=
  shapeCast S128 (res_main_v237 V0) shapeCasts_S1x128_S128
def res_main_v239 (V0 : Valuation τ sig (Elt F)) : (Proc.devRef (τ := τ) .tc main_v239 : DevRef τ sig).ty.Contents (Elt F) :=
  ((extractStridedSlice S1x128x128 ![1, 0, 0] · slices_S2x128x128_S1x128x128_1_0_0) : (⟨S2x128x128, .f32⟩ : BufTy).Contents (Elt F) → (⟨S1x128x128, .f32⟩ : BufTy).Contents (Elt F)) (V0 (Proc.devRef .tc main_arg15))
def res_main_v240 (V0 : Valuation τ sig (Elt F)) : (Proc.devRef (τ := τ) .tc main_v240 : DevRef τ sig).ty.Contents (Elt F) :=
  shapeCast S128x128 (res_main_v239 V0) shapeCasts_S1x128x128_S128x128
def res_main_v241 (V0 : Valuation τ sig (Elt F)) : (Proc.devRef (τ := τ) .tc main_v241 : DevRef τ sig).ty.Contents (Elt F) :=
  ((extractStridedSlice S1x128x128 ![1, 0, 0] · slices_S2x128x128_S1x128x128_1_0_0) : (⟨S2x128x128, .f32⟩ : BufTy).Contents (Elt F) → (⟨S1x128x128, .f32⟩ : BufTy).Contents (Elt F)) (V0 (Proc.devRef .tc main_arg16))
def res_main_v242 (V0 : Valuation τ sig (Elt F)) : (Proc.devRef (τ := τ) .tc main_v242 : DevRef τ sig).ty.Contents (Elt F) :=
  shapeCast S128x128 (res_main_v241 V0) shapeCasts_S1x128x128_S128x128
def res_main_v243 (V0 : Valuation τ sig (Elt F)) : (Proc.devRef (τ := τ) .tc main_v243 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg17))
def res_main_v244 (V0 : Valuation τ sig (Elt F)) : (Proc.devRef (τ := τ) .tc main_v244 : DevRef τ sig).ty.Contents (Elt F) :=
  shapeCast S128 (res_main_v243 V0) shapeCasts_S1x128_S128
def res_main_v245 (V0 : Valuation τ sig (Elt F)) : (Proc.devRef (τ := τ) .tc main_v245 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg18))
def res_main_v246 (V0 : Valuation τ sig (Elt F)) : (Proc.devRef (τ := τ) .tc main_v246 : DevRef τ sig).ty.Contents (Elt F) :=
  shapeCast S128 (res_main_v245 V0) shapeCasts_S1x128_S128
def res_main_v247 (V0 : Valuation τ sig (Elt F)) : (Proc.devRef (τ := τ) .tc main_v247 : DevRef τ sig).ty.Contents (Elt F) :=
  ((extractStridedSlice S1x128x128 ![1, 0, 0] · slices_S2x128x128_S1x128x128_1_0_0) : (⟨S2x128x128, .f32⟩ : BufTy).Contents (Elt F) → (⟨S1x128x128, .f32⟩ : BufTy).Contents (Elt F)) (V0 (Proc.devRef .tc main_arg19))
def res_main_v248 (V0 : Valuation τ sig (Elt F)) : (Proc.devRef (τ := τ) .tc main_v248 : DevRef τ sig).ty.Contents (Elt F) :=
  shapeCast S128x128 (res_main_v247 V0) shapeCasts_S1x128x128_S128x128
def res_main_v249 (V0 : Valuation τ sig (Elt F)) : (Proc.devRef (τ := τ) .tc main_v249 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg20))
def res_main_v250 (V0 : Valuation τ sig (Elt F)) : (Proc.devRef (τ := τ) .tc main_v250 : DevRef τ sig).ty.Contents (Elt F) :=
  shapeCast S128 (res_main_v249 V0) shapeCasts_S1x128_S128
def res_main_v251 (V0 : Valuation τ sig (Elt F)) : (Proc.devRef (τ := τ) .tc main_v251 : DevRef τ sig).ty.Contents (Elt F) :=
  ((extractStridedSlice S1x128 ![1, 0] · slices_S2x128_S1x128_1_0) : (⟨S2x128, .f32⟩ : BufTy).Contents (Elt F) → (⟨S1x128, .f32⟩ : BufTy).Contents (Elt F)) (V0 (Proc.devRef .tc main_arg21))
def res_main_v252 (V0 : Valuation τ sig (Elt F)) : (Proc.devRef (τ := τ) .tc main_v252 : DevRef τ sig).ty.Contents (Elt F) :=
  shapeCast S128 (res_main_v251 V0) shapeCasts_S1x128_S128
def res_main_c_35 (V0 : Valuation τ sig (Elt F)) : (Proc.devRef (τ := τ) .tc main_c_35 : DevRef τ sig).ty.Contents (Elt F) :=
  (constantI S_ 32 0#32)
def res_main_v253 (V0 : Valuation τ sig (Elt F)) : (Proc.devRef (τ := τ) .tc main_v253 : DevRef τ sig).ty.Contents (Elt F) :=
  (broadcastInDim S167386 ![] bcast_S_S167386 : (⟨S_, .i32⟩ : BufTy).Contents (Elt F) → (⟨S167386, .i32⟩ : BufTy).Contents (Elt F)) (res_main_c_35 V0)
def res_main_v254 (V0 : Valuation τ sig (Elt F)) : (Proc.devRef (τ := τ) .tc main_v254 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg2)) (res_main_v253 V0)
def res_main_c_36 (V0 : Valuation τ sig (Elt F)) : (Proc.devRef (τ := τ) .tc main_c_36 : DevRef τ sig).ty.Contents (Elt F) :=
  (constantI S_ 32 4096#32)
def res_main_v255 (V0 : Valuation τ sig (Elt F)) : (Proc.devRef (τ := τ) .tc main_v255 : DevRef τ sig).ty.Contents (Elt F) :=
  (broadcastInDim S167386 ![] bcast_S_S167386 : (⟨S_, .i32⟩ : BufTy).Contents (Elt F) → (⟨S167386, .i32⟩ : BufTy).Contents (Elt F)) (res_main_c_36 V0)
def res_main_v256 (V0 : Valuation τ sig (Elt F)) : (Proc.devRef (τ := τ) .tc main_v256 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg2)) (res_main_v255 V0)
def res_main_v257 (V0 : Valuation τ sig (Elt F)) : (Proc.devRef (τ := τ) .tc main_v257 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v254 V0) (res_main_v256 V0) (V0 (Proc.devRef .tc main_arg2))
def res_main_v258 (V0 : Valuation τ sig (Elt F)) : (Proc.devRef (τ := τ) .tc main_v258 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v257 V0)
def res_main_v259 (V0 : Valuation τ sig (Elt F)) : (Proc.devRef (τ := τ) .tc main_v259 : DevRef τ sig).ty.Contents (Elt F) :=
  ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)) (V0 (Proc.devRef .tc main_arg1)) (res_main_v258 V0)
def res_main_c_37 (V0 : Valuation τ sig (Elt F)) : (Proc.devRef (τ := τ) .tc main_c_37 : DevRef τ sig).ty.Contents (Elt F) :=
  (constantI S_ 32 0#32)

def res_main_v260 (V0 : Valuation τ sig (Elt F)) : (Proc.devRef (τ := τ) .tc main_v260 : DevRef τ sig).ty.Contents (Elt F) :=
  (broadcastInDim S167386 ![] bcast_S_S167386 : (⟨S_, .i32⟩ : BufTy).Contents (Elt F) → (⟨S167386, .i32⟩ : BufTy).Contents (Elt F)) (res_main_c_37 V0)
def res_main_v261 (V0 : Valuation τ sig (Elt F)) : (Proc.devRef (τ := τ) .tc main_v261 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg3)) (res_main_v260 V0)
def res_main_c_38 (V0 : Valuation τ sig (Elt F)) : (Proc.devRef (τ := τ) .tc main_c_38 : DevRef τ sig).ty.Contents (Elt F) :=
  (constantI S_ 32 4096#32)
def res_main_v262 (V0 : Valuation τ sig (Elt F)) : (Proc.devRef (τ := τ) .tc main_v262 : DevRef τ sig).ty.Contents (Elt F) :=
  (broadcastInDim S167386 ![] bcast_S_S167386 : (⟨S_, .i32⟩ : BufTy).Contents (Elt F) → (⟨S167386, .i32⟩ : BufTy).Contents (Elt F)) (res_main_c_38 V0)
def res_main_v263 (V0 : Valuation τ sig (Elt F)) : (Proc.devRef (τ := τ) .tc main_v263 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg3)) (res_main_v262 V0)
def res_main_v264 (V0 : Valuation τ sig (Elt F)) : (Proc.devRef (τ := τ) .tc main_v264 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v261 V0) (res_main_v263 V0) (V0 (Proc.devRef .tc main_arg3))
def res_main_v265 (V0 : Valuation τ sig (Elt F)) : (Proc.devRef (τ := τ) .tc main_v265 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v264 V0)
def res_main_v266 (V0 : Valuation τ sig (Elt F)) : (Proc.devRef (τ := τ) .tc main_v266 : DevRef τ sig).ty.Contents (Elt F) :=
  ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)) (V0 (Proc.devRef .tc main_arg1)) (res_main_v265 V0)
def res_main_v267 (V0 : Valuation τ sig (Elt F)) : (Proc.devRef (τ := τ) .tc main_v267 : DevRef τ sig).ty.Contents (Elt F) :=
  (subf : (⟨S167386x2, .f32⟩ : BufTy).Contents (Elt F) → (⟨S167386x2, .f32⟩ : BufTy).Contents (Elt F) → (⟨S167386x2, .f32⟩ : BufTy).Contents (Elt F)) (res_main_v259 V0) (res_main_v266 V0)
def res_main_v268 (V0 : Valuation τ sig (Elt F)) : (Proc.devRef (τ := τ) .tc main_v268 : DevRef τ sig).ty.Contents (Elt F) :=
  ((transpose S2x128 [1, 0] · transposes_S128x2_S2x128_1_0) : (⟨S128x2, .f32⟩ : BufTy).Contents (Elt F) → (⟨S2x128, .f32⟩ : BufTy).Contents (Elt F)) (res_main_v218 V0)
def res_main_v269 (V0 : Valuation τ sig (Elt F)) : (Proc.devRef (τ := τ) .tc main_v269 : DevRef τ sig).ty.Contents (Elt F) :=
  ((fun l r => Host.dotGeneral dot_S167386x2_S2x128_S167386x128_1_0_0_1_n_n none l r) : (⟨S167386x2, .f32⟩ : BufTy).Contents (Elt F) → (⟨S2x128, .f32⟩ : BufTy).Contents (Elt F) → (⟨S167386x128, .f32⟩ : BufTy).Contents (Elt F)) (res_main_v267 V0) (res_main_v268 V0)
def res_main_v270 (V0 : Valuation τ sig (Elt F)) : (Proc.devRef (τ := τ) .tc main_v270 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v220 V0)
def res_main_v271 (V0 : Valuation τ sig (Elt F)) : (Proc.devRef (τ := τ) .tc main_v271 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v270 V0)
def res_main_v272 (V0 : Valuation τ sig (Elt F)) : (Proc.devRef (τ := τ) .tc main_v272 : DevRef τ sig).ty.Contents (Elt F) :=
  (addf : (⟨S167386x128, .f32⟩ : BufTy).Contents (Elt F) → (⟨S167386x128, .f32⟩ : BufTy).Contents (Elt F) → (⟨S167386x128, .f32⟩ : BufTy).Contents (Elt F)) (res_main_v269 V0) (res_main_v271 V0)
def res_main_call6_cst (V0 : Valuation τ sig (Elt F)) : (Proc.devRef (τ := τ) .tc main_call6_cst : DevRef τ sig).ty.Contents (Elt F) :=
  ((constant S_ .f32 0x00000000#32) : (⟨S_, .f32⟩ : BufTy).Contents (Elt F))
def res_main_call6_v0 (V0 : Valuation τ sig (Elt F)) : (Proc.devRef (τ := τ) .tc main_call6_v0 : DevRef τ sig).ty.Contents (Elt F) :=
  ((broadcastInDim S167386x128 ![] bcast_S_S167386x128) : (⟨S_, .f32⟩ : BufTy).Contents (Elt F) → (⟨S167386x128, .f32⟩ : BufTy).Contents (Elt F)) (res_main_call6_cst V0)
def res_main_v273 (V0 : Valuation τ sig (Elt F)) : (Proc.devRef (τ := τ) .tc main_v273 : DevRef τ sig).ty.Contents (Elt F) :=
  (maximumf : (⟨S167386x128, .f32⟩ : BufTy).Contents (Elt F) → (⟨S167386x128, .f32⟩ : BufTy).Contents (Elt F) → (⟨S167386x128, .f32⟩ : BufTy).Contents (Elt F)) (res_main_v272 V0) (res_main_call6_v0 V0)
def res_main_v274 (V0 : Valuation τ sig (Elt F)) : (Proc.devRef (τ := τ) .tc main_v274 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v222 V0)
def res_main_v275 (V0 : Valuation τ sig (Elt F)) : (Proc.devRef (τ := τ) .tc main_v275 : DevRef τ sig).ty.Contents (Elt F) :=
  ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)) (res_main_v273 V0) (res_main_v274 V0)
def res_main_cst_39 (V0 : Valuation τ sig (Elt F)) : (Proc.devRef (τ := τ) .tc main_cst_39 : DevRef τ sig).ty.Contents (Elt F) :=
  (constant S_ .f32 0x00000000#32)
def res_main_v276 (V0 : Valuation τ sig (Elt F)) : (Proc.devRef (τ := τ) .tc main_v276 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v275 V0) (res_main_cst_39 V0)
def res_main_v277 (V0 : Valuation τ sig (Elt F)) : (Proc.devRef (τ := τ) .tc main_v277 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v276 V0)
def res_main_cst_40 (V0 : Valuation τ sig (Elt F)) : (Proc.devRef (τ := τ) .tc main_cst_40 : DevRef τ sig).ty.Contents (Elt F) :=
  (constant S_ .f32 0x43000000#32)
def res_main_v278 (V0 : Valuation τ sig (Elt F)) : (Proc.devRef (τ := τ) .tc main_v278 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_40 V0)
def res_main_v279 (V0 : Valuation τ sig (Elt F)) : (Proc.devRef (τ := τ) .tc main_v279 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v277 V0) (res_main_v278 V0)
def res_main_v280 (V0 : Valuation τ sig (Elt F)) : (Proc.devRef (τ := τ) .tc main_v280 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v279 V0)
def res_main_v281 (V0 : Valuation τ sig (Elt F)) : (Proc.devRef (τ := τ) .tc main_v281 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v275 V0) (res_main_v280 V0)
def res_main_v282 (V0 : Valuation τ sig (Elt F)) : (Proc.devRef (τ := τ) .tc main_v282 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v281 V0) (res_main_v281 V0)
def res_main_cst_41 (V0 : Valuation τ sig (Elt F)) : (Proc.devRef (τ := τ) .tc main_cst_41 : DevRef τ sig).ty.Contents (Elt F) :=
  (constant S_ .f32 0x00000000#32)
def res_main_v283 (V0 : Valuation τ sig (Elt F)) : (Proc.devRef (τ := τ) .tc main_v283 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v282 V0) (res_main_cst_41 V0)
def res_main_v284 (V0 : Valuation τ sig (Elt F)) : (Proc.devRef (τ := τ) .tc main_v284 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v283 V0)
def res_main_cst_42 (V0 : Valuation τ sig (Elt F)) : (Proc.devRef (τ := τ) .tc main_cst_42 : DevRef τ sig).ty.Contents (Elt F) :=
  (constant S_ .f32 0x43000000#32)
def res_main_v285 (V0 : Valuation τ sig (Elt F)) : (Proc.devRef (τ := τ) .tc main_v285 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_42 V0)
def res_main_v286 (V0 : Valuation τ sig (Elt F)) : (Proc.devRef (τ := τ) .tc main_v286 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v284 V0) (res_main_v285 V0)
def res_main_v287 (V0 : Valuation τ sig (Elt F)) : (Proc.devRef (τ := τ) .tc main_v287 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v279 V0)
def res_main_v288 (V0 : Valuation τ sig (Elt F)) : (Proc.devRef (τ := τ) .tc main_v288 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v275 V0) (res_main_v287 V0)
def res_main_cst_43 (V0 : Valuation τ sig (Elt F)) : (Proc.devRef (τ := τ) .tc main_cst_43 : DevRef τ sig).ty.Contents (Elt F) :=
  (constant S_ .f32 0x3727C5AC#32)
def res_main_v289 (V0 : Valuation τ sig (Elt F)) : (Proc.devRef (τ := τ) .tc main_v289 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_43 V0)
def res_main_v290 (V0 : Valuation τ sig (Elt F)) : (Proc.devRef (τ := τ) .tc main_v290 : DevRef τ sig).ty.Contents (Elt F) :=
  (addf : (⟨S167386x1, .f32⟩ : BufTy).Contents (Elt F) → (⟨S167386x1, .f32⟩ : BufTy).Contents (Elt F) → (⟨S167386x1, .f32⟩ : BufTy).Contents (Elt F)) (res_main_v286 V0) (res_main_v289 V0)
def res_main_v291 (V0 : Valuation τ sig (Elt F)) : (Proc.devRef (τ := τ) .tc main_v291 : DevRef τ sig).ty.Contents (Elt F) :=
  (Host.rsqrt : (⟨S167386x1, .f32⟩ : BufTy).Contents (Elt F) → (⟨S167386x1, .f32⟩ : BufTy).Contents (Elt F)) (res_main_v290 V0)
def res_main_v292 (V0 : Valuation τ sig (Elt F)) : (Proc.devRef (τ := τ) .tc main_v292 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v291 V0)
def res_main_v293 (V0 : Valuation τ sig (Elt F)) : (Proc.devRef (τ := τ) .tc main_v293 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v288 V0) (res_main_v292 V0)
def res_main_v294 (V0 : Valuation τ sig (Elt F)) : (Proc.devRef (τ := τ) .tc main_v294 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v224 V0)
def res_main_v295 (V0 : Valuation τ sig (Elt F)) : (Proc.devRef (τ := τ) .tc main_v295 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v294 V0)
def res_main_v296 (V0 : Valuation τ sig (Elt F)) : (Proc.devRef (τ := τ) .tc main_v296 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v293 V0) (res_main_v295 V0)
def res_main_v297 (V0 : Valuation τ sig (Elt F)) : (Proc.devRef (τ := τ) .tc main_v297 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v226 V0)
def res_main_v298 (V0 : Valuation τ sig (Elt F)) : (Proc.devRef (τ := τ) .tc main_v298 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v297 V0)
def res_main_v299 (V0 : Valuation τ sig (Elt F)) : (Proc.devRef (τ := τ) .tc main_v299 : DevRef τ sig).ty.Contents (Elt F) :=
  (addf : (⟨S167386x128, .f32⟩ : BufTy).Contents (Elt F) → (⟨S167386x128, .f32⟩ : BufTy).Contents (Elt F) → (⟨S167386x128, .f32⟩ : BufTy).Contents (Elt F)) (res_main_v296 V0) (res_main_v298 V0)
def res_main_call7_cst (V0 : Valuation τ sig (Elt F)) : (Proc.devRef (τ := τ) .tc main_call7_cst : DevRef τ sig).ty.Contents (Elt F) :=
  ((constant S_ .f32 0x00000000#32) : (⟨S_, .f32⟩ : BufTy).Contents (Elt F))
def res_main_call7_v0 (V0 : Valuation τ sig (Elt F)) : (Proc.devRef (τ := τ) .tc main_call7_v0 : DevRef τ sig).ty.Contents (Elt F) :=
  ((broadcastInDim S167386x128 ![] bcast_S_S167386x128) : (⟨S_, .f32⟩ : BufTy).Contents (Elt F) → (⟨S167386x128, .f32⟩ : BufTy).Contents (Elt F)) (res_main_call7_cst V0)
def res_main_v300 (V0 : Valuation τ sig (Elt F)) : (Proc.devRef (τ := τ) .tc main_v300 : DevRef τ sig).ty.Contents (Elt F) :=
  (maximumf : (⟨S167386x128, .f32⟩ : BufTy).Contents (Elt F) → (⟨S167386x128, .f32⟩ : BufTy).Contents (Elt F) → (⟨S167386x128, .f32⟩ : BufTy).Contents (Elt F)) (res_main_v299 V0) (res_main_call7_v0 V0)
def res_main_c_44 (V0 : Valuation τ sig (Elt F)) : (Proc.devRef (τ := τ) .tc main_c_44 : DevRef τ sig).ty.Contents (Elt F) :=
  (constantI S_ 32 0#32)
def res_main_v301 (V0 : Valuation τ sig (Elt F)) : (Proc.devRef (τ := τ) .tc main_v301 : DevRef τ sig).ty.Contents (Elt F) :=
  (broadcastInDim S167386 ![] bcast_S_S167386 : (⟨S_, .i32⟩ : BufTy).Contents (Elt F) → (⟨S167386, .i32⟩ : BufTy).Contents (Elt F)) (res_main_c_44 V0)
def res_main_v302 (V0 : Valuation τ sig (Elt F)) : (Proc.devRef (τ := τ) .tc main_v302 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg2)) (res_main_v301 V0)
def res_main_c_45 (V0 : Valuation τ sig (Elt F)) : (Proc.devRef (τ := τ) .tc main_c_45 : DevRef τ sig).ty.Contents (Elt F) :=
  (constantI S_ 32 4096#32)
def res_main_v303 (V0 : Valuation τ sig (Elt F)) : (Proc.devRef (τ := τ) .tc main_v303 : DevRef τ sig).ty.Contents (Elt F) :=
  (broadcastInDim S167386 ![] bcast_S_S167386 : (⟨S_, .i32⟩ : BufTy).Contents (Elt F) → (⟨S167386, .i32⟩ : BufTy).Contents (Elt F)) (res_main_c_45 V0)
def res_main_v304 (V0 : Valuation τ sig (Elt F)) : (Proc.devRef (τ := τ) .tc main_v304 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg2)) (res_main_v303 V0)
def res_main_v305 (V0 : Valuation τ sig (Elt F)) : (Proc.devRef (τ := τ) .tc main_v305 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v302 V0) (res_main_v304 V0) (V0 (Proc.devRef .tc main_arg2))
def res_main_v306 (V0 : Valuation τ sig (Elt F)) : (Proc.devRef (τ := τ) .tc main_v306 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v305 V0)
def res_main_v307 (V0 : Valuation τ sig (Elt F)) : (Proc.devRef (τ := τ) .tc main_v307 : DevRef τ sig).ty.Contents (Elt F) :=
  ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)) (res_main_v216 V0) (res_main_v306 V0)
def res_main_v308 (V0 : Valuation τ sig (Elt F)) : (Proc.devRef (τ := τ) .tc main_v308 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v228 V0)
def res_main_v309 (V0 : Valuation τ sig (Elt F)) : (Proc.devRef (τ := τ) .tc main_v309 : DevRef τ sig).ty.Contents (Elt F) :=
  ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)) (res_main_v307 V0) (res_main_v308 V0)
def res_main_cst_46 (V0 : Valuation τ sig (Elt F)) : (Proc.devRef (τ := τ) .tc main_cst_46 : DevRef τ sig).ty.Contents (Elt F) :=
  (constant S_ .f32 0x00000000#32)
def res_main_v310 (V0 : Valuation τ sig (Elt F)) : (Proc.devRef (τ := τ) .tc main_v310 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v309 V0) (res_main_cst_46 V0)

def res_main_v311 (V0 : Valuation τ sig (Elt F)) : (Proc.devRef (τ := τ) .tc main_v311 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v310 V0)
def res_main_cst_47 (V0 : Valuation τ sig (Elt F)) : (Proc.devRef (τ := τ) .tc main_cst_47 : DevRef τ sig).ty.Contents (Elt F) :=
  (constant S_ .f32 0x43000000#32)
def res_main_v312 (V0 : Valuation τ sig (Elt F)) : (Proc.devRef (τ := τ) .tc main_v312 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_47 V0)
def res_main_v313 (V0 : Valuation τ sig (Elt F)) : (Proc.devRef (τ := τ) .tc main_v313 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v311 V0) (res_main_v312 V0)
def res_main_v314 (V0 : Valuation τ sig (Elt F)) : (Proc.devRef (τ := τ) .tc main_v314 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v313 V0)
def res_main_v315 (V0 : Valuation τ sig (Elt F)) : (Proc.devRef (τ := τ) .tc main_v315 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v309 V0) (res_main_v314 V0)
def res_main_v316 (V0 : Valuation τ sig (Elt F)) : (Proc.devRef (τ := τ) .tc main_v316 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v315 V0) (res_main_v315 V0)
def res_main_cst_48 (V0 : Valuation τ sig (Elt F)) : (Proc.devRef (τ := τ) .tc main_cst_48 : DevRef τ sig).ty.Contents (Elt F) :=
  (constant S_ .f32 0x00000000#32)
def res_main_v317 (V0 : Valuation τ sig (Elt F)) : (Proc.devRef (τ := τ) .tc main_v317 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v316 V0) (res_main_cst_48 V0)
def res_main_v318 (V0 : Valuation τ sig (Elt F)) : (Proc.devRef (τ := τ) .tc main_v318 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v317 V0)
def res_main_cst_49 (V0 : Valuation τ sig (Elt F)) : (Proc.devRef (τ := τ) .tc main_cst_49 : DevRef τ sig).ty.Contents (Elt F) :=
  (constant S_ .f32 0x43000000#32)
def res_main_v319 (V0 : Valuation τ sig (Elt F)) : (Proc.devRef (τ := τ) .tc main_v319 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_49 V0)
def res_main_v320 (V0 : Valuation τ sig (Elt F)) : (Proc.devRef (τ := τ) .tc main_v320 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v318 V0) (res_main_v319 V0)
def res_main_v321 (V0 : Valuation τ sig (Elt F)) : (Proc.devRef (τ := τ) .tc main_v321 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v313 V0)
def res_main_v322 (V0 : Valuation τ sig (Elt F)) : (Proc.devRef (τ := τ) .tc main_v322 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v309 V0) (res_main_v321 V0)
def res_main_cst_50 (V0 : Valuation τ sig (Elt F)) : (Proc.devRef (τ := τ) .tc main_cst_50 : DevRef τ sig).ty.Contents (Elt F) :=
  (constant S_ .f32 0x3727C5AC#32)
def res_main_v323 (V0 : Valuation τ sig (Elt F)) : (Proc.devRef (τ := τ) .tc main_v323 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_50 V0)
def res_main_v324 (V0 : Valuation τ sig (Elt F)) : (Proc.devRef (τ := τ) .tc main_v324 : DevRef τ sig).ty.Contents (Elt F) :=
  (addf : (⟨S167386x1, .f32⟩ : BufTy).Contents (Elt F) → (⟨S167386x1, .f32⟩ : BufTy).Contents (Elt F) → (⟨S167386x1, .f32⟩ : BufTy).Contents (Elt F)) (res_main_v320 V0) (res_main_v323 V0)
def res_main_v325 (V0 : Valuation τ sig (Elt F)) : (Proc.devRef (τ := τ) .tc main_v325 : DevRef τ sig).ty.Contents (Elt F) :=
  (Host.rsqrt : (⟨S167386x1, .f32⟩ : BufTy).Contents (Elt F) → (⟨S167386x1, .f32⟩ : BufTy).Contents (Elt F)) (res_main_v324 V0)
def res_main_v326 (V0 : Valuation τ sig (Elt F)) : (Proc.devRef (τ := τ) .tc main_v326 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v325 V0)
def res_main_v327 (V0 : Valuation τ sig (Elt F)) : (Proc.devRef (τ := τ) .tc main_v327 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v322 V0) (res_main_v326 V0)
def res_main_v328 (V0 : Valuation τ sig (Elt F)) : (Proc.devRef (τ := τ) .tc main_v328 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v230 V0)
def res_main_v329 (V0 : Valuation τ sig (Elt F)) : (Proc.devRef (τ := τ) .tc main_v329 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v328 V0)
def res_main_v330 (V0 : Valuation τ sig (Elt F)) : (Proc.devRef (τ := τ) .tc main_v330 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v327 V0) (res_main_v329 V0)
def res_main_v331 (V0 : Valuation τ sig (Elt F)) : (Proc.devRef (τ := τ) .tc main_v331 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v232 V0)
def res_main_v332 (V0 : Valuation τ sig (Elt F)) : (Proc.devRef (τ := τ) .tc main_v332 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v331 V0)
def res_main_v333 (V0 : Valuation τ sig (Elt F)) : (Proc.devRef (τ := τ) .tc main_v333 : DevRef τ sig).ty.Contents (Elt F) :=
  (addf : (⟨S167386x128, .f32⟩ : BufTy).Contents (Elt F) → (⟨S167386x128, .f32⟩ : BufTy).Contents (Elt F) → (⟨S167386x128, .f32⟩ : BufTy).Contents (Elt F)) (res_main_v330 V0) (res_main_v332 V0)
def res_main_call8_cst (V0 : Valuation τ sig (Elt F)) : (Proc.devRef (τ := τ) .tc main_call8_cst : DevRef τ sig).ty.Contents (Elt F) :=
  ((constant S_ .f32 0x00000000#32) : (⟨S_, .f32⟩ : BufTy).Contents (Elt F))
def res_main_call8_v0 (V0 : Valuation τ sig (Elt F)) : (Proc.devRef (τ := τ) .tc main_call8_v0 : DevRef τ sig).ty.Contents (Elt F) :=
  ((broadcastInDim S167386x128 ![] bcast_S_S167386x128) : (⟨S_, .f32⟩ : BufTy).Contents (Elt F) → (⟨S167386x128, .f32⟩ : BufTy).Contents (Elt F)) (res_main_call8_cst V0)
def res_main_v334 (V0 : Valuation τ sig (Elt F)) : (Proc.devRef (τ := τ) .tc main_v334 : DevRef τ sig).ty.Contents (Elt F) :=
  (maximumf : (⟨S167386x128, .f32⟩ : BufTy).Contents (Elt F) → (⟨S167386x128, .f32⟩ : BufTy).Contents (Elt F) → (⟨S167386x128, .f32⟩ : BufTy).Contents (Elt F)) (res_main_v333 V0) (res_main_call8_v0 V0)
def res_main_c_51 (V0 : Valuation τ sig (Elt F)) : (Proc.devRef (τ := τ) .tc main_c_51 : DevRef τ sig).ty.Contents (Elt F) :=
  (constantI S_ 32 0#32)
def res_main_v335 (V0 : Valuation τ sig (Elt F)) : (Proc.devRef (τ := τ) .tc main_v335 : DevRef τ sig).ty.Contents (Elt F) :=
  (broadcastInDim S167386 ![] bcast_S_S167386 : (⟨S_, .i32⟩ : BufTy).Contents (Elt F) → (⟨S167386, .i32⟩ : BufTy).Contents (Elt F)) (res_main_c_51 V0)
def res_main_v336 (V0 : Valuation τ sig (Elt F)) : (Proc.devRef (τ := τ) .tc main_v336 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg3)) (res_main_v335 V0)
def res_main_c_52 (V0 : Valuation τ sig (Elt F)) : (Proc.devRef (τ := τ) .tc main_c_52 : DevRef τ sig).ty.Contents (Elt F) :=
  (constantI S_ 32 4096#32)
def res_main_v337 (V0 : Valuation τ sig (Elt F)) : (Proc.devRef (τ := τ) .tc main_v337 : DevRef τ sig).ty.Contents (Elt F) :=
  (broadcastInDim S167386 ![] bcast_S_S167386 : (⟨S_, .i32⟩ : BufTy).Contents (Elt F) → (⟨S167386, .i32⟩ : BufTy).Contents (Elt F)) (res_main_c_52 V0)
def res_main_v338 (V0 : Valuation τ sig (Elt F)) : (Proc.devRef (τ := τ) .tc main_v338 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg3)) (res_main_v337 V0)
def res_main_v339 (V0 : Valuation τ sig (Elt F)) : (Proc.devRef (τ := τ) .tc main_v339 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v336 V0) (res_main_v338 V0) (V0 (Proc.devRef .tc main_arg3))
def res_main_v340 (V0 : Valuation τ sig (Elt F)) : (Proc.devRef (τ := τ) .tc main_v340 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v339 V0)
def res_main_v341 (V0 : Valuation τ sig (Elt F)) : (Proc.devRef (τ := τ) .tc main_v341 : DevRef τ sig).ty.Contents (Elt F) :=
  ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)) (res_main_v216 V0) (res_main_v340 V0)
def res_main_v342 (V0 : Valuation τ sig (Elt F)) : (Proc.devRef (τ := τ) .tc main_v342 : DevRef τ sig).ty.Contents (Elt F) :=
  concatenate S167386x384 1 [⟨S167386x128, (res_main_v300 V0)⟩, ⟨S167386x128, (res_main_v334 V0)⟩, ⟨S167386x128, (res_main_v341 V0)⟩] concatenates_S167386x128_S167386x128_S167386x128_S167386x384_d1
def res_main_v343 (V0 : Valuation τ sig (Elt F)) : (Proc.devRef (τ := τ) .tc main_v343 : DevRef τ sig).ty.Contents (Elt F) :=
  ((transpose S384x128 [1, 0] · transposes_S128x384_S384x128_1_0) : (⟨S128x384, .f32⟩ : BufTy).Contents (Elt F) → (⟨S384x128, .f32⟩ : BufTy).Contents (Elt F)) (res_main_v234 V0)
def res_main_v344 (V0 : Valuation τ sig (Elt F)) : (Proc.devRef (τ := τ) .tc main_v344 : DevRef τ sig).ty.Contents (Elt F) :=
  ((fun l r => Host.dotGeneral dot_S167386x384_S384x128_S167386x128_1_0_0_1_n_n none l r) : (⟨S167386x384, .f32⟩ : BufTy).Contents (Elt F) → (⟨S384x128, .f32⟩ : BufTy).Contents (Elt F) → (⟨S167386x128, .f32⟩ : BufTy).Contents (Elt F)) (res_main_v342 V0) (res_main_v343 V0)
def res_main_cst_53 (V0 : Valuation τ sig (Elt F)) : (Proc.devRef (τ := τ) .tc main_cst_53 : DevRef τ sig).ty.Contents (Elt F) :=
  (constant S_ .f32 0x00000000#32)
def res_main_v345 (V0 : Valuation τ sig (Elt F)) : (Proc.devRef (τ := τ) .tc main_v345 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v344 V0) (res_main_cst_53 V0)
def res_main_v346 (V0 : Valuation τ sig (Elt F)) : (Proc.devRef (τ := τ) .tc main_v346 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v345 V0)
def res_main_cst_54 (V0 : Valuation τ sig (Elt F)) : (Proc.devRef (τ := τ) .tc main_cst_54 : DevRef τ sig).ty.Contents (Elt F) :=
  (constant S_ .f32 0x43000000#32)
def res_main_v347 (V0 : Valuation τ sig (Elt F)) : (Proc.devRef (τ := τ) .tc main_v347 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_54 V0)
def res_main_v348 (V0 : Valuation τ sig (Elt F)) : (Proc.devRef (τ := τ) .tc main_v348 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v346 V0) (res_main_v347 V0)
def res_main_v349 (V0 : Valuation τ sig (Elt F)) : (Proc.devRef (τ := τ) .tc main_v349 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v348 V0)
def res_main_v350 (V0 : Valuation τ sig (Elt F)) : (Proc.devRef (τ := τ) .tc main_v350 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v344 V0) (res_main_v349 V0)
def res_main_v351 (V0 : Valuation τ sig (Elt F)) : (Proc.devRef (τ := τ) .tc main_v351 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v350 V0) (res_main_v350 V0)
def res_main_cst_55 (V0 : Valuation τ sig (Elt F)) : (Proc.devRef (τ := τ) .tc main_cst_55 : DevRef τ sig).ty.Contents (Elt F) :=
  (constant S_ .f32 0x00000000#32)
def res_main_v352 (V0 : Valuation τ sig (Elt F)) : (Proc.devRef (τ := τ) .tc main_v352 : DevRef τ sig).ty.Contents (Elt F) :=
  ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) (res_main_v351 V0) (res_main_cst_55 V0)
def res_main_v353 (V0 : Valuation τ sig (Elt F)) : (Proc.devRef (τ := τ) .tc main_v353 : DevRef τ sig).ty.Contents (Elt F) :=
  (broadcastInDim S167386x1 ![0] bcast_S167386_S167386x1_0 : (⟨S167386, .f32⟩ : BufTy).Contents (Elt F) → (⟨S167386x1, .f32⟩ : BufTy).Contents (Elt F)) (res_main_v352 V0)
def res_main_cst_56 (V0 : Valuation τ sig (Elt F)) : (Proc.devRef (τ := τ) .tc main_cst_56 : DevRef τ sig).ty.Contents (Elt F) :=
  (constant S_ .f32 0x43000000#32)
def res_main_v354 (V0 : Valuation τ sig (Elt F)) : (Proc.devRef (τ := τ) .tc main_v354 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_56 V0)
def res_main_v355 (V0 : Valuation τ sig (Elt F)) : (Proc.devRef (τ := τ) .tc main_v355 : DevRef τ sig).ty.Contents (Elt F) :=
  (Host.divf : (⟨S167386x1, .f32⟩ : BufTy).Contents (Elt F) → (⟨S167386x1, .f32⟩ : BufTy).Contents (Elt F) → (⟨S167386x1, .f32⟩ : BufTy).Contents (Elt F)) (res_main_v353 V0) (res_main_v354 V0)
def res_main_v356 (V0 : Valuation τ sig (Elt F)) : (Proc.devRef (τ := τ) .tc main_v356 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v348 V0)
def res_main_v357 (V0 : Valuation τ sig (Elt F)) : (Proc.devRef (τ := τ) .tc main_v357 : DevRef τ sig).ty.Contents (Elt F) :=
  (subf : (⟨S167386x128, .f32⟩ : BufTy).Contents (Elt F) → (⟨S167386x128, .f32⟩ : BufTy).Contents (Elt F) → (⟨S167386x128, .f32⟩ : BufTy).Contents (Elt F)) (res_main_v344 V0) (res_main_v356 V0)
def res_main_cst_57 (V0 : Valuation τ sig (Elt F)) : (Proc.devRef (τ := τ) .tc main_cst_57 : DevRef τ sig).ty.Contents (Elt F) :=
  (constant S_ .f32 0x3727C5AC#32)
def res_main_v358 (V0 : Valuation τ sig (Elt F)) : (Proc.devRef (τ := τ) .tc main_v358 : DevRef τ sig).ty.Contents (Elt F) :=
  (broadcastInDim S167386x1 ![] bcast_S_S167386x1 : (⟨S_, .f32⟩ : BufTy).Contents (Elt F) → (⟨S167386x1, .f32⟩ : BufTy).Contents (Elt F)) (res_main_cst_57 V0)
def res_main_v359 (V0 : Valuation τ sig (Elt F)) : (Proc.devRef (τ := τ) .tc main_v359 : DevRef τ sig).ty.Contents (Elt F) :=
  (addf : (⟨S167386x1, .f32⟩ : BufTy).Contents (Elt F) → (⟨S167386x1, .f32⟩ : BufTy).Contents (Elt F) → (⟨S167386x1, .f32⟩ : BufTy).Contents (Elt F)) (res_main_v355 V0) (res_main_v358 V0)

def res_main_v360 (V0 : Valuation τ sig (Elt F)) : (Proc.devRef (τ := τ) .tc main_v360 : DevRef τ sig).ty.Contents (Elt F) :=
  (Host.rsqrt : (⟨S167386x1, .f32⟩ : BufTy).Contents (Elt F) → (⟨S167386x1, .f32⟩ : BufTy).Contents (Elt F)) (res_main_v359 V0)
def res_main_v361 (V0 : Valuation τ sig (Elt F)) : (Proc.devRef (τ := τ) .tc main_v361 : DevRef τ sig).ty.Contents (Elt F) :=
  (broadcastInDim S167386x128 ![0, 1] bcast_S167386x1_S167386x128_0_1 : (⟨S167386x1, .f32⟩ : BufTy).Contents (Elt F) → (⟨S167386x128, .f32⟩ : BufTy).Contents (Elt F)) (res_main_v360 V0)
def res_main_v362 (V0 : Valuation τ sig (Elt F)) : (Proc.devRef (τ := τ) .tc main_v362 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v357 V0) (res_main_v361 V0)
def res_main_v363 (V0 : Valuation τ sig (Elt F)) : (Proc.devRef (τ := τ) .tc main_v363 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v236 V0)
def res_main_v364 (V0 : Valuation τ sig (Elt F)) : (Proc.devRef (τ := τ) .tc main_v364 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v363 V0)
def res_main_v365 (V0 : Valuation τ sig (Elt F)) : (Proc.devRef (τ := τ) .tc main_v365 : DevRef τ sig).ty.Contents (Elt F) :=
  (mulf : (⟨S167386x128, .f32⟩ : BufTy).Contents (Elt F) → (⟨S167386x128, .f32⟩ : BufTy).Contents (Elt F) → (⟨S167386x128, .f32⟩ : BufTy).Contents (Elt F)) (res_main_v362 V0) (res_main_v364 V0)
def res_main_v366 (V0 : Valuation τ sig (Elt F)) : (Proc.devRef (τ := τ) .tc main_v366 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v238 V0)
def res_main_v367 (V0 : Valuation τ sig (Elt F)) : (Proc.devRef (τ := τ) .tc main_v367 : DevRef τ sig).ty.Contents (Elt F) :=
  (broadcastInDim S167386x128 ![0, 1] bcast_S1x128_S167386x128_0_1 : (⟨S1x128, .f32⟩ : BufTy).Contents (Elt F) → (⟨S167386x128, .f32⟩ : BufTy).Contents (Elt F)) (res_main_v366 V0)
def res_main_v368 (V0 : Valuation τ sig (Elt F)) : (Proc.devRef (τ := τ) .tc main_v368 : DevRef τ sig).ty.Contents (Elt F) :=
  (addf : (⟨S167386x128, .f32⟩ : BufTy).Contents (Elt F) → (⟨S167386x128, .f32⟩ : BufTy).Contents (Elt F) → (⟨S167386x128, .f32⟩ : BufTy).Contents (Elt F)) (res_main_v365 V0) (res_main_v367 V0)
def res_main_call9_cst (V0 : Valuation τ sig (Elt F)) : (Proc.devRef (τ := τ) .tc main_call9_cst : DevRef τ sig).ty.Contents (Elt F) :=
  ((constant S_ .f32 0x00000000#32) : (⟨S_, .f32⟩ : BufTy).Contents (Elt F))
def res_main_call9_v0 (V0 : Valuation τ sig (Elt F)) : (Proc.devRef (τ := τ) .tc main_call9_v0 : DevRef τ sig).ty.Contents (Elt F) :=
  ((broadcastInDim S167386x128 ![] bcast_S_S167386x128) : (⟨S_, .f32⟩ : BufTy).Contents (Elt F) → (⟨S167386x128, .f32⟩ : BufTy).Contents (Elt F)) (res_main_call9_cst V0)
def res_main_v369 (V0 : Valuation τ sig (Elt F)) : (Proc.devRef (τ := τ) .tc main_v369 : DevRef τ sig).ty.Contents (Elt F) :=
  (maximumf : (⟨S167386x128, .f32⟩ : BufTy).Contents (Elt F) → (⟨S167386x128, .f32⟩ : BufTy).Contents (Elt F) → (⟨S167386x128, .f32⟩ : BufTy).Contents (Elt F)) (res_main_v368 V0) (res_main_call9_v0 V0)
def res_main_v370 (V0 : Valuation τ sig (Elt F)) : (Proc.devRef (τ := τ) .tc main_v370 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v240 V0)
def res_main_v371 (V0 : Valuation τ sig (Elt F)) : (Proc.devRef (τ := τ) .tc main_v371 : DevRef τ sig).ty.Contents (Elt F) :=
  ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)) (res_main_v369 V0) (res_main_v370 V0)
def res_main_v372 (V0 : Valuation τ sig (Elt F)) : (Proc.devRef (τ := τ) .tc main_v372 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v242 V0)
def res_main_v373 (V0 : Valuation τ sig (Elt F)) : (Proc.devRef (τ := τ) .tc main_v373 : DevRef τ sig).ty.Contents (Elt F) :=
  ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) (res_main_v216 V0) (res_main_v372 V0)
def res_main_c_58 (V0 : Valuation τ sig (Elt F)) : (Proc.devRef (τ := τ) .tc main_c_58 : DevRef τ sig).ty.Contents (Elt F) :=
  (constantI S_ 32 0#32)
def res_main_v374 (V0 : Valuation τ sig (Elt F)) : (Proc.devRef (τ := τ) .tc main_v374 : DevRef τ sig).ty.Contents (Elt F) :=
  (broadcastInDim S167386 ![] bcast_S_S167386 : (⟨S_, .i32⟩ : BufTy).Contents (Elt F) → (⟨S167386, .i32⟩ : BufTy).Contents (Elt F)) (res_main_c_58 V0)
def res_main_v375 (V0 : Valuation τ sig (Elt F)) : (Proc.devRef (τ := τ) .tc main_v375 : DevRef τ sig).ty.Contents (Elt F) :=
  (cmpi .slt : (⟨S167386, .i32⟩ : BufTy).Contents (Elt F) → (⟨S167386, .i32⟩ : BufTy).Contents (Elt F) → (⟨S167386, .i1⟩ : BufTy).Contents (Elt F)) (V0 (Proc.devRef .tc main_arg2)) (res_main_v374 V0)
def res_main_c_59 (V0 : Valuation τ sig (Elt F)) : (Proc.devRef (τ := τ) .tc main_c_59 : DevRef τ sig).ty.Contents (Elt F) :=
  (constantI S_ 32 4096#32)
def res_main_v376 (V0 : Valuation τ sig (Elt F)) : (Proc.devRef (τ := τ) .tc main_v376 : DevRef τ sig).ty.Contents (Elt F) :=
  (broadcastInDim S167386 ![] bcast_S_S167386 : (⟨S_, .i32⟩ : BufTy).Contents (Elt F) → (⟨S167386, .i32⟩ : BufTy).Contents (Elt F)) (res_main_c_59 V0)
def res_main_v377 (V0 : Valuation τ sig (Elt F)) : (Proc.devRef (τ := τ) .tc main_v377 : DevRef τ sig).ty.Contents (Elt F) :=
  (addi : (⟨S167386, .i32⟩ : BufTy).Contents (Elt F) → (⟨S167386, .i32⟩ : BufTy).Contents (Elt F) → (⟨S167386, .i32⟩ : BufTy).Contents (Elt F)) (V0 (Proc.devRef .tc main_arg2)) (res_main_v376 V0)
def res_main_v378 (V0 : Valuation τ sig (Elt F)) : (Proc.devRef (τ := τ) .tc main_v378 : DevRef τ sig).ty.Contents (Elt F) :=
  (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) (res_main_v375 V0) (res_main_v377 V0) (V0 (Proc.devRef .tc main_arg2))
def res_main_v379 (V0 : Valuation τ sig (Elt F)) : (Proc.devRef (τ := τ) .tc main_v379 : DevRef τ sig).ty.Contents (Elt F) :=
  (broadcastInDim S167386x1 ![0] bcast_S167386_S167386x1_0 : (⟨S167386, .i32⟩ : BufTy).Contents (Elt F) → (⟨S167386x1, .i32⟩ : BufTy).Contents (Elt F)) (res_main_v378 V0)
def res_main_v380 (V0 : Valuation τ sig (Elt F)) : (Proc.devRef (τ := τ) .tc main_v380 : DevRef τ sig).ty.Contents (Elt F) :=
  ((fun x i u => Host.scatterAdd scatter_S4096x128_S167386x1_S167386x128_1_0_0_1 x i u) : (⟨S4096x128, .f32⟩ : BufTy).Contents (Elt F) → (⟨S167386x1, .i32⟩ : BufTy).Contents (Elt F) → (⟨S167386x128, .f32⟩ : BufTy).Contents (Elt F) → (⟨S4096x128, .f32⟩ : BufTy).Contents (Elt F)) (res_main_v373 V0) (res_main_v379 V0) (res_main_v371 V0)
def res_main_cst_60 (V0 : Valuation τ sig (Elt F)) : (Proc.devRef (τ := τ) .tc main_cst_60 : DevRef τ sig).ty.Contents (Elt F) :=
  (constant S_ .f32 0x00000000#32)
def res_main_v381 (V0 : Valuation τ sig (Elt F)) : (Proc.devRef (τ := τ) .tc main_v381 : DevRef τ sig).ty.Contents (Elt F) :=
  ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)) (res_main_v380 V0) (res_main_cst_60 V0)
def res_main_v382 (V0 : Valuation τ sig (Elt F)) : (Proc.devRef (τ := τ) .tc main_v382 : DevRef τ sig).ty.Contents (Elt F) :=
  (broadcastInDim S4096x1 ![0] bcast_S4096_S4096x1_0 : (⟨S4096, .f32⟩ : BufTy).Contents (Elt F) → (⟨S4096x1, .f32⟩ : BufTy).Contents (Elt F)) (res_main_v381 V0)
def res_main_cst_61 (V0 : Valuation τ sig (Elt F)) : (Proc.devRef (τ := τ) .tc main_cst_61 : DevRef τ sig).ty.Contents (Elt F) :=
  (constant S_ .f32 0x43000000#32)
def res_main_v383 (V0 : Valuation τ sig (Elt F)) : (Proc.devRef (τ := τ) .tc main_v383 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_61 V0)
def res_main_v384 (V0 : Valuation τ sig (Elt F)) : (Proc.devRef (τ := τ) .tc main_v384 : DevRef τ sig).ty.Contents (Elt F) :=
  (Host.divf : (⟨S4096x1, .f32⟩ : BufTy).Contents (Elt F) → (⟨S4096x1, .f32⟩ : BufTy).Contents (Elt F) → (⟨S4096x1, .f32⟩ : BufTy).Contents (Elt F)) (res_main_v382 V0) (res_main_v383 V0)
def res_main_v385 (V0 : Valuation τ sig (Elt F)) : (Proc.devRef (τ := τ) .tc main_v385 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v384 V0)
def res_main_v386 (V0 : Valuation τ sig (Elt F)) : (Proc.devRef (τ := τ) .tc main_v386 : DevRef τ sig).ty.Contents (Elt F) :=
  (subf : (⟨S4096x128, .f32⟩ : BufTy).Contents (Elt F) → (⟨S4096x128, .f32⟩ : BufTy).Contents (Elt F) → (⟨S4096x128, .f32⟩ : BufTy).Contents (Elt F)) (res_main_v380 V0) (res_main_v385 V0)
def res_main_v387 (V0 : Valuation τ sig (Elt F)) : (Proc.devRef (τ := τ) .tc main_v387 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v386 V0) (res_main_v386 V0)
def res_main_cst_62 (V0 : Valuation τ sig (Elt F)) : (Proc.devRef (τ := τ) .tc main_cst_62 : DevRef τ sig).ty.Contents (Elt F) :=
  (constant S_ .f32 0x00000000#32)
def res_main_v388 (V0 : Valuation τ sig (Elt F)) : (Proc.devRef (τ := τ) .tc main_v388 : DevRef τ sig).ty.Contents (Elt F) :=
  ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)) (res_main_v387 V0) (res_main_cst_62 V0)
def res_main_v389 (V0 : Valuation τ sig (Elt F)) : (Proc.devRef (τ := τ) .tc main_v389 : DevRef τ sig).ty.Contents (Elt F) :=
  (broadcastInDim S4096x1 ![0] bcast_S4096_S4096x1_0 : (⟨S4096, .f32⟩ : BufTy).Contents (Elt F) → (⟨S4096x1, .f32⟩ : BufTy).Contents (Elt F)) (res_main_v388 V0)
def res_main_cst_63 (V0 : Valuation τ sig (Elt F)) : (Proc.devRef (τ := τ) .tc main_cst_63 : DevRef τ sig).ty.Contents (Elt F) :=
  (constant S_ .f32 0x43000000#32)
def res_main_v390 (V0 : Valuation τ sig (Elt F)) : (Proc.devRef (τ := τ) .tc main_v390 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_63 V0)
def res_main_v391 (V0 : Valuation τ sig (Elt F)) : (Proc.devRef (τ := τ) .tc main_v391 : DevRef τ sig).ty.Contents (Elt F) :=
  (Host.divf : (⟨S4096x1, .f32⟩ : BufTy).Contents (Elt F) → (⟨S4096x1, .f32⟩ : BufTy).Contents (Elt F) → (⟨S4096x1, .f32⟩ : BufTy).Contents (Elt F)) (res_main_v389 V0) (res_main_v390 V0)
def res_main_v392 (V0 : Valuation τ sig (Elt F)) : (Proc.devRef (τ := τ) .tc main_v392 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v384 V0)
def res_main_v393 (V0 : Valuation τ sig (Elt F)) : (Proc.devRef (τ := τ) .tc main_v393 : DevRef τ sig).ty.Contents (Elt F) :=
  (subf : (⟨S4096x128, .f32⟩ : BufTy).Contents (Elt F) → (⟨S4096x128, .f32⟩ : BufTy).Contents (Elt F) → (⟨S4096x128, .f32⟩ : BufTy).Contents (Elt F)) (res_main_v380 V0) (res_main_v392 V0)
def res_main_cst_64 (V0 : Valuation τ sig (Elt F)) : (Proc.devRef (τ := τ) .tc main_cst_64 : DevRef τ sig).ty.Contents (Elt F) :=
  (constant S_ .f32 0x3727C5AC#32)
def res_main_v394 (V0 : Valuation τ sig (Elt F)) : (Proc.devRef (τ := τ) .tc main_v394 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_64 V0)
def res_main_v395 (V0 : Valuation τ sig (Elt F)) : (Proc.devRef (τ := τ) .tc main_v395 : DevRef τ sig).ty.Contents (Elt F) :=
  (addf : (⟨S4096x1, .f32⟩ : BufTy).Contents (Elt F) → (⟨S4096x1, .f32⟩ : BufTy).Contents (Elt F) → (⟨S4096x1, .f32⟩ : BufTy).Contents (Elt F)) (res_main_v391 V0) (res_main_v394 V0)
def res_main_v396 (V0 : Valuation τ sig (Elt F)) : (Proc.devRef (τ := τ) .tc main_v396 : DevRef τ sig).ty.Contents (Elt F) :=
  (Host.rsqrt : (⟨S4096x1, .f32⟩ : BufTy).Contents (Elt F) → (⟨S4096x1, .f32⟩ : BufTy).Contents (Elt F)) (res_main_v395 V0)
def res_main_v397 (V0 : Valuation τ sig (Elt F)) : (Proc.devRef (τ := τ) .tc main_v397 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v396 V0)
def res_main_v398 (V0 : Valuation τ sig (Elt F)) : (Proc.devRef (τ := τ) .tc main_v398 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v393 V0) (res_main_v397 V0)
def res_main_v399 (V0 : Valuation τ sig (Elt F)) : (Proc.devRef (τ := τ) .tc main_v399 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v244 V0)
def res_main_v400 (V0 : Valuation τ sig (Elt F)) : (Proc.devRef (τ := τ) .tc main_v400 : DevRef τ sig).ty.Contents (Elt F) :=
  (broadcastInDim S4096x128 ![0, 1] bcast_S1x128_S4096x128_0_1 : (⟨S1x128, .f32⟩ : BufTy).Contents (Elt F) → (⟨S4096x128, .f32⟩ : BufTy).Contents (Elt F)) (res_main_v399 V0)
def res_main_v401 (V0 : Valuation τ sig (Elt F)) : (Proc.devRef (τ := τ) .tc main_v401 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v398 V0) (res_main_v400 V0)
def res_main_v402 (V0 : Valuation τ sig (Elt F)) : (Proc.devRef (τ := τ) .tc main_v402 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v246 V0)
def res_main_v403 (V0 : Valuation τ sig (Elt F)) : (Proc.devRef (τ := τ) .tc main_v403 : DevRef τ sig).ty.Contents (Elt F) :=
  (broadcastInDim S4096x128 ![0, 1] bcast_S1x128_S4096x128_0_1 : (⟨S1x128, .f32⟩ : BufTy).Contents (Elt F) → (⟨S4096x128, .f32⟩ : BufTy).Contents (Elt F)) (res_main_v402 V0)
def res_main_v404 (V0 : Valuation τ sig (Elt F)) : (Proc.devRef (τ := τ) .tc main_v404 : DevRef τ sig).ty.Contents (Elt F) :=
  (addf : (⟨S4096x128, .f32⟩ : BufTy).Contents (Elt F) → (⟨S4096x128, .f32⟩ : BufTy).Contents (Elt F) → (⟨S4096x128, .f32⟩ : BufTy).Contents (Elt F)) (res_main_v401 V0) (res_main_v403 V0)
def res_main_cst_65 (V0 : Valuation τ sig (Elt F)) : (Proc.devRef (τ := τ) .tc main_cst_65 : DevRef τ sig).ty.Contents (Elt F) :=
  (constant S_ .f32 0x3C23D70A#32)
def res_main_call10_cst (V0 : Valuation τ sig (Elt F)) : (Proc.devRef (τ := τ) .tc main_call10_cst : DevRef τ sig).ty.Contents (Elt F) :=
  ((constant S_ .f32 0x00000000#32) : (⟨S_, .f32⟩ : BufTy).Contents (Elt F))
def res_main_call10_v0 (V0 : Valuation τ sig (Elt F)) : (Proc.devRef (τ := τ) .tc main_call10_v0 : DevRef τ sig).ty.Contents (Elt F) :=
  ((broadcastInDim S4096x128 ![] bcast_S_S4096x128) : (⟨S_, .f32⟩ : BufTy).Contents (Elt F) → (⟨S4096x128, .f32⟩ : BufTy).Contents (Elt F)) (res_main_call10_cst V0)
def res_main_call10_v1 (V0 : Valuation τ sig (Elt F)) : (Proc.devRef (τ := τ) .tc main_call10_v1 : DevRef τ sig).ty.Contents (Elt F) :=
  ((cmpf .oge) : (⟨S4096x128, .f32⟩ : BufTy).Contents (Elt F) → (⟨S4096x128, .f32⟩ : BufTy).Contents (Elt F) → (⟨S4096x128, .i1⟩ : BufTy).Contents (Elt F)) (res_main_v404 V0) (res_main_call10_v0 V0)
def res_main_call10_v2 (V0 : Valuation τ sig (Elt F)) : (Proc.devRef (τ := τ) .tc main_call10_v2 : DevRef τ sig).ty.Contents (Elt F) :=
  (id : (⟨S_, .f32⟩ : BufTy).Contents (Elt F) → (⟨S_, .f32⟩ : BufTy).Contents (Elt F)) (res_main_cst_65 V0)
def res_main_call10_v3 (V0 : Valuation τ sig (Elt F)) : (Proc.devRef (τ := τ) .tc main_call10_v3 : DevRef τ sig).ty.Contents (Elt F) :=
  ((broadcastInDim S4096x128 ![] bcast_S_S4096x128) : (⟨S_, .f32⟩ : BufTy).Contents (Elt F) → (⟨S4096x128, .f32⟩ : BufTy).Contents (Elt F)) (res_main_call10_v2 V0)
def res_main_call10_v4 (V0 : Valuation τ sig (Elt F)) : (Proc.devRef (τ := τ) .tc main_call10_v4 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_call10_v3 V0) (res_main_v404 V0)
def res_main_v405 (V0 : Valuation τ sig (Elt F)) : (Proc.devRef (τ := τ) .tc main_v405 : DevRef τ sig).ty.Contents (Elt F) :=
  (select : (⟨S4096x128, .i1⟩ : BufTy).Contents (Elt F) → (⟨S4096x128, .f32⟩ : BufTy).Contents (Elt F) → (⟨S4096x128, .f32⟩ : BufTy).Contents (Elt F) → (⟨S4096x128, .f32⟩ : BufTy).Contents (Elt F)) (res_main_call10_v1 V0) (res_main_v404 V0) (res_main_call10_v4 V0)
def res_main_v406 (V0 : Valuation τ sig (Elt F)) : (Proc.devRef (τ := τ) .tc main_v406 : DevRef τ sig).ty.Contents (Elt F) :=
  ((transpose S128x128 [1, 0] · transposes_S128x128_S128x128_1_0) : (⟨S128x128, .f32⟩ : BufTy).Contents (Elt F) → (⟨S128x128, .f32⟩ : BufTy).Contents (Elt F)) (res_main_v248 V0)
def res_main_v407 (V0 : Valuation τ sig (Elt F)) : (Proc.devRef (τ := τ) .tc main_v407 : DevRef τ sig).ty.Contents (Elt F) :=
  ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) (res_main_v405 V0) (res_main_v406 V0)
def res_main_cst_66 (V0 : Valuation τ sig (Elt F)) : (Proc.devRef (τ := τ) .tc main_cst_66 : DevRef τ sig).ty.Contents (Elt F) :=
  (constant S_ .f32 0x00000000#32)
def res_main_v408 (V0 : Valuation τ sig (Elt F)) : (Proc.devRef (τ := τ) .tc main_v408 : DevRef τ sig).ty.Contents (Elt F) :=
  ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)) (res_main_v407 V0) (res_main_cst_66 V0)
def res_main_v409 (V0 : Valuation τ sig (Elt F)) : (Proc.devRef (τ := τ) .tc main_v409 : DevRef τ sig).ty.Contents (Elt F) :=
  (broadcastInDim S4096x1 ![0] bcast_S4096_S4096x1_0 : (⟨S4096, .f32⟩ : BufTy).Contents (Elt F) → (⟨S4096x1, .f32⟩ : BufTy).Contents (Elt F)) (res_main_v408 V0)
def res_main_cst_67 (V0 : Valuation τ sig (Elt F)) : (Proc.devRef (τ := τ) .tc main_cst_67 : DevRef τ sig).ty.Contents (Elt F) :=
  (constant S_ .f32 0x43000000#32)

def res_main_v410 (V0 : Valuation τ sig (Elt F)) : (Proc.devRef (τ := τ) .tc main_v410 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_67 V0)
def res_main_v411 (V0 : Valuation τ sig (Elt F)) : (Proc.devRef (τ := τ) .tc main_v411 : DevRef τ sig).ty.Contents (Elt F) :=
  (Host.divf : (⟨S4096x1, .f32⟩ : BufTy).Contents (Elt F) → (⟨S4096x1, .f32⟩ : BufTy).Contents (Elt F) → (⟨S4096x1, .f32⟩ : BufTy).Contents (Elt F)) (res_main_v409 V0) (res_main_v410 V0)
def res_main_v412 (V0 : Valuation τ sig (Elt F)) : (Proc.devRef (τ := τ) .tc main_v412 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v411 V0)
def res_main_v413 (V0 : Valuation τ sig (Elt F)) : (Proc.devRef (τ := τ) .tc main_v413 : DevRef τ sig).ty.Contents (Elt F) :=
  (subf : (⟨S4096x128, .f32⟩ : BufTy).Contents (Elt F) → (⟨S4096x128, .f32⟩ : BufTy).Contents (Elt F) → (⟨S4096x128, .f32⟩ : BufTy).Contents (Elt F)) (res_main_v407 V0) (res_main_v412 V0)
def res_main_v414 (V0 : Valuation τ sig (Elt F)) : (Proc.devRef (τ := τ) .tc main_v414 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v413 V0) (res_main_v413 V0)
def res_main_cst_68 (V0 : Valuation τ sig (Elt F)) : (Proc.devRef (τ := τ) .tc main_cst_68 : DevRef τ sig).ty.Contents (Elt F) :=
  (constant S_ .f32 0x00000000#32)
def res_main_v415 (V0 : Valuation τ sig (Elt F)) : (Proc.devRef (τ := τ) .tc main_v415 : DevRef τ sig).ty.Contents (Elt F) :=
  ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)) (res_main_v414 V0) (res_main_cst_68 V0)
def res_main_v416 (V0 : Valuation τ sig (Elt F)) : (Proc.devRef (τ := τ) .tc main_v416 : DevRef τ sig).ty.Contents (Elt F) :=
  (broadcastInDim S4096x1 ![0] bcast_S4096_S4096x1_0 : (⟨S4096, .f32⟩ : BufTy).Contents (Elt F) → (⟨S4096x1, .f32⟩ : BufTy).Contents (Elt F)) (res_main_v415 V0)
def res_main_cst_69 (V0 : Valuation τ sig (Elt F)) : (Proc.devRef (τ := τ) .tc main_cst_69 : DevRef τ sig).ty.Contents (Elt F) :=
  (constant S_ .f32 0x43000000#32)
def res_main_v417 (V0 : Valuation τ sig (Elt F)) : (Proc.devRef (τ := τ) .tc main_v417 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_69 V0)
def res_main_v418 (V0 : Valuation τ sig (Elt F)) : (Proc.devRef (τ := τ) .tc main_v418 : DevRef τ sig).ty.Contents (Elt F) :=
  (Host.divf : (⟨S4096x1, .f32⟩ : BufTy).Contents (Elt F) → (⟨S4096x1, .f32⟩ : BufTy).Contents (Elt F) → (⟨S4096x1, .f32⟩ : BufTy).Contents (Elt F)) (res_main_v416 V0) (res_main_v417 V0)
def res_main_v419 (V0 : Valuation τ sig (Elt F)) : (Proc.devRef (τ := τ) .tc main_v419 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v411 V0)
def res_main_v420 (V0 : Valuation τ sig (Elt F)) : (Proc.devRef (τ := τ) .tc main_v420 : DevRef τ sig).ty.Contents (Elt F) :=
  (subf : (⟨S4096x128, .f32⟩ : BufTy).Contents (Elt F) → (⟨S4096x128, .f32⟩ : BufTy).Contents (Elt F) → (⟨S4096x128, .f32⟩ : BufTy).Contents (Elt F)) (res_main_v407 V0) (res_main_v419 V0)
def res_main_cst_70 (V0 : Valuation τ sig (Elt F)) : (Proc.devRef (τ := τ) .tc main_cst_70 : DevRef τ sig).ty.Contents (Elt F) :=
  (constant S_ .f32 0x3727C5AC#32)
def res_main_v421 (V0 : Valuation τ sig (Elt F)) : (Proc.devRef (τ := τ) .tc main_v421 : DevRef τ sig).ty.Contents (Elt F) :=
  (broadcastInDim S4096x1 ![] bcast_S_S4096x1 : (⟨S_, .f32⟩ : BufTy).Contents (Elt F) → (⟨S4096x1, .f32⟩ : BufTy).Contents (Elt F)) (res_main_cst_70 V0)
def res_main_v422 (V0 : Valuation τ sig (Elt F)) : (Proc.devRef (τ := τ) .tc main_v422 : DevRef τ sig).ty.Contents (Elt F) :=
  (addf : (⟨S4096x1, .f32⟩ : BufTy).Contents (Elt F) → (⟨S4096x1, .f32⟩ : BufTy).Contents (Elt F) → (⟨S4096x1, .f32⟩ : BufTy).Contents (Elt F)) (res_main_v418 V0) (res_main_v421 V0)
def res_main_v423 (V0 : Valuation τ sig (Elt F)) : (Proc.devRef (τ := τ) .tc main_v423 : DevRef τ sig).ty.Contents (Elt F) :=
  (Host.rsqrt : (⟨S4096x1, .f32⟩ : BufTy).Contents (Elt F) → (⟨S4096x1, .f32⟩ : BufTy).Contents (Elt F)) (res_main_v422 V0)
def res_main_v424 (V0 : Valuation τ sig (Elt F)) : (Proc.devRef (τ := τ) .tc main_v424 : DevRef τ sig).ty.Contents (Elt F) :=
  (broadcastInDim S4096x128 ![0, 1] bcast_S4096x1_S4096x128_0_1 : (⟨S4096x1, .f32⟩ : BufTy).Contents (Elt F) → (⟨S4096x128, .f32⟩ : BufTy).Contents (Elt F)) (res_main_v423 V0)
def res_main_v425 (V0 : Valuation τ sig (Elt F)) : (Proc.devRef (τ := τ) .tc main_v425 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v420 V0) (res_main_v424 V0)
def res_main_v426 (V0 : Valuation τ sig (Elt F)) : (Proc.devRef (τ := τ) .tc main_v426 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v250 V0)
def res_main_v427 (V0 : Valuation τ sig (Elt F)) : (Proc.devRef (τ := τ) .tc main_v427 : DevRef τ sig).ty.Contents (Elt F) :=
  (broadcastInDim S4096x128 ![0, 1] bcast_S1x128_S4096x128_0_1 : (⟨S1x128, .f32⟩ : BufTy).Contents (Elt F) → (⟨S4096x128, .f32⟩ : BufTy).Contents (Elt F)) (res_main_v426 V0)
def res_main_v428 (V0 : Valuation τ sig (Elt F)) : (Proc.devRef (τ := τ) .tc main_v428 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_v425 V0) (res_main_v427 V0)
def res_main_v429 (V0 : Valuation τ sig (Elt F)) : (Proc.devRef (τ := τ) .tc main_v429 : DevRef τ sig).ty.Contents (Elt F) :=
  (broadcastInDim S1x128 ![1] bcast_S128_S1x128_1 : (⟨S128, .f32⟩ : BufTy).Contents (Elt F) → (⟨S1x128, .f32⟩ : BufTy).Contents (Elt F)) (res_main_v252 V0)
def res_main_v430 (V0 : Valuation τ sig (Elt F)) : (Proc.devRef (τ := τ) .tc main_v430 : DevRef τ sig).ty.Contents (Elt F) :=
  (broadcastInDim S4096x128 ![0, 1] bcast_S1x128_S4096x128_0_1 : (⟨S1x128, .f32⟩ : BufTy).Contents (Elt F) → (⟨S4096x128, .f32⟩ : BufTy).Contents (Elt F)) (res_main_v429 V0)
def res_main_v431 (V0 : Valuation τ sig (Elt F)) : (Proc.devRef (τ := τ) .tc main_v431 : DevRef τ sig).ty.Contents (Elt F) :=
  (addf : (⟨S4096x128, .f32⟩ : BufTy).Contents (Elt F) → (⟨S4096x128, .f32⟩ : BufTy).Contents (Elt F) → (⟨S4096x128, .f32⟩ : BufTy).Contents (Elt F)) (res_main_v428 V0) (res_main_v430 V0)
def res_main_v432 (V0 : Valuation τ sig (Elt F)) : (Proc.devRef (τ := τ) .tc main_v432 : DevRef τ sig).ty.Contents (Elt F) :=
  (addf : (⟨S4096x128, .f32⟩ : BufTy).Contents (Elt F) → (⟨S4096x128, .f32⟩ : BufTy).Contents (Elt F) → (⟨S4096x128, .f32⟩ : BufTy).Contents (Elt F)) (res_main_v431 V0) (res_main_v216 V0)
def res_main_cst_71 (V0 : Valuation τ sig (Elt F)) : (Proc.devRef (τ := τ) .tc main_cst_71 : DevRef τ sig).ty.Contents (Elt F) :=
  (constant S_ .f32 0x3C23D70A#32)
def res_main_call11_cst (V0 : Valuation τ sig (Elt F)) : (Proc.devRef (τ := τ) .tc main_call11_cst : DevRef τ sig).ty.Contents (Elt F) :=
  ((constant S_ .f32 0x00000000#32) : (⟨S_, .f32⟩ : BufTy).Contents (Elt F))
def res_main_call11_v0 (V0 : Valuation τ sig (Elt F)) : (Proc.devRef (τ := τ) .tc main_call11_v0 : DevRef τ sig).ty.Contents (Elt F) :=
  ((broadcastInDim S4096x128 ![] bcast_S_S4096x128) : (⟨S_, .f32⟩ : BufTy).Contents (Elt F) → (⟨S4096x128, .f32⟩ : BufTy).Contents (Elt F)) (res_main_call11_cst V0)
def res_main_call11_v1 (V0 : Valuation τ sig (Elt F)) : (Proc.devRef (τ := τ) .tc main_call11_v1 : DevRef τ sig).ty.Contents (Elt F) :=
  ((cmpf .oge) : (⟨S4096x128, .f32⟩ : BufTy).Contents (Elt F) → (⟨S4096x128, .f32⟩ : BufTy).Contents (Elt F) → (⟨S4096x128, .i1⟩ : BufTy).Contents (Elt F)) (res_main_v432 V0) (res_main_call11_v0 V0)
def res_main_call11_v2 (V0 : Valuation τ sig (Elt F)) : (Proc.devRef (τ := τ) .tc main_call11_v2 : DevRef τ sig).ty.Contents (Elt F) :=
  (id : (⟨S_, .f32⟩ : BufTy).Contents (Elt F) → (⟨S_, .f32⟩ : BufTy).Contents (Elt F)) (res_main_cst_71 V0)
def res_main_call11_v3 (V0 : Valuation τ sig (Elt F)) : (Proc.devRef (τ := τ) .tc main_call11_v3 : DevRef τ sig).ty.Contents (Elt F) :=
  ((broadcastInDim S4096x128 ![] bcast_S_S4096x128) : (⟨S_, .f32⟩ : BufTy).Contents (Elt F) → (⟨S4096x128, .f32⟩ : BufTy).Contents (Elt F)) (res_main_call11_v2 V0)
def res_main_call11_v4 (V0 : Valuation τ sig (Elt F)) : (Proc.devRef (τ := τ) .tc main_call11_v4 : DevRef τ sig).ty.Contents (Elt F) :=
  (mulf : (⟨S4096x128, .f32⟩ : BufTy).Contents (Elt F) → (⟨S4096x128, .f32⟩ : BufTy).Contents (Elt F) → (⟨S4096x128, .f32⟩ : BufTy).Contents (Elt F)) (res_main_call11_v3 V0) (res_main_v432 V0)
def res_main_v433 (V0 : Valuation τ sig (Elt F)) : (Proc.devRef (τ := τ) .tc main_v433 : DevRef τ sig).ty.Contents (Elt F) :=
  (select : (⟨S4096x128, .i1⟩ : BufTy).Contents (Elt F) → (⟨S4096x128, .f32⟩ : BufTy).Contents (Elt F) → (⟨S4096x128, .f32⟩ : BufTy).Contents (Elt F) → (⟨S4096x128, .f32⟩ : BufTy).Contents (Elt F)) (res_main_call11_v1 V0) (res_main_v432 V0) (res_main_call11_v4 V0)

end Cert.RefJoin

end
-- ==== Proof.RefVals.lean ====
/-
  The fold of the reference's operations, read stretch by stretch: the nine windows are cut into shorter
  stretches (a concatenation standing alone), `u0 V = V`, `u(n+1) V = after stretch_n (un V)`, and after each
  stretch every buffer a later stretch reads holds its `res_` — proved on that stretch's operations alone, the
  earlier ones entering through the previous stretch's lemmas; a buffer the stretch does not write is carried
  through it.  At the end the result buffer holds `res_main_v433`.
-/
import proofs.«121864_j48515950576209_1_alg».proof.Proof.RefRes

noncomputable section

namespace Cert.RefJoin

open Cert.ReferenceIdeal Cert.ReferenceIdeal.Gen Idealize.ShloMosaic Idealize.ShloMosaic.TcCoe Idealize.SL.Sem Idealize.ShloMosaic.StableHlo
open Cert.RefRun

variable {F : FTy → Type} [FloatOps F]

/-- Concatenating three equal triples of arrays gives equal arrays. -/
theorem cat3_congr {a a' b b' c c' : FVec F S167386x128 .f32} (ha : a = a') (hb : b = b') (hc : c = c') :
    concatenate S167386x384 1 [⟨S167386x128, a⟩, ⟨S167386x128, b⟩, ⟨S167386x128, c⟩] concatenates_S167386x128_S167386x128_S167386x128_S167386x384_d1
      = concatenate S167386x384 1 [⟨S167386x128, a'⟩, ⟨S167386x128, b'⟩, ⟨S167386x128, c'⟩] concatenates_S167386x128_S167386x128_S167386x128_S167386x384_d1 := by
  subst ha hb hc; rfl

/-! ## The windows cut into shorter stretches -/

/-- Operations 0 … 19 of window 0. -/
abbrev ops0_0 : List (HloOp τ sig (Elt F)) :=
  [ StableHlo.unary main_arg4 main_v0 ((extractStridedSlice S1x128x2 ![0, 0, 0] · slices_S2x128x2_S1x128x2_0_0_0) : (⟨S2x128x2, .f32⟩ : BufTy).Contents (Elt F) → (⟨S1x128x2, .f32⟩ : BufTy).Contents (Elt F)),
    StableHlo.reshape main_v0 main_v1 rfl shapeCasts_S1x128x2_S128x2,
    StableHlo.unary main_arg5 main_v2 ((extractStridedSlice S1x128 ![0, 0] · slices_S2x128_S1x128_0_0) : (⟨S2x128, .f32⟩ : BufTy).Contents (Elt F) → (⟨S1x128, .f32⟩ : BufTy).Contents (Elt F)),
    StableHlo.reshape main_v2 main_v3 rfl shapeCasts_S1x128_S128,
    StableHlo.unary main_arg6 main_v4 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v4 main_v5 rfl shapeCasts_S1x128x128_S128x128,
    StableHlo.unary main_arg7 main_v6 ((extractStridedSlice S1x128 ![0, 0] · slices_S2x128_S1x128_0_0) : (⟨S2x128, .f32⟩ : BufTy).Contents (Elt F) → (⟨S1x128, .f32⟩ : BufTy).Contents (Elt F)),
    StableHlo.reshape main_v6 main_v7 rfl shapeCasts_S1x128_S128,
    StableHlo.unary main_arg8 main_v8 ((extractStridedSlice S1x128 ![0, 0] · slices_S2x128_S1x128_0_0) : (⟨S2x128, .f32⟩ : BufTy).Contents (Elt F) → (⟨S1x128, .f32⟩ : BufTy).Contents (Elt F)),
    StableHlo.reshape main_v8 main_v9 rfl shapeCasts_S1x128_S128,
    StableHlo.unary main_arg9 main_v10 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v10 main_v11 rfl shapeCasts_S1x128x128_S128x128,
    StableHlo.unary main_arg10 main_v12 ((extractStridedSlice S1x128 ![0, 0] · slices_S2x128_S1x128_0_0) : (⟨S2x128, .f32⟩ : BufTy).Contents (Elt F) → (⟨S1x128, .f32⟩ : BufTy).Contents (Elt F)),
    StableHlo.reshape main_v12 main_v13 rfl shapeCasts_S1x128_S128,
    StableHlo.unary main_arg11 main_v14 ((extractStridedSlice S1x128 ![0, 0] · slices_S2x128_S1x128_0_0) : (⟨S2x128, .f32⟩ : BufTy).Contents (Elt F) → (⟨S1x128, .f32⟩ : BufTy).Contents (Elt F)),
    StableHlo.reshape main_v14 main_v15 rfl shapeCasts_S1x128_S128,
    StableHlo.unary main_arg12 main_v16 ((extractStridedSlice S1x128x384 ![0, 0, 0] · slices_S2x128x384_S1x128x384_0_0_0) : (⟨S2x128x384, .f32⟩ : BufTy).Contents (Elt F) → (⟨S1x128x384, .f32⟩ : BufTy).Contents (Elt F)),
    StableHlo.reshape main_v16 main_v17 rfl shapeCasts_S1x128x384_S128x384,
    StableHlo.unary main_arg13 main_v18 ((extractStridedSlice S1x128 ![0, 0] · slices_S2x128_S1x128_0_0) : (⟨S2x128, .f32⟩ : BufTy).Contents (Elt F) → (⟨S1x128, .f32⟩ : BufTy).Contents (Elt F)),
    StableHlo.reshape main_v18 main_v19 rfl shapeCasts_S1x128_S128 ]
abbrev ops0_0_W : List (Ref sig .tc) := [main_v0, main_v1, main_v2, main_v3, main_v4, main_v5, main_v6, main_v7, main_v8, main_v9, main_v10, main_v11, main_v12, main_v13, main_v14, main_v15, main_v16, main_v17, main_v18, main_v19]
set_option maxRecDepth 8192 in
theorem ops0_0_writes : (ops0_0 : List (HloOp τ sig (Elt F))).Forall fun op => op.writes ⊆ (ops0_0_W.map (Proc.devRef (τ := τ) .tc)).toFinset :=
  ⟨single_sub_of_mem main_v0 (by decide), single_sub_of_mem main_v1 (by decide), single_sub_of_mem main_v2 (by decide), single_sub_of_mem main_v3 (by decide), single_sub_of_mem main_v4 (by decide), single_sub_of_mem main_v5 (by decide), single_sub_of_mem main_v6 (by decide), single_sub_of_mem main_v7 (by decide), single_sub_of_mem main_v8 (by decide), single_sub_of_mem main_v9 (by decide), single_sub_of_mem main_v10 (by decide), single_sub_of_mem main_v11 (by decide), single_sub_of_mem main_v12 (by decide), single_sub_of_mem main_v13 (by decide), single_sub_of_mem main_v14 (by decide), single_sub_of_mem main_v15 (by decide), single_sub_of_mem main_v16 (by decide), single_sub_of_mem main_v17 (by decide), single_sub_of_mem main_v18 (by decide), single_sub_of_mem main_v19 (by decide)⟩

/-- Operations 20 … 39 of window 0. -/
abbrev ops0_1 : List (HloOp τ sig (Elt F)) :=
  [ StableHlo.unary main_arg14 main_v20 ((extractStridedSlice S1x128 ![0, 0] · slices_S2x128_S1x128_0_0) : (⟨S2x128, .f32⟩ : BufTy).Contents (Elt F) → (⟨S1x128, .f32⟩ : BufTy).Contents (Elt F)),
    StableHlo.reshape main_v20 main_v21 rfl shapeCasts_S1x128_S128,
    StableHlo.unary main_arg15 main_v22 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v22 main_v23 rfl shapeCasts_S1x128x128_S128x128,
    StableHlo.unary main_arg16 main_v24 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v24 main_v25 rfl shapeCasts_S1x128x128_S128x128,
    StableHlo.unary main_arg17 main_v26 ((extractStridedSlice S1x128 ![0, 0] · slices_S2x128_S1x128_0_0) : (⟨S2x128, .f32⟩ : BufTy).Contents (Elt F) → (⟨S1x128, .f32⟩ : BufTy).Contents (Elt F)),
    StableHlo.reshape main_v26 main_v27 rfl shapeCasts_S1x128_S128,
    StableHlo.unary main_arg18 main_v28 ((extractStridedSlice S1x128 ![0, 0] · slices_S2x128_S1x128_0_0) : (⟨S2x128, .f32⟩ : BufTy).Contents (Elt F) → (⟨S1x128, .f32⟩ : BufTy).Contents (Elt F)),
    StableHlo.reshape main_v28 main_v29 rfl shapeCasts_S1x128_S128,
    StableHlo.unary main_arg19 main_v30 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v30 main_v31 rfl shapeCasts_S1x128x128_S128x128,
    StableHlo.unary main_arg20 main_v32 ((extractStridedSlice S1x128 ![0, 0] · slices_S2x128_S1x128_0_0) : (⟨S2x128, .f32⟩ : BufTy).Contents (Elt F) → (⟨S1x128, .f32⟩ : BufTy).Contents (Elt F)),
    StableHlo.reshape main_v32 main_v33 rfl shapeCasts_S1x128_S128,
    StableHlo.unary main_arg21 main_v34 ((extractStridedSlice S1x128 ![0, 0] · slices_S2x128_S1x128_0_0) : (⟨S2x128, .f32⟩ : BufTy).Contents (Elt F) → (⟨S1x128, .f32⟩ : BufTy).Contents (Elt F)),
    StableHlo.reshape main_v34 main_v35 rfl shapeCasts_S1x128_S128,
    StableHlo.nullary main_c (constantI S_ 32 0#32),
    StableHlo.unary main_c main_v36 (broadcastInDim S167386 ![] bcast_S_S167386 : (⟨S_, .i32⟩ : BufTy).Contents (Elt F) → (⟨S167386, .i32⟩ : BufTy).Contents (Elt F)),
    StableHlo.binary main_arg2 main_v36 main_v37 (cmpi .slt : (⟨S167386, .i32⟩ : BufTy).Contents (Elt F) → (⟨S167386, .i32⟩ : BufTy).Contents (Elt F) → (⟨S167386, .i1⟩ : BufTy).Contents (Elt F)),
    StableHlo.nullary main_c_0 (constantI S_ 32 4096#32) ]
abbrev ops0_1_W : List (Ref sig .tc) := [main_v20, main_v21, main_v22, main_v23, main_v24, main_v25, main_v26, main_v27, main_v28, main_v29, main_v30, main_v31, main_v32, main_v33, main_v34, main_v35, main_c, main_v36, main_v37, main_c_0]
set_option maxRecDepth 8192 in
theorem ops0_1_writes : (ops0_1 : List (HloOp τ sig (Elt F))).Forall fun op => op.writes ⊆ (ops0_1_W.map (Proc.devRef (τ := τ) .tc)).toFinset :=
  ⟨single_sub_of_mem main_v20 (by decide), single_sub_of_mem main_v21 (by decide), single_sub_of_mem main_v22 (by decide), single_sub_of_mem main_v23 (by decide), single_sub_of_mem main_v24 (by decide), single_sub_of_mem main_v25 (by decide), single_sub_of_mem main_v26 (by decide), single_sub_of_mem main_v27 (by decide), single_sub_of_mem main_v28 (by decide), single_sub_of_mem main_v29 (by decide), single_sub_of_mem main_v30 (by decide), single_sub_of_mem main_v31 (by decide), single_sub_of_mem main_v32 (by decide), single_sub_of_mem main_v33 (by decide), single_sub_of_mem main_v34 (by decide), single_sub_of_mem main_v35 (by decide), single_sub_of_mem main_c (by decide), single_sub_of_mem main_v36 (by decide), single_sub_of_mem main_v37 (by decide), single_sub_of_mem main_c_0 (by decide)⟩

/-- Operations 40 … 59 of window 0. -/
abbrev ops0_2 : List (HloOp τ sig (Elt F)) :=
  [ StableHlo.unary main_c_0 main_v38 (broadcastInDim S167386 ![] bcast_S_S167386 : (⟨S_, .i32⟩ : BufTy).Contents (Elt F) → (⟨S167386, .i32⟩ : BufTy).Contents (Elt F)),
    StableHlo.binary main_arg2 main_v38 main_v39 (addi : (⟨S167386, .i32⟩ : BufTy).Contents (Elt F) → (⟨S167386, .i32⟩ : BufTy).Contents (Elt F) → (⟨S167386, .i32⟩ : BufTy).Contents (Elt F)),
    StableHlo.ternary main_v37 main_v39 main_arg2 main_v40 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v40 main_v41 (broadcastInDim S167386x1 ![0] bcast_S167386_S167386x1_0 : (⟨S167386, .i32⟩ : BufTy).Contents (Elt F) → (⟨S167386x1, .i32⟩ : BufTy).Contents (Elt F)),
    StableHlo.binary main_arg1 main_v41 main_v42 ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)),
    StableHlo.nullary main_c_1 (constantI S_ 32 0#32),
    StableHlo.unary main_c_1 main_v43 (broadcastInDim S167386 ![] bcast_S_S167386 : (⟨S_, .i32⟩ : BufTy).Contents (Elt F) → (⟨S167386, .i32⟩ : BufTy).Contents (Elt F)),
    StableHlo.binary main_arg3 main_v43 main_v44 (cmpi .slt : (⟨S167386, .i32⟩ : BufTy).Contents (Elt F) → (⟨S167386, .i32⟩ : BufTy).Contents (Elt F) → (⟨S167386, .i1⟩ : BufTy).Contents (Elt F)),
    StableHlo.nullary main_c_2 (constantI S_ 32 4096#32),
    StableHlo.unary main_c_2 main_v45 (broadcastInDim S167386 ![] bcast_S_S167386 : (⟨S_, .i32⟩ : BufTy).Contents (Elt F) → (⟨S167386, .i32⟩ : BufTy).Contents (Elt F)),
    StableHlo.binary main_arg3 main_v45 main_v46 (addi : (⟨S167386, .i32⟩ : BufTy).Contents (Elt F) → (⟨S167386, .i32⟩ : BufTy).Contents (Elt F) → (⟨S167386, .i32⟩ : BufTy).Contents (Elt F)),
    StableHlo.ternary main_v44 main_v46 main_arg3 main_v47 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v47 main_v48 (broadcastInDim S167386x1 ![0] bcast_S167386_S167386x1_0 : (⟨S167386, .i32⟩ : BufTy).Contents (Elt F) → (⟨S167386x1, .i32⟩ : BufTy).Contents (Elt F)),
    StableHlo.binary main_arg1 main_v48 main_v49 ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)),
    StableHlo.binary main_v42 main_v49 main_v50 (subf : (⟨S167386x2, .f32⟩ : BufTy).Contents (Elt F) → (⟨S167386x2, .f32⟩ : BufTy).Contents (Elt F) → (⟨S167386x2, .f32⟩ : BufTy).Contents (Elt F)),
    StableHlo.unary main_v1 main_v51 ((transpose S2x128 [1, 0] · transposes_S128x2_S2x128_1_0) : (⟨S128x2, .f32⟩ : BufTy).Contents (Elt F) → (⟨S2x128, .f32⟩ : BufTy).Contents (Elt F)),
    StableHlo.binary main_v50 main_v51 main_v52 ((fun l r => Host.dotGeneral dot_S167386x2_S2x128_S167386x128_1_0_0_1_n_n none l r) : (⟨S167386x2, .f32⟩ : BufTy).Contents (Elt F) → (⟨S2x128, .f32⟩ : BufTy).Contents (Elt F) → (⟨S167386x128, .f32⟩ : BufTy).Contents (Elt F)),
    StableHlo.unary main_v3 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S167386x128 ![0, 1] bcast_S1x128_S167386x128_0_1 : (⟨S1x128, .f32⟩ : BufTy).Contents (Elt F) → (⟨S167386x128, .f32⟩ : BufTy).Contents (Elt F)),
    StableHlo.binary main_v52 main_v54 main_v55 (addf : (⟨S167386x128, .f32⟩ : BufTy).Contents (Elt F) → (⟨S167386x128, .f32⟩ : BufTy).Contents (Elt F) → (⟨S167386x128, .f32⟩ : BufTy).Contents (Elt F)) ]
abbrev ops0_2_W : List (Ref sig .tc) := [main_v38, main_v39, main_v40, main_v41, main_v42, main_c_1, main_v43, main_v44, main_c_2, main_v45, main_v46, main_v47, main_v48, main_v49, main_v50, main_v51, main_v52, main_v53, main_v54, main_v55]
set_option maxRecDepth 8192 in
theorem ops0_2_writes : (ops0_2 : List (HloOp τ sig (Elt F))).Forall fun op => op.writes ⊆ (ops0_2_W.map (Proc.devRef (τ := τ) .tc)).toFinset :=
  ⟨single_sub_of_mem main_v38 (by decide), single_sub_of_mem main_v39 (by decide), single_sub_of_mem main_v40 (by decide), single_sub_of_mem main_v41 (by decide), single_sub_of_mem main_v42 (by decide), single_sub_of_mem main_c_1 (by decide), single_sub_of_mem main_v43 (by decide), single_sub_of_mem main_v44 (by decide), single_sub_of_mem main_c_2 (by decide), single_sub_of_mem main_v45 (by decide), single_sub_of_mem main_v46 (by decide), single_sub_of_mem main_v47 (by decide), single_sub_of_mem main_v48 (by decide), single_sub_of_mem main_v49 (by decide), single_sub_of_mem main_v50 (by decide), single_sub_of_mem main_v51 (by decide), single_sub_of_mem main_v52 (by decide), single_sub_of_mem main_v53 (by decide), single_sub_of_mem main_v54 (by decide), single_sub_of_mem main_v55 (by decide)⟩

set_option maxRecDepth 8192 in
theorem ops0_split : (ops0 : List (HloOp τ sig (Elt F))) = ops0_0 ++ (ops0_1 ++ (ops0_2)) := rfl

/-- Operations 0 … 20 of window 1. -/
abbrev ops1_0 : List (HloOp τ sig (Elt F)) :=
  [ StableHlo.TRef.nullary main_call0.cst (constant S_ .f32 0x00000000#32),
    StableHlo.TRef.unary main_call0.cst main_call0.v0 (broadcastInDim S167386x128 ![] bcast_S_S167386x128),
    StableHlo.TRef.binary (.of main_v55 : StableHlo.TRef sig ⟨S167386x128, .f32⟩) main_call0.v0 main_call0.v1 maximumf,
    StableHlo.unary main_v5 main_v57 ((transpose S128x128 [1, 0] · transposes_S128x128_S128x128_1_0) : (⟨S128x128, .f32⟩ : BufTy).Contents (Elt F) → (⟨S128x128, .f32⟩ : BufTy).Contents (Elt F)),
    StableHlo.binary main_v56 main_v57 main_v58 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.nullary main_cst (constant S_ .f32 0x00000000#32),
    StableHlo.binary main_v58 main_cst main_v59 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v59 main_v60 (broadcastInDim S167386x1 ![0] bcast_S167386_S167386x1_0 : (⟨S167386, .f32⟩ : BufTy).Contents (Elt F) → (⟨S167386x1, .f32⟩ : BufTy).Contents (Elt F)),
    StableHlo.nullary main_cst_3 (constant S_ .f32 0x43000000#32),
    StableHlo.unary main_cst_3 main_v61 (broadcastInDim S167386x1 ![] bcast_S_S167386x1 : (⟨S_, .f32⟩ : BufTy).Contents (Elt F) → (⟨S167386x1, .f32⟩ : BufTy).Contents (Elt F)),
    StableHlo.binary main_v60 main_v61 main_v62 (Host.divf : (⟨S167386x1, .f32⟩ : BufTy).Contents (Elt F) → (⟨S167386x1, .f32⟩ : BufTy).Contents (Elt F) → (⟨S167386x1, .f32⟩ : BufTy).Contents (Elt F)),
    StableHlo.unary main_v62 main_v63 (broadcastInDim S167386x128 ![0, 1] bcast_S167386x1_S167386x128_0_1 : (⟨S167386x1, .f32⟩ : BufTy).Contents (Elt F) → (⟨S167386x128, .f32⟩ : BufTy).Contents (Elt F)),
    StableHlo.binary main_v58 main_v63 main_v64 (subf : (⟨S167386x128, .f32⟩ : BufTy).Contents (Elt F) → (⟨S167386x128, .f32⟩ : BufTy).Contents (Elt F) → (⟨S167386x128, .f32⟩ : BufTy).Contents (Elt F)),
    StableHlo.binary main_v64 main_v64 main_v65 (mulf : (⟨S167386x128, .f32⟩ : BufTy).Contents (Elt F) → (⟨S167386x128, .f32⟩ : BufTy).Contents (Elt F) → (⟨S167386x128, .f32⟩ : BufTy).Contents (Elt F)),
    StableHlo.nullary main_cst_4 (constant S_ .f32 0x00000000#32),
    StableHlo.binary main_v65 main_cst_4 main_v66 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v66 main_v67 (broadcastInDim S167386x1 ![0] bcast_S167386_S167386x1_0 : (⟨S167386, .f32⟩ : BufTy).Contents (Elt F) → (⟨S167386x1, .f32⟩ : BufTy).Contents (Elt F)),
    StableHlo.nullary main_cst_5 (constant S_ .f32 0x43000000#32),
    StableHlo.unary main_cst_5 main_v68 (broadcastInDim S167386x1 ![] bcast_S_S167386x1 : (⟨S_, .f32⟩ : BufTy).Contents (Elt F) → (⟨S167386x1, .f32⟩ : BufTy).Contents (Elt F)),
    StableHlo.binary main_v67 main_v68 main_v69 (Host.divf : (⟨S167386x1, .f32⟩ : BufTy).Contents (Elt F) → (⟨S167386x1, .f32⟩ : BufTy).Contents (Elt F) → (⟨S167386x1, .f32⟩ : BufTy).Contents (Elt F)),
    StableHlo.unary main_v62 main_v70 (broadcastInDim S167386x128 ![0, 1] bcast_S167386x1_S167386x128_0_1 : (⟨S167386x1, .f32⟩ : BufTy).Contents (Elt F) → (⟨S167386x128, .f32⟩ : BufTy).Contents (Elt F)) ]
abbrev ops1_0_W : List (Ref sig .tc) := [main_call0_cst, main_call0_v0, main_v56, main_v57, main_v58, main_cst, main_v59, main_v60, main_cst_3, main_v61, main_v62, main_v63, main_v64, main_v65, main_cst_4, main_v66, main_v67, main_cst_5, main_v68, main_v69, main_v70]
set_option maxRecDepth 8192 in
theorem ops1_0_writes : (ops1_0 : List (HloOp τ sig (Elt F))).Forall fun op => op.writes ⊆ (ops1_0_W.map (Proc.devRef (τ := τ) .tc)).toFinset :=
  ⟨single_sub_of_mem main_call0_cst (by decide), single_sub_of_mem main_call0_v0 (by decide), single_sub_of_mem main_v56 (by decide), single_sub_of_mem main_v57 (by decide), single_sub_of_mem main_v58 (by decide), single_sub_of_mem main_cst (by decide), single_sub_of_mem main_v59 (by decide), single_sub_of_mem main_v60 (by decide), single_sub_of_mem main_cst_3 (by decide), single_sub_of_mem main_v61 (by decide), single_sub_of_mem main_v62 (by decide), single_sub_of_mem main_v63 (by decide), single_sub_of_mem main_v64 (by decide), single_sub_of_mem main_v65 (by decide), single_sub_of_mem main_cst_4 (by decide), single_sub_of_mem main_v66 (by decide), single_sub_of_mem main_v67 (by decide), single_sub_of_mem main_cst_5 (by decide), single_sub_of_mem main_v68 (by decide), single_sub_of_mem main_v69 (by decide), single_sub_of_mem main_v70 (by decide)⟩

/-- Operations 21 … 42 of window 1. -/
abbrev ops1_1 : List (HloOp τ sig (Elt F)) :=
  [ StableHlo.binary main_v58 main_v70 main_v71 (subf : (⟨S167386x128, .f32⟩ : BufTy).Contents (Elt F) → (⟨S167386x128, .f32⟩ : BufTy).Contents (Elt F) → (⟨S167386x128, .f32⟩ : BufTy).Contents (Elt F)),
    StableHlo.nullary main_cst_6 (constant S_ .f32 0x3727C5AC#32),
    StableHlo.unary main_cst_6 main_v72 (broadcastInDim S167386x1 ![] bcast_S_S167386x1 : (⟨S_, .f32⟩ : BufTy).Contents (Elt F) → (⟨S167386x1, .f32⟩ : BufTy).Contents (Elt F)),
    StableHlo.binary main_v69 main_v72 main_v73 (addf : (⟨S167386x1, .f32⟩ : BufTy).Contents (Elt F) → (⟨S167386x1, .f32⟩ : BufTy).Contents (Elt F) → (⟨S167386x1, .f32⟩ : BufTy).Contents (Elt F)),
    StableHlo.unary main_v73 main_v74 (Host.rsqrt : (⟨S167386x1, .f32⟩ : BufTy).Contents (Elt F) → (⟨S167386x1, .f32⟩ : BufTy).Contents (Elt F)),
    StableHlo.unary main_v74 main_v75 (broadcastInDim S167386x128 ![0, 1] bcast_S167386x1_S167386x128_0_1 : (⟨S167386x1, .f32⟩ : BufTy).Contents (Elt F) → (⟨S167386x128, .f32⟩ : BufTy).Contents (Elt F)),
    StableHlo.binary main_v71 main_v75 main_v76 (mulf : (⟨S167386x128, .f32⟩ : BufTy).Contents (Elt F) → (⟨S167386x128, .f32⟩ : BufTy).Contents (Elt F) → (⟨S167386x128, .f32⟩ : BufTy).Contents (Elt F)),
    StableHlo.unary main_v7 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S167386x128 ![0, 1] bcast_S1x128_S167386x128_0_1 : (⟨S1x128, .f32⟩ : BufTy).Contents (Elt F) → (⟨S167386x128, .f32⟩ : BufTy).Contents (Elt F)),
    StableHlo.binary main_v76 main_v78 main_v79 (mulf : (⟨S167386x128, .f32⟩ : BufTy).Contents (Elt F) → (⟨S167386x128, .f32⟩ : BufTy).Contents (Elt F) → (⟨S167386x128, .f32⟩ : BufTy).Contents (Elt F)),
    StableHlo.unary main_v9 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S167386x128 ![0, 1] bcast_S1x128_S167386x128_0_1 : (⟨S1x128, .f32⟩ : BufTy).Contents (Elt F) → (⟨S167386x128, .f32⟩ : BufTy).Contents (Elt F)),
    StableHlo.binary main_v79 main_v81 main_v82 (addf : (⟨S167386x128, .f32⟩ : BufTy).Contents (Elt F) → (⟨S167386x128, .f32⟩ : BufTy).Contents (Elt F) → (⟨S167386x128, .f32⟩ : BufTy).Contents (Elt F)),
    StableHlo.TRef.nullary main_call1.cst (constant S_ .f32 0x00000000#32),
    StableHlo.TRef.unary main_call1.cst main_call1.v0 (broadcastInDim S167386x128 ![] bcast_S_S167386x128),
    StableHlo.TRef.binary (.of main_v82 : StableHlo.TRef sig ⟨S167386x128, .f32⟩) main_call1.v0 main_call1.v1 maximumf,
    StableHlo.nullary main_c_7 (constantI S_ 32 0#32),
    StableHlo.unary main_c_7 main_v84 (broadcastInDim S167386 ![] bcast_S_S167386 : (⟨S_, .i32⟩ : BufTy).Contents (Elt F) → (⟨S167386, .i32⟩ : BufTy).Contents (Elt F)),
    StableHlo.binary main_arg2 main_v84 main_v85 (cmpi .slt : (⟨S167386, .i32⟩ : BufTy).Contents (Elt F) → (⟨S167386, .i32⟩ : BufTy).Contents (Elt F) → (⟨S167386, .i1⟩ : BufTy).Contents (Elt F)),
    StableHlo.nullary main_c_8 (constantI S_ 32 4096#32),
    StableHlo.unary main_c_8 main_v86 (broadcastInDim S167386 ![] bcast_S_S167386 : (⟨S_, .i32⟩ : BufTy).Contents (Elt F) → (⟨S167386, .i32⟩ : BufTy).Contents (Elt F)),
    StableHlo.binary main_arg2 main_v86 main_v87 (addi : (⟨S167386, .i32⟩ : BufTy).Contents (Elt F) → (⟨S167386, .i32⟩ : BufTy).Contents (Elt F) → (⟨S167386, .i32⟩ : BufTy).Contents (Elt F)) ]
abbrev ops1_1_W : List (Ref sig .tc) := [main_v71, main_cst_6, main_v72, main_v73, main_v74, main_v75, main_v76, main_v77, main_v78, main_v79, main_v80, main_v81, main_v82, main_call1_cst, main_call1_v0, main_v83, main_c_7, main_v84, main_v85, main_c_8, main_v86, main_v87]
set_option maxRecDepth 8192 in
theorem ops1_1_writes : (ops1_1 : List (HloOp τ sig (Elt F))).Forall fun op => op.writes ⊆ (ops1_1_W.map (Proc.devRef (τ := τ) .tc)).toFinset :=
  ⟨single_sub_of_mem main_v71 (by decide), single_sub_of_mem main_cst_6 (by decide), single_sub_of_mem main_v72 (by decide), single_sub_of_mem main_v73 (by decide), single_sub_of_mem main_v74 (by decide), single_sub_of_mem main_v75 (by decide), single_sub_of_mem main_v76 (by decide), single_sub_of_mem main_v77 (by decide), single_sub_of_mem main_v78 (by decide), single_sub_of_mem main_v79 (by decide), single_sub_of_mem main_v80 (by decide), single_sub_of_mem main_v81 (by decide), single_sub_of_mem main_v82 (by decide), single_sub_of_mem main_call1_cst (by decide), single_sub_of_mem main_call1_v0 (by decide), single_sub_of_mem main_v83 (by decide), single_sub_of_mem main_c_7 (by decide), single_sub_of_mem main_v84 (by decide), single_sub_of_mem main_v85 (by decide), single_sub_of_mem main_c_8 (by decide), single_sub_of_mem main_v86 (by decide), single_sub_of_mem main_v87 (by decide)⟩

/-- Operations 43 … 63 of window 1. -/
abbrev ops1_2 : List (HloOp τ sig (Elt F)) :=
  [ StableHlo.ternary main_v85 main_v87 main_arg2 main_v88 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v88 main_v89 (broadcastInDim S167386x1 ![0] bcast_S167386_S167386x1_0 : (⟨S167386, .i32⟩ : BufTy).Contents (Elt F) → (⟨S167386x1, .i32⟩ : BufTy).Contents (Elt F)),
    StableHlo.binary main_arg0 main_v89 main_v90 ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)),
    StableHlo.unary main_v11 main_v91 ((transpose S128x128 [1, 0] · transposes_S128x128_S128x128_1_0) : (⟨S128x128, .f32⟩ : BufTy).Contents (Elt F) → (⟨S128x128, .f32⟩ : BufTy).Contents (Elt F)),
    StableHlo.binary main_v90 main_v91 main_v92 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.nullary main_cst_9 (constant S_ .f32 0x00000000#32),
    StableHlo.binary main_v92 main_cst_9 main_v93 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v93 main_v94 (broadcastInDim S167386x1 ![0] bcast_S167386_S167386x1_0 : (⟨S167386, .f32⟩ : BufTy).Contents (Elt F) → (⟨S167386x1, .f32⟩ : BufTy).Contents (Elt F)),
    StableHlo.nullary main_cst_10 (constant S_ .f32 0x43000000#32),
    StableHlo.unary main_cst_10 main_v95 (broadcastInDim S167386x1 ![] bcast_S_S167386x1 : (⟨S_, .f32⟩ : BufTy).Contents (Elt F) → (⟨S167386x1, .f32⟩ : BufTy).Contents (Elt F)),
    StableHlo.binary main_v94 main_v95 main_v96 (Host.divf : (⟨S167386x1, .f32⟩ : BufTy).Contents (Elt F) → (⟨S167386x1, .f32⟩ : BufTy).Contents (Elt F) → (⟨S167386x1, .f32⟩ : BufTy).Contents (Elt F)),
    StableHlo.unary main_v96 main_v97 (broadcastInDim S167386x128 ![0, 1] bcast_S167386x1_S167386x128_0_1 : (⟨S167386x1, .f32⟩ : BufTy).Contents (Elt F) → (⟨S167386x128, .f32⟩ : BufTy).Contents (Elt F)),
    StableHlo.binary main_v92 main_v97 main_v98 (subf : (⟨S167386x128, .f32⟩ : BufTy).Contents (Elt F) → (⟨S167386x128, .f32⟩ : BufTy).Contents (Elt F) → (⟨S167386x128, .f32⟩ : BufTy).Contents (Elt F)),
    StableHlo.binary main_v98 main_v98 main_v99 (mulf : (⟨S167386x128, .f32⟩ : BufTy).Contents (Elt F) → (⟨S167386x128, .f32⟩ : BufTy).Contents (Elt F) → (⟨S167386x128, .f32⟩ : BufTy).Contents (Elt F)),
    StableHlo.nullary main_cst_11 (constant S_ .f32 0x00000000#32),
    StableHlo.binary main_v99 main_cst_11 main_v100 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v100 main_v101 (broadcastInDim S167386x1 ![0] bcast_S167386_S167386x1_0 : (⟨S167386, .f32⟩ : BufTy).Contents (Elt F) → (⟨S167386x1, .f32⟩ : BufTy).Contents (Elt F)),
    StableHlo.nullary main_cst_12 (constant S_ .f32 0x43000000#32),
    StableHlo.unary main_cst_12 main_v102 (broadcastInDim S167386x1 ![] bcast_S_S167386x1 : (⟨S_, .f32⟩ : BufTy).Contents (Elt F) → (⟨S167386x1, .f32⟩ : BufTy).Contents (Elt F)),
    StableHlo.binary main_v101 main_v102 main_v103 (Host.divf : (⟨S167386x1, .f32⟩ : BufTy).Contents (Elt F) → (⟨S167386x1, .f32⟩ : BufTy).Contents (Elt F) → (⟨S167386x1, .f32⟩ : BufTy).Contents (Elt F)),
    StableHlo.unary main_v96 main_v104 (broadcastInDim S167386x128 ![0, 1] bcast_S167386x1_S167386x128_0_1 : (⟨S167386x1, .f32⟩ : BufTy).Contents (Elt F) → (⟨S167386x128, .f32⟩ : BufTy).Contents (Elt F)) ]
abbrev ops1_2_W : List (Ref sig .tc) := [main_v88, main_v89, main_v90, main_v91, main_v92, main_cst_9, main_v93, main_v94, main_cst_10, main_v95, main_v96, main_v97, main_v98, main_v99, main_cst_11, main_v100, main_v101, main_cst_12, main_v102, main_v103, main_v104]
set_option maxRecDepth 8192 in
theorem ops1_2_writes : (ops1_2 : List (HloOp τ sig (Elt F))).Forall fun op => op.writes ⊆ (ops1_2_W.map (Proc.devRef (τ := τ) .tc)).toFinset :=
  ⟨single_sub_of_mem main_v88 (by decide), single_sub_of_mem main_v89 (by decide), single_sub_of_mem main_v90 (by decide), single_sub_of_mem main_v91 (by decide), single_sub_of_mem main_v92 (by decide), single_sub_of_mem main_cst_9 (by decide), single_sub_of_mem main_v93 (by decide), single_sub_of_mem main_v94 (by decide), single_sub_of_mem main_cst_10 (by decide), single_sub_of_mem main_v95 (by decide), single_sub_of_mem main_v96 (by decide), single_sub_of_mem main_v97 (by decide), single_sub_of_mem main_v98 (by decide), single_sub_of_mem main_v99 (by decide), single_sub_of_mem main_cst_11 (by decide), single_sub_of_mem main_v100 (by decide), single_sub_of_mem main_v101 (by decide), single_sub_of_mem main_cst_12 (by decide), single_sub_of_mem main_v102 (by decide), single_sub_of_mem main_v103 (by decide), single_sub_of_mem main_v104 (by decide)⟩

set_option maxRecDepth 8192 in
theorem ops1_split : (ops1 : List (HloOp τ sig (Elt F))) = ops1_0 ++ (ops1_1 ++ (ops1_2)) := rfl

/-- Operations 0 … 24 of window 2. -/
abbrev ops2_0 : List (HloOp τ sig (Elt F)) :=
  [ StableHlo.binary main_v92 main_v104 main_v105 (subf : (⟨S167386x128, .f32⟩ : BufTy).Contents (Elt F) → (⟨S167386x128, .f32⟩ : BufTy).Contents (Elt F) → (⟨S167386x128, .f32⟩ : BufTy).Contents (Elt F)),
    StableHlo.nullary main_cst_13 (constant S_ .f32 0x3727C5AC#32),
    StableHlo.unary main_cst_13 main_v106 (broadcastInDim S167386x1 ![] bcast_S_S167386x1 : (⟨S_, .f32⟩ : BufTy).Contents (Elt F) → (⟨S167386x1, .f32⟩ : BufTy).Contents (Elt F)),
    StableHlo.binary main_v103 main_v106 main_v107 (addf : (⟨S167386x1, .f32⟩ : BufTy).Contents (Elt F) → (⟨S167386x1, .f32⟩ : BufTy).Contents (Elt F) → (⟨S167386x1, .f32⟩ : BufTy).Contents (Elt F)),
    StableHlo.unary main_v107 main_v108 (Host.rsqrt : (⟨S167386x1, .f32⟩ : BufTy).Contents (Elt F) → (⟨S167386x1, .f32⟩ : BufTy).Contents (Elt F)),
    StableHlo.unary main_v108 main_v109 (broadcastInDim S167386x128 ![0, 1] bcast_S167386x1_S167386x128_0_1 : (⟨S167386x1, .f32⟩ : BufTy).Contents (Elt F) → (⟨S167386x128, .f32⟩ : BufTy).Contents (Elt F)),
    StableHlo.binary main_v105 main_v109 main_v110 (mulf : (⟨S167386x128, .f32⟩ : BufTy).Contents (Elt F) → (⟨S167386x128, .f32⟩ : BufTy).Contents (Elt F) → (⟨S167386x128, .f32⟩ : BufTy).Contents (Elt F)),
    StableHlo.unary main_v13 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S167386x128 ![0, 1] bcast_S1x128_S167386x128_0_1 : (⟨S1x128, .f32⟩ : BufTy).Contents (Elt F) → (⟨S167386x128, .f32⟩ : BufTy).Contents (Elt F)),
    StableHlo.binary main_v110 main_v112 main_v113 (mulf : (⟨S167386x128, .f32⟩ : BufTy).Contents (Elt F) → (⟨S167386x128, .f32⟩ : BufTy).Contents (Elt F) → (⟨S167386x128, .f32⟩ : BufTy).Contents (Elt F)),
    StableHlo.unary main_v15 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S167386x128 ![0, 1] bcast_S1x128_S167386x128_0_1 : (⟨S1x128, .f32⟩ : BufTy).Contents (Elt F) → (⟨S167386x128, .f32⟩ : BufTy).Contents (Elt F)),
    StableHlo.binary main_v113 main_v115 main_v116 (addf : (⟨S167386x128, .f32⟩ : BufTy).Contents (Elt F) → (⟨S167386x128, .f32⟩ : BufTy).Contents (Elt F) → (⟨S167386x128, .f32⟩ : BufTy).Contents (Elt F)),
    StableHlo.TRef.nullary main_call2.cst (constant S_ .f32 0x00000000#32),
    StableHlo.TRef.unary main_call2.cst main_call2.v0 (broadcastInDim S167386x128 ![] bcast_S_S167386x128),
    StableHlo.TRef.binary (.of main_v116 : StableHlo.TRef sig ⟨S167386x128, .f32⟩) main_call2.v0 main_call2.v1 maximumf,
    StableHlo.nullary main_c_14 (constantI S_ 32 0#32),
    StableHlo.unary main_c_14 main_v118 (broadcastInDim S167386 ![] bcast_S_S167386 : (⟨S_, .i32⟩ : BufTy).Contents (Elt F) → (⟨S167386, .i32⟩ : BufTy).Contents (Elt F)),
    StableHlo.binary main_arg3 main_v118 main_v119 (cmpi .slt : (⟨S167386, .i32⟩ : BufTy).Contents (Elt F) → (⟨S167386, .i32⟩ : BufTy).Contents (Elt F) → (⟨S167386, .i1⟩ : BufTy).Contents (Elt F)),
    StableHlo.nullary main_c_15 (constantI S_ 32 4096#32),
    StableHlo.unary main_c_15 main_v120 (broadcastInDim S167386 ![] bcast_S_S167386 : (⟨S_, .i32⟩ : BufTy).Contents (Elt F) → (⟨S167386, .i32⟩ : BufTy).Contents (Elt F)),
    StableHlo.binary main_arg3 main_v120 main_v121 (addi : (⟨S167386, .i32⟩ : BufTy).Contents (Elt F) → (⟨S167386, .i32⟩ : BufTy).Contents (Elt F) → (⟨S167386, .i32⟩ : BufTy).Contents (Elt F)),
    StableHlo.ternary main_v119 main_v121 main_arg3 main_v122 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v122 main_v123 (broadcastInDim S167386x1 ![0] bcast_S167386_S167386x1_0 : (⟨S167386, .i32⟩ : BufTy).Contents (Elt F) → (⟨S167386x1, .i32⟩ : BufTy).Contents (Elt F)),
    StableHlo.binary main_arg0 main_v123 main_v124 ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)) ]
abbrev ops2_0_W : List (Ref sig .tc) := [main_v105, main_cst_13, main_v106, main_v107, main_v108, main_v109, main_v110, main_v111, main_v112, main_v113, main_v114, main_v115, main_v116, main_call2_cst, main_call2_v0, main_v117, main_c_14, main_v118, main_v119, main_c_15, main_v120, main_v121, main_v122, main_v123, main_v124]
set_option maxRecDepth 8192 in
theorem ops2_0_writes : (ops2_0 : List (HloOp τ sig (Elt F))).Forall fun op => op.writes ⊆ (ops2_0_W.map (Proc.devRef (τ := τ) .tc)).toFinset :=
  ⟨single_sub_of_mem main_v105 (by decide), single_sub_of_mem main_cst_13 (by decide), single_sub_of_mem main_v106 (by decide), single_sub_of_mem main_v107 (by decide), single_sub_of_mem main_v108 (by decide), single_sub_of_mem main_v109 (by decide), single_sub_of_mem main_v110 (by decide), single_sub_of_mem main_v111 (by decide), single_sub_of_mem main_v112 (by decide), single_sub_of_mem main_v113 (by decide), single_sub_of_mem main_v114 (by decide), single_sub_of_mem main_v115 (by decide), single_sub_of_mem main_v116 (by decide), single_sub_of_mem main_call2_cst (by decide), single_sub_of_mem main_call2_v0 (by decide), single_sub_of_mem main_v117 (by decide), single_sub_of_mem main_c_14 (by decide), single_sub_of_mem main_v118 (by decide), single_sub_of_mem main_v119 (by decide), single_sub_of_mem main_c_15 (by decide), single_sub_of_mem main_v120 (by decide), single_sub_of_mem main_v121 (by decide), single_sub_of_mem main_v122 (by decide), single_sub_of_mem main_v123 (by decide), single_sub_of_mem main_v124 (by decide)⟩

/-- Operations 25 … 25 of window 2. -/
abbrev ops2_1 : List (HloOp τ sig (Elt F)) :=
  [ StableHlo.nary ![main_v83, main_v117, main_v124] main_v125 (fun u => concatenate S167386x384 1 [⟨S167386x128, u 0⟩, ⟨S167386x128, u 1⟩, ⟨S167386x128, u 2⟩] concatenates_S167386x128_S167386x128_S167386x128_S167386x384_d1) ]
abbrev ops2_1_W : List (Ref sig .tc) := [main_v125]
set_option maxRecDepth 8192 in
theorem ops2_1_writes : (ops2_1 : List (HloOp τ sig (Elt F))).Forall fun op => op.writes ⊆ (ops2_1_W.map (Proc.devRef (τ := τ) .tc)).toFinset :=
  single_sub_of_mem main_v125 (by decide)

/-- Operations 26 … 44 of window 2. -/
abbrev ops2_2 : List (HloOp τ sig (Elt F)) :=
  [ StableHlo.unary main_v17 main_v126 ((transpose S384x128 [1, 0] · transposes_S128x384_S384x128_1_0) : (⟨S128x384, .f32⟩ : BufTy).Contents (Elt F) → (⟨S384x128, .f32⟩ : BufTy).Contents (Elt F)),
    StableHlo.binary main_v125 main_v126 main_v127 ((fun l r => Host.dotGeneral dot_S167386x384_S384x128_S167386x128_1_0_0_1_n_n none l r) : (⟨S167386x384, .f32⟩ : BufTy).Contents (Elt F) → (⟨S384x128, .f32⟩ : BufTy).Contents (Elt F) → (⟨S167386x128, .f32⟩ : BufTy).Contents (Elt F)),
    StableHlo.nullary main_cst_16 (constant S_ .f32 0x00000000#32),
    StableHlo.binary main_v127 main_cst_16 main_v128 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v128 main_v129 (broadcastInDim S167386x1 ![0] bcast_S167386_S167386x1_0 : (⟨S167386, .f32⟩ : BufTy).Contents (Elt F) → (⟨S167386x1, .f32⟩ : BufTy).Contents (Elt F)),
    StableHlo.nullary main_cst_17 (constant S_ .f32 0x43000000#32),
    StableHlo.unary main_cst_17 main_v130 (broadcastInDim S167386x1 ![] bcast_S_S167386x1 : (⟨S_, .f32⟩ : BufTy).Contents (Elt F) → (⟨S167386x1, .f32⟩ : BufTy).Contents (Elt F)),
    StableHlo.binary main_v129 main_v130 main_v131 (Host.divf : (⟨S167386x1, .f32⟩ : BufTy).Contents (Elt F) → (⟨S167386x1, .f32⟩ : BufTy).Contents (Elt F) → (⟨S167386x1, .f32⟩ : BufTy).Contents (Elt F)),
    StableHlo.unary main_v131 main_v132 (broadcastInDim S167386x128 ![0, 1] bcast_S167386x1_S167386x128_0_1 : (⟨S167386x1, .f32⟩ : BufTy).Contents (Elt F) → (⟨S167386x128, .f32⟩ : BufTy).Contents (Elt F)),
    StableHlo.binary main_v127 main_v132 main_v133 (subf : (⟨S167386x128, .f32⟩ : BufTy).Contents (Elt F) → (⟨S167386x128, .f32⟩ : BufTy).Contents (Elt F) → (⟨S167386x128, .f32⟩ : BufTy).Contents (Elt F)),
    StableHlo.binary main_v133 main_v133 main_v134 (mulf : (⟨S167386x128, .f32⟩ : BufTy).Contents (Elt F) → (⟨S167386x128, .f32⟩ : BufTy).Contents (Elt F) → (⟨S167386x128, .f32⟩ : BufTy).Contents (Elt F)),
    StableHlo.nullary main_cst_18 (constant S_ .f32 0x00000000#32),
    StableHlo.binary main_v134 main_cst_18 main_v135 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v135 main_v136 (broadcastInDim S167386x1 ![0] bcast_S167386_S167386x1_0 : (⟨S167386, .f32⟩ : BufTy).Contents (Elt F) → (⟨S167386x1, .f32⟩ : BufTy).Contents (Elt F)),
    StableHlo.nullary main_cst_19 (constant S_ .f32 0x43000000#32),
    StableHlo.unary main_cst_19 main_v137 (broadcastInDim S167386x1 ![] bcast_S_S167386x1 : (⟨S_, .f32⟩ : BufTy).Contents (Elt F) → (⟨S167386x1, .f32⟩ : BufTy).Contents (Elt F)),
    StableHlo.binary main_v136 main_v137 main_v138 (Host.divf : (⟨S167386x1, .f32⟩ : BufTy).Contents (Elt F) → (⟨S167386x1, .f32⟩ : BufTy).Contents (Elt F) → (⟨S167386x1, .f32⟩ : BufTy).Contents (Elt F)),
    StableHlo.unary main_v131 main_v139 (broadcastInDim S167386x128 ![0, 1] bcast_S167386x1_S167386x128_0_1 : (⟨S167386x1, .f32⟩ : BufTy).Contents (Elt F) → (⟨S167386x128, .f32⟩ : BufTy).Contents (Elt F)),
    StableHlo.binary main_v127 main_v139 main_v140 (subf : (⟨S167386x128, .f32⟩ : BufTy).Contents (Elt F) → (⟨S167386x128, .f32⟩ : BufTy).Contents (Elt F) → (⟨S167386x128, .f32⟩ : BufTy).Contents (Elt F)) ]
abbrev ops2_2_W : List (Ref sig .tc) := [main_v126, main_v127, main_cst_16, main_v128, main_v129, main_cst_17, main_v130, main_v131, main_v132, main_v133, main_v134, main_cst_18, main_v135, main_v136, main_cst_19, main_v137, main_v138, main_v139, main_v140]
set_option maxRecDepth 8192 in
theorem ops2_2_writes : (ops2_2 : List (HloOp τ sig (Elt F))).Forall fun op => op.writes ⊆ (ops2_2_W.map (Proc.devRef (τ := τ) .tc)).toFinset :=
  ⟨single_sub_of_mem main_v126 (by decide), single_sub_of_mem main_v127 (by decide), single_sub_of_mem main_cst_16 (by decide), single_sub_of_mem main_v128 (by decide), single_sub_of_mem main_v129 (by decide), single_sub_of_mem main_cst_17 (by decide), single_sub_of_mem main_v130 (by decide), single_sub_of_mem main_v131 (by decide), single_sub_of_mem main_v132 (by decide), single_sub_of_mem main_v133 (by decide), single_sub_of_mem main_v134 (by decide), single_sub_of_mem main_cst_18 (by decide), single_sub_of_mem main_v135 (by decide), single_sub_of_mem main_v136 (by decide), single_sub_of_mem main_cst_19 (by decide), single_sub_of_mem main_v137 (by decide), single_sub_of_mem main_v138 (by decide), single_sub_of_mem main_v139 (by decide), single_sub_of_mem main_v140 (by decide)⟩

/-- Operations 45 … 63 of window 2. -/
abbrev ops2_3 : List (HloOp τ sig (Elt F)) :=
  [ StableHlo.nullary main_cst_20 (constant S_ .f32 0x3727C5AC#32),
    StableHlo.unary main_cst_20 main_v141 (broadcastInDim S167386x1 ![] bcast_S_S167386x1 : (⟨S_, .f32⟩ : BufTy).Contents (Elt F) → (⟨S167386x1, .f32⟩ : BufTy).Contents (Elt F)),
    StableHlo.binary main_v138 main_v141 main_v142 (addf : (⟨S167386x1, .f32⟩ : BufTy).Contents (Elt F) → (⟨S167386x1, .f32⟩ : BufTy).Contents (Elt F) → (⟨S167386x1, .f32⟩ : BufTy).Contents (Elt F)),
    StableHlo.unary main_v142 main_v143 (Host.rsqrt : (⟨S167386x1, .f32⟩ : BufTy).Contents (Elt F) → (⟨S167386x1, .f32⟩ : BufTy).Contents (Elt F)),
    StableHlo.unary main_v143 main_v144 (broadcastInDim S167386x128 ![0, 1] bcast_S167386x1_S167386x128_0_1 : (⟨S167386x1, .f32⟩ : BufTy).Contents (Elt F) → (⟨S167386x128, .f32⟩ : BufTy).Contents (Elt F)),
    StableHlo.binary main_v140 main_v144 main_v145 (mulf : (⟨S167386x128, .f32⟩ : BufTy).Contents (Elt F) → (⟨S167386x128, .f32⟩ : BufTy).Contents (Elt F) → (⟨S167386x128, .f32⟩ : BufTy).Contents (Elt F)),
    StableHlo.unary main_v19 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S167386x128 ![0, 1] bcast_S1x128_S167386x128_0_1 : (⟨S1x128, .f32⟩ : BufTy).Contents (Elt F) → (⟨S167386x128, .f32⟩ : BufTy).Contents (Elt F)),
    StableHlo.binary main_v145 main_v147 main_v148 (mulf : (⟨S167386x128, .f32⟩ : BufTy).Contents (Elt F) → (⟨S167386x128, .f32⟩ : BufTy).Contents (Elt F) → (⟨S167386x128, .f32⟩ : BufTy).Contents (Elt F)),
    StableHlo.unary main_v21 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S167386x128 ![0, 1] bcast_S1x128_S167386x128_0_1 : (⟨S1x128, .f32⟩ : BufTy).Contents (Elt F) → (⟨S167386x128, .f32⟩ : BufTy).Contents (Elt F)),
    StableHlo.binary main_v148 main_v150 main_v151 (addf : (⟨S167386x128, .f32⟩ : BufTy).Contents (Elt F) → (⟨S167386x128, .f32⟩ : BufTy).Contents (Elt F) → (⟨S167386x128, .f32⟩ : BufTy).Contents (Elt F)),
    StableHlo.TRef.nullary main_call3.cst (constant S_ .f32 0x00000000#32),
    StableHlo.TRef.unary main_call3.cst main_call3.v0 (broadcastInDim S167386x128 ![] bcast_S_S167386x128),
    StableHlo.TRef.binary (.of main_v151 : StableHlo.TRef sig ⟨S167386x128, .f32⟩) main_call3.v0 main_call3.v1 maximumf,
    StableHlo.unary main_v23 main_v153 ((transpose S128x128 [1, 0] · transposes_S128x128_S128x128_1_0) : (⟨S128x128, .f32⟩ : BufTy).Contents (Elt F) → (⟨S128x128, .f32⟩ : BufTy).Contents (Elt F)),
    StableHlo.binary main_v152 main_v153 main_v154 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.unary main_v25 main_v155 ((transpose S128x128 [1, 0] · transposes_S128x128_S128x128_1_0) : (⟨S128x128, .f32⟩ : BufTy).Contents (Elt F) → (⟨S128x128, .f32⟩ : BufTy).Contents (Elt F)),
    StableHlo.binary main_arg0 main_v155 main_v156 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)) ]
abbrev ops2_3_W : List (Ref sig .tc) := [main_cst_20, main_v141, main_v142, main_v143, main_v144, main_v145, main_v146, main_v147, main_v148, main_v149, main_v150, main_v151, main_call3_cst, main_call3_v0, main_v152, main_v153, main_v154, main_v155, main_v156]
set_option maxRecDepth 8192 in
theorem ops2_3_writes : (ops2_3 : List (HloOp τ sig (Elt F))).Forall fun op => op.writes ⊆ (ops2_3_W.map (Proc.devRef (τ := τ) .tc)).toFinset :=
  ⟨single_sub_of_mem main_cst_20 (by decide), single_sub_of_mem main_v141 (by decide), single_sub_of_mem main_v142 (by decide), single_sub_of_mem main_v143 (by decide), single_sub_of_mem main_v144 (by decide), single_sub_of_mem main_v145 (by decide), single_sub_of_mem main_v146 (by decide), single_sub_of_mem main_v147 (by decide), single_sub_of_mem main_v148 (by decide), single_sub_of_mem main_v149 (by decide), single_sub_of_mem main_v150 (by decide), single_sub_of_mem main_v151 (by decide), single_sub_of_mem main_call3_cst (by decide), single_sub_of_mem main_call3_v0 (by decide), single_sub_of_mem main_v152 (by decide), single_sub_of_mem main_v153 (by decide), single_sub_of_mem main_v154 (by decide), single_sub_of_mem main_v155 (by decide), single_sub_of_mem main_v156 (by decide)⟩

set_option maxRecDepth 8192 in
theorem ops2_split : (ops2 : List (HloOp τ sig (Elt F))) = ops2_0 ++ (ops2_1 ++ (ops2_2 ++ (ops2_3))) := rfl

/-- Operations 0 … 21 of window 3. -/
abbrev ops3_0 : List (HloOp τ sig (Elt F)) :=
  [ StableHlo.nullary main_c_21 (constantI S_ 32 0#32),
    StableHlo.unary main_c_21 main_v157 (broadcastInDim S167386 ![] bcast_S_S167386 : (⟨S_, .i32⟩ : BufTy).Contents (Elt F) → (⟨S167386, .i32⟩ : BufTy).Contents (Elt F)),
    StableHlo.binary main_arg2 main_v157 main_v158 (cmpi .slt : (⟨S167386, .i32⟩ : BufTy).Contents (Elt F) → (⟨S167386, .i32⟩ : BufTy).Contents (Elt F) → (⟨S167386, .i1⟩ : BufTy).Contents (Elt F)),
    StableHlo.nullary main_c_22 (constantI S_ 32 4096#32),
    StableHlo.unary main_c_22 main_v159 (broadcastInDim S167386 ![] bcast_S_S167386 : (⟨S_, .i32⟩ : BufTy).Contents (Elt F) → (⟨S167386, .i32⟩ : BufTy).Contents (Elt F)),
    StableHlo.binary main_arg2 main_v159 main_v160 (addi : (⟨S167386, .i32⟩ : BufTy).Contents (Elt F) → (⟨S167386, .i32⟩ : BufTy).Contents (Elt F) → (⟨S167386, .i32⟩ : BufTy).Contents (Elt F)),
    StableHlo.ternary main_v158 main_v160 main_arg2 main_v161 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v161 main_v162 (broadcastInDim S167386x1 ![0] bcast_S167386_S167386x1_0 : (⟨S167386, .i32⟩ : BufTy).Contents (Elt F) → (⟨S167386x1, .i32⟩ : BufTy).Contents (Elt F)),
    StableHlo.ternary main_v156 main_v162 main_v154 main_v163 ((fun x i u => Host.scatterAdd scatter_S4096x128_S167386x1_S167386x128_1_0_0_1 x i u) : (⟨S4096x128, .f32⟩ : BufTy).Contents (Elt F) → (⟨S167386x1, .i32⟩ : BufTy).Contents (Elt F) → (⟨S167386x128, .f32⟩ : BufTy).Contents (Elt F) → (⟨S4096x128, .f32⟩ : BufTy).Contents (Elt F)),
    StableHlo.nullary main_cst_23 (constant S_ .f32 0x00000000#32),
    StableHlo.binary main_v163 main_cst_23 main_v164 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v164 main_v165 (broadcastInDim S4096x1 ![0] bcast_S4096_S4096x1_0 : (⟨S4096, .f32⟩ : BufTy).Contents (Elt F) → (⟨S4096x1, .f32⟩ : BufTy).Contents (Elt F)),
    StableHlo.nullary main_cst_24 (constant S_ .f32 0x43000000#32),
    StableHlo.unary main_cst_24 main_v166 (broadcastInDim S4096x1 ![] bcast_S_S4096x1 : (⟨S_, .f32⟩ : BufTy).Contents (Elt F) → (⟨S4096x1, .f32⟩ : BufTy).Contents (Elt F)),
    StableHlo.binary main_v165 main_v166 main_v167 (Host.divf : (⟨S4096x1, .f32⟩ : BufTy).Contents (Elt F) → (⟨S4096x1, .f32⟩ : BufTy).Contents (Elt F) → (⟨S4096x1, .f32⟩ : BufTy).Contents (Elt F)),
    StableHlo.unary main_v167 main_v168 (broadcastInDim S4096x128 ![0, 1] bcast_S4096x1_S4096x128_0_1 : (⟨S4096x1, .f32⟩ : BufTy).Contents (Elt F) → (⟨S4096x128, .f32⟩ : BufTy).Contents (Elt F)),
    StableHlo.binary main_v163 main_v168 main_v169 (subf : (⟨S4096x128, .f32⟩ : BufTy).Contents (Elt F) → (⟨S4096x128, .f32⟩ : BufTy).Contents (Elt F) → (⟨S4096x128, .f32⟩ : BufTy).Contents (Elt F)),
    StableHlo.binary main_v169 main_v169 main_v170 (mulf : (⟨S4096x128, .f32⟩ : BufTy).Contents (Elt F) → (⟨S4096x128, .f32⟩ : BufTy).Contents (Elt F) → (⟨S4096x128, .f32⟩ : BufTy).Contents (Elt F)),
    StableHlo.nullary main_cst_25 (constant S_ .f32 0x00000000#32),
    StableHlo.binary main_v170 main_cst_25 main_v171 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v171 main_v172 (broadcastInDim S4096x1 ![0] bcast_S4096_S4096x1_0 : (⟨S4096, .f32⟩ : BufTy).Contents (Elt F) → (⟨S4096x1, .f32⟩ : BufTy).Contents (Elt F)),
    StableHlo.nullary main_cst_26 (constant S_ .f32 0x43000000#32) ]
abbrev ops3_0_W : List (Ref sig .tc) := [main_c_21, main_v157, main_v158, main_c_22, main_v159, main_v160, main_v161, main_v162, main_v163, main_cst_23, main_v164, main_v165, main_cst_24, main_v166, main_v167, main_v168, main_v169, main_v170, main_cst_25, main_v171, main_v172, main_cst_26]
set_option maxRecDepth 8192 in
theorem ops3_0_writes : (ops3_0 : List (HloOp τ sig (Elt F))).Forall fun op => op.writes ⊆ (ops3_0_W.map (Proc.devRef (τ := τ) .tc)).toFinset :=
  ⟨single_sub_of_mem main_c_21 (by decide), single_sub_of_mem main_v157 (by decide), single_sub_of_mem main_v158 (by decide), single_sub_of_mem main_c_22 (by decide), single_sub_of_mem main_v159 (by decide), single_sub_of_mem main_v160 (by decide), single_sub_of_mem main_v161 (by decide), single_sub_of_mem main_v162 (by decide), single_sub_of_mem main_v163 (by decide), single_sub_of_mem main_cst_23 (by decide), single_sub_of_mem main_v164 (by decide), single_sub_of_mem main_v165 (by decide), single_sub_of_mem main_cst_24 (by decide), single_sub_of_mem main_v166 (by decide), single_sub_of_mem main_v167 (by decide), single_sub_of_mem main_v168 (by decide), single_sub_of_mem main_v169 (by decide), single_sub_of_mem main_v170 (by decide), single_sub_of_mem main_cst_25 (by decide), single_sub_of_mem main_v171 (by decide), single_sub_of_mem main_v172 (by decide), single_sub_of_mem main_cst_26 (by decide)⟩

/-- Operations 22 … 43 of window 3. -/
abbrev ops3_1 : List (HloOp τ sig (Elt F)) :=
  [ StableHlo.unary main_cst_26 main_v173 (broadcastInDim S4096x1 ![] bcast_S_S4096x1 : (⟨S_, .f32⟩ : BufTy).Contents (Elt F) → (⟨S4096x1, .f32⟩ : BufTy).Contents (Elt F)),
    StableHlo.binary main_v172 main_v173 main_v174 (Host.divf : (⟨S4096x1, .f32⟩ : BufTy).Contents (Elt F) → (⟨S4096x1, .f32⟩ : BufTy).Contents (Elt F) → (⟨S4096x1, .f32⟩ : BufTy).Contents (Elt F)),
    StableHlo.unary main_v167 main_v175 (broadcastInDim S4096x128 ![0, 1] bcast_S4096x1_S4096x128_0_1 : (⟨S4096x1, .f32⟩ : BufTy).Contents (Elt F) → (⟨S4096x128, .f32⟩ : BufTy).Contents (Elt F)),
    StableHlo.binary main_v163 main_v175 main_v176 (subf : (⟨S4096x128, .f32⟩ : BufTy).Contents (Elt F) → (⟨S4096x128, .f32⟩ : BufTy).Contents (Elt F) → (⟨S4096x128, .f32⟩ : BufTy).Contents (Elt F)),
    StableHlo.nullary main_cst_27 (constant S_ .f32 0x3727C5AC#32),
    StableHlo.unary main_cst_27 main_v177 (broadcastInDim S4096x1 ![] bcast_S_S4096x1 : (⟨S_, .f32⟩ : BufTy).Contents (Elt F) → (⟨S4096x1, .f32⟩ : BufTy).Contents (Elt F)),
    StableHlo.binary main_v174 main_v177 main_v178 (addf : (⟨S4096x1, .f32⟩ : BufTy).Contents (Elt F) → (⟨S4096x1, .f32⟩ : BufTy).Contents (Elt F) → (⟨S4096x1, .f32⟩ : BufTy).Contents (Elt F)),
    StableHlo.unary main_v178 main_v179 (Host.rsqrt : (⟨S4096x1, .f32⟩ : BufTy).Contents (Elt F) → (⟨S4096x1, .f32⟩ : BufTy).Contents (Elt F)),
    StableHlo.unary main_v179 main_v180 (broadcastInDim S4096x128 ![0, 1] bcast_S4096x1_S4096x128_0_1 : (⟨S4096x1, .f32⟩ : BufTy).Contents (Elt F) → (⟨S4096x128, .f32⟩ : BufTy).Contents (Elt F)),
    StableHlo.binary main_v176 main_v180 main_v181 (mulf : (⟨S4096x128, .f32⟩ : BufTy).Contents (Elt F) → (⟨S4096x128, .f32⟩ : BufTy).Contents (Elt F) → (⟨S4096x128, .f32⟩ : BufTy).Contents (Elt F)),
    StableHlo.unary main_v27 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S4096x128 ![0, 1] bcast_S1x128_S4096x128_0_1 : (⟨S1x128, .f32⟩ : BufTy).Contents (Elt F) → (⟨S4096x128, .f32⟩ : BufTy).Contents (Elt F)),
    StableHlo.binary main_v181 main_v183 main_v184 (mulf : (⟨S4096x128, .f32⟩ : BufTy).Contents (Elt F) → (⟨S4096x128, .f32⟩ : BufTy).Contents (Elt F) → (⟨S4096x128, .f32⟩ : BufTy).Contents (Elt F)),
    StableHlo.unary main_v29 main_v185 (broadcastInDim S1x128 ![1] bcast_S128_S1x128_1 : (⟨S128, .f32⟩ : BufTy).Contents (Elt F) → (⟨S1x128, .f32⟩ : BufTy).Contents (Elt F)),
    StableHlo.unary main_v185 main_v186 (broadcastInDim S4096x128 ![0, 1] bcast_S1x128_S4096x128_0_1 : (⟨S1x128, .f32⟩ : BufTy).Contents (Elt F) → (⟨S4096x128, .f32⟩ : BufTy).Contents (Elt F)),
    StableHlo.binary main_v184 main_v186 main_v187 (addf : (⟨S4096x128, .f32⟩ : BufTy).Contents (Elt F) → (⟨S4096x128, .f32⟩ : BufTy).Contents (Elt F) → (⟨S4096x128, .f32⟩ : BufTy).Contents (Elt F)),
    StableHlo.nullary main_cst_28 (constant S_ .f32 0x3C23D70A#32),
    StableHlo.TRef.nullary main_call4.cst (constant S_ .f32 0x00000000#32),
    StableHlo.TRef.unary main_call4.cst main_call4.v0 (broadcastInDim S4096x128 ![] bcast_S_S4096x128),
    StableHlo.TRef.binary (.of main_v187 : StableHlo.TRef sig ⟨S4096x128, .f32⟩) main_call4.v0 main_call4.v1 (cmpf .oge),
    StableHlo.TRef.unary (.of main_cst_28 : StableHlo.TRef sig ⟨S_, .f32⟩) main_call4.v2 id,
    StableHlo.TRef.unary main_call4.v2 main_call4.v3 (broadcastInDim S4096x128 ![] bcast_S_S4096x128) ]
abbrev ops3_1_W : List (Ref sig .tc) := [main_v173, main_v174, main_v175, main_v176, main_cst_27, main_v177, main_v178, main_v179, main_v180, main_v181, main_v182, main_v183, main_v184, main_v185, main_v186, main_v187, main_cst_28, main_call4_cst, main_call4_v0, main_call4_v1, main_call4_v2, main_call4_v3]
set_option maxRecDepth 8192 in
theorem ops3_1_writes : (ops3_1 : List (HloOp τ sig (Elt F))).Forall fun op => op.writes ⊆ (ops3_1_W.map (Proc.devRef (τ := τ) .tc)).toFinset :=
  ⟨single_sub_of_mem main_v173 (by decide), single_sub_of_mem main_v174 (by decide), single_sub_of_mem main_v175 (by decide), single_sub_of_mem main_v176 (by decide), single_sub_of_mem main_cst_27 (by decide), single_sub_of_mem main_v177 (by decide), single_sub_of_mem main_v178 (by decide), single_sub_of_mem main_v179 (by decide), single_sub_of_mem main_v180 (by decide), single_sub_of_mem main_v181 (by decide), single_sub_of_mem main_v182 (by decide), single_sub_of_mem main_v183 (by decide), single_sub_of_mem main_v184 (by decide), single_sub_of_mem main_v185 (by decide), single_sub_of_mem main_v186 (by decide), single_sub_of_mem main_v187 (by decide), single_sub_of_mem main_cst_28 (by decide), single_sub_of_mem main_call4_cst (by decide), single_sub_of_mem main_call4_v0 (by decide), single_sub_of_mem main_call4_v1 (by decide), single_sub_of_mem main_call4_v2 (by decide), single_sub_of_mem main_call4_v3 (by decide)⟩

/-- Operations 44 … 65 of window 3. -/
abbrev ops3_2 : List (HloOp τ sig (Elt F)) :=
  [ StableHlo.TRef.binary main_call4.v3 (.of main_v187 : StableHlo.TRef sig ⟨S4096x128, .f32⟩) main_call4.v4 mulf,
    StableHlo.TRef.ternary main_call4.v1 (.of main_v187 : StableHlo.TRef sig ⟨S4096x128, .f32⟩) main_call4.v4 main_call4.call0.v0 select,
    StableHlo.unary main_v31 main_v189 ((transpose S128x128 [1, 0] · transposes_S128x128_S128x128_1_0) : (⟨S128x128, .f32⟩ : BufTy).Contents (Elt F) → (⟨S128x128, .f32⟩ : BufTy).Contents (Elt F)),
    StableHlo.binary main_v188 main_v189 main_v190 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.nullary main_cst_29 (constant S_ .f32 0x00000000#32),
    StableHlo.binary main_v190 main_cst_29 main_v191 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v191 main_v192 (broadcastInDim S4096x1 ![0] bcast_S4096_S4096x1_0 : (⟨S4096, .f32⟩ : BufTy).Contents (Elt F) → (⟨S4096x1, .f32⟩ : BufTy).Contents (Elt F)),
    StableHlo.nullary main_cst_30 (constant S_ .f32 0x43000000#32),
    StableHlo.unary main_cst_30 main_v193 (broadcastInDim S4096x1 ![] bcast_S_S4096x1 : (⟨S_, .f32⟩ : BufTy).Contents (Elt F) → (⟨S4096x1, .f32⟩ : BufTy).Contents (Elt F)),
    StableHlo.binary main_v192 main_v193 main_v194 (Host.divf : (⟨S4096x1, .f32⟩ : BufTy).Contents (Elt F) → (⟨S4096x1, .f32⟩ : BufTy).Contents (Elt F) → (⟨S4096x1, .f32⟩ : BufTy).Contents (Elt F)),
    StableHlo.unary main_v194 main_v195 (broadcastInDim S4096x128 ![0, 1] bcast_S4096x1_S4096x128_0_1 : (⟨S4096x1, .f32⟩ : BufTy).Contents (Elt F) → (⟨S4096x128, .f32⟩ : BufTy).Contents (Elt F)),
    StableHlo.binary main_v190 main_v195 main_v196 (subf : (⟨S4096x128, .f32⟩ : BufTy).Contents (Elt F) → (⟨S4096x128, .f32⟩ : BufTy).Contents (Elt F) → (⟨S4096x128, .f32⟩ : BufTy).Contents (Elt F)),
    StableHlo.binary main_v196 main_v196 main_v197 (mulf : (⟨S4096x128, .f32⟩ : BufTy).Contents (Elt F) → (⟨S4096x128, .f32⟩ : BufTy).Contents (Elt F) → (⟨S4096x128, .f32⟩ : BufTy).Contents (Elt F)),
    StableHlo.nullary main_cst_31 (constant S_ .f32 0x00000000#32),
    StableHlo.binary main_v197 main_cst_31 main_v198 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v198 main_v199 (broadcastInDim S4096x1 ![0] bcast_S4096_S4096x1_0 : (⟨S4096, .f32⟩ : BufTy).Contents (Elt F) → (⟨S4096x1, .f32⟩ : BufTy).Contents (Elt F)),
    StableHlo.nullary main_cst_32 (constant S_ .f32 0x43000000#32),
    StableHlo.unary main_cst_32 main_v200 (broadcastInDim S4096x1 ![] bcast_S_S4096x1 : (⟨S_, .f32⟩ : BufTy).Contents (Elt F) → (⟨S4096x1, .f32⟩ : BufTy).Contents (Elt F)),
    StableHlo.binary main_v199 main_v200 main_v201 (Host.divf : (⟨S4096x1, .f32⟩ : BufTy).Contents (Elt F) → (⟨S4096x1, .f32⟩ : BufTy).Contents (Elt F) → (⟨S4096x1, .f32⟩ : BufTy).Contents (Elt F)),
    StableHlo.unary main_v194 main_v202 (broadcastInDim S4096x128 ![0, 1] bcast_S4096x1_S4096x128_0_1 : (⟨S4096x1, .f32⟩ : BufTy).Contents (Elt F) → (⟨S4096x128, .f32⟩ : BufTy).Contents (Elt F)),
    StableHlo.binary main_v190 main_v202 main_v203 (subf : (⟨S4096x128, .f32⟩ : BufTy).Contents (Elt F) → (⟨S4096x128, .f32⟩ : BufTy).Contents (Elt F) → (⟨S4096x128, .f32⟩ : BufTy).Contents (Elt F)),
    StableHlo.nullary main_cst_33 (constant S_ .f32 0x3727C5AC#32) ]
abbrev ops3_2_W : List (Ref sig .tc) := [main_call4_v4, main_v188, main_v189, main_v190, main_cst_29, main_v191, main_v192, main_cst_30, main_v193, main_v194, main_v195, main_v196, main_v197, main_cst_31, main_v198, main_v199, main_cst_32, main_v200, main_v201, main_v202, main_v203, main_cst_33]
set_option maxRecDepth 8192 in
theorem ops3_2_writes : (ops3_2 : List (HloOp τ sig (Elt F))).Forall fun op => op.writes ⊆ (ops3_2_W.map (Proc.devRef (τ := τ) .tc)).toFinset :=
  ⟨single_sub_of_mem main_call4_v4 (by decide), single_sub_of_mem main_v188 (by decide), single_sub_of_mem main_v189 (by decide), single_sub_of_mem main_v190 (by decide), single_sub_of_mem main_cst_29 (by decide), single_sub_of_mem main_v191 (by decide), single_sub_of_mem main_v192 (by decide), single_sub_of_mem main_cst_30 (by decide), single_sub_of_mem main_v193 (by decide), single_sub_of_mem main_v194 (by decide), single_sub_of_mem main_v195 (by decide), single_sub_of_mem main_v196 (by decide), single_sub_of_mem main_v197 (by decide), single_sub_of_mem main_cst_31 (by decide), single_sub_of_mem main_v198 (by decide), single_sub_of_mem main_v199 (by decide), single_sub_of_mem main_cst_32 (by decide), single_sub_of_mem main_v200 (by decide), single_sub_of_mem main_v201 (by decide), single_sub_of_mem main_v202 (by decide), single_sub_of_mem main_v203 (by decide), single_sub_of_mem main_cst_33 (by decide)⟩

set_option maxRecDepth 8192 in
theorem ops3_split : (ops3 : List (HloOp τ sig (Elt F))) = ops3_0 ++ (ops3_1 ++ (ops3_2)) := rfl

/-- Operations 0 … 21 of window 4. -/
abbrev ops4_0 : List (HloOp τ sig (Elt F)) :=
  [ StableHlo.unary main_cst_33 main_v204 (broadcastInDim S4096x1 ![] bcast_S_S4096x1 : (⟨S_, .f32⟩ : BufTy).Contents (Elt F) → (⟨S4096x1, .f32⟩ : BufTy).Contents (Elt F)),
    StableHlo.binary main_v201 main_v204 main_v205 (addf : (⟨S4096x1, .f32⟩ : BufTy).Contents (Elt F) → (⟨S4096x1, .f32⟩ : BufTy).Contents (Elt F) → (⟨S4096x1, .f32⟩ : BufTy).Contents (Elt F)),
    StableHlo.unary main_v205 main_v206 (Host.rsqrt : (⟨S4096x1, .f32⟩ : BufTy).Contents (Elt F) → (⟨S4096x1, .f32⟩ : BufTy).Contents (Elt F)),
    StableHlo.unary main_v206 main_v207 (broadcastInDim S4096x128 ![0, 1] bcast_S4096x1_S4096x128_0_1 : (⟨S4096x1, .f32⟩ : BufTy).Contents (Elt F) → (⟨S4096x128, .f32⟩ : BufTy).Contents (Elt F)),
    StableHlo.binary main_v203 main_v207 main_v208 (mulf : (⟨S4096x128, .f32⟩ : BufTy).Contents (Elt F) → (⟨S4096x128, .f32⟩ : BufTy).Contents (Elt F) → (⟨S4096x128, .f32⟩ : BufTy).Contents (Elt F)),
    StableHlo.unary main_v33 main_v209 (broadcastInDim S1x128 ![1] bcast_S128_S1x128_1 : (⟨S128, .f32⟩ : BufTy).Contents (Elt F) → (⟨S1x128, .f32⟩ : BufTy).Contents (Elt F)),
    StableHlo.unary main_v209 main_v210 (broadcastInDim S4096x128 ![0, 1] bcast_S1x128_S4096x128_0_1 : (⟨S1x128, .f32⟩ : BufTy).Contents (Elt F) → (⟨S4096x128, .f32⟩ : BufTy).Contents (Elt F)),
    StableHlo.binary main_v208 main_v210 main_v211 (mulf : (⟨S4096x128, .f32⟩ : BufTy).Contents (Elt F) → (⟨S4096x128, .f32⟩ : BufTy).Contents (Elt F) → (⟨S4096x128, .f32⟩ : BufTy).Contents (Elt F)),
    StableHlo.unary main_v35 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S4096x128 ![0, 1] bcast_S1x128_S4096x128_0_1 : (⟨S1x128, .f32⟩ : BufTy).Contents (Elt F) → (⟨S4096x128, .f32⟩ : BufTy).Contents (Elt F)),
    StableHlo.binary main_v211 main_v213 main_v214 (addf : (⟨S4096x128, .f32⟩ : BufTy).Contents (Elt F) → (⟨S4096x128, .f32⟩ : BufTy).Contents (Elt F) → (⟨S4096x128, .f32⟩ : BufTy).Contents (Elt F)),
    StableHlo.binary main_v214 main_arg0 main_v215 (addf : (⟨S4096x128, .f32⟩ : BufTy).Contents (Elt F) → (⟨S4096x128, .f32⟩ : BufTy).Contents (Elt F) → (⟨S4096x128, .f32⟩ : BufTy).Contents (Elt F)),
    StableHlo.nullary main_cst_34 (constant S_ .f32 0x3C23D70A#32),
    StableHlo.TRef.nullary main_call5.cst (constant S_ .f32 0x00000000#32),
    StableHlo.TRef.unary main_call5.cst main_call5.v0 (broadcastInDim S4096x128 ![] bcast_S_S4096x128),
    StableHlo.TRef.binary (.of main_v215 : StableHlo.TRef sig ⟨S4096x128, .f32⟩) main_call5.v0 main_call5.v1 (cmpf .oge),
    StableHlo.TRef.unary (.of main_cst_34 : StableHlo.TRef sig ⟨S_, .f32⟩) main_call5.v2 id,
    StableHlo.TRef.unary main_call5.v2 main_call5.v3 (broadcastInDim S4096x128 ![] bcast_S_S4096x128),
    StableHlo.TRef.binary main_call5.v3 (.of main_v215 : StableHlo.TRef sig ⟨S4096x128, .f32⟩) main_call5.v4 mulf,
    StableHlo.TRef.ternary main_call5.v1 (.of main_v215 : StableHlo.TRef sig ⟨S4096x128, .f32⟩) main_call5.v4 main_call5.call0.v0 select,
    StableHlo.unary main_arg4 main_v217 ((extractStridedSlice S1x128x2 ![1, 0, 0] · slices_S2x128x2_S1x128x2_1_0_0) : (⟨S2x128x2, .f32⟩ : BufTy).Contents (Elt F) → (⟨S1x128x2, .f32⟩ : BufTy).Contents (Elt F)),
    StableHlo.reshape main_v217 main_v218 rfl shapeCasts_S1x128x2_S128x2 ]
abbrev ops4_0_W : List (Ref sig .tc) := [main_v204, main_v205, main_v206, main_v207, main_v208, main_v209, main_v210, main_v211, main_v212, main_v213, main_v214, main_v215, main_cst_34, main_call5_cst, main_call5_v0, main_call5_v1, main_call5_v2, main_call5_v3, main_call5_v4, main_v216, main_v217, main_v218]
set_option maxRecDepth 8192 in
theorem ops4_0_writes : (ops4_0 : List (HloOp τ sig (Elt F))).Forall fun op => op.writes ⊆ (ops4_0_W.map (Proc.devRef (τ := τ) .tc)).toFinset :=
  ⟨single_sub_of_mem main_v204 (by decide), single_sub_of_mem main_v205 (by decide), single_sub_of_mem main_v206 (by decide), single_sub_of_mem main_v207 (by decide), single_sub_of_mem main_v208 (by decide), single_sub_of_mem main_v209 (by decide), single_sub_of_mem main_v210 (by decide), single_sub_of_mem main_v211 (by decide), single_sub_of_mem main_v212 (by decide), single_sub_of_mem main_v213 (by decide), single_sub_of_mem main_v214 (by decide), single_sub_of_mem main_v215 (by decide), single_sub_of_mem main_cst_34 (by decide), single_sub_of_mem main_call5_cst (by decide), single_sub_of_mem main_call5_v0 (by decide), single_sub_of_mem main_call5_v1 (by decide), single_sub_of_mem main_call5_v2 (by decide), single_sub_of_mem main_call5_v3 (by decide), single_sub_of_mem main_call5_v4 (by decide), single_sub_of_mem main_v216 (by decide), single_sub_of_mem main_v217 (by decide), single_sub_of_mem main_v218 (by decide)⟩

/-- Operations 22 … 43 of window 4. -/
abbrev ops4_1 : List (HloOp τ sig (Elt F)) :=
  [ StableHlo.unary main_arg5 main_v219 ((extractStridedSlice S1x128 ![1, 0] · slices_S2x128_S1x128_1_0) : (⟨S2x128, .f32⟩ : BufTy).Contents (Elt F) → (⟨S1x128, .f32⟩ : BufTy).Contents (Elt F)),
    StableHlo.reshape main_v219 main_v220 rfl shapeCasts_S1x128_S128,
    StableHlo.unary main_arg6 main_v221 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v221 main_v222 rfl shapeCasts_S1x128x128_S128x128,
    StableHlo.unary main_arg7 main_v223 ((extractStridedSlice S1x128 ![1, 0] · slices_S2x128_S1x128_1_0) : (⟨S2x128, .f32⟩ : BufTy).Contents (Elt F) → (⟨S1x128, .f32⟩ : BufTy).Contents (Elt F)),
    StableHlo.reshape main_v223 main_v224 rfl shapeCasts_S1x128_S128,
    StableHlo.unary main_arg8 main_v225 ((extractStridedSlice S1x128 ![1, 0] · slices_S2x128_S1x128_1_0) : (⟨S2x128, .f32⟩ : BufTy).Contents (Elt F) → (⟨S1x128, .f32⟩ : BufTy).Contents (Elt F)),
    StableHlo.reshape main_v225 main_v226 rfl shapeCasts_S1x128_S128,
    StableHlo.unary main_arg9 main_v227 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v227 main_v228 rfl shapeCasts_S1x128x128_S128x128,
    StableHlo.unary main_arg10 main_v229 ((extractStridedSlice S1x128 ![1, 0] · slices_S2x128_S1x128_1_0) : (⟨S2x128, .f32⟩ : BufTy).Contents (Elt F) → (⟨S1x128, .f32⟩ : BufTy).Contents (Elt F)),
    StableHlo.reshape main_v229 main_v230 rfl shapeCasts_S1x128_S128,
    StableHlo.unary main_arg11 main_v231 ((extractStridedSlice S1x128 ![1, 0] · slices_S2x128_S1x128_1_0) : (⟨S2x128, .f32⟩ : BufTy).Contents (Elt F) → (⟨S1x128, .f32⟩ : BufTy).Contents (Elt F)),
    StableHlo.reshape main_v231 main_v232 rfl shapeCasts_S1x128_S128,
    StableHlo.unary main_arg12 main_v233 ((extractStridedSlice S1x128x384 ![1, 0, 0] · slices_S2x128x384_S1x128x384_1_0_0) : (⟨S2x128x384, .f32⟩ : BufTy).Contents (Elt F) → (⟨S1x128x384, .f32⟩ : BufTy).Contents (Elt F)),
    StableHlo.reshape main_v233 main_v234 rfl shapeCasts_S1x128x384_S128x384,
    StableHlo.unary main_arg13 main_v235 ((extractStridedSlice S1x128 ![1, 0] · slices_S2x128_S1x128_1_0) : (⟨S2x128, .f32⟩ : BufTy).Contents (Elt F) → (⟨S1x128, .f32⟩ : BufTy).Contents (Elt F)),
    StableHlo.reshape main_v235 main_v236 rfl shapeCasts_S1x128_S128,
    StableHlo.unary main_arg14 main_v237 ((extractStridedSlice S1x128 ![1, 0] · slices_S2x128_S1x128_1_0) : (⟨S2x128, .f32⟩ : BufTy).Contents (Elt F) → (⟨S1x128, .f32⟩ : BufTy).Contents (Elt F)),
    StableHlo.reshape main_v237 main_v238 rfl shapeCasts_S1x128_S128,
    StableHlo.unary main_arg15 main_v239 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v239 main_v240 rfl shapeCasts_S1x128x128_S128x128 ]
abbrev ops4_1_W : List (Ref sig .tc) := [main_v219, main_v220, main_v221, main_v222, main_v223, main_v224, main_v225, main_v226, main_v227, main_v228, main_v229, main_v230, main_v231, main_v232, main_v233, main_v234, main_v235, main_v236, main_v237, main_v238, main_v239, main_v240]
set_option maxRecDepth 8192 in
theorem ops4_1_writes : (ops4_1 : List (HloOp τ sig (Elt F))).Forall fun op => op.writes ⊆ (ops4_1_W.map (Proc.devRef (τ := τ) .tc)).toFinset :=
  ⟨single_sub_of_mem main_v219 (by decide), single_sub_of_mem main_v220 (by decide), single_sub_of_mem main_v221 (by decide), single_sub_of_mem main_v222 (by decide), single_sub_of_mem main_v223 (by decide), single_sub_of_mem main_v224 (by decide), single_sub_of_mem main_v225 (by decide), single_sub_of_mem main_v226 (by decide), single_sub_of_mem main_v227 (by decide), single_sub_of_mem main_v228 (by decide), single_sub_of_mem main_v229 (by decide), single_sub_of_mem main_v230 (by decide), single_sub_of_mem main_v231 (by decide), single_sub_of_mem main_v232 (by decide), single_sub_of_mem main_v233 (by decide), single_sub_of_mem main_v234 (by decide), single_sub_of_mem main_v235 (by decide), single_sub_of_mem main_v236 (by decide), single_sub_of_mem main_v237 (by decide), single_sub_of_mem main_v238 (by decide), single_sub_of_mem main_v239 (by decide), single_sub_of_mem main_v240 (by decide)⟩

/-- Operations 44 … 65 of window 4. -/
abbrev ops4_2 : List (HloOp τ sig (Elt F)) :=
  [ StableHlo.unary main_arg16 main_v241 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v241 main_v242 rfl shapeCasts_S1x128x128_S128x128,
    StableHlo.unary main_arg17 main_v243 ((extractStridedSlice S1x128 ![1, 0] · slices_S2x128_S1x128_1_0) : (⟨S2x128, .f32⟩ : BufTy).Contents (Elt F) → (⟨S1x128, .f32⟩ : BufTy).Contents (Elt F)),
    StableHlo.reshape main_v243 main_v244 rfl shapeCasts_S1x128_S128,
    StableHlo.unary main_arg18 main_v245 ((extractStridedSlice S1x128 ![1, 0] · slices_S2x128_S1x128_1_0) : (⟨S2x128, .f32⟩ : BufTy).Contents (Elt F) → (⟨S1x128, .f32⟩ : BufTy).Contents (Elt F)),
    StableHlo.reshape main_v245 main_v246 rfl shapeCasts_S1x128_S128,
    StableHlo.unary main_arg19 main_v247 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v247 main_v248 rfl shapeCasts_S1x128x128_S128x128,
    StableHlo.unary main_arg20 main_v249 ((extractStridedSlice S1x128 ![1, 0] · slices_S2x128_S1x128_1_0) : (⟨S2x128, .f32⟩ : BufTy).Contents (Elt F) → (⟨S1x128, .f32⟩ : BufTy).Contents (Elt F)),
    StableHlo.reshape main_v249 main_v250 rfl shapeCasts_S1x128_S128,
    StableHlo.unary main_arg21 main_v251 ((extractStridedSlice S1x128 ![1, 0] · slices_S2x128_S1x128_1_0) : (⟨S2x128, .f32⟩ : BufTy).Contents (Elt F) → (⟨S1x128, .f32⟩ : BufTy).Contents (Elt F)),
    StableHlo.reshape main_v251 main_v252 rfl shapeCasts_S1x128_S128,
    StableHlo.nullary main_c_35 (constantI S_ 32 0#32),
    StableHlo.unary main_c_35 main_v253 (broadcastInDim S167386 ![] bcast_S_S167386 : (⟨S_, .i32⟩ : BufTy).Contents (Elt F) → (⟨S167386, .i32⟩ : BufTy).Contents (Elt F)),
    StableHlo.binary main_arg2 main_v253 main_v254 (cmpi .slt : (⟨S167386, .i32⟩ : BufTy).Contents (Elt F) → (⟨S167386, .i32⟩ : BufTy).Contents (Elt F) → (⟨S167386, .i1⟩ : BufTy).Contents (Elt F)),
    StableHlo.nullary main_c_36 (constantI S_ 32 4096#32),
    StableHlo.unary main_c_36 main_v255 (broadcastInDim S167386 ![] bcast_S_S167386 : (⟨S_, .i32⟩ : BufTy).Contents (Elt F) → (⟨S167386, .i32⟩ : BufTy).Contents (Elt F)),
    StableHlo.binary main_arg2 main_v255 main_v256 (addi : (⟨S167386, .i32⟩ : BufTy).Contents (Elt F) → (⟨S167386, .i32⟩ : BufTy).Contents (Elt F) → (⟨S167386, .i32⟩ : BufTy).Contents (Elt F)),
    StableHlo.ternary main_v254 main_v256 main_arg2 main_v257 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v257 main_v258 (broadcastInDim S167386x1 ![0] bcast_S167386_S167386x1_0 : (⟨S167386, .i32⟩ : BufTy).Contents (Elt F) → (⟨S167386x1, .i32⟩ : BufTy).Contents (Elt F)),
    StableHlo.binary main_arg1 main_v258 main_v259 ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)),
    StableHlo.nullary main_c_37 (constantI S_ 32 0#32) ]
abbrev ops4_2_W : List (Ref sig .tc) := [main_v241, main_v242, main_v243, main_v244, main_v245, main_v246, main_v247, main_v248, main_v249, main_v250, main_v251, main_v252, main_c_35, main_v253, main_v254, main_c_36, main_v255, main_v256, main_v257, main_v258, main_v259, main_c_37]
set_option maxRecDepth 8192 in
theorem ops4_2_writes : (ops4_2 : List (HloOp τ sig (Elt F))).Forall fun op => op.writes ⊆ (ops4_2_W.map (Proc.devRef (τ := τ) .tc)).toFinset :=
  ⟨single_sub_of_mem main_v241 (by decide), single_sub_of_mem main_v242 (by decide), single_sub_of_mem main_v243 (by decide), single_sub_of_mem main_v244 (by decide), single_sub_of_mem main_v245 (by decide), single_sub_of_mem main_v246 (by decide), single_sub_of_mem main_v247 (by decide), single_sub_of_mem main_v248 (by decide), single_sub_of_mem main_v249 (by decide), single_sub_of_mem main_v250 (by decide), single_sub_of_mem main_v251 (by decide), single_sub_of_mem main_v252 (by decide), single_sub_of_mem main_c_35 (by decide), single_sub_of_mem main_v253 (by decide), single_sub_of_mem main_v254 (by decide), single_sub_of_mem main_c_36 (by decide), single_sub_of_mem main_v255 (by decide), single_sub_of_mem main_v256 (by decide), single_sub_of_mem main_v257 (by decide), single_sub_of_mem main_v258 (by decide), single_sub_of_mem main_v259 (by decide), single_sub_of_mem main_c_37 (by decide)⟩

set_option maxRecDepth 8192 in
theorem ops4_split : (ops4 : List (HloOp τ sig (Elt F))) = ops4_0 ++ (ops4_1 ++ (ops4_2)) := rfl

/-- Operations 0 … 20 of window 5. -/
abbrev ops5_0 : List (HloOp τ sig (Elt F)) :=
  [ StableHlo.unary main_c_37 main_v260 (broadcastInDim S167386 ![] bcast_S_S167386 : (⟨S_, .i32⟩ : BufTy).Contents (Elt F) → (⟨S167386, .i32⟩ : BufTy).Contents (Elt F)),
    StableHlo.binary main_arg3 main_v260 main_v261 (cmpi .slt : (⟨S167386, .i32⟩ : BufTy).Contents (Elt F) → (⟨S167386, .i32⟩ : BufTy).Contents (Elt F) → (⟨S167386, .i1⟩ : BufTy).Contents (Elt F)),
    StableHlo.nullary main_c_38 (constantI S_ 32 4096#32),
    StableHlo.unary main_c_38 main_v262 (broadcastInDim S167386 ![] bcast_S_S167386 : (⟨S_, .i32⟩ : BufTy).Contents (Elt F) → (⟨S167386, .i32⟩ : BufTy).Contents (Elt F)),
    StableHlo.binary main_arg3 main_v262 main_v263 (addi : (⟨S167386, .i32⟩ : BufTy).Contents (Elt F) → (⟨S167386, .i32⟩ : BufTy).Contents (Elt F) → (⟨S167386, .i32⟩ : BufTy).Contents (Elt F)),
    StableHlo.ternary main_v261 main_v263 main_arg3 main_v264 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v264 main_v265 (broadcastInDim S167386x1 ![0] bcast_S167386_S167386x1_0 : (⟨S167386, .i32⟩ : BufTy).Contents (Elt F) → (⟨S167386x1, .i32⟩ : BufTy).Contents (Elt F)),
    StableHlo.binary main_arg1 main_v265 main_v266 ((fun x i => Host.gather gather_S4096x2_S167386x1_S167386x2_1_0_n_n_0_1_12 x i) : (⟨S4096x2, .f32⟩ : BufTy).Contents (Elt F) → (⟨S167386x1, .i32⟩ : BufTy).Contents (Elt F) → (⟨S167386x2, .f32⟩ : BufTy).Contents (Elt F)),
    StableHlo.binary main_v259 main_v266 main_v267 (subf : (⟨S167386x2, .f32⟩ : BufTy).Contents (Elt F) → (⟨S167386x2, .f32⟩ : BufTy).Contents (Elt F) → (⟨S167386x2, .f32⟩ : BufTy).Contents (Elt F)),
    StableHlo.unary main_v218 main_v268 ((transpose S2x128 [1, 0] · transposes_S128x2_S2x128_1_0) : (⟨S128x2, .f32⟩ : BufTy).Contents (Elt F) → (⟨S2x128, .f32⟩ : BufTy).Contents (Elt F)),
    StableHlo.binary main_v267 main_v268 main_v269 ((fun l r => Host.dotGeneral dot_S167386x2_S2x128_S167386x128_1_0_0_1_n_n none l r) : (⟨S167386x2, .f32⟩ : BufTy).Contents (Elt F) → (⟨S2x128, .f32⟩ : BufTy).Contents (Elt F) → (⟨S167386x128, .f32⟩ : BufTy).Contents (Elt F)),
    StableHlo.unary main_v220 main_v270 (broadcastInDim S1x128 ![1] bcast_S128_S1x128_1 : (⟨S128, .f32⟩ : BufTy).Contents (Elt F) → (⟨S1x128, .f32⟩ : BufTy).Contents (Elt F)),
    StableHlo.unary main_v270 main_v271 (broadcastInDim S167386x128 ![0, 1] bcast_S1x128_S167386x128_0_1 : (⟨S1x128, .f32⟩ : BufTy).Contents (Elt F) → (⟨S167386x128, .f32⟩ : BufTy).Contents (Elt F)),
    StableHlo.binary main_v269 main_v271 main_v272 (addf : (⟨S167386x128, .f32⟩ : BufTy).Contents (Elt F) → (⟨S167386x128, .f32⟩ : BufTy).Contents (Elt F) → (⟨S167386x128, .f32⟩ : BufTy).Contents (Elt F)),
    StableHlo.TRef.nullary main_call6.cst (constant S_ .f32 0x00000000#32),
    StableHlo.TRef.unary main_call6.cst main_call6.v0 (broadcastInDim S167386x128 ![] bcast_S_S167386x128),
    StableHlo.TRef.binary (.of main_v272 : StableHlo.TRef sig ⟨S167386x128, .f32⟩) main_call6.v0 main_call6.v1 maximumf,
    StableHlo.unary main_v222 main_v274 ((transpose S128x128 [1, 0] · transposes_S128x128_S128x128_1_0) : (⟨S128x128, .f32⟩ : BufTy).Contents (Elt F) → (⟨S128x128, .f32⟩ : BufTy).Contents (Elt F)),
    StableHlo.binary main_v273 main_v274 main_v275 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.nullary main_cst_39 (constant S_ .f32 0x00000000#32),
    StableHlo.binary main_v275 main_cst_39 main_v276 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) ]
abbrev ops5_0_W : List (Ref sig .tc) := [main_v260, main_v261, main_c_38, main_v262, main_v263, main_v264, main_v265, main_v266, main_v267, main_v268, main_v269, main_v270, main_v271, main_v272, main_call6_cst, main_call6_v0, main_v273, main_v274, main_v275, main_cst_39, main_v276]
set_option maxRecDepth 8192 in
theorem ops5_0_writes : (ops5_0 : List (HloOp τ sig (Elt F))).Forall fun op => op.writes ⊆ (ops5_0_W.map (Proc.devRef (τ := τ) .tc)).toFinset :=
  ⟨single_sub_of_mem main_v260 (by decide), single_sub_of_mem main_v261 (by decide), single_sub_of_mem main_c_38 (by decide), single_sub_of_mem main_v262 (by decide), single_sub_of_mem main_v263 (by decide), single_sub_of_mem main_v264 (by decide), single_sub_of_mem main_v265 (by decide), single_sub_of_mem main_v266 (by decide), single_sub_of_mem main_v267 (by decide), single_sub_of_mem main_v268 (by decide), single_sub_of_mem main_v269 (by decide), single_sub_of_mem main_v270 (by decide), single_sub_of_mem main_v271 (by decide), single_sub_of_mem main_v272 (by decide), single_sub_of_mem main_call6_cst (by decide), single_sub_of_mem main_call6_v0 (by decide), single_sub_of_mem main_v273 (by decide), single_sub_of_mem main_v274 (by decide), single_sub_of_mem main_v275 (by decide), single_sub_of_mem main_cst_39 (by decide), single_sub_of_mem main_v276 (by decide)⟩

/-- Operations 21 … 42 of window 5. -/
abbrev ops5_1 : List (HloOp τ sig (Elt F)) :=
  [ StableHlo.unary main_v276 main_v277 (broadcastInDim S167386x1 ![0] bcast_S167386_S167386x1_0 : (⟨S167386, .f32⟩ : BufTy).Contents (Elt F) → (⟨S167386x1, .f32⟩ : BufTy).Contents (Elt F)),
    StableHlo.nullary main_cst_40 (constant S_ .f32 0x43000000#32),
    StableHlo.unary main_cst_40 main_v278 (broadcastInDim S167386x1 ![] bcast_S_S167386x1 : (⟨S_, .f32⟩ : BufTy).Contents (Elt F) → (⟨S167386x1, .f32⟩ : BufTy).Contents (Elt F)),
    StableHlo.binary main_v277 main_v278 main_v279 (Host.divf : (⟨S167386x1, .f32⟩ : BufTy).Contents (Elt F) → (⟨S167386x1, .f32⟩ : BufTy).Contents (Elt F) → (⟨S167386x1, .f32⟩ : BufTy).Contents (Elt F)),
    StableHlo.unary main_v279 main_v280 (broadcastInDim S167386x128 ![0, 1] bcast_S167386x1_S167386x128_0_1 : (⟨S167386x1, .f32⟩ : BufTy).Contents (Elt F) → (⟨S167386x128, .f32⟩ : BufTy).Contents (Elt F)),
    StableHlo.binary main_v275 main_v280 main_v281 (subf : (⟨S167386x128, .f32⟩ : BufTy).Contents (Elt F) → (⟨S167386x128, .f32⟩ : BufTy).Contents (Elt F) → (⟨S167386x128, .f32⟩ : BufTy).Contents (Elt F)),
    StableHlo.binary main_v281 main_v281 main_v282 (mulf : (⟨S167386x128, .f32⟩ : BufTy).Contents (Elt F) → (⟨S167386x128, .f32⟩ : BufTy).Contents (Elt F) → (⟨S167386x128, .f32⟩ : BufTy).Contents (Elt F)),
    StableHlo.nullary main_cst_41 (constant S_ .f32 0x00000000#32),
    StableHlo.binary main_v282 main_cst_41 main_v283 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v283 main_v284 (broadcastInDim S167386x1 ![0] bcast_S167386_S167386x1_0 : (⟨S167386, .f32⟩ : BufTy).Contents (Elt F) → (⟨S167386x1, .f32⟩ : BufTy).Contents (Elt F)),
    StableHlo.nullary main_cst_42 (constant S_ .f32 0x43000000#32),
    StableHlo.unary main_cst_42 main_v285 (broadcastInDim S167386x1 ![] bcast_S_S167386x1 : (⟨S_, .f32⟩ : BufTy).Contents (Elt F) → (⟨S167386x1, .f32⟩ : BufTy).Contents (Elt F)),
    StableHlo.binary main_v284 main_v285 main_v286 (Host.divf : (⟨S167386x1, .f32⟩ : BufTy).Contents (Elt F) → (⟨S167386x1, .f32⟩ : BufTy).Contents (Elt F) → (⟨S167386x1, .f32⟩ : BufTy).Contents (Elt F)),
    StableHlo.unary main_v279 main_v287 (broadcastInDim S167386x128 ![0, 1] bcast_S167386x1_S167386x128_0_1 : (⟨S167386x1, .f32⟩ : BufTy).Contents (Elt F) → (⟨S167386x128, .f32⟩ : BufTy).Contents (Elt F)),
    StableHlo.binary main_v275 main_v287 main_v288 (subf : (⟨S167386x128, .f32⟩ : BufTy).Contents (Elt F) → (⟨S167386x128, .f32⟩ : BufTy).Contents (Elt F) → (⟨S167386x128, .f32⟩ : BufTy).Contents (Elt F)),
    StableHlo.nullary main_cst_43 (constant S_ .f32 0x3727C5AC#32),
    StableHlo.unary main_cst_43 main_v289 (broadcastInDim S167386x1 ![] bcast_S_S167386x1 : (⟨S_, .f32⟩ : BufTy).Contents (Elt F) → (⟨S167386x1, .f32⟩ : BufTy).Contents (Elt F)),
    StableHlo.binary main_v286 main_v289 main_v290 (addf : (⟨S167386x1, .f32⟩ : BufTy).Contents (Elt F) → (⟨S167386x1, .f32⟩ : BufTy).Contents (Elt F) → (⟨S167386x1, .f32⟩ : BufTy).Contents (Elt F)),
    StableHlo.unary main_v290 main_v291 (Host.rsqrt : (⟨S167386x1, .f32⟩ : BufTy).Contents (Elt F) → (⟨S167386x1, .f32⟩ : BufTy).Contents (Elt F)),
    StableHlo.unary main_v291 main_v292 (broadcastInDim S167386x128 ![0, 1] bcast_S167386x1_S167386x128_0_1 : (⟨S167386x1, .f32⟩ : BufTy).Contents (Elt F) → (⟨S167386x128, .f32⟩ : BufTy).Contents (Elt F)),
    StableHlo.binary main_v288 main_v292 main_v293 (mulf : (⟨S167386x128, .f32⟩ : BufTy).Contents (Elt F) → (⟨S167386x128, .f32⟩ : BufTy).Contents (Elt F) → (⟨S167386x128, .f32⟩ : BufTy).Contents (Elt F)),
    StableHlo.unary main_v224 main_v294 (broadcastInDim S1x128 ![1] bcast_S128_S1x128_1 : (⟨S128, .f32⟩ : BufTy).Contents (Elt F) → (⟨S1x128, .f32⟩ : BufTy).Contents (Elt F)) ]
abbrev ops5_1_W : List (Ref sig .tc) := [main_v277, main_cst_40, main_v278, main_v279, main_v280, main_v281, main_v282, main_cst_41, main_v283, main_v284, main_cst_42, main_v285, main_v286, main_v287, main_v288, main_cst_43, main_v289, main_v290, main_v291, main_v292, main_v293, main_v294]
set_option maxRecDepth 8192 in
theorem ops5_1_writes : (ops5_1 : List (HloOp τ sig (Elt F))).Forall fun op => op.writes ⊆ (ops5_1_W.map (Proc.devRef (τ := τ) .tc)).toFinset :=
  ⟨single_sub_of_mem main_v277 (by decide), single_sub_of_mem main_cst_40 (by decide), single_sub_of_mem main_v278 (by decide), single_sub_of_mem main_v279 (by decide), single_sub_of_mem main_v280 (by decide), single_sub_of_mem main_v281 (by decide), single_sub_of_mem main_v282 (by decide), single_sub_of_mem main_cst_41 (by decide), single_sub_of_mem main_v283 (by decide), single_sub_of_mem main_v284 (by decide), single_sub_of_mem main_cst_42 (by decide), single_sub_of_mem main_v285 (by decide), single_sub_of_mem main_v286 (by decide), single_sub_of_mem main_v287 (by decide), single_sub_of_mem main_v288 (by decide), single_sub_of_mem main_cst_43 (by decide), single_sub_of_mem main_v289 (by decide), single_sub_of_mem main_v290 (by decide), single_sub_of_mem main_v291 (by decide), single_sub_of_mem main_v292 (by decide), single_sub_of_mem main_v293 (by decide), single_sub_of_mem main_v294 (by decide)⟩

/-- Operations 43 … 63 of window 5. -/
abbrev ops5_2 : List (HloOp τ sig (Elt F)) :=
  [ StableHlo.unary main_v294 main_v295 (broadcastInDim S167386x128 ![0, 1] bcast_S1x128_S167386x128_0_1 : (⟨S1x128, .f32⟩ : BufTy).Contents (Elt F) → (⟨S167386x128, .f32⟩ : BufTy).Contents (Elt F)),
    StableHlo.binary main_v293 main_v295 main_v296 (mulf : (⟨S167386x128, .f32⟩ : BufTy).Contents (Elt F) → (⟨S167386x128, .f32⟩ : BufTy).Contents (Elt F) → (⟨S167386x128, .f32⟩ : BufTy).Contents (Elt F)),
    StableHlo.unary main_v226 main_v297 (broadcastInDim S1x128 ![1] bcast_S128_S1x128_1 : (⟨S128, .f32⟩ : BufTy).Contents (Elt F) → (⟨S1x128, .f32⟩ : BufTy).Contents (Elt F)),
    StableHlo.unary main_v297 main_v298 (broadcastInDim S167386x128 ![0, 1] bcast_S1x128_S167386x128_0_1 : (⟨S1x128, .f32⟩ : BufTy).Contents (Elt F) → (⟨S167386x128, .f32⟩ : BufTy).Contents (Elt F)),
    StableHlo.binary main_v296 main_v298 main_v299 (addf : (⟨S167386x128, .f32⟩ : BufTy).Contents (Elt F) → (⟨S167386x128, .f32⟩ : BufTy).Contents (Elt F) → (⟨S167386x128, .f32⟩ : BufTy).Contents (Elt F)),
    StableHlo.TRef.nullary main_call7.cst (constant S_ .f32 0x00000000#32),
    StableHlo.TRef.unary main_call7.cst main_call7.v0 (broadcastInDim S167386x128 ![] bcast_S_S167386x128),
    StableHlo.TRef.binary (.of main_v299 : StableHlo.TRef sig ⟨S167386x128, .f32⟩) main_call7.v0 main_call7.v1 maximumf,
    StableHlo.nullary main_c_44 (constantI S_ 32 0#32),
    StableHlo.unary main_c_44 main_v301 (broadcastInDim S167386 ![] bcast_S_S167386 : (⟨S_, .i32⟩ : BufTy).Contents (Elt F) → (⟨S167386, .i32⟩ : BufTy).Contents (Elt F)),
    StableHlo.binary main_arg2 main_v301 main_v302 (cmpi .slt : (⟨S167386, .i32⟩ : BufTy).Contents (Elt F) → (⟨S167386, .i32⟩ : BufTy).Contents (Elt F) → (⟨S167386, .i1⟩ : BufTy).Contents (Elt F)),
    StableHlo.nullary main_c_45 (constantI S_ 32 4096#32),
    StableHlo.unary main_c_45 main_v303 (broadcastInDim S167386 ![] bcast_S_S167386 : (⟨S_, .i32⟩ : BufTy).Contents (Elt F) → (⟨S167386, .i32⟩ : BufTy).Contents (Elt F)),
    StableHlo.binary main_arg2 main_v303 main_v304 (addi : (⟨S167386, .i32⟩ : BufTy).Contents (Elt F) → (⟨S167386, .i32⟩ : BufTy).Contents (Elt F) → (⟨S167386, .i32⟩ : BufTy).Contents (Elt F)),
    StableHlo.ternary main_v302 main_v304 main_arg2 main_v305 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v305 main_v306 (broadcastInDim S167386x1 ![0] bcast_S167386_S167386x1_0 : (⟨S167386, .i32⟩ : BufTy).Contents (Elt F) → (⟨S167386x1, .i32⟩ : BufTy).Contents (Elt F)),
    StableHlo.binary main_v216 main_v306 main_v307 ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)),
    StableHlo.unary main_v228 main_v308 ((transpose S128x128 [1, 0] · transposes_S128x128_S128x128_1_0) : (⟨S128x128, .f32⟩ : BufTy).Contents (Elt F) → (⟨S128x128, .f32⟩ : BufTy).Contents (Elt F)),
    StableHlo.binary main_v307 main_v308 main_v309 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.nullary main_cst_46 (constant S_ .f32 0x00000000#32),
    StableHlo.binary main_v309 main_cst_46 main_v310 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)) ]
abbrev ops5_2_W : List (Ref sig .tc) := [main_v295, main_v296, main_v297, main_v298, main_v299, main_call7_cst, main_call7_v0, main_v300, main_c_44, main_v301, main_v302, main_c_45, main_v303, main_v304, main_v305, main_v306, main_v307, main_v308, main_v309, main_cst_46, main_v310]
set_option maxRecDepth 8192 in
theorem ops5_2_writes : (ops5_2 : List (HloOp τ sig (Elt F))).Forall fun op => op.writes ⊆ (ops5_2_W.map (Proc.devRef (τ := τ) .tc)).toFinset :=
  ⟨single_sub_of_mem main_v295 (by decide), single_sub_of_mem main_v296 (by decide), single_sub_of_mem main_v297 (by decide), single_sub_of_mem main_v298 (by decide), single_sub_of_mem main_v299 (by decide), single_sub_of_mem main_call7_cst (by decide), single_sub_of_mem main_call7_v0 (by decide), single_sub_of_mem main_v300 (by decide), single_sub_of_mem main_c_44 (by decide), single_sub_of_mem main_v301 (by decide), single_sub_of_mem main_v302 (by decide), single_sub_of_mem main_c_45 (by decide), single_sub_of_mem main_v303 (by decide), single_sub_of_mem main_v304 (by decide), single_sub_of_mem main_v305 (by decide), single_sub_of_mem main_v306 (by decide), single_sub_of_mem main_v307 (by decide), single_sub_of_mem main_v308 (by decide), single_sub_of_mem main_v309 (by decide), single_sub_of_mem main_cst_46 (by decide), single_sub_of_mem main_v310 (by decide)⟩

set_option maxRecDepth 8192 in
theorem ops5_split : (ops5 : List (HloOp τ sig (Elt F))) = ops5_0 ++ (ops5_1 ++ (ops5_2)) := rfl

/-- Operations 0 … 19 of window 6. -/
abbrev ops6_0 : List (HloOp τ sig (Elt F)) :=
  [ StableHlo.unary main_v310 main_v311 (broadcastInDim S167386x1 ![0] bcast_S167386_S167386x1_0 : (⟨S167386, .f32⟩ : BufTy).Contents (Elt F) → (⟨S167386x1, .f32⟩ : BufTy).Contents (Elt F)),
    StableHlo.nullary main_cst_47 (constant S_ .f32 0x43000000#32),
    StableHlo.unary main_cst_47 main_v312 (broadcastInDim S167386x1 ![] bcast_S_S167386x1 : (⟨S_, .f32⟩ : BufTy).Contents (Elt F) → (⟨S167386x1, .f32⟩ : BufTy).Contents (Elt F)),
    StableHlo.binary main_v311 main_v312 main_v313 (Host.divf : (⟨S167386x1, .f32⟩ : BufTy).Contents (Elt F) → (⟨S167386x1, .f32⟩ : BufTy).Contents (Elt F) → (⟨S167386x1, .f32⟩ : BufTy).Contents (Elt F)),
    StableHlo.unary main_v313 main_v314 (broadcastInDim S167386x128 ![0, 1] bcast_S167386x1_S167386x128_0_1 : (⟨S167386x1, .f32⟩ : BufTy).Contents (Elt F) → (⟨S167386x128, .f32⟩ : BufTy).Contents (Elt F)),
    StableHlo.binary main_v309 main_v314 main_v315 (subf : (⟨S167386x128, .f32⟩ : BufTy).Contents (Elt F) → (⟨S167386x128, .f32⟩ : BufTy).Contents (Elt F) → (⟨S167386x128, .f32⟩ : BufTy).Contents (Elt F)),
    StableHlo.binary main_v315 main_v315 main_v316 (mulf : (⟨S167386x128, .f32⟩ : BufTy).Contents (Elt F) → (⟨S167386x128, .f32⟩ : BufTy).Contents (Elt F) → (⟨S167386x128, .f32⟩ : BufTy).Contents (Elt F)),
    StableHlo.nullary main_cst_48 (constant S_ .f32 0x00000000#32),
    StableHlo.binary main_v316 main_cst_48 main_v317 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v317 main_v318 (broadcastInDim S167386x1 ![0] bcast_S167386_S167386x1_0 : (⟨S167386, .f32⟩ : BufTy).Contents (Elt F) → (⟨S167386x1, .f32⟩ : BufTy).Contents (Elt F)),
    StableHlo.nullary main_cst_49 (constant S_ .f32 0x43000000#32),
    StableHlo.unary main_cst_49 main_v319 (broadcastInDim S167386x1 ![] bcast_S_S167386x1 : (⟨S_, .f32⟩ : BufTy).Contents (Elt F) → (⟨S167386x1, .f32⟩ : BufTy).Contents (Elt F)),
    StableHlo.binary main_v318 main_v319 main_v320 (Host.divf : (⟨S167386x1, .f32⟩ : BufTy).Contents (Elt F) → (⟨S167386x1, .f32⟩ : BufTy).Contents (Elt F) → (⟨S167386x1, .f32⟩ : BufTy).Contents (Elt F)),
    StableHlo.unary main_v313 main_v321 (broadcastInDim S167386x128 ![0, 1] bcast_S167386x1_S167386x128_0_1 : (⟨S167386x1, .f32⟩ : BufTy).Contents (Elt F) → (⟨S167386x128, .f32⟩ : BufTy).Contents (Elt F)),
    StableHlo.binary main_v309 main_v321 main_v322 (subf : (⟨S167386x128, .f32⟩ : BufTy).Contents (Elt F) → (⟨S167386x128, .f32⟩ : BufTy).Contents (Elt F) → (⟨S167386x128, .f32⟩ : BufTy).Contents (Elt F)),
    StableHlo.nullary main_cst_50 (constant S_ .f32 0x3727C5AC#32),
    StableHlo.unary main_cst_50 main_v323 (broadcastInDim S167386x1 ![] bcast_S_S167386x1 : (⟨S_, .f32⟩ : BufTy).Contents (Elt F) → (⟨S167386x1, .f32⟩ : BufTy).Contents (Elt F)),
    StableHlo.binary main_v320 main_v323 main_v324 (addf : (⟨S167386x1, .f32⟩ : BufTy).Contents (Elt F) → (⟨S167386x1, .f32⟩ : BufTy).Contents (Elt F) → (⟨S167386x1, .f32⟩ : BufTy).Contents (Elt F)),
    StableHlo.unary main_v324 main_v325 (Host.rsqrt : (⟨S167386x1, .f32⟩ : BufTy).Contents (Elt F) → (⟨S167386x1, .f32⟩ : BufTy).Contents (Elt F)),
    StableHlo.unary main_v325 main_v326 (broadcastInDim S167386x128 ![0, 1] bcast_S167386x1_S167386x128_0_1 : (⟨S167386x1, .f32⟩ : BufTy).Contents (Elt F) → (⟨S167386x128, .f32⟩ : BufTy).Contents (Elt F)) ]
abbrev ops6_0_W : List (Ref sig .tc) := [main_v311, main_cst_47, main_v312, main_v313, main_v314, main_v315, main_v316, main_cst_48, main_v317, main_v318, main_cst_49, main_v319, main_v320, main_v321, main_v322, main_cst_50, main_v323, main_v324, main_v325, main_v326]
set_option maxRecDepth 8192 in
theorem ops6_0_writes : (ops6_0 : List (HloOp τ sig (Elt F))).Forall fun op => op.writes ⊆ (ops6_0_W.map (Proc.devRef (τ := τ) .tc)).toFinset :=
  ⟨single_sub_of_mem main_v311 (by decide), single_sub_of_mem main_cst_47 (by decide), single_sub_of_mem main_v312 (by decide), single_sub_of_mem main_v313 (by decide), single_sub_of_mem main_v314 (by decide), single_sub_of_mem main_v315 (by decide), single_sub_of_mem main_v316 (by decide), single_sub_of_mem main_cst_48 (by decide), single_sub_of_mem main_v317 (by decide), single_sub_of_mem main_v318 (by decide), single_sub_of_mem main_cst_49 (by decide), single_sub_of_mem main_v319 (by decide), single_sub_of_mem main_v320 (by decide), single_sub_of_mem main_v321 (by decide), single_sub_of_mem main_v322 (by decide), single_sub_of_mem main_cst_50 (by decide), single_sub_of_mem main_v323 (by decide), single_sub_of_mem main_v324 (by decide), single_sub_of_mem main_v325 (by decide), single_sub_of_mem main_v326 (by decide)⟩

/-- Operations 20 … 38 of window 6. -/
abbrev ops6_1 : List (HloOp τ sig (Elt F)) :=
  [ StableHlo.binary main_v322 main_v326 main_v327 (mulf : (⟨S167386x128, .f32⟩ : BufTy).Contents (Elt F) → (⟨S167386x128, .f32⟩ : BufTy).Contents (Elt F) → (⟨S167386x128, .f32⟩ : BufTy).Contents (Elt F)),
    StableHlo.unary main_v230 main_v328 (broadcastInDim S1x128 ![1] bcast_S128_S1x128_1 : (⟨S128, .f32⟩ : BufTy).Contents (Elt F) → (⟨S1x128, .f32⟩ : BufTy).Contents (Elt F)),
    StableHlo.unary main_v328 main_v329 (broadcastInDim S167386x128 ![0, 1] bcast_S1x128_S167386x128_0_1 : (⟨S1x128, .f32⟩ : BufTy).Contents (Elt F) → (⟨S167386x128, .f32⟩ : BufTy).Contents (Elt F)),
    StableHlo.binary main_v327 main_v329 main_v330 (mulf : (⟨S167386x128, .f32⟩ : BufTy).Contents (Elt F) → (⟨S167386x128, .f32⟩ : BufTy).Contents (Elt F) → (⟨S167386x128, .f32⟩ : BufTy).Contents (Elt F)),
    StableHlo.unary main_v232 main_v331 (broadcastInDim S1x128 ![1] bcast_S128_S1x128_1 : (⟨S128, .f32⟩ : BufTy).Contents (Elt F) → (⟨S1x128, .f32⟩ : BufTy).Contents (Elt F)),
    StableHlo.unary main_v331 main_v332 (broadcastInDim S167386x128 ![0, 1] bcast_S1x128_S167386x128_0_1 : (⟨S1x128, .f32⟩ : BufTy).Contents (Elt F) → (⟨S167386x128, .f32⟩ : BufTy).Contents (Elt F)),
    StableHlo.binary main_v330 main_v332 main_v333 (addf : (⟨S167386x128, .f32⟩ : BufTy).Contents (Elt F) → (⟨S167386x128, .f32⟩ : BufTy).Contents (Elt F) → (⟨S167386x128, .f32⟩ : BufTy).Contents (Elt F)),
    StableHlo.TRef.nullary main_call8.cst (constant S_ .f32 0x00000000#32),
    StableHlo.TRef.unary main_call8.cst main_call8.v0 (broadcastInDim S167386x128 ![] bcast_S_S167386x128),
    StableHlo.TRef.binary (.of main_v333 : StableHlo.TRef sig ⟨S167386x128, .f32⟩) main_call8.v0 main_call8.v1 maximumf,
    StableHlo.nullary main_c_51 (constantI S_ 32 0#32),
    StableHlo.unary main_c_51 main_v335 (broadcastInDim S167386 ![] bcast_S_S167386 : (⟨S_, .i32⟩ : BufTy).Contents (Elt F) → (⟨S167386, .i32⟩ : BufTy).Contents (Elt F)),
    StableHlo.binary main_arg3 main_v335 main_v336 (cmpi .slt : (⟨S167386, .i32⟩ : BufTy).Contents (Elt F) → (⟨S167386, .i32⟩ : BufTy).Contents (Elt F) → (⟨S167386, .i1⟩ : BufTy).Contents (Elt F)),
    StableHlo.nullary main_c_52 (constantI S_ 32 4096#32),
    StableHlo.unary main_c_52 main_v337 (broadcastInDim S167386 ![] bcast_S_S167386 : (⟨S_, .i32⟩ : BufTy).Contents (Elt F) → (⟨S167386, .i32⟩ : BufTy).Contents (Elt F)),
    StableHlo.binary main_arg3 main_v337 main_v338 (addi : (⟨S167386, .i32⟩ : BufTy).Contents (Elt F) → (⟨S167386, .i32⟩ : BufTy).Contents (Elt F) → (⟨S167386, .i32⟩ : BufTy).Contents (Elt F)),
    StableHlo.ternary main_v336 main_v338 main_arg3 main_v339 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)),
    StableHlo.unary main_v339 main_v340 (broadcastInDim S167386x1 ![0] bcast_S167386_S167386x1_0 : (⟨S167386, .i32⟩ : BufTy).Contents (Elt F) → (⟨S167386x1, .i32⟩ : BufTy).Contents (Elt F)),
    StableHlo.binary main_v216 main_v340 main_v341 ((fun x i => Host.gather gather_S4096x128_S167386x1_S167386x128_1_0_n_n_0_1_1128 x i) : (⟨S4096x128, .f32⟩ : BufTy).Contents (Elt F) → (⟨S167386x1, .i32⟩ : BufTy).Contents (Elt F) → (⟨S167386x128, .f32⟩ : BufTy).Contents (Elt F)) ]
abbrev ops6_1_W : List (Ref sig .tc) := [main_v327, main_v328, main_v329, main_v330, main_v331, main_v332, main_v333, main_call8_cst, main_call8_v0, main_v334, main_c_51, main_v335, main_v336, main_c_52, main_v337, main_v338, main_v339, main_v340, main_v341]
set_option maxRecDepth 8192 in
theorem ops6_1_writes : (ops6_1 : List (HloOp τ sig (Elt F))).Forall fun op => op.writes ⊆ (ops6_1_W.map (Proc.devRef (τ := τ) .tc)).toFinset :=
  ⟨single_sub_of_mem main_v327 (by decide), single_sub_of_mem main_v328 (by decide), single_sub_of_mem main_v329 (by decide), single_sub_of_mem main_v330 (by decide), single_sub_of_mem main_v331 (by decide), single_sub_of_mem main_v332 (by decide), single_sub_of_mem main_v333 (by decide), single_sub_of_mem main_call8_cst (by decide), single_sub_of_mem main_call8_v0 (by decide), single_sub_of_mem main_v334 (by decide), single_sub_of_mem main_c_51 (by decide), single_sub_of_mem main_v335 (by decide), single_sub_of_mem main_v336 (by decide), single_sub_of_mem main_c_52 (by decide), single_sub_of_mem main_v337 (by decide), single_sub_of_mem main_v338 (by decide), single_sub_of_mem main_v339 (by decide), single_sub_of_mem main_v340 (by decide), single_sub_of_mem main_v341 (by decide)⟩

/-- Operations 39 … 39 of window 6. -/
abbrev ops6_2 : List (HloOp τ sig (Elt F)) :=
  [ StableHlo.nary ![main_v300, main_v334, main_v341] main_v342 (fun u => concatenate S167386x384 1 [⟨S167386x128, u 0⟩, ⟨S167386x128, u 1⟩, ⟨S167386x128, u 2⟩] concatenates_S167386x128_S167386x128_S167386x128_S167386x384_d1) ]
abbrev ops6_2_W : List (Ref sig .tc) := [main_v342]
set_option maxRecDepth 8192 in
theorem ops6_2_writes : (ops6_2 : List (HloOp τ sig (Elt F))).Forall fun op => op.writes ⊆ (ops6_2_W.map (Proc.devRef (τ := τ) .tc)).toFinset :=
  single_sub_of_mem main_v342 (by decide)

/-- Operations 40 … 61 of window 6. -/
abbrev ops6_3 : List (HloOp τ sig (Elt F)) :=
  [ StableHlo.unary main_v234 main_v343 ((transpose S384x128 [1, 0] · transposes_S128x384_S384x128_1_0) : (⟨S128x384, .f32⟩ : BufTy).Contents (Elt F) → (⟨S384x128, .f32⟩ : BufTy).Contents (Elt F)),
    StableHlo.binary main_v342 main_v343 main_v344 ((fun l r => Host.dotGeneral dot_S167386x384_S384x128_S167386x128_1_0_0_1_n_n none l r) : (⟨S167386x384, .f32⟩ : BufTy).Contents (Elt F) → (⟨S384x128, .f32⟩ : BufTy).Contents (Elt F) → (⟨S167386x128, .f32⟩ : BufTy).Contents (Elt F)),
    StableHlo.nullary main_cst_53 (constant S_ .f32 0x00000000#32),
    StableHlo.binary main_v344 main_cst_53 main_v345 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v345 main_v346 (broadcastInDim S167386x1 ![0] bcast_S167386_S167386x1_0 : (⟨S167386, .f32⟩ : BufTy).Contents (Elt F) → (⟨S167386x1, .f32⟩ : BufTy).Contents (Elt F)),
    StableHlo.nullary main_cst_54 (constant S_ .f32 0x43000000#32),
    StableHlo.unary main_cst_54 main_v347 (broadcastInDim S167386x1 ![] bcast_S_S167386x1 : (⟨S_, .f32⟩ : BufTy).Contents (Elt F) → (⟨S167386x1, .f32⟩ : BufTy).Contents (Elt F)),
    StableHlo.binary main_v346 main_v347 main_v348 (Host.divf : (⟨S167386x1, .f32⟩ : BufTy).Contents (Elt F) → (⟨S167386x1, .f32⟩ : BufTy).Contents (Elt F) → (⟨S167386x1, .f32⟩ : BufTy).Contents (Elt F)),
    StableHlo.unary main_v348 main_v349 (broadcastInDim S167386x128 ![0, 1] bcast_S167386x1_S167386x128_0_1 : (⟨S167386x1, .f32⟩ : BufTy).Contents (Elt F) → (⟨S167386x128, .f32⟩ : BufTy).Contents (Elt F)),
    StableHlo.binary main_v344 main_v349 main_v350 (subf : (⟨S167386x128, .f32⟩ : BufTy).Contents (Elt F) → (⟨S167386x128, .f32⟩ : BufTy).Contents (Elt F) → (⟨S167386x128, .f32⟩ : BufTy).Contents (Elt F)),
    StableHlo.binary main_v350 main_v350 main_v351 (mulf : (⟨S167386x128, .f32⟩ : BufTy).Contents (Elt F) → (⟨S167386x128, .f32⟩ : BufTy).Contents (Elt F) → (⟨S167386x128, .f32⟩ : BufTy).Contents (Elt F)),
    StableHlo.nullary main_cst_55 (constant S_ .f32 0x00000000#32),
    StableHlo.binary main_v351 main_cst_55 main_v352 ((fun x v => Host.reduceAdd x v reducesTo_S167386x128_S167386_d1 h_S_) : (⟨S167386x128, .f32⟩ : BufTy).Contents (Elt F) → (⟨S_, .f32⟩ : BufTy).Contents (Elt F) → (⟨S167386, .f32⟩ : BufTy).Contents (Elt F)),
    StableHlo.unary main_v352 main_v353 (broadcastInDim S167386x1 ![0] bcast_S167386_S167386x1_0 : (⟨S167386, .f32⟩ : BufTy).Contents (Elt F) → (⟨S167386x1, .f32⟩ : BufTy).Contents (Elt F)),
    StableHlo.nullary main_cst_56 (constant S_ .f32 0x43000000#32),
    StableHlo.unary main_cst_56 main_v354 (broadcastInDim S167386x1 ![] bcast_S_S167386x1 : (⟨S_, .f32⟩ : BufTy).Contents (Elt F) → (⟨S167386x1, .f32⟩ : BufTy).Contents (Elt F)),
    StableHlo.binary main_v353 main_v354 main_v355 (Host.divf : (⟨S167386x1, .f32⟩ : BufTy).Contents (Elt F) → (⟨S167386x1, .f32⟩ : BufTy).Contents (Elt F) → (⟨S167386x1, .f32⟩ : BufTy).Contents (Elt F)),
    StableHlo.unary main_v348 main_v356 (broadcastInDim S167386x128 ![0, 1] bcast_S167386x1_S167386x128_0_1 : (⟨S167386x1, .f32⟩ : BufTy).Contents (Elt F) → (⟨S167386x128, .f32⟩ : BufTy).Contents (Elt F)),
    StableHlo.binary main_v344 main_v356 main_v357 (subf : (⟨S167386x128, .f32⟩ : BufTy).Contents (Elt F) → (⟨S167386x128, .f32⟩ : BufTy).Contents (Elt F) → (⟨S167386x128, .f32⟩ : BufTy).Contents (Elt F)),
    StableHlo.nullary main_cst_57 (constant S_ .f32 0x3727C5AC#32),
    StableHlo.unary main_cst_57 main_v358 (broadcastInDim S167386x1 ![] bcast_S_S167386x1 : (⟨S_, .f32⟩ : BufTy).Contents (Elt F) → (⟨S167386x1, .f32⟩ : BufTy).Contents (Elt F)),
    StableHlo.binary main_v355 main_v358 main_v359 (addf : (⟨S167386x1, .f32⟩ : BufTy).Contents (Elt F) → (⟨S167386x1, .f32⟩ : BufTy).Contents (Elt F) → (⟨S167386x1, .f32⟩ : BufTy).Contents (Elt F)) ]
abbrev ops6_3_W : List (Ref sig .tc) := [main_v343, main_v344, main_cst_53, main_v345, main_v346, main_cst_54, main_v347, main_v348, main_v349, main_v350, main_v351, main_cst_55, main_v352, main_v353, main_cst_56, main_v354, main_v355, main_v356, main_v357, main_cst_57, main_v358, main_v359]
set_option maxRecDepth 8192 in
theorem ops6_3_writes : (ops6_3 : List (HloOp τ sig (Elt F))).Forall fun op => op.writes ⊆ (ops6_3_W.map (Proc.devRef (τ := τ) .tc)).toFinset :=
  ⟨single_sub_of_mem main_v343 (by decide), single_sub_of_mem main_v344 (by decide), single_sub_of_mem main_cst_53 (by decide), single_sub_of_mem main_v345 (by decide), single_sub_of_mem main_v346 (by decide), single_sub_of_mem main_cst_54 (by decide), single_sub_of_mem main_v347 (by decide), single_sub_of_mem main_v348 (by decide), single_sub_of_mem main_v349 (by decide), single_sub_of_mem main_v350 (by decide), single_sub_of_mem main_v351 (by decide), single_sub_of_mem main_cst_55 (by decide), single_sub_of_mem main_v352 (by decide), single_sub_of_mem main_v353 (by decide), single_sub_of_mem main_cst_56 (by decide), single_sub_of_mem main_v354 (by decide), single_sub_of_mem main_v355 (by decide), single_sub_of_mem main_v356 (by decide), single_sub_of_mem main_v357 (by decide), single_sub_of_mem main_cst_57 (by decide), single_sub_of_mem main_v358 (by decide), single_sub_of_mem main_v359 (by decide)⟩

set_option maxRecDepth 8192 in
theorem ops6_split : (ops6 : List (HloOp τ sig (Elt F))) = ops6_0 ++ (ops6_1 ++ (ops6_2 ++ (ops6_3))) := rfl

/-- Operations 0 … 22 of window 7. -/
abbrev ops7_0 : List (HloOp τ sig (Elt F)) :=
  [ StableHlo.unary main_v359 main_v360 (Host.rsqrt : (⟨S167386x1, .f32⟩ : BufTy).Contents (Elt F) → (⟨S167386x1, .f32⟩ : BufTy).Contents (Elt F)),
    StableHlo.unary main_v360 main_v361 (broadcastInDim S167386x128 ![0, 1] bcast_S167386x1_S167386x128_0_1 : (⟨S167386x1, .f32⟩ : BufTy).Contents (Elt F) → (⟨S167386x128, .f32⟩ : BufTy).Contents (Elt F)),
    StableHlo.binary main_v357 main_v361 main_v362 (mulf : (⟨S167386x128, .f32⟩ : BufTy).Contents (Elt F) → (⟨S167386x128, .f32⟩ : BufTy).Contents (Elt F) → (⟨S167386x128, .f32⟩ : BufTy).Contents (Elt F)),
    StableHlo.unary main_v236 main_v363 (broadcastInDim S1x128 ![1] bcast_S128_S1x128_1 : (⟨S128, .f32⟩ : BufTy).Contents (Elt F) → (⟨S1x128, .f32⟩ : BufTy).Contents (Elt F)),
    StableHlo.unary main_v363 main_v364 (broadcastInDim S167386x128 ![0, 1] bcast_S1x128_S167386x128_0_1 : (⟨S1x128, .f32⟩ : BufTy).Contents (Elt F) → (⟨S167386x128, .f32⟩ : BufTy).Contents (Elt F)),
    StableHlo.binary main_v362 main_v364 main_v365 (mulf : (⟨S167386x128, .f32⟩ : BufTy).Contents (Elt F) → (⟨S167386x128, .f32⟩ : BufTy).Contents (Elt F) → (⟨S167386x128, .f32⟩ : BufTy).Contents (Elt F)),
    StableHlo.unary main_v238 main_v366 (broadcastInDim S1x128 ![1] bcast_S128_S1x128_1 : (⟨S128, .f32⟩ : BufTy).Contents (Elt F) → (⟨S1x128, .f32⟩ : BufTy).Contents (Elt F)),
    StableHlo.unary main_v366 main_v367 (broadcastInDim S167386x128 ![0, 1] bcast_S1x128_S167386x128_0_1 : (⟨S1x128, .f32⟩ : BufTy).Contents (Elt F) → (⟨S167386x128, .f32⟩ : BufTy).Contents (Elt F)),
    StableHlo.binary main_v365 main_v367 main_v368 (addf : (⟨S167386x128, .f32⟩ : BufTy).Contents (Elt F) → (⟨S167386x128, .f32⟩ : BufTy).Contents (Elt F) → (⟨S167386x128, .f32⟩ : BufTy).Contents (Elt F)),
    StableHlo.TRef.nullary main_call9.cst (constant S_ .f32 0x00000000#32),
    StableHlo.TRef.unary main_call9.cst main_call9.v0 (broadcastInDim S167386x128 ![] bcast_S_S167386x128),
    StableHlo.TRef.binary (.of main_v368 : StableHlo.TRef sig ⟨S167386x128, .f32⟩) main_call9.v0 main_call9.v1 maximumf,
    StableHlo.unary main_v240 main_v370 ((transpose S128x128 [1, 0] · transposes_S128x128_S128x128_1_0) : (⟨S128x128, .f32⟩ : BufTy).Contents (Elt F) → (⟨S128x128, .f32⟩ : BufTy).Contents (Elt F)),
    StableHlo.binary main_v369 main_v370 main_v371 ((fun l r => Host.dotGeneral dot_S167386x128_S128x128_S167386x128_1_0_0_1_n_n none l r) : (⟨S167386x128, .f32⟩ : BufTy).Contents (Elt F) → (⟨S128x128, .f32⟩ : BufTy).Contents (Elt F) → (⟨S167386x128, .f32⟩ : BufTy).Contents (Elt F)),
    StableHlo.unary main_v242 main_v372 ((transpose S128x128 [1, 0] · transposes_S128x128_S128x128_1_0) : (⟨S128x128, .f32⟩ : BufTy).Contents (Elt F) → (⟨S128x128, .f32⟩ : BufTy).Contents (Elt F)),
    StableHlo.binary main_v216 main_v372 main_v373 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.nullary main_c_58 (constantI S_ 32 0#32),
    StableHlo.unary main_c_58 main_v374 (broadcastInDim S167386 ![] bcast_S_S167386 : (⟨S_, .i32⟩ : BufTy).Contents (Elt F) → (⟨S167386, .i32⟩ : BufTy).Contents (Elt F)),
    StableHlo.binary main_arg2 main_v374 main_v375 (cmpi .slt : (⟨S167386, .i32⟩ : BufTy).Contents (Elt F) → (⟨S167386, .i32⟩ : BufTy).Contents (Elt F) → (⟨S167386, .i1⟩ : BufTy).Contents (Elt F)),
    StableHlo.nullary main_c_59 (constantI S_ 32 4096#32),
    StableHlo.unary main_c_59 main_v376 (broadcastInDim S167386 ![] bcast_S_S167386 : (⟨S_, .i32⟩ : BufTy).Contents (Elt F) → (⟨S167386, .i32⟩ : BufTy).Contents (Elt F)),
    StableHlo.binary main_arg2 main_v376 main_v377 (addi : (⟨S167386, .i32⟩ : BufTy).Contents (Elt F) → (⟨S167386, .i32⟩ : BufTy).Contents (Elt F) → (⟨S167386, .i32⟩ : BufTy).Contents (Elt F)),
    StableHlo.ternary main_v375 main_v377 main_arg2 main_v378 (select : (⟨S167386, .i1⟩ : BufTy).Contents (Elt F) → (⟨S167386, .i32⟩ : BufTy).Contents (Elt F) → (⟨S167386, .i32⟩ : BufTy).Contents (Elt F) → (⟨S167386, .i32⟩ : BufTy).Contents (Elt F)) ]
abbrev ops7_0_W : List (Ref sig .tc) := [main_v360, main_v361, main_v362, main_v363, main_v364, main_v365, main_v366, main_v367, main_v368, main_call9_cst, main_call9_v0, main_v369, main_v370, main_v371, main_v372, main_v373, main_c_58, main_v374, main_v375, main_c_59, main_v376, main_v377, main_v378]
set_option maxRecDepth 8192 in
theorem ops7_0_writes : (ops7_0 : List (HloOp τ sig (Elt F))).Forall fun op => op.writes ⊆ (ops7_0_W.map (Proc.devRef (τ := τ) .tc)).toFinset :=
  ⟨single_sub_of_mem main_v360 (by decide), single_sub_of_mem main_v361 (by decide), single_sub_of_mem main_v362 (by decide), single_sub_of_mem main_v363 (by decide), single_sub_of_mem main_v364 (by decide), single_sub_of_mem main_v365 (by decide), single_sub_of_mem main_v366 (by decide), single_sub_of_mem main_v367 (by decide), single_sub_of_mem main_v368 (by decide), single_sub_of_mem main_call9_cst (by decide), single_sub_of_mem main_call9_v0 (by decide), single_sub_of_mem main_v369 (by decide), single_sub_of_mem main_v370 (by decide), single_sub_of_mem main_v371 (by decide), single_sub_of_mem main_v372 (by decide), single_sub_of_mem main_v373 (by decide), single_sub_of_mem main_c_58 (by decide), single_sub_of_mem main_v374 (by decide), single_sub_of_mem main_v375 (by decide), single_sub_of_mem main_c_59 (by decide), single_sub_of_mem main_v376 (by decide), single_sub_of_mem main_v377 (by decide), single_sub_of_mem main_v378 (by decide)⟩

/-- Operations 23 … 44 of window 7. -/
abbrev ops7_1 : List (HloOp τ sig (Elt F)) :=
  [ StableHlo.unary main_v378 main_v379 (broadcastInDim S167386x1 ![0] bcast_S167386_S167386x1_0 : (⟨S167386, .i32⟩ : BufTy).Contents (Elt F) → (⟨S167386x1, .i32⟩ : BufTy).Contents (Elt F)),
    StableHlo.ternary main_v373 main_v379 main_v371 main_v380 ((fun x i u => Host.scatterAdd scatter_S4096x128_S167386x1_S167386x128_1_0_0_1 x i u) : (⟨S4096x128, .f32⟩ : BufTy).Contents (Elt F) → (⟨S167386x1, .i32⟩ : BufTy).Contents (Elt F) → (⟨S167386x128, .f32⟩ : BufTy).Contents (Elt F) → (⟨S4096x128, .f32⟩ : BufTy).Contents (Elt F)),
    StableHlo.nullary main_cst_60 (constant S_ .f32 0x00000000#32),
    StableHlo.binary main_v380 main_cst_60 main_v381 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v381 main_v382 (broadcastInDim S4096x1 ![0] bcast_S4096_S4096x1_0 : (⟨S4096, .f32⟩ : BufTy).Contents (Elt F) → (⟨S4096x1, .f32⟩ : BufTy).Contents (Elt F)),
    StableHlo.nullary main_cst_61 (constant S_ .f32 0x43000000#32),
    StableHlo.unary main_cst_61 main_v383 (broadcastInDim S4096x1 ![] bcast_S_S4096x1 : (⟨S_, .f32⟩ : BufTy).Contents (Elt F) → (⟨S4096x1, .f32⟩ : BufTy).Contents (Elt F)),
    StableHlo.binary main_v382 main_v383 main_v384 (Host.divf : (⟨S4096x1, .f32⟩ : BufTy).Contents (Elt F) → (⟨S4096x1, .f32⟩ : BufTy).Contents (Elt F) → (⟨S4096x1, .f32⟩ : BufTy).Contents (Elt F)),
    StableHlo.unary main_v384 main_v385 (broadcastInDim S4096x128 ![0, 1] bcast_S4096x1_S4096x128_0_1 : (⟨S4096x1, .f32⟩ : BufTy).Contents (Elt F) → (⟨S4096x128, .f32⟩ : BufTy).Contents (Elt F)),
    StableHlo.binary main_v380 main_v385 main_v386 (subf : (⟨S4096x128, .f32⟩ : BufTy).Contents (Elt F) → (⟨S4096x128, .f32⟩ : BufTy).Contents (Elt F) → (⟨S4096x128, .f32⟩ : BufTy).Contents (Elt F)),
    StableHlo.binary main_v386 main_v386 main_v387 (mulf : (⟨S4096x128, .f32⟩ : BufTy).Contents (Elt F) → (⟨S4096x128, .f32⟩ : BufTy).Contents (Elt F) → (⟨S4096x128, .f32⟩ : BufTy).Contents (Elt F)),
    StableHlo.nullary main_cst_62 (constant S_ .f32 0x00000000#32),
    StableHlo.binary main_v387 main_cst_62 main_v388 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v388 main_v389 (broadcastInDim S4096x1 ![0] bcast_S4096_S4096x1_0 : (⟨S4096, .f32⟩ : BufTy).Contents (Elt F) → (⟨S4096x1, .f32⟩ : BufTy).Contents (Elt F)),
    StableHlo.nullary main_cst_63 (constant S_ .f32 0x43000000#32),
    StableHlo.unary main_cst_63 main_v390 (broadcastInDim S4096x1 ![] bcast_S_S4096x1 : (⟨S_, .f32⟩ : BufTy).Contents (Elt F) → (⟨S4096x1, .f32⟩ : BufTy).Contents (Elt F)),
    StableHlo.binary main_v389 main_v390 main_v391 (Host.divf : (⟨S4096x1, .f32⟩ : BufTy).Contents (Elt F) → (⟨S4096x1, .f32⟩ : BufTy).Contents (Elt F) → (⟨S4096x1, .f32⟩ : BufTy).Contents (Elt F)),
    StableHlo.unary main_v384 main_v392 (broadcastInDim S4096x128 ![0, 1] bcast_S4096x1_S4096x128_0_1 : (⟨S4096x1, .f32⟩ : BufTy).Contents (Elt F) → (⟨S4096x128, .f32⟩ : BufTy).Contents (Elt F)),
    StableHlo.binary main_v380 main_v392 main_v393 (subf : (⟨S4096x128, .f32⟩ : BufTy).Contents (Elt F) → (⟨S4096x128, .f32⟩ : BufTy).Contents (Elt F) → (⟨S4096x128, .f32⟩ : BufTy).Contents (Elt F)),
    StableHlo.nullary main_cst_64 (constant S_ .f32 0x3727C5AC#32),
    StableHlo.unary main_cst_64 main_v394 (broadcastInDim S4096x1 ![] bcast_S_S4096x1 : (⟨S_, .f32⟩ : BufTy).Contents (Elt F) → (⟨S4096x1, .f32⟩ : BufTy).Contents (Elt F)),
    StableHlo.binary main_v391 main_v394 main_v395 (addf : (⟨S4096x1, .f32⟩ : BufTy).Contents (Elt F) → (⟨S4096x1, .f32⟩ : BufTy).Contents (Elt F) → (⟨S4096x1, .f32⟩ : BufTy).Contents (Elt F)) ]
abbrev ops7_1_W : List (Ref sig .tc) := [main_v379, main_v380, main_cst_60, main_v381, main_v382, main_cst_61, main_v383, main_v384, main_v385, main_v386, main_v387, main_cst_62, main_v388, main_v389, main_cst_63, main_v390, main_v391, main_v392, main_v393, main_cst_64, main_v394, main_v395]
set_option maxRecDepth 8192 in
theorem ops7_1_writes : (ops7_1 : List (HloOp τ sig (Elt F))).Forall fun op => op.writes ⊆ (ops7_1_W.map (Proc.devRef (τ := τ) .tc)).toFinset :=
  ⟨single_sub_of_mem main_v379 (by decide), single_sub_of_mem main_v380 (by decide), single_sub_of_mem main_cst_60 (by decide), single_sub_of_mem main_v381 (by decide), single_sub_of_mem main_v382 (by decide), single_sub_of_mem main_cst_61 (by decide), single_sub_of_mem main_v383 (by decide), single_sub_of_mem main_v384 (by decide), single_sub_of_mem main_v385 (by decide), single_sub_of_mem main_v386 (by decide), single_sub_of_mem main_v387 (by decide), single_sub_of_mem main_cst_62 (by decide), single_sub_of_mem main_v388 (by decide), single_sub_of_mem main_v389 (by decide), single_sub_of_mem main_cst_63 (by decide), single_sub_of_mem main_v390 (by decide), single_sub_of_mem main_v391 (by decide), single_sub_of_mem main_v392 (by decide), single_sub_of_mem main_v393 (by decide), single_sub_of_mem main_cst_64 (by decide), single_sub_of_mem main_v394 (by decide), single_sub_of_mem main_v395 (by decide)⟩

/-- Operations 45 … 67 of window 7. -/
abbrev ops7_2 : List (HloOp τ sig (Elt F)) :=
  [ StableHlo.unary main_v395 main_v396 (Host.rsqrt : (⟨S4096x1, .f32⟩ : BufTy).Contents (Elt F) → (⟨S4096x1, .f32⟩ : BufTy).Contents (Elt F)),
    StableHlo.unary main_v396 main_v397 (broadcastInDim S4096x128 ![0, 1] bcast_S4096x1_S4096x128_0_1 : (⟨S4096x1, .f32⟩ : BufTy).Contents (Elt F) → (⟨S4096x128, .f32⟩ : BufTy).Contents (Elt F)),
    StableHlo.binary main_v393 main_v397 main_v398 (mulf : (⟨S4096x128, .f32⟩ : BufTy).Contents (Elt F) → (⟨S4096x128, .f32⟩ : BufTy).Contents (Elt F) → (⟨S4096x128, .f32⟩ : BufTy).Contents (Elt F)),
    StableHlo.unary main_v244 main_v399 (broadcastInDim S1x128 ![1] bcast_S128_S1x128_1 : (⟨S128, .f32⟩ : BufTy).Contents (Elt F) → (⟨S1x128, .f32⟩ : BufTy).Contents (Elt F)),
    StableHlo.unary main_v399 main_v400 (broadcastInDim S4096x128 ![0, 1] bcast_S1x128_S4096x128_0_1 : (⟨S1x128, .f32⟩ : BufTy).Contents (Elt F) → (⟨S4096x128, .f32⟩ : BufTy).Contents (Elt F)),
    StableHlo.binary main_v398 main_v400 main_v401 (mulf : (⟨S4096x128, .f32⟩ : BufTy).Contents (Elt F) → (⟨S4096x128, .f32⟩ : BufTy).Contents (Elt F) → (⟨S4096x128, .f32⟩ : BufTy).Contents (Elt F)),
    StableHlo.unary main_v246 main_v402 (broadcastInDim S1x128 ![1] bcast_S128_S1x128_1 : (⟨S128, .f32⟩ : BufTy).Contents (Elt F) → (⟨S1x128, .f32⟩ : BufTy).Contents (Elt F)),
    StableHlo.unary main_v402 main_v403 (broadcastInDim S4096x128 ![0, 1] bcast_S1x128_S4096x128_0_1 : (⟨S1x128, .f32⟩ : BufTy).Contents (Elt F) → (⟨S4096x128, .f32⟩ : BufTy).Contents (Elt F)),
    StableHlo.binary main_v401 main_v403 main_v404 (addf : (⟨S4096x128, .f32⟩ : BufTy).Contents (Elt F) → (⟨S4096x128, .f32⟩ : BufTy).Contents (Elt F) → (⟨S4096x128, .f32⟩ : BufTy).Contents (Elt F)),
    StableHlo.nullary main_cst_65 (constant S_ .f32 0x3C23D70A#32),
    StableHlo.TRef.nullary main_call10.cst (constant S_ .f32 0x00000000#32),
    StableHlo.TRef.unary main_call10.cst main_call10.v0 (broadcastInDim S4096x128 ![] bcast_S_S4096x128),
    StableHlo.TRef.binary (.of main_v404 : StableHlo.TRef sig ⟨S4096x128, .f32⟩) main_call10.v0 main_call10.v1 (cmpf .oge),
    StableHlo.TRef.unary (.of main_cst_65 : StableHlo.TRef sig ⟨S_, .f32⟩) main_call10.v2 id,
    StableHlo.TRef.unary main_call10.v2 main_call10.v3 (broadcastInDim S4096x128 ![] bcast_S_S4096x128),
    StableHlo.TRef.binary main_call10.v3 (.of main_v404 : StableHlo.TRef sig ⟨S4096x128, .f32⟩) main_call10.v4 mulf,
    StableHlo.TRef.ternary main_call10.v1 (.of main_v404 : StableHlo.TRef sig ⟨S4096x128, .f32⟩) main_call10.v4 main_call10.call0.v0 select,
    StableHlo.unary main_v248 main_v406 ((transpose S128x128 [1, 0] · transposes_S128x128_S128x128_1_0) : (⟨S128x128, .f32⟩ : BufTy).Contents (Elt F) → (⟨S128x128, .f32⟩ : BufTy).Contents (Elt F)),
    StableHlo.binary main_v405 main_v406 main_v407 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    StableHlo.nullary main_cst_66 (constant S_ .f32 0x00000000#32),
    StableHlo.binary main_v407 main_cst_66 main_v408 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v408 main_v409 (broadcastInDim S4096x1 ![0] bcast_S4096_S4096x1_0 : (⟨S4096, .f32⟩ : BufTy).Contents (Elt F) → (⟨S4096x1, .f32⟩ : BufTy).Contents (Elt F)),
    StableHlo.nullary main_cst_67 (constant S_ .f32 0x43000000#32) ]
abbrev ops7_2_W : List (Ref sig .tc) := [main_v396, main_v397, main_v398, main_v399, main_v400, main_v401, main_v402, main_v403, main_v404, main_cst_65, main_call10_cst, main_call10_v0, main_call10_v1, main_call10_v2, main_call10_v3, main_call10_v4, main_v405, main_v406, main_v407, main_cst_66, main_v408, main_v409, main_cst_67]
set_option maxRecDepth 8192 in
theorem ops7_2_writes : (ops7_2 : List (HloOp τ sig (Elt F))).Forall fun op => op.writes ⊆ (ops7_2_W.map (Proc.devRef (τ := τ) .tc)).toFinset :=
  ⟨single_sub_of_mem main_v396 (by decide), single_sub_of_mem main_v397 (by decide), single_sub_of_mem main_v398 (by decide), single_sub_of_mem main_v399 (by decide), single_sub_of_mem main_v400 (by decide), single_sub_of_mem main_v401 (by decide), single_sub_of_mem main_v402 (by decide), single_sub_of_mem main_v403 (by decide), single_sub_of_mem main_v404 (by decide), single_sub_of_mem main_cst_65 (by decide), single_sub_of_mem main_call10_cst (by decide), single_sub_of_mem main_call10_v0 (by decide), single_sub_of_mem main_call10_v1 (by decide), single_sub_of_mem main_call10_v2 (by decide), single_sub_of_mem main_call10_v3 (by decide), single_sub_of_mem main_call10_v4 (by decide), single_sub_of_mem main_v405 (by decide), single_sub_of_mem main_v406 (by decide), single_sub_of_mem main_v407 (by decide), single_sub_of_mem main_cst_66 (by decide), single_sub_of_mem main_v408 (by decide), single_sub_of_mem main_v409 (by decide), single_sub_of_mem main_cst_67 (by decide)⟩

set_option maxRecDepth 8192 in
theorem ops7_split : (ops7 : List (HloOp τ sig (Elt F))) = ops7_0 ++ (ops7_1 ++ (ops7_2)) := rfl

/-- Operations 0 … 16 of window 8. -/
abbrev ops8_0 : List (HloOp τ sig (Elt F)) :=
  [ StableHlo.unary main_cst_67 main_v410 (broadcastInDim S4096x1 ![] bcast_S_S4096x1 : (⟨S_, .f32⟩ : BufTy).Contents (Elt F) → (⟨S4096x1, .f32⟩ : BufTy).Contents (Elt F)),
    StableHlo.binary main_v409 main_v410 main_v411 (Host.divf : (⟨S4096x1, .f32⟩ : BufTy).Contents (Elt F) → (⟨S4096x1, .f32⟩ : BufTy).Contents (Elt F) → (⟨S4096x1, .f32⟩ : BufTy).Contents (Elt F)),
    StableHlo.unary main_v411 main_v412 (broadcastInDim S4096x128 ![0, 1] bcast_S4096x1_S4096x128_0_1 : (⟨S4096x1, .f32⟩ : BufTy).Contents (Elt F) → (⟨S4096x128, .f32⟩ : BufTy).Contents (Elt F)),
    StableHlo.binary main_v407 main_v412 main_v413 (subf : (⟨S4096x128, .f32⟩ : BufTy).Contents (Elt F) → (⟨S4096x128, .f32⟩ : BufTy).Contents (Elt F) → (⟨S4096x128, .f32⟩ : BufTy).Contents (Elt F)),
    StableHlo.binary main_v413 main_v413 main_v414 (mulf : (⟨S4096x128, .f32⟩ : BufTy).Contents (Elt F) → (⟨S4096x128, .f32⟩ : BufTy).Contents (Elt F) → (⟨S4096x128, .f32⟩ : BufTy).Contents (Elt F)),
    StableHlo.nullary main_cst_68 (constant S_ .f32 0x00000000#32),
    StableHlo.binary main_v414 main_cst_68 main_v415 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.unary main_v415 main_v416 (broadcastInDim S4096x1 ![0] bcast_S4096_S4096x1_0 : (⟨S4096, .f32⟩ : BufTy).Contents (Elt F) → (⟨S4096x1, .f32⟩ : BufTy).Contents (Elt F)),
    StableHlo.nullary main_cst_69 (constant S_ .f32 0x43000000#32),
    StableHlo.unary main_cst_69 main_v417 (broadcastInDim S4096x1 ![] bcast_S_S4096x1 : (⟨S_, .f32⟩ : BufTy).Contents (Elt F) → (⟨S4096x1, .f32⟩ : BufTy).Contents (Elt F)),
    StableHlo.binary main_v416 main_v417 main_v418 (Host.divf : (⟨S4096x1, .f32⟩ : BufTy).Contents (Elt F) → (⟨S4096x1, .f32⟩ : BufTy).Contents (Elt F) → (⟨S4096x1, .f32⟩ : BufTy).Contents (Elt F)),
    StableHlo.unary main_v411 main_v419 (broadcastInDim S4096x128 ![0, 1] bcast_S4096x1_S4096x128_0_1 : (⟨S4096x1, .f32⟩ : BufTy).Contents (Elt F) → (⟨S4096x128, .f32⟩ : BufTy).Contents (Elt F)),
    StableHlo.binary main_v407 main_v419 main_v420 (subf : (⟨S4096x128, .f32⟩ : BufTy).Contents (Elt F) → (⟨S4096x128, .f32⟩ : BufTy).Contents (Elt F) → (⟨S4096x128, .f32⟩ : BufTy).Contents (Elt F)),
    StableHlo.nullary main_cst_70 (constant S_ .f32 0x3727C5AC#32),
    StableHlo.unary main_cst_70 main_v421 (broadcastInDim S4096x1 ![] bcast_S_S4096x1 : (⟨S_, .f32⟩ : BufTy).Contents (Elt F) → (⟨S4096x1, .f32⟩ : BufTy).Contents (Elt F)),
    StableHlo.binary main_v418 main_v421 main_v422 (addf : (⟨S4096x1, .f32⟩ : BufTy).Contents (Elt F) → (⟨S4096x1, .f32⟩ : BufTy).Contents (Elt F) → (⟨S4096x1, .f32⟩ : BufTy).Contents (Elt F)),
    StableHlo.unary main_v422 main_v423 (Host.rsqrt : (⟨S4096x1, .f32⟩ : BufTy).Contents (Elt F) → (⟨S4096x1, .f32⟩ : BufTy).Contents (Elt F)) ]
abbrev ops8_0_W : List (Ref sig .tc) := [main_v410, main_v411, main_v412, main_v413, main_v414, main_cst_68, main_v415, main_v416, main_cst_69, main_v417, main_v418, main_v419, main_v420, main_cst_70, main_v421, main_v422, main_v423]
set_option maxRecDepth 8192 in
theorem ops8_0_writes : (ops8_0 : List (HloOp τ sig (Elt F))).Forall fun op => op.writes ⊆ (ops8_0_W.map (Proc.devRef (τ := τ) .tc)).toFinset :=
  ⟨single_sub_of_mem main_v410 (by decide), single_sub_of_mem main_v411 (by decide), single_sub_of_mem main_v412 (by decide), single_sub_of_mem main_v413 (by decide), single_sub_of_mem main_v414 (by decide), single_sub_of_mem main_cst_68 (by decide), single_sub_of_mem main_v415 (by decide), single_sub_of_mem main_v416 (by decide), single_sub_of_mem main_cst_69 (by decide), single_sub_of_mem main_v417 (by decide), single_sub_of_mem main_v418 (by decide), single_sub_of_mem main_v419 (by decide), single_sub_of_mem main_v420 (by decide), single_sub_of_mem main_cst_70 (by decide), single_sub_of_mem main_v421 (by decide), single_sub_of_mem main_v422 (by decide), single_sub_of_mem main_v423 (by decide)⟩

/-- Operations 17 … 33 of window 8. -/
abbrev ops8_1 : List (HloOp τ sig (Elt F)) :=
  [ StableHlo.unary main_v423 main_v424 (broadcastInDim S4096x128 ![0, 1] bcast_S4096x1_S4096x128_0_1 : (⟨S4096x1, .f32⟩ : BufTy).Contents (Elt F) → (⟨S4096x128, .f32⟩ : BufTy).Contents (Elt F)),
    StableHlo.binary main_v420 main_v424 main_v425 (mulf : (⟨S4096x128, .f32⟩ : BufTy).Contents (Elt F) → (⟨S4096x128, .f32⟩ : BufTy).Contents (Elt F) → (⟨S4096x128, .f32⟩ : BufTy).Contents (Elt F)),
    StableHlo.unary main_v250 main_v426 (broadcastInDim S1x128 ![1] bcast_S128_S1x128_1 : (⟨S128, .f32⟩ : BufTy).Contents (Elt F) → (⟨S1x128, .f32⟩ : BufTy).Contents (Elt F)),
    StableHlo.unary main_v426 main_v427 (broadcastInDim S4096x128 ![0, 1] bcast_S1x128_S4096x128_0_1 : (⟨S1x128, .f32⟩ : BufTy).Contents (Elt F) → (⟨S4096x128, .f32⟩ : BufTy).Contents (Elt F)),
    StableHlo.binary main_v425 main_v427 main_v428 (mulf : (⟨S4096x128, .f32⟩ : BufTy).Contents (Elt F) → (⟨S4096x128, .f32⟩ : BufTy).Contents (Elt F) → (⟨S4096x128, .f32⟩ : BufTy).Contents (Elt F)),
    StableHlo.unary main_v252 main_v429 (broadcastInDim S1x128 ![1] bcast_S128_S1x128_1 : (⟨S128, .f32⟩ : BufTy).Contents (Elt F) → (⟨S1x128, .f32⟩ : BufTy).Contents (Elt F)),
    StableHlo.unary main_v429 main_v430 (broadcastInDim S4096x128 ![0, 1] bcast_S1x128_S4096x128_0_1 : (⟨S1x128, .f32⟩ : BufTy).Contents (Elt F) → (⟨S4096x128, .f32⟩ : BufTy).Contents (Elt F)),
    StableHlo.binary main_v428 main_v430 main_v431 (addf : (⟨S4096x128, .f32⟩ : BufTy).Contents (Elt F) → (⟨S4096x128, .f32⟩ : BufTy).Contents (Elt F) → (⟨S4096x128, .f32⟩ : BufTy).Contents (Elt F)),
    StableHlo.binary main_v431 main_v216 main_v432 (addf : (⟨S4096x128, .f32⟩ : BufTy).Contents (Elt F) → (⟨S4096x128, .f32⟩ : BufTy).Contents (Elt F) → (⟨S4096x128, .f32⟩ : BufTy).Contents (Elt F)),
    StableHlo.nullary main_cst_71 (constant S_ .f32 0x3C23D70A#32),
    StableHlo.TRef.nullary main_call11.cst (constant S_ .f32 0x00000000#32),
    StableHlo.TRef.unary main_call11.cst main_call11.v0 (broadcastInDim S4096x128 ![] bcast_S_S4096x128),
    StableHlo.TRef.binary (.of main_v432 : StableHlo.TRef sig ⟨S4096x128, .f32⟩) main_call11.v0 main_call11.v1 (cmpf .oge),
    StableHlo.TRef.unary (.of main_cst_71 : StableHlo.TRef sig ⟨S_, .f32⟩) main_call11.v2 id,
    StableHlo.TRef.unary main_call11.v2 main_call11.v3 (broadcastInDim S4096x128 ![] bcast_S_S4096x128),
    StableHlo.TRef.binary main_call11.v3 (.of main_v432 : StableHlo.TRef sig ⟨S4096x128, .f32⟩) main_call11.v4 mulf,
    StableHlo.TRef.ternary main_call11.v1 (.of main_v432 : StableHlo.TRef sig ⟨S4096x128, .f32⟩) main_call11.v4 main_call11.call0.v0 select ]
abbrev ops8_1_W : List (Ref sig .tc) := [main_v424, main_v425, main_v426, main_v427, main_v428, main_v429, main_v430, main_v431, main_v432, main_cst_71, main_call11_cst, main_call11_v0, main_call11_v1, main_call11_v2, main_call11_v3, main_call11_v4, main_v433]
set_option maxRecDepth 8192 in
theorem ops8_1_writes : (ops8_1 : List (HloOp τ sig (Elt F))).Forall fun op => op.writes ⊆ (ops8_1_W.map (Proc.devRef (τ := τ) .tc)).toFinset :=
  ⟨single_sub_of_mem main_v424 (by decide), single_sub_of_mem main_v425 (by decide), single_sub_of_mem main_v426 (by decide), single_sub_of_mem main_v427 (by decide), single_sub_of_mem main_v428 (by decide), single_sub_of_mem main_v429 (by decide), single_sub_of_mem main_v430 (by decide), single_sub_of_mem main_v431 (by decide), single_sub_of_mem main_v432 (by decide), single_sub_of_mem main_cst_71 (by decide), single_sub_of_mem main_call11_cst (by decide), single_sub_of_mem main_call11_v0 (by decide), single_sub_of_mem main_call11_v1 (by decide), single_sub_of_mem main_call11_v2 (by decide), single_sub_of_mem main_call11_v3 (by decide), single_sub_of_mem main_call11_v4 (by decide), single_sub_of_mem main_v433 (by decide)⟩

set_option maxRecDepth 8192 in
theorem ops8_split : (ops8 : List (HloOp τ sig (Elt F))) = ops8_0 ++ (ops8_1) := rfl

/-! ## The contents stretch by stretch -/

/-- The device's buffer contents before the first stretch. -/
def u0 (V0 : Valuation τ sig (Elt F)) : Valuation τ sig (Elt F) := V0
/-- The device's buffer contents after the first 1 stretch. -/
def u1 (V0 : Valuation τ sig (Elt F)) : Valuation τ sig (Elt F) := after ops0_0 (u0 V0)
theorem u1_keep (V0 : Valuation τ sig (Elt F)) (r : Ref sig .tc) (h : r ∉ ops0_0_W) :
    u1 V0 (Proc.devRef .tc r) = u0 V0 (Proc.devRef .tc r) :=
  after_of_writes_sub ops0_0 _ ops0_0_writes h
/-- The device's buffer contents after the first 2 stretches. -/
def u2 (V0 : Valuation τ sig (Elt F)) : Valuation τ sig (Elt F) := after ops0_1 (u1 V0)
theorem u2_keep (V0 : Valuation τ sig (Elt F)) (r : Ref sig .tc) (h : r ∉ ops0_1_W) :
    u2 V0 (Proc.devRef .tc r) = u1 V0 (Proc.devRef .tc r) :=
  after_of_writes_sub ops0_1 _ ops0_1_writes h
/-- The device's buffer contents after the first 3 stretches. -/
def u3 (V0 : Valuation τ sig (Elt F)) : Valuation τ sig (Elt F) := after ops0_2 (u2 V0)
theorem u3_keep (V0 : Valuation τ sig (Elt F)) (r : Ref sig .tc) (h : r ∉ ops0_2_W) :
    u3 V0 (Proc.devRef .tc r) = u2 V0 (Proc.devRef .tc r) :=
  after_of_writes_sub ops0_2 _ ops0_2_writes h
/-- The device's buffer contents after the first 4 stretches. -/
def u4 (V0 : Valuation τ sig (Elt F)) : Valuation τ sig (Elt F) := after ops1_0 (u3 V0)
theorem u4_keep (V0 : Valuation τ sig (Elt F)) (r : Ref sig .tc) (h : r ∉ ops1_0_W) :
    u4 V0 (Proc.devRef .tc r) = u3 V0 (Proc.devRef .tc r) :=
  after_of_writes_sub ops1_0 _ ops1_0_writes h
/-- The device's buffer contents after the first 5 stretches. -/
def u5 (V0 : Valuation τ sig (Elt F)) : Valuation τ sig (Elt F) := after ops1_1 (u4 V0)
theorem u5_keep (V0 : Valuation τ sig (Elt F)) (r : Ref sig .tc) (h : r ∉ ops1_1_W) :
    u5 V0 (Proc.devRef .tc r) = u4 V0 (Proc.devRef .tc r) :=
  after_of_writes_sub ops1_1 _ ops1_1_writes h
/-- The device's buffer contents after the first 6 stretches. -/
def u6 (V0 : Valuation τ sig (Elt F)) : Valuation τ sig (Elt F) := after ops1_2 (u5 V0)
theorem u6_keep (V0 : Valuation τ sig (Elt F)) (r : Ref sig .tc) (h : r ∉ ops1_2_W) :
    u6 V0 (Proc.devRef .tc r) = u5 V0 (Proc.devRef .tc r) :=
  after_of_writes_sub ops1_2 _ ops1_2_writes h
/-- The device's buffer contents after the first 7 stretches. -/
def u7 (V0 : Valuation τ sig (Elt F)) : Valuation τ sig (Elt F) := after ops2_0 (u6 V0)
theorem u7_keep (V0 : Valuation τ sig (Elt F)) (r : Ref sig .tc) (h : r ∉ ops2_0_W) :
    u7 V0 (Proc.devRef .tc r) = u6 V0 (Proc.devRef .tc r) :=
  after_of_writes_sub ops2_0 _ ops2_0_writes h
/-- The device's buffer contents after the first 8 stretches. -/
def u8 (V0 : Valuation τ sig (Elt F)) : Valuation τ sig (Elt F) := after ops2_1 (u7 V0)
theorem u8_keep (V0 : Valuation τ sig (Elt F)) (r : Ref sig .tc) (h : r ∉ ops2_1_W) :
    u8 V0 (Proc.devRef .tc r) = u7 V0 (Proc.devRef .tc r) :=
  after_of_writes_sub ops2_1 _ ops2_1_writes h
/-- The device's buffer contents after the first 9 stretches. -/
def u9 (V0 : Valuation τ sig (Elt F)) : Valuation τ sig (Elt F) := after ops2_2 (u8 V0)
theorem u9_keep (V0 : Valuation τ sig (Elt F)) (r : Ref sig .tc) (h : r ∉ ops2_2_W) :
    u9 V0 (Proc.devRef .tc r) = u8 V0 (Proc.devRef .tc r) :=
  after_of_writes_sub ops2_2 _ ops2_2_writes h
/-- The device's buffer contents after the first 10 stretches. -/
def u10 (V0 : Valuation τ sig (Elt F)) : Valuation τ sig (Elt F) := after ops2_3 (u9 V0)
theorem u10_keep (V0 : Valuation τ sig (Elt F)) (r : Ref sig .tc) (h : r ∉ ops2_3_W) :
    u10 V0 (Proc.devRef .tc r) = u9 V0 (Proc.devRef .tc r) :=
  after_of_writes_sub ops2_3 _ ops2_3_writes h
/-- The device's buffer contents after the first 11 stretches. -/
def u11 (V0 : Valuation τ sig (Elt F)) : Valuation τ sig (Elt F) := after ops3_0 (u10 V0)
theorem u11_keep (V0 : Valuation τ sig (Elt F)) (r : Ref sig .tc) (h : r ∉ ops3_0_W) :
    u11 V0 (Proc.devRef .tc r) = u10 V0 (Proc.devRef .tc r) :=
  after_of_writes_sub ops3_0 _ ops3_0_writes h
/-- The device's buffer contents after the first 12 stretches. -/
def u12 (V0 : Valuation τ sig (Elt F)) : Valuation τ sig (Elt F) := after ops3_1 (u11 V0)
theorem u12_keep (V0 : Valuation τ sig (Elt F)) (r : Ref sig .tc) (h : r ∉ ops3_1_W) :
    u12 V0 (Proc.devRef .tc r) = u11 V0 (Proc.devRef .tc r) :=
  after_of_writes_sub ops3_1 _ ops3_1_writes h
/-- The device's buffer contents after the first 13 stretches. -/
def u13 (V0 : Valuation τ sig (Elt F)) : Valuation τ sig (Elt F) := after ops3_2 (u12 V0)
theorem u13_keep (V0 : Valuation τ sig (Elt F)) (r : Ref sig .tc) (h : r ∉ ops3_2_W) :
    u13 V0 (Proc.devRef .tc r) = u12 V0 (Proc.devRef .tc r) :=
  after_of_writes_sub ops3_2 _ ops3_2_writes h
/-- The device's buffer contents after the first 14 stretches. -/
def u14 (V0 : Valuation τ sig (Elt F)) : Valuation τ sig (Elt F) := after ops4_0 (u13 V0)
theorem u14_keep (V0 : Valuation τ sig (Elt F)) (r : Ref sig .tc) (h : r ∉ ops4_0_W) :
    u14 V0 (Proc.devRef .tc r) = u13 V0 (Proc.devRef .tc r) :=
  after_of_writes_sub ops4_0 _ ops4_0_writes h
/-- The device's buffer contents after the first 15 stretches. -/
def u15 (V0 : Valuation τ sig (Elt F)) : Valuation τ sig (Elt F) := after ops4_1 (u14 V0)
theorem u15_keep (V0 : Valuation τ sig (Elt F)) (r : Ref sig .tc) (h : r ∉ ops4_1_W) :
    u15 V0 (Proc.devRef .tc r) = u14 V0 (Proc.devRef .tc r) :=
  after_of_writes_sub ops4_1 _ ops4_1_writes h
/-- The device's buffer contents after the first 16 stretches. -/
def u16 (V0 : Valuation τ sig (Elt F)) : Valuation τ sig (Elt F) := after ops4_2 (u15 V0)
theorem u16_keep (V0 : Valuation τ sig (Elt F)) (r : Ref sig .tc) (h : r ∉ ops4_2_W) :
    u16 V0 (Proc.devRef .tc r) = u15 V0 (Proc.devRef .tc r) :=
  after_of_writes_sub ops4_2 _ ops4_2_writes h
/-- The device's buffer contents after the first 17 stretches. -/
def u17 (V0 : Valuation τ sig (Elt F)) : Valuation τ sig (Elt F) := after ops5_0 (u16 V0)
theorem u17_keep (V0 : Valuation τ sig (Elt F)) (r : Ref sig .tc) (h : r ∉ ops5_0_W) :
    u17 V0 (Proc.devRef .tc r) = u16 V0 (Proc.devRef .tc r) :=
  after_of_writes_sub ops5_0 _ ops5_0_writes h
/-- The device's buffer contents after the first 18 stretches. -/
def u18 (V0 : Valuation τ sig (Elt F)) : Valuation τ sig (Elt F) := after ops5_1 (u17 V0)
theorem u18_keep (V0 : Valuation τ sig (Elt F)) (r : Ref sig .tc) (h : r ∉ ops5_1_W) :
    u18 V0 (Proc.devRef .tc r) = u17 V0 (Proc.devRef .tc r) :=
  after_of_writes_sub ops5_1 _ ops5_1_writes h
/-- The device's buffer contents after the first 19 stretches. -/
def u19 (V0 : Valuation τ sig (Elt F)) : Valuation τ sig (Elt F) := after ops5_2 (u18 V0)
theorem u19_keep (V0 : Valuation τ sig (Elt F)) (r : Ref sig .tc) (h : r ∉ ops5_2_W) :
    u19 V0 (Proc.devRef .tc r) = u18 V0 (Proc.devRef .tc r) :=
  after_of_writes_sub ops5_2 _ ops5_2_writes h
/-- The device's buffer contents after the first 20 stretches. -/
def u20 (V0 : Valuation τ sig (Elt F)) : Valuation τ sig (Elt F) := after ops6_0 (u19 V0)
theorem u20_keep (V0 : Valuation τ sig (Elt F)) (r : Ref sig .tc) (h : r ∉ ops6_0_W) :
    u20 V0 (Proc.devRef .tc r) = u19 V0 (Proc.devRef .tc r) :=
  after_of_writes_sub ops6_0 _ ops6_0_writes h
/-- The device's buffer contents after the first 21 stretches. -/
def u21 (V0 : Valuation τ sig (Elt F)) : Valuation τ sig (Elt F) := after ops6_1 (u20 V0)
theorem u21_keep (V0 : Valuation τ sig (Elt F)) (r : Ref sig .tc) (h : r ∉ ops6_1_W) :
    u21 V0 (Proc.devRef .tc r) = u20 V0 (Proc.devRef .tc r) :=
  after_of_writes_sub ops6_1 _ ops6_1_writes h
/-- The device's buffer contents after the first 22 stretches. -/
def u22 (V0 : Valuation τ sig (Elt F)) : Valuation τ sig (Elt F) := after ops6_2 (u21 V0)
theorem u22_keep (V0 : Valuation τ sig (Elt F)) (r : Ref sig .tc) (h : r ∉ ops6_2_W) :
    u22 V0 (Proc.devRef .tc r) = u21 V0 (Proc.devRef .tc r) :=
  after_of_writes_sub ops6_2 _ ops6_2_writes h
/-- The device's buffer contents after the first 23 stretches. -/
def u23 (V0 : Valuation τ sig (Elt F)) : Valuation τ sig (Elt F) := after ops6_3 (u22 V0)
theorem u23_keep (V0 : Valuation τ sig (Elt F)) (r : Ref sig .tc) (h : r ∉ ops6_3_W) :
    u23 V0 (Proc.devRef .tc r) = u22 V0 (Proc.devRef .tc r) :=
  after_of_writes_sub ops6_3 _ ops6_3_writes h
/-- The device's buffer contents after the first 24 stretches. -/
def u24 (V0 : Valuation τ sig (Elt F)) : Valuation τ sig (Elt F) := after ops7_0 (u23 V0)
theorem u24_keep (V0 : Valuation τ sig (Elt F)) (r : Ref sig .tc) (h : r ∉ ops7_0_W) :
    u24 V0 (Proc.devRef .tc r) = u23 V0 (Proc.devRef .tc r) :=
  after_of_writes_sub ops7_0 _ ops7_0_writes h
/-- The device's buffer contents after the first 25 stretches. -/
def u25 (V0 : Valuation τ sig (Elt F)) : Valuation τ sig (Elt F) := after ops7_1 (u24 V0)
theorem u25_keep (V0 : Valuation τ sig (Elt F)) (r : Ref sig .tc) (h : r ∉ ops7_1_W) :
    u25 V0 (Proc.devRef .tc r) = u24 V0 (Proc.devRef .tc r) :=
  after_of_writes_sub ops7_1 _ ops7_1_writes h
/-- The device's buffer contents after the first 26 stretches. -/
def u26 (V0 : Valuation τ sig (Elt F)) : Valuation τ sig (Elt F) := after ops7_2 (u25 V0)
theorem u26_keep (V0 : Valuation τ sig (Elt F)) (r : Ref sig .tc) (h : r ∉ ops7_2_W) :
    u26 V0 (Proc.devRef .tc r) = u25 V0 (Proc.devRef .tc r) :=
  after_of_writes_sub ops7_2 _ ops7_2_writes h
/-- The device's buffer contents after the first 27 stretches. -/
def u27 (V0 : Valuation τ sig (Elt F)) : Valuation τ sig (Elt F) := after ops8_0 (u26 V0)
theorem u27_keep (V0 : Valuation τ sig (Elt F)) (r : Ref sig .tc) (h : r ∉ ops8_0_W) :
    u27 V0 (Proc.devRef .tc r) = u26 V0 (Proc.devRef .tc r) :=
  after_of_writes_sub ops8_0 _ ops8_0_writes h
/-- The device's buffer contents after the first 28 stretches. -/
def u28 (V0 : Valuation τ sig (Elt F)) : Valuation τ sig (Elt F) := after ops8_1 (u27 V0)
theorem u28_keep (V0 : Valuation τ sig (Elt F)) (r : Ref sig .tc) (h : r ∉ ops8_1_W) :
    u28 V0 (Proc.devRef .tc r) = u27 V0 (Proc.devRef .tc r) :=
  after_of_writes_sub ops8_1 _ ops8_1_writes h

/-- The whole list's contents are the last stretch's. -/
theorem after_ops_u (V0 : Valuation τ sig (Elt F)) : after ops V0 = u28 V0 := by
  simp only [ops, ops0_split, ops1_split, ops2_split, ops3_split, ops4_split, ops5_split, ops6_split, ops7_split, ops8_split, StableHlo.after_append]
  rfl

/-! ## What each stretch leaves at the buffers later stretches read -/

theorem u0_main_arg0 (V0 : Valuation τ sig (Elt F)) : u0 V0 (no_index (Proc.devRef .tc main_arg0)) = V0 (Proc.devRef .tc main_arg0) := rfl
theorem u0_main_arg1 (V0 : Valuation τ sig (Elt F)) : u0 V0 (no_index (Proc.devRef .tc main_arg1)) = V0 (Proc.devRef .tc main_arg1) := rfl
theorem u0_main_arg2 (V0 : Valuation τ sig (Elt F)) : u0 V0 (no_index (Proc.devRef .tc main_arg2)) = V0 (Proc.devRef .tc main_arg2) := rfl
theorem u0_main_arg3 (V0 : Valuation τ sig (Elt F)) : u0 V0 (no_index (Proc.devRef .tc main_arg3)) = V0 (Proc.devRef .tc main_arg3) := rfl
theorem u0_main_arg4 (V0 : Valuation τ sig (Elt F)) : u0 V0 (no_index (Proc.devRef .tc main_arg4)) = V0 (Proc.devRef .tc main_arg4) := rfl
theorem u0_main_arg5 (V0 : Valuation τ sig (Elt F)) : u0 V0 (no_index (Proc.devRef .tc main_arg5)) = V0 (Proc.devRef .tc main_arg5) := rfl
theorem u0_main_arg6 (V0 : Valuation τ sig (Elt F)) : u0 V0 (no_index (Proc.devRef .tc main_arg6)) = V0 (Proc.devRef .tc main_arg6) := rfl
theorem u0_main_arg7 (V0 : Valuation τ sig (Elt F)) : u0 V0 (no_index (Proc.devRef .tc main_arg7)) = V0 (Proc.devRef .tc main_arg7) := rfl
theorem u0_main_arg8 (V0 : Valuation τ sig (Elt F)) : u0 V0 (no_index (Proc.devRef .tc main_arg8)) = V0 (Proc.devRef .tc main_arg8) := rfl
theorem u0_main_arg9 (V0 : Valuation τ sig (Elt F)) : u0 V0 (no_index (Proc.devRef .tc main_arg9)) = V0 (Proc.devRef .tc main_arg9) := rfl
theorem u0_main_arg10 (V0 : Valuation τ sig (Elt F)) : u0 V0 (no_index (Proc.devRef .tc main_arg10)) = V0 (Proc.devRef .tc main_arg10) := rfl
theorem u0_main_arg11 (V0 : Valuation τ sig (Elt F)) : u0 V0 (no_index (Proc.devRef .tc main_arg11)) = V0 (Proc.devRef .tc main_arg11) := rfl
theorem u0_main_arg12 (V0 : Valuation τ sig (Elt F)) : u0 V0 (no_index (Proc.devRef .tc main_arg12)) = V0 (Proc.devRef .tc main_arg12) := rfl
theorem u0_main_arg13 (V0 : Valuation τ sig (Elt F)) : u0 V0 (no_index (Proc.devRef .tc main_arg13)) = V0 (Proc.devRef .tc main_arg13) := rfl
theorem u0_main_arg14 (V0 : Valuation τ sig (Elt F)) : u0 V0 (no_index (Proc.devRef .tc main_arg14)) = V0 (Proc.devRef .tc main_arg14) := rfl
theorem u0_main_arg15 (V0 : Valuation τ sig (Elt F)) : u0 V0 (no_index (Proc.devRef .tc main_arg15)) = V0 (Proc.devRef .tc main_arg15) := rfl
theorem u0_main_arg16 (V0 : Valuation τ sig (Elt F)) : u0 V0 (no_index (Proc.devRef .tc main_arg16)) = V0 (Proc.devRef .tc main_arg16) := rfl
theorem u0_main_arg17 (V0 : Valuation τ sig (Elt F)) : u0 V0 (no_index (Proc.devRef .tc main_arg17)) = V0 (Proc.devRef .tc main_arg17) := rfl
theorem u0_main_arg18 (V0 : Valuation τ sig (Elt F)) : u0 V0 (no_index (Proc.devRef .tc main_arg18)) = V0 (Proc.devRef .tc main_arg18) := rfl
theorem u0_main_arg19 (V0 : Valuation τ sig (Elt F)) : u0 V0 (no_index (Proc.devRef .tc main_arg19)) = V0 (Proc.devRef .tc main_arg19) := rfl
theorem u0_main_arg20 (V0 : Valuation τ sig (Elt F)) : u0 V0 (no_index (Proc.devRef .tc main_arg20)) = V0 (Proc.devRef .tc main_arg20) := rfl
theorem u0_main_arg21 (V0 : Valuation τ sig (Elt F)) : u0 V0 (no_index (Proc.devRef .tc main_arg21)) = V0 (Proc.devRef .tc main_arg21) := rfl

theorem u1_main_arg0 (V0 : Valuation τ sig (Elt F)) : u1 V0 (no_index (Proc.devRef .tc main_arg0)) = V0 (Proc.devRef .tc main_arg0) :=
  (u1_keep V0 main_arg0 (by decide)).trans (u0_main_arg0 V0)
theorem u1_main_arg1 (V0 : Valuation τ sig (Elt F)) : u1 V0 (no_index (Proc.devRef .tc main_arg1)) = V0 (Proc.devRef .tc main_arg1) :=
  (u1_keep V0 main_arg1 (by decide)).trans (u0_main_arg1 V0)
theorem u1_main_arg2 (V0 : Valuation τ sig (Elt F)) : u1 V0 (no_index (Proc.devRef .tc main_arg2)) = V0 (Proc.devRef .tc main_arg2) :=
  (u1_keep V0 main_arg2 (by decide)).trans (u0_main_arg2 V0)
theorem u1_main_arg3 (V0 : Valuation τ sig (Elt F)) : u1 V0 (no_index (Proc.devRef .tc main_arg3)) = V0 (Proc.devRef .tc main_arg3) :=
  (u1_keep V0 main_arg3 (by decide)).trans (u0_main_arg3 V0)
theorem u1_main_arg4 (V0 : Valuation τ sig (Elt F)) : u1 V0 (no_index (Proc.devRef .tc main_arg4)) = V0 (Proc.devRef .tc main_arg4) :=
  (u1_keep V0 main_arg4 (by decide)).trans (u0_main_arg4 V0)
theorem u1_main_arg5 (V0 : Valuation τ sig (Elt F)) : u1 V0 (no_index (Proc.devRef .tc main_arg5)) = V0 (Proc.devRef .tc main_arg5) :=
  (u1_keep V0 main_arg5 (by decide)).trans (u0_main_arg5 V0)
theorem u1_main_arg6 (V0 : Valuation τ sig (Elt F)) : u1 V0 (no_index (Proc.devRef .tc main_arg6)) = V0 (Proc.devRef .tc main_arg6) :=
  (u1_keep V0 main_arg6 (by decide)).trans (u0_main_arg6 V0)
theorem u1_main_arg7 (V0 : Valuation τ sig (Elt F)) : u1 V0 (no_index (Proc.devRef .tc main_arg7)) = V0 (Proc.devRef .tc main_arg7) :=
  (u1_keep V0 main_arg7 (by decide)).trans (u0_main_arg7 V0)
theorem u1_main_arg8 (V0 : Valuation τ sig (Elt F)) : u1 V0 (no_index (Proc.devRef .tc main_arg8)) = V0 (Proc.devRef .tc main_arg8) :=
  (u1_keep V0 main_arg8 (by decide)).trans (u0_main_arg8 V0)
theorem u1_main_arg9 (V0 : Valuation τ sig (Elt F)) : u1 V0 (no_index (Proc.devRef .tc main_arg9)) = V0 (Proc.devRef .tc main_arg9) :=
  (u1_keep V0 main_arg9 (by decide)).trans (u0_main_arg9 V0)
theorem u1_main_arg10 (V0 : Valuation τ sig (Elt F)) : u1 V0 (no_index (Proc.devRef .tc main_arg10)) = V0 (Proc.devRef .tc main_arg10) :=
  (u1_keep V0 main_arg10 (by decide)).trans (u0_main_arg10 V0)
theorem u1_main_arg11 (V0 : Valuation τ sig (Elt F)) : u1 V0 (no_index (Proc.devRef .tc main_arg11)) = V0 (Proc.devRef .tc main_arg11) :=
  (u1_keep V0 main_arg11 (by decide)).trans (u0_main_arg11 V0)
theorem u1_main_arg12 (V0 : Valuation τ sig (Elt F)) : u1 V0 (no_index (Proc.devRef .tc main_arg12)) = V0 (Proc.devRef .tc main_arg12) :=
  (u1_keep V0 main_arg12 (by decide)).trans (u0_main_arg12 V0)
theorem u1_main_arg13 (V0 : Valuation τ sig (Elt F)) : u1 V0 (no_index (Proc.devRef .tc main_arg13)) = V0 (Proc.devRef .tc main_arg13) :=
  (u1_keep V0 main_arg13 (by decide)).trans (u0_main_arg13 V0)
theorem u1_main_arg14 (V0 : Valuation τ sig (Elt F)) : u1 V0 (no_index (Proc.devRef .tc main_arg14)) = V0 (Proc.devRef .tc main_arg14) :=
  (u1_keep V0 main_arg14 (by decide)).trans (u0_main_arg14 V0)
theorem u1_main_arg15 (V0 : Valuation τ sig (Elt F)) : u1 V0 (no_index (Proc.devRef .tc main_arg15)) = V0 (Proc.devRef .tc main_arg15) :=
  (u1_keep V0 main_arg15 (by decide)).trans (u0_main_arg15 V0)
theorem u1_main_arg16 (V0 : Valuation τ sig (Elt F)) : u1 V0 (no_index (Proc.devRef .tc main_arg16)) = V0 (Proc.devRef .tc main_arg16) :=
  (u1_keep V0 main_arg16 (by decide)).trans (u0_main_arg16 V0)
theorem u1_main_arg17 (V0 : Valuation τ sig (Elt F)) : u1 V0 (no_index (Proc.devRef .tc main_arg17)) = V0 (Proc.devRef .tc main_arg17) :=
  (u1_keep V0 main_arg17 (by decide)).trans (u0_main_arg17 V0)
theorem u1_main_arg18 (V0 : Valuation τ sig (Elt F)) : u1 V0 (no_index (Proc.devRef .tc main_arg18)) = V0 (Proc.devRef .tc main_arg18) :=
  (u1_keep V0 main_arg18 (by decide)).trans (u0_main_arg18 V0)
theorem u1_main_arg19 (V0 : Valuation τ sig (Elt F)) : u1 V0 (no_index (Proc.devRef .tc main_arg19)) = V0 (Proc.devRef .tc main_arg19) :=
  (u1_keep V0 main_arg19 (by decide)).trans (u0_main_arg19 V0)
theorem u1_main_arg20 (V0 : Valuation τ sig (Elt F)) : u1 V0 (no_index (Proc.devRef .tc main_arg20)) = V0 (Proc.devRef .tc main_arg20) :=
  (u1_keep V0 main_arg20 (by decide)).trans (u0_main_arg20 V0)
theorem u1_main_arg21 (V0 : Valuation τ sig (Elt F)) : u1 V0 (no_index (Proc.devRef .tc main_arg21)) = V0 (Proc.devRef .tc main_arg21) :=
  (u1_keep V0 main_arg21 (by decide)).trans (u0_main_arg21 V0)
set_option maxRecDepth 8192 in
set_option maxHeartbeats 4000000 in
theorem u1_main_v1 (V0 : Valuation τ sig (Elt F)) : u1 V0 (no_index (Proc.devRef .tc main_v1)) = res_main_v1 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl
set_option maxRecDepth 8192 in
set_option maxHeartbeats 4000000 in
theorem u1_main_v3 (V0 : Valuation τ sig (Elt F)) : u1 V0 (no_index (Proc.devRef .tc main_v3)) = res_main_v3 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl
set_option maxRecDepth 8192 in
set_option maxHeartbeats 4000000 in
theorem u1_main_v5 (V0 : Valuation τ sig (Elt F)) : u1 V0 (no_index (Proc.devRef .tc main_v5)) = res_main_v5 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl
set_option maxRecDepth 8192 in
set_option maxHeartbeats 4000000 in
theorem u1_main_v7 (V0 : Valuation τ sig (Elt F)) : u1 V0 (no_index (Proc.devRef .tc main_v7)) = res_main_v7 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl
set_option maxRecDepth 8192 in
set_option maxHeartbeats 4000000 in
theorem u1_main_v9 (V0 : Valuation τ sig (Elt F)) : u1 V0 (no_index (Proc.devRef .tc main_v9)) = res_main_v9 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl
set_option maxRecDepth 8192 in
set_option maxHeartbeats 4000000 in
theorem u1_main_v11 (V0 : Valuation τ sig (Elt F)) : u1 V0 (no_index (Proc.devRef .tc main_v11)) = res_main_v11 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl
set_option maxRecDepth 8192 in
set_option maxHeartbeats 4000000 in
theorem u1_main_v13 (V0 : Valuation τ sig (Elt F)) : u1 V0 (no_index (Proc.devRef .tc main_v13)) = res_main_v13 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl
set_option maxRecDepth 8192 in
set_option maxHeartbeats 4000000 in
theorem u1_main_v15 (V0 : Valuation τ sig (Elt F)) : u1 V0 (no_index (Proc.devRef .tc main_v15)) = res_main_v15 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl
set_option maxRecDepth 8192 in
set_option maxHeartbeats 4000000 in
theorem u1_main_v17 (V0 : Valuation τ sig (Elt F)) : u1 V0 (no_index (Proc.devRef .tc main_v17)) = res_main_v17 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl
set_option maxRecDepth 8192 in
set_option maxHeartbeats 4000000 in
theorem u1_main_v19 (V0 : Valuation τ sig (Elt F)) : u1 V0 (no_index (Proc.devRef .tc main_v19)) = res_main_v19 V0 := by
  unfold u1
  simp only [ops0_0]
  after_results_simp
  try simp only [u0_main_arg4, u0_main_arg5, u0_main_arg6, u0_main_arg7, u0_main_arg8, u0_main_arg9, u0_main_arg10, u0_main_arg11, u0_main_arg12, u0_main_arg13]
  all_goals rfl

theorem u2_main_arg0 (V0 : Valuation τ sig (Elt F)) : u2 V0 (no_index (Proc.devRef .tc main_arg0)) = V0 (Proc.devRef .tc main_arg0) :=
  (u2_keep V0 main_arg0 (by decide)).trans (u1_main_arg0 V0)
theorem u2_main_arg1 (V0 : Valuation τ sig (Elt F)) : u2 V0 (no_index (Proc.devRef .tc main_arg1)) = V0 (Proc.devRef .tc main_arg1) :=
  (u2_keep V0 main_arg1 (by decide)).trans (u1_main_arg1 V0)
theorem u2_main_arg2 (V0 : Valuation τ sig (Elt F)) : u2 V0 (no_index (Proc.devRef .tc main_arg2)) = V0 (Proc.devRef .tc main_arg2) :=
  (u2_keep V0 main_arg2 (by decide)).trans (u1_main_arg2 V0)
theorem u2_main_arg3 (V0 : Valuation τ sig (Elt F)) : u2 V0 (no_index (Proc.devRef .tc main_arg3)) = V0 (Proc.devRef .tc main_arg3) :=
  (u2_keep V0 main_arg3 (by decide)).trans (u1_main_arg3 V0)
theorem u2_main_arg4 (V0 : Valuation τ sig (Elt F)) : u2 V0 (no_index (Proc.devRef .tc main_arg4)) = V0 (Proc.devRef .tc main_arg4) :=
  (u2_keep V0 main_arg4 (by decide)).trans (u1_main_arg4 V0)
theorem u2_main_arg5 (V0 : Valuation τ sig (Elt F)) : u2 V0 (no_index (Proc.devRef .tc main_arg5)) = V0 (Proc.devRef .tc main_arg5) :=
  (u2_keep V0 main_arg5 (by decide)).trans (u1_main_arg5 V0)
theorem u2_main_arg6 (V0 : Valuation τ sig (Elt F)) : u2 V0 (no_index (Proc.devRef .tc main_arg6)) = V0 (Proc.devRef .tc main_arg6) :=
  (u2_keep V0 main_arg6 (by decide)).trans (u1_main_arg6 V0)
theorem u2_main_arg7 (V0 : Valuation τ sig (Elt F)) : u2 V0 (no_index (Proc.devRef .tc main_arg7)) = V0 (Proc.devRef .tc main_arg7) :=
  (u2_keep V0 main_arg7 (by decide)).trans (u1_main_arg7 V0)
theorem u2_main_arg8 (V0 : Valuation τ sig (Elt F)) : u2 V0 (no_index (Proc.devRef .tc main_arg8)) = V0 (Proc.devRef .tc main_arg8) :=
  (u2_keep V0 main_arg8 (by decide)).trans (u1_main_arg8 V0)
theorem u2_main_arg9 (V0 : Valuation τ sig (Elt F)) : u2 V0 (no_index (Proc.devRef .tc main_arg9)) = V0 (Proc.devRef .tc main_arg9) :=
  (u2_keep V0 main_arg9 (by decide)).trans (u1_main_arg9 V0)
theorem u2_main_arg10 (V0 : Valuation τ sig (Elt F)) : u2 V0 (no_index (Proc.devRef .tc main_arg10)) = V0 (Proc.devRef .tc main_arg10) :=
  (u2_keep V0 main_arg10 (by decide)).trans (u1_main_arg10 V0)
theorem u2_main_arg11 (V0 : Valuation τ sig (Elt F)) : u2 V0 (no_index (Proc.devRef .tc main_arg11)) = V0 (Proc.devRef .tc main_arg11) :=
  (u2_keep V0 main_arg11 (by decide)).trans (u1_main_arg11 V0)
theorem u2_main_arg12 (V0 : Valuation τ sig (Elt F)) : u2 V0 (no_index (Proc.devRef .tc main_arg12)) = V0 (Proc.devRef .tc main_arg12) :=
  (u2_keep V0 main_arg12 (by decide)).trans (u1_main_arg12 V0)
theorem u2_main_arg13 (V0 : Valuation τ sig (Elt F)) : u2 V0 (no_index (Proc.devRef .tc main_arg13)) = V0 (Proc.devRef .tc main_arg13) :=
  (u2_keep V0 main_arg13 (by decide)).trans (u1_main_arg13 V0)
theorem u2_main_arg14 (V0 : Valuation τ sig (Elt F)) : u2 V0 (no_index (Proc.devRef .tc main_arg14)) = V0 (Proc.devRef .tc main_arg14) :=
  (u2_keep V0 main_arg14 (by decide)).trans (u1_main_arg14 V0)
theorem u2_main_arg15 (V0 : Valuation τ sig (Elt F)) : u2 V0 (no_index (Proc.devRef .tc main_arg15)) = V0 (Proc.devRef .tc main_arg15) :=
  (u2_keep V0 main_arg15 (by decide)).trans (u1_main_arg15 V0)
theorem u2_main_arg16 (V0 : Valuation τ sig (Elt F)) : u2 V0 (no_index (Proc.devRef .tc main_arg16)) = V0 (Proc.devRef .tc main_arg16) :=
  (u2_keep V0 main_arg16 (by decide)).trans (u1_main_arg16 V0)
theorem u2_main_arg17 (V0 : Valuation τ sig (Elt F)) : u2 V0 (no_index (Proc.devRef .tc main_arg17)) = V0 (Proc.devRef .tc main_arg17) :=
  (u2_keep V0 main_arg17 (by decide)).trans (u1_main_arg17 V0)
theorem u2_main_arg18 (V0 : Valuation τ sig (Elt F)) : u2 V0 (no_index (Proc.devRef .tc main_arg18)) = V0 (Proc.devRef .tc main_arg18) :=
  (u2_keep V0 main_arg18 (by decide)).trans (u1_main_arg18 V0)
theorem u2_main_arg19 (V0 : Valuation τ sig (Elt F)) : u2 V0 (no_index (Proc.devRef .tc main_arg19)) = V0 (Proc.devRef .tc main_arg19) :=
  (u2_keep V0 main_arg19 (by decide)).trans (u1_main_arg19 V0)
theorem u2_main_arg20 (V0 : Valuation τ sig (Elt F)) : u2 V0 (no_index (Proc.devRef .tc main_arg20)) = V0 (Proc.devRef .tc main_arg20) :=
  (u2_keep V0 main_arg20 (by decide)).trans (u1_main_arg20 V0)
theorem u2_main_arg21 (V0 : Valuation τ sig (Elt F)) : u2 V0 (no_index (Proc.devRef .tc main_arg21)) = V0 (Proc.devRef .tc main_arg21) :=
  (u2_keep V0 main_arg21 (by decide)).trans (u1_main_arg21 V0)
set_option maxRecDepth 8192 in
set_option maxHeartbeats 4000000 in
theorem u2_main_c_0 (V0 : Valuation τ sig (Elt F)) : u2 V0 (no_index (Proc.devRef .tc main_c_0)) = res_main_c_0 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl
set_option maxRecDepth 8192 in
set_option maxHeartbeats 4000000 in
theorem u2_main_v37 (V0 : Valuation τ sig (Elt F)) : u2 V0 (no_index (Proc.devRef .tc main_v37)) = res_main_v37 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl
theorem u2_main_v1 (V0 : Valuation τ sig (Elt F)) : u2 V0 (no_index (Proc.devRef .tc main_v1)) = res_main_v1 V0 :=
  (u2_keep V0 main_v1 (by decide)).trans (u1_main_v1 V0)
theorem u2_main_v3 (V0 : Valuation τ sig (Elt F)) : u2 V0 (no_index (Proc.devRef .tc main_v3)) = res_main_v3 V0 :=
  (u2_keep V0 main_v3 (by decide)).trans (u1_main_v3 V0)
theorem u2_main_v5 (V0 : Valuation τ sig (Elt F)) : u2 V0 (no_index (Proc.devRef .tc main_v5)) = res_main_v5 V0 :=
  (u2_keep V0 main_v5 (by decide)).trans (u1_main_v5 V0)
theorem u2_main_v7 (V0 : Valuation τ sig (Elt F)) : u2 V0 (no_index (Proc.devRef .tc main_v7)) = res_main_v7 V0 :=
  (u2_keep V0 main_v7 (by decide)).trans (u1_main_v7 V0)
theorem u2_main_v9 (V0 : Valuation τ sig (Elt F)) : u2 V0 (no_index (Proc.devRef .tc main_v9)) = res_main_v9 V0 :=
  (u2_keep V0 main_v9 (by decide)).trans (u1_main_v9 V0)
theorem u2_main_v11 (V0 : Valuation τ sig (Elt F)) : u2 V0 (no_index (Proc.devRef .tc main_v11)) = res_main_v11 V0 :=
  (u2_keep V0 main_v11 (by decide)).trans (u1_main_v11 V0)
theorem u2_main_v13 (V0 : Valuation τ sig (Elt F)) : u2 V0 (no_index (Proc.devRef .tc main_v13)) = res_main_v13 V0 :=
  (u2_keep V0 main_v13 (by decide)).trans (u1_main_v13 V0)
theorem u2_main_v15 (V0 : Valuation τ sig (Elt F)) : u2 V0 (no_index (Proc.devRef .tc main_v15)) = res_main_v15 V0 :=
  (u2_keep V0 main_v15 (by decide)).trans (u1_main_v15 V0)
theorem u2_main_v17 (V0 : Valuation τ sig (Elt F)) : u2 V0 (no_index (Proc.devRef .tc main_v17)) = res_main_v17 V0 :=
  (u2_keep V0 main_v17 (by decide)).trans (u1_main_v17 V0)
theorem u2_main_v19 (V0 : Valuation τ sig (Elt F)) : u2 V0 (no_index (Proc.devRef .tc main_v19)) = res_main_v19 V0 :=
  (u2_keep V0 main_v19 (by decide)).trans (u1_main_v19 V0)
set_option maxRecDepth 8192 in
set_option maxHeartbeats 4000000 in
theorem u2_main_v21 (V0 : Valuation τ sig (Elt F)) : u2 V0 (no_index (Proc.devRef .tc main_v21)) = res_main_v21 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl
set_option maxRecDepth 8192 in
set_option maxHeartbeats 4000000 in
theorem u2_main_v23 (V0 : Valuation τ sig (Elt F)) : u2 V0 (no_index (Proc.devRef .tc main_v23)) = res_main_v23 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl
set_option maxRecDepth 8192 in
set_option maxHeartbeats 4000000 in
theorem u2_main_v25 (V0 : Valuation τ sig (Elt F)) : u2 V0 (no_index (Proc.devRef .tc main_v25)) = res_main_v25 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl
set_option maxRecDepth 8192 in
set_option maxHeartbeats 4000000 in
theorem u2_main_v27 (V0 : Valuation τ sig (Elt F)) : u2 V0 (no_index (Proc.devRef .tc main_v27)) = res_main_v27 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl
set_option maxRecDepth 8192 in
set_option maxHeartbeats 4000000 in
theorem u2_main_v29 (V0 : Valuation τ sig (Elt F)) : u2 V0 (no_index (Proc.devRef .tc main_v29)) = res_main_v29 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl
set_option maxRecDepth 8192 in
set_option maxHeartbeats 4000000 in
theorem u2_main_v31 (V0 : Valuation τ sig (Elt F)) : u2 V0 (no_index (Proc.devRef .tc main_v31)) = res_main_v31 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl
set_option maxRecDepth 8192 in
set_option maxHeartbeats 4000000 in
theorem u2_main_v33 (V0 : Valuation τ sig (Elt F)) : u2 V0 (no_index (Proc.devRef .tc main_v33)) = res_main_v33 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl
set_option maxRecDepth 8192 in
set_option maxHeartbeats 4000000 in
theorem u2_main_v35 (V0 : Valuation τ sig (Elt F)) : u2 V0 (no_index (Proc.devRef .tc main_v35)) = res_main_v35 V0 := by
  unfold u2
  simp only [ops0_1]
  after_results_simp
  try simp only [u1_main_arg14, u1_main_arg15, u1_main_arg16, u1_main_arg17, u1_main_arg18, u1_main_arg19, u1_main_arg20, u1_main_arg21, u1_main_arg2]
  all_goals rfl

theorem u3_main_arg0 (V0 : Valuation τ sig (Elt F)) : u3 V0 (no_index (Proc.devRef .tc main_arg0)) = V0 (Proc.devRef .tc main_arg0) :=
  (u3_keep V0 main_arg0 (by decide)).trans (u2_main_arg0 V0)
theorem u3_main_arg1 (V0 : Valuation τ sig (Elt F)) : u3 V0 (no_index (Proc.devRef .tc main_arg1)) = V0 (Proc.devRef .tc main_arg1) :=
  (u3_keep V0 main_arg1 (by decide)).trans (u2_main_arg1 V0)
theorem u3_main_arg2 (V0 : Valuation τ sig (Elt F)) : u3 V0 (no_index (Proc.devRef .tc main_arg2)) = V0 (Proc.devRef .tc main_arg2) :=
  (u3_keep V0 main_arg2 (by decide)).trans (u2_main_arg2 V0)
theorem u3_main_arg3 (V0 : Valuation τ sig (Elt F)) : u3 V0 (no_index (Proc.devRef .tc main_arg3)) = V0 (Proc.devRef .tc main_arg3) :=
  (u3_keep V0 main_arg3 (by decide)).trans (u2_main_arg3 V0)
theorem u3_main_arg4 (V0 : Valuation τ sig (Elt F)) : u3 V0 (no_index (Proc.devRef .tc main_arg4)) = V0 (Proc.devRef .tc main_arg4) :=
  (u3_keep V0 main_arg4 (by decide)).trans (u2_main_arg4 V0)
theorem u3_main_arg5 (V0 : Valuation τ sig (Elt F)) : u3 V0 (no_index (Proc.devRef .tc main_arg5)) = V0 (Proc.devRef .tc main_arg5) :=
  (u3_keep V0 main_arg5 (by decide)).trans (u2_main_arg5 V0)
theorem u3_main_arg6 (V0 : Valuation τ sig (Elt F)) : u3 V0 (no_index (Proc.devRef .tc main_arg6)) = V0 (Proc.devRef .tc main_arg6) :=
  (u3_keep V0 main_arg6 (by decide)).trans (u2_main_arg6 V0)
theorem u3_main_arg7 (V0 : Valuation τ sig (Elt F)) : u3 V0 (no_index (Proc.devRef .tc main_arg7)) = V0 (Proc.devRef .tc main_arg7) :=
  (u3_keep V0 main_arg7 (by decide)).trans (u2_main_arg7 V0)
theorem u3_main_arg8 (V0 : Valuation τ sig (Elt F)) : u3 V0 (no_index (Proc.devRef .tc main_arg8)) = V0 (Proc.devRef .tc main_arg8) :=
  (u3_keep V0 main_arg8 (by decide)).trans (u2_main_arg8 V0)
theorem u3_main_arg9 (V0 : Valuation τ sig (Elt F)) : u3 V0 (no_index (Proc.devRef .tc main_arg9)) = V0 (Proc.devRef .tc main_arg9) :=
  (u3_keep V0 main_arg9 (by decide)).trans (u2_main_arg9 V0)
theorem u3_main_arg10 (V0 : Valuation τ sig (Elt F)) : u3 V0 (no_index (Proc.devRef .tc main_arg10)) = V0 (Proc.devRef .tc main_arg10) :=
  (u3_keep V0 main_arg10 (by decide)).trans (u2_main_arg10 V0)
theorem u3_main_arg11 (V0 : Valuation τ sig (Elt F)) : u3 V0 (no_index (Proc.devRef .tc main_arg11)) = V0 (Proc.devRef .tc main_arg11) :=
  (u3_keep V0 main_arg11 (by decide)).trans (u2_main_arg11 V0)
theorem u3_main_arg12 (V0 : Valuation τ sig (Elt F)) : u3 V0 (no_index (Proc.devRef .tc main_arg12)) = V0 (Proc.devRef .tc main_arg12) :=
  (u3_keep V0 main_arg12 (by decide)).trans (u2_main_arg12 V0)
theorem u3_main_arg13 (V0 : Valuation τ sig (Elt F)) : u3 V0 (no_index (Proc.devRef .tc main_arg13)) = V0 (Proc.devRef .tc main_arg13) :=
  (u3_keep V0 main_arg13 (by decide)).trans (u2_main_arg13 V0)
theorem u3_main_arg14 (V0 : Valuation τ sig (Elt F)) : u3 V0 (no_index (Proc.devRef .tc main_arg14)) = V0 (Proc.devRef .tc main_arg14) :=
  (u3_keep V0 main_arg14 (by decide)).trans (u2_main_arg14 V0)
theorem u3_main_arg15 (V0 : Valuation τ sig (Elt F)) : u3 V0 (no_index (Proc.devRef .tc main_arg15)) = V0 (Proc.devRef .tc main_arg15) :=
  (u3_keep V0 main_arg15 (by decide)).trans (u2_main_arg15 V0)
theorem u3_main_arg16 (V0 : Valuation τ sig (Elt F)) : u3 V0 (no_index (Proc.devRef .tc main_arg16)) = V0 (Proc.devRef .tc main_arg16) :=
  (u3_keep V0 main_arg16 (by decide)).trans (u2_main_arg16 V0)
theorem u3_main_arg17 (V0 : Valuation τ sig (Elt F)) : u3 V0 (no_index (Proc.devRef .tc main_arg17)) = V0 (Proc.devRef .tc main_arg17) :=
  (u3_keep V0 main_arg17 (by decide)).trans (u2_main_arg17 V0)
theorem u3_main_arg18 (V0 : Valuation τ sig (Elt F)) : u3 V0 (no_index (Proc.devRef .tc main_arg18)) = V0 (Proc.devRef .tc main_arg18) :=
  (u3_keep V0 main_arg18 (by decide)).trans (u2_main_arg18 V0)
theorem u3_main_arg19 (V0 : Valuation τ sig (Elt F)) : u3 V0 (no_index (Proc.devRef .tc main_arg19)) = V0 (Proc.devRef .tc main_arg19) :=
  (u3_keep V0 main_arg19 (by decide)).trans (u2_main_arg19 V0)
theorem u3_main_arg20 (V0 : Valuation τ sig (Elt F)) : u3 V0 (no_index (Proc.devRef .tc main_arg20)) = V0 (Proc.devRef .tc main_arg20) :=
  (u3_keep V0 main_arg20 (by decide)).trans (u2_main_arg20 V0)
theorem u3_main_arg21 (V0 : Valuation τ sig (Elt F)) : u3 V0 (no_index (Proc.devRef .tc main_arg21)) = V0 (Proc.devRef .tc main_arg21) :=
  (u3_keep V0 main_arg21 (by decide)).trans (u2_main_arg21 V0)
set_option maxRecDepth 8192 in
set_option maxHeartbeats 4000000 in
theorem u3_main_v55 (V0 : Valuation τ sig (Elt F)) : u3 V0 (no_index (Proc.devRef .tc main_v55)) = res_main_v55 V0 := by
  unfold u3
  simp only [ops0_2]
  after_results_simp
  try simp only [u2_main_c_0, u2_main_arg2, u2_main_v37, u2_main_arg1, u2_main_arg3, u2_main_v1, u2_main_v3]
  all_goals rfl
theorem u3_main_v5 (V0 : Valuation τ sig (Elt F)) : u3 V0 (no_index (Proc.devRef .tc main_v5)) = res_main_v5 V0 :=
  (u3_keep V0 main_v5 (by decide)).trans (u2_main_v5 V0)
theorem u3_main_v7 (V0 : Valuation τ sig (Elt F)) : u3 V0 (no_index (Proc.devRef .tc main_v7)) = res_main_v7 V0 :=
  (u3_keep V0 main_v7 (by decide)).trans (u2_main_v7 V0)
theorem u3_main_v9 (V0 : Valuation τ sig (Elt F)) : u3 V0 (no_index (Proc.devRef .tc main_v9)) = res_main_v9 V0 :=
  (u3_keep V0 main_v9 (by decide)).trans (u2_main_v9 V0)
theorem u3_main_v11 (V0 : Valuation τ sig (Elt F)) : u3 V0 (no_index (Proc.devRef .tc main_v11)) = res_main_v11 V0 :=
  (u3_keep V0 main_v11 (by decide)).trans (u2_main_v11 V0)
theorem u3_main_v13 (V0 : Valuation τ sig (Elt F)) : u3 V0 (no_index (Proc.devRef .tc main_v13)) = res_main_v13 V0 :=
  (u3_keep V0 main_v13 (by decide)).trans (u2_main_v13 V0)
theorem u3_main_v15 (V0 : Valuation τ sig (Elt F)) : u3 V0 (no_index (Proc.devRef .tc main_v15)) = res_main_v15 V0 :=
  (u3_keep V0 main_v15 (by decide)).trans (u2_main_v15 V0)
theorem u3_main_v17 (V0 : Valuation τ sig (Elt F)) : u3 V0 (no_index (Proc.devRef .tc main_v17)) = res_main_v17 V0 :=
  (u3_keep V0 main_v17 (by decide)).trans (u2_main_v17 V0)
theorem u3_main_v19 (V0 : Valuation τ sig (Elt F)) : u3 V0 (no_index (Proc.devRef .tc main_v19)) = res_main_v19 V0 :=
  (u3_keep V0 main_v19 (by decide)).trans (u2_main_v19 V0)
theorem u3_main_v21 (V0 : Valuation τ sig (Elt F)) : u3 V0 (no_index (Proc.devRef .tc main_v21)) = res_main_v21 V0 :=
  (u3_keep V0 main_v21 (by decide)).trans (u2_main_v21 V0)
theorem u3_main_v23 (V0 : Valuation τ sig (Elt F)) : u3 V0 (no_index (Proc.devRef .tc main_v23)) = res_main_v23 V0 :=
  (u3_keep V0 main_v23 (by decide)).trans (u2_main_v23 V0)
theorem u3_main_v25 (V0 : Valuation τ sig (Elt F)) : u3 V0 (no_index (Proc.devRef .tc main_v25)) = res_main_v25 V0 :=
  (u3_keep V0 main_v25 (by decide)).trans (u2_main_v25 V0)
theorem u3_main_v27 (V0 : Valuation τ sig (Elt F)) : u3 V0 (no_index (Proc.devRef .tc main_v27)) = res_main_v27 V0 :=
  (u3_keep V0 main_v27 (by decide)).trans (u2_main_v27 V0)
theorem u3_main_v29 (V0 : Valuation τ sig (Elt F)) : u3 V0 (no_index (Proc.devRef .tc main_v29)) = res_main_v29 V0 :=
  (u3_keep V0 main_v29 (by decide)).trans (u2_main_v29 V0)
theorem u3_main_v31 (V0 : Valuation τ sig (Elt F)) : u3 V0 (no_index (Proc.devRef .tc main_v31)) = res_main_v31 V0 :=
  (u3_keep V0 main_v31 (by decide)).trans (u2_main_v31 V0)
theorem u3_main_v33 (V0 : Valuation τ sig (Elt F)) : u3 V0 (no_index (Proc.devRef .tc main_v33)) = res_main_v33 V0 :=
  (u3_keep V0 main_v33 (by decide)).trans (u2_main_v33 V0)
theorem u3_main_v35 (V0 : Valuation τ sig (Elt F)) : u3 V0 (no_index (Proc.devRef .tc main_v35)) = res_main_v35 V0 :=
  (u3_keep V0 main_v35 (by decide)).trans (u2_main_v35 V0)

theorem u4_main_arg0 (V0 : Valuation τ sig (Elt F)) : u4 V0 (no_index (Proc.devRef .tc main_arg0)) = V0 (Proc.devRef .tc main_arg0) :=
  (u4_keep V0 main_arg0 (by decide)).trans (u3_main_arg0 V0)
theorem u4_main_arg1 (V0 : Valuation τ sig (Elt F)) : u4 V0 (no_index (Proc.devRef .tc main_arg1)) = V0 (Proc.devRef .tc main_arg1) :=
  (u4_keep V0 main_arg1 (by decide)).trans (u3_main_arg1 V0)
theorem u4_main_arg2 (V0 : Valuation τ sig (Elt F)) : u4 V0 (no_index (Proc.devRef .tc main_arg2)) = V0 (Proc.devRef .tc main_arg2) :=
  (u4_keep V0 main_arg2 (by decide)).trans (u3_main_arg2 V0)
theorem u4_main_arg3 (V0 : Valuation τ sig (Elt F)) : u4 V0 (no_index (Proc.devRef .tc main_arg3)) = V0 (Proc.devRef .tc main_arg3) :=
  (u4_keep V0 main_arg3 (by decide)).trans (u3_main_arg3 V0)
theorem u4_main_arg4 (V0 : Valuation τ sig (Elt F)) : u4 V0 (no_index (Proc.devRef .tc main_arg4)) = V0 (Proc.devRef .tc main_arg4) :=
  (u4_keep V0 main_arg4 (by decide)).trans (u3_main_arg4 V0)
theorem u4_main_arg5 (V0 : Valuation τ sig (Elt F)) : u4 V0 (no_index (Proc.devRef .tc main_arg5)) = V0 (Proc.devRef .tc main_arg5) :=
  (u4_keep V0 main_arg5 (by decide)).trans (u3_main_arg5 V0)
theorem u4_main_arg6 (V0 : Valuation τ sig (Elt F)) : u4 V0 (no_index (Proc.devRef .tc main_arg6)) = V0 (Proc.devRef .tc main_arg6) :=
  (u4_keep V0 main_arg6 (by decide)).trans (u3_main_arg6 V0)
theorem u4_main_arg7 (V0 : Valuation τ sig (Elt F)) : u4 V0 (no_index (Proc.devRef .tc main_arg7)) = V0 (Proc.devRef .tc main_arg7) :=
  (u4_keep V0 main_arg7 (by decide)).trans (u3_main_arg7 V0)
theorem u4_main_arg8 (V0 : Valuation τ sig (Elt F)) : u4 V0 (no_index (Proc.devRef .tc main_arg8)) = V0 (Proc.devRef .tc main_arg8) :=
  (u4_keep V0 main_arg8 (by decide)).trans (u3_main_arg8 V0)
theorem u4_main_arg9 (V0 : Valuation τ sig (Elt F)) : u4 V0 (no_index (Proc.devRef .tc main_arg9)) = V0 (Proc.devRef .tc main_arg9) :=
  (u4_keep V0 main_arg9 (by decide)).trans (u3_main_arg9 V0)
theorem u4_main_arg10 (V0 : Valuation τ sig (Elt F)) : u4 V0 (no_index (Proc.devRef .tc main_arg10)) = V0 (Proc.devRef .tc main_arg10) :=
  (u4_keep V0 main_arg10 (by decide)).trans (u3_main_arg10 V0)
theorem u4_main_arg11 (V0 : Valuation τ sig (Elt F)) : u4 V0 (no_index (Proc.devRef .tc main_arg11)) = V0 (Proc.devRef .tc main_arg11) :=
  (u4_keep V0 main_arg11 (by decide)).trans (u3_main_arg11 V0)
theorem u4_main_arg12 (V0 : Valuation τ sig (Elt F)) : u4 V0 (no_index (Proc.devRef .tc main_arg12)) = V0 (Proc.devRef .tc main_arg12) :=
  (u4_keep V0 main_arg12 (by decide)).trans (u3_main_arg12 V0)
theorem u4_main_arg13 (V0 : Valuation τ sig (Elt F)) : u4 V0 (no_index (Proc.devRef .tc main_arg13)) = V0 (Proc.devRef .tc main_arg13) :=
  (u4_keep V0 main_arg13 (by decide)).trans (u3_main_arg13 V0)
theorem u4_main_arg14 (V0 : Valuation τ sig (Elt F)) : u4 V0 (no_index (Proc.devRef .tc main_arg14)) = V0 (Proc.devRef .tc main_arg14) :=
  (u4_keep V0 main_arg14 (by decide)).trans (u3_main_arg14 V0)
theorem u4_main_arg15 (V0 : Valuation τ sig (Elt F)) : u4 V0 (no_index (Proc.devRef .tc main_arg15)) = V0 (Proc.devRef .tc main_arg15) :=
  (u4_keep V0 main_arg15 (by decide)).trans (u3_main_arg15 V0)
theorem u4_main_arg16 (V0 : Valuation τ sig (Elt F)) : u4 V0 (no_index (Proc.devRef .tc main_arg16)) = V0 (Proc.devRef .tc main_arg16) :=
  (u4_keep V0 main_arg16 (by decide)).trans (u3_main_arg16 V0)
theorem u4_main_arg17 (V0 : Valuation τ sig (Elt F)) : u4 V0 (no_index (Proc.devRef .tc main_arg17)) = V0 (Proc.devRef .tc main_arg17) :=
  (u4_keep V0 main_arg17 (by decide)).trans (u3_main_arg17 V0)
theorem u4_main_arg18 (V0 : Valuation τ sig (Elt F)) : u4 V0 (no_index (Proc.devRef .tc main_arg18)) = V0 (Proc.devRef .tc main_arg18) :=
  (u4_keep V0 main_arg18 (by decide)).trans (u3_main_arg18 V0)
theorem u4_main_arg19 (V0 : Valuation τ sig (Elt F)) : u4 V0 (no_index (Proc.devRef .tc main_arg19)) = V0 (Proc.devRef .tc main_arg19) :=
  (u4_keep V0 main_arg19 (by decide)).trans (u3_main_arg19 V0)
theorem u4_main_arg20 (V0 : Valuation τ sig (Elt F)) : u4 V0 (no_index (Proc.devRef .tc main_arg20)) = V0 (Proc.devRef .tc main_arg20) :=
  (u4_keep V0 main_arg20 (by decide)).trans (u3_main_arg20 V0)
theorem u4_main_arg21 (V0 : Valuation τ sig (Elt F)) : u4 V0 (no_index (Proc.devRef .tc main_arg21)) = V0 (Proc.devRef .tc main_arg21) :=
  (u4_keep V0 main_arg21 (by decide)).trans (u3_main_arg21 V0)
set_option maxRecDepth 8192 in
set_option maxHeartbeats 4000000 in
theorem u4_main_v58 (V0 : Valuation τ sig (Elt F)) : u4 V0 (no_index (Proc.devRef .tc main_v58)) = res_main_v58 V0 := by
  unfold u4
  simp only [ops1_0]
  after_results_simp
  try simp only [u3_main_v55, u3_main_v5]
  all_goals rfl
set_option maxRecDepth 8192 in
set_option maxHeartbeats 4000000 in
theorem u4_main_v70 (V0 : Valuation τ sig (Elt F)) : u4 V0 (no_index (Proc.devRef .tc main_v70)) = res_main_v70 V0 := by
  unfold u4
  simp only [ops1_0]
  after_results_simp
  try simp only [u3_main_v55, u3_main_v5]
  all_goals rfl
set_option maxRecDepth 8192 in
set_option maxHeartbeats 4000000 in
theorem u4_main_v69 (V0 : Valuation τ sig (Elt F)) : u4 V0 (no_index (Proc.devRef .tc main_v69)) = res_main_v69 V0 := by
  unfold u4
  simp only [ops1_0]
  after_results_simp
  try simp only [u3_main_v55, u3_main_v5]
  all_goals rfl
theorem u4_main_v7 (V0 : Valuation τ sig (Elt F)) : u4 V0 (no_index (Proc.devRef .tc main_v7)) = res_main_v7 V0 :=
  (u4_keep V0 main_v7 (by decide)).trans (u3_main_v7 V0)
theorem u4_main_v9 (V0 : Valuation τ sig (Elt F)) : u4 V0 (no_index (Proc.devRef .tc main_v9)) = res_main_v9 V0 :=
  (u4_keep V0 main_v9 (by decide)).trans (u3_main_v9 V0)
theorem u4_main_v11 (V0 : Valuation τ sig (Elt F)) : u4 V0 (no_index (Proc.devRef .tc main_v11)) = res_main_v11 V0 :=
  (u4_keep V0 main_v11 (by decide)).trans (u3_main_v11 V0)
theorem u4_main_v13 (V0 : Valuation τ sig (Elt F)) : u4 V0 (no_index (Proc.devRef .tc main_v13)) = res_main_v13 V0 :=
  (u4_keep V0 main_v13 (by decide)).trans (u3_main_v13 V0)
theorem u4_main_v15 (V0 : Valuation τ sig (Elt F)) : u4 V0 (no_index (Proc.devRef .tc main_v15)) = res_main_v15 V0 :=
  (u4_keep V0 main_v15 (by decide)).trans (u3_main_v15 V0)
theorem u4_main_v17 (V0 : Valuation τ sig (Elt F)) : u4 V0 (no_index (Proc.devRef .tc main_v17)) = res_main_v17 V0 :=
  (u4_keep V0 main_v17 (by decide)).trans (u3_main_v17 V0)
theorem u4_main_v19 (V0 : Valuation τ sig (Elt F)) : u4 V0 (no_index (Proc.devRef .tc main_v19)) = res_main_v19 V0 :=
  (u4_keep V0 main_v19 (by decide)).trans (u3_main_v19 V0)
theorem u4_main_v21 (V0 : Valuation τ sig (Elt F)) : u4 V0 (no_index (Proc.devRef .tc main_v21)) = res_main_v21 V0 :=
  (u4_keep V0 main_v21 (by decide)).trans (u3_main_v21 V0)
theorem u4_main_v23 (V0 : Valuation τ sig (Elt F)) : u4 V0 (no_index (Proc.devRef .tc main_v23)) = res_main_v23 V0 :=
  (u4_keep V0 main_v23 (by decide)).trans (u3_main_v23 V0)
theorem u4_main_v25 (V0 : Valuation τ sig (Elt F)) : u4 V0 (no_index (Proc.devRef .tc main_v25)) = res_main_v25 V0 :=
  (u4_keep V0 main_v25 (by decide)).trans (u3_main_v25 V0)
theorem u4_main_v27 (V0 : Valuation τ sig (Elt F)) : u4 V0 (no_index (Proc.devRef .tc main_v27)) = res_main_v27 V0 :=
  (u4_keep V0 main_v27 (by decide)).trans (u3_main_v27 V0)
theorem u4_main_v29 (V0 : Valuation τ sig (Elt F)) : u4 V0 (no_index (Proc.devRef .tc main_v29)) = res_main_v29 V0 :=
  (u4_keep V0 main_v29 (by decide)).trans (u3_main_v29 V0)
theorem u4_main_v31 (V0 : Valuation τ sig (Elt F)) : u4 V0 (no_index (Proc.devRef .tc main_v31)) = res_main_v31 V0 :=
  (u4_keep V0 main_v31 (by decide)).trans (u3_main_v31 V0)
theorem u4_main_v33 (V0 : Valuation τ sig (Elt F)) : u4 V0 (no_index (Proc.devRef .tc main_v33)) = res_main_v33 V0 :=
  (u4_keep V0 main_v33 (by decide)).trans (u3_main_v33 V0)
theorem u4_main_v35 (V0 : Valuation τ sig (Elt F)) : u4 V0 (no_index (Proc.devRef .tc main_v35)) = res_main_v35 V0 :=
  (u4_keep V0 main_v35 (by decide)).trans (u3_main_v35 V0)

theorem u5_main_arg0 (V0 : Valuation τ sig (Elt F)) : u5 V0 (no_index (Proc.devRef .tc main_arg0)) = V0 (Proc.devRef .tc main_arg0) :=
  (u5_keep V0 main_arg0 (by decide)).trans (u4_main_arg0 V0)
theorem u5_main_arg1 (V0 : Valuation τ sig (Elt F)) : u5 V0 (no_index (Proc.devRef .tc main_arg1)) = V0 (Proc.devRef .tc main_arg1) :=
  (u5_keep V0 main_arg1 (by decide)).trans (u4_main_arg1 V0)
theorem u5_main_arg2 (V0 : Valuation τ sig (Elt F)) : u5 V0 (no_index (Proc.devRef .tc main_arg2)) = V0 (Proc.devRef .tc main_arg2) :=
  (u5_keep V0 main_arg2 (by decide)).trans (u4_main_arg2 V0)
theorem u5_main_arg3 (V0 : Valuation τ sig (Elt F)) : u5 V0 (no_index (Proc.devRef .tc main_arg3)) = V0 (Proc.devRef .tc main_arg3) :=
  (u5_keep V0 main_arg3 (by decide)).trans (u4_main_arg3 V0)
theorem u5_main_arg4 (V0 : Valuation τ sig (Elt F)) : u5 V0 (no_index (Proc.devRef .tc main_arg4)) = V0 (Proc.devRef .tc main_arg4) :=
  (u5_keep V0 main_arg4 (by decide)).trans (u4_main_arg4 V0)
theorem u5_main_arg5 (V0 : Valuation τ sig (Elt F)) : u5 V0 (no_index (Proc.devRef .tc main_arg5)) = V0 (Proc.devRef .tc main_arg5) :=
  (u5_keep V0 main_arg5 (by decide)).trans (u4_main_arg5 V0)
theorem u5_main_arg6 (V0 : Valuation τ sig (Elt F)) : u5 V0 (no_index (Proc.devRef .tc main_arg6)) = V0 (Proc.devRef .tc main_arg6) :=
  (u5_keep V0 main_arg6 (by decide)).trans (u4_main_arg6 V0)
theorem u5_main_arg7 (V0 : Valuation τ sig (Elt F)) : u5 V0 (no_index (Proc.devRef .tc main_arg7)) = V0 (Proc.devRef .tc main_arg7) :=
  (u5_keep V0 main_arg7 (by decide)).trans (u4_main_arg7 V0)
theorem u5_main_arg8 (V0 : Valuation τ sig (Elt F)) : u5 V0 (no_index (Proc.devRef .tc main_arg8)) = V0 (Proc.devRef .tc main_arg8) :=
  (u5_keep V0 main_arg8 (by decide)).trans (u4_main_arg8 V0)
theorem u5_main_arg9 (V0 : Valuation τ sig (Elt F)) : u5 V0 (no_index (Proc.devRef .tc main_arg9)) = V0 (Proc.devRef .tc main_arg9) :=
  (u5_keep V0 main_arg9 (by decide)).trans (u4_main_arg9 V0)
theorem u5_main_arg10 (V0 : Valuation τ sig (Elt F)) : u5 V0 (no_index (Proc.devRef .tc main_arg10)) = V0 (Proc.devRef .tc main_arg10) :=
  (u5_keep V0 main_arg10 (by decide)).trans (u4_main_arg10 V0)
theorem u5_main_arg11 (V0 : Valuation τ sig (Elt F)) : u5 V0 (no_index (Proc.devRef .tc main_arg11)) = V0 (Proc.devRef .tc main_arg11) :=
  (u5_keep V0 main_arg11 (by decide)).trans (u4_main_arg11 V0)
theorem u5_main_arg12 (V0 : Valuation τ sig (Elt F)) : u5 V0 (no_index (Proc.devRef .tc main_arg12)) = V0 (Proc.devRef .tc main_arg12) :=
  (u5_keep V0 main_arg12 (by decide)).trans (u4_main_arg12 V0)
theorem u5_main_arg13 (V0 : Valuation τ sig (Elt F)) : u5 V0 (no_index (Proc.devRef .tc main_arg13)) = V0 (Proc.devRef .tc main_arg13) :=
  (u5_keep V0 main_arg13 (by decide)).trans (u4_main_arg13 V0)
theorem u5_main_arg14 (V0 : Valuation τ sig (Elt F)) : u5 V0 (no_index (Proc.devRef .tc main_arg14)) = V0 (Proc.devRef .tc main_arg14) :=
  (u5_keep V0 main_arg14 (by decide)).trans (u4_main_arg14 V0)
theorem u5_main_arg15 (V0 : Valuation τ sig (Elt F)) : u5 V0 (no_index (Proc.devRef .tc main_arg15)) = V0 (Proc.devRef .tc main_arg15) :=
  (u5_keep V0 main_arg15 (by decide)).trans (u4_main_arg15 V0)
theorem u5_main_arg16 (V0 : Valuation τ sig (Elt F)) : u5 V0 (no_index (Proc.devRef .tc main_arg16)) = V0 (Proc.devRef .tc main_arg16) :=
  (u5_keep V0 main_arg16 (by decide)).trans (u4_main_arg16 V0)
theorem u5_main_arg17 (V0 : Valuation τ sig (Elt F)) : u5 V0 (no_index (Proc.devRef .tc main_arg17)) = V0 (Proc.devRef .tc main_arg17) :=
  (u5_keep V0 main_arg17 (by decide)).trans (u4_main_arg17 V0)
theorem u5_main_arg18 (V0 : Valuation τ sig (Elt F)) : u5 V0 (no_index (Proc.devRef .tc main_arg18)) = V0 (Proc.devRef .tc main_arg18) :=
  (u5_keep V0 main_arg18 (by decide)).trans (u4_main_arg18 V0)
theorem u5_main_arg19 (V0 : Valuation τ sig (Elt F)) : u5 V0 (no_index (Proc.devRef .tc main_arg19)) = V0 (Proc.devRef .tc main_arg19) :=
  (u5_keep V0 main_arg19 (by decide)).trans (u4_main_arg19 V0)
theorem u5_main_arg20 (V0 : Valuation τ sig (Elt F)) : u5 V0 (no_index (Proc.devRef .tc main_arg20)) = V0 (Proc.devRef .tc main_arg20) :=
  (u5_keep V0 main_arg20 (by decide)).trans (u4_main_arg20 V0)
theorem u5_main_arg21 (V0 : Valuation τ sig (Elt F)) : u5 V0 (no_index (Proc.devRef .tc main_arg21)) = V0 (Proc.devRef .tc main_arg21) :=
  (u5_keep V0 main_arg21 (by decide)).trans (u4_main_arg21 V0)
set_option maxRecDepth 8192 in
set_option maxHeartbeats 4000000 in
theorem u5_main_v85 (V0 : Valuation τ sig (Elt F)) : u5 V0 (no_index (Proc.devRef .tc main_v85)) = res_main_v85 V0 := by
  unfold u5
  simp only [ops1_1]
  after_results_simp
  try simp only [u4_main_v58, u4_main_v70, u4_main_v69, u4_main_v7, u4_main_v9, u4_main_arg2]
  all_goals rfl
set_option maxRecDepth 8192 in
set_option maxHeartbeats 4000000 in
theorem u5_main_v87 (V0 : Valuation τ sig (Elt F)) : u5 V0 (no_index (Proc.devRef .tc main_v87)) = res_main_v87 V0 := by
  unfold u5
  simp only [ops1_1]
  after_results_simp
  try simp only [u4_main_v58, u4_main_v70, u4_main_v69, u4_main_v7, u4_main_v9, u4_main_arg2]
  all_goals rfl
theorem u5_main_v11 (V0 : Valuation τ sig (Elt F)) : u5 V0 (no_index (Proc.devRef .tc main_v11)) = res_main_v11 V0 :=
  (u5_keep V0 main_v11 (by decide)).trans (u4_main_v11 V0)
theorem u5_main_v13 (V0 : Valuation τ sig (Elt F)) : u5 V0 (no_index (Proc.devRef .tc main_v13)) = res_main_v13 V0 :=
  (u5_keep V0 main_v13 (by decide)).trans (u4_main_v13 V0)
theorem u5_main_v15 (V0 : Valuation τ sig (Elt F)) : u5 V0 (no_index (Proc.devRef .tc main_v15)) = res_main_v15 V0 :=
  (u5_keep V0 main_v15 (by decide)).trans (u4_main_v15 V0)
set_option maxRecDepth 8192 in
set_option maxHeartbeats 4000000 in
theorem u5_main_v83 (V0 : Valuation τ sig (Elt F)) : u5 V0 (no_index (Proc.devRef .tc main_v83)) = res_main_v83 V0 := by
  unfold u5
  simp only [ops1_1]
  after_results_simp
  try simp only [u4_main_v58, u4_main_v70, u4_main_v69, u4_main_v7, u4_main_v9, u4_main_arg2]
  all_goals rfl
theorem u5_main_v17 (V0 : Valuation τ sig (Elt F)) : u5 V0 (no_index (Proc.devRef .tc main_v17)) = res_main_v17 V0 :=
  (u5_keep V0 main_v17 (by decide)).trans (u4_main_v17 V0)
theorem u5_main_v19 (V0 : Valuation τ sig (Elt F)) : u5 V0 (no_index (Proc.devRef .tc main_v19)) = res_main_v19 V0 :=
  (u5_keep V0 main_v19 (by decide)).trans (u4_main_v19 V0)
theorem u5_main_v21 (V0 : Valuation τ sig (Elt F)) : u5 V0 (no_index (Proc.devRef .tc main_v21)) = res_main_v21 V0 :=
  (u5_keep V0 main_v21 (by decide)).trans (u4_main_v21 V0)
theorem u5_main_v23 (V0 : Valuation τ sig (Elt F)) : u5 V0 (no_index (Proc.devRef .tc main_v23)) = res_main_v23 V0 :=
  (u5_keep V0 main_v23 (by decide)).trans (u4_main_v23 V0)
theorem u5_main_v25 (V0 : Valuation τ sig (Elt F)) : u5 V0 (no_index (Proc.devRef .tc main_v25)) = res_main_v25 V0 :=
  (u5_keep V0 main_v25 (by decide)).trans (u4_main_v25 V0)
theorem u5_main_v27 (V0 : Valuation τ sig (Elt F)) : u5 V0 (no_index (Proc.devRef .tc main_v27)) = res_main_v27 V0 :=
  (u5_keep V0 main_v27 (by decide)).trans (u4_main_v27 V0)
theorem u5_main_v29 (V0 : Valuation τ sig (Elt F)) : u5 V0 (no_index (Proc.devRef .tc main_v29)) = res_main_v29 V0 :=
  (u5_keep V0 main_v29 (by decide)).trans (u4_main_v29 V0)
theorem u5_main_v31 (V0 : Valuation τ sig (Elt F)) : u5 V0 (no_index (Proc.devRef .tc main_v31)) = res_main_v31 V0 :=
  (u5_keep V0 main_v31 (by decide)).trans (u4_main_v31 V0)
theorem u5_main_v33 (V0 : Valuation τ sig (Elt F)) : u5 V0 (no_index (Proc.devRef .tc main_v33)) = res_main_v33 V0 :=
  (u5_keep V0 main_v33 (by decide)).trans (u4_main_v33 V0)
theorem u5_main_v35 (V0 : Valuation τ sig (Elt F)) : u5 V0 (no_index (Proc.devRef .tc main_v35)) = res_main_v35 V0 :=
  (u5_keep V0 main_v35 (by decide)).trans (u4_main_v35 V0)

theorem u6_main_arg0 (V0 : Valuation τ sig (Elt F)) : u6 V0 (no_index (Proc.devRef .tc main_arg0)) = V0 (Proc.devRef .tc main_arg0) :=
  (u6_keep V0 main_arg0 (by decide)).trans (u5_main_arg0 V0)
theorem u6_main_arg1 (V0 : Valuation τ sig (Elt F)) : u6 V0 (no_index (Proc.devRef .tc main_arg1)) = V0 (Proc.devRef .tc main_arg1) :=
  (u6_keep V0 main_arg1 (by decide)).trans (u5_main_arg1 V0)
theorem u6_main_arg2 (V0 : Valuation τ sig (Elt F)) : u6 V0 (no_index (Proc.devRef .tc main_arg2)) = V0 (Proc.devRef .tc main_arg2) :=
  (u6_keep V0 main_arg2 (by decide)).trans (u5_main_arg2 V0)
theorem u6_main_arg3 (V0 : Valuation τ sig (Elt F)) : u6 V0 (no_index (Proc.devRef .tc main_arg3)) = V0 (Proc.devRef .tc main_arg3) :=
  (u6_keep V0 main_arg3 (by decide)).trans (u5_main_arg3 V0)
theorem u6_main_arg4 (V0 : Valuation τ sig (Elt F)) : u6 V0 (no_index (Proc.devRef .tc main_arg4)) = V0 (Proc.devRef .tc main_arg4) :=
  (u6_keep V0 main_arg4 (by decide)).trans (u5_main_arg4 V0)
theorem u6_main_arg5 (V0 : Valuation τ sig (Elt F)) : u6 V0 (no_index (Proc.devRef .tc main_arg5)) = V0 (Proc.devRef .tc main_arg5) :=
  (u6_keep V0 main_arg5 (by decide)).trans (u5_main_arg5 V0)
theorem u6_main_arg6 (V0 : Valuation τ sig (Elt F)) : u6 V0 (no_index (Proc.devRef .tc main_arg6)) = V0 (Proc.devRef .tc main_arg6) :=
  (u6_keep V0 main_arg6 (by decide)).trans (u5_main_arg6 V0)
theorem u6_main_arg7 (V0 : Valuation τ sig (Elt F)) : u6 V0 (no_index (Proc.devRef .tc main_arg7)) = V0 (Proc.devRef .tc main_arg7) :=
  (u6_keep V0 main_arg7 (by decide)).trans (u5_main_arg7 V0)
theorem u6_main_arg8 (V0 : Valuation τ sig (Elt F)) : u6 V0 (no_index (Proc.devRef .tc main_arg8)) = V0 (Proc.devRef .tc main_arg8) :=
  (u6_keep V0 main_arg8 (by decide)).trans (u5_main_arg8 V0)
theorem u6_main_arg9 (V0 : Valuation τ sig (Elt F)) : u6 V0 (no_index (Proc.devRef .tc main_arg9)) = V0 (Proc.devRef .tc main_arg9) :=
  (u6_keep V0 main_arg9 (by decide)).trans (u5_main_arg9 V0)
theorem u6_main_arg10 (V0 : Valuation τ sig (Elt F)) : u6 V0 (no_index (Proc.devRef .tc main_arg10)) = V0 (Proc.devRef .tc main_arg10) :=
  (u6_keep V0 main_arg10 (by decide)).trans (u5_main_arg10 V0)
theorem u6_main_arg11 (V0 : Valuation τ sig (Elt F)) : u6 V0 (no_index (Proc.devRef .tc main_arg11)) = V0 (Proc.devRef .tc main_arg11) :=
  (u6_keep V0 main_arg11 (by decide)).trans (u5_main_arg11 V0)
theorem u6_main_arg12 (V0 : Valuation τ sig (Elt F)) : u6 V0 (no_index (Proc.devRef .tc main_arg12)) = V0 (Proc.devRef .tc main_arg12) :=
  (u6_keep V0 main_arg12 (by decide)).trans (u5_main_arg12 V0)
theorem u6_main_arg13 (V0 : Valuation τ sig (Elt F)) : u6 V0 (no_index (Proc.devRef .tc main_arg13)) = V0 (Proc.devRef .tc main_arg13) :=
  (u6_keep V0 main_arg13 (by decide)).trans (u5_main_arg13 V0)
theorem u6_main_arg14 (V0 : Valuation τ sig (Elt F)) : u6 V0 (no_index (Proc.devRef .tc main_arg14)) = V0 (Proc.devRef .tc main_arg14) :=
  (u6_keep V0 main_arg14 (by decide)).trans (u5_main_arg14 V0)
theorem u6_main_arg15 (V0 : Valuation τ sig (Elt F)) : u6 V0 (no_index (Proc.devRef .tc main_arg15)) = V0 (Proc.devRef .tc main_arg15) :=
  (u6_keep V0 main_arg15 (by decide)).trans (u5_main_arg15 V0)
theorem u6_main_arg16 (V0 : Valuation τ sig (Elt F)) : u6 V0 (no_index (Proc.devRef .tc main_arg16)) = V0 (Proc.devRef .tc main_arg16) :=
  (u6_keep V0 main_arg16 (by decide)).trans (u5_main_arg16 V0)
theorem u6_main_arg17 (V0 : Valuation τ sig (Elt F)) : u6 V0 (no_index (Proc.devRef .tc main_arg17)) = V0 (Proc.devRef .tc main_arg17) :=
  (u6_keep V0 main_arg17 (by decide)).trans (u5_main_arg17 V0)
theorem u6_main_arg18 (V0 : Valuation τ sig (Elt F)) : u6 V0 (no_index (Proc.devRef .tc main_arg18)) = V0 (Proc.devRef .tc main_arg18) :=
  (u6_keep V0 main_arg18 (by decide)).trans (u5_main_arg18 V0)
theorem u6_main_arg19 (V0 : Valuation τ sig (Elt F)) : u6 V0 (no_index (Proc.devRef .tc main_arg19)) = V0 (Proc.devRef .tc main_arg19) :=
  (u6_keep V0 main_arg19 (by decide)).trans (u5_main_arg19 V0)
theorem u6_main_arg20 (V0 : Valuation τ sig (Elt F)) : u6 V0 (no_index (Proc.devRef .tc main_arg20)) = V0 (Proc.devRef .tc main_arg20) :=
  (u6_keep V0 main_arg20 (by decide)).trans (u5_main_arg20 V0)
theorem u6_main_arg21 (V0 : Valuation τ sig (Elt F)) : u6 V0 (no_index (Proc.devRef .tc main_arg21)) = V0 (Proc.devRef .tc main_arg21) :=
  (u6_keep V0 main_arg21 (by decide)).trans (u5_main_arg21 V0)
set_option maxRecDepth 8192 in
set_option maxHeartbeats 4000000 in
theorem u6_main_v92 (V0 : Valuation τ sig (Elt F)) : u6 V0 (no_index (Proc.devRef .tc main_v92)) = res_main_v92 V0 := by
  unfold u6
  simp only [ops1_2]
  after_results_simp
  try simp only [u5_main_v85, u5_main_v87, u5_main_arg2, u5_main_arg0, u5_main_v11]
  all_goals rfl
set_option maxRecDepth 8192 in
set_option maxHeartbeats 4000000 in
theorem u6_main_v104 (V0 : Valuation τ sig (Elt F)) : u6 V0 (no_index (Proc.devRef .tc main_v104)) = res_main_v104 V0 := by
  unfold u6
  simp only [ops1_2]
  after_results_simp
  try simp only [u5_main_v85, u5_main_v87, u5_main_arg2, u5_main_arg0, u5_main_v11]
  all_goals rfl
set_option maxRecDepth 8192 in
set_option maxHeartbeats 4000000 in
theorem u6_main_v103 (V0 : Valuation τ sig (Elt F)) : u6 V0 (no_index (Proc.devRef .tc main_v103)) = res_main_v103 V0 := by
  unfold u6
  simp only [ops1_2]
  after_results_simp
  try simp only [u5_main_v85, u5_main_v87, u5_main_arg2, u5_main_arg0, u5_main_v11]
  all_goals rfl
theorem u6_main_v13 (V0 : Valuation τ sig (Elt F)) : u6 V0 (no_index (Proc.devRef .tc main_v13)) = res_main_v13 V0 :=
  (u6_keep V0 main_v13 (by decide)).trans (u5_main_v13 V0)
theorem u6_main_v15 (V0 : Valuation τ sig (Elt F)) : u6 V0 (no_index (Proc.devRef .tc main_v15)) = res_main_v15 V0 :=
  (u6_keep V0 main_v15 (by decide)).trans (u5_main_v15 V0)
theorem u6_main_v83 (V0 : Valuation τ sig (Elt F)) : u6 V0 (no_index (Proc.devRef .tc main_v83)) = res_main_v83 V0 :=
  (u6_keep V0 main_v83 (by decide)).trans (u5_main_v83 V0)
theorem u6_main_v17 (V0 : Valuation τ sig (Elt F)) : u6 V0 (no_index (Proc.devRef .tc main_v17)) = res_main_v17 V0 :=
  (u6_keep V0 main_v17 (by decide)).trans (u5_main_v17 V0)
theorem u6_main_v19 (V0 : Valuation τ sig (Elt F)) : u6 V0 (no_index (Proc.devRef .tc main_v19)) = res_main_v19 V0 :=
  (u6_keep V0 main_v19 (by decide)).trans (u5_main_v19 V0)
theorem u6_main_v21 (V0 : Valuation τ sig (Elt F)) : u6 V0 (no_index (Proc.devRef .tc main_v21)) = res_main_v21 V0 :=
  (u6_keep V0 main_v21 (by decide)).trans (u5_main_v21 V0)
theorem u6_main_v23 (V0 : Valuation τ sig (Elt F)) : u6 V0 (no_index (Proc.devRef .tc main_v23)) = res_main_v23 V0 :=
  (u6_keep V0 main_v23 (by decide)).trans (u5_main_v23 V0)
theorem u6_main_v25 (V0 : Valuation τ sig (Elt F)) : u6 V0 (no_index (Proc.devRef .tc main_v25)) = res_main_v25 V0 :=
  (u6_keep V0 main_v25 (by decide)).trans (u5_main_v25 V0)
theorem u6_main_v27 (V0 : Valuation τ sig (Elt F)) : u6 V0 (no_index (Proc.devRef .tc main_v27)) = res_main_v27 V0 :=
  (u6_keep V0 main_v27 (by decide)).trans (u5_main_v27 V0)
theorem u6_main_v29 (V0 : Valuation τ sig (Elt F)) : u6 V0 (no_index (Proc.devRef .tc main_v29)) = res_main_v29 V0 :=
  (u6_keep V0 main_v29 (by decide)).trans (u5_main_v29 V0)
theorem u6_main_v31 (V0 : Valuation τ sig (Elt F)) : u6 V0 (no_index (Proc.devRef .tc main_v31)) = res_main_v31 V0 :=
  (u6_keep V0 main_v31 (by decide)).trans (u5_main_v31 V0)
theorem u6_main_v33 (V0 : Valuation τ sig (Elt F)) : u6 V0 (no_index (Proc.devRef .tc main_v33)) = res_main_v33 V0 :=
  (u6_keep V0 main_v33 (by decide)).trans (u5_main_v33 V0)
theorem u6_main_v35 (V0 : Valuation τ sig (Elt F)) : u6 V0 (no_index (Proc.devRef .tc main_v35)) = res_main_v35 V0 :=
  (u6_keep V0 main_v35 (by decide)).trans (u5_main_v35 V0)

theorem u7_main_arg0 (V0 : Valuation τ sig (Elt F)) : u7 V0 (no_index (Proc.devRef .tc main_arg0)) = V0 (Proc.devRef .tc main_arg0) :=
  (u7_keep V0 main_arg0 (by decide)).trans (u6_main_arg0 V0)
theorem u7_main_arg1 (V0 : Valuation τ sig (Elt F)) : u7 V0 (no_index (Proc.devRef .tc main_arg1)) = V0 (Proc.devRef .tc main_arg1) :=
  (u7_keep V0 main_arg1 (by decide)).trans (u6_main_arg1 V0)
theorem u7_main_arg2 (V0 : Valuation τ sig (Elt F)) : u7 V0 (no_index (Proc.devRef .tc main_arg2)) = V0 (Proc.devRef .tc main_arg2) :=
  (u7_keep V0 main_arg2 (by decide)).trans (u6_main_arg2 V0)
theorem u7_main_arg3 (V0 : Valuation τ sig (Elt F)) : u7 V0 (no_index (Proc.devRef .tc main_arg3)) = V0 (Proc.devRef .tc main_arg3) :=
  (u7_keep V0 main_arg3 (by decide)).trans (u6_main_arg3 V0)
theorem u7_main_arg4 (V0 : Valuation τ sig (Elt F)) : u7 V0 (no_index (Proc.devRef .tc main_arg4)) = V0 (Proc.devRef .tc main_arg4) :=
  (u7_keep V0 main_arg4 (by decide)).trans (u6_main_arg4 V0)
theorem u7_main_arg5 (V0 : Valuation τ sig (Elt F)) : u7 V0 (no_index (Proc.devRef .tc main_arg5)) = V0 (Proc.devRef .tc main_arg5) :=
  (u7_keep V0 main_arg5 (by decide)).trans (u6_main_arg5 V0)
theorem u7_main_arg6 (V0 : Valuation τ sig (Elt F)) : u7 V0 (no_index (Proc.devRef .tc main_arg6)) = V0 (Proc.devRef .tc main_arg6) :=
  (u7_keep V0 main_arg6 (by decide)).trans (u6_main_arg6 V0)
theorem u7_main_arg7 (V0 : Valuation τ sig (Elt F)) : u7 V0 (no_index (Proc.devRef .tc main_arg7)) = V0 (Proc.devRef .tc main_arg7) :=
  (u7_keep V0 main_arg7 (by decide)).trans (u6_main_arg7 V0)
theorem u7_main_arg8 (V0 : Valuation τ sig (Elt F)) : u7 V0 (no_index (Proc.devRef .tc main_arg8)) = V0 (Proc.devRef .tc main_arg8) :=
  (u7_keep V0 main_arg8 (by decide)).trans (u6_main_arg8 V0)
theorem u7_main_arg9 (V0 : Valuation τ sig (Elt F)) : u7 V0 (no_index (Proc.devRef .tc main_arg9)) = V0 (Proc.devRef .tc main_arg9) :=
  (u7_keep V0 main_arg9 (by decide)).trans (u6_main_arg9 V0)
theorem u7_main_arg10 (V0 : Valuation τ sig (Elt F)) : u7 V0 (no_index (Proc.devRef .tc main_arg10)) = V0 (Proc.devRef .tc main_arg10) :=
  (u7_keep V0 main_arg10 (by decide)).trans (u6_main_arg10 V0)
theorem u7_main_arg11 (V0 : Valuation τ sig (Elt F)) : u7 V0 (no_index (Proc.devRef .tc main_arg11)) = V0 (Proc.devRef .tc main_arg11) :=
  (u7_keep V0 main_arg11 (by decide)).trans (u6_main_arg11 V0)
theorem u7_main_arg12 (V0 : Valuation τ sig (Elt F)) : u7 V0 (no_index (Proc.devRef .tc main_arg12)) = V0 (Proc.devRef .tc main_arg12) :=
  (u7_keep V0 main_arg12 (by decide)).trans (u6_main_arg12 V0)
theorem u7_main_arg13 (V0 : Valuation τ sig (Elt F)) : u7 V0 (no_index (Proc.devRef .tc main_arg13)) = V0 (Proc.devRef .tc main_arg13) :=
  (u7_keep V0 main_arg13 (by decide)).trans (u6_main_arg13 V0)
theorem u7_main_arg14 (V0 : Valuation τ sig (Elt F)) : u7 V0 (no_index (Proc.devRef .tc main_arg14)) = V0 (Proc.devRef .tc main_arg14) :=
  (u7_keep V0 main_arg14 (by decide)).trans (u6_main_arg14 V0)
theorem u7_main_arg15 (V0 : Valuation τ sig (Elt F)) : u7 V0 (no_index (Proc.devRef .tc main_arg15)) = V0 (Proc.devRef .tc main_arg15) :=
  (u7_keep V0 main_arg15 (by decide)).trans (u6_main_arg15 V0)
theorem u7_main_arg16 (V0 : Valuation τ sig (Elt F)) : u7 V0 (no_index (Proc.devRef .tc main_arg16)) = V0 (Proc.devRef .tc main_arg16) :=
  (u7_keep V0 main_arg16 (by decide)).trans (u6_main_arg16 V0)
theorem u7_main_arg17 (V0 : Valuation τ sig (Elt F)) : u7 V0 (no_index (Proc.devRef .tc main_arg17)) = V0 (Proc.devRef .tc main_arg17) :=
  (u7_keep V0 main_arg17 (by decide)).trans (u6_main_arg17 V0)
theorem u7_main_arg18 (V0 : Valuation τ sig (Elt F)) : u7 V0 (no_index (Proc.devRef .tc main_arg18)) = V0 (Proc.devRef .tc main_arg18) :=
  (u7_keep V0 main_arg18 (by decide)).trans (u6_main_arg18 V0)
theorem u7_main_arg19 (V0 : Valuation τ sig (Elt F)) : u7 V0 (no_index (Proc.devRef .tc main_arg19)) = V0 (Proc.devRef .tc main_arg19) :=
  (u7_keep V0 main_arg19 (by decide)).trans (u6_main_arg19 V0)
theorem u7_main_arg20 (V0 : Valuation τ sig (Elt F)) : u7 V0 (no_index (Proc.devRef .tc main_arg20)) = V0 (Proc.devRef .tc main_arg20) :=
  (u7_keep V0 main_arg20 (by decide)).trans (u6_main_arg20 V0)
theorem u7_main_arg21 (V0 : Valuation τ sig (Elt F)) : u7 V0 (no_index (Proc.devRef .tc main_arg21)) = V0 (Proc.devRef .tc main_arg21) :=
  (u7_keep V0 main_arg21 (by decide)).trans (u6_main_arg21 V0)
theorem u7_main_v83 (V0 : Valuation τ sig (Elt F)) : u7 V0 (no_index (Proc.devRef .tc main_v83)) = res_main_v83 V0 :=
  (u7_keep V0 main_v83 (by decide)).trans (u6_main_v83 V0)
set_option maxRecDepth 8192 in
set_option maxHeartbeats 4000000 in
theorem u7_main_v117 (V0 : Valuation τ sig (Elt F)) : u7 V0 (no_index (Proc.devRef .tc main_v117)) = res_main_v117 V0 := by
  unfold u7
  simp only [ops2_0]
  after_results_simp
  try simp only [u6_main_v92, u6_main_v104, u6_main_v103, u6_main_v13, u6_main_v15, u6_main_arg3, u6_main_arg0]
  all_goals rfl
set_option maxRecDepth 8192 in
set_option maxHeartbeats 4000000 in
theorem u7_main_v124 (V0 : Valuation τ sig (Elt F)) : u7 V0 (no_index (Proc.devRef .tc main_v124)) = res_main_v124 V0 := by
  unfold u7
  simp only [ops2_0]
  after_results_simp
  try simp only [u6_main_v92, u6_main_v104, u6_main_v103, u6_main_v13, u6_main_v15, u6_main_arg3, u6_main_arg0]
  all_goals rfl
theorem u7_main_v17 (V0 : Valuation τ sig (Elt F)) : u7 V0 (no_index (Proc.devRef .tc main_v17)) = res_main_v17 V0 :=
  (u7_keep V0 main_v17 (by decide)).trans (u6_main_v17 V0)
theorem u7_main_v19 (V0 : Valuation τ sig (Elt F)) : u7 V0 (no_index (Proc.devRef .tc main_v19)) = res_main_v19 V0 :=
  (u7_keep V0 main_v19 (by decide)).trans (u6_main_v19 V0)
theorem u7_main_v21 (V0 : Valuation τ sig (Elt F)) : u7 V0 (no_index (Proc.devRef .tc main_v21)) = res_main_v21 V0 :=
  (u7_keep V0 main_v21 (by decide)).trans (u6_main_v21 V0)
theorem u7_main_v23 (V0 : Valuation τ sig (Elt F)) : u7 V0 (no_index (Proc.devRef .tc main_v23)) = res_main_v23 V0 :=
  (u7_keep V0 main_v23 (by decide)).trans (u6_main_v23 V0)
theorem u7_main_v25 (V0 : Valuation τ sig (Elt F)) : u7 V0 (no_index (Proc.devRef .tc main_v25)) = res_main_v25 V0 :=
  (u7_keep V0 main_v25 (by decide)).trans (u6_main_v25 V0)
theorem u7_main_v27 (V0 : Valuation τ sig (Elt F)) : u7 V0 (no_index (Proc.devRef .tc main_v27)) = res_main_v27 V0 :=
  (u7_keep V0 main_v27 (by decide)).trans (u6_main_v27 V0)
theorem u7_main_v29 (V0 : Valuation τ sig (Elt F)) : u7 V0 (no_index (Proc.devRef .tc main_v29)) = res_main_v29 V0 :=
  (u7_keep V0 main_v29 (by decide)).trans (u6_main_v29 V0)
theorem u7_main_v31 (V0 : Valuation τ sig (Elt F)) : u7 V0 (no_index (Proc.devRef .tc main_v31)) = res_main_v31 V0 :=
  (u7_keep V0 main_v31 (by decide)).trans (u6_main_v31 V0)
theorem u7_main_v33 (V0 : Valuation τ sig (Elt F)) : u7 V0 (no_index (Proc.devRef .tc main_v33)) = res_main_v33 V0 :=
  (u7_keep V0 main_v33 (by decide)).trans (u6_main_v33 V0)
theorem u7_main_v35 (V0 : Valuation τ sig (Elt F)) : u7 V0 (no_index (Proc.devRef .tc main_v35)) = res_main_v35 V0 :=
  (u7_keep V0 main_v35 (by decide)).trans (u6_main_v35 V0)

theorem u8_main_arg0 (V0 : Valuation τ sig (Elt F)) : u8 V0 (no_index (Proc.devRef .tc main_arg0)) = V0 (Proc.devRef .tc main_arg0) :=
  (u8_keep V0 main_arg0 (by decide)).trans (u7_main_arg0 V0)
theorem u8_main_arg1 (V0 : Valuation τ sig (Elt F)) : u8 V0 (no_index (Proc.devRef .tc main_arg1)) = V0 (Proc.devRef .tc main_arg1) :=
  (u8_keep V0 main_arg1 (by decide)).trans (u7_main_arg1 V0)
theorem u8_main_arg2 (V0 : Valuation τ sig (Elt F)) : u8 V0 (no_index (Proc.devRef .tc main_arg2)) = V0 (Proc.devRef .tc main_arg2) :=
  (u8_keep V0 main_arg2 (by decide)).trans (u7_main_arg2 V0)
theorem u8_main_arg3 (V0 : Valuation τ sig (Elt F)) : u8 V0 (no_index (Proc.devRef .tc main_arg3)) = V0 (Proc.devRef .tc main_arg3) :=
  (u8_keep V0 main_arg3 (by decide)).trans (u7_main_arg3 V0)
theorem u8_main_arg4 (V0 : Valuation τ sig (Elt F)) : u8 V0 (no_index (Proc.devRef .tc main_arg4)) = V0 (Proc.devRef .tc main_arg4) :=
  (u8_keep V0 main_arg4 (by decide)).trans (u7_main_arg4 V0)
theorem u8_main_arg5 (V0 : Valuation τ sig (Elt F)) : u8 V0 (no_index (Proc.devRef .tc main_arg5)) = V0 (Proc.devRef .tc main_arg5) :=
  (u8_keep V0 main_arg5 (by decide)).trans (u7_main_arg5 V0)
theorem u8_main_arg6 (V0 : Valuation τ sig (Elt F)) : u8 V0 (no_index (Proc.devRef .tc main_arg6)) = V0 (Proc.devRef .tc main_arg6) :=
  (u8_keep V0 main_arg6 (by decide)).trans (u7_main_arg6 V0)
theorem u8_main_arg7 (V0 : Valuation τ sig (Elt F)) : u8 V0 (no_index (Proc.devRef .tc main_arg7)) = V0 (Proc.devRef .tc main_arg7) :=
  (u8_keep V0 main_arg7 (by decide)).trans (u7_main_arg7 V0)
theorem u8_main_arg8 (V0 : Valuation τ sig (Elt F)) : u8 V0 (no_index (Proc.devRef .tc main_arg8)) = V0 (Proc.devRef .tc main_arg8) :=
  (u8_keep V0 main_arg8 (by decide)).trans (u7_main_arg8 V0)
theorem u8_main_arg9 (V0 : Valuation τ sig (Elt F)) : u8 V0 (no_index (Proc.devRef .tc main_arg9)) = V0 (Proc.devRef .tc main_arg9) :=
  (u8_keep V0 main_arg9 (by decide)).trans (u7_main_arg9 V0)
theorem u8_main_arg10 (V0 : Valuation τ sig (Elt F)) : u8 V0 (no_index (Proc.devRef .tc main_arg10)) = V0 (Proc.devRef .tc main_arg10) :=
  (u8_keep V0 main_arg10 (by decide)).trans (u7_main_arg10 V0)
theorem u8_main_arg11 (V0 : Valuation τ sig (Elt F)) : u8 V0 (no_index (Proc.devRef .tc main_arg11)) = V0 (Proc.devRef .tc main_arg11) :=
  (u8_keep V0 main_arg11 (by decide)).trans (u7_main_arg11 V0)
theorem u8_main_arg12 (V0 : Valuation τ sig (Elt F)) : u8 V0 (no_index (Proc.devRef .tc main_arg12)) = V0 (Proc.devRef .tc main_arg12) :=
  (u8_keep V0 main_arg12 (by decide)).trans (u7_main_arg12 V0)
theorem u8_main_arg13 (V0 : Valuation τ sig (Elt F)) : u8 V0 (no_index (Proc.devRef .tc main_arg13)) = V0 (Proc.devRef .tc main_arg13) :=
  (u8_keep V0 main_arg13 (by decide)).trans (u7_main_arg13 V0)
theorem u8_main_arg14 (V0 : Valuation τ sig (Elt F)) : u8 V0 (no_index (Proc.devRef .tc main_arg14)) = V0 (Proc.devRef .tc main_arg14) :=
  (u8_keep V0 main_arg14 (by decide)).trans (u7_main_arg14 V0)
theorem u8_main_arg15 (V0 : Valuation τ sig (Elt F)) : u8 V0 (no_index (Proc.devRef .tc main_arg15)) = V0 (Proc.devRef .tc main_arg15) :=
  (u8_keep V0 main_arg15 (by decide)).trans (u7_main_arg15 V0)
theorem u8_main_arg16 (V0 : Valuation τ sig (Elt F)) : u8 V0 (no_index (Proc.devRef .tc main_arg16)) = V0 (Proc.devRef .tc main_arg16) :=
  (u8_keep V0 main_arg16 (by decide)).trans (u7_main_arg16 V0)
theorem u8_main_arg17 (V0 : Valuation τ sig (Elt F)) : u8 V0 (no_index (Proc.devRef .tc main_arg17)) = V0 (Proc.devRef .tc main_arg17) :=
  (u8_keep V0 main_arg17 (by decide)).trans (u7_main_arg17 V0)
theorem u8_main_arg18 (V0 : Valuation τ sig (Elt F)) : u8 V0 (no_index (Proc.devRef .tc main_arg18)) = V0 (Proc.devRef .tc main_arg18) :=
  (u8_keep V0 main_arg18 (by decide)).trans (u7_main_arg18 V0)
theorem u8_main_arg19 (V0 : Valuation τ sig (Elt F)) : u8 V0 (no_index (Proc.devRef .tc main_arg19)) = V0 (Proc.devRef .tc main_arg19) :=
  (u8_keep V0 main_arg19 (by decide)).trans (u7_main_arg19 V0)
theorem u8_main_arg20 (V0 : Valuation τ sig (Elt F)) : u8 V0 (no_index (Proc.devRef .tc main_arg20)) = V0 (Proc.devRef .tc main_arg20) :=
  (u8_keep V0 main_arg20 (by decide)).trans (u7_main_arg20 V0)
theorem u8_main_arg21 (V0 : Valuation τ sig (Elt F)) : u8 V0 (no_index (Proc.devRef .tc main_arg21)) = V0 (Proc.devRef .tc main_arg21) :=
  (u8_keep V0 main_arg21 (by decide)).trans (u7_main_arg21 V0)
theorem u8_main_v17 (V0 : Valuation τ sig (Elt F)) : u8 V0 (no_index (Proc.devRef .tc main_v17)) = res_main_v17 V0 :=
  (u8_keep V0 main_v17 (by decide)).trans (u7_main_v17 V0)
set_option maxRecDepth 8192 in
set_option maxHeartbeats 4000000 in
theorem u8_main_v125 (V0 : Valuation τ sig (Elt F)) : u8 V0 (no_index (Proc.devRef .tc main_v125)) = res_main_v125 V0 := by
  unfold u8
  simp only [ops2_1]
  simp only [after_cons, after_nil]
  rw [nary_result]
  unfold res_main_v125
  exact cat3_congr (u7_main_v83 V0) (u7_main_v117 V0) (u7_main_v124 V0)
theorem u8_main_v19 (V0 : Valuation τ sig (Elt F)) : u8 V0 (no_index (Proc.devRef .tc main_v19)) = res_main_v19 V0 :=
  (u8_keep V0 main_v19 (by decide)).trans (u7_main_v19 V0)
theorem u8_main_v21 (V0 : Valuation τ sig (Elt F)) : u8 V0 (no_index (Proc.devRef .tc main_v21)) = res_main_v21 V0 :=
  (u8_keep V0 main_v21 (by decide)).trans (u7_main_v21 V0)
theorem u8_main_v23 (V0 : Valuation τ sig (Elt F)) : u8 V0 (no_index (Proc.devRef .tc main_v23)) = res_main_v23 V0 :=
  (u8_keep V0 main_v23 (by decide)).trans (u7_main_v23 V0)
theorem u8_main_v25 (V0 : Valuation τ sig (Elt F)) : u8 V0 (no_index (Proc.devRef .tc main_v25)) = res_main_v25 V0 :=
  (u8_keep V0 main_v25 (by decide)).trans (u7_main_v25 V0)
theorem u8_main_v27 (V0 : Valuation τ sig (Elt F)) : u8 V0 (no_index (Proc.devRef .tc main_v27)) = res_main_v27 V0 :=
  (u8_keep V0 main_v27 (by decide)).trans (u7_main_v27 V0)
theorem u8_main_v29 (V0 : Valuation τ sig (Elt F)) : u8 V0 (no_index (Proc.devRef .tc main_v29)) = res_main_v29 V0 :=
  (u8_keep V0 main_v29 (by decide)).trans (u7_main_v29 V0)
theorem u8_main_v31 (V0 : Valuation τ sig (Elt F)) : u8 V0 (no_index (Proc.devRef .tc main_v31)) = res_main_v31 V0 :=
  (u8_keep V0 main_v31 (by decide)).trans (u7_main_v31 V0)
theorem u8_main_v33 (V0 : Valuation τ sig (Elt F)) : u8 V0 (no_index (Proc.devRef .tc main_v33)) = res_main_v33 V0 :=
  (u8_keep V0 main_v33 (by decide)).trans (u7_main_v33 V0)
theorem u8_main_v35 (V0 : Valuation τ sig (Elt F)) : u8 V0 (no_index (Proc.devRef .tc main_v35)) = res_main_v35 V0 :=
  (u8_keep V0 main_v35 (by decide)).trans (u7_main_v35 V0)

theorem u9_main_arg0 (V0 : Valuation τ sig (Elt F)) : u9 V0 (no_index (Proc.devRef .tc main_arg0)) = V0 (Proc.devRef .tc main_arg0) :=
  (u9_keep V0 main_arg0 (by decide)).trans (u8_main_arg0 V0)
theorem u9_main_arg1 (V0 : Valuation τ sig (Elt F)) : u9 V0 (no_index (Proc.devRef .tc main_arg1)) = V0 (Proc.devRef .tc main_arg1) :=
  (u9_keep V0 main_arg1 (by decide)).trans (u8_main_arg1 V0)
theorem u9_main_arg2 (V0 : Valuation τ sig (Elt F)) : u9 V0 (no_index (Proc.devRef .tc main_arg2)) = V0 (Proc.devRef .tc main_arg2) :=
  (u9_keep V0 main_arg2 (by decide)).trans (u8_main_arg2 V0)
theorem u9_main_arg3 (V0 : Valuation τ sig (Elt F)) : u9 V0 (no_index (Proc.devRef .tc main_arg3)) = V0 (Proc.devRef .tc main_arg3) :=
  (u9_keep V0 main_arg3 (by decide)).trans (u8_main_arg3 V0)
theorem u9_main_arg4 (V0 : Valuation τ sig (Elt F)) : u9 V0 (no_index (Proc.devRef .tc main_arg4)) = V0 (Proc.devRef .tc main_arg4) :=
  (u9_keep V0 main_arg4 (by decide)).trans (u8_main_arg4 V0)
theorem u9_main_arg5 (V0 : Valuation τ sig (Elt F)) : u9 V0 (no_index (Proc.devRef .tc main_arg5)) = V0 (Proc.devRef .tc main_arg5) :=
  (u9_keep V0 main_arg5 (by decide)).trans (u8_main_arg5 V0)
theorem u9_main_arg6 (V0 : Valuation τ sig (Elt F)) : u9 V0 (no_index (Proc.devRef .tc main_arg6)) = V0 (Proc.devRef .tc main_arg6) :=
  (u9_keep V0 main_arg6 (by decide)).trans (u8_main_arg6 V0)
theorem u9_main_arg7 (V0 : Valuation τ sig (Elt F)) : u9 V0 (no_index (Proc.devRef .tc main_arg7)) = V0 (Proc.devRef .tc main_arg7) :=
  (u9_keep V0 main_arg7 (by decide)).trans (u8_main_arg7 V0)
theorem u9_main_arg8 (V0 : Valuation τ sig (Elt F)) : u9 V0 (no_index (Proc.devRef .tc main_arg8)) = V0 (Proc.devRef .tc main_arg8) :=
  (u9_keep V0 main_arg8 (by decide)).trans (u8_main_arg8 V0)
theorem u9_main_arg9 (V0 : Valuation τ sig (Elt F)) : u9 V0 (no_index (Proc.devRef .tc main_arg9)) = V0 (Proc.devRef .tc main_arg9) :=
  (u9_keep V0 main_arg9 (by decide)).trans (u8_main_arg9 V0)
theorem u9_main_arg10 (V0 : Valuation τ sig (Elt F)) : u9 V0 (no_index (Proc.devRef .tc main_arg10)) = V0 (Proc.devRef .tc main_arg10) :=
  (u9_keep V0 main_arg10 (by decide)).trans (u8_main_arg10 V0)
theorem u9_main_arg11 (V0 : Valuation τ sig (Elt F)) : u9 V0 (no_index (Proc.devRef .tc main_arg11)) = V0 (Proc.devRef .tc main_arg11) :=
  (u9_keep V0 main_arg11 (by decide)).trans (u8_main_arg11 V0)
theorem u9_main_arg12 (V0 : Valuation τ sig (Elt F)) : u9 V0 (no_index (Proc.devRef .tc main_arg12)) = V0 (Proc.devRef .tc main_arg12) :=
  (u9_keep V0 main_arg12 (by decide)).trans (u8_main_arg12 V0)
theorem u9_main_arg13 (V0 : Valuation τ sig (Elt F)) : u9 V0 (no_index (Proc.devRef .tc main_arg13)) = V0 (Proc.devRef .tc main_arg13) :=
  (u9_keep V0 main_arg13 (by decide)).trans (u8_main_arg13 V0)
theorem u9_main_arg14 (V0 : Valuation τ sig (Elt F)) : u9 V0 (no_index (Proc.devRef .tc main_arg14)) = V0 (Proc.devRef .tc main_arg14) :=
  (u9_keep V0 main_arg14 (by decide)).trans (u8_main_arg14 V0)
theorem u9_main_arg15 (V0 : Valuation τ sig (Elt F)) : u9 V0 (no_index (Proc.devRef .tc main_arg15)) = V0 (Proc.devRef .tc main_arg15) :=
  (u9_keep V0 main_arg15 (by decide)).trans (u8_main_arg15 V0)
theorem u9_main_arg16 (V0 : Valuation τ sig (Elt F)) : u9 V0 (no_index (Proc.devRef .tc main_arg16)) = V0 (Proc.devRef .tc main_arg16) :=
  (u9_keep V0 main_arg16 (by decide)).trans (u8_main_arg16 V0)
theorem u9_main_arg17 (V0 : Valuation τ sig (Elt F)) : u9 V0 (no_index (Proc.devRef .tc main_arg17)) = V0 (Proc.devRef .tc main_arg17) :=
  (u9_keep V0 main_arg17 (by decide)).trans (u8_main_arg17 V0)
theorem u9_main_arg18 (V0 : Valuation τ sig (Elt F)) : u9 V0 (no_index (Proc.devRef .tc main_arg18)) = V0 (Proc.devRef .tc main_arg18) :=
  (u9_keep V0 main_arg18 (by decide)).trans (u8_main_arg18 V0)
theorem u9_main_arg19 (V0 : Valuation τ sig (Elt F)) : u9 V0 (no_index (Proc.devRef .tc main_arg19)) = V0 (Proc.devRef .tc main_arg19) :=
  (u9_keep V0 main_arg19 (by decide)).trans (u8_main_arg19 V0)
theorem u9_main_arg20 (V0 : Valuation τ sig (Elt F)) : u9 V0 (no_index (Proc.devRef .tc main_arg20)) = V0 (Proc.devRef .tc main_arg20) :=
  (u9_keep V0 main_arg20 (by decide)).trans (u8_main_arg20 V0)
theorem u9_main_arg21 (V0 : Valuation τ sig (Elt F)) : u9 V0 (no_index (Proc.devRef .tc main_arg21)) = V0 (Proc.devRef .tc main_arg21) :=
  (u9_keep V0 main_arg21 (by decide)).trans (u8_main_arg21 V0)
set_option maxRecDepth 8192 in
set_option maxHeartbeats 4000000 in
theorem u9_main_v138 (V0 : Valuation τ sig (Elt F)) : u9 V0 (no_index (Proc.devRef .tc main_v138)) = res_main_v138 V0 := by
  unfold u9
  simp only [ops2_2]
  after_results_simp
  try simp only [u8_main_v17, u8_main_v125]
  all_goals rfl
set_option maxRecDepth 8192 in
set_option maxHeartbeats 4000000 in
theorem u9_main_v140 (V0 : Valuation τ sig (Elt F)) : u9 V0 (no_index (Proc.devRef .tc main_v140)) = res_main_v140 V0 := by
  unfold u9
  simp only [ops2_2]
  after_results_simp
  try simp only [u8_main_v17, u8_main_v125]
  all_goals rfl
theorem u9_main_v19 (V0 : Valuation τ sig (Elt F)) : u9 V0 (no_index (Proc.devRef .tc main_v19)) = res_main_v19 V0 :=
  (u9_keep V0 main_v19 (by decide)).trans (u8_main_v19 V0)
theorem u9_main_v21 (V0 : Valuation τ sig (Elt F)) : u9 V0 (no_index (Proc.devRef .tc main_v21)) = res_main_v21 V0 :=
  (u9_keep V0 main_v21 (by decide)).trans (u8_main_v21 V0)
theorem u9_main_v23 (V0 : Valuation τ sig (Elt F)) : u9 V0 (no_index (Proc.devRef .tc main_v23)) = res_main_v23 V0 :=
  (u9_keep V0 main_v23 (by decide)).trans (u8_main_v23 V0)
theorem u9_main_v25 (V0 : Valuation τ sig (Elt F)) : u9 V0 (no_index (Proc.devRef .tc main_v25)) = res_main_v25 V0 :=
  (u9_keep V0 main_v25 (by decide)).trans (u8_main_v25 V0)
theorem u9_main_v27 (V0 : Valuation τ sig (Elt F)) : u9 V0 (no_index (Proc.devRef .tc main_v27)) = res_main_v27 V0 :=
  (u9_keep V0 main_v27 (by decide)).trans (u8_main_v27 V0)
theorem u9_main_v29 (V0 : Valuation τ sig (Elt F)) : u9 V0 (no_index (Proc.devRef .tc main_v29)) = res_main_v29 V0 :=
  (u9_keep V0 main_v29 (by decide)).trans (u8_main_v29 V0)
theorem u9_main_v31 (V0 : Valuation τ sig (Elt F)) : u9 V0 (no_index (Proc.devRef .tc main_v31)) = res_main_v31 V0 :=
  (u9_keep V0 main_v31 (by decide)).trans (u8_main_v31 V0)
theorem u9_main_v33 (V0 : Valuation τ sig (Elt F)) : u9 V0 (no_index (Proc.devRef .tc main_v33)) = res_main_v33 V0 :=
  (u9_keep V0 main_v33 (by decide)).trans (u8_main_v33 V0)
theorem u9_main_v35 (V0 : Valuation τ sig (Elt F)) : u9 V0 (no_index (Proc.devRef .tc main_v35)) = res_main_v35 V0 :=
  (u9_keep V0 main_v35 (by decide)).trans (u8_main_v35 V0)

theorem u10_main_arg0 (V0 : Valuation τ sig (Elt F)) : u10 V0 (no_index (Proc.devRef .tc main_arg0)) = V0 (Proc.devRef .tc main_arg0) :=
  (u10_keep V0 main_arg0 (by decide)).trans (u9_main_arg0 V0)
theorem u10_main_arg1 (V0 : Valuation τ sig (Elt F)) : u10 V0 (no_index (Proc.devRef .tc main_arg1)) = V0 (Proc.devRef .tc main_arg1) :=
  (u10_keep V0 main_arg1 (by decide)).trans (u9_main_arg1 V0)
theorem u10_main_arg2 (V0 : Valuation τ sig (Elt F)) : u10 V0 (no_index (Proc.devRef .tc main_arg2)) = V0 (Proc.devRef .tc main_arg2) :=
  (u10_keep V0 main_arg2 (by decide)).trans (u9_main_arg2 V0)
theorem u10_main_arg3 (V0 : Valuation τ sig (Elt F)) : u10 V0 (no_index (Proc.devRef .tc main_arg3)) = V0 (Proc.devRef .tc main_arg3) :=
  (u10_keep V0 main_arg3 (by decide)).trans (u9_main_arg3 V0)
theorem u10_main_arg4 (V0 : Valuation τ sig (Elt F)) : u10 V0 (no_index (Proc.devRef .tc main_arg4)) = V0 (Proc.devRef .tc main_arg4) :=
  (u10_keep V0 main_arg4 (by decide)).trans (u9_main_arg4 V0)
theorem u10_main_arg5 (V0 : Valuation τ sig (Elt F)) : u10 V0 (no_index (Proc.devRef .tc main_arg5)) = V0 (Proc.devRef .tc main_arg5) :=
  (u10_keep V0 main_arg5 (by decide)).trans (u9_main_arg5 V0)
theorem u10_main_arg6 (V0 : Valuation τ sig (Elt F)) : u10 V0 (no_index (Proc.devRef .tc main_arg6)) = V0 (Proc.devRef .tc main_arg6) :=
  (u10_keep V0 main_arg6 (by decide)).trans (u9_main_arg6 V0)
theorem u10_main_arg7 (V0 : Valuation τ sig (Elt F)) : u10 V0 (no_index (Proc.devRef .tc main_arg7)) = V0 (Proc.devRef .tc main_arg7) :=
  (u10_keep V0 main_arg7 (by decide)).trans (u9_main_arg7 V0)
theorem u10_main_arg8 (V0 : Valuation τ sig (Elt F)) : u10 V0 (no_index (Proc.devRef .tc main_arg8)) = V0 (Proc.devRef .tc main_arg8) :=
  (u10_keep V0 main_arg8 (by decide)).trans (u9_main_arg8 V0)
theorem u10_main_arg9 (V0 : Valuation τ sig (Elt F)) : u10 V0 (no_index (Proc.devRef .tc main_arg9)) = V0 (Proc.devRef .tc main_arg9) :=
  (u10_keep V0 main_arg9 (by decide)).trans (u9_main_arg9 V0)
theorem u10_main_arg10 (V0 : Valuation τ sig (Elt F)) : u10 V0 (no_index (Proc.devRef .tc main_arg10)) = V0 (Proc.devRef .tc main_arg10) :=
  (u10_keep V0 main_arg10 (by decide)).trans (u9_main_arg10 V0)
theorem u10_main_arg11 (V0 : Valuation τ sig (Elt F)) : u10 V0 (no_index (Proc.devRef .tc main_arg11)) = V0 (Proc.devRef .tc main_arg11) :=
  (u10_keep V0 main_arg11 (by decide)).trans (u9_main_arg11 V0)
theorem u10_main_arg12 (V0 : Valuation τ sig (Elt F)) : u10 V0 (no_index (Proc.devRef .tc main_arg12)) = V0 (Proc.devRef .tc main_arg12) :=
  (u10_keep V0 main_arg12 (by decide)).trans (u9_main_arg12 V0)
theorem u10_main_arg13 (V0 : Valuation τ sig (Elt F)) : u10 V0 (no_index (Proc.devRef .tc main_arg13)) = V0 (Proc.devRef .tc main_arg13) :=
  (u10_keep V0 main_arg13 (by decide)).trans (u9_main_arg13 V0)
theorem u10_main_arg14 (V0 : Valuation τ sig (Elt F)) : u10 V0 (no_index (Proc.devRef .tc main_arg14)) = V0 (Proc.devRef .tc main_arg14) :=
  (u10_keep V0 main_arg14 (by decide)).trans (u9_main_arg14 V0)
theorem u10_main_arg15 (V0 : Valuation τ sig (Elt F)) : u10 V0 (no_index (Proc.devRef .tc main_arg15)) = V0 (Proc.devRef .tc main_arg15) :=
  (u10_keep V0 main_arg15 (by decide)).trans (u9_main_arg15 V0)
theorem u10_main_arg16 (V0 : Valuation τ sig (Elt F)) : u10 V0 (no_index (Proc.devRef .tc main_arg16)) = V0 (Proc.devRef .tc main_arg16) :=
  (u10_keep V0 main_arg16 (by decide)).trans (u9_main_arg16 V0)
theorem u10_main_arg17 (V0 : Valuation τ sig (Elt F)) : u10 V0 (no_index (Proc.devRef .tc main_arg17)) = V0 (Proc.devRef .tc main_arg17) :=
  (u10_keep V0 main_arg17 (by decide)).trans (u9_main_arg17 V0)
theorem u10_main_arg18 (V0 : Valuation τ sig (Elt F)) : u10 V0 (no_index (Proc.devRef .tc main_arg18)) = V0 (Proc.devRef .tc main_arg18) :=
  (u10_keep V0 main_arg18 (by decide)).trans (u9_main_arg18 V0)
theorem u10_main_arg19 (V0 : Valuation τ sig (Elt F)) : u10 V0 (no_index (Proc.devRef .tc main_arg19)) = V0 (Proc.devRef .tc main_arg19) :=
  (u10_keep V0 main_arg19 (by decide)).trans (u9_main_arg19 V0)
theorem u10_main_arg20 (V0 : Valuation τ sig (Elt F)) : u10 V0 (no_index (Proc.devRef .tc main_arg20)) = V0 (Proc.devRef .tc main_arg20) :=
  (u10_keep V0 main_arg20 (by decide)).trans (u9_main_arg20 V0)
theorem u10_main_arg21 (V0 : Valuation τ sig (Elt F)) : u10 V0 (no_index (Proc.devRef .tc main_arg21)) = V0 (Proc.devRef .tc main_arg21) :=
  (u10_keep V0 main_arg21 (by decide)).trans (u9_main_arg21 V0)
set_option maxRecDepth 8192 in
set_option maxHeartbeats 4000000 in
theorem u10_main_v156 (V0 : Valuation τ sig (Elt F)) : u10 V0 (no_index (Proc.devRef .tc main_v156)) = res_main_v156 V0 := by
  unfold u10
  simp only [ops2_3]
  after_results_simp
  try simp only [u9_main_v138, u9_main_v140, u9_main_v19, u9_main_v21, u9_main_v23, u9_main_v25, u9_main_arg0]
  all_goals rfl
set_option maxRecDepth 8192 in
set_option maxHeartbeats 4000000 in
theorem u10_main_v154 (V0 : Valuation τ sig (Elt F)) : u10 V0 (no_index (Proc.devRef .tc main_v154)) = res_main_v154 V0 := by
  unfold u10
  simp only [ops2_3]
  after_results_simp
  try simp only [u9_main_v138, u9_main_v140, u9_main_v19, u9_main_v21, u9_main_v23, u9_main_v25, u9_main_arg0]
  all_goals rfl
theorem u10_main_v27 (V0 : Valuation τ sig (Elt F)) : u10 V0 (no_index (Proc.devRef .tc main_v27)) = res_main_v27 V0 :=
  (u10_keep V0 main_v27 (by decide)).trans (u9_main_v27 V0)
theorem u10_main_v29 (V0 : Valuation τ sig (Elt F)) : u10 V0 (no_index (Proc.devRef .tc main_v29)) = res_main_v29 V0 :=
  (u10_keep V0 main_v29 (by decide)).trans (u9_main_v29 V0)
theorem u10_main_v31 (V0 : Valuation τ sig (Elt F)) : u10 V0 (no_index (Proc.devRef .tc main_v31)) = res_main_v31 V0 :=
  (u10_keep V0 main_v31 (by decide)).trans (u9_main_v31 V0)
theorem u10_main_v33 (V0 : Valuation τ sig (Elt F)) : u10 V0 (no_index (Proc.devRef .tc main_v33)) = res_main_v33 V0 :=
  (u10_keep V0 main_v33 (by decide)).trans (u9_main_v33 V0)
theorem u10_main_v35 (V0 : Valuation τ sig (Elt F)) : u10 V0 (no_index (Proc.devRef .tc main_v35)) = res_main_v35 V0 :=
  (u10_keep V0 main_v35 (by decide)).trans (u9_main_v35 V0)

theorem u11_main_arg0 (V0 : Valuation τ sig (Elt F)) : u11 V0 (no_index (Proc.devRef .tc main_arg0)) = V0 (Proc.devRef .tc main_arg0) :=
  (u11_keep V0 main_arg0 (by decide)).trans (u10_main_arg0 V0)
theorem u11_main_arg1 (V0 : Valuation τ sig (Elt F)) : u11 V0 (no_index (Proc.devRef .tc main_arg1)) = V0 (Proc.devRef .tc main_arg1) :=
  (u11_keep V0 main_arg1 (by decide)).trans (u10_main_arg1 V0)
theorem u11_main_arg2 (V0 : Valuation τ sig (Elt F)) : u11 V0 (no_index (Proc.devRef .tc main_arg2)) = V0 (Proc.devRef .tc main_arg2) :=
  (u11_keep V0 main_arg2 (by decide)).trans (u10_main_arg2 V0)
theorem u11_main_arg3 (V0 : Valuation τ sig (Elt F)) : u11 V0 (no_index (Proc.devRef .tc main_arg3)) = V0 (Proc.devRef .tc main_arg3) :=
  (u11_keep V0 main_arg3 (by decide)).trans (u10_main_arg3 V0)
theorem u11_main_arg4 (V0 : Valuation τ sig (Elt F)) : u11 V0 (no_index (Proc.devRef .tc main_arg4)) = V0 (Proc.devRef .tc main_arg4) :=
  (u11_keep V0 main_arg4 (by decide)).trans (u10_main_arg4 V0)
theorem u11_main_arg5 (V0 : Valuation τ sig (Elt F)) : u11 V0 (no_index (Proc.devRef .tc main_arg5)) = V0 (Proc.devRef .tc main_arg5) :=
  (u11_keep V0 main_arg5 (by decide)).trans (u10_main_arg5 V0)
theorem u11_main_arg6 (V0 : Valuation τ sig (Elt F)) : u11 V0 (no_index (Proc.devRef .tc main_arg6)) = V0 (Proc.devRef .tc main_arg6) :=
  (u11_keep V0 main_arg6 (by decide)).trans (u10_main_arg6 V0)
theorem u11_main_arg7 (V0 : Valuation τ sig (Elt F)) : u11 V0 (no_index (Proc.devRef .tc main_arg7)) = V0 (Proc.devRef .tc main_arg7) :=
  (u11_keep V0 main_arg7 (by decide)).trans (u10_main_arg7 V0)
theorem u11_main_arg8 (V0 : Valuation τ sig (Elt F)) : u11 V0 (no_index (Proc.devRef .tc main_arg8)) = V0 (Proc.devRef .tc main_arg8) :=
  (u11_keep V0 main_arg8 (by decide)).trans (u10_main_arg8 V0)
theorem u11_main_arg9 (V0 : Valuation τ sig (Elt F)) : u11 V0 (no_index (Proc.devRef .tc main_arg9)) = V0 (Proc.devRef .tc main_arg9) :=
  (u11_keep V0 main_arg9 (by decide)).trans (u10_main_arg9 V0)
theorem u11_main_arg10 (V0 : Valuation τ sig (Elt F)) : u11 V0 (no_index (Proc.devRef .tc main_arg10)) = V0 (Proc.devRef .tc main_arg10) :=
  (u11_keep V0 main_arg10 (by decide)).trans (u10_main_arg10 V0)
theorem u11_main_arg11 (V0 : Valuation τ sig (Elt F)) : u11 V0 (no_index (Proc.devRef .tc main_arg11)) = V0 (Proc.devRef .tc main_arg11) :=
  (u11_keep V0 main_arg11 (by decide)).trans (u10_main_arg11 V0)
theorem u11_main_arg12 (V0 : Valuation τ sig (Elt F)) : u11 V0 (no_index (Proc.devRef .tc main_arg12)) = V0 (Proc.devRef .tc main_arg12) :=
  (u11_keep V0 main_arg12 (by decide)).trans (u10_main_arg12 V0)
theorem u11_main_arg13 (V0 : Valuation τ sig (Elt F)) : u11 V0 (no_index (Proc.devRef .tc main_arg13)) = V0 (Proc.devRef .tc main_arg13) :=
  (u11_keep V0 main_arg13 (by decide)).trans (u10_main_arg13 V0)
theorem u11_main_arg14 (V0 : Valuation τ sig (Elt F)) : u11 V0 (no_index (Proc.devRef .tc main_arg14)) = V0 (Proc.devRef .tc main_arg14) :=
  (u11_keep V0 main_arg14 (by decide)).trans (u10_main_arg14 V0)
theorem u11_main_arg15 (V0 : Valuation τ sig (Elt F)) : u11 V0 (no_index (Proc.devRef .tc main_arg15)) = V0 (Proc.devRef .tc main_arg15) :=
  (u11_keep V0 main_arg15 (by decide)).trans (u10_main_arg15 V0)
theorem u11_main_arg16 (V0 : Valuation τ sig (Elt F)) : u11 V0 (no_index (Proc.devRef .tc main_arg16)) = V0 (Proc.devRef .tc main_arg16) :=
  (u11_keep V0 main_arg16 (by decide)).trans (u10_main_arg16 V0)
theorem u11_main_arg17 (V0 : Valuation τ sig (Elt F)) : u11 V0 (no_index (Proc.devRef .tc main_arg17)) = V0 (Proc.devRef .tc main_arg17) :=
  (u11_keep V0 main_arg17 (by decide)).trans (u10_main_arg17 V0)
theorem u11_main_arg18 (V0 : Valuation τ sig (Elt F)) : u11 V0 (no_index (Proc.devRef .tc main_arg18)) = V0 (Proc.devRef .tc main_arg18) :=
  (u11_keep V0 main_arg18 (by decide)).trans (u10_main_arg18 V0)
theorem u11_main_arg19 (V0 : Valuation τ sig (Elt F)) : u11 V0 (no_index (Proc.devRef .tc main_arg19)) = V0 (Proc.devRef .tc main_arg19) :=
  (u11_keep V0 main_arg19 (by decide)).trans (u10_main_arg19 V0)
theorem u11_main_arg20 (V0 : Valuation τ sig (Elt F)) : u11 V0 (no_index (Proc.devRef .tc main_arg20)) = V0 (Proc.devRef .tc main_arg20) :=
  (u11_keep V0 main_arg20 (by decide)).trans (u10_main_arg20 V0)
theorem u11_main_arg21 (V0 : Valuation τ sig (Elt F)) : u11 V0 (no_index (Proc.devRef .tc main_arg21)) = V0 (Proc.devRef .tc main_arg21) :=
  (u11_keep V0 main_arg21 (by decide)).trans (u10_main_arg21 V0)
set_option maxRecDepth 8192 in
set_option maxHeartbeats 4000000 in
theorem u11_main_cst_26 (V0 : Valuation τ sig (Elt F)) : u11 V0 (no_index (Proc.devRef .tc main_cst_26)) = res_main_cst_26 V0 := by
  unfold u11
  simp only [ops3_0]
  after_results_simp
  try simp only [u10_main_arg2, u10_main_v156, u10_main_v154]
  all_goals rfl
set_option maxRecDepth 8192 in
set_option maxHeartbeats 4000000 in
theorem u11_main_v172 (V0 : Valuation τ sig (Elt F)) : u11 V0 (no_index (Proc.devRef .tc main_v172)) = res_main_v172 V0 := by
  unfold u11
  simp only [ops3_0]
  after_results_simp
  try simp only [u10_main_arg2, u10_main_v156, u10_main_v154]
  all_goals rfl
set_option maxRecDepth 8192 in
set_option maxHeartbeats 4000000 in
theorem u11_main_v167 (V0 : Valuation τ sig (Elt F)) : u11 V0 (no_index (Proc.devRef .tc main_v167)) = res_main_v167 V0 := by
  unfold u11
  simp only [ops3_0]
  after_results_simp
  try simp only [u10_main_arg2, u10_main_v156, u10_main_v154]
  all_goals rfl
set_option maxRecDepth 8192 in
set_option maxHeartbeats 4000000 in
theorem u11_main_v163 (V0 : Valuation τ sig (Elt F)) : u11 V0 (no_index (Proc.devRef .tc main_v163)) = res_main_v163 V0 := by
  unfold u11
  simp only [ops3_0]
  after_results_simp
  try simp only [u10_main_arg2, u10_main_v156, u10_main_v154]
  all_goals rfl
theorem u11_main_v27 (V0 : Valuation τ sig (Elt F)) : u11 V0 (no_index (Proc.devRef .tc main_v27)) = res_main_v27 V0 :=
  (u11_keep V0 main_v27 (by decide)).trans (u10_main_v27 V0)
theorem u11_main_v29 (V0 : Valuation τ sig (Elt F)) : u11 V0 (no_index (Proc.devRef .tc main_v29)) = res_main_v29 V0 :=
  (u11_keep V0 main_v29 (by decide)).trans (u10_main_v29 V0)
theorem u11_main_v31 (V0 : Valuation τ sig (Elt F)) : u11 V0 (no_index (Proc.devRef .tc main_v31)) = res_main_v31 V0 :=
  (u11_keep V0 main_v31 (by decide)).trans (u10_main_v31 V0)
theorem u11_main_v33 (V0 : Valuation τ sig (Elt F)) : u11 V0 (no_index (Proc.devRef .tc main_v33)) = res_main_v33 V0 :=
  (u11_keep V0 main_v33 (by decide)).trans (u10_main_v33 V0)
theorem u11_main_v35 (V0 : Valuation τ sig (Elt F)) : u11 V0 (no_index (Proc.devRef .tc main_v35)) = res_main_v35 V0 :=
  (u11_keep V0 main_v35 (by decide)).trans (u10_main_v35 V0)

theorem u12_main_arg0 (V0 : Valuation τ sig (Elt F)) : u12 V0 (no_index (Proc.devRef .tc main_arg0)) = V0 (Proc.devRef .tc main_arg0) :=
  (u12_keep V0 main_arg0 (by decide)).trans (u11_main_arg0 V0)
theorem u12_main_arg1 (V0 : Valuation τ sig (Elt F)) : u12 V0 (no_index (Proc.devRef .tc main_arg1)) = V0 (Proc.devRef .tc main_arg1) :=
  (u12_keep V0 main_arg1 (by decide)).trans (u11_main_arg1 V0)
theorem u12_main_arg2 (V0 : Valuation τ sig (Elt F)) : u12 V0 (no_index (Proc.devRef .tc main_arg2)) = V0 (Proc.devRef .tc main_arg2) :=
  (u12_keep V0 main_arg2 (by decide)).trans (u11_main_arg2 V0)
theorem u12_main_arg3 (V0 : Valuation τ sig (Elt F)) : u12 V0 (no_index (Proc.devRef .tc main_arg3)) = V0 (Proc.devRef .tc main_arg3) :=
  (u12_keep V0 main_arg3 (by decide)).trans (u11_main_arg3 V0)
theorem u12_main_arg4 (V0 : Valuation τ sig (Elt F)) : u12 V0 (no_index (Proc.devRef .tc main_arg4)) = V0 (Proc.devRef .tc main_arg4) :=
  (u12_keep V0 main_arg4 (by decide)).trans (u11_main_arg4 V0)
theorem u12_main_arg5 (V0 : Valuation τ sig (Elt F)) : u12 V0 (no_index (Proc.devRef .tc main_arg5)) = V0 (Proc.devRef .tc main_arg5) :=
  (u12_keep V0 main_arg5 (by decide)).trans (u11_main_arg5 V0)
theorem u12_main_arg6 (V0 : Valuation τ sig (Elt F)) : u12 V0 (no_index (Proc.devRef .tc main_arg6)) = V0 (Proc.devRef .tc main_arg6) :=
  (u12_keep V0 main_arg6 (by decide)).trans (u11_main_arg6 V0)
theorem u12_main_arg7 (V0 : Valuation τ sig (Elt F)) : u12 V0 (no_index (Proc.devRef .tc main_arg7)) = V0 (Proc.devRef .tc main_arg7) :=
  (u12_keep V0 main_arg7 (by decide)).trans (u11_main_arg7 V0)
theorem u12_main_arg8 (V0 : Valuation τ sig (Elt F)) : u12 V0 (no_index (Proc.devRef .tc main_arg8)) = V0 (Proc.devRef .tc main_arg8) :=
  (u12_keep V0 main_arg8 (by decide)).trans (u11_main_arg8 V0)
theorem u12_main_arg9 (V0 : Valuation τ sig (Elt F)) : u12 V0 (no_index (Proc.devRef .tc main_arg9)) = V0 (Proc.devRef .tc main_arg9) :=
  (u12_keep V0 main_arg9 (by decide)).trans (u11_main_arg9 V0)
theorem u12_main_arg10 (V0 : Valuation τ sig (Elt F)) : u12 V0 (no_index (Proc.devRef .tc main_arg10)) = V0 (Proc.devRef .tc main_arg10) :=
  (u12_keep V0 main_arg10 (by decide)).trans (u11_main_arg10 V0)
theorem u12_main_arg11 (V0 : Valuation τ sig (Elt F)) : u12 V0 (no_index (Proc.devRef .tc main_arg11)) = V0 (Proc.devRef .tc main_arg11) :=
  (u12_keep V0 main_arg11 (by decide)).trans (u11_main_arg11 V0)
theorem u12_main_arg12 (V0 : Valuation τ sig (Elt F)) : u12 V0 (no_index (Proc.devRef .tc main_arg12)) = V0 (Proc.devRef .tc main_arg12) :=
  (u12_keep V0 main_arg12 (by decide)).trans (u11_main_arg12 V0)
theorem u12_main_arg13 (V0 : Valuation τ sig (Elt F)) : u12 V0 (no_index (Proc.devRef .tc main_arg13)) = V0 (Proc.devRef .tc main_arg13) :=
  (u12_keep V0 main_arg13 (by decide)).trans (u11_main_arg13 V0)
theorem u12_main_arg14 (V0 : Valuation τ sig (Elt F)) : u12 V0 (no_index (Proc.devRef .tc main_arg14)) = V0 (Proc.devRef .tc main_arg14) :=
  (u12_keep V0 main_arg14 (by decide)).trans (u11_main_arg14 V0)
theorem u12_main_arg15 (V0 : Valuation τ sig (Elt F)) : u12 V0 (no_index (Proc.devRef .tc main_arg15)) = V0 (Proc.devRef .tc main_arg15) :=
  (u12_keep V0 main_arg15 (by decide)).trans (u11_main_arg15 V0)
theorem u12_main_arg16 (V0 : Valuation τ sig (Elt F)) : u12 V0 (no_index (Proc.devRef .tc main_arg16)) = V0 (Proc.devRef .tc main_arg16) :=
  (u12_keep V0 main_arg16 (by decide)).trans (u11_main_arg16 V0)
theorem u12_main_arg17 (V0 : Valuation τ sig (Elt F)) : u12 V0 (no_index (Proc.devRef .tc main_arg17)) = V0 (Proc.devRef .tc main_arg17) :=
  (u12_keep V0 main_arg17 (by decide)).trans (u11_main_arg17 V0)
theorem u12_main_arg18 (V0 : Valuation τ sig (Elt F)) : u12 V0 (no_index (Proc.devRef .tc main_arg18)) = V0 (Proc.devRef .tc main_arg18) :=
  (u12_keep V0 main_arg18 (by decide)).trans (u11_main_arg18 V0)
theorem u12_main_arg19 (V0 : Valuation τ sig (Elt F)) : u12 V0 (no_index (Proc.devRef .tc main_arg19)) = V0 (Proc.devRef .tc main_arg19) :=
  (u12_keep V0 main_arg19 (by decide)).trans (u11_main_arg19 V0)
theorem u12_main_arg20 (V0 : Valuation τ sig (Elt F)) : u12 V0 (no_index (Proc.devRef .tc main_arg20)) = V0 (Proc.devRef .tc main_arg20) :=
  (u12_keep V0 main_arg20 (by decide)).trans (u11_main_arg20 V0)
theorem u12_main_arg21 (V0 : Valuation τ sig (Elt F)) : u12 V0 (no_index (Proc.devRef .tc main_arg21)) = V0 (Proc.devRef .tc main_arg21) :=
  (u12_keep V0 main_arg21 (by decide)).trans (u11_main_arg21 V0)
set_option maxRecDepth 8192 in
set_option maxHeartbeats 4000000 in
theorem u12_main_call4_v3 (V0 : Valuation τ sig (Elt F)) : u12 V0 (no_index (Proc.devRef .tc main_call4_v3)) = res_main_call4_v3 V0 := by
  unfold u12
  simp only [ops3_1]
  after_results_simp
  try simp only [u11_main_cst_26, u11_main_v172, u11_main_v167, u11_main_v163, u11_main_v27, u11_main_v29]
  all_goals rfl
set_option maxRecDepth 8192 in
set_option maxHeartbeats 4000000 in
theorem u12_main_v187 (V0 : Valuation τ sig (Elt F)) : u12 V0 (no_index (Proc.devRef .tc main_v187)) = res_main_v187 V0 := by
  unfold u12
  simp only [ops3_1]
  after_results_simp
  try simp only [u11_main_cst_26, u11_main_v172, u11_main_v167, u11_main_v163, u11_main_v27, u11_main_v29]
  all_goals rfl
set_option maxRecDepth 8192 in
set_option maxHeartbeats 4000000 in
theorem u12_main_call4_v1 (V0 : Valuation τ sig (Elt F)) : u12 V0 (no_index (Proc.devRef .tc main_call4_v1)) = res_main_call4_v1 V0 := by
  unfold u12
  simp only [ops3_1]
  after_results_simp
  try simp only [u11_main_cst_26, u11_main_v172, u11_main_v167, u11_main_v163, u11_main_v27, u11_main_v29]
  all_goals rfl
theorem u12_main_v31 (V0 : Valuation τ sig (Elt F)) : u12 V0 (no_index (Proc.devRef .tc main_v31)) = res_main_v31 V0 :=
  (u12_keep V0 main_v31 (by decide)).trans (u11_main_v31 V0)
theorem u12_main_v33 (V0 : Valuation τ sig (Elt F)) : u12 V0 (no_index (Proc.devRef .tc main_v33)) = res_main_v33 V0 :=
  (u12_keep V0 main_v33 (by decide)).trans (u11_main_v33 V0)
theorem u12_main_v35 (V0 : Valuation τ sig (Elt F)) : u12 V0 (no_index (Proc.devRef .tc main_v35)) = res_main_v35 V0 :=
  (u12_keep V0 main_v35 (by decide)).trans (u11_main_v35 V0)

theorem u13_main_arg0 (V0 : Valuation τ sig (Elt F)) : u13 V0 (no_index (Proc.devRef .tc main_arg0)) = V0 (Proc.devRef .tc main_arg0) :=
  (u13_keep V0 main_arg0 (by decide)).trans (u12_main_arg0 V0)
theorem u13_main_arg1 (V0 : Valuation τ sig (Elt F)) : u13 V0 (no_index (Proc.devRef .tc main_arg1)) = V0 (Proc.devRef .tc main_arg1) :=
  (u13_keep V0 main_arg1 (by decide)).trans (u12_main_arg1 V0)
theorem u13_main_arg2 (V0 : Valuation τ sig (Elt F)) : u13 V0 (no_index (Proc.devRef .tc main_arg2)) = V0 (Proc.devRef .tc main_arg2) :=
  (u13_keep V0 main_arg2 (by decide)).trans (u12_main_arg2 V0)
theorem u13_main_arg3 (V0 : Valuation τ sig (Elt F)) : u13 V0 (no_index (Proc.devRef .tc main_arg3)) = V0 (Proc.devRef .tc main_arg3) :=
  (u13_keep V0 main_arg3 (by decide)).trans (u12_main_arg3 V0)
theorem u13_main_arg4 (V0 : Valuation τ sig (Elt F)) : u13 V0 (no_index (Proc.devRef .tc main_arg4)) = V0 (Proc.devRef .tc main_arg4) :=
  (u13_keep V0 main_arg4 (by decide)).trans (u12_main_arg4 V0)
theorem u13_main_arg5 (V0 : Valuation τ sig (Elt F)) : u13 V0 (no_index (Proc.devRef .tc main_arg5)) = V0 (Proc.devRef .tc main_arg5) :=
  (u13_keep V0 main_arg5 (by decide)).trans (u12_main_arg5 V0)
theorem u13_main_arg6 (V0 : Valuation τ sig (Elt F)) : u13 V0 (no_index (Proc.devRef .tc main_arg6)) = V0 (Proc.devRef .tc main_arg6) :=
  (u13_keep V0 main_arg6 (by decide)).trans (u12_main_arg6 V0)
theorem u13_main_arg7 (V0 : Valuation τ sig (Elt F)) : u13 V0 (no_index (Proc.devRef .tc main_arg7)) = V0 (Proc.devRef .tc main_arg7) :=
  (u13_keep V0 main_arg7 (by decide)).trans (u12_main_arg7 V0)
theorem u13_main_arg8 (V0 : Valuation τ sig (Elt F)) : u13 V0 (no_index (Proc.devRef .tc main_arg8)) = V0 (Proc.devRef .tc main_arg8) :=
  (u13_keep V0 main_arg8 (by decide)).trans (u12_main_arg8 V0)
theorem u13_main_arg9 (V0 : Valuation τ sig (Elt F)) : u13 V0 (no_index (Proc.devRef .tc main_arg9)) = V0 (Proc.devRef .tc main_arg9) :=
  (u13_keep V0 main_arg9 (by decide)).trans (u12_main_arg9 V0)
theorem u13_main_arg10 (V0 : Valuation τ sig (Elt F)) : u13 V0 (no_index (Proc.devRef .tc main_arg10)) = V0 (Proc.devRef .tc main_arg10) :=
  (u13_keep V0 main_arg10 (by decide)).trans (u12_main_arg10 V0)
theorem u13_main_arg11 (V0 : Valuation τ sig (Elt F)) : u13 V0 (no_index (Proc.devRef .tc main_arg11)) = V0 (Proc.devRef .tc main_arg11) :=
  (u13_keep V0 main_arg11 (by decide)).trans (u12_main_arg11 V0)
theorem u13_main_arg12 (V0 : Valuation τ sig (Elt F)) : u13 V0 (no_index (Proc.devRef .tc main_arg12)) = V0 (Proc.devRef .tc main_arg12) :=
  (u13_keep V0 main_arg12 (by decide)).trans (u12_main_arg12 V0)
theorem u13_main_arg13 (V0 : Valuation τ sig (Elt F)) : u13 V0 (no_index (Proc.devRef .tc main_arg13)) = V0 (Proc.devRef .tc main_arg13) :=
  (u13_keep V0 main_arg13 (by decide)).trans (u12_main_arg13 V0)
theorem u13_main_arg14 (V0 : Valuation τ sig (Elt F)) : u13 V0 (no_index (Proc.devRef .tc main_arg14)) = V0 (Proc.devRef .tc main_arg14) :=
  (u13_keep V0 main_arg14 (by decide)).trans (u12_main_arg14 V0)
theorem u13_main_arg15 (V0 : Valuation τ sig (Elt F)) : u13 V0 (no_index (Proc.devRef .tc main_arg15)) = V0 (Proc.devRef .tc main_arg15) :=
  (u13_keep V0 main_arg15 (by decide)).trans (u12_main_arg15 V0)
theorem u13_main_arg16 (V0 : Valuation τ sig (Elt F)) : u13 V0 (no_index (Proc.devRef .tc main_arg16)) = V0 (Proc.devRef .tc main_arg16) :=
  (u13_keep V0 main_arg16 (by decide)).trans (u12_main_arg16 V0)
theorem u13_main_arg17 (V0 : Valuation τ sig (Elt F)) : u13 V0 (no_index (Proc.devRef .tc main_arg17)) = V0 (Proc.devRef .tc main_arg17) :=
  (u13_keep V0 main_arg17 (by decide)).trans (u12_main_arg17 V0)
theorem u13_main_arg18 (V0 : Valuation τ sig (Elt F)) : u13 V0 (no_index (Proc.devRef .tc main_arg18)) = V0 (Proc.devRef .tc main_arg18) :=
  (u13_keep V0 main_arg18 (by decide)).trans (u12_main_arg18 V0)
theorem u13_main_arg19 (V0 : Valuation τ sig (Elt F)) : u13 V0 (no_index (Proc.devRef .tc main_arg19)) = V0 (Proc.devRef .tc main_arg19) :=
  (u13_keep V0 main_arg19 (by decide)).trans (u12_main_arg19 V0)
theorem u13_main_arg20 (V0 : Valuation τ sig (Elt F)) : u13 V0 (no_index (Proc.devRef .tc main_arg20)) = V0 (Proc.devRef .tc main_arg20) :=
  (u13_keep V0 main_arg20 (by decide)).trans (u12_main_arg20 V0)
theorem u13_main_arg21 (V0 : Valuation τ sig (Elt F)) : u13 V0 (no_index (Proc.devRef .tc main_arg21)) = V0 (Proc.devRef .tc main_arg21) :=
  (u13_keep V0 main_arg21 (by decide)).trans (u12_main_arg21 V0)
set_option maxRecDepth 8192 in
set_option maxHeartbeats 4000000 in
theorem u13_main_cst_33 (V0 : Valuation τ sig (Elt F)) : u13 V0 (no_index (Proc.devRef .tc main_cst_33)) = res_main_cst_33 V0 := by
  unfold u13
  simp only [ops3_2]
  after_results_simp
  try simp only [u12_main_call4_v3, u12_main_v187, u12_main_call4_v1, u12_main_v31]
  all_goals rfl
set_option maxRecDepth 8192 in
set_option maxHeartbeats 4000000 in
theorem u13_main_v201 (V0 : Valuation τ sig (Elt F)) : u13 V0 (no_index (Proc.devRef .tc main_v201)) = res_main_v201 V0 := by
  unfold u13
  simp only [ops3_2]
  after_results_simp
  try simp only [u12_main_call4_v3, u12_main_v187, u12_main_call4_v1, u12_main_v31]
  all_goals rfl
set_option maxRecDepth 8192 in
set_option maxHeartbeats 4000000 in
theorem u13_main_v203 (V0 : Valuation τ sig (Elt F)) : u13 V0 (no_index (Proc.devRef .tc main_v203)) = res_main_v203 V0 := by
  unfold u13
  simp only [ops3_2]
  after_results_simp
  try simp only [u12_main_call4_v3, u12_main_v187, u12_main_call4_v1, u12_main_v31]
  all_goals rfl
theorem u13_main_v33 (V0 : Valuation τ sig (Elt F)) : u13 V0 (no_index (Proc.devRef .tc main_v33)) = res_main_v33 V0 :=
  (u13_keep V0 main_v33 (by decide)).trans (u12_main_v33 V0)
theorem u13_main_v35 (V0 : Valuation τ sig (Elt F)) : u13 V0 (no_index (Proc.devRef .tc main_v35)) = res_main_v35 V0 :=
  (u13_keep V0 main_v35 (by decide)).trans (u12_main_v35 V0)

theorem u14_main_arg1 (V0 : Valuation τ sig (Elt F)) : u14 V0 (no_index (Proc.devRef .tc main_arg1)) = V0 (Proc.devRef .tc main_arg1) :=
  (u14_keep V0 main_arg1 (by decide)).trans (u13_main_arg1 V0)
theorem u14_main_arg2 (V0 : Valuation τ sig (Elt F)) : u14 V0 (no_index (Proc.devRef .tc main_arg2)) = V0 (Proc.devRef .tc main_arg2) :=
  (u14_keep V0 main_arg2 (by decide)).trans (u13_main_arg2 V0)
theorem u14_main_arg3 (V0 : Valuation τ sig (Elt F)) : u14 V0 (no_index (Proc.devRef .tc main_arg3)) = V0 (Proc.devRef .tc main_arg3) :=
  (u14_keep V0 main_arg3 (by decide)).trans (u13_main_arg3 V0)
theorem u14_main_arg5 (V0 : Valuation τ sig (Elt F)) : u14 V0 (no_index (Proc.devRef .tc main_arg5)) = V0 (Proc.devRef .tc main_arg5) :=
  (u14_keep V0 main_arg5 (by decide)).trans (u13_main_arg5 V0)
theorem u14_main_arg6 (V0 : Valuation τ sig (Elt F)) : u14 V0 (no_index (Proc.devRef .tc main_arg6)) = V0 (Proc.devRef .tc main_arg6) :=
  (u14_keep V0 main_arg6 (by decide)).trans (u13_main_arg6 V0)
theorem u14_main_arg7 (V0 : Valuation τ sig (Elt F)) : u14 V0 (no_index (Proc.devRef .tc main_arg7)) = V0 (Proc.devRef .tc main_arg7) :=
  (u14_keep V0 main_arg7 (by decide)).trans (u13_main_arg7 V0)
theorem u14_main_arg8 (V0 : Valuation τ sig (Elt F)) : u14 V0 (no_index (Proc.devRef .tc main_arg8)) = V0 (Proc.devRef .tc main_arg8) :=
  (u14_keep V0 main_arg8 (by decide)).trans (u13_main_arg8 V0)
theorem u14_main_arg9 (V0 : Valuation τ sig (Elt F)) : u14 V0 (no_index (Proc.devRef .tc main_arg9)) = V0 (Proc.devRef .tc main_arg9) :=
  (u14_keep V0 main_arg9 (by decide)).trans (u13_main_arg9 V0)
theorem u14_main_arg10 (V0 : Valuation τ sig (Elt F)) : u14 V0 (no_index (Proc.devRef .tc main_arg10)) = V0 (Proc.devRef .tc main_arg10) :=
  (u14_keep V0 main_arg10 (by decide)).trans (u13_main_arg10 V0)
theorem u14_main_arg11 (V0 : Valuation τ sig (Elt F)) : u14 V0 (no_index (Proc.devRef .tc main_arg11)) = V0 (Proc.devRef .tc main_arg11) :=
  (u14_keep V0 main_arg11 (by decide)).trans (u13_main_arg11 V0)
theorem u14_main_arg12 (V0 : Valuation τ sig (Elt F)) : u14 V0 (no_index (Proc.devRef .tc main_arg12)) = V0 (Proc.devRef .tc main_arg12) :=
  (u14_keep V0 main_arg12 (by decide)).trans (u13_main_arg12 V0)
theorem u14_main_arg13 (V0 : Valuation τ sig (Elt F)) : u14 V0 (no_index (Proc.devRef .tc main_arg13)) = V0 (Proc.devRef .tc main_arg13) :=
  (u14_keep V0 main_arg13 (by decide)).trans (u13_main_arg13 V0)
theorem u14_main_arg14 (V0 : Valuation τ sig (Elt F)) : u14 V0 (no_index (Proc.devRef .tc main_arg14)) = V0 (Proc.devRef .tc main_arg14) :=
  (u14_keep V0 main_arg14 (by decide)).trans (u13_main_arg14 V0)
theorem u14_main_arg15 (V0 : Valuation τ sig (Elt F)) : u14 V0 (no_index (Proc.devRef .tc main_arg15)) = V0 (Proc.devRef .tc main_arg15) :=
  (u14_keep V0 main_arg15 (by decide)).trans (u13_main_arg15 V0)
theorem u14_main_arg16 (V0 : Valuation τ sig (Elt F)) : u14 V0 (no_index (Proc.devRef .tc main_arg16)) = V0 (Proc.devRef .tc main_arg16) :=
  (u14_keep V0 main_arg16 (by decide)).trans (u13_main_arg16 V0)
theorem u14_main_arg17 (V0 : Valuation τ sig (Elt F)) : u14 V0 (no_index (Proc.devRef .tc main_arg17)) = V0 (Proc.devRef .tc main_arg17) :=
  (u14_keep V0 main_arg17 (by decide)).trans (u13_main_arg17 V0)
theorem u14_main_arg18 (V0 : Valuation τ sig (Elt F)) : u14 V0 (no_index (Proc.devRef .tc main_arg18)) = V0 (Proc.devRef .tc main_arg18) :=
  (u14_keep V0 main_arg18 (by decide)).trans (u13_main_arg18 V0)
theorem u14_main_arg19 (V0 : Valuation τ sig (Elt F)) : u14 V0 (no_index (Proc.devRef .tc main_arg19)) = V0 (Proc.devRef .tc main_arg19) :=
  (u14_keep V0 main_arg19 (by decide)).trans (u13_main_arg19 V0)
theorem u14_main_arg20 (V0 : Valuation τ sig (Elt F)) : u14 V0 (no_index (Proc.devRef .tc main_arg20)) = V0 (Proc.devRef .tc main_arg20) :=
  (u14_keep V0 main_arg20 (by decide)).trans (u13_main_arg20 V0)
theorem u14_main_arg21 (V0 : Valuation τ sig (Elt F)) : u14 V0 (no_index (Proc.devRef .tc main_arg21)) = V0 (Proc.devRef .tc main_arg21) :=
  (u14_keep V0 main_arg21 (by decide)).trans (u13_main_arg21 V0)
set_option maxRecDepth 8192 in
set_option maxHeartbeats 4000000 in
theorem u14_main_v218 (V0 : Valuation τ sig (Elt F)) : u14 V0 (no_index (Proc.devRef .tc main_v218)) = res_main_v218 V0 := by
  unfold u14
  simp only [ops4_0]
  after_results_simp
  try simp only [u13_main_cst_33, u13_main_v201, u13_main_v203, u13_main_v33, u13_main_v35, u13_main_arg0, u13_main_arg4]
  all_goals rfl
set_option maxRecDepth 8192 in
set_option maxHeartbeats 4000000 in
theorem u14_main_v216 (V0 : Valuation τ sig (Elt F)) : u14 V0 (no_index (Proc.devRef .tc main_v216)) = res_main_v216 V0 := by
  unfold u14
  simp only [ops4_0]
  after_results_simp
  try simp only [u13_main_cst_33, u13_main_v201, u13_main_v203, u13_main_v33, u13_main_v35, u13_main_arg0, u13_main_arg4]
  all_goals rfl

theorem u15_main_arg1 (V0 : Valuation τ sig (Elt F)) : u15 V0 (no_index (Proc.devRef .tc main_arg1)) = V0 (Proc.devRef .tc main_arg1) :=
  (u15_keep V0 main_arg1 (by decide)).trans (u14_main_arg1 V0)
theorem u15_main_arg2 (V0 : Valuation τ sig (Elt F)) : u15 V0 (no_index (Proc.devRef .tc main_arg2)) = V0 (Proc.devRef .tc main_arg2) :=
  (u15_keep V0 main_arg2 (by decide)).trans (u14_main_arg2 V0)
theorem u15_main_arg3 (V0 : Valuation τ sig (Elt F)) : u15 V0 (no_index (Proc.devRef .tc main_arg3)) = V0 (Proc.devRef .tc main_arg3) :=
  (u15_keep V0 main_arg3 (by decide)).trans (u14_main_arg3 V0)
theorem u15_main_arg16 (V0 : Valuation τ sig (Elt F)) : u15 V0 (no_index (Proc.devRef .tc main_arg16)) = V0 (Proc.devRef .tc main_arg16) :=
  (u15_keep V0 main_arg16 (by decide)).trans (u14_main_arg16 V0)
theorem u15_main_arg17 (V0 : Valuation τ sig (Elt F)) : u15 V0 (no_index (Proc.devRef .tc main_arg17)) = V0 (Proc.devRef .tc main_arg17) :=
  (u15_keep V0 main_arg17 (by decide)).trans (u14_main_arg17 V0)
theorem u15_main_arg18 (V0 : Valuation τ sig (Elt F)) : u15 V0 (no_index (Proc.devRef .tc main_arg18)) = V0 (Proc.devRef .tc main_arg18) :=
  (u15_keep V0 main_arg18 (by decide)).trans (u14_main_arg18 V0)
theorem u15_main_arg19 (V0 : Valuation τ sig (Elt F)) : u15 V0 (no_index (Proc.devRef .tc main_arg19)) = V0 (Proc.devRef .tc main_arg19) :=
  (u15_keep V0 main_arg19 (by decide)).trans (u14_main_arg19 V0)
theorem u15_main_arg20 (V0 : Valuation τ sig (Elt F)) : u15 V0 (no_index (Proc.devRef .tc main_arg20)) = V0 (Proc.devRef .tc main_arg20) :=
  (u15_keep V0 main_arg20 (by decide)).trans (u14_main_arg20 V0)
theorem u15_main_arg21 (V0 : Valuation τ sig (Elt F)) : u15 V0 (no_index (Proc.devRef .tc main_arg21)) = V0 (Proc.devRef .tc main_arg21) :=
  (u15_keep V0 main_arg21 (by decide)).trans (u14_main_arg21 V0)
theorem u15_main_v218 (V0 : Valuation τ sig (Elt F)) : u15 V0 (no_index (Proc.devRef .tc main_v218)) = res_main_v218 V0 :=
  (u15_keep V0 main_v218 (by decide)).trans (u14_main_v218 V0)
set_option maxRecDepth 8192 in
set_option maxHeartbeats 4000000 in
theorem u15_main_v220 (V0 : Valuation τ sig (Elt F)) : u15 V0 (no_index (Proc.devRef .tc main_v220)) = res_main_v220 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
set_option maxRecDepth 8192 in
set_option maxHeartbeats 4000000 in
theorem u15_main_v222 (V0 : Valuation τ sig (Elt F)) : u15 V0 (no_index (Proc.devRef .tc main_v222)) = res_main_v222 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
set_option maxRecDepth 8192 in
set_option maxHeartbeats 4000000 in
theorem u15_main_v224 (V0 : Valuation τ sig (Elt F)) : u15 V0 (no_index (Proc.devRef .tc main_v224)) = res_main_v224 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
set_option maxRecDepth 8192 in
set_option maxHeartbeats 4000000 in
theorem u15_main_v226 (V0 : Valuation τ sig (Elt F)) : u15 V0 (no_index (Proc.devRef .tc main_v226)) = res_main_v226 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
theorem u15_main_v216 (V0 : Valuation τ sig (Elt F)) : u15 V0 (no_index (Proc.devRef .tc main_v216)) = res_main_v216 V0 :=
  (u15_keep V0 main_v216 (by decide)).trans (u14_main_v216 V0)
set_option maxRecDepth 8192 in
set_option maxHeartbeats 4000000 in
theorem u15_main_v228 (V0 : Valuation τ sig (Elt F)) : u15 V0 (no_index (Proc.devRef .tc main_v228)) = res_main_v228 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
set_option maxRecDepth 8192 in
set_option maxHeartbeats 4000000 in
theorem u15_main_v230 (V0 : Valuation τ sig (Elt F)) : u15 V0 (no_index (Proc.devRef .tc main_v230)) = res_main_v230 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
set_option maxRecDepth 8192 in
set_option maxHeartbeats 4000000 in
theorem u15_main_v232 (V0 : Valuation τ sig (Elt F)) : u15 V0 (no_index (Proc.devRef .tc main_v232)) = res_main_v232 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
set_option maxRecDepth 8192 in
set_option maxHeartbeats 4000000 in
theorem u15_main_v234 (V0 : Valuation τ sig (Elt F)) : u15 V0 (no_index (Proc.devRef .tc main_v234)) = res_main_v234 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
set_option maxRecDepth 8192 in
set_option maxHeartbeats 4000000 in
theorem u15_main_v236 (V0 : Valuation τ sig (Elt F)) : u15 V0 (no_index (Proc.devRef .tc main_v236)) = res_main_v236 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
set_option maxRecDepth 8192 in
set_option maxHeartbeats 4000000 in
theorem u15_main_v238 (V0 : Valuation τ sig (Elt F)) : u15 V0 (no_index (Proc.devRef .tc main_v238)) = res_main_v238 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl
set_option maxRecDepth 8192 in
set_option maxHeartbeats 4000000 in
theorem u15_main_v240 (V0 : Valuation τ sig (Elt F)) : u15 V0 (no_index (Proc.devRef .tc main_v240)) = res_main_v240 V0 := by
  unfold u15
  simp only [ops4_1]
  after_results_simp
  try simp only [u14_main_arg5, u14_main_arg6, u14_main_arg7, u14_main_arg8, u14_main_arg9, u14_main_arg10, u14_main_arg11, u14_main_arg12, u14_main_arg13, u14_main_arg14, u14_main_arg15]
  all_goals rfl

theorem u16_main_arg1 (V0 : Valuation τ sig (Elt F)) : u16 V0 (no_index (Proc.devRef .tc main_arg1)) = V0 (Proc.devRef .tc main_arg1) :=
  (u16_keep V0 main_arg1 (by decide)).trans (u15_main_arg1 V0)
theorem u16_main_arg2 (V0 : Valuation τ sig (Elt F)) : u16 V0 (no_index (Proc.devRef .tc main_arg2)) = V0 (Proc.devRef .tc main_arg2) :=
  (u16_keep V0 main_arg2 (by decide)).trans (u15_main_arg2 V0)
theorem u16_main_arg3 (V0 : Valuation τ sig (Elt F)) : u16 V0 (no_index (Proc.devRef .tc main_arg3)) = V0 (Proc.devRef .tc main_arg3) :=
  (u16_keep V0 main_arg3 (by decide)).trans (u15_main_arg3 V0)
set_option maxRecDepth 8192 in
set_option maxHeartbeats 4000000 in
theorem u16_main_c_37 (V0 : Valuation τ sig (Elt F)) : u16 V0 (no_index (Proc.devRef .tc main_c_37)) = res_main_c_37 V0 := by
  unfold u16
  simp only [ops4_2]
  after_results_simp
  try simp only [u15_main_arg16, u15_main_arg17, u15_main_arg18, u15_main_arg19, u15_main_arg20, u15_main_arg21, u15_main_arg2, u15_main_arg1]
  all_goals rfl
set_option maxRecDepth 8192 in
set_option maxHeartbeats 4000000 in
theorem u16_main_v259 (V0 : Valuation τ sig (Elt F)) : u16 V0 (no_index (Proc.devRef .tc main_v259)) = res_main_v259 V0 := by
  unfold u16
  simp only [ops4_2]
  after_results_simp
  try simp only [u15_main_arg16, u15_main_arg17, u15_main_arg18, u15_main_arg19, u15_main_arg20, u15_main_arg21, u15_main_arg2, u15_main_arg1]
  all_goals rfl
theorem u16_main_v218 (V0 : Valuation τ sig (Elt F)) : u16 V0 (no_index (Proc.devRef .tc main_v218)) = res_main_v218 V0 :=
  (u16_keep V0 main_v218 (by decide)).trans (u15_main_v218 V0)
theorem u16_main_v220 (V0 : Valuation τ sig (Elt F)) : u16 V0 (no_index (Proc.devRef .tc main_v220)) = res_main_v220 V0 :=
  (u16_keep V0 main_v220 (by decide)).trans (u15_main_v220 V0)
theorem u16_main_v222 (V0 : Valuation τ sig (Elt F)) : u16 V0 (no_index (Proc.devRef .tc main_v222)) = res_main_v222 V0 :=
  (u16_keep V0 main_v222 (by decide)).trans (u15_main_v222 V0)
theorem u16_main_v224 (V0 : Valuation τ sig (Elt F)) : u16 V0 (no_index (Proc.devRef .tc main_v224)) = res_main_v224 V0 :=
  (u16_keep V0 main_v224 (by decide)).trans (u15_main_v224 V0)
theorem u16_main_v226 (V0 : Valuation τ sig (Elt F)) : u16 V0 (no_index (Proc.devRef .tc main_v226)) = res_main_v226 V0 :=
  (u16_keep V0 main_v226 (by decide)).trans (u15_main_v226 V0)
theorem u16_main_v216 (V0 : Valuation τ sig (Elt F)) : u16 V0 (no_index (Proc.devRef .tc main_v216)) = res_main_v216 V0 :=
  (u16_keep V0 main_v216 (by decide)).trans (u15_main_v216 V0)
theorem u16_main_v228 (V0 : Valuation τ sig (Elt F)) : u16 V0 (no_index (Proc.devRef .tc main_v228)) = res_main_v228 V0 :=
  (u16_keep V0 main_v228 (by decide)).trans (u15_main_v228 V0)
theorem u16_main_v230 (V0 : Valuation τ sig (Elt F)) : u16 V0 (no_index (Proc.devRef .tc main_v230)) = res_main_v230 V0 :=
  (u16_keep V0 main_v230 (by decide)).trans (u15_main_v230 V0)
theorem u16_main_v232 (V0 : Valuation τ sig (Elt F)) : u16 V0 (no_index (Proc.devRef .tc main_v232)) = res_main_v232 V0 :=
  (u16_keep V0 main_v232 (by decide)).trans (u15_main_v232 V0)
theorem u16_main_v234 (V0 : Valuation τ sig (Elt F)) : u16 V0 (no_index (Proc.devRef .tc main_v234)) = res_main_v234 V0 :=
  (u16_keep V0 main_v234 (by decide)).trans (u15_main_v234 V0)
theorem u16_main_v236 (V0 : Valuation τ sig (Elt F)) : u16 V0 (no_index (Proc.devRef .tc main_v236)) = res_main_v236 V0 :=
  (u16_keep V0 main_v236 (by decide)).trans (u15_main_v236 V0)
theorem u16_main_v238 (V0 : Valuation τ sig (Elt F)) : u16 V0 (no_index (Proc.devRef .tc main_v238)) = res_main_v238 V0 :=
  (u16_keep V0 main_v238 (by decide)).trans (u15_main_v238 V0)
theorem u16_main_v240 (V0 : Valuation τ sig (Elt F)) : u16 V0 (no_index (Proc.devRef .tc main_v240)) = res_main_v240 V0 :=
  (u16_keep V0 main_v240 (by decide)).trans (u15_main_v240 V0)
set_option maxRecDepth 8192 in
set_option maxHeartbeats 4000000 in
theorem u16_main_v242 (V0 : Valuation τ sig (Elt F)) : u16 V0 (no_index (Proc.devRef .tc main_v242)) = res_main_v242 V0 := by
  unfold u16
  simp only [ops4_2]
  after_results_simp
  try simp only [u15_main_arg16, u15_main_arg17, u15_main_arg18, u15_main_arg19, u15_main_arg20, u15_main_arg21, u15_main_arg2, u15_main_arg1]
  all_goals rfl
set_option maxRecDepth 8192 in
set_option maxHeartbeats 4000000 in
theorem u16_main_v244 (V0 : Valuation τ sig (Elt F)) : u16 V0 (no_index (Proc.devRef .tc main_v244)) = res_main_v244 V0 := by
  unfold u16
  simp only [ops4_2]
  after_results_simp
  try simp only [u15_main_arg16, u15_main_arg17, u15_main_arg18, u15_main_arg19, u15_main_arg20, u15_main_arg21, u15_main_arg2, u15_main_arg1]
  all_goals rfl
set_option maxRecDepth 8192 in
set_option maxHeartbeats 4000000 in
theorem u16_main_v246 (V0 : Valuation τ sig (Elt F)) : u16 V0 (no_index (Proc.devRef .tc main_v246)) = res_main_v246 V0 := by
  unfold u16
  simp only [ops4_2]
  after_results_simp
  try simp only [u15_main_arg16, u15_main_arg17, u15_main_arg18, u15_main_arg19, u15_main_arg20, u15_main_arg21, u15_main_arg2, u15_main_arg1]
  all_goals rfl
set_option maxRecDepth 8192 in
set_option maxHeartbeats 4000000 in
theorem u16_main_v248 (V0 : Valuation τ sig (Elt F)) : u16 V0 (no_index (Proc.devRef .tc main_v248)) = res_main_v248 V0 := by
  unfold u16
  simp only [ops4_2]
  after_results_simp
  try simp only [u15_main_arg16, u15_main_arg17, u15_main_arg18, u15_main_arg19, u15_main_arg20, u15_main_arg21, u15_main_arg2, u15_main_arg1]
  all_goals rfl
set_option maxRecDepth 8192 in
set_option maxHeartbeats 4000000 in
theorem u16_main_v250 (V0 : Valuation τ sig (Elt F)) : u16 V0 (no_index (Proc.devRef .tc main_v250)) = res_main_v250 V0 := by
  unfold u16
  simp only [ops4_2]
  after_results_simp
  try simp only [u15_main_arg16, u15_main_arg17, u15_main_arg18, u15_main_arg19, u15_main_arg20, u15_main_arg21, u15_main_arg2, u15_main_arg1]
  all_goals rfl
set_option maxRecDepth 8192 in
set_option maxHeartbeats 4000000 in
theorem u16_main_v252 (V0 : Valuation τ sig (Elt F)) : u16 V0 (no_index (Proc.devRef .tc main_v252)) = res_main_v252 V0 := by
  unfold u16
  simp only [ops4_2]
  after_results_simp
  try simp only [u15_main_arg16, u15_main_arg17, u15_main_arg18, u15_main_arg19, u15_main_arg20, u15_main_arg21, u15_main_arg2, u15_main_arg1]
  all_goals rfl

theorem u17_main_arg2 (V0 : Valuation τ sig (Elt F)) : u17 V0 (no_index (Proc.devRef .tc main_arg2)) = V0 (Proc.devRef .tc main_arg2) :=
  (u17_keep V0 main_arg2 (by decide)).trans (u16_main_arg2 V0)
theorem u17_main_arg3 (V0 : Valuation τ sig (Elt F)) : u17 V0 (no_index (Proc.devRef .tc main_arg3)) = V0 (Proc.devRef .tc main_arg3) :=
  (u17_keep V0 main_arg3 (by decide)).trans (u16_main_arg3 V0)
set_option maxRecDepth 8192 in
set_option maxHeartbeats 4000000 in
theorem u17_main_v276 (V0 : Valuation τ sig (Elt F)) : u17 V0 (no_index (Proc.devRef .tc main_v276)) = res_main_v276 V0 := by
  unfold u17
  simp only [ops5_0]
  after_results_simp
  try simp only [u16_main_c_37, u16_main_arg3, u16_main_arg1, u16_main_v259, u16_main_v218, u16_main_v220, u16_main_v222]
  all_goals rfl
set_option maxRecDepth 8192 in
set_option maxHeartbeats 4000000 in
theorem u17_main_v275 (V0 : Valuation τ sig (Elt F)) : u17 V0 (no_index (Proc.devRef .tc main_v275)) = res_main_v275 V0 := by
  unfold u17
  simp only [ops5_0]
  after_results_simp
  try simp only [u16_main_c_37, u16_main_arg3, u16_main_arg1, u16_main_v259, u16_main_v218, u16_main_v220, u16_main_v222]
  all_goals rfl
theorem u17_main_v224 (V0 : Valuation τ sig (Elt F)) : u17 V0 (no_index (Proc.devRef .tc main_v224)) = res_main_v224 V0 :=
  (u17_keep V0 main_v224 (by decide)).trans (u16_main_v224 V0)
theorem u17_main_v226 (V0 : Valuation τ sig (Elt F)) : u17 V0 (no_index (Proc.devRef .tc main_v226)) = res_main_v226 V0 :=
  (u17_keep V0 main_v226 (by decide)).trans (u16_main_v226 V0)
theorem u17_main_v216 (V0 : Valuation τ sig (Elt F)) : u17 V0 (no_index (Proc.devRef .tc main_v216)) = res_main_v216 V0 :=
  (u17_keep V0 main_v216 (by decide)).trans (u16_main_v216 V0)
theorem u17_main_v228 (V0 : Valuation τ sig (Elt F)) : u17 V0 (no_index (Proc.devRef .tc main_v228)) = res_main_v228 V0 :=
  (u17_keep V0 main_v228 (by decide)).trans (u16_main_v228 V0)
theorem u17_main_v230 (V0 : Valuation τ sig (Elt F)) : u17 V0 (no_index (Proc.devRef .tc main_v230)) = res_main_v230 V0 :=
  (u17_keep V0 main_v230 (by decide)).trans (u16_main_v230 V0)
theorem u17_main_v232 (V0 : Valuation τ sig (Elt F)) : u17 V0 (no_index (Proc.devRef .tc main_v232)) = res_main_v232 V0 :=
  (u17_keep V0 main_v232 (by decide)).trans (u16_main_v232 V0)
theorem u17_main_v234 (V0 : Valuation τ sig (Elt F)) : u17 V0 (no_index (Proc.devRef .tc main_v234)) = res_main_v234 V0 :=
  (u17_keep V0 main_v234 (by decide)).trans (u16_main_v234 V0)
theorem u17_main_v236 (V0 : Valuation τ sig (Elt F)) : u17 V0 (no_index (Proc.devRef .tc main_v236)) = res_main_v236 V0 :=
  (u17_keep V0 main_v236 (by decide)).trans (u16_main_v236 V0)
theorem u17_main_v238 (V0 : Valuation τ sig (Elt F)) : u17 V0 (no_index (Proc.devRef .tc main_v238)) = res_main_v238 V0 :=
  (u17_keep V0 main_v238 (by decide)).trans (u16_main_v238 V0)
theorem u17_main_v240 (V0 : Valuation τ sig (Elt F)) : u17 V0 (no_index (Proc.devRef .tc main_v240)) = res_main_v240 V0 :=
  (u17_keep V0 main_v240 (by decide)).trans (u16_main_v240 V0)
theorem u17_main_v242 (V0 : Valuation τ sig (Elt F)) : u17 V0 (no_index (Proc.devRef .tc main_v242)) = res_main_v242 V0 :=
  (u17_keep V0 main_v242 (by decide)).trans (u16_main_v242 V0)
theorem u17_main_v244 (V0 : Valuation τ sig (Elt F)) : u17 V0 (no_index (Proc.devRef .tc main_v244)) = res_main_v244 V0 :=
  (u17_keep V0 main_v244 (by decide)).trans (u16_main_v244 V0)
theorem u17_main_v246 (V0 : Valuation τ sig (Elt F)) : u17 V0 (no_index (Proc.devRef .tc main_v246)) = res_main_v246 V0 :=
  (u17_keep V0 main_v246 (by decide)).trans (u16_main_v246 V0)
theorem u17_main_v248 (V0 : Valuation τ sig (Elt F)) : u17 V0 (no_index (Proc.devRef .tc main_v248)) = res_main_v248 V0 :=
  (u17_keep V0 main_v248 (by decide)).trans (u16_main_v248 V0)
theorem u17_main_v250 (V0 : Valuation τ sig (Elt F)) : u17 V0 (no_index (Proc.devRef .tc main_v250)) = res_main_v250 V0 :=
  (u17_keep V0 main_v250 (by decide)).trans (u16_main_v250 V0)
theorem u17_main_v252 (V0 : Valuation τ sig (Elt F)) : u17 V0 (no_index (Proc.devRef .tc main_v252)) = res_main_v252 V0 :=
  (u17_keep V0 main_v252 (by decide)).trans (u16_main_v252 V0)

theorem u18_main_arg2 (V0 : Valuation τ sig (Elt F)) : u18 V0 (no_index (Proc.devRef .tc main_arg2)) = V0 (Proc.devRef .tc main_arg2) :=
  (u18_keep V0 main_arg2 (by decide)).trans (u17_main_arg2 V0)
theorem u18_main_arg3 (V0 : Valuation τ sig (Elt F)) : u18 V0 (no_index (Proc.devRef .tc main_arg3)) = V0 (Proc.devRef .tc main_arg3) :=
  (u18_keep V0 main_arg3 (by decide)).trans (u17_main_arg3 V0)
set_option maxRecDepth 8192 in
set_option maxHeartbeats 4000000 in
theorem u18_main_v294 (V0 : Valuation τ sig (Elt F)) : u18 V0 (no_index (Proc.devRef .tc main_v294)) = res_main_v294 V0 := by
  unfold u18
  simp only [ops5_1]
  after_results_simp
  try simp only [u17_main_v276, u17_main_v275, u17_main_v224]
  all_goals rfl
set_option maxRecDepth 8192 in
set_option maxHeartbeats 4000000 in
theorem u18_main_v293 (V0 : Valuation τ sig (Elt F)) : u18 V0 (no_index (Proc.devRef .tc main_v293)) = res_main_v293 V0 := by
  unfold u18
  simp only [ops5_1]
  after_results_simp
  try simp only [u17_main_v276, u17_main_v275, u17_main_v224]
  all_goals rfl
theorem u18_main_v226 (V0 : Valuation τ sig (Elt F)) : u18 V0 (no_index (Proc.devRef .tc main_v226)) = res_main_v226 V0 :=
  (u18_keep V0 main_v226 (by decide)).trans (u17_main_v226 V0)
theorem u18_main_v216 (V0 : Valuation τ sig (Elt F)) : u18 V0 (no_index (Proc.devRef .tc main_v216)) = res_main_v216 V0 :=
  (u18_keep V0 main_v216 (by decide)).trans (u17_main_v216 V0)
theorem u18_main_v228 (V0 : Valuation τ sig (Elt F)) : u18 V0 (no_index (Proc.devRef .tc main_v228)) = res_main_v228 V0 :=
  (u18_keep V0 main_v228 (by decide)).trans (u17_main_v228 V0)
theorem u18_main_v230 (V0 : Valuation τ sig (Elt F)) : u18 V0 (no_index (Proc.devRef .tc main_v230)) = res_main_v230 V0 :=
  (u18_keep V0 main_v230 (by decide)).trans (u17_main_v230 V0)
theorem u18_main_v232 (V0 : Valuation τ sig (Elt F)) : u18 V0 (no_index (Proc.devRef .tc main_v232)) = res_main_v232 V0 :=
  (u18_keep V0 main_v232 (by decide)).trans (u17_main_v232 V0)
theorem u18_main_v234 (V0 : Valuation τ sig (Elt F)) : u18 V0 (no_index (Proc.devRef .tc main_v234)) = res_main_v234 V0 :=
  (u18_keep V0 main_v234 (by decide)).trans (u17_main_v234 V0)
theorem u18_main_v236 (V0 : Valuation τ sig (Elt F)) : u18 V0 (no_index (Proc.devRef .tc main_v236)) = res_main_v236 V0 :=
  (u18_keep V0 main_v236 (by decide)).trans (u17_main_v236 V0)
theorem u18_main_v238 (V0 : Valuation τ sig (Elt F)) : u18 V0 (no_index (Proc.devRef .tc main_v238)) = res_main_v238 V0 :=
  (u18_keep V0 main_v238 (by decide)).trans (u17_main_v238 V0)
theorem u18_main_v240 (V0 : Valuation τ sig (Elt F)) : u18 V0 (no_index (Proc.devRef .tc main_v240)) = res_main_v240 V0 :=
  (u18_keep V0 main_v240 (by decide)).trans (u17_main_v240 V0)
theorem u18_main_v242 (V0 : Valuation τ sig (Elt F)) : u18 V0 (no_index (Proc.devRef .tc main_v242)) = res_main_v242 V0 :=
  (u18_keep V0 main_v242 (by decide)).trans (u17_main_v242 V0)
theorem u18_main_v244 (V0 : Valuation τ sig (Elt F)) : u18 V0 (no_index (Proc.devRef .tc main_v244)) = res_main_v244 V0 :=
  (u18_keep V0 main_v244 (by decide)).trans (u17_main_v244 V0)
theorem u18_main_v246 (V0 : Valuation τ sig (Elt F)) : u18 V0 (no_index (Proc.devRef .tc main_v246)) = res_main_v246 V0 :=
  (u18_keep V0 main_v246 (by decide)).trans (u17_main_v246 V0)
theorem u18_main_v248 (V0 : Valuation τ sig (Elt F)) : u18 V0 (no_index (Proc.devRef .tc main_v248)) = res_main_v248 V0 :=
  (u18_keep V0 main_v248 (by decide)).trans (u17_main_v248 V0)
theorem u18_main_v250 (V0 : Valuation τ sig (Elt F)) : u18 V0 (no_index (Proc.devRef .tc main_v250)) = res_main_v250 V0 :=
  (u18_keep V0 main_v250 (by decide)).trans (u17_main_v250 V0)
theorem u18_main_v252 (V0 : Valuation τ sig (Elt F)) : u18 V0 (no_index (Proc.devRef .tc main_v252)) = res_main_v252 V0 :=
  (u18_keep V0 main_v252 (by decide)).trans (u17_main_v252 V0)

theorem u19_main_arg2 (V0 : Valuation τ sig (Elt F)) : u19 V0 (no_index (Proc.devRef .tc main_arg2)) = V0 (Proc.devRef .tc main_arg2) :=
  (u19_keep V0 main_arg2 (by decide)).trans (u18_main_arg2 V0)
theorem u19_main_arg3 (V0 : Valuation τ sig (Elt F)) : u19 V0 (no_index (Proc.devRef .tc main_arg3)) = V0 (Proc.devRef .tc main_arg3) :=
  (u19_keep V0 main_arg3 (by decide)).trans (u18_main_arg3 V0)
set_option maxRecDepth 8192 in
set_option maxHeartbeats 4000000 in
theorem u19_main_v310 (V0 : Valuation τ sig (Elt F)) : u19 V0 (no_index (Proc.devRef .tc main_v310)) = res_main_v310 V0 := by
  unfold u19
  simp only [ops5_2]
  after_results_simp
  try simp only [u18_main_v294, u18_main_v293, u18_main_v226, u18_main_arg2, u18_main_v216, u18_main_v228]
  all_goals rfl
set_option maxRecDepth 8192 in
set_option maxHeartbeats 4000000 in
theorem u19_main_v309 (V0 : Valuation τ sig (Elt F)) : u19 V0 (no_index (Proc.devRef .tc main_v309)) = res_main_v309 V0 := by
  unfold u19
  simp only [ops5_2]
  after_results_simp
  try simp only [u18_main_v294, u18_main_v293, u18_main_v226, u18_main_arg2, u18_main_v216, u18_main_v228]
  all_goals rfl
theorem u19_main_v230 (V0 : Valuation τ sig (Elt F)) : u19 V0 (no_index (Proc.devRef .tc main_v230)) = res_main_v230 V0 :=
  (u19_keep V0 main_v230 (by decide)).trans (u18_main_v230 V0)
theorem u19_main_v232 (V0 : Valuation τ sig (Elt F)) : u19 V0 (no_index (Proc.devRef .tc main_v232)) = res_main_v232 V0 :=
  (u19_keep V0 main_v232 (by decide)).trans (u18_main_v232 V0)
theorem u19_main_v216 (V0 : Valuation τ sig (Elt F)) : u19 V0 (no_index (Proc.devRef .tc main_v216)) = res_main_v216 V0 :=
  (u19_keep V0 main_v216 (by decide)).trans (u18_main_v216 V0)
set_option maxRecDepth 8192 in
set_option maxHeartbeats 4000000 in
theorem u19_main_v300 (V0 : Valuation τ sig (Elt F)) : u19 V0 (no_index (Proc.devRef .tc main_v300)) = res_main_v300 V0 := by
  unfold u19
  simp only [ops5_2]
  after_results_simp
  try simp only [u18_main_v294, u18_main_v293, u18_main_v226, u18_main_arg2, u18_main_v216, u18_main_v228]
  all_goals rfl
theorem u19_main_v234 (V0 : Valuation τ sig (Elt F)) : u19 V0 (no_index (Proc.devRef .tc main_v234)) = res_main_v234 V0 :=
  (u19_keep V0 main_v234 (by decide)).trans (u18_main_v234 V0)
theorem u19_main_v236 (V0 : Valuation τ sig (Elt F)) : u19 V0 (no_index (Proc.devRef .tc main_v236)) = res_main_v236 V0 :=
  (u19_keep V0 main_v236 (by decide)).trans (u18_main_v236 V0)
theorem u19_main_v238 (V0 : Valuation τ sig (Elt F)) : u19 V0 (no_index (Proc.devRef .tc main_v238)) = res_main_v238 V0 :=
  (u19_keep V0 main_v238 (by decide)).trans (u18_main_v238 V0)
theorem u19_main_v240 (V0 : Valuation τ sig (Elt F)) : u19 V0 (no_index (Proc.devRef .tc main_v240)) = res_main_v240 V0 :=
  (u19_keep V0 main_v240 (by decide)).trans (u18_main_v240 V0)
theorem u19_main_v242 (V0 : Valuation τ sig (Elt F)) : u19 V0 (no_index (Proc.devRef .tc main_v242)) = res_main_v242 V0 :=
  (u19_keep V0 main_v242 (by decide)).trans (u18_main_v242 V0)
theorem u19_main_v244 (V0 : Valuation τ sig (Elt F)) : u19 V0 (no_index (Proc.devRef .tc main_v244)) = res_main_v244 V0 :=
  (u19_keep V0 main_v244 (by decide)).trans (u18_main_v244 V0)
theorem u19_main_v246 (V0 : Valuation τ sig (Elt F)) : u19 V0 (no_index (Proc.devRef .tc main_v246)) = res_main_v246 V0 :=
  (u19_keep V0 main_v246 (by decide)).trans (u18_main_v246 V0)
theorem u19_main_v248 (V0 : Valuation τ sig (Elt F)) : u19 V0 (no_index (Proc.devRef .tc main_v248)) = res_main_v248 V0 :=
  (u19_keep V0 main_v248 (by decide)).trans (u18_main_v248 V0)
theorem u19_main_v250 (V0 : Valuation τ sig (Elt F)) : u19 V0 (no_index (Proc.devRef .tc main_v250)) = res_main_v250 V0 :=
  (u19_keep V0 main_v250 (by decide)).trans (u18_main_v250 V0)
theorem u19_main_v252 (V0 : Valuation τ sig (Elt F)) : u19 V0 (no_index (Proc.devRef .tc main_v252)) = res_main_v252 V0 :=
  (u19_keep V0 main_v252 (by decide)).trans (u18_main_v252 V0)

theorem u20_main_arg2 (V0 : Valuation τ sig (Elt F)) : u20 V0 (no_index (Proc.devRef .tc main_arg2)) = V0 (Proc.devRef .tc main_arg2) :=
  (u20_keep V0 main_arg2 (by decide)).trans (u19_main_arg2 V0)
theorem u20_main_arg3 (V0 : Valuation τ sig (Elt F)) : u20 V0 (no_index (Proc.devRef .tc main_arg3)) = V0 (Proc.devRef .tc main_arg3) :=
  (u20_keep V0 main_arg3 (by decide)).trans (u19_main_arg3 V0)
set_option maxRecDepth 8192 in
set_option maxHeartbeats 4000000 in
theorem u20_main_v322 (V0 : Valuation τ sig (Elt F)) : u20 V0 (no_index (Proc.devRef .tc main_v322)) = res_main_v322 V0 := by
  unfold u20
  simp only [ops6_0]
  after_results_simp
  try simp only [u19_main_v310, u19_main_v309]
  all_goals rfl
set_option maxRecDepth 8192 in
set_option maxHeartbeats 4000000 in
theorem u20_main_v326 (V0 : Valuation τ sig (Elt F)) : u20 V0 (no_index (Proc.devRef .tc main_v326)) = res_main_v326 V0 := by
  unfold u20
  simp only [ops6_0]
  after_results_simp
  try simp only [u19_main_v310, u19_main_v309]
  all_goals rfl
theorem u20_main_v230 (V0 : Valuation τ sig (Elt F)) : u20 V0 (no_index (Proc.devRef .tc main_v230)) = res_main_v230 V0 :=
  (u20_keep V0 main_v230 (by decide)).trans (u19_main_v230 V0)
theorem u20_main_v232 (V0 : Valuation τ sig (Elt F)) : u20 V0 (no_index (Proc.devRef .tc main_v232)) = res_main_v232 V0 :=
  (u20_keep V0 main_v232 (by decide)).trans (u19_main_v232 V0)
theorem u20_main_v216 (V0 : Valuation τ sig (Elt F)) : u20 V0 (no_index (Proc.devRef .tc main_v216)) = res_main_v216 V0 :=
  (u20_keep V0 main_v216 (by decide)).trans (u19_main_v216 V0)
theorem u20_main_v300 (V0 : Valuation τ sig (Elt F)) : u20 V0 (no_index (Proc.devRef .tc main_v300)) = res_main_v300 V0 :=
  (u20_keep V0 main_v300 (by decide)).trans (u19_main_v300 V0)
theorem u20_main_v234 (V0 : Valuation τ sig (Elt F)) : u20 V0 (no_index (Proc.devRef .tc main_v234)) = res_main_v234 V0 :=
  (u20_keep V0 main_v234 (by decide)).trans (u19_main_v234 V0)
theorem u20_main_v236 (V0 : Valuation τ sig (Elt F)) : u20 V0 (no_index (Proc.devRef .tc main_v236)) = res_main_v236 V0 :=
  (u20_keep V0 main_v236 (by decide)).trans (u19_main_v236 V0)
theorem u20_main_v238 (V0 : Valuation τ sig (Elt F)) : u20 V0 (no_index (Proc.devRef .tc main_v238)) = res_main_v238 V0 :=
  (u20_keep V0 main_v238 (by decide)).trans (u19_main_v238 V0)
theorem u20_main_v240 (V0 : Valuation τ sig (Elt F)) : u20 V0 (no_index (Proc.devRef .tc main_v240)) = res_main_v240 V0 :=
  (u20_keep V0 main_v240 (by decide)).trans (u19_main_v240 V0)
theorem u20_main_v242 (V0 : Valuation τ sig (Elt F)) : u20 V0 (no_index (Proc.devRef .tc main_v242)) = res_main_v242 V0 :=
  (u20_keep V0 main_v242 (by decide)).trans (u19_main_v242 V0)
theorem u20_main_v244 (V0 : Valuation τ sig (Elt F)) : u20 V0 (no_index (Proc.devRef .tc main_v244)) = res_main_v244 V0 :=
  (u20_keep V0 main_v244 (by decide)).trans (u19_main_v244 V0)
theorem u20_main_v246 (V0 : Valuation τ sig (Elt F)) : u20 V0 (no_index (Proc.devRef .tc main_v246)) = res_main_v246 V0 :=
  (u20_keep V0 main_v246 (by decide)).trans (u19_main_v246 V0)
theorem u20_main_v248 (V0 : Valuation τ sig (Elt F)) : u20 V0 (no_index (Proc.devRef .tc main_v248)) = res_main_v248 V0 :=
  (u20_keep V0 main_v248 (by decide)).trans (u19_main_v248 V0)
theorem u20_main_v250 (V0 : Valuation τ sig (Elt F)) : u20 V0 (no_index (Proc.devRef .tc main_v250)) = res_main_v250 V0 :=
  (u20_keep V0 main_v250 (by decide)).trans (u19_main_v250 V0)
theorem u20_main_v252 (V0 : Valuation τ sig (Elt F)) : u20 V0 (no_index (Proc.devRef .tc main_v252)) = res_main_v252 V0 :=
  (u20_keep V0 main_v252 (by decide)).trans (u19_main_v252 V0)

theorem u21_main_arg2 (V0 : Valuation τ sig (Elt F)) : u21 V0 (no_index (Proc.devRef .tc main_arg2)) = V0 (Proc.devRef .tc main_arg2) :=
  (u21_keep V0 main_arg2 (by decide)).trans (u20_main_arg2 V0)
theorem u21_main_v300 (V0 : Valuation τ sig (Elt F)) : u21 V0 (no_index (Proc.devRef .tc main_v300)) = res_main_v300 V0 :=
  (u21_keep V0 main_v300 (by decide)).trans (u20_main_v300 V0)
set_option maxRecDepth 8192 in
set_option maxHeartbeats 4000000 in
theorem u21_main_v334 (V0 : Valuation τ sig (Elt F)) : u21 V0 (no_index (Proc.devRef .tc main_v334)) = res_main_v334 V0 := by
  unfold u21
  simp only [ops6_1]
  after_results_simp
  try simp only [u20_main_v322, u20_main_v326, u20_main_v230, u20_main_v232, u20_main_arg3, u20_main_v216]
  all_goals rfl
set_option maxRecDepth 8192 in
set_option maxHeartbeats 4000000 in
theorem u21_main_v341 (V0 : Valuation τ sig (Elt F)) : u21 V0 (no_index (Proc.devRef .tc main_v341)) = res_main_v341 V0 := by
  unfold u21
  simp only [ops6_1]
  after_results_simp
  try simp only [u20_main_v322, u20_main_v326, u20_main_v230, u20_main_v232, u20_main_arg3, u20_main_v216]
  all_goals rfl
theorem u21_main_v234 (V0 : Valuation τ sig (Elt F)) : u21 V0 (no_index (Proc.devRef .tc main_v234)) = res_main_v234 V0 :=
  (u21_keep V0 main_v234 (by decide)).trans (u20_main_v234 V0)
theorem u21_main_v236 (V0 : Valuation τ sig (Elt F)) : u21 V0 (no_index (Proc.devRef .tc main_v236)) = res_main_v236 V0 :=
  (u21_keep V0 main_v236 (by decide)).trans (u20_main_v236 V0)
theorem u21_main_v238 (V0 : Valuation τ sig (Elt F)) : u21 V0 (no_index (Proc.devRef .tc main_v238)) = res_main_v238 V0 :=
  (u21_keep V0 main_v238 (by decide)).trans (u20_main_v238 V0)
theorem u21_main_v240 (V0 : Valuation τ sig (Elt F)) : u21 V0 (no_index (Proc.devRef .tc main_v240)) = res_main_v240 V0 :=
  (u21_keep V0 main_v240 (by decide)).trans (u20_main_v240 V0)
theorem u21_main_v242 (V0 : Valuation τ sig (Elt F)) : u21 V0 (no_index (Proc.devRef .tc main_v242)) = res_main_v242 V0 :=
  (u21_keep V0 main_v242 (by decide)).trans (u20_main_v242 V0)
theorem u21_main_v216 (V0 : Valuation τ sig (Elt F)) : u21 V0 (no_index (Proc.devRef .tc main_v216)) = res_main_v216 V0 :=
  (u21_keep V0 main_v216 (by decide)).trans (u20_main_v216 V0)
theorem u21_main_v244 (V0 : Valuation τ sig (Elt F)) : u21 V0 (no_index (Proc.devRef .tc main_v244)) = res_main_v244 V0 :=
  (u21_keep V0 main_v244 (by decide)).trans (u20_main_v244 V0)
theorem u21_main_v246 (V0 : Valuation τ sig (Elt F)) : u21 V0 (no_index (Proc.devRef .tc main_v246)) = res_main_v246 V0 :=
  (u21_keep V0 main_v246 (by decide)).trans (u20_main_v246 V0)
theorem u21_main_v248 (V0 : Valuation τ sig (Elt F)) : u21 V0 (no_index (Proc.devRef .tc main_v248)) = res_main_v248 V0 :=
  (u21_keep V0 main_v248 (by decide)).trans (u20_main_v248 V0)
theorem u21_main_v250 (V0 : Valuation τ sig (Elt F)) : u21 V0 (no_index (Proc.devRef .tc main_v250)) = res_main_v250 V0 :=
  (u21_keep V0 main_v250 (by decide)).trans (u20_main_v250 V0)
theorem u21_main_v252 (V0 : Valuation τ sig (Elt F)) : u21 V0 (no_index (Proc.devRef .tc main_v252)) = res_main_v252 V0 :=
  (u21_keep V0 main_v252 (by decide)).trans (u20_main_v252 V0)

theorem u22_main_arg2 (V0 : Valuation τ sig (Elt F)) : u22 V0 (no_index (Proc.devRef .tc main_arg2)) = V0 (Proc.devRef .tc main_arg2) :=
  (u22_keep V0 main_arg2 (by decide)).trans (u21_main_arg2 V0)
theorem u22_main_v234 (V0 : Valuation τ sig (Elt F)) : u22 V0 (no_index (Proc.devRef .tc main_v234)) = res_main_v234 V0 :=
  (u22_keep V0 main_v234 (by decide)).trans (u21_main_v234 V0)
set_option maxRecDepth 8192 in
set_option maxHeartbeats 4000000 in
theorem u22_main_v342 (V0 : Valuation τ sig (Elt F)) : u22 V0 (no_index (Proc.devRef .tc main_v342)) = res_main_v342 V0 := by
  unfold u22
  simp only [ops6_2]
  simp only [after_cons, after_nil]
  rw [nary_result]
  unfold res_main_v342
  exact cat3_congr (u21_main_v300 V0) (u21_main_v334 V0) (u21_main_v341 V0)
theorem u22_main_v236 (V0 : Valuation τ sig (Elt F)) : u22 V0 (no_index (Proc.devRef .tc main_v236)) = res_main_v236 V0 :=
  (u22_keep V0 main_v236 (by decide)).trans (u21_main_v236 V0)
theorem u22_main_v238 (V0 : Valuation τ sig (Elt F)) : u22 V0 (no_index (Proc.devRef .tc main_v238)) = res_main_v238 V0 :=
  (u22_keep V0 main_v238 (by decide)).trans (u21_main_v238 V0)
theorem u22_main_v240 (V0 : Valuation τ sig (Elt F)) : u22 V0 (no_index (Proc.devRef .tc main_v240)) = res_main_v240 V0 :=
  (u22_keep V0 main_v240 (by decide)).trans (u21_main_v240 V0)
theorem u22_main_v242 (V0 : Valuation τ sig (Elt F)) : u22 V0 (no_index (Proc.devRef .tc main_v242)) = res_main_v242 V0 :=
  (u22_keep V0 main_v242 (by decide)).trans (u21_main_v242 V0)
theorem u22_main_v216 (V0 : Valuation τ sig (Elt F)) : u22 V0 (no_index (Proc.devRef .tc main_v216)) = res_main_v216 V0 :=
  (u22_keep V0 main_v216 (by decide)).trans (u21_main_v216 V0)
theorem u22_main_v244 (V0 : Valuation τ sig (Elt F)) : u22 V0 (no_index (Proc.devRef .tc main_v244)) = res_main_v244 V0 :=
  (u22_keep V0 main_v244 (by decide)).trans (u21_main_v244 V0)
theorem u22_main_v246 (V0 : Valuation τ sig (Elt F)) : u22 V0 (no_index (Proc.devRef .tc main_v246)) = res_main_v246 V0 :=
  (u22_keep V0 main_v246 (by decide)).trans (u21_main_v246 V0)
theorem u22_main_v248 (V0 : Valuation τ sig (Elt F)) : u22 V0 (no_index (Proc.devRef .tc main_v248)) = res_main_v248 V0 :=
  (u22_keep V0 main_v248 (by decide)).trans (u21_main_v248 V0)
theorem u22_main_v250 (V0 : Valuation τ sig (Elt F)) : u22 V0 (no_index (Proc.devRef .tc main_v250)) = res_main_v250 V0 :=
  (u22_keep V0 main_v250 (by decide)).trans (u21_main_v250 V0)
theorem u22_main_v252 (V0 : Valuation τ sig (Elt F)) : u22 V0 (no_index (Proc.devRef .tc main_v252)) = res_main_v252 V0 :=
  (u22_keep V0 main_v252 (by decide)).trans (u21_main_v252 V0)

theorem u23_main_arg2 (V0 : Valuation τ sig (Elt F)) : u23 V0 (no_index (Proc.devRef .tc main_arg2)) = V0 (Proc.devRef .tc main_arg2) :=
  (u23_keep V0 main_arg2 (by decide)).trans (u22_main_arg2 V0)
set_option maxRecDepth 8192 in
set_option maxHeartbeats 4000000 in
theorem u23_main_v359 (V0 : Valuation τ sig (Elt F)) : u23 V0 (no_index (Proc.devRef .tc main_v359)) = res_main_v359 V0 := by
  unfold u23
  simp only [ops6_3]
  after_results_simp
  try simp only [u22_main_v234, u22_main_v342]
  all_goals rfl
set_option maxRecDepth 8192 in
set_option maxHeartbeats 4000000 in
theorem u23_main_v357 (V0 : Valuation τ sig (Elt F)) : u23 V0 (no_index (Proc.devRef .tc main_v357)) = res_main_v357 V0 := by
  unfold u23
  simp only [ops6_3]
  after_results_simp
  try simp only [u22_main_v234, u22_main_v342]
  all_goals rfl
theorem u23_main_v236 (V0 : Valuation τ sig (Elt F)) : u23 V0 (no_index (Proc.devRef .tc main_v236)) = res_main_v236 V0 :=
  (u23_keep V0 main_v236 (by decide)).trans (u22_main_v236 V0)
theorem u23_main_v238 (V0 : Valuation τ sig (Elt F)) : u23 V0 (no_index (Proc.devRef .tc main_v238)) = res_main_v238 V0 :=
  (u23_keep V0 main_v238 (by decide)).trans (u22_main_v238 V0)
theorem u23_main_v240 (V0 : Valuation τ sig (Elt F)) : u23 V0 (no_index (Proc.devRef .tc main_v240)) = res_main_v240 V0 :=
  (u23_keep V0 main_v240 (by decide)).trans (u22_main_v240 V0)
theorem u23_main_v242 (V0 : Valuation τ sig (Elt F)) : u23 V0 (no_index (Proc.devRef .tc main_v242)) = res_main_v242 V0 :=
  (u23_keep V0 main_v242 (by decide)).trans (u22_main_v242 V0)
theorem u23_main_v216 (V0 : Valuation τ sig (Elt F)) : u23 V0 (no_index (Proc.devRef .tc main_v216)) = res_main_v216 V0 :=
  (u23_keep V0 main_v216 (by decide)).trans (u22_main_v216 V0)
theorem u23_main_v244 (V0 : Valuation τ sig (Elt F)) : u23 V0 (no_index (Proc.devRef .tc main_v244)) = res_main_v244 V0 :=
  (u23_keep V0 main_v244 (by decide)).trans (u22_main_v244 V0)
theorem u23_main_v246 (V0 : Valuation τ sig (Elt F)) : u23 V0 (no_index (Proc.devRef .tc main_v246)) = res_main_v246 V0 :=
  (u23_keep V0 main_v246 (by decide)).trans (u22_main_v246 V0)
theorem u23_main_v248 (V0 : Valuation τ sig (Elt F)) : u23 V0 (no_index (Proc.devRef .tc main_v248)) = res_main_v248 V0 :=
  (u23_keep V0 main_v248 (by decide)).trans (u22_main_v248 V0)
theorem u23_main_v250 (V0 : Valuation τ sig (Elt F)) : u23 V0 (no_index (Proc.devRef .tc main_v250)) = res_main_v250 V0 :=
  (u23_keep V0 main_v250 (by decide)).trans (u22_main_v250 V0)
theorem u23_main_v252 (V0 : Valuation τ sig (Elt F)) : u23 V0 (no_index (Proc.devRef .tc main_v252)) = res_main_v252 V0 :=
  (u23_keep V0 main_v252 (by decide)).trans (u22_main_v252 V0)

set_option maxRecDepth 8192 in
set_option maxHeartbeats 4000000 in
theorem u24_main_v378 (V0 : Valuation τ sig (Elt F)) : u24 V0 (no_index (Proc.devRef .tc main_v378)) = res_main_v378 V0 := by
  unfold u24
  simp only [ops7_0]
  after_results_simp
  try simp only [u23_main_v359, u23_main_v357, u23_main_v236, u23_main_v238, u23_main_v240, u23_main_v242, u23_main_v216, u23_main_arg2]
  all_goals rfl
set_option maxRecDepth 8192 in
set_option maxHeartbeats 4000000 in
theorem u24_main_v373 (V0 : Valuation τ sig (Elt F)) : u24 V0 (no_index (Proc.devRef .tc main_v373)) = res_main_v373 V0 := by
  unfold u24
  simp only [ops7_0]
  after_results_simp
  try simp only [u23_main_v359, u23_main_v357, u23_main_v236, u23_main_v238, u23_main_v240, u23_main_v242, u23_main_v216, u23_main_arg2]
  all_goals rfl
set_option maxRecDepth 8192 in
set_option maxHeartbeats 4000000 in
theorem u24_main_v371 (V0 : Valuation τ sig (Elt F)) : u24 V0 (no_index (Proc.devRef .tc main_v371)) = res_main_v371 V0 := by
  unfold u24
  simp only [ops7_0]
  after_results_simp
  try simp only [u23_main_v359, u23_main_v357, u23_main_v236, u23_main_v238, u23_main_v240, u23_main_v242, u23_main_v216, u23_main_arg2]
  all_goals rfl
theorem u24_main_v244 (V0 : Valuation τ sig (Elt F)) : u24 V0 (no_index (Proc.devRef .tc main_v244)) = res_main_v244 V0 :=
  (u24_keep V0 main_v244 (by decide)).trans (u23_main_v244 V0)
theorem u24_main_v246 (V0 : Valuation τ sig (Elt F)) : u24 V0 (no_index (Proc.devRef .tc main_v246)) = res_main_v246 V0 :=
  (u24_keep V0 main_v246 (by decide)).trans (u23_main_v246 V0)
theorem u24_main_v248 (V0 : Valuation τ sig (Elt F)) : u24 V0 (no_index (Proc.devRef .tc main_v248)) = res_main_v248 V0 :=
  (u24_keep V0 main_v248 (by decide)).trans (u23_main_v248 V0)
theorem u24_main_v250 (V0 : Valuation τ sig (Elt F)) : u24 V0 (no_index (Proc.devRef .tc main_v250)) = res_main_v250 V0 :=
  (u24_keep V0 main_v250 (by decide)).trans (u23_main_v250 V0)
theorem u24_main_v252 (V0 : Valuation τ sig (Elt F)) : u24 V0 (no_index (Proc.devRef .tc main_v252)) = res_main_v252 V0 :=
  (u24_keep V0 main_v252 (by decide)).trans (u23_main_v252 V0)
theorem u24_main_v216 (V0 : Valuation τ sig (Elt F)) : u24 V0 (no_index (Proc.devRef .tc main_v216)) = res_main_v216 V0 :=
  (u24_keep V0 main_v216 (by decide)).trans (u23_main_v216 V0)

set_option maxRecDepth 8192 in
set_option maxHeartbeats 4000000 in
theorem u25_main_v395 (V0 : Valuation τ sig (Elt F)) : u25 V0 (no_index (Proc.devRef .tc main_v395)) = res_main_v395 V0 := by
  unfold u25
  simp only [ops7_1]
  after_results_simp
  try simp only [u24_main_v378, u24_main_v373, u24_main_v371]
  all_goals rfl
set_option maxRecDepth 8192 in
set_option maxHeartbeats 4000000 in
theorem u25_main_v393 (V0 : Valuation τ sig (Elt F)) : u25 V0 (no_index (Proc.devRef .tc main_v393)) = res_main_v393 V0 := by
  unfold u25
  simp only [ops7_1]
  after_results_simp
  try simp only [u24_main_v378, u24_main_v373, u24_main_v371]
  all_goals rfl
theorem u25_main_v244 (V0 : Valuation τ sig (Elt F)) : u25 V0 (no_index (Proc.devRef .tc main_v244)) = res_main_v244 V0 :=
  (u25_keep V0 main_v244 (by decide)).trans (u24_main_v244 V0)
theorem u25_main_v246 (V0 : Valuation τ sig (Elt F)) : u25 V0 (no_index (Proc.devRef .tc main_v246)) = res_main_v246 V0 :=
  (u25_keep V0 main_v246 (by decide)).trans (u24_main_v246 V0)
theorem u25_main_v248 (V0 : Valuation τ sig (Elt F)) : u25 V0 (no_index (Proc.devRef .tc main_v248)) = res_main_v248 V0 :=
  (u25_keep V0 main_v248 (by decide)).trans (u24_main_v248 V0)
theorem u25_main_v250 (V0 : Valuation τ sig (Elt F)) : u25 V0 (no_index (Proc.devRef .tc main_v250)) = res_main_v250 V0 :=
  (u25_keep V0 main_v250 (by decide)).trans (u24_main_v250 V0)
theorem u25_main_v252 (V0 : Valuation τ sig (Elt F)) : u25 V0 (no_index (Proc.devRef .tc main_v252)) = res_main_v252 V0 :=
  (u25_keep V0 main_v252 (by decide)).trans (u24_main_v252 V0)
theorem u25_main_v216 (V0 : Valuation τ sig (Elt F)) : u25 V0 (no_index (Proc.devRef .tc main_v216)) = res_main_v216 V0 :=
  (u25_keep V0 main_v216 (by decide)).trans (u24_main_v216 V0)

set_option maxRecDepth 8192 in
set_option maxHeartbeats 4000000 in
theorem u26_main_cst_67 (V0 : Valuation τ sig (Elt F)) : u26 V0 (no_index (Proc.devRef .tc main_cst_67)) = res_main_cst_67 V0 := by
  unfold u26
  simp only [ops7_2]
  after_results_simp
  try simp only [u25_main_v395, u25_main_v393, u25_main_v244, u25_main_v246, u25_main_v248]
  all_goals rfl
set_option maxRecDepth 8192 in
set_option maxHeartbeats 4000000 in
theorem u26_main_v409 (V0 : Valuation τ sig (Elt F)) : u26 V0 (no_index (Proc.devRef .tc main_v409)) = res_main_v409 V0 := by
  unfold u26
  simp only [ops7_2]
  after_results_simp
  try simp only [u25_main_v395, u25_main_v393, u25_main_v244, u25_main_v246, u25_main_v248]
  all_goals rfl
set_option maxRecDepth 8192 in
set_option maxHeartbeats 4000000 in
theorem u26_main_v407 (V0 : Valuation τ sig (Elt F)) : u26 V0 (no_index (Proc.devRef .tc main_v407)) = res_main_v407 V0 := by
  unfold u26
  simp only [ops7_2]
  after_results_simp
  try simp only [u25_main_v395, u25_main_v393, u25_main_v244, u25_main_v246, u25_main_v248]
  all_goals rfl
theorem u26_main_v250 (V0 : Valuation τ sig (Elt F)) : u26 V0 (no_index (Proc.devRef .tc main_v250)) = res_main_v250 V0 :=
  (u26_keep V0 main_v250 (by decide)).trans (u25_main_v250 V0)
theorem u26_main_v252 (V0 : Valuation τ sig (Elt F)) : u26 V0 (no_index (Proc.devRef .tc main_v252)) = res_main_v252 V0 :=
  (u26_keep V0 main_v252 (by decide)).trans (u25_main_v252 V0)
theorem u26_main_v216 (V0 : Valuation τ sig (Elt F)) : u26 V0 (no_index (Proc.devRef .tc main_v216)) = res_main_v216 V0 :=
  (u26_keep V0 main_v216 (by decide)).trans (u25_main_v216 V0)

set_option maxRecDepth 8192 in
set_option maxHeartbeats 4000000 in
theorem u27_main_v423 (V0 : Valuation τ sig (Elt F)) : u27 V0 (no_index (Proc.devRef .tc main_v423)) = res_main_v423 V0 := by
  unfold u27
  simp only [ops8_0]
  after_results_simp
  try simp only [u26_main_cst_67, u26_main_v409, u26_main_v407]
  all_goals rfl
set_option maxRecDepth 8192 in
set_option maxHeartbeats 4000000 in
theorem u27_main_v420 (V0 : Valuation τ sig (Elt F)) : u27 V0 (no_index (Proc.devRef .tc main_v420)) = res_main_v420 V0 := by
  unfold u27
  simp only [ops8_0]
  after_results_simp
  try simp only [u26_main_cst_67, u26_main_v409, u26_main_v407]
  all_goals rfl
theorem u27_main_v250 (V0 : Valuation τ sig (Elt F)) : u27 V0 (no_index (Proc.devRef .tc main_v250)) = res_main_v250 V0 :=
  (u27_keep V0 main_v250 (by decide)).trans (u26_main_v250 V0)
theorem u27_main_v252 (V0 : Valuation τ sig (Elt F)) : u27 V0 (no_index (Proc.devRef .tc main_v252)) = res_main_v252 V0 :=
  (u27_keep V0 main_v252 (by decide)).trans (u26_main_v252 V0)
theorem u27_main_v216 (V0 : Valuation τ sig (Elt F)) : u27 V0 (no_index (Proc.devRef .tc main_v216)) = res_main_v216 V0 :=
  (u27_keep V0 main_v216 (by decide)).trans (u26_main_v216 V0)

set_option maxRecDepth 8192 in
set_option maxHeartbeats 4000000 in
theorem u28_main_v433 (V0 : Valuation τ sig (Elt F)) : u28 V0 (no_index (Proc.devRef .tc main_v433)) = res_main_v433 V0 := by
  unfold u28
  simp only [ops8_1]
  after_results_simp
  try simp only [u27_main_v423, u27_main_v420, u27_main_v250, u27_main_v252, u27_main_v216]
  all_goals rfl

/-- The result buffer after the whole list. -/
theorem result_res (V0 : Valuation τ sig (Elt F)) : after ops V0 (Proc.devRef .tc main_v433) = res_main_v433 V0 := by
  rw [after_ops_u]; exact u28_main_v433 V0
end Cert.RefJoin

end
-- ==== Proof.RefLeaf.lean ====
/-
  The buffers' functions regrouped into the named stages: each slice of a stacked parameter, each index column,
  each rectifier and each GroupNorm instance is its named function of its operand buffers by unfolding one
  level; the remaining buffers (gathers, products, the concatenation, the scatter-add, the residual sum) unfold
  to their one operation.  Rewriting with these from the result buffer down reaches the arguments, and what is
  left is the composed reference function, block 1 over block 0.
-/
import proofs.«121864_j48515950576209_1_alg».proof.Proof.RefRes
import proofs.«121864_j48515950576209_1_alg».proof.Proof.RefDefs

set_option Elab.async false

noncomputable section

namespace Cert.RefJoin

open Cert.ReferenceIdeal Cert.ReferenceIdeal.Gen Idealize.ShloMosaic Idealize.ShloMosaic.TcCoe Idealize.SL.Sem Idealize.ShloMosaic.StableHlo
open Cert.RefRun

variable {F : FTy → Type} [FloatOps F]

/-! ## Each stage instance is its named function of its operand buffers -/

theorem j_main_v1 (V0 : Valuation τ sig (Elt Ideal)) : res_main_v1 V0 = Cert.RefValue.sliceM2 0 slices_S2x128x2_S1x128x2_0_0_0 (V0 (Proc.devRef .tc main_arg4)) := rfl
theorem j_main_v3 (V0 : Valuation τ sig (Elt Ideal)) : res_main_v3 V0 = Cert.RefValue.sliceVec 0 slices_S2x128_S1x128_0_0 (V0 (Proc.devRef .tc main_arg5)) := rfl
theorem j_main_v5 (V0 : Valuation τ sig (Elt Ideal)) : res_main_v5 V0 = Cert.RefValue.sliceM128 0 slices_S2x128x128_S1x128x128_0_0_0 (V0 (Proc.devRef .tc main_arg6)) := rfl
theorem j_main_v7 (V0 : Valuation τ sig (Elt Ideal)) : res_main_v7 V0 = Cert.RefValue.sliceVec 0 slices_S2x128_S1x128_0_0 (V0 (Proc.devRef .tc main_arg7)) := rfl
theorem j_main_v9 (V0 : Valuation τ sig (Elt Ideal)) : res_main_v9 V0 = Cert.RefValue.sliceVec 0 slices_S2x128_S1x128_0_0 (V0 (Proc.devRef .tc main_arg8)) := rfl
theorem j_main_v11 (V0 : Valuation τ sig (Elt Ideal)) : res_main_v11 V0 = Cert.RefValue.sliceM128 0 slices_S2x128x128_S1x128x128_0_0_0 (V0 (Proc.devRef .tc main_arg9)) := rfl
theorem j_main_v13 (V0 : Valuation τ sig (Elt Ideal)) : res_main_v13 V0 = Cert.RefValue.sliceVec 0 slices_S2x128_S1x128_0_0 (V0 (Proc.devRef .tc main_arg10)) := rfl
theorem j_main_v15 (V0 : Valuation τ sig (Elt Ideal)) : res_main_v15 V0 = Cert.RefValue.sliceVec 0 slices_S2x128_S1x128_0_0 (V0 (Proc.devRef .tc main_arg11)) := rfl
theorem j_main_v17 (V0 : Valuation τ sig (Elt Ideal)) : res_main_v17 V0 = Cert.RefValue.sliceM384 0 slices_S2x128x384_S1x128x384_0_0_0 (V0 (Proc.devRef .tc main_arg12)) := rfl
theorem j_main_v19 (V0 : Valuation τ sig (Elt Ideal)) : res_main_v19 V0 = Cert.RefValue.sliceVec 0 slices_S2x128_S1x128_0_0 (V0 (Proc.devRef .tc main_arg13)) := rfl
theorem j_main_v21 (V0 : Valuation τ sig (Elt Ideal)) : res_main_v21 V0 = Cert.RefValue.sliceVec 0 slices_S2x128_S1x128_0_0 (V0 (Proc.devRef .tc main_arg14)) := rfl
theorem j_main_v23 (V0 : Valuation τ sig (Elt Ideal)) : res_main_v23 V0 = Cert.RefValue.sliceM128 0 slices_S2x128x128_S1x128x128_0_0_0 (V0 (Proc.devRef .tc main_arg15)) := rfl
theorem j_main_v25 (V0 : Valuation τ sig (Elt Ideal)) : res_main_v25 V0 = Cert.RefValue.sliceM128 0 slices_S2x128x128_S1x128x128_0_0_0 (V0 (Proc.devRef .tc main_arg16)) := rfl
theorem j_main_v27 (V0 : Valuation τ sig (Elt Ideal)) : res_main_v27 V0 = Cert.RefValue.sliceVec 0 slices_S2x128_S1x128_0_0 (V0 (Proc.devRef .tc main_arg17)) := rfl
theorem j_main_v29 (V0 : Valuation τ sig (Elt Ideal)) : res_main_v29 V0 = Cert.RefValue.sliceVec 0 slices_S2x128_S1x128_0_0 (V0 (Proc.devRef .tc main_arg18)) := rfl
theorem j_main_v31 (V0 : Valuation τ sig (Elt Ideal)) : res_main_v31 V0 = Cert.RefValue.sliceM128 0 slices_S2x128x128_S1x128x128_0_0_0 (V0 (Proc.devRef .tc main_arg19)) := rfl
theorem j_main_v33 (V0 : Valuation τ sig (Elt Ideal)) : res_main_v33 V0 = Cert.RefValue.sliceVec 0 slices_S2x128_S1x128_0_0 (V0 (Proc.devRef .tc main_arg20)) := rfl
theorem j_main_v35 (V0 : Valuation τ sig (Elt Ideal)) : res_main_v35 V0 = Cert.RefValue.sliceVec 0 slices_S2x128_S1x128_0_0 (V0 (Proc.devRef .tc main_arg21)) := rfl
theorem j_main_v41 (V0 : Valuation τ sig (Elt Ideal)) : res_main_v41 V0 = Cert.RefValue.normCol (V0 (Proc.devRef .tc main_arg2)) := rfl
theorem j_main_v48 (V0 : Valuation τ sig (Elt Ideal)) : res_main_v48 V0 = Cert.RefValue.normCol (V0 (Proc.devRef .tc main_arg3)) := rfl
theorem j_main_v56 (V0 : Valuation τ sig (Elt Ideal)) : res_main_v56 V0 = Cert.RefValue.reluE (res_main_v55 V0) := rfl
theorem j_main_v82 (V0 : Valuation τ sig (Elt Ideal)) : res_main_v82 V0 = Cert.RefValue.gnE (res_main_v58 V0) (res_main_v7 V0) (res_main_v9 V0) := rfl
theorem j_main_v83 (V0 : Valuation τ sig (Elt Ideal)) : res_main_v83 V0 = Cert.RefValue.reluE (res_main_v82 V0) := rfl
theorem j_main_v89 (V0 : Valuation τ sig (Elt Ideal)) : res_main_v89 V0 = Cert.RefValue.normCol (V0 (Proc.devRef .tc main_arg2)) := rfl
theorem j_main_v116 (V0 : Valuation τ sig (Elt Ideal)) : res_main_v116 V0 = Cert.RefValue.gnE (res_main_v92 V0) (res_main_v13 V0) (res_main_v15 V0) := rfl
theorem j_main_v117 (V0 : Valuation τ sig (Elt Ideal)) : res_main_v117 V0 = Cert.RefValue.reluE (res_main_v116 V0) := rfl
theorem j_main_v123 (V0 : Valuation τ sig (Elt Ideal)) : res_main_v123 V0 = Cert.RefValue.normCol (V0 (Proc.devRef .tc main_arg3)) := rfl
theorem j_main_v151 (V0 : Valuation τ sig (Elt Ideal)) : res_main_v151 V0 = Cert.RefValue.gnE (res_main_v127 V0) (res_main_v19 V0) (res_main_v21 V0) := rfl
theorem j_main_v152 (V0 : Valuation τ sig (Elt Ideal)) : res_main_v152 V0 = Cert.RefValue.reluE (res_main_v151 V0) := rfl
theorem j_main_v162 (V0 : Valuation τ sig (Elt Ideal)) : res_main_v162 V0 = Cert.RefValue.normCol (V0 (Proc.devRef .tc main_arg2)) := rfl
theorem j_main_v187 (V0 : Valuation τ sig (Elt Ideal)) : res_main_v187 V0 = Cert.RefValue.gnN (res_main_v163 V0) (res_main_v27 V0) (res_main_v29 V0) := rfl
theorem j_main_v188 (V0 : Valuation τ sig (Elt Ideal)) : res_main_v188 V0 = Cert.RefValue.lreluN (res_main_v187 V0) (res_main_cst_28 V0) := rfl
theorem j_main_v214 (V0 : Valuation τ sig (Elt Ideal)) : res_main_v214 V0 = Cert.RefValue.gnN (res_main_v190 V0) (res_main_v33 V0) (res_main_v35 V0) := rfl
theorem j_main_v216 (V0 : Valuation τ sig (Elt Ideal)) : res_main_v216 V0 = Cert.RefValue.lreluN (res_main_v215 V0) (res_main_cst_34 V0) := rfl
theorem j_main_v218 (V0 : Valuation τ sig (Elt Ideal)) : res_main_v218 V0 = Cert.RefValue.sliceM2 1 slices_S2x128x2_S1x128x2_1_0_0 (V0 (Proc.devRef .tc main_arg4)) := rfl
theorem j_main_v220 (V0 : Valuation τ sig (Elt Ideal)) : res_main_v220 V0 = Cert.RefValue.sliceVec 1 slices_S2x128_S1x128_1_0 (V0 (Proc.devRef .tc main_arg5)) := rfl
theorem j_main_v222 (V0 : Valuation τ sig (Elt Ideal)) : res_main_v222 V0 = Cert.RefValue.sliceM128 1 slices_S2x128x128_S1x128x128_1_0_0 (V0 (Proc.devRef .tc main_arg6)) := rfl
theorem j_main_v224 (V0 : Valuation τ sig (Elt Ideal)) : res_main_v224 V0 = Cert.RefValue.sliceVec 1 slices_S2x128_S1x128_1_0 (V0 (Proc.devRef .tc main_arg7)) := rfl
theorem j_main_v226 (V0 : Valuation τ sig (Elt Ideal)) : res_main_v226 V0 = Cert.RefValue.sliceVec 1 slices_S2x128_S1x128_1_0 (V0 (Proc.devRef .tc main_arg8)) := rfl
theorem j_main_v228 (V0 : Valuation τ sig (Elt Ideal)) : res_main_v228 V0 = Cert.RefValue.sliceM128 1 slices_S2x128x128_S1x128x128_1_0_0 (V0 (Proc.devRef .tc main_arg9)) := rfl
theorem j_main_v230 (V0 : Valuation τ sig (Elt Ideal)) : res_main_v230 V0 = Cert.RefValue.sliceVec 1 slices_S2x128_S1x128_1_0 (V0 (Proc.devRef .tc main_arg10)) := rfl
theorem j_main_v232 (V0 : Valuation τ sig (Elt Ideal)) : res_main_v232 V0 = Cert.RefValue.sliceVec 1 slices_S2x128_S1x128_1_0 (V0 (Proc.devRef .tc main_arg11)) := rfl
theorem j_main_v234 (V0 : Valuation τ sig (Elt Ideal)) : res_main_v234 V0 = Cert.RefValue.sliceM384 1 slices_S2x128x384_S1x128x384_1_0_0 (V0 (Proc.devRef .tc main_arg12)) := rfl
theorem j_main_v236 (V0 : Valuation τ sig (Elt Ideal)) : res_main_v236 V0 = Cert.RefValue.sliceVec 1 slices_S2x128_S1x128_1_0 (V0 (Proc.devRef .tc main_arg13)) := rfl
theorem j_main_v238 (V0 : Valuation τ sig (Elt Ideal)) : res_main_v238 V0 = Cert.RefValue.sliceVec 1 slices_S2x128_S1x128_1_0 (V0 (Proc.devRef .tc main_arg14)) := rfl
theorem j_main_v240 (V0 : Valuation τ sig (Elt Ideal)) : res_main_v240 V0 = Cert.RefValue.sliceM128 1 slices_S2x128x128_S1x128x128_1_0_0 (V0 (Proc.devRef .tc main_arg15)) := rfl
theorem j_main_v242 (V0 : Valuation τ sig (Elt Ideal)) : res_main_v242 V0 = Cert.RefValue.sliceM128 1 slices_S2x128x128_S1x128x128_1_0_0 (V0 (Proc.devRef .tc main_arg16)) := rfl
theorem j_main_v244 (V0 : Valuation τ sig (Elt Ideal)) : res_main_v244 V0 = Cert.RefValue.sliceVec 1 slices_S2x128_S1x128_1_0 (V0 (Proc.devRef .tc main_arg17)) := rfl
theorem j_main_v246 (V0 : Valuation τ sig (Elt Ideal)) : res_main_v246 V0 = Cert.RefValue.sliceVec 1 slices_S2x128_S1x128_1_0 (V0 (Proc.devRef .tc main_arg18)) := rfl
theorem j_main_v248 (V0 : Valuation τ sig (Elt Ideal)) : res_main_v248 V0 = Cert.RefValue.sliceM128 1 slices_S2x128x128_S1x128x128_1_0_0 (V0 (Proc.devRef .tc main_arg19)) := rfl
theorem j_main_v250 (V0 : Valuation τ sig (Elt Ideal)) : res_main_v250 V0 = Cert.RefValue.sliceVec 1 slices_S2x128_S1x128_1_0 (V0 (Proc.devRef .tc main_arg20)) := rfl
theorem j_main_v252 (V0 : Valuation τ sig (Elt Ideal)) : res_main_v252 V0 = Cert.RefValue.sliceVec 1 slices_S2x128_S1x128_1_0 (V0 (Proc.devRef .tc main_arg21)) := rfl
theorem j_main_v258 (V0 : Valuation τ sig (Elt Ideal)) : res_main_v258 V0 = Cert.RefValue.normCol (V0 (Proc.devRef .tc main_arg2)) := rfl
theorem j_main_v265 (V0 : Valuation τ sig (Elt Ideal)) : res_main_v265 V0 = Cert.RefValue.normCol (V0 (Proc.devRef .tc main_arg3)) := rfl
theorem j_main_v273 (V0 : Valuation τ sig (Elt Ideal)) : res_main_v273 V0 = Cert.RefValue.reluE (res_main_v272 V0) := rfl
theorem j_main_v299 (V0 : Valuation τ sig (Elt Ideal)) : res_main_v299 V0 = Cert.RefValue.gnE (res_main_v275 V0) (res_main_v224 V0) (res_main_v226 V0) := rfl
theorem j_main_v300 (V0 : Valuation τ sig (Elt Ideal)) : res_main_v300 V0 = Cert.RefValue.reluE (res_main_v299 V0) := rfl
theorem j_main_v306 (V0 : Valuation τ sig (Elt Ideal)) : res_main_v306 V0 = Cert.RefValue.normCol (V0 (Proc.devRef .tc main_arg2)) := rfl
theorem j_main_v333 (V0 : Valuation τ sig (Elt Ideal)) : res_main_v333 V0 = Cert.RefValue.gnE (res_main_v309 V0) (res_main_v230 V0) (res_main_v232 V0) := rfl
theorem j_main_v334 (V0 : Valuation τ sig (Elt Ideal)) : res_main_v334 V0 = Cert.RefValue.reluE (res_main_v333 V0) := rfl
theorem j_main_v340 (V0 : Valuation τ sig (Elt Ideal)) : res_main_v340 V0 = Cert.RefValue.normCol (V0 (Proc.devRef .tc main_arg3)) := rfl
theorem j_main_v368 (V0 : Valuation τ sig (Elt Ideal)) : res_main_v368 V0 = Cert.RefValue.gnE (res_main_v344 V0) (res_main_v236 V0) (res_main_v238 V0) := rfl
theorem j_main_v369 (V0 : Valuation τ sig (Elt Ideal)) : res_main_v369 V0 = Cert.RefValue.reluE (res_main_v368 V0) := rfl
theorem j_main_v379 (V0 : Valuation τ sig (Elt Ideal)) : res_main_v379 V0 = Cert.RefValue.normCol (V0 (Proc.devRef .tc main_arg2)) := rfl
theorem j_main_v404 (V0 : Valuation τ sig (Elt Ideal)) : res_main_v404 V0 = Cert.RefValue.gnN (res_main_v380 V0) (res_main_v244 V0) (res_main_v246 V0) := rfl
theorem j_main_v405 (V0 : Valuation τ sig (Elt Ideal)) : res_main_v405 V0 = Cert.RefValue.lreluN (res_main_v404 V0) (res_main_cst_65 V0) := rfl
theorem j_main_v431 (V0 : Valuation τ sig (Elt Ideal)) : res_main_v431 V0 = Cert.RefValue.gnN (res_main_v407 V0) (res_main_v250 V0) (res_main_v252 V0) := rfl
theorem j_main_v433 (V0 : Valuation τ sig (Elt Ideal)) : res_main_v433 V0 = Cert.RefValue.lreluN (res_main_v432 V0) (res_main_cst_71 V0) := rfl

set_option maxRecDepth 8192 in
set_option maxHeartbeats 4000000 in
/-- The result buffer's contents are the composed reference function of the argument buffers' contents. -/
theorem res_eq (V0 : Valuation τ sig (Elt Ideal)) : res_main_v433 V0 = Cert.RefValue.refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) := by
  simp only [j_main_v1, j_main_v3, j_main_v5, j_main_v7, j_main_v9, j_main_v11, j_main_v13, j_main_v15, j_main_v17, j_main_v19, j_main_v21, j_main_v23, j_main_v25, j_main_v27, j_main_v29, j_main_v31, j_main_v33, j_main_v35, j_main_v218, j_main_v220, j_main_v222, j_main_v224, j_main_v226, j_main_v228, j_main_v230, j_main_v232, j_main_v234, j_main_v236, j_main_v238, j_main_v240, j_main_v242, j_main_v244, j_main_v246, j_main_v248, j_main_v250, j_main_v252, j_main_v41, j_main_v48, j_main_v89, j_main_v123, j_main_v162, j_main_v258, j_main_v265, j_main_v306, j_main_v340, j_main_v379, j_main_v56, j_main_v83, j_main_v117, j_main_v152, j_main_v188, j_main_v216, j_main_v273, j_main_v300, j_main_v334, j_main_v369, j_main_v405, j_main_v433, j_main_v82, j_main_v116, j_main_v151, j_main_v187, j_main_v214, j_main_v299, j_main_v333, j_main_v368, j_main_v404, j_main_v431,
    res_main_v42, res_main_v49, res_main_v50, res_main_v51, res_main_v52, res_main_v53, res_main_v54, res_main_v55, res_main_v57, res_main_v58, res_main_v90, res_main_v91, res_main_v92, res_main_v124, res_main_v125, res_main_v126, res_main_v127, res_main_v153, res_main_v154, res_main_v155, res_main_v156, res_main_v163, res_main_cst_28, res_main_v189, res_main_v190, res_main_v215, res_main_cst_34, res_main_v259, res_main_v266, res_main_v267, res_main_v268, res_main_v269, res_main_v270, res_main_v271, res_main_v272, res_main_v274, res_main_v275, res_main_v307, res_main_v308, res_main_v309, res_main_v341, res_main_v342, res_main_v343, res_main_v344, res_main_v370, res_main_v371, res_main_v372, res_main_v373, res_main_v380, res_main_cst_65, res_main_v406, res_main_v407, res_main_v432, res_main_cst_71]
  rfl
end Cert.RefJoin

end
-- ==== Proof.RefJoin.lean ====
/-
  The reference's run with its result named: every weakly fair execution terminates with the result buffer at the
  composed reference function of the argument arrays as launched, and the argument arrays unchanged.
-/
import proofs.«121864_j48515950576209_1_alg».proof.Proof.RefVals
import proofs.«121864_j48515950576209_1_alg».proof.Proof.RefLeaf

set_option Elab.async false

noncomputable section

namespace Cert.RefJoin

open Cert.ReferenceIdeal Cert.ReferenceIdeal.Gen Idealize.ShloMosaic Idealize.ShloMosaic.TcCoe Idealize.SL.Sem Idealize.ShloMosaic.StableHlo
open Cert.RefRun

variable {F : FTy → Type} [FloatOps F]

/-- The fold of the operations at the result buffer is the composed reference function of the launch contents of
    the argument buffers. -/
theorem result_eq (m : (ℓ : Loc nD τ sig) → Buf (Elt Ideal) ℓ) (c : Dev nD) :
    after ops (launchContents m c) (Proc.devRef .tc main_v433)
      = Cert.RefValue.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  (result_res (launchContents m c)).trans (res_eq (launchContents m c))

/-- The run, its result stated as the composed reference function. -/
theorem run_value (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v433) = Cert.RefValue.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run _ _ _).mono (fun _ h c => ⟨((h c).1).trans (result_eq m c), (h c).2⟩) (Cert.RefRun.run m ρ)

end Cert.RefJoin

end
-- ==== Proof.Alg.lean ====
/-
  The algebraic conjunct: the idealized kernel and the idealized reference, run from memories that agree on the
  argument arrays and with no edge's target index negative, end at equal results — the specification's `result`.
  The reference's half is its run joined to its operations' composed term.
-/
import proofs.«121864_j48515950576209_1_alg».proof.Proof.AlgOf
import proofs.«121864_j48515950576209_1_alg».proof.Proof.RefJoin

set_option maxRecDepth 16384
set_option maxHeartbeats 4000000

noncomputable section

namespace Cert.Proof.Alg

open Idealize.ShloMosaic Idealize.SL.Sem

theorem algebraic : @Cert.algebraic_KernelIdeal_ReferenceIdeal Cert.KernelIdeal.Gen.facts Cert.ReferenceIdeal.Gen.facts
    Cert.Pre_finite_inputs.Gen.facts := by
  letI : Cert.ReferenceIdeal.Facts := Cert.ReferenceIdeal.Gen.facts
  exact Cert.Proof.AlgOf.algebraic_of (fun m' ρ' => Cert.RefJoin.run_value m' ρ')

end Cert.Proof.Alg

end
-- ==== Proof.lean ====
/-
  The certificate's claim: the three programs run to their ends without a fault and leave their argument arrays as
  launched (the kernel's two frames by the launch over its four regions; the reference's by its run of host
  operations), the idealized kernel is the kernel's sanctioned idealization with an empty ledger, and the idealized
  kernel and the idealized reference end at equal results: two stacked graph-attention blocks over the edge list,
  the kernel's padded and scattered through a discarded row, equal to the reference's when no target index is negative.
-/
import proofs.«121864_j48515950576209_1_alg».proof.Defs
import proofs.«121864_j48515950576209_1_alg».proof.Proof.Gen.Kernel
import proofs.«121864_j48515950576209_1_alg».proof.Proof.Gen.Kernel.Frame
import proofs.«121864_j48515950576209_1_alg».proof.Proof.Gen.KernelIdeal
import proofs.«121864_j48515950576209_1_alg».proof.Proof.Gen.KernelIdeal.Frame
import proofs.«121864_j48515950576209_1_alg».proof.Proof.Gen.ReferenceIdeal
import proofs.«121864_j48515950576209_1_alg».proof.Proof.Gen.Pre_finite_inputs
import proofs.«121864_j48515950576209_1_alg».proof.Proof.RefRun
import proofs.«121864_j48515950576209_1_alg».proof.Proof.Alg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.RefRun.run (F := Ideal) m ρ),
  trivial,
  Cert.Proof.Alg.algebraic⟩

end Cert.Proof

end
